-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v51)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v51) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v69) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1600000 : Shape := ⟨2, ![2, 1600000]⟩
abbrev S64x64 : Shape := ⟨2, ![64, 64]⟩
abbrev S64 : Shape := ⟨1, ![64]⟩
abbrev S64x128 : Shape := ⟨2, ![64, 128]⟩
abbrev S128 : Shape := ⟨1, ![128]⟩
abbrev S128x64 : Shape := ⟨2, ![128, 64]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S64x128 : S_.BroadcastsInDim S64x128 (![] : Fin 0 → Fin S64x128.rank)
  reducesTo_S64x128_S_d0_1 : S64x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_

variable [Facts]

def fn_part3 {F : FTy → Type} [FloatOps F] (main_arg12 : FVec F S64 .f32) (main_v48 : IVec S_ 1) (main_v49 : FVec F S64 .f32) (main_v50 : FVec F S64 .f32) : IVec S_ 1 :=
  let main_v51 : IVec S64 1 := cmpf .olt main_v49 main_v50
  let main_c_19 : IVec S_ 1 := constantI S_ 1 1#1
  let main_v52 : IVec S_ 1 := (fun x v => Host.reduce IntOp.andi x v reducesTo_S64_S_d0 h_S_) main_v51 main_c_19
  let main_v53 : IVec S_ 1 := andi main_v48 main_v52
  let main_v54 : FVec F S64 .f32 := Host.absf main_arg12
  let main_cst_20 : FVec F S_ .f32 := constant S_ .f32 0x7F800000#32
  let main_v55 : FVec F S64 .f32 := broadcastInDim S64 ![] bcast_S_S64 main_cst_20
  let main_v56 : IVec S64 1 := cmpf .olt main_v54 main_v55
  let main_c_21 : IVec S_ 1 := constantI S_ 1 1#1
  let main_v57 : IVec S_ 1 := (fun x v => Host.reduce IntOp.andi x v reducesTo_S64_S_d0 h_S_) main_v56 main_c_21
  let main_v58 : IVec S_ 1 := andi main_v53 main_v57
  main_v58

def fn_part2 {F : FTy → Type} [FloatOps F] (main_arg8 : FVec F S128 .f32) (main_arg9 : FVec F S128x64 .f32) (main_arg10 : FVec F S64 .f32) (main_arg11 : FVec F S64 .f32) (main_arg12 : FVec F S64 .f32) (main_v33 : IVec S_ 1) : IVec S_ 1 :=
  let main_v34 : FVec F S128 .f32 := Host.absf main_arg8
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x64 .f32 := Host.absf main_arg9
  let main_cst_14 : FVec F S_ .f32 := constant S_ .f32 0x7F800000#32
  let main_v40 : FVec F S128x64 .f32 := broadcastInDim S128x64 ![] bcast_S_S128x64 main_cst_14
  let main_v41 : IVec S128x64 1 := cmpf .olt main_v39 main_v40
  let main_c_15 : IVec S_ 1 := constantI S_ 1 1#1
  let main_v42 : IVec S_ 1 := (fun x v => Host.reduce IntOp.andi x v reducesTo_S128x64_S_d0_1 h_S_) main_v41 main_c_15
  let main_v43 : IVec S_ 1 := andi main_v38 main_v42
  let main_v44 : FVec F S64 .f32 := Host.absf main_arg10
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  let main_v49 : FVec F S64 .f32 := Host.absf main_arg11
  let main_cst_18 : FVec F S_ .f32 := constant S_ .f32 0x7F800000#32
  let main_v50 : FVec F S64 .f32 := broadcastInDim S64 ![] bcast_S_S64 main_cst_18
  fn_part3 (F := F) main_arg12 main_v48 main_v49 main_v50

def fn_part1 {F : FTy → Type} [FloatOps F] (main_arg5 : FVec F S64 .f32) (main_arg6 : FVec F S64 .f32) (main_arg7 : FVec F S64x128 .f32) (main_arg8 : FVec F S128 .f32) (main_arg9 : FVec F S128x64 .f32) (main_arg10 : FVec F S64 .f32) (main_arg11 : FVec F S64 .f32) (main_arg12 : FVec F S64 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64 .f32 := Host.absf main_arg6
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x128 .f32 := Host.absf main_arg7
  let main_cst_10 : FVec F S_ .f32 := constant S_ .f32 0x7F800000#32
  let main_v30 : FVec F S64x128 .f32 := broadcastInDim S64x128 ![] bcast_S_S64x128 main_cst_10
  let main_v31 : IVec S64x128 1 := cmpf .olt main_v29 main_v30
  let main_c_11 : IVec S_ 1 := constantI S_ 1 1#1
  let main_v32 : IVec S_ 1 := (fun x v => Host.reduce IntOp.andi x v reducesTo_S64x128_S_d0_1 h_S_) main_v31 main_c_11
  let main_v33 : IVec S_ 1 := andi main_v28 main_v32
  fn_part2 (F := F) main_arg8 main_arg9 main_arg10 main_arg11 main_arg12 main_v33

def fn {F : FTy → Type} [FloatOps F] (main_arg0 : FVec F S100000x64 .f32) (main_arg1 : IVec S2x1600000 32) (main_arg2 : FVec F S64x64 .f32) (main_arg3 : FVec F S64x64 .f32) (main_arg4 : FVec F S64 .f32) (main_arg5 : FVec F S64 .f32) (main_arg6 : FVec F S64 .f32) (main_arg7 : FVec F S64x128 .f32) (main_arg8 : FVec F S128 .f32) (main_arg9 : FVec F S128x64 .f32) (main_arg10 : FVec F S64 .f32) (main_arg11 : FVec F S64 .f32) (main_arg12 : FVec F S64 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x64 .f32 := Host.absf main_arg2
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64x64 .f32 := Host.absf main_arg3
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  let main_v14 : FVec F S64 .f32 := Host.absf main_arg4
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg5 main_arg6 main_arg7 main_arg8 main_arg9 main_arg10 main_arg11 main_arg12 main_v13 main_v16
-- ==== Kernel.lean ====
abbrev S100000x64 : Shape := ⟨2, ![100000, 64]⟩
abbrev S2x1600000 : Shape := ⟨2, ![2, 1600000]⟩
abbrev S64x64 : Shape := ⟨2, ![64, 64]⟩
abbrev S64 : Shape := ⟨1, ![64]⟩
abbrev S64x128 : Shape := ⟨2, ![64, 128]⟩
abbrev S128 : Shape := ⟨1, ![128]⟩
abbrev S128x64 : Shape := ⟨2, ![128, 64]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x64 : Shape := ⟨2, ![1600000, 64]⟩
abbrev S1x64 : Shape := ⟨2, ![1, 64]⟩
abbrev S1x128 : Shape := ⟨2, ![1, 128]⟩
abbrev S5000x64 : Shape := ⟨2, ![5000, 64]⟩
abbrev S2000x64 : Shape := ⟨2, ![2000, 64]⟩
abbrev S2000x128 : Shape := ⟨2, ![2000, 128]⟩
abbrev S10000x64 : Shape := ⟨2, ![10000, 64]⟩

abbrev nBuf : Space → Nat
  | .hbm => 80
  | .vmem => 35
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S64x64, .f32⟩
  | .hbm, ⟨3, _⟩ => ⟨S64x64, .f32⟩
  | .hbm, ⟨4, _⟩ => ⟨S64, .f32⟩
  | .hbm, ⟨5, _⟩ => ⟨S64, .f32⟩
  | .hbm, ⟨6, _⟩ => ⟨S64, .f32⟩
  | .hbm, ⟨7, _⟩ => ⟨S64x128, .f32⟩
  | .hbm, ⟨8, _⟩ => ⟨S128, .f32⟩
  | .hbm, ⟨9, _⟩ => ⟨S128x64, .f32⟩
  | .hbm, ⟨10, _⟩ => ⟨S64, .f32⟩
  | .hbm, ⟨11, _⟩ => ⟨S64, .f32⟩
  | .hbm, ⟨12, _⟩ => ⟨S64, .f32⟩
  | .hbm, ⟨13, _⟩ => ⟨S1x1600000, .i32⟩
  | .hbm, ⟨14, _⟩ => ⟨S1600000, .i32⟩
  | .hbm, ⟨15, _⟩ => ⟨S1x1600000, .i32⟩
  | .hbm, ⟨16, _⟩ => ⟨S1600000, .i32⟩
  | .hbm, ⟨17, _⟩ => ⟨S_, .i32⟩
  | .hbm, ⟨18, _⟩ => ⟨S1600000, .i32⟩
  | .hbm, ⟨19, _⟩ => ⟨S1600000, .i1⟩
  | .hbm, ⟨20, _⟩ => ⟨S_, .i32⟩
  | .hbm, ⟨21, _⟩ => ⟨S1600000, .i32⟩
  | .hbm, ⟨22, _⟩ => ⟨S1600000, .i32⟩
  | .hbm, ⟨23, _⟩ => ⟨S1600000, .i32⟩
  | .hbm, ⟨24, _⟩ => ⟨S1600000x1, .i32⟩
  | .hbm, ⟨25, _⟩ => ⟨S1600000x64, .f32⟩
  | .hbm, ⟨26, _⟩ => ⟨S_, .f32⟩
  | .hbm, ⟨27, _⟩ => ⟨S100000x64, .f32⟩
  | .hbm, ⟨28, _⟩ => ⟨S1600000x1, .i32⟩
  | .hbm, ⟨29, _⟩ => ⟨S100000x64, .f32⟩
  | .hbm, ⟨30, _⟩ => ⟨S1x64, .f32⟩
  | .hbm, ⟨31, _⟩ => ⟨S1x128, .f32⟩
  | .hbm, ⟨32, _⟩ => ⟨S1x64, .f32⟩
  | .hbm, ⟨33, _⟩ => ⟨S100000x64, .f32⟩
  | .hbm, ⟨34, _⟩ => ⟨S1x64, .f32⟩
  | .hbm, ⟨35, _⟩ => ⟨S1x64, .f32⟩
  | .hbm, ⟨36, _⟩ => ⟨S_, .f32⟩
  | .hbm, ⟨37, _⟩ => ⟨S1x64, .f32⟩
  | .hbm, ⟨38, _⟩ => ⟨S1x64, .f32⟩
  | .hbm, ⟨39, _⟩ => ⟨S_, .f32⟩
  | .hbm, ⟨40, _⟩ => ⟨S1x64, .f32⟩
  | .hbm, ⟨41, _⟩ => ⟨S1x64, .f32⟩
  | .hbm, ⟨42, _⟩ => ⟨S1x64, .f32⟩
  | .hbm, ⟨43, _⟩ => ⟨S1x64, .f32⟩
  | .hbm, ⟨44, _⟩ => ⟨S_, .f32⟩
  | .hbm, ⟨45, _⟩ => ⟨S1x64, .f32⟩
  | .hbm, ⟨46, _⟩ => ⟨S1x64, .f32⟩
  | .hbm, ⟨47, _⟩ => ⟨S1x64, .f32⟩
  | .hbm, ⟨48, _⟩ => ⟨S_, .f32⟩
  | .hbm, ⟨49, _⟩ => ⟨S1x64, .f32⟩
  | .hbm, ⟨50, _⟩ => ⟨S1x64, .f32⟩
  | .hbm, ⟨51, _⟩ => ⟨S1x64, .f32⟩
  | .hbm, ⟨52, _⟩ => ⟨S1x64, .f32⟩
  | .hbm, ⟨53, _⟩ => ⟨S1x64, .f32⟩
  | .hbm, ⟨54, _⟩ => ⟨S1x64, .f32⟩
  | .hbm, ⟨55, _⟩ => ⟨S1x64, .f32⟩
  | .hbm, ⟨56, _⟩ => ⟨S100000x64, .f32⟩
  | .hbm, ⟨57, _⟩ => ⟨S1x64, .f32⟩
  | .hbm, ⟨58, _⟩ => ⟨S1x64, .f32⟩
  | .hbm, ⟨59, _⟩ => ⟨S_, .f32⟩
  | .hbm, ⟨60, _⟩ => ⟨S1x64, .f32⟩
  | .hbm, ⟨61, _⟩ => ⟨S1x64, .f32⟩
  | .hbm, ⟨62, _⟩ => ⟨S_, .f32⟩
  | .hbm, ⟨63, _⟩ => ⟨S1x64, .f32⟩
  | .hbm, ⟨64, _⟩ => ⟨S1x64, .f32⟩
  | .hbm, ⟨65, _⟩ => ⟨S1x64, .f32⟩
  | .hbm, ⟨66, _⟩ => ⟨S1x64, .f32⟩
  | .hbm, ⟨67, _⟩ => ⟨S_, .f32⟩
  | .hbm, ⟨68, _⟩ => ⟨S1x64, .f32⟩
  | .hbm, ⟨69, _⟩ => ⟨S1x64, .f32⟩
  | .hbm, ⟨70, _⟩ => ⟨S1x64, .f32⟩
  | .hbm, ⟨71, _⟩ => ⟨S_, .f32⟩
  | .hbm, ⟨72, _⟩ => ⟨S1x64, .f32⟩
  | .hbm, ⟨73, _⟩ => ⟨S1x64, .f32⟩
  | .hbm, ⟨74, _⟩ => ⟨S1x64, .f32⟩
  | .hbm, ⟨75, _⟩ => ⟨S1x64, .f32⟩
  | .hbm, ⟨76, _⟩ => ⟨S1x64, .f32⟩
  | .hbm, ⟨77, _⟩ => ⟨S1x64, .f32⟩
  | .hbm, ⟨78, _⟩ => ⟨S1x64, .f32⟩
  | .hbm, ⟨79, _⟩ => ⟨S100000x64, .f32⟩
  | .local _ .vmem, ⟨0, _⟩ => ⟨S5000x64, .f32⟩
  | .local _ .vmem, ⟨1, _⟩ => ⟨S5000x64, .f32⟩
  | .local _ .vmem, ⟨2, _⟩ => ⟨S5000x64, .f32⟩
  | .local _ .vmem, ⟨3, _⟩ => ⟨S5000x64, .f32⟩
  | .local _ .vmem, ⟨4, _⟩ => ⟨S64x64, .f32⟩
  | .local _ .vmem, ⟨5, _⟩ => ⟨S64x64, .f32⟩
  | .local _ .vmem, ⟨6, _⟩ => ⟨S1x64, .f32⟩
  | .local _ .vmem, ⟨7, _⟩ => ⟨S5000x64, .f32⟩
  | .local _ .vmem, ⟨8, _⟩ => ⟨S5000x64, .f32⟩
  | .local _ .vmem, ⟨9, _⟩ => ⟨S1x64, .f32⟩
  | .local _ .vmem, ⟨10, _⟩ => ⟨S1x64, .f32⟩
  | .local _ .vmem, ⟨11, _⟩ => ⟨S1x64, .f32⟩
  | .local _ .vmem, ⟨12, _⟩ => ⟨S1x64, .f32⟩
  | .local _ .vmem, ⟨13, _⟩ => ⟨S2000x64, .f32⟩
  | .local _ .vmem, ⟨14, _⟩ => ⟨S2000x64, .f32⟩
  | .local _ .vmem, ⟨15, _⟩ => ⟨S2000x64, .f32⟩
  | .local _ .vmem, ⟨16, _⟩ => ⟨S2000x64, .f32⟩
  | .local _ .vmem, ⟨17, _⟩ => ⟨S1x64, .f32⟩
  | .local _ .vmem, ⟨18, _⟩ => ⟨S1x64, .f32⟩
  | .local _ .vmem, ⟨19, _⟩ => ⟨S64x128, .f32⟩
  | .local _ .vmem, ⟨20, _⟩ => ⟨S1x128, .f32⟩
  | .local _ .vmem, ⟨21, _⟩ => ⟨S128x64, .f32⟩
  | .local _ .vmem, ⟨22, _⟩ => ⟨S1x64, .f32⟩
  | .local _ .vmem, ⟨23, _⟩ => ⟨S2000x64, .f32⟩
  | .local _ .vmem, ⟨24, _⟩ => ⟨S2000x64, .f32⟩
  | .local _ .vmem, ⟨25, _⟩ => ⟨S1x64, .f32⟩
  | .local _ .vmem, ⟨26, _⟩ => ⟨S1x64, .f32⟩
  | .local _ .vmem, ⟨27, _⟩ => ⟨S1x64, .f32⟩
  | .local _ .vmem, ⟨28, _⟩ => ⟨S1x64, .f32⟩
  | .local _ .vmem, ⟨29, _⟩ => ⟨S10000x64, .f32⟩
  | .local _ .vmem, ⟨30, _⟩ => ⟨S10000x64, .f32⟩
  | .local _ .vmem, ⟨31, _⟩ => ⟨S1x64, .f32⟩
  | .local _ .vmem, ⟨32, _⟩ => ⟨S1x64, .f32⟩
  | .local _ .vmem, ⟨33, _⟩ => ⟨S10000x64, .f32⟩
  | .local _ .vmem, ⟨34, _⟩ => ⟨S10000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | _, _ => false

abbrev semScoped : Fin 0 → Bool
  | ⟨_, h⟩ => absurd h (Nat.not_lt_zero _)

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTc nBuf bufTy 0 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_c : Ref sig .tc := ⟨.hbm, 17, rfl⟩
abbrev main_v4 : Ref sig .tc := ⟨.hbm, 18, rfl⟩
abbrev main_v5 : Ref sig .tc := ⟨.hbm, 19, rfl⟩
abbrev main_c_0 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_cst : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17_0 : Ref sig .tc := ⟨.hbm, 33, rfl⟩
abbrev main_v17_1 : Ref sig .tc := ⟨.hbm, 34, rfl⟩
abbrev main_v17_2 : Ref sig .tc := ⟨.hbm, 35, rfl⟩
abbrev main_cst_1 : Ref sig .tc := ⟨.hbm, 36, rfl⟩
abbrev main_v18 : Ref sig .tc := ⟨.hbm, 37, rfl⟩
abbrev main_v19 : Ref sig .tc := ⟨.hbm, 38, rfl⟩
abbrev main_cst_2 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_cst_3 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_cst_4 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34_0 : Ref sig .tc := ⟨.hbm, 56, rfl⟩
abbrev main_v34_1 : Ref sig .tc := ⟨.hbm, 57, rfl⟩
abbrev main_v34_2 : Ref sig .tc := ⟨.hbm, 58, rfl⟩
abbrev main_cst_5 : Ref sig .tc := ⟨.hbm, 59, rfl⟩
abbrev main_v35 : Ref sig .tc := ⟨.hbm, 60, rfl⟩
abbrev main_v36 : Ref sig .tc := ⟨.hbm, 61, rfl⟩
abbrev main_cst_6 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_cst_7 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_cst_8 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg7_0 : Ref sig .tc := ⟨.vmem, 10, rfl⟩
abbrev cc0_scratch0 : Ref sig .tc := ⟨.vmem, 11, rfl⟩
abbrev cc0_scratch1 : Ref sig .tc := ⟨.vmem, 12, rfl⟩
abbrev cc1_stg0_0 : Ref sig .tc := ⟨.vmem, 13, rfl⟩
abbrev cc1_stg0_1 : Ref sig .tc := ⟨.vmem, 14, rfl⟩
abbrev cc1_stg1_0 : Ref sig .tc := ⟨.vmem, 15, rfl⟩
abbrev cc1_stg1_1 : Ref sig .tc := ⟨.vmem, 16, rfl⟩
abbrev cc1_stg2_0 : Ref sig .tc := ⟨.vmem, 17, rfl⟩
abbrev cc1_stg3_0 : Ref sig .tc := ⟨.vmem, 18, rfl⟩
abbrev cc1_stg4_0 : Ref sig .tc := ⟨.vmem, 19, rfl⟩
abbrev cc1_stg5_0 : Ref sig .tc := ⟨.vmem, 20, rfl⟩
abbrev cc1_stg6_0 : Ref sig .tc := ⟨.vmem, 21, rfl⟩
abbrev cc1_stg7_0 : Ref sig .tc := ⟨.vmem, 22, rfl⟩
abbrev cc1_stg8_0 : Ref sig .tc := ⟨.vmem, 23, rfl⟩
abbrev cc1_stg8_1 : Ref sig .tc := ⟨.vmem, 24, rfl⟩
abbrev cc1_stg9_0 : Ref sig .tc := ⟨.vmem, 25, rfl⟩
abbrev cc1_stg10_0 : Ref sig .tc := ⟨.vmem, 26, rfl⟩
abbrev cc1_scratch0 : Ref sig .tc := ⟨.vmem, 27, rfl⟩
abbrev cc1_scratch1 : Ref sig .tc := ⟨.vmem, 28, rfl⟩
abbrev cc2_stg0_0 : Ref sig .tc := ⟨.vmem, 29, rfl⟩
abbrev cc2_stg0_1 : Ref sig .tc := ⟨.vmem, 30, rfl⟩
abbrev cc2_stg1_0 : Ref sig .tc := ⟨.vmem, 31, rfl⟩
abbrev cc2_stg2_0 : Ref sig .tc := ⟨.vmem, 32, rfl⟩
abbrev cc2_stg3_0 : Ref sig .tc := ⟨.vmem, 33, rfl⟩
abbrev cc2_stg3_1 : Ref sig .tc := ⟨.vmem, 34, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem7_0 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem3_0 : DmaSem sig := 16
abbrev cc1_sem4_0 : DmaSem sig := 17
abbrev cc1_sem5_0 : DmaSem sig := 18
abbrev cc1_sem6_0 : DmaSem sig := 19
abbrev cc1_sem7_0 : DmaSem sig := 20
abbrev cc1_sem8_0 : DmaSem sig := 21
abbrev cc1_sem8_1 : DmaSem sig := 22
abbrev cc1_sem9_0 : DmaSem sig := 23
abbrev cc1_sem10_0 : DmaSem sig := 24
abbrev cc2_sem0_0 : DmaSem sig := 25
abbrev cc2_sem0_1 : DmaSem sig := 26
abbrev cc2_sem1_0 : DmaSem sig := 27
abbrev cc2_sem2_0 : DmaSem sig := 28
abbrev cc2_sem3_0 : DmaSem sig := 29
abbrev cc2_sem3_1 : DmaSem sig := 30

abbrev nD : Nat := 1
abbrev τ : Topo := Topo.v7x

variable {F : FTy → Type} [FloatOps F]

abbrev grid0 : Pipeline.Grid := ⟨1, ![20], ![false]⟩

def k0_cond2 (i : grid0.Coords) : BitVec 1 :=
  let arg0 : BitVec 32 := BitVec.ofNat 32 (i 0).val
  let c19_i32 : BitVec 32 := 19#32
  let v35 : BitVec 1 := Scalar.cmpi .eq arg0 c19_i32
  let v36 : BitVec 32 := Scalar.extui v35
  let c0_i32_23 : BitVec 32 := 0#32
  let v37 : BitVec 1 := Scalar.cmpi .ne v36 c0_i32_23
  v37

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev grid1 : Pipeline.Grid := ⟨1, ![50], ![false]⟩

def k1_cond2 (i : grid1.Coords) : BitVec 1 :=
  let arg0 : BitVec 32 := BitVec.ofNat 32 (i 0).val
  let c49_i32 : BitVec 32 := 49#32
  let v52 : BitVec 1 := Scalar.cmpi .eq arg0 c49_i32
  let v53 : BitVec 32 := Scalar.extui v52
  let c0_i32_31 : BitVec 32 := 0#32
  let v54 : BitVec 1 := Scalar.cmpi .ne v53 c0_i32_31
  v54

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S2000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S128x64 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x64 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 2 → Memref sig .tc .vmem S2000x64 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev stage1_9 : Fin 1 → Memref sig .tc .vmem S1x64 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 1 → Memref sig .tc .vmem S1x64 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S10000x64 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x64 : S_.BroadcastsInDim S100000x64 (![] : Fin 0 → Fin S100000x64.rank)
  shapeCasts_S64_S1x64 : S64.ShapeCasts S1x64
  shapeCasts_S128_S1x128 : S128.ShapeCasts S1x128
  inb_S1x64_S1x64_0_0 : ∀ a, (![0, 0] : Fin 2 → Nat) a + S1x64.size a ≤ S1x64.size a
  h_S1x64 : 0 < S1x64.numel
  shapeCasts_S1x64_S1x64 : S1x64.ShapeCasts S1x64
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  broadcasts_S1x64_S5000x64 : S1x64.Broadcasts S5000x64
  reduces_S5000x64_S64 : S5000x64.Reduces [0] S64
  bcast_S_S1x64 : S_.BroadcastsInDim S1x64 (![] : Fin 0 → Fin S1x64.rank)
  inb_S2000x64_S2000x64_0_0 : ∀ a, (![0, 0] : Fin 2 → Nat) a + S2000x64.size a ≤ S2000x64.size a
  h_S2000x64 : 0 < S2000x64.numel
  shapeCasts_S2000x64_S2000x64 : S2000x64.ShapeCasts S2000x64
  broadcasts_S1x64_S2000x64 : S1x64.Broadcasts S2000x64
  inb_S64x128_S64x128_0_0 : ∀ a, (![0, 0] : Fin 2 → Nat) a + S64x128.size a ≤ S64x128.size a
  h_S64x128 : 0 < S64x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  inb_S128x64_S128x64_0_0 : ∀ a, (![0, 0] : Fin 2 → Nat) a + S128x64.size a ≤ S128x64.size a
  h_S128x64 : 0 < S128x64.numel
  reduces_S2000x64_S64 : S2000x64.Reduces [0] S64
  inb_S10000x64_S10000x64_0_0 : ∀ a, (![0, 0] : Fin 2 → Nat) a + S10000x64.size a ≤ S10000x64.size a
  h_S10000x64 : 0 < S10000x64.numel
  shapeCasts_S10000x64_S10000x64 : S10000x64.ShapeCasts S10000x64
  broadcasts_S1x64_S10000x64 : S1x64.Broadcasts S10000x64
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S5000x64_S64x64_S5000x64_1_0_0_1_n_n_wf : DotDims.WF S5000x64 S64x64 S5000x64 [1] [0] [0] [1] [] []
  dot_S2000x64_S64x128_S2000x128_1_0_0_1_n_n_wf : DotDims.WF S2000x64 S64x128 S2000x128 [1] [0] [0] [1] [] []
  dot_S2000x128_S128x64_S2000x64_1_0_0_1_n_n_wf : DotDims.WF S2000x128 S128x64 S2000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S100000x64.size a
  hwx0_0 : ∀ i : grid0.Coords, EltTy.bits .f32 = 32 ∨ (Rect.block (s := S100000x64) S5000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x64.size a ≤ S100000x64.size a
  hwx0_1 : ∀ i : grid0.Coords, EltTy.bits .f32 = 32 ∨ (Rect.block (s := S100000x64) S5000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x64.size a ≤ S64x64.size a
  hwx0_2 : ∀ i : grid0.Coords, EltTy.bits .f32 = 32 ∨ (Rect.block (s := S64x64) S64x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x64.size a ≤ S64x64.size a
  hwx0_3 : ∀ i : grid0.Coords, EltTy.bits .f32 = 32 ∨ (Rect.block (s := S64x64) S64x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x64.size a ≤ S100000x64.size a
  hwx0_5 : ∀ i : grid0.Coords, EltTy.bits .f32 = 32 ∨ (Rect.block (s := S100000x64) S5000x64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x64.size a ≤ S1x64.size a
  hwx0_6 : ∀ i : grid0.Coords, EltTy.bits .f32 = 32 ∨ (Rect.block (s := S1x64) S1x64.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x64.size a ≤ S1x64.size a
  hwx0_7 : ∀ i : grid0.Coords, EltTy.bits .f32 = 32 ∨ (Rect.block (s := S1x64) S1x64.size (cc0_transform_7 i) (hinb0_7 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x64.size a ≤ S100000x64.size a
  hwx1_0 : ∀ i : grid1.Coords, EltTy.bits .f32 = 32 ∨ (Rect.block (s := S100000x64) S2000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x64.size a ≤ S100000x64.size a
  hwx1_1 : ∀ i : grid1.Coords, EltTy.bits .f32 = 32 ∨ (Rect.block (s := S100000x64) S2000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64x128.size a ≤ S64x128.size a
  hwx1_4 : ∀ i : grid1.Coords, EltTy.bits .f32 = 32 ∨ (Rect.block (s := S64x128) S64x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S128x64.size a ≤ S128x64.size a
  hwx1_6 : ∀ i : grid1.Coords, EltTy.bits .f32 = 32 ∨ (Rect.block (s := S128x64) S128x64.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x64.size a ≤ S1x64.size a
  hwx1_7 : ∀ i : grid1.Coords, EltTy.bits .f32 = 32 ∨ (Rect.block (s := S1x64) S1x64.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S2000x64.size a ≤ S100000x64.size a
  hwx1_8 : ∀ i : grid1.Coords, EltTy.bits .f32 = 32 ∨ (Rect.block (s := S100000x64) S2000x64.size (cc1_transform_8 i) (hinb1_8 i)).WholeWords (EltTy.packing .f32)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S1x64.size a ≤ S1x64.size a
  hwx1_9 : ∀ i : grid1.Coords, EltTy.bits .f32 = 32 ∨ (Rect.block (s := S1x64) S1x64.size (cc1_transform_9 i) (hinb1_9 i)).WholeWords (EltTy.packing .f32)
  hstage1_10 : ∀ j, (stage1_10 j).IsWhole
  nbuf1_10 : grid1.bufCount reads1_10 true = 1
  hreads1_10 : ∀ i i' : grid1.Coords, (∀ a, reads1_10 a = true → i a = i' a) → cc1_transform_10 i = cc1_transform_10 i'
  hinb1_10 : ∀ (i : grid1.Coords) a, (cc1_transform_10 i a + 1) * S1x64.size a ≤ S1x64.size a
  hwx1_10 : ∀ i : grid1.Coords, EltTy.bits .f32 = 32 ∨ (Rect.block (s := S1x64) S1x64.size (cc1_transform_10 i) (hinb1_10 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x64.size a ≤ S100000x64.size a
  hwx2_0 : ∀ i : grid2.Coords, EltTy.bits .f32 = 32 ∨ (Rect.block (s := S100000x64) S10000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x64.size a ≤ S1x64.size a
  hwx2_1 : ∀ i : grid2.Coords, EltTy.bits .f32 = 32 ∨ (Rect.block (s := S1x64) S1x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x64.size a ≤ S1x64.size a
  hwx2_2 : ∀ i : grid2.Coords, EltTy.bits .f32 = 32 ∨ (Rect.block (s := S1x64) S1x64.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S10000x64.size a ≤ S100000x64.size a
  hwx2_3 : ∀ i : grid2.Coords, EltTy.bits .f32 = 32 ∨ (Rect.block (s := S100000x64) S10000x64.size (cc2_transform_3 i) (hinb2_3 i)).WholeWords (EltTy.packing .f32)

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def dot_S2000x64_S64x128_S2000x128_1_0_0_1_n_n : DotDims S2000x64 S64x128 S2000x128 where
  lhsContracting := [1]
  rhsContracting := [0]
  lhsNonContracting := [0]
  rhsNonContracting := [1]
  lhsBatch := []
  rhsBatch := []
  wf := dot_S2000x64_S64x128_S2000x128_1_0_0_1_n_n_wf
def dot_S2000x128_S128x64_S2000x64_1_0_0_1_n_n : DotDims S2000x128 S128x64 S2000x64 where
  lhsContracting := [1]
  rhsContracting := [0]
  lhsNonContracting := [0]
  rhsNonContracting := [1]
  lhsBatch := []
  rhsBatch := []
  wf := dot_S2000x128_S128x64_S2000x64_1_0_0_1_n_n_wf

abbrev win0_0 : Pipeline.Window sig grid0 :=
  Pipeline.Window.ofSpec (Memref.whole main_arg0) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S5000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S64x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v14) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v17_0) S5000x64.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v17_1) S1x64.size cc0_transform_6 reads0_6 true true 1 stage0_6 sem0_6
    hrank0 hreads0_6 hinb0_6 nbuf0_6 (Memref.isWhole_whole _) hwx0_6 hstage0_6

abbrev win0_7 : Pipeline.Window sig grid0 :=
  Pipeline.Window.ofSpec (Memref.whole main_v17_2) S1x64.size cc0_transform_7 reads0_7 true true 1 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev idle0 : Fin 8 → grid0.Coords → Bool := fun | 0 => fun _ => false | 1 => fun _ => false | 2 => fun _ => false | 3 => fun _ => false | 4 => fun _ => false | 5 => fun _ => false | 6 => fun i => !(k0_cond2 i == 1#1) | 7 => fun i => !(k0_cond2 i == 1#1) | ⟨_ + 8, h⟩ => absurd h (Nat.not_lt.2 (Nat.le_add_left _ _))

abbrev win1_0 : Pipeline.Window sig grid1 :=
  Pipeline.Window.ofSpec (Memref.whole main_v17_0) S2000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg0) S2000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v30) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v33) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg7) S64x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v15) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg9) S128x64.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v16) S1x64.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v34_0) S2000x64.size cc1_transform_8 reads1_8 true false 2 stage1_8 sem1_8
    hrank1 hreads1_8 hinb1_8 nbuf1_8 (Memref.isWhole_whole _) hwx1_8 hstage1_8

abbrev win1_9 : Pipeline.Window sig grid1 :=
  Pipeline.Window.ofSpec (Memref.whole main_v34_1) S1x64.size cc1_transform_9 reads1_9 true true 1 stage1_9 sem1_9
    hrank1 hreads1_9 hinb1_9 nbuf1_9 (Memref.isWhole_whole _) hwx1_9 hstage1_9

abbrev win1_10 : Pipeline.Window sig grid1 :=
  Pipeline.Window.ofSpec (Memref.whole main_v34_2) S1x64.size cc1_transform_10 reads1_10 true true 1 stage1_10 sem1_10
    hrank1 hreads1_10 hinb1_10 nbuf1_10 (Memref.isWhole_whole _) hwx1_10 hstage1_10

abbrev win1 : Fin 11 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | ⟨_ + 11, h⟩ => absurd h (Nat.not_lt.2 (Nat.le_add_left _ _))
abbrev spec1 : Fin 11 → Pipeline.WinSpec sig grid1.rank := fun w => (win1 w).toWinSpec

abbrev idle1 : Fin 11 → grid1.Coords → Bool := fun | 0 => fun _ => false | 1 => fun _ => false | 2 => fun _ => false | 3 => fun _ => false | 4 => fun _ => false | 5 => fun _ => false | 6 => fun _ => false | 7 => fun _ => false | 8 => fun _ => false | 9 => fun i => !(k1_cond2 i == 1#1) | 10 => fun i => !(k1_cond2 i == 1#1) | ⟨_ + 11, h⟩ => absurd h (Nat.not_lt.2 (Nat.le_add_left _ _))

abbrev win2_0 : Pipeline.Window sig grid2 :=
  Pipeline.Window.ofSpec (Memref.whole main_v34_0) S10000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v47) S1x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v50) S1x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v51) S10000x64.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S100000x64 : Shape := ⟨2, ![100000, 64]⟩
abbrev S2x1600000 : Shape := ⟨2, ![2, 1600000]⟩
abbrev S64x64 : Shape := ⟨2, ![64, 64]⟩
abbrev S64 : Shape := ⟨1, ![64]⟩
abbrev S64x128 : Shape := ⟨2, ![64, 128]⟩
abbrev S128 : Shape := ⟨1, ![128]⟩
abbrev S128x64 : Shape := ⟨2, ![128, 64]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x64 : Shape := ⟨2, ![1600000, 64]⟩
abbrev S1x64 : Shape := ⟨2, ![1, 64]⟩
abbrev S100000x128 : Shape := ⟨2, ![100000, 128]⟩
abbrev S1x128 : Shape := ⟨2, ![1, 128]⟩

abbrev nBuf : Space → Nat
  | .hbm => 140
  | .vmem => 0
  | .smem => 0
  | _ => 0

abbrev hbmTy0_0 (i : Nat) : BufTy := match i % 128 with
  | 0 => ⟨S100000x64, .f32⟩
  | 1 => ⟨S2x1600000, .i32⟩
  | 2 => ⟨S64x64, .f32⟩
  | 3 => ⟨S64x64, .f32⟩
  | 4 => ⟨S64, .f32⟩
  | 5 => ⟨S64, .f32⟩
  | 6 => ⟨S64, .f32⟩
  | 7 => ⟨S64x128, .f32⟩
  | 8 => ⟨S128, .f32⟩
  | 9 => ⟨S128x64, .f32⟩
  | 10 => ⟨S64, .f32⟩
  | 11 => ⟨S64, .f32⟩
  | 12 => ⟨S64, .f32⟩
  | 13 => ⟨S1x1600000, .i32⟩
  | 14 => ⟨S1600000, .i32⟩
  | 15 => ⟨S1x1600000, .i32⟩
  | 16 => ⟨S1600000, .i32⟩
  | 17 => ⟨S_, .i32⟩
  | 18 => ⟨S1600000, .i32⟩
  | 19 => ⟨S1600000, .i1⟩
  | 20 => ⟨S_, .i32⟩
  | 21 => ⟨S1600000, .i32⟩
  | 22 => ⟨S1600000, .i32⟩
  | 23 => ⟨S1600000, .i32⟩
  | 24 => ⟨S1600000x1, .i32⟩
  | 25 => ⟨S1600000x64, .f32⟩
  | 26 => ⟨S_, .f32⟩
  | 27 => ⟨S100000x64, .f32⟩
  | 28 => ⟨S1600000x1, .i32⟩
  | 29 => ⟨S100000x64, .f32⟩
  | 30 => ⟨S100000x64, .f32⟩
  | 31 => ⟨S100000x64, .f32⟩
  | 32 => ⟨S100000x64, .f32⟩
  | 33 => ⟨S1x64, .f32⟩
  | 34 => ⟨S100000x64, .f32⟩
  | 35 => ⟨S100000x64, .f32⟩
  | 36 => ⟨S_, .f32⟩
  | 37 => ⟨S64, .f32⟩
  | 38 => ⟨S_, .f32⟩
  | 39 => ⟨S64, .f32⟩
  | 40 => ⟨S64, .f32⟩
  | 41 => ⟨S_, .i32⟩
  | 42 => ⟨S_, .f32⟩
  | 43 => ⟨S64, .f32⟩
  | 44 => ⟨S1x64, .f32⟩
  | 45 => ⟨S_, .f32⟩
  | 46 => ⟨S1x64, .f32⟩
  | 47 => ⟨S1x64, .f32⟩
  | 48 => ⟨S100000x64, .f32⟩
  | 49 => ⟨S100000x64, .f32⟩
  | 50 => ⟨S100000x64, .f32⟩
  | 51 => ⟨S_, .f32⟩
  | 52 => ⟨S_, .f32⟩
  | 53 => ⟨S_, .f32⟩
  | 54 => ⟨S_, .f32⟩
  | 55 => ⟨S64, .f32⟩
  | 56 => ⟨S64, .f32⟩
  | 57 => ⟨S64, .f32⟩
  | 58 => ⟨S_, .f32⟩
  | 59 => ⟨S_, .i1⟩
  | 60 => ⟨S_, .f32⟩
  | 61 => ⟨S_, .f32⟩
  | 62 => ⟨S64, .f32⟩
  | 63 => ⟨S64, .f32⟩
  | 64 => ⟨S1x64, .f32⟩
  | 65 => ⟨S100000x64, .f32⟩
  | 66 => ⟨S100000x64, .f32⟩
  | 67 => ⟨S_, .f32⟩
  | 68 => ⟨S64, .f32⟩
  | 69 => ⟨S64, .f32⟩
  | 70 => ⟨S64, .f32⟩
  | 71 => ⟨S1x64, .f32⟩
  | 72 => ⟨S100000x64, .f32⟩
  | 73 => ⟨S100000x64, .f32⟩
  | 74 => ⟨S1x64, .f32⟩
  | 75 => ⟨S100000x64, .f32⟩
  | 76 => ⟨S100000x64, .f32⟩
  | 77 => ⟨S1x64, .f32⟩
  | 78 => ⟨S100000x64, .f32⟩
  | 79 => ⟨S100000x64, .f32⟩
  | 80 => ⟨S_, .f32⟩
  | 81 => ⟨S100000x64, .f32⟩
  | 82 => ⟨S100000x64, .f32⟩
  | 83 => ⟨S100000x64, .f32⟩
  | 84 => ⟨S100000x128, .f32⟩
  | 85 => ⟨S1x128, .f32⟩
  | 86 => ⟨S100000x128, .f32⟩
  | 87 => ⟨S100000x128, .f32⟩
  | 88 => ⟨S_, .f32⟩
  | 89 => ⟨S100000x128, .f32⟩
  | 90 => ⟨S100000x128, .f32⟩
  | 91 => ⟨S100000x64, .f32⟩
  | 92 => ⟨S1x64, .f32⟩
  | 93 => ⟨S100000x64, .f32⟩
  | 94 => ⟨S100000x64, .f32⟩
  | 95 => ⟨S100000x64, .f32⟩
  | 96 => ⟨S_, .f32⟩
  | 97 => ⟨S64, .f32⟩
  | 98 => ⟨S_, .f32⟩
  | 99 => ⟨S64, .f32⟩
  | 100 => ⟨S64, .f32⟩
  | 101 => ⟨S_, .i32⟩
  | 102 => ⟨S_, .f32⟩
  | 103 => ⟨S64, .f32⟩
  | 104 => ⟨S1x64, .f32⟩
  | 105 => ⟨S_, .f32⟩
  | 106 => ⟨S1x64, .f32⟩
  | 107 => ⟨S1x64, .f32⟩
  | 108 => ⟨S100000x64, .f32⟩
  | 109 => ⟨S100000x64, .f32⟩
  | 110 => ⟨S100000x64, .f32⟩
  | 111 => ⟨S_, .f32⟩
  | 112 => ⟨S_, .f32⟩
  | 113 => ⟨S_, .f32⟩
  | 114 => ⟨S_, .f32⟩
  | 115 => ⟨S64, .f32⟩
  | 116 => ⟨S64, .f32⟩
  | 117 => ⟨S64, .f32⟩
  | 118 => ⟨S_, .f32⟩
  | 119 => ⟨S_, .i1⟩
  | 120 => ⟨S_, .f32⟩
  | 121 => ⟨S_, .f32⟩
  | 122 => ⟨S64, .f32⟩
  | 123 => ⟨S64, .f32⟩
  | 124 => ⟨S1x64, .f32⟩
  | 125 => ⟨S100000x64, .f32⟩
  | 126 => ⟨S100000x64, .f32⟩
  | 127 => ⟨S_, .f32⟩
  | _ => ⟨S100000x64, .f32⟩

abbrev hbmTy0_1 (i : Nat) : BufTy := match i % 128 with
  | 0 => ⟨S64, .f32⟩
  | 1 => ⟨S64, .f32⟩
  | 2 => ⟨S64, .f32⟩
  | 3 => ⟨S1x64, .f32⟩
  | 4 => ⟨S100000x64, .f32⟩
  | 5 => ⟨S100000x64, .f32⟩
  | 6 => ⟨S1x64, .f32⟩
  | 7 => ⟨S100000x64, .f32⟩
  | 8 => ⟨S100000x64, .f32⟩
  | 9 => ⟨S1x64, .f32⟩
  | 10 => ⟨S100000x64, .f32⟩
  | 11 => ⟨S100000x64, .f32⟩
  | _ => ⟨S100000x64, .f32⟩

abbrev hbmTy (i : Nat) : BufTy := match i / 128 with
  | 0 => hbmTy0_0 i
  | 1 => hbmTy0_1 i
  | _ => ⟨S100000x64, .f32⟩

abbrev bufTy : (tb : Table) → Fin (tcTables nBuf tb) → BufTy
  | .hbm, ⟨i, _⟩ => hbmTy i
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_c : Ref sig .tc := ⟨.hbm, 17, rfl⟩
abbrev main_v4 : Ref sig .tc := ⟨.hbm, 18, rfl⟩
abbrev main_v5 : Ref sig .tc := ⟨.hbm, 19, rfl⟩
abbrev main_c_0 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_cst : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_cst_1 : Ref sig .tc := ⟨.hbm, 36, rfl⟩
abbrev main_v20 : Ref sig .tc := ⟨.hbm, 37, rfl⟩
abbrev main_cst_2 : Ref sig .tc := ⟨.hbm, 38, rfl⟩
abbrev main_v21 : Ref sig .tc := ⟨.hbm, 39, rfl⟩
abbrev main_v22 : Ref sig .tc := ⟨.hbm, 40, rfl⟩
abbrev main_c_3 : Ref sig .tc := ⟨.hbm, 41, rfl⟩
abbrev main_call0_cst : Ref sig .tc := ⟨.hbm, 42, rfl⟩
abbrev main_call0_v0 : Ref sig .tc := ⟨.hbm, 43, rfl⟩
abbrev main_call0_v1 : Ref sig .tc := ⟨.hbm, 44, rfl⟩
abbrev main_call0_cst_0 : Ref sig .tc := ⟨.hbm, 45, rfl⟩
abbrev main_call0_v2 : Ref sig .tc := ⟨.hbm, 46, rfl⟩
abbrev main_call0_v3 : Ref sig .tc := ⟨.hbm, 47, rfl⟩
abbrev main_call0_v4 : Ref sig .tc := ⟨.hbm, 48, rfl⟩
abbrev main_call0_v5 : Ref sig .tc := ⟨.hbm, 49, rfl⟩
abbrev main_call0_v6 : Ref sig .tc := ⟨.hbm, 50, rfl⟩
abbrev main_call0_v7 : Ref sig .tc := ⟨.hbm, 51, rfl⟩
abbrev main_call0_cst_1 : Ref sig .tc := ⟨.hbm, 52, rfl⟩
abbrev main_call0_v8 : Ref sig .tc := ⟨.hbm, 53, rfl⟩
abbrev main_call0_cst_2 : Ref sig .tc := ⟨.hbm, 54, rfl⟩
abbrev main_call0_v9 : Ref sig .tc := ⟨.hbm, 55, rfl⟩
abbrev main_call0_v10 : Ref sig .tc := ⟨.hbm, 56, rfl⟩
abbrev main_call0_v11 : Ref sig .tc := ⟨.hbm, 57, rfl⟩
abbrev main_call0_cst_3 : Ref sig .tc := ⟨.hbm, 58, rfl⟩
abbrev main_call0_v12 : Ref sig .tc := ⟨.hbm, 59, rfl⟩
abbrev main_call0_cst_4 : Ref sig .tc := ⟨.hbm, 60, rfl⟩
abbrev main_call0_call0_v0 : Ref sig .tc := ⟨.hbm, 61, rfl⟩
abbrev main_call0_call0_v1 : Ref sig .tc := ⟨.hbm, 62, rfl⟩
abbrev main_v23 : Ref sig .tc := ⟨.hbm, 63, rfl⟩
abbrev main_v24 : Ref sig .tc := ⟨.hbm, 64, rfl⟩
abbrev main_v25 : Ref sig .tc := ⟨.hbm, 65, rfl⟩
abbrev main_v26 : Ref sig .tc := ⟨.hbm, 66, rfl⟩
abbrev main_cst_4 : Ref sig .tc := ⟨.hbm, 67, rfl⟩
abbrev main_v27 : Ref sig .tc := ⟨.hbm, 68, rfl⟩
abbrev main_v28 : Ref sig .tc := ⟨.hbm, 69, rfl⟩
abbrev main_v29 : Ref sig .tc := ⟨.hbm, 70, rfl⟩
abbrev main_v30 : Ref sig .tc := ⟨.hbm, 71, rfl⟩
abbrev main_v31 : Ref sig .tc := ⟨.hbm, 72, rfl⟩
abbrev main_v32 : Ref sig .tc := ⟨.hbm, 73, rfl⟩
abbrev main_v33 : Ref sig .tc := ⟨.hbm, 74, rfl⟩
abbrev main_v34 : Ref sig .tc := ⟨.hbm, 75, rfl⟩
abbrev main_v35 : Ref sig .tc := ⟨.hbm, 76, rfl⟩
abbrev main_v36 : Ref sig .tc := ⟨.hbm, 77, rfl⟩
abbrev main_v37 : Ref sig .tc := ⟨.hbm, 78, rfl⟩
abbrev main_v38 : Ref sig .tc := ⟨.hbm, 79, rfl⟩
abbrev main_call1_cst : Ref sig .tc := ⟨.hbm, 80, rfl⟩
abbrev main_call1_v0 : Ref sig .tc := ⟨.hbm, 81, rfl⟩
abbrev main_v39 : Ref sig .tc := ⟨.hbm, 82, rfl⟩
abbrev main_v40 : Ref sig .tc := ⟨.hbm, 83, rfl⟩
abbrev main_v41 : Ref sig .tc := ⟨.hbm, 84, rfl⟩
abbrev main_v42 : Ref sig .tc := ⟨.hbm, 85, rfl⟩
abbrev main_v43 : Ref sig .tc := ⟨.hbm, 86, rfl⟩
abbrev main_v44 : Ref sig .tc := ⟨.hbm, 87, rfl⟩
abbrev main_call2_cst : Ref sig .tc := ⟨.hbm, 88, rfl⟩
abbrev main_call2_v0 : Ref sig .tc := ⟨.hbm, 89, rfl⟩
abbrev main_v45 : Ref sig .tc := ⟨.hbm, 90, rfl⟩
abbrev main_v46 : Ref sig .tc := ⟨.hbm, 91, rfl⟩
abbrev main_v47 : Ref sig .tc := ⟨.hbm, 92, rfl⟩
abbrev main_v48 : Ref sig .tc := ⟨.hbm, 93, rfl⟩
abbrev main_v49 : Ref sig .tc := ⟨.hbm, 94, rfl⟩
abbrev main_v50 : Ref sig .tc := ⟨.hbm, 95, rfl⟩
abbrev main_cst_5 : Ref sig .tc := ⟨.hbm, 96, rfl⟩
abbrev main_v51 : Ref sig .tc := ⟨.hbm, 97, rfl⟩
abbrev main_cst_6 : Ref sig .tc := ⟨.hbm, 98, rfl⟩
abbrev main_v52 : Ref sig .tc := ⟨.hbm, 99, rfl⟩
abbrev main_v53 : Ref sig .tc := ⟨.hbm, 100, rfl⟩
abbrev main_c_7 : Ref sig .tc := ⟨.hbm, 101, rfl⟩
abbrev main_call3_cst : Ref sig .tc := ⟨.hbm, 102, rfl⟩
abbrev main_call3_v0 : Ref sig .tc := ⟨.hbm, 103, rfl⟩
abbrev main_call3_v1 : Ref sig .tc := ⟨.hbm, 104, rfl⟩
abbrev main_call3_cst_0 : Ref sig .tc := ⟨.hbm, 105, rfl⟩
abbrev main_call3_v2 : Ref sig .tc := ⟨.hbm, 106, rfl⟩
abbrev main_call3_v3 : Ref sig .tc := ⟨.hbm, 107, rfl⟩
abbrev main_call3_v4 : Ref sig .tc := ⟨.hbm, 108, rfl⟩
abbrev main_call3_v5 : Ref sig .tc := ⟨.hbm, 109, rfl⟩
abbrev main_call3_v6 : Ref sig .tc := ⟨.hbm, 110, rfl⟩
abbrev main_call3_v7 : Ref sig .tc := ⟨.hbm, 111, rfl⟩
abbrev main_call3_cst_1 : Ref sig .tc := ⟨.hbm, 112, rfl⟩
abbrev main_call3_v8 : Ref sig .tc := ⟨.hbm, 113, rfl⟩
abbrev main_call3_cst_2 : Ref sig .tc := ⟨.hbm, 114, rfl⟩
abbrev main_call3_v9 : Ref sig .tc := ⟨.hbm, 115, rfl⟩
abbrev main_call3_v10 : Ref sig .tc := ⟨.hbm, 116, rfl⟩
abbrev main_call3_v11 : Ref sig .tc := ⟨.hbm, 117, rfl⟩
abbrev main_call3_cst_3 : Ref sig .tc := ⟨.hbm, 118, rfl⟩
abbrev main_call3_v12 : Ref sig .tc := ⟨.hbm, 119, rfl⟩
abbrev main_call3_cst_4 : Ref sig .tc := ⟨.hbm, 120, rfl⟩
abbrev main_call3_call0_v0 : Ref sig .tc := ⟨.hbm, 121, rfl⟩
abbrev main_call3_call0_v1 : Ref sig .tc := ⟨.hbm, 122, rfl⟩
abbrev main_v54 : Ref sig .tc := ⟨.hbm, 123, rfl⟩
abbrev main_v55 : Ref sig .tc := ⟨.hbm, 124, rfl⟩
abbrev main_v56 : Ref sig .tc := ⟨.hbm, 125, rfl⟩
abbrev main_v57 : Ref sig .tc := ⟨.hbm, 126, rfl⟩
abbrev main_cst_8 : Ref sig .tc := ⟨.hbm, 127, rfl⟩
abbrev main_v58 : Ref sig .tc := ⟨.hbm, 128, rfl⟩
abbrev main_v59 : Ref sig .tc := ⟨.hbm, 129, rfl⟩
abbrev main_v60 : Ref sig .tc := ⟨.hbm, 130, rfl⟩
abbrev main_v61 : Ref sig .tc := ⟨.hbm, 131, rfl⟩
abbrev main_v62 : Ref sig .tc := ⟨.hbm, 132, rfl⟩
abbrev main_v63 : Ref sig .tc := ⟨.hbm, 133, rfl⟩
abbrev main_v64 : Ref sig .tc := ⟨.hbm, 134, rfl⟩
abbrev main_v65 : Ref sig .tc := ⟨.hbm, 135, rfl⟩
abbrev main_v66 : Ref sig .tc := ⟨.hbm, 136, rfl⟩
abbrev main_v67 : Ref sig .tc := ⟨.hbm, 137, rfl⟩
abbrev main_v68 : Ref sig .tc := ⟨.hbm, 138, rfl⟩
abbrev main_v69 : Ref sig .tc := ⟨.hbm, 139, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  reducesTo_S100000x64_S64_d0 : S100000x64.ReducesTo [0] S64
  h_S_ : 0 < S_.numel
  bcast_S_S64 : S_.BroadcastsInDim S64 (![] : Fin 0 → Fin S64.rank)
  bcast_S_S1x64 : S_.BroadcastsInDim S1x64 (![] : Fin 0 → Fin S1x64.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S100000x128 : S_.BroadcastsInDim S100000x128 (![] : Fin 0 → Fin S100000x128.rank)
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S100000x64_S64x64_S100000x64_1_0_0_1_n_n_wf : DotDims.WF S100000x64 S64x64 S100000x64 [1] [0] [0] [1] [] []
  dot_S100000x64_S64x128_S100000x128_1_0_0_1_n_n_wf : DotDims.WF S100000x64 S64x128 S100000x128 [1] [0] [0] [1] [] []
  dot_S100000x128_S128x64_S100000x64_1_0_0_1_n_n_wf : DotDims.WF S100000x128 S128x64 S100000x64 [1] [0] [0] [1] [] []

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def dot_S100000x64_S64x128_S100000x128_1_0_0_1_n_n : DotDims S100000x64 S64x128 S100000x128 where
  lhsContracting := [1]
  rhsContracting := [0]
  lhsNonContracting := [0]
  rhsNonContracting := [1]
  lhsBatch := []
  rhsBatch := []
  wf := dot_S100000x64_S64x128_S100000x128_1_0_0_1_n_n_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf

class Facts : Prop extends Facts₀ where

variable [Facts]
-- ==== Proof.KernelR0Kit.lean ====
/- Region 0 of @main (the pallas_call of `cc0__gnn_kernel`): what its body's runs are stated over, at the contents `V` the
   region is entered with. A window's block at a grid point is read off its array; an input's staging buffer holds that
   block at every point (it is fetched when the block index moves and kept otherwise). The body has two conditionals on the
   grid coordinate: the first holds at the first point only (there the two accumulators are cleared), the second at the
   last point only (there the accumulators are copied to the two small outputs). At every other point those two outputs'
   staging buffers are left alone and are not written back. -/
import proofs.«149204_j28372553957731_2_alg».proof.Proof.KernelLaunchP
import proofs.«149204_j28372553957731_2_alg».proof.Proof.Gen.Kernel.Skeleton
import proofs.«149204_j28372553957731_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, fetched there or not. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current staging buffer holds its block at every point, fetched there or not. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4's current staging buffer holds its block at every point, fetched there or not. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-! ## The body's two conditions -/

/-- "This is the first point": the body's first conditional, from the grid coordinate. -/
abbrev cond0_0 (i : grid0.Coords) : Prop := (Scalar.cmpi .ne (Scalar.extui (Scalar.cmpi .eq (BitVec.ofNat 32 (i 0).val) 0#32)) 0#32) = 1#1
theorem hcond0_0 : ∀ t : Fin cfg0.N, cond0_0 (grid0.coords t) ↔ t.val % 20 = 0 :=
  (by decide +kernel : ∀ t : Fin grid0.N, cond0_0 (grid0.coords t) ↔ t.val % 20 = 0)
/-- "This is the last point": the body's second conditional. -/
abbrev cond0_1 (i : grid0.Coords) : Prop := k0_cond2 i = 1#1
theorem hcond0_1 : ∀ t : Fin cfg0.N, cond0_1 (grid0.coords t) ↔ t.val % 20 = 19 :=
  (by decide +kernel : ∀ t : Fin grid0.N, cond0_1 (grid0.coords t) ↔ t.val % 20 = 19)

theorem cond0_0_iff (t : Fin cfg0.N) : cond0_0 (grid0.coords t) ↔ t.val = 0 := by
  have hN : t.val < 20 := lt_of_lt_of_eq t.isLt (show cfg0.N = 20 from N_0)
  rw [hcond0_0 t]; omega
theorem cond0_1_iff (t : Fin cfg0.N) : cond0_1 (grid0.coords t) ↔ t.val = 19 := by
  have hN : t.val < 20 := lt_of_lt_of_eq t.isLt (show cfg0.N = 20 from N_0)
  rw [hcond0_1 t]; omega

/-! ## Where the windows are idle -/
theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel
theorem liveAt0_5 : ∀ t : Fin cfg0.N, cfg0.idle 5 (grid0.coords t) = false := by decide +kernel
/-- Away from the last point output 6 is idle and is not written back; at the last point it is live. -/
theorem idleAt0_6 : ∀ t : Fin cfg0.N, ¬cond0_1 (grid0.coords t) → cfg0.idle 6 (grid0.coords t) = true := by decide +kernel
theorem noFlush0_6 : ∀ t : Fin cfg0.N, ¬cond0_1 (grid0.coords t) → (cfg0.win 6).flush t = false := by decide +kernel
theorem liveAt0_6_C : ∀ t : Fin cfg0.N, cond0_1 (grid0.coords t) → cfg0.idle 6 (grid0.coords t) = false := by decide +kernel
/-- Away from the last point output 7 is idle and is not written back; at the last point it is live. -/
theorem idleAt0_7 : ∀ t : Fin cfg0.N, ¬cond0_1 (grid0.coords t) → cfg0.idle 7 (grid0.coords t) = true := by decide +kernel
theorem noFlush0_7 : ∀ t : Fin cfg0.N, ¬cond0_1 (grid0.coords t) → (cfg0.win 7).flush t = false := by decide +kernel
theorem liveAt0_7_C : ∀ t : Fin cfg0.N, cond0_1 (grid0.coords t) → cfg0.idle 7 (grid0.coords t) = false := by decide +kernel

/-! ## The memrefs the body is called with -/

abbrev VO0_5 : View sig .tc .vmem S5000x64 .f32 := (Memref.whole cc0_stg5_0 : Memref sig .tc .vmem S5000x64 .f32).view
abbrev VO0_6 : View sig .tc .vmem S1x64 .f32 := (Memref.whole cc0_stg6_0 : Memref sig .tc .vmem S1x64 .f32).view
abbrev VO0_7 : View sig .tc .vmem S1x64 .f32 := (Memref.whole cc0_stg7_0 : Memref sig .tc .vmem S1x64 .f32).view
abbrev ms0_0 (t : Fin cfg0.N) : Memref sig .tc .vmem S5000x64 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S5000x64 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S64x64 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S64x64 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x64 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S5000x64 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x64 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x64 .f32 := win0_7.stage (cfg0.slots t 7)
abbrev hs0_7 (t : Fin cfg0.N) : (ms0_7 t).IsWhole := hstage0_7 ((cfg0.slots t 7).cast nbuf0_7)
abbrev scM0_0 : Memref sig .tc .vmem S1x64 .f32 := Memref.whole cc0_scratch0
abbrev VS0_0 : View sig .tc .vmem S1x64 .f32 := scM0_0.view
abbrev scM0_1 : Memref sig .tc .vmem S1x64 .f32 := Memref.whole cc0_scratch1
abbrev VS0_1 : View sig .tc .vmem S1x64 .f32 := scM0_1.view

/-- The core's other scoped buffers (the other calls' staging buffers and accumulators), which this region never opens. -/
abbrev rest0 (c : Dev nD) : sProp 𝕄 :=
  Pipeline.scopedRestBut (Ix := Unit) (Name := ℕ) (U := UR sig nD τ) (Lvl := ℕ) (Val := Elt F) spec0 c [cc0_scratch0, cc0_scratch1]

/-- The region's invariant before its first point: the two accumulators owned at some contents, the other scoped
    buffers unopened, and the generator register. -/
theorem PhiA0_eq (c : Dev nD) :
    (Pipeline.ΦA spec0 c : sProp 𝕄)
      = iprop(iprop(iprop((∃ d, owns (c : Thread nD τ) scM0_0 fullShare d) ∗ (∃ d, owns (c : Thread nD τ) scM0_1 fullShare d)) ∗ rest0 (F := F) c) ∗ (∃ r, prngReg c r)) := by
  unfold Pipeline.ΦA
  rw [Pipeline.scopedRest_split_of_list spec0 c [cc0_scratch0, cc0_scratch1] (by decide) (by decide)]
  simp only [scM0_0, scM0_1, owns_whole]; try rfl

end Cert.Kernel.Hand

end
-- ==== Proof.KernelR0RunA.lean ====
/- Region 0, the body's whole run in case A (the first grid point: the accumulators are cleared, then added to).
   From whole staging memrefs — the inputs at their contents, the accumulators at anything,
   the two small outputs at contents handed back untouched, the other outputs at anything — the body runs to the end leaving the inputs as they were and each
   buffer it stored into with its stores written; the lists of stores are what the run finds. -/
import proofs.«149204_j28372553957731_2_alg».proof.Proof.KernelR0Kit

set_option maxRecDepth 16384

noncomputable section

namespace Cert.Kernel.Hand

open Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun0_A (c : Dev nD) (i : grid0.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S64x64 .f32) (harg4 : arg4.IsWhole) (arg5 : Memref sig .tc .vmem S1x64 .f32) (harg5 : arg5.IsWhole) (arg6 : Memref sig .tc .vmem S5000x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (hc0 : cond0_0 i) (hc1 : ¬cond0_1 i)
    (x0 : Vec F S5000x64 .f32) (x1 : Vec F S5000x64 .f32) (x2 : Vec F S64x64 .f32) (x3 : Vec F S64x64 .f32) (x4 : Vec F S1x64 .f32) :
    Σ' (L5 : List (View.Piece (Elt F) S5000x64 .f32)), Σ' (LS0 : List (View.Piece (Elt F) S1x64 .f32)), { LS1 : List (View.Piece (Elt F) S1x64 .f32) //
      ∀ (xi6 : Vec F S1x64 .f32) (xi7 : Vec F S1x64 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ owns (c : Thread nD τ) arg7 fullShare xi6 ∗ owns (c : Thread nD τ) arg8 fullShare xi7 ∗ (∃ d, owns (c : Thread nD τ) arg9 fullShare d) ∗ (∃ d, owns (c : Thread nD τ) arg10 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f L5) ∗ owns (c : Thread nD τ) arg7 fullShare xi6 ∗ owns (c : Thread nD τ) arg8 fullShare xi7 ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1)) -∗ K ⟨⟩))
          ⊢ wp frame (wpE (defs₀ (F := F)) Variants.none c none) E (cc0__gnn_kernel i arg1 harg1 arg2 harg2 arg3 harg3 arg4 harg4 arg5 harg5 arg6 harg6 arg7 harg7 arg8 harg8 arg9 harg9 arg10 harg10) K } := by
  refine ⟨?_, ?_, ?_, fun xi6 xi7 E K => ?run⟩
  case run =>
    simp only [cc0__gnn_kernel_eq_skeleton]; unfold cc0__gnn_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, ⟨%f7, %hf7, H7⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg7.eq_unread hf6; obtain rfl := harg8.eq_unread hf7
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexists _; iexact H5
    isplitl [H6]
    · iexists _; isplitr; · ipureintro; exact harg7.read_unread _
      iexact H6
    isplitl [H7]
    · iexists _; isplitr; · ipureintro; exact harg8.read_unread _
      iexact H7
    isplitl [HS0]; · iexists _; iexact HS0
    iexists _; iexact HS1

end Cert.Kernel.Hand

end
-- ==== Proof.KernelR0RunB.lean ====
/- Region 0, the body's whole run in case B (a point that is neither first nor last: the accumulators are added to).
   From whole staging memrefs — the inputs at their contents, the accumulators at what the point before left,
   the two small outputs at contents handed back untouched, the other outputs at anything — the body runs to the end leaving the inputs as they were and each
   buffer it stored into with its stores written; the lists of stores are what the run finds. -/
import proofs.«149204_j28372553957731_2_alg».proof.Proof.KernelR0RunA

set_option maxRecDepth 16384

noncomputable section

namespace Cert.Kernel.Hand

open Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun0_B (c : Dev nD) (i : grid0.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S64x64 .f32) (harg4 : arg4.IsWhole) (arg5 : Memref sig .tc .vmem S1x64 .f32) (harg5 : arg5.IsWhole) (arg6 : Memref sig .tc .vmem S5000x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (hc0 : ¬cond0_0 i) (hc1 : ¬cond0_1 i)
    (x0 : Vec F S5000x64 .f32) (x1 : Vec F S5000x64 .f32) (x2 : Vec F S64x64 .f32) (x3 : Vec F S64x64 .f32) (x4 : Vec F S1x64 .f32) (xs0 : Vec F S1x64 .f32) (xs1 : Vec F S1x64 .f32) :
    Σ' (L5 : List (View.Piece (Elt F) S5000x64 .f32)), Σ' (LS0 : List (View.Piece (Elt F) S1x64 .f32)), { LS1 : List (View.Piece (Elt F) S1x64 .f32) //
      ∀ (xi6 : Vec F S1x64 .f32) (xi7 : Vec F S1x64 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ owns (c : Thread nD τ) arg7 fullShare xi6 ∗ owns (c : Thread nD τ) arg8 fullShare xi7 ∗ owns (c : Thread nD τ) arg9 fullShare xs0 ∗ owns (c : Thread nD τ) arg10 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f L5) ∗ owns (c : Thread nD τ) arg7 fullShare xi6 ∗ owns (c : Thread nD τ) arg8 fullShare xi7 ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1)) -∗ K ⟨⟩))
          ⊢ wp frame (wpE (defs₀ (F := F)) Variants.none c none) E (cc0__gnn_kernel i arg1 harg1 arg2 harg2 arg3 harg3 arg4 harg4 arg5 harg5 arg6 harg6 arg7 harg7 arg8 harg8 arg9 harg9 arg10 harg10) K } := by
  refine ⟨?_, ?_, ?_, fun xi6 xi7 E K => ?run⟩
  case run =>
    simp only [cc0__gnn_kernel_eq_skeleton]; unfold cc0__gnn_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, ⟨%f7, %hf7, H7⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg7.eq_unread hf6; obtain rfl := harg8.eq_unread hf7; obtain rfl := harg9.eq_unread hfs0; obtain rfl := harg10.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexists _; iexact H5
    isplitl [H6]
    · iexists _; isplitr; · ipureintro; exact harg7.read_unread _
      iexact H6
    isplitl [H7]
    · iexists _; isplitr; · ipureintro; exact harg8.read_unread _
      iexact H7
    isplitl [HS0]; · iexists _; iexact HS0
    iexists _; iexact HS1

end Cert.Kernel.Hand

end
-- ==== Proof.KernelR0RunC.lean ====
/- Region 0, the body's whole run in case C (the last grid point: the accumulators are added to, then copied to the two small outputs).
   From whole staging memrefs — the inputs at their contents, the accumulators at what the point before left,
   the other outputs at anything — the body runs to the end leaving the inputs as they were and each
   buffer it stored into with its stores written; the lists of stores are what the run finds. -/
import proofs.«149204_j28372553957731_2_alg».proof.Proof.KernelR0RunB

set_option maxRecDepth 16384

noncomputable section

namespace Cert.Kernel.Hand

open Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun0_C (c : Dev nD) (i : grid0.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S64x64 .f32) (harg4 : arg4.IsWhole) (arg5 : Memref sig .tc .vmem S1x64 .f32) (harg5 : arg5.IsWhole) (arg6 : Memref sig .tc .vmem S5000x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (hc0 : ¬cond0_0 i) (hc1 : cond0_1 i)
    (x0 : Vec F S5000x64 .f32) (x1 : Vec F S5000x64 .f32) (x2 : Vec F S64x64 .f32) (x3 : Vec F S64x64 .f32) (x4 : Vec F S1x64 .f32) (xs0 : Vec F S1x64 .f32) (xs1 : Vec F S1x64 .f32) :
    Σ' (L5 : List (View.Piece (Elt F) S5000x64 .f32)), Σ' (L6 : List (View.Piece (Elt F) S1x64 .f32)), Σ' (L7 : List (View.Piece (Elt F) S1x64 .f32)), Σ' (LS0 : List (View.Piece (Elt F) S1x64 .f32)), { LS1 : List (View.Piece (Elt F) S1x64 .f32) //
      ∀  (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ (∃ d, owns (c : Thread nD τ) arg8 fullShare d) ∗ owns (c : Thread nD τ) arg9 fullShare xs0 ∗ owns (c : Thread nD τ) arg10 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1)) -∗ K ⟨⟩))
          ⊢ wp frame (wpE (defs₀ (F := F)) Variants.none c none) E (cc0__gnn_kernel i arg1 harg1 arg2 harg2 arg3 harg3 arg4 harg4 arg5 harg5 arg6 harg6 arg7 harg7 arg8 harg8 arg9 harg9 arg10 harg10) K } := by
  refine ⟨?_, ?_, ?_, ?_, ?_, fun  E K => ?run⟩
  case run =>
    simp only [cc0__gnn_kernel_eq_skeleton]; unfold cc0__gnn_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg9.eq_unread hfs0; obtain rfl := harg10.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexists _; iexact H5
    isplitl [H6]; · iexists _; iexact H6
    isplitl [H7]; · iexists _; iexact H7
    isplitl [HS0]; · iexists _; iexact HS0
    iexists _; iexact HS1

end Cert.Kernel.Hand

end
-- ==== Proof.KernelR0Frame.lean ====
/- Region 0: what its buffers hold point by point, the proof data of its pipeline, and the body's obligation.
   The two accumulators are carried from one grid point to the next: after point `n` they hold what the body's run at `n`
   left, computed from the point's input blocks and from what point `n − 1` left (`outsAt0`). The invariant before the
   first point is the class's (both accumulators at anything); before any later point it has them at the previous point's
   contents. The two small outputs are stored only at the last point and are idle elsewhere. -/
import proofs.«149204_j28372553957731_2_alg».proof.Proof.KernelR0RunC

set_option maxRecDepth 16384

noncomputable section

namespace Cert.Kernel.Hand

open Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## Per case: the stores cover each buffer, and what the buffer then holds -/

theorem cover0_A_5 (c : Dev nD) (i : grid0.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S64x64 .f32) (harg4 : arg4.IsWhole) (arg5 : Memref sig .tc .vmem S1x64 .f32) (harg5 : arg5.IsWhole) (arg6 : Memref sig .tc .vmem S5000x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (hc0 : cond0_0 i) (hc1 : ¬cond0_1 i)
    (x0 : Vec F S5000x64 .f32) (x1 : Vec F S5000x64 .f32) (x2 : Vec F S64x64 .f32) (x3 : Vec F S64x64 .f32) (x4 : Vec F S1x64 .f32) (y : S5000x64.Idx) :
    ∃ pc ∈ (kernelRun0_A (F := F) c i arg1 harg1 arg2 harg2 arg3 harg3 arg4 harg4 arg5 harg5 arg6 harg6 arg7 harg7 arg8 harg8 arg9 harg9 arg10 harg10 hc0 hc1 x0 x1 x2 x3 x4).1, y ∈ pc.1.set :=
  View.cover_of_tiledL (kernelRun0_A (F := F) c i arg1 harg1 arg2 harg2 arg3 harg3 arg4 harg4 arg5 harg5 arg6 harg6 arg7 harg7 arg8 harg8 arg9 harg9 arg10 harg10 hc0 hc1 x0 x1 x2 x3 x4).1 S5000x64.size (by sl_kernel_rfl) y
def out0_A_5 (c : Dev nD) (i : grid0.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S64x64 .f32) (harg4 : arg4.IsWhole) (arg5 : Memref sig .tc .vmem S1x64 .f32) (harg5 : arg5.IsWhole) (arg6 : Memref sig .tc .vmem S5000x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (hc0 : cond0_0 i) (hc1 : ¬cond0_1 i)
    (x0 : Vec F S5000x64 .f32) (x1 : Vec F S5000x64 .f32) (x2 : Vec F S64x64 .f32) (x3 : Vec F S64x64 .f32) (x4 : Vec F S1x64 .f32) : Vec F S5000x64 .f32 :=
  VO0_5.read (Elt F) (VO0_5.writes (Elt F) VO0_5.junk (kernelRun0_A (F := F) c i arg1 harg1 arg2 harg2 arg3 harg3 arg4 harg4 arg5 harg5 arg6 harg6 arg7 harg7 arg8 harg8 arg9 harg9 arg10 harg10 hc0 hc1 x0 x1 x2 x3 x4).1)

theorem scover0_A_0 (c : Dev nD) (i : grid0.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S64x64 .f32) (harg4 : arg4.IsWhole) (arg5 : Memref sig .tc .vmem S1x64 .f32) (harg5 : arg5.IsWhole) (arg6 : Memref sig .tc .vmem S5000x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (hc0 : cond0_0 i) (hc1 : ¬cond0_1 i)
    (x0 : Vec F S5000x64 .f32) (x1 : Vec F S5000x64 .f32) (x2 : Vec F S64x64 .f32) (x3 : Vec F S64x64 .f32) (x4 : Vec F S1x64 .f32) (y : S1x64.Idx) :
    ∃ pc ∈ (kernelRun0_A (F := F) c i arg1 harg1 arg2 harg2 arg3 harg3 arg4 harg4 arg5 harg5 arg6 harg6 arg7 harg7 arg8 harg8 arg9 harg9 arg10 harg10 hc0 hc1 x0 x1 x2 x3 x4).2.1, y ∈ pc.1.set :=
  View.cover_of_tiledL (kernelRun0_A (F := F) c i arg1 harg1 arg2 harg2 arg3 harg3 arg4 harg4 arg5 harg5 arg6 harg6 arg7 harg7 arg8 harg8 arg9 harg9 arg10 harg10 hc0 hc1 x0 x1 x2 x3 x4).2.1 S1x64.size (by sl_kernel_rfl) y
def sout0_A_0 (c : Dev nD) (i : grid0.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S64x64 .f32) (harg4 : arg4.IsWhole) (arg5 : Memref sig .tc .vmem S1x64 .f32) (harg5 : arg5.IsWhole) (arg6 : Memref sig .tc .vmem S5000x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (hc0 : cond0_0 i) (hc1 : ¬cond0_1 i)
    (x0 : Vec F S5000x64 .f32) (x1 : Vec F S5000x64 .f32) (x2 : Vec F S64x64 .f32) (x3 : Vec F S64x64 .f32) (x4 : Vec F S1x64 .f32) : Vec F S1x64 .f32 :=
  VS0_0.read (Elt F) (VS0_0.writes (Elt F) VS0_0.junk (kernelRun0_A (F := F) c i arg1 harg1 arg2 harg2 arg3 harg3 arg4 harg4 arg5 harg5 arg6 harg6 arg7 harg7 arg8 harg8 arg9 harg9 arg10 harg10 hc0 hc1 x0 x1 x2 x3 x4).2.1)

theorem scover0_A_1 (c : Dev nD) (i : grid0.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S64x64 .f32) (harg4 : arg4.IsWhole) (arg5 : Memref sig .tc .vmem S1x64 .f32) (harg5 : arg5.IsWhole) (arg6 : Memref sig .tc .vmem S5000x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (hc0 : cond0_0 i) (hc1 : ¬cond0_1 i)
    (x0 : Vec F S5000x64 .f32) (x1 : Vec F S5000x64 .f32) (x2 : Vec F S64x64 .f32) (x3 : Vec F S64x64 .f32) (x4 : Vec F S1x64 .f32) (y : S1x64.Idx) :
    ∃ pc ∈ (kernelRun0_A (F := F) c i arg1 harg1 arg2 harg2 arg3 harg3 arg4 harg4 arg5 harg5 arg6 harg6 arg7 harg7 arg8 harg8 arg9 harg9 arg10 harg10 hc0 hc1 x0 x1 x2 x3 x4).2.2.1, y ∈ pc.1.set :=
  View.cover_of_tiledL (kernelRun0_A (F := F) c i arg1 harg1 arg2 harg2 arg3 harg3 arg4 harg4 arg5 harg5 arg6 harg6 arg7 harg7 arg8 harg8 arg9 harg9 arg10 harg10 hc0 hc1 x0 x1 x2 x3 x4).2.2.1 S1x64.size (by sl_kernel_rfl) y
def sout0_A_1 (c : Dev nD) (i : grid0.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S64x64 .f32) (harg4 : arg4.IsWhole) (arg5 : Memref sig .tc .vmem S1x64 .f32) (harg5 : arg5.IsWhole) (arg6 : Memref sig .tc .vmem S5000x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (hc0 : cond0_0 i) (hc1 : ¬cond0_1 i)
    (x0 : Vec F S5000x64 .f32) (x1 : Vec F S5000x64 .f32) (x2 : Vec F S64x64 .f32) (x3 : Vec F S64x64 .f32) (x4 : Vec F S1x64 .f32) : Vec F S1x64 .f32 :=
  VS0_1.read (Elt F) (VS0_1.writes (Elt F) VS0_1.junk (kernelRun0_A (F := F) c i arg1 harg1 arg2 harg2 arg3 harg3 arg4 harg4 arg5 harg5 arg6 harg6 arg7 harg7 arg8 harg8 arg9 harg9 arg10 harg10 hc0 hc1 x0 x1 x2 x3 x4).2.2.1)

theorem cover0_B_5 (c : Dev nD) (i : grid0.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S64x64 .f32) (harg4 : arg4.IsWhole) (arg5 : Memref sig .tc .vmem S1x64 .f32) (harg5 : arg5.IsWhole) (arg6 : Memref sig .tc .vmem S5000x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (hc0 : ¬cond0_0 i) (hc1 : ¬cond0_1 i)
    (x0 : Vec F S5000x64 .f32) (x1 : Vec F S5000x64 .f32) (x2 : Vec F S64x64 .f32) (x3 : Vec F S64x64 .f32) (x4 : Vec F S1x64 .f32) (xs0 : Vec F S1x64 .f32) (xs1 : Vec F S1x64 .f32) (y : S5000x64.Idx) :
    ∃ pc ∈ (kernelRun0_B (F := F) c i arg1 harg1 arg2 harg2 arg3 harg3 arg4 harg4 arg5 harg5 arg6 harg6 arg7 harg7 arg8 harg8 arg9 harg9 arg10 harg10 hc0 hc1 x0 x1 x2 x3 x4 xs0 xs1).1, y ∈ pc.1.set :=
  View.cover_of_tiledL (kernelRun0_B (F := F) c i arg1 harg1 arg2 harg2 arg3 harg3 arg4 harg4 arg5 harg5 arg6 harg6 arg7 harg7 arg8 harg8 arg9 harg9 arg10 harg10 hc0 hc1 x0 x1 x2 x3 x4 xs0 xs1).1 S5000x64.size (by sl_kernel_rfl) y
def out0_B_5 (c : Dev nD) (i : grid0.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S64x64 .f32) (harg4 : arg4.IsWhole) (arg5 : Memref sig .tc .vmem S1x64 .f32) (harg5 : arg5.IsWhole) (arg6 : Memref sig .tc .vmem S5000x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (hc0 : ¬cond0_0 i) (hc1 : ¬cond0_1 i)
    (x0 : Vec F S5000x64 .f32) (x1 : Vec F S5000x64 .f32) (x2 : Vec F S64x64 .f32) (x3 : Vec F S64x64 .f32) (x4 : Vec F S1x64 .f32) (xs0 : Vec F S1x64 .f32) (xs1 : Vec F S1x64 .f32) : Vec F S5000x64 .f32 :=
  VO0_5.read (Elt F) (VO0_5.writes (Elt F) VO0_5.junk (kernelRun0_B (F := F) c i arg1 harg1 arg2 harg2 arg3 harg3 arg4 harg4 arg5 harg5 arg6 harg6 arg7 harg7 arg8 harg8 arg9 harg9 arg10 harg10 hc0 hc1 x0 x1 x2 x3 x4 xs0 xs1).1)

theorem scover0_B_0 (c : Dev nD) (i : grid0.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S64x64 .f32) (harg4 : arg4.IsWhole) (arg5 : Memref sig .tc .vmem S1x64 .f32) (harg5 : arg5.IsWhole) (arg6 : Memref sig .tc .vmem S5000x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (hc0 : ¬cond0_0 i) (hc1 : ¬cond0_1 i)
    (x0 : Vec F S5000x64 .f32) (x1 : Vec F S5000x64 .f32) (x2 : Vec F S64x64 .f32) (x3 : Vec F S64x64 .f32) (x4 : Vec F S1x64 .f32) (xs0 : Vec F S1x64 .f32) (xs1 : Vec F S1x64 .f32) (y : S1x64.Idx) :
    ∃ pc ∈ (kernelRun0_B (F := F) c i arg1 harg1 arg2 harg2 arg3 harg3 arg4 harg4 arg5 harg5 arg6 harg6 arg7 harg7 arg8 harg8 arg9 harg9 arg10 harg10 hc0 hc1 x0 x1 x2 x3 x4 xs0 xs1).2.1, y ∈ pc.1.set :=
  View.cover_of_tiledL (kernelRun0_B (F := F) c i arg1 harg1 arg2 harg2 arg3 harg3 arg4 harg4 arg5 harg5 arg6 harg6 arg7 harg7 arg8 harg8 arg9 harg9 arg10 harg10 hc0 hc1 x0 x1 x2 x3 x4 xs0 xs1).2.1 S1x64.size (by sl_kernel_rfl) y
def sout0_B_0 (c : Dev nD) (i : grid0.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S64x64 .f32) (harg4 : arg4.IsWhole) (arg5 : Memref sig .tc .vmem S1x64 .f32) (harg5 : arg5.IsWhole) (arg6 : Memref sig .tc .vmem S5000x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (hc0 : ¬cond0_0 i) (hc1 : ¬cond0_1 i)
    (x0 : Vec F S5000x64 .f32) (x1 : Vec F S5000x64 .f32) (x2 : Vec F S64x64 .f32) (x3 : Vec F S64x64 .f32) (x4 : Vec F S1x64 .f32) (xs0 : Vec F S1x64 .f32) (xs1 : Vec F S1x64 .f32) : Vec F S1x64 .f32 :=
  VS0_0.read (Elt F) (VS0_0.writes (Elt F) VS0_0.junk (kernelRun0_B (F := F) c i arg1 harg1 arg2 harg2 arg3 harg3 arg4 harg4 arg5 harg5 arg6 harg6 arg7 harg7 arg8 harg8 arg9 harg9 arg10 harg10 hc0 hc1 x0 x1 x2 x3 x4 xs0 xs1).2.1)

theorem scover0_B_1 (c : Dev nD) (i : grid0.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S64x64 .f32) (harg4 : arg4.IsWhole) (arg5 : Memref sig .tc .vmem S1x64 .f32) (harg5 : arg5.IsWhole) (arg6 : Memref sig .tc .vmem S5000x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (hc0 : ¬cond0_0 i) (hc1 : ¬cond0_1 i)
    (x0 : Vec F S5000x64 .f32) (x1 : Vec F S5000x64 .f32) (x2 : Vec F S64x64 .f32) (x3 : Vec F S64x64 .f32) (x4 : Vec F S1x64 .f32) (xs0 : Vec F S1x64 .f32) (xs1 : Vec F S1x64 .f32) (y : S1x64.Idx) :
    ∃ pc ∈ (kernelRun0_B (F := F) c i arg1 harg1 arg2 harg2 arg3 harg3 arg4 harg4 arg5 harg5 arg6 harg6 arg7 harg7 arg8 harg8 arg9 harg9 arg10 harg10 hc0 hc1 x0 x1 x2 x3 x4 xs0 xs1).2.2.1, y ∈ pc.1.set :=
  View.cover_of_tiledL (kernelRun0_B (F := F) c i arg1 harg1 arg2 harg2 arg3 harg3 arg4 harg4 arg5 harg5 arg6 harg6 arg7 harg7 arg8 harg8 arg9 harg9 arg10 harg10 hc0 hc1 x0 x1 x2 x3 x4 xs0 xs1).2.2.1 S1x64.size (by sl_kernel_rfl) y
def sout0_B_1 (c : Dev nD) (i : grid0.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S64x64 .f32) (harg4 : arg4.IsWhole) (arg5 : Memref sig .tc .vmem S1x64 .f32) (harg5 : arg5.IsWhole) (arg6 : Memref sig .tc .vmem S5000x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (hc0 : ¬cond0_0 i) (hc1 : ¬cond0_1 i)
    (x0 : Vec F S5000x64 .f32) (x1 : Vec F S5000x64 .f32) (x2 : Vec F S64x64 .f32) (x3 : Vec F S64x64 .f32) (x4 : Vec F S1x64 .f32) (xs0 : Vec F S1x64 .f32) (xs1 : Vec F S1x64 .f32) : Vec F S1x64 .f32 :=
  VS0_1.read (Elt F) (VS0_1.writes (Elt F) VS0_1.junk (kernelRun0_B (F := F) c i arg1 harg1 arg2 harg2 arg3 harg3 arg4 harg4 arg5 harg5 arg6 harg6 arg7 harg7 arg8 harg8 arg9 harg9 arg10 harg10 hc0 hc1 x0 x1 x2 x3 x4 xs0 xs1).2.2.1)

theorem cover0_C_5 (c : Dev nD) (i : grid0.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S64x64 .f32) (harg4 : arg4.IsWhole) (arg5 : Memref sig .tc .vmem S1x64 .f32) (harg5 : arg5.IsWhole) (arg6 : Memref sig .tc .vmem S5000x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (hc0 : ¬cond0_0 i) (hc1 : cond0_1 i)
    (x0 : Vec F S5000x64 .f32) (x1 : Vec F S5000x64 .f32) (x2 : Vec F S64x64 .f32) (x3 : Vec F S64x64 .f32) (x4 : Vec F S1x64 .f32) (xs0 : Vec F S1x64 .f32) (xs1 : Vec F S1x64 .f32) (y : S5000x64.Idx) :
    ∃ pc ∈ (kernelRun0_C (F := F) c i arg1 harg1 arg2 harg2 arg3 harg3 arg4 harg4 arg5 harg5 arg6 harg6 arg7 harg7 arg8 harg8 arg9 harg9 arg10 harg10 hc0 hc1 x0 x1 x2 x3 x4 xs0 xs1).1, y ∈ pc.1.set :=
  View.cover_of_tiledL (kernelRun0_C (F := F) c i arg1 harg1 arg2 harg2 arg3 harg3 arg4 harg4 arg5 harg5 arg6 harg6 arg7 harg7 arg8 harg8 arg9 harg9 arg10 harg10 hc0 hc1 x0 x1 x2 x3 x4 xs0 xs1).1 S5000x64.size (by sl_kernel_rfl) y
def out0_C_5 (c : Dev nD) (i : grid0.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S64x64 .f32) (harg4 : arg4.IsWhole) (arg5 : Memref sig .tc .vmem S1x64 .f32) (harg5 : arg5.IsWhole) (arg6 : Memref sig .tc .vmem S5000x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (hc0 : ¬cond0_0 i) (hc1 : cond0_1 i)
    (x0 : Vec F S5000x64 .f32) (x1 : Vec F S5000x64 .f32) (x2 : Vec F S64x64 .f32) (x3 : Vec F S64x64 .f32) (x4 : Vec F S1x64 .f32) (xs0 : Vec F S1x64 .f32) (xs1 : Vec F S1x64 .f32) : Vec F S5000x64 .f32 :=
  VO0_5.read (Elt F) (VO0_5.writes (Elt F) VO0_5.junk (kernelRun0_C (F := F) c i arg1 harg1 arg2 harg2 arg3 harg3 arg4 harg4 arg5 harg5 arg6 harg6 arg7 harg7 arg8 harg8 arg9 harg9 arg10 harg10 hc0 hc1 x0 x1 x2 x3 x4 xs0 xs1).1)

theorem cover0_C_6 (c : Dev nD) (i : grid0.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S64x64 .f32) (harg4 : arg4.IsWhole) (arg5 : Memref sig .tc .vmem S1x64 .f32) (harg5 : arg5.IsWhole) (arg6 : Memref sig .tc .vmem S5000x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (hc0 : ¬cond0_0 i) (hc1 : cond0_1 i)
    (x0 : Vec F S5000x64 .f32) (x1 : Vec F S5000x64 .f32) (x2 : Vec F S64x64 .f32) (x3 : Vec F S64x64 .f32) (x4 : Vec F S1x64 .f32) (xs0 : Vec F S1x64 .f32) (xs1 : Vec F S1x64 .f32) (y : S1x64.Idx) :
    ∃ pc ∈ (kernelRun0_C (F := F) c i arg1 harg1 arg2 harg2 arg3 harg3 arg4 harg4 arg5 harg5 arg6 harg6 arg7 harg7 arg8 harg8 arg9 harg9 arg10 harg10 hc0 hc1 x0 x1 x2 x3 x4 xs0 xs1).2.1, y ∈ pc.1.set :=
  View.cover_of_tiledL (kernelRun0_C (F := F) c i arg1 harg1 arg2 harg2 arg3 harg3 arg4 harg4 arg5 harg5 arg6 harg6 arg7 harg7 arg8 harg8 arg9 harg9 arg10 harg10 hc0 hc1 x0 x1 x2 x3 x4 xs0 xs1).2.1 S1x64.size (by sl_kernel_rfl) y
def out0_C_6 (c : Dev nD) (i : grid0.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S64x64 .f32) (harg4 : arg4.IsWhole) (arg5 : Memref sig .tc .vmem S1x64 .f32) (harg5 : arg5.IsWhole) (arg6 : Memref sig .tc .vmem S5000x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (hc0 : ¬cond0_0 i) (hc1 : cond0_1 i)
    (x0 : Vec F S5000x64 .f32) (x1 : Vec F S5000x64 .f32) (x2 : Vec F S64x64 .f32) (x3 : Vec F S64x64 .f32) (x4 : Vec F S1x64 .f32) (xs0 : Vec F S1x64 .f32) (xs1 : Vec F S1x64 .f32) : Vec F S1x64 .f32 :=
  VO0_6.read (Elt F) (VO0_6.writes (Elt F) VO0_6.junk (kernelRun0_C (F := F) c i arg1 harg1 arg2 harg2 arg3 harg3 arg4 harg4 arg5 harg5 arg6 harg6 arg7 harg7 arg8 harg8 arg9 harg9 arg10 harg10 hc0 hc1 x0 x1 x2 x3 x4 xs0 xs1).2.1)

theorem cover0_C_7 (c : Dev nD) (i : grid0.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S64x64 .f32) (harg4 : arg4.IsWhole) (arg5 : Memref sig .tc .vmem S1x64 .f32) (harg5 : arg5.IsWhole) (arg6 : Memref sig .tc .vmem S5000x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (hc0 : ¬cond0_0 i) (hc1 : cond0_1 i)
    (x0 : Vec F S5000x64 .f32) (x1 : Vec F S5000x64 .f32) (x2 : Vec F S64x64 .f32) (x3 : Vec F S64x64 .f32) (x4 : Vec F S1x64 .f32) (xs0 : Vec F S1x64 .f32) (xs1 : Vec F S1x64 .f32) (y : S1x64.Idx) :
    ∃ pc ∈ (kernelRun0_C (F := F) c i arg1 harg1 arg2 harg2 arg3 harg3 arg4 harg4 arg5 harg5 arg6 harg6 arg7 harg7 arg8 harg8 arg9 harg9 arg10 harg10 hc0 hc1 x0 x1 x2 x3 x4 xs0 xs1).2.2.1, y ∈ pc.1.set :=
  View.cover_of_tiledL (kernelRun0_C (F := F) c i arg1 harg1 arg2 harg2 arg3 harg3 arg4 harg4 arg5 harg5 arg6 harg6 arg7 harg7 arg8 harg8 arg9 harg9 arg10 harg10 hc0 hc1 x0 x1 x2 x3 x4 xs0 xs1).2.2.1 S1x64.size (by sl_kernel_rfl) y
def out0_C_7 (c : Dev nD) (i : grid0.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S64x64 .f32) (harg4 : arg4.IsWhole) (arg5 : Memref sig .tc .vmem S1x64 .f32) (harg5 : arg5.IsWhole) (arg6 : Memref sig .tc .vmem S5000x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (hc0 : ¬cond0_0 i) (hc1 : cond0_1 i)
    (x0 : Vec F S5000x64 .f32) (x1 : Vec F S5000x64 .f32) (x2 : Vec F S64x64 .f32) (x3 : Vec F S64x64 .f32) (x4 : Vec F S1x64 .f32) (xs0 : Vec F S1x64 .f32) (xs1 : Vec F S1x64 .f32) : Vec F S1x64 .f32 :=
  VO0_7.read (Elt F) (VO0_7.writes (Elt F) VO0_7.junk (kernelRun0_C (F := F) c i arg1 harg1 arg2 harg2 arg3 harg3 arg4 harg4 arg5 harg5 arg6 harg6 arg7 harg7 arg8 harg8 arg9 harg9 arg10 harg10 hc0 hc1 x0 x1 x2 x3 x4 xs0 xs1).2.2.1)

theorem scover0_C_0 (c : Dev nD) (i : grid0.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S64x64 .f32) (harg4 : arg4.IsWhole) (arg5 : Memref sig .tc .vmem S1x64 .f32) (harg5 : arg5.IsWhole) (arg6 : Memref sig .tc .vmem S5000x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (hc0 : ¬cond0_0 i) (hc1 : cond0_1 i)
    (x0 : Vec F S5000x64 .f32) (x1 : Vec F S5000x64 .f32) (x2 : Vec F S64x64 .f32) (x3 : Vec F S64x64 .f32) (x4 : Vec F S1x64 .f32) (xs0 : Vec F S1x64 .f32) (xs1 : Vec F S1x64 .f32) (y : S1x64.Idx) :
    ∃ pc ∈ (kernelRun0_C (F := F) c i arg1 harg1 arg2 harg2 arg3 harg3 arg4 harg4 arg5 harg5 arg6 harg6 arg7 harg7 arg8 harg8 arg9 harg9 arg10 harg10 hc0 hc1 x0 x1 x2 x3 x4 xs0 xs1).2.2.2.1, y ∈ pc.1.set :=
  View.cover_of_tiledL (kernelRun0_C (F := F) c i arg1 harg1 arg2 harg2 arg3 harg3 arg4 harg4 arg5 harg5 arg6 harg6 arg7 harg7 arg8 harg8 arg9 harg9 arg10 harg10 hc0 hc1 x0 x1 x2 x3 x4 xs0 xs1).2.2.2.1 S1x64.size (by sl_kernel_rfl) y
def sout0_C_0 (c : Dev nD) (i : grid0.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S64x64 .f32) (harg4 : arg4.IsWhole) (arg5 : Memref sig .tc .vmem S1x64 .f32) (harg5 : arg5.IsWhole) (arg6 : Memref sig .tc .vmem S5000x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (hc0 : ¬cond0_0 i) (hc1 : cond0_1 i)
    (x0 : Vec F S5000x64 .f32) (x1 : Vec F S5000x64 .f32) (x2 : Vec F S64x64 .f32) (x3 : Vec F S64x64 .f32) (x4 : Vec F S1x64 .f32) (xs0 : Vec F S1x64 .f32) (xs1 : Vec F S1x64 .f32) : Vec F S1x64 .f32 :=
  VS0_0.read (Elt F) (VS0_0.writes (Elt F) VS0_0.junk (kernelRun0_C (F := F) c i arg1 harg1 arg2 harg2 arg3 harg3 arg4 harg4 arg5 harg5 arg6 harg6 arg7 harg7 arg8 harg8 arg9 harg9 arg10 harg10 hc0 hc1 x0 x1 x2 x3 x4 xs0 xs1).2.2.2.1)

theorem scover0_C_1 (c : Dev nD) (i : grid0.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S64x64 .f32) (harg4 : arg4.IsWhole) (arg5 : Memref sig .tc .vmem S1x64 .f32) (harg5 : arg5.IsWhole) (arg6 : Memref sig .tc .vmem S5000x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (hc0 : ¬cond0_0 i) (hc1 : cond0_1 i)
    (x0 : Vec F S5000x64 .f32) (x1 : Vec F S5000x64 .f32) (x2 : Vec F S64x64 .f32) (x3 : Vec F S64x64 .f32) (x4 : Vec F S1x64 .f32) (xs0 : Vec F S1x64 .f32) (xs1 : Vec F S1x64 .f32) (y : S1x64.Idx) :
    ∃ pc ∈ (kernelRun0_C (F := F) c i arg1 harg1 arg2 harg2 arg3 harg3 arg4 harg4 arg5 harg5 arg6 harg6 arg7 harg7 arg8 harg8 arg9 harg9 arg10 harg10 hc0 hc1 x0 x1 x2 x3 x4 xs0 xs1).2.2.2.2.1, y ∈ pc.1.set :=
  View.cover_of_tiledL (kernelRun0_C (F := F) c i arg1 harg1 arg2 harg2 arg3 harg3 arg4 harg4 arg5 harg5 arg6 harg6 arg7 harg7 arg8 harg8 arg9 harg9 arg10 harg10 hc0 hc1 x0 x1 x2 x3 x4 xs0 xs1).2.2.2.2.1 S1x64.size (by sl_kernel_rfl) y
def sout0_C_1 (c : Dev nD) (i : grid0.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S64x64 .f32) (harg4 : arg4.IsWhole) (arg5 : Memref sig .tc .vmem S1x64 .f32) (harg5 : arg5.IsWhole) (arg6 : Memref sig .tc .vmem S5000x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (hc0 : ¬cond0_0 i) (hc1 : cond0_1 i)
    (x0 : Vec F S5000x64 .f32) (x1 : Vec F S5000x64 .f32) (x2 : Vec F S64x64 .f32) (x3 : Vec F S64x64 .f32) (x4 : Vec F S1x64 .f32) (xs0 : Vec F S1x64 .f32) (xs1 : Vec F S1x64 .f32) : Vec F S1x64 .f32 :=
  VS0_1.read (Elt F) (VS0_1.writes (Elt F) VS0_1.junk (kernelRun0_C (F := F) c i arg1 harg1 arg2 harg2 arg3 harg3 arg4 harg4 arg5 harg5 arg6 harg6 arg7 harg7 arg8 harg8 arg9 harg9 arg10 harg10 hc0 hc1 x0 x1 x2 x3 x4 xs0 xs1).2.2.2.2.1)

/-! ## What the buffers hold after each point -/

/-- After a point: the three outputs' staging buffers and the two accumulators. -/
structure Outs0 (F : FTy → Type) [FloatOps F] where
  o5 : Vec F S5000x64 .f32
  o6 : Vec F S1x64 .f32
  o7 : Vec F S1x64 .f32
  s0 : Vec F S1x64 .f32
  s1 : Vec F S1x64 .f32

theorem hA0 (t : Fin cfg0.N) (h : t.val = 0) : cond0_0 (grid0.coords t) := (cond0_0_iff t).mpr h
theorem hnA0 (t : Fin cfg0.N) (h : t.val ≠ 0) : ¬cond0_0 (grid0.coords t) := fun h' => h ((cond0_0_iff t).mp h')
theorem hC0 (t : Fin cfg0.N) (h : t.val = 19) : cond0_1 (grid0.coords t) := (cond0_1_iff t).mpr h
theorem hnC0 (t : Fin cfg0.N) (h : t.val ≠ 19) : ¬cond0_1 (grid0.coords t) := fun h' => h ((cond0_1_iff t).mp h')

/-- The point's contents in case A. -/
def outA0 (c : Dev nD) (t : Fin cfg0.N) (hc0 : cond0_0 (grid0.coords t)) (hc1 : ¬cond0_1 (grid0.coords t)) : Outs0 F where
  o5 := out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) hc0 hc1 (iblk0 V c 0 t) (iblk0 V c 1 t) (iblk0 V c 2 t) (iblk0 V c 3 t) (iblk0 V c 4 t)
  o6 := VO0_6.read (Elt F) VO0_6.junk
  o7 := VO0_7.read (Elt F) VO0_7.junk
  s0 := sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) hc0 hc1 (iblk0 V c 0 t) (iblk0 V c 1 t) (iblk0 V c 2 t) (iblk0 V c 3 t) (iblk0 V c 4 t)
  s1 := sout0_A_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) hc0 hc1 (iblk0 V c 0 t) (iblk0 V c 1 t) (iblk0 V c 2 t) (iblk0 V c 3 t) (iblk0 V c 4 t)

/-- The point's contents in case B, over what the point before left in the accumulators. -/
def outB0 (c : Dev nD) (t : Fin cfg0.N) (hc0 : ¬cond0_0 (grid0.coords t)) (hc1 : ¬cond0_1 (grid0.coords t)) (p : Outs0 F) : Outs0 F where
  o5 := out0_B_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) hc0 hc1 (iblk0 V c 0 t) (iblk0 V c 1 t) (iblk0 V c 2 t) (iblk0 V c 3 t) (iblk0 V c 4 t) p.s0 p.s1
  o6 := VO0_6.read (Elt F) VO0_6.junk
  o7 := VO0_7.read (Elt F) VO0_7.junk
  s0 := sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) hc0 hc1 (iblk0 V c 0 t) (iblk0 V c 1 t) (iblk0 V c 2 t) (iblk0 V c 3 t) (iblk0 V c 4 t) p.s0 p.s1
  s1 := sout0_B_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) hc0 hc1 (iblk0 V c 0 t) (iblk0 V c 1 t) (iblk0 V c 2 t) (iblk0 V c 3 t) (iblk0 V c 4 t) p.s0 p.s1

/-- The point's contents in case C, over what the point before left in the accumulators. -/
def outC0 (c : Dev nD) (t : Fin cfg0.N) (hc0 : ¬cond0_0 (grid0.coords t)) (hc1 : cond0_1 (grid0.coords t)) (p : Outs0 F) : Outs0 F where
  o5 := out0_C_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) hc0 hc1 (iblk0 V c 0 t) (iblk0 V c 1 t) (iblk0 V c 2 t) (iblk0 V c 3 t) (iblk0 V c 4 t) p.s0 p.s1
  o6 := out0_C_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) hc0 hc1 (iblk0 V c 0 t) (iblk0 V c 1 t) (iblk0 V c 2 t) (iblk0 V c 3 t) (iblk0 V c 4 t) p.s0 p.s1
  o7 := out0_C_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) hc0 hc1 (iblk0 V c 0 t) (iblk0 V c 1 t) (iblk0 V c 2 t) (iblk0 V c 3 t) (iblk0 V c 4 t) p.s0 p.s1
  s0 := sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) hc0 hc1 (iblk0 V c 0 t) (iblk0 V c 1 t) (iblk0 V c 2 t) (iblk0 V c 3 t) (iblk0 V c 4 t) p.s0 p.s1
  s1 := sout0_C_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) hc0 hc1 (iblk0 V c 0 t) (iblk0 V c 1 t) (iblk0 V c 2 t) (iblk0 V c 3 t) (iblk0 V c 4 t) p.s0 p.s1

/-- THE ACCUMULATION: the first point runs from accumulators at anything, every later one from what the point before left. -/
def outsAt0 (c : Dev nD) : (n : ℕ) → n < cfg0.N → Outs0 F
  | 0, hn => outA0 V c ⟨0, hn⟩ (hA0 ⟨0, hn⟩ rfl) (hnC0 ⟨0, hn⟩ (fun h => absurd (show (0 : ℕ) = 19 from h) (by decide)))
  | n + 1, hn =>
    if h : n + 1 = 19 then
      outC0 V c ⟨n + 1, hn⟩ (hnA0 ⟨n + 1, hn⟩ (Nat.succ_ne_zero n)) (hC0 ⟨n + 1, hn⟩ h) (outsAt0 c n (Nat.lt_of_succ_lt hn))
    else
      outB0 V c ⟨n + 1, hn⟩ (hnA0 ⟨n + 1, hn⟩ (Nat.succ_ne_zero n)) (hnC0 ⟨n + 1, hn⟩ h) (outsAt0 c n (Nat.lt_of_succ_lt hn))

theorem outsAt0_first (c : Dev nD) (t : Fin cfg0.N) (h0 : t.val = 0) (h1 : t.val ≠ 19) :
    outsAt0 V c t.val t.isLt = outA0 V c t (hA0 t h0) (hnC0 t h1) := by
  obtain ⟨n, hn⟩ := t
  cases n with
  | zero => rfl
  | succ n => exact absurd h0 (Nat.succ_ne_zero n)
theorem outsAt0_mid (c : Dev nD) (t : Fin cfg0.N) (h0 : t.val ≠ 0) (h1 : t.val ≠ 19) :
    outsAt0 V c t.val t.isLt = outB0 V c t (hnA0 t h0) (hnC0 t h1) (outsAt0 V c (t.val - 1) (Nat.lt_of_le_of_lt (Nat.sub_le _ _) t.isLt)) := by
  obtain ⟨n, hn⟩ := t
  cases n with
  | zero => exact absurd rfl h0
  | succ n => exact (dif_neg h1).trans rfl
theorem outsAt0_last (c : Dev nD) (t : Fin cfg0.N) (h0 : t.val ≠ 0) (h1 : t.val = 19) :
    outsAt0 V c t.val t.isLt = outC0 V c t (hnA0 t h0) (hC0 t h1) (outsAt0 V c (t.val - 1) (Nat.lt_of_le_of_lt (Nat.sub_le _ _) t.isLt)) := by
  obtain ⟨n, hn⟩ := t
  cases n with
  | zero => exact absurd rfl h0
  | succ n => exact (dif_pos h1).trans rfl

/-- The region's invariant before position `n`. -/
def PhiS0 (c : Dev nD) : (n : ℕ) → n ≤ cfg0.N → sProp 𝕄
  | 0, _ => Pipeline.ΦA spec0 c
  | n + 1, hn => iprop(iprop(iprop(owns (c : Thread nD τ) scM0_0 fullShare ((outsAt0 V c n hn).s0) ∗ owns (c : Thread nD τ) scM0_1 fullShare ((outsAt0 V c n hn).s1)) ∗ rest0 (F := F) c) ∗ (∃ r, prngReg c r))

theorem PhiS0_zero (c : Dev nD) (n : ℕ) (h : n ≤ cfg0.N) (hz : n = 0) : PhiS0 V c n h = Pipeline.ΦA spec0 c := by
  subst hz; rfl
theorem PhiS0_succ (c : Dev nD) (n : ℕ) (hn : n < cfg0.N) :
    PhiS0 V c (n + 1) hn = iprop(iprop(iprop(owns (c : Thread nD τ) scM0_0 fullShare ((outsAt0 V c n hn).s0) ∗ owns (c : Thread nD τ) scM0_1 fullShare ((outsAt0 V c n hn).s1)) ∗ rest0 (F := F) c) ∗ (∃ r, prngReg c r)) := rfl
theorem PhiS0_pos (c : Dev nD) (n : ℕ) (h : n ≤ cfg0.N) (hz : n ≠ 0) :
    PhiS0 V c n h = iprop(iprop(iprop(owns (c : Thread nD τ) scM0_0 fullShare ((outsAt0 V c (n - 1) (by omega)).s0) ∗ owns (c : Thread nD τ) scM0_1 fullShare ((outsAt0 V c (n - 1) (by omega)).s1)) ∗ rest0 (F := F) c) ∗ (∃ r, prngReg c r)) := by
  cases n with
  | zero => exact absurd rfl hz
  | succ n => rfl

/-! ## The pipeline's proof data -/

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => (outsAt0 V c t.val t.isLt).o5
    | ⟨6, _⟩ => (outsAt0 V c t.val t.isLt).o6
    | ⟨7, _⟩ => (outsAt0 V c t.val t.isLt).o7
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem PhiS0_castSucc (c : Dev nD) (t : Fin cfg0.N) :
    (dat0 V c).Φ t.castSucc = PhiS0 V c t.val (Nat.le_of_lt t.isLt) := by
  dsimp only [dat0]; simp only [Fin.coe_castSucc]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = (outsAt0 V c t.val t.isLt).o5 := by dsimp only [dat0]
theorem after0_6 (c : Dev nD) (t : Fin cfg0.N) : (dat0 V c).after 6 t = (outsAt0 V c t.val t.isLt).o6 := by dsimp only [dat0]
theorem after0_7 (c : Dev nD) (t : Fin cfg0.N) : (dat0 V c).after 7 t = (outsAt0 V c t.val t.isLt).o7 := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d))
    ∗ (∃ d, owns (c : Thread nD τ) (ms0_6 t) fullShare ((dat0 V c).before 6 t d))
    ∗ (∃ d, owns (c : Thread nD τ) (ms0_7 t) fullShare ((dat0 V c).before 7 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t
    ∗ (dat0 V c).leavesExact 6 t
    ∗ (dat0 V c).leavesExact 7 t)

set_option maxHeartbeats 8000000 in
/-- The body at any point: which case the point is in is decided by its position; the invariant hands the body the
    accumulators (at anything at the first point, at the previous point's contents afterwards) and takes them back at this
    point's contents; the core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).owesAt () t.succ = (dat0 V c).owesAt () t.castSucc from rfl]
  rw [show (dat0 V c).Φ t.succ = PhiS0 V c (t.val + 1) t.isLt from rfl, PhiS0_succ]
  have hN : t.val < 20 := lt_of_lt_of_eq t.isLt (show cfg0.N = 20 from N_0)
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  rw [show (dat0 V c).leavesExact 2 t = owns (c : Thread nD τ) (ms0_2 t) fullShare ((dat0 V c).after 2 t) from by
    unfold Dat.leavesExact; rw [liveAt0_2 t], after0_2]
  rw [show (dat0 V c).leavesExact 3 t = owns (c : Thread nD τ) (ms0_3 t) fullShare ((dat0 V c).after 3 t) from by
    unfold Dat.leavesExact; rw [liveAt0_3 t], after0_3]
  rw [show (dat0 V c).leavesExact 4 t = owns (c : Thread nD τ) (ms0_4 t) fullShare ((dat0 V c).after 4 t) from by
    unfold Dat.leavesExact; rw [liveAt0_4 t], after0_4]
  rw [show (dat0 V c).leavesExact 5 t = owns (c : Thread nD τ) (ms0_5 t) fullShare ((dat0 V c).after 5 t) from by
    unfold Dat.leavesExact; rw [liveAt0_5 t], after0_5]
  by_cases h0 : t.val = 0
  · have h1 : t.val ≠ 19 := by omega
    rw [Dat.leavesExact_idle (dat0 V c) 6 t (idleAt0_6 t (hnC0 t h1)) (noFlush0_6 t (hnC0 t h1))]
    rw [Dat.leavesExact_idle (dat0 V c) 7 t (idleAt0_7 t (hnC0 t h1)) (noFlush0_7 t (hnC0 t h1))]
    rw [outsAt0_first V c t h0 h1]
    unfold outA0; dsimp only
    unfold out0_A_5 sout0_A_0 sout0_A_1
    rw [PhiS0_castSucc V c t, PhiS0_zero V c _ _ h0, PhiA0_eq]
    iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((kernelRun0_A (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (hA0 t h0) (hnC0 t h1) (iblk0 V c 0 t) (iblk0 V c 1 t) (iblk0 V c 2 t) (iblk0 V c 3 t) (iblk0 V c 4 t)).2.2.2 _ _ Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexact H6
    isplitl [H7]; · iexact H7
    isplitl [HS0]; · iexact HS0
    isplitl [HS1]; · iexact HS1
    iintro ⟨H0, H1, H2, H3, H4, ⟨%e5, H5⟩, H6, H7, ⟨%es0, HS0⟩, ⟨%es1, HS1⟩⟩
    isplitl [HS0 HS1 Hrest Hg]
    · isplitl [HS0 HS1 Hrest]
      · isplitl [HS0 HS1]
        · isplitl [HS0]
          · unfold owns; iexists _; isplitr
            swap; · iexact HS0
            ipureintro; exact View.read_writes_of_cover _ _ _ _ _ (scover0_A_0 c _ _ _ _ _ _ _ _ _ _ _ _ _ _ _ _ _ _ _ _ _ _ _ _ _ _ _ _)
          unfold owns; iexists _; isplitr
          swap; · iexact HS1
          ipureintro; exact View.read_writes_of_cover _ _ _ _ _ (scover0_A_1 c _ _ _ _ _ _ _ _ _ _ _ _ _ _ _ _ _ _ _ _ _ _ _ _ _ _ _ _)
        iexact Hrest
      iexact Hg
    isplitl [Ho]; · iexact Ho
    isplitl [H0]; · iexact H0
    isplitl [H1]; · iexact H1
    isplitl [H2]; · iexact H2
    isplitl [H3]; · iexact H3
    isplitl [H4]; · iexact H4
    isplitl [H5]
    · unfold owns; iexists _; isplitr
      swap; · iexact H5
      ipureintro; exact View.read_writes_of_cover _ _ _ _ _ (cover0_A_5 c _ _ _ _ _ _ _ _ _ _ _ _ _ _ _ _ _ _ _ _ _ _ _ _ _ _ _ _)
    isplitl [H6]; · iexists _; iexact H6
    iexists _; iexact H7
  · by_cases h1 : t.val = 19
    rw [show (dat0 V c).leavesExact 6 t = owns (c : Thread nD τ) (ms0_6 t) fullShare ((dat0 V c).after 6 t) from by
      unfold Dat.leavesExact; rw [liveAt0_6_C t (hC0 t h1)], after0_6]
    rw [show (dat0 V c).leavesExact 7 t = owns (c : Thread nD τ) (ms0_7 t) fullShare ((dat0 V c).after 7 t) from by
      unfold Dat.leavesExact; rw [liveAt0_7_C t (hC0 t h1)], after0_7]
    rw [outsAt0_last V c t h0 h1]
    unfold outC0; dsimp only
    unfold out0_C_5 out0_C_6 out0_C_7 sout0_C_0 sout0_C_1
    rw [PhiS0_castSucc V c t, PhiS0_pos V c _ _ h0]
    iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((kernelRun0_C (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (hnA0 t h0) (hC0 t h1) (iblk0 V c 0 t) (iblk0 V c 1 t) (iblk0 V c 2 t) (iblk0 V c 3 t) (iblk0 V c 4 t) _ _).2.2.2.2.2 Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [H7]; · iexists _; iexact H7
    isplitl [HS0]; · iexact HS0
    isplitl [HS1]; · iexact HS1
    iintro ⟨H0, H1, H2, H3, H4, ⟨%e5, H5⟩, ⟨%e6, H6⟩, ⟨%e7, H7⟩, ⟨%es0, HS0⟩, ⟨%es1, HS1⟩⟩
    isplitl [HS0 HS1 Hrest Hg]
    · isplitl [HS0 HS1 Hrest]
      · isplitl [HS0 HS1]
        · isplitl [HS0]
          · unfold owns; iexists _; isplitr
            swap; · iexact HS0
            ipureintro; exact View.read_writes_of_cover _ _ _ _ _ (scover0_C_0 c _ _ _ _ _ _ _ _ _ _ _ _ _ _ _ _ _ _ _ _ _ _ _ _ _ _ _ _ _ _)
          unfold owns; iexists _; isplitr
          swap; · iexact HS1
          ipureintro; exact View.read_writes_of_cover _ _ _ _ _ (scover0_C_1 c _ _ _ _ _ _ _ _ _ _ _ _ _ _ _ _ _ _ _ _ _ _ _ _ _ _ _ _ _ _)
        iexact Hrest
      iexact Hg
    isplitl [Ho]; · iexact Ho
    isplitl [H0]; · iexact H0
    isplitl [H1]; · iexact H1
    isplitl [H2]; · iexact H2
    isplitl [H3]; · iexact H3
    isplitl [H4]; · iexact H4
    isplitl [H5]
    · unfold owns; iexists _; isplitr
      swap; · iexact H5
      ipureintro; exact View.read_writes_of_cover _ _ _ _ _ (cover0_C_5 c _ _ _ _ _ _ _ _ _ _ _ _ _ _ _ _ _ _ _ _ _ _ _ _ _ _ _ _ _ _)
    isplitl [H6]
    · unfold owns; iexists _; isplitr
      swap; · iexact H6
      ipureintro; exact View.read_writes_of_cover _ _ _ _ _ (cover0_C_6 c _ _ _ _ _ _ _ _ _ _ _ _ _ _ _ _ _ _ _ _ _ _ _ _ _ _ _ _ _ _)
    unfold owns; iexists _; isplitr
    swap; · iexact H7
    ipureintro; exact View.read_writes_of_cover _ _ _ _ _ (cover0_C_7 c _ _ _ _ _ _ _ _ _ _ _ _ _ _ _ _ _ _ _ _ _ _ _ _ _ _ _ _ _ _)
    rw [Dat.leavesExact_idle (dat0 V c) 6 t (idleAt0_6 t (hnC0 t h1)) (noFlush0_6 t (hnC0 t h1))]
    rw [Dat.leavesExact_idle (dat0 V c) 7 t (idleAt0_7 t (hnC0 t h1)) (noFlush0_7 t (hnC0 t h1))]
    rw [outsAt0_mid V c t h0 h1]
    unfold outB0; dsimp only
    unfold out0_B_5 sout0_B_0 sout0_B_1
    rw [PhiS0_castSucc V c t, PhiS0_pos V c _ _ h0]
    iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((kernelRun0_B (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (hnA0 t h0) (hnC0 t h1) (iblk0 V c 0 t) (iblk0 V c 1 t) (iblk0 V c 2 t) (iblk0 V c 3 t) (iblk0 V c 4 t) _ _).2.2.2 _ _ Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexact H6
    isplitl [H7]; · iexact H7
    isplitl [HS0]; · iexact HS0
    isplitl [HS1]; · iexact HS1
    iintro ⟨H0, H1, H2, H3, H4, ⟨%e5, H5⟩, H6, H7, ⟨%es0, HS0⟩, ⟨%es1, HS1⟩⟩
    isplitl [HS0 HS1 Hrest Hg]
    · isplitl [HS0 HS1 Hrest]
      · isplitl [HS0 HS1]
        · isplitl [HS0]
          · unfold owns; iexists _; isplitr
            swap; · iexact HS0
            ipureintro; exact View.read_writes_of_cover _ _ _ _ _ (scover0_B_0 c _ _ _ _ _ _ _ _ _ _ _ _ _ _ _ _ _ _ _ _ _ _ _ _ _ _ _ _ _ _)
          unfold owns; iexists _; isplitr
          swap; · iexact HS1
          ipureintro; exact View.read_writes_of_cover _ _ _ _ _ (scover0_B_1 c _ _ _ _ _ _ _ _ _ _ _ _ _ _ _ _ _ _ _ _ _ _ _ _ _ _ _ _ _ _)
        iexact Hrest
      iexact Hg
    isplitl [Ho]; · iexact Ho
    isplitl [H0]; · iexact H0
    isplitl [H1]; · iexact H1
    isplitl [H2]; · iexact H2
    isplitl [H3]; · iexact H3
    isplitl [H4]; · iexact H4
    isplitl [H5]
    · unfold owns; iexists _; isplitr
      swap; · iexact H5
      ipureintro; exact View.read_writes_of_cover _ _ _ _ _ (cover0_B_5 c _ _ _ _ _ _ _ _ _ _ _ _ _ _ _ _ _ _ _ _ _ _ _ _ _ _ _ _ _ _)
    isplitl [H6]; · iexists _; iexact H6
    iexists _; iexact H7

/-- The library's body obligation, at every point. -/
theorem body_obligation0 (c : Dev nD) : BodyObligation (dat0 (F := F) V c) (defs₀ (F := F)) Variants.none () Set.univ := fun t => by
  rw [bigSep_W0, bigSep_W0]
  exact sound_body0 V c t

theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After any point but the first the invariant gives the class's back: the accumulators' contents are forgotten. -/
theorem Phi_out0 (c : Dev nD) (t : Fin (cfg0.N + 1)) (ht : t.val ≠ 0) : (dat0 V c).Φ t ⊢ Pipeline.ΦA spec0 c := by
  rw [show (dat0 V c).Φ t = PhiS0 V c t.val (Nat.le_of_lt_succ t.isLt) from rfl, PhiS0_pos V c _ _ ht, PhiA0_eq]
  iintro ⟨⟨⟨HS0, HS1⟩, Hrest⟩, Hg⟩
  isplitl [HS0 HS1 Hrest]
  · isplitl [HS0 HS1]
    · isplitl [HS0]; · iexists _; iexact HS0
      iexists _; iexact HS1
    iexact Hrest
  iexact Hg
theorem hout0 (c : Dev nD) : (dat0 V c).Φ (Fin.last cfg0.N) ⊢ Pipeline.ΦA spec0 c :=
  Phi_out0 V c _ (by rw [Fin.val_last]; have : cfg0.N = 20 := N_0; omega)

end Cert.Kernel.Hand

end
-- ==== Proof.KernelR1Kit.lean ====
/- Region 1 of @main (the pallas_call of `cc1__ffn_kernel`): what its body's runs are stated over, at the contents `V` the
   region is entered with. A window's block at a grid point is read off its array; an input's staging buffer holds that
   block at every point (it is fetched when the block index moves and kept otherwise). The body has two conditionals on the
   grid coordinate: the first holds at the first point only (there the two accumulators are cleared), the second at the
   last point only (there the accumulators are copied to the two small outputs). At every other point those two outputs'
   staging buffers are left alone and are not written back. -/
import proofs.«149204_j28372553957731_2_alg».proof.Proof.KernelLaunchP
import proofs.«149204_j28372553957731_2_alg».proof.Proof.Gen.Kernel.Skeleton
import proofs.«149204_j28372553957731_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, fetched there or not. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's current staging buffer holds its block at every point, fetched there or not. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- Input window 5's current staging buffer holds its block at every point, fetched there or not. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-- Input window 6's current staging buffer holds its block at every point, fetched there or not. -/
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)

/-- Input window 7's current staging buffer holds its block at every point, fetched there or not. -/
theorem before1_7_of {c : Dev nD} (dat : Dat τ (Elt F) Unit ℕ (UR sig nD τ) ℕ cfg1 c) (hA : dat.A 7 = V c (Pipeline.arrRef spec1 7))
    (hafter : ∀ t, dat.after 7 t = iblk1 V c 7 t) (t : Fin cfg1.N) (d) : dat.before 7 t d = iblk1 V c 7 t :=
  (dat.before_in_eq_fetched 7 rfl (fun _ => rfl) (fun _ _ _ => rfl) (fun t => by rw [hafter]; unfold Dat.blockOf iblk1; rw [hA]; try rfl) t d).trans
    (by unfold Dat.fetched Dat.blockOf iblk1; rw [hA]; try rfl)

/-! ## The body's two conditions -/

/-- "This is the first point": the body's first conditional, from the grid coordinate. -/
abbrev cond1_0 (i : grid1.Coords) : Prop := (Scalar.cmpi .ne (Scalar.extui (Scalar.cmpi .eq (BitVec.ofNat 32 (i 0).val) 0#32)) 0#32) = 1#1
theorem hcond1_0 : ∀ t : Fin cfg1.N, cond1_0 (grid1.coords t) ↔ t.val % 50 = 0 :=
  (by decide +kernel : ∀ t : Fin grid1.N, cond1_0 (grid1.coords t) ↔ t.val % 50 = 0)
/-- "This is the last point": the body's second conditional. -/
abbrev cond1_1 (i : grid1.Coords) : Prop := k1_cond2 i = 1#1
theorem hcond1_1 : ∀ t : Fin cfg1.N, cond1_1 (grid1.coords t) ↔ t.val % 50 = 49 :=
  (by decide +kernel : ∀ t : Fin grid1.N, cond1_1 (grid1.coords t) ↔ t.val % 50 = 49)

theorem cond1_0_iff (t : Fin cfg1.N) : cond1_0 (grid1.coords t) ↔ t.val = 0 := by
  have hN : t.val < 50 := lt_of_lt_of_eq t.isLt (show cfg1.N = 50 from N_1)
  rw [hcond1_0 t]; omega
theorem cond1_1_iff (t : Fin cfg1.N) : cond1_1 (grid1.coords t) ↔ t.val = 49 := by
  have hN : t.val < 50 := lt_of_lt_of_eq t.isLt (show cfg1.N = 50 from N_1)
  rw [hcond1_1 t]; omega

/-! ## Where the windows are idle -/
theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
theorem liveAt1_4 : ∀ t : Fin cfg1.N, cfg1.idle 4 (grid1.coords t) = false := by decide +kernel
theorem liveAt1_5 : ∀ t : Fin cfg1.N, cfg1.idle 5 (grid1.coords t) = false := by decide +kernel
theorem liveAt1_6 : ∀ t : Fin cfg1.N, cfg1.idle 6 (grid1.coords t) = false := by decide +kernel
theorem liveAt1_7 : ∀ t : Fin cfg1.N, cfg1.idle 7 (grid1.coords t) = false := by decide +kernel
theorem liveAt1_8 : ∀ t : Fin cfg1.N, cfg1.idle 8 (grid1.coords t) = false := by decide +kernel
/-- Away from the last point output 9 is idle and is not written back; at the last point it is live. -/
theorem idleAt1_9 : ∀ t : Fin cfg1.N, ¬cond1_1 (grid1.coords t) → cfg1.idle 9 (grid1.coords t) = true := by decide +kernel
theorem noFlush1_9 : ∀ t : Fin cfg1.N, ¬cond1_1 (grid1.coords t) → (cfg1.win 9).flush t = false := by decide +kernel
theorem liveAt1_9_C : ∀ t : Fin cfg1.N, cond1_1 (grid1.coords t) → cfg1.idle 9 (grid1.coords t) = false := by decide +kernel
/-- Away from the last point output 10 is idle and is not written back; at the last point it is live. -/
theorem idleAt1_10 : ∀ t : Fin cfg1.N, ¬cond1_1 (grid1.coords t) → cfg1.idle 10 (grid1.coords t) = true := by decide +kernel
theorem noFlush1_10 : ∀ t : Fin cfg1.N, ¬cond1_1 (grid1.coords t) → (cfg1.win 10).flush t = false := by decide +kernel
theorem liveAt1_10_C : ∀ t : Fin cfg1.N, cond1_1 (grid1.coords t) → cfg1.idle 10 (grid1.coords t) = false := by decide +kernel

/-! ## The memrefs the body is called with -/

abbrev VO1_8 : View sig .tc .vmem S2000x64 .f32 := (Memref.whole cc1_stg8_0 : Memref sig .tc .vmem S2000x64 .f32).view
abbrev VO1_9 : View sig .tc .vmem S1x64 .f32 := (Memref.whole cc1_stg9_0 : Memref sig .tc .vmem S1x64 .f32).view
abbrev VO1_10 : View sig .tc .vmem S1x64 .f32 := (Memref.whole cc1_stg10_0 : Memref sig .tc .vmem S1x64 .f32).view
abbrev ms1_0 (t : Fin cfg1.N) : Memref sig .tc .vmem S2000x64 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S2000x64 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x64 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x64 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S64x128 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1x128 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S128x64 .f32 := win1_6.stage (cfg1.slots t 6)
abbrev hs1_6 (t : Fin cfg1.N) : (ms1_6 t).IsWhole := hstage1_6 ((cfg1.slots t 6).cast nbuf1_6)
abbrev ms1_7 (t : Fin cfg1.N) : Memref sig .tc .vmem S1x64 .f32 := win1_7.stage (cfg1.slots t 7)
abbrev hs1_7 (t : Fin cfg1.N) : (ms1_7 t).IsWhole := hstage1_7 ((cfg1.slots t 7).cast nbuf1_7)
abbrev ms1_8 (t : Fin cfg1.N) : Memref sig .tc .vmem S2000x64 .f32 := win1_8.stage (cfg1.slots t 8)
abbrev hs1_8 (t : Fin cfg1.N) : (ms1_8 t).IsWhole := hstage1_8 ((cfg1.slots t 8).cast nbuf1_8)
abbrev ms1_9 (t : Fin cfg1.N) : Memref sig .tc .vmem S1x64 .f32 := win1_9.stage (cfg1.slots t 9)
abbrev hs1_9 (t : Fin cfg1.N) : (ms1_9 t).IsWhole := hstage1_9 ((cfg1.slots t 9).cast nbuf1_9)
abbrev ms1_10 (t : Fin cfg1.N) : Memref sig .tc .vmem S1x64 .f32 := win1_10.stage (cfg1.slots t 10)
abbrev hs1_10 (t : Fin cfg1.N) : (ms1_10 t).IsWhole := hstage1_10 ((cfg1.slots t 10).cast nbuf1_10)
abbrev scM1_0 : Memref sig .tc .vmem S1x64 .f32 := Memref.whole cc1_scratch0
abbrev VS1_0 : View sig .tc .vmem S1x64 .f32 := scM1_0.view
abbrev scM1_1 : Memref sig .tc .vmem S1x64 .f32 := Memref.whole cc1_scratch1
abbrev VS1_1 : View sig .tc .vmem S1x64 .f32 := scM1_1.view

/-- The core's other scoped buffers (the other calls' staging buffers and accumulators), which this region never opens. -/
abbrev rest1 (c : Dev nD) : sProp 𝕄 :=
  Pipeline.scopedRestBut (Ix := Unit) (Name := ℕ) (U := UR sig nD τ) (Lvl := ℕ) (Val := Elt F) spec1 c [cc1_scratch0, cc1_scratch1]

/-- The region's invariant before its first point: the two accumulators owned at some contents, the other scoped
    buffers unopened, and the generator register. -/
theorem PhiA1_eq (c : Dev nD) :
    (Pipeline.ΦA spec1 c : sProp 𝕄)
      = iprop(iprop(iprop((∃ d, owns (c : Thread nD τ) scM1_0 fullShare d) ∗ (∃ d, owns (c : Thread nD τ) scM1_1 fullShare d)) ∗ rest1 (F := F) c) ∗ (∃ r, prngReg c r)) := by
  unfold Pipeline.ΦA
  rw [Pipeline.scopedRest_split_of_list spec1 c [cc1_scratch0, cc1_scratch1] (by decide) (by decide)]
  simp only [scM1_0, scM1_1, owns_whole]; try rfl

end Cert.Kernel.Hand

end
-- ==== Proof.KernelR1RunA.lean ====
/- Region 1, the body's whole run in case A (the first grid point: the accumulators are cleared, then added to).
   From whole staging memrefs — the inputs at their contents, the accumulators at anything,
   the two small outputs at contents handed back untouched, the other outputs at anything — the body runs to the end leaving the inputs as they were and each
   buffer it stored into with its stores written; the lists of stores are what the run finds. -/
import proofs.«149204_j28372553957731_2_alg».proof.Proof.KernelR1Kit

set_option maxRecDepth 16384

noncomputable section

namespace Cert.Kernel.Hand

open Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun1_A (c : Dev nD) (i : grid1.Coords) (arg1 : Memref sig .tc .vmem S2000x64 .f32) (harg1 : arg1.IsWhole) (arg2 : Memref sig .tc .vmem S2000x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S64x128 .f32) (harg5 : arg5.IsWhole) (arg6 : Memref sig .tc .vmem S1x128 .f32) (harg6 : arg6.IsWhole) (arg7 : Memref sig .tc .vmem S128x64 .f32) (harg7 : arg7.IsWhole) (arg8 : Memref sig .tc .vmem S1x64 .f32) (harg8 : arg8.IsWhole) (arg9 : Memref sig .tc .vmem S2000x64 .f32) (harg9 : arg9.IsWhole) (arg10 : Memref sig .tc .vmem S1x64 .f32) (harg10 : arg10.IsWhole) (arg11 : Memref sig .tc .vmem S1x64 .f32) (harg11 : arg11.IsWhole) (arg12 : Memref sig .tc .vmem S1x64 .f32) (harg12 : arg12.IsWhole) (arg13 : Memref sig .tc .vmem S1x64 .f32) (harg13 : arg13.IsWhole) (hc0 : cond1_0 i) (hc1 : ¬cond1_1 i)
    (x0 : Vec F S2000x64 .f32) (x1 : Vec F S2000x64 .f32) (x2 : Vec F S1x64 .f32) (x3 : Vec F S1x64 .f32) (x4 : Vec F S64x128 .f32) (x5 : Vec F S1x128 .f32) (x6 : Vec F S128x64 .f32) (x7 : Vec F S1x64 .f32) :
    Σ' (L8 : List (View.Piece (Elt F) S2000x64 .f32)), Σ' (LS0 : List (View.Piece (Elt F) S1x64 .f32)), { LS1 : List (View.Piece (Elt F) S1x64 .f32) //
      ∀ (xi9 : Vec F S1x64 .f32) (xi10 : Vec F S1x64 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d) ∗ owns (c : Thread nD τ) arg10 fullShare xi9 ∗ owns (c : Thread nD τ) arg11 fullShare xi10 ∗ (∃ d, owns (c : Thread nD τ) arg12 fullShare d) ∗ (∃ d, owns (c : Thread nD τ) arg13 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ f, arg9.view.loc (c : Thread nD τ) ↦[arg9.view.set]{fullShare} arg9.view.writes (Elt F) f L8) ∗ owns (c : Thread nD τ) arg10 fullShare xi9 ∗ owns (c : Thread nD τ) arg11 fullShare xi10 ∗ (∃ f, arg12.view.loc (c : Thread nD τ) ↦[arg12.view.set]{fullShare} arg12.view.writes (Elt F) f LS0) ∗ (∃ f, arg13.view.loc (c : Thread nD τ) ↦[arg13.view.set]{fullShare} arg13.view.writes (Elt F) f LS1)) -∗ K ⟨⟩))
          ⊢ wp frame (wpE (defs₀ (F := F)) Variants.none c none) E (cc1__ffn_kernel i arg1 harg1 arg2 harg2 arg3 harg3 arg4 harg4 arg5 harg5 arg6 harg6 arg7 harg7 arg8 harg8 arg9 harg9 arg10 harg10 arg11 harg11 arg12 harg12 arg13 harg13) K } := by
  refine ⟨?_, ?_, ?_, fun xi9 xi10 E K => ?run⟩
  case run =>
    simp only [cc1__ffn_kernel_eq_skeleton]; unfold cc1__ffn_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%f9, %hf9, H9⟩, ⟨%f10, %hf10, H10⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg10.eq_unread hf9; obtain rfl := harg11.eq_unread hf10
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]; · iexists _; iexact H8
    isplitl [H9]
    · iexists _; isplitr; · ipureintro; exact harg10.read_unread _
      iexact H9
    isplitl [H10]
    · iexists _; isplitr; · ipureintro; exact harg11.read_unread _
      iexact H10
    isplitl [HS0]; · iexists _; iexact HS0
    iexists _; iexact HS1

end Cert.Kernel.Hand

end
-- ==== Proof.KernelR1RunB.lean ====
/- Region 1, the body's whole run in case B (a point that is neither first nor last: the accumulators are added to).
   From whole staging memrefs — the inputs at their contents, the accumulators at what the point before left,
   the two small outputs at contents handed back untouched, the other outputs at anything — the body runs to the end leaving the inputs as they were and each
   buffer it stored into with its stores written; the lists of stores are what the run finds. -/
import proofs.«149204_j28372553957731_2_alg».proof.Proof.KernelR1RunA

set_option maxRecDepth 16384

noncomputable section

namespace Cert.Kernel.Hand

open Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun1_B (c : Dev nD) (i : grid1.Coords) (arg1 : Memref sig .tc .vmem S2000x64 .f32) (harg1 : arg1.IsWhole) (arg2 : Memref sig .tc .vmem S2000x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S64x128 .f32) (harg5 : arg5.IsWhole) (arg6 : Memref sig .tc .vmem S1x128 .f32) (harg6 : arg6.IsWhole) (arg7 : Memref sig .tc .vmem S128x64 .f32) (harg7 : arg7.IsWhole) (arg8 : Memref sig .tc .vmem S1x64 .f32) (harg8 : arg8.IsWhole) (arg9 : Memref sig .tc .vmem S2000x64 .f32) (harg9 : arg9.IsWhole) (arg10 : Memref sig .tc .vmem S1x64 .f32) (harg10 : arg10.IsWhole) (arg11 : Memref sig .tc .vmem S1x64 .f32) (harg11 : arg11.IsWhole) (arg12 : Memref sig .tc .vmem S1x64 .f32) (harg12 : arg12.IsWhole) (arg13 : Memref sig .tc .vmem S1x64 .f32) (harg13 : arg13.IsWhole) (hc0 : ¬cond1_0 i) (hc1 : ¬cond1_1 i)
    (x0 : Vec F S2000x64 .f32) (x1 : Vec F S2000x64 .f32) (x2 : Vec F S1x64 .f32) (x3 : Vec F S1x64 .f32) (x4 : Vec F S64x128 .f32) (x5 : Vec F S1x128 .f32) (x6 : Vec F S128x64 .f32) (x7 : Vec F S1x64 .f32) (xs0 : Vec F S1x64 .f32) (xs1 : Vec F S1x64 .f32) :
    Σ' (L8 : List (View.Piece (Elt F) S2000x64 .f32)), Σ' (LS0 : List (View.Piece (Elt F) S1x64 .f32)), { LS1 : List (View.Piece (Elt F) S1x64 .f32) //
      ∀ (xi9 : Vec F S1x64 .f32) (xi10 : Vec F S1x64 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d) ∗ owns (c : Thread nD τ) arg10 fullShare xi9 ∗ owns (c : Thread nD τ) arg11 fullShare xi10 ∗ owns (c : Thread nD τ) arg12 fullShare xs0 ∗ owns (c : Thread nD τ) arg13 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ f, arg9.view.loc (c : Thread nD τ) ↦[arg9.view.set]{fullShare} arg9.view.writes (Elt F) f L8) ∗ owns (c : Thread nD τ) arg10 fullShare xi9 ∗ owns (c : Thread nD τ) arg11 fullShare xi10 ∗ (∃ f, arg12.view.loc (c : Thread nD τ) ↦[arg12.view.set]{fullShare} arg12.view.writes (Elt F) f LS0) ∗ (∃ f, arg13.view.loc (c : Thread nD τ) ↦[arg13.view.set]{fullShare} arg13.view.writes (Elt F) f LS1)) -∗ K ⟨⟩))
          ⊢ wp frame (wpE (defs₀ (F := F)) Variants.none c none) E (cc1__ffn_kernel i arg1 harg1 arg2 harg2 arg3 harg3 arg4 harg4 arg5 harg5 arg6 harg6 arg7 harg7 arg8 harg8 arg9 harg9 arg10 harg10 arg11 harg11 arg12 harg12 arg13 harg13) K } := by
  refine ⟨?_, ?_, ?_, fun xi9 xi10 E K => ?run⟩
  case run =>
    simp only [cc1__ffn_kernel_eq_skeleton]; unfold cc1__ffn_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%f9, %hf9, H9⟩, ⟨%f10, %hf10, H10⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg10.eq_unread hf9; obtain rfl := harg11.eq_unread hf10; obtain rfl := harg12.eq_unread hfs0; obtain rfl := harg13.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]; · iexists _; iexact H8
    isplitl [H9]
    · iexists _; isplitr; · ipureintro; exact harg10.read_unread _
      iexact H9
    isplitl [H10]
    · iexists _; isplitr; · ipureintro; exact harg11.read_unread _
      iexact H10
    isplitl [HS0]; · iexists _; iexact HS0
    iexists _; iexact HS1

end Cert.Kernel.Hand

end
-- ==== Proof.KernelR1RunC.lean ====
/- Region 1, the body's whole run in case C (the last grid point: the accumulators are added to, then copied to the two small outputs).
   From whole staging memrefs — the inputs at their contents, the accumulators at what the point before left,
   the other outputs at anything — the body runs to the end leaving the inputs as they were and each
   buffer it stored into with its stores written; the lists of stores are what the run finds. -/
import proofs.«149204_j28372553957731_2_alg».proof.Proof.KernelR1RunB

set_option maxRecDepth 16384

noncomputable section

namespace Cert.Kernel.Hand

open Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun1_C (c : Dev nD) (i : grid1.Coords) (arg1 : Memref sig .tc .vmem S2000x64 .f32) (harg1 : arg1.IsWhole) (arg2 : Memref sig .tc .vmem S2000x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S64x128 .f32) (harg5 : arg5.IsWhole) (arg6 : Memref sig .tc .vmem S1x128 .f32) (harg6 : arg6.IsWhole) (arg7 : Memref sig .tc .vmem S128x64 .f32) (harg7 : arg7.IsWhole) (arg8 : Memref sig .tc .vmem S1x64 .f32) (harg8 : arg8.IsWhole) (arg9 : Memref sig .tc .vmem S2000x64 .f32) (harg9 : arg9.IsWhole) (arg10 : Memref sig .tc .vmem S1x64 .f32) (harg10 : arg10.IsWhole) (arg11 : Memref sig .tc .vmem S1x64 .f32) (harg11 : arg11.IsWhole) (arg12 : Memref sig .tc .vmem S1x64 .f32) (harg12 : arg12.IsWhole) (arg13 : Memref sig .tc .vmem S1x64 .f32) (harg13 : arg13.IsWhole) (hc0 : ¬cond1_0 i) (hc1 : cond1_1 i)
    (x0 : Vec F S2000x64 .f32) (x1 : Vec F S2000x64 .f32) (x2 : Vec F S1x64 .f32) (x3 : Vec F S1x64 .f32) (x4 : Vec F S64x128 .f32) (x5 : Vec F S1x128 .f32) (x6 : Vec F S128x64 .f32) (x7 : Vec F S1x64 .f32) (xs0 : Vec F S1x64 .f32) (xs1 : Vec F S1x64 .f32) :
    Σ' (L8 : List (View.Piece (Elt F) S2000x64 .f32)), Σ' (L9 : List (View.Piece (Elt F) S1x64 .f32)), Σ' (L10 : List (View.Piece (Elt F) S1x64 .f32)), Σ' (LS0 : List (View.Piece (Elt F) S1x64 .f32)), { LS1 : List (View.Piece (Elt F) S1x64 .f32) //
      ∀  (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d) ∗ (∃ d, owns (c : Thread nD τ) arg10 fullShare d) ∗ (∃ d, owns (c : Thread nD τ) arg11 fullShare d) ∗ owns (c : Thread nD τ) arg12 fullShare xs0 ∗ owns (c : Thread nD τ) arg13 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ f, arg9.view.loc (c : Thread nD τ) ↦[arg9.view.set]{fullShare} arg9.view.writes (Elt F) f L8) ∗ (∃ f, arg10.view.loc (c : Thread nD τ) ↦[arg10.view.set]{fullShare} arg10.view.writes (Elt F) f L9) ∗ (∃ f, arg11.view.loc (c : Thread nD τ) ↦[arg11.view.set]{fullShare} arg11.view.writes (Elt F) f L10) ∗ (∃ f, arg12.view.loc (c : Thread nD τ) ↦[arg12.view.set]{fullShare} arg12.view.writes (Elt F) f LS0) ∗ (∃ f, arg13.view.loc (c : Thread nD τ) ↦[arg13.view.set]{fullShare} arg13.view.writes (Elt F) f LS1)) -∗ K ⟨⟩))
          ⊢ wp frame (wpE (defs₀ (F := F)) Variants.none c none) E (cc1__ffn_kernel i arg1 harg1 arg2 harg2 arg3 harg3 arg4 harg4 arg5 harg5 arg6 harg6 arg7 harg7 arg8 harg8 arg9 harg9 arg10 harg10 arg11 harg11 arg12 harg12 arg13 harg13) K } := by
  refine ⟨?_, ?_, ?_, ?_, ?_, fun  E K => ?run⟩
  case run =>
    simp only [cc1__ffn_kernel_eq_skeleton]; unfold cc1__ffn_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg12.eq_unread hfs0; obtain rfl := harg13.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]; · iexists _; iexact H8
    isplitl [H9]; · iexists _; iexact H9
    isplitl [H10]; · iexists _; iexact H10
    isplitl [HS0]; · iexists _; iexact HS0
    iexists _; iexact HS1

end Cert.Kernel.Hand

end
-- ==== Proof.KernelR1Frame.lean ====
/- Region 1: what its buffers hold point by point, the proof data of its pipeline, and the body's obligation.
   The two accumulators are carried from one grid point to the next: after point `n` they hold what the body's run at `n`
   left, computed from the point's input blocks and from what point `n − 1` left (`outsAt1`). The invariant before the
   first point is the class's (both accumulators at anything); before any later point it has them at the previous point's
   contents. The two small outputs are stored only at the last point and are idle elsewhere. -/
import proofs.«149204_j28372553957731_2_alg».proof.Proof.KernelR1RunC

set_option maxRecDepth 16384

noncomputable section

namespace Cert.Kernel.Hand

open Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## Per case: the stores cover each buffer, and what the buffer then holds -/

theorem cover1_A_8 (c : Dev nD) (i : grid1.Coords) (arg1 : Memref sig .tc .vmem S2000x64 .f32) (harg1 : arg1.IsWhole) (arg2 : Memref sig .tc .vmem S2000x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S64x128 .f32) (harg5 : arg5.IsWhole) (arg6 : Memref sig .tc .vmem S1x128 .f32) (harg6 : arg6.IsWhole) (arg7 : Memref sig .tc .vmem S128x64 .f32) (harg7 : arg7.IsWhole) (arg8 : Memref sig .tc .vmem S1x64 .f32) (harg8 : arg8.IsWhole) (arg9 : Memref sig .tc .vmem S2000x64 .f32) (harg9 : arg9.IsWhole) (arg10 : Memref sig .tc .vmem S1x64 .f32) (harg10 : arg10.IsWhole) (arg11 : Memref sig .tc .vmem S1x64 .f32) (harg11 : arg11.IsWhole) (arg12 : Memref sig .tc .vmem S1x64 .f32) (harg12 : arg12.IsWhole) (arg13 : Memref sig .tc .vmem S1x64 .f32) (harg13 : arg13.IsWhole) (hc0 : cond1_0 i) (hc1 : ¬cond1_1 i)
    (x0 : Vec F S2000x64 .f32) (x1 : Vec F S2000x64 .f32) (x2 : Vec F S1x64 .f32) (x3 : Vec F S1x64 .f32) (x4 : Vec F S64x128 .f32) (x5 : Vec F S1x128 .f32) (x6 : Vec F S128x64 .f32) (x7 : Vec F S1x64 .f32) (y : S2000x64.Idx) :
    ∃ pc ∈ (kernelRun1_A (F := F) c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7).1, y ∈ pc.1.set :=
  View.cover_of_tiledL (kernelRun1_A (F := F) c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7).1 S2000x64.size (by sl_kernel_rfl) y
def out1_A_8 (c : Dev nD) (i : grid1.Coords) (arg1 : Memref sig .tc .vmem S2000x64 .f32) (harg1 : arg1.IsWhole) (arg2 : Memref sig .tc .vmem S2000x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S64x128 .f32) (harg5 : arg5.IsWhole) (arg6 : Memref sig .tc .vmem S1x128 .f32) (harg6 : arg6.IsWhole) (arg7 : Memref sig .tc .vmem S128x64 .f32) (harg7 : arg7.IsWhole) (arg8 : Memref sig .tc .vmem S1x64 .f32) (harg8 : arg8.IsWhole) (arg9 : Memref sig .tc .vmem S2000x64 .f32) (harg9 : arg9.IsWhole) (arg10 : Memref sig .tc .vmem S1x64 .f32) (harg10 : arg10.IsWhole) (arg11 : Memref sig .tc .vmem S1x64 .f32) (harg11 : arg11.IsWhole) (arg12 : Memref sig .tc .vmem S1x64 .f32) (harg12 : arg12.IsWhole) (arg13 : Memref sig .tc .vmem S1x64 .f32) (harg13 : arg13.IsWhole) (hc0 : cond1_0 i) (hc1 : ¬cond1_1 i)
    (x0 : Vec F S2000x64 .f32) (x1 : Vec F S2000x64 .f32) (x2 : Vec F S1x64 .f32) (x3 : Vec F S1x64 .f32) (x4 : Vec F S64x128 .f32) (x5 : Vec F S1x128 .f32) (x6 : Vec F S128x64 .f32) (x7 : Vec F S1x64 .f32) : Vec F S2000x64 .f32 :=
  VO1_8.read (Elt F) (VO1_8.writes (Elt F) VO1_8.junk (kernelRun1_A (F := F) c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7).1)

theorem scover1_A_0 (c : Dev nD) (i : grid1.Coords) (arg1 : Memref sig .tc .vmem S2000x64 .f32) (harg1 : arg1.IsWhole) (arg2 : Memref sig .tc .vmem S2000x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S64x128 .f32) (harg5 : arg5.IsWhole) (arg6 : Memref sig .tc .vmem S1x128 .f32) (harg6 : arg6.IsWhole) (arg7 : Memref sig .tc .vmem S128x64 .f32) (harg7 : arg7.IsWhole) (arg8 : Memref sig .tc .vmem S1x64 .f32) (harg8 : arg8.IsWhole) (arg9 : Memref sig .tc .vmem S2000x64 .f32) (harg9 : arg9.IsWhole) (arg10 : Memref sig .tc .vmem S1x64 .f32) (harg10 : arg10.IsWhole) (arg11 : Memref sig .tc .vmem S1x64 .f32) (harg11 : arg11.IsWhole) (arg12 : Memref sig .tc .vmem S1x64 .f32) (harg12 : arg12.IsWhole) (arg13 : Memref sig .tc .vmem S1x64 .f32) (harg13 : arg13.IsWhole) (hc0 : cond1_0 i) (hc1 : ¬cond1_1 i)
    (x0 : Vec F S2000x64 .f32) (x1 : Vec F S2000x64 .f32) (x2 : Vec F S1x64 .f32) (x3 : Vec F S1x64 .f32) (x4 : Vec F S64x128 .f32) (x5 : Vec F S1x128 .f32) (x6 : Vec F S128x64 .f32) (x7 : Vec F S1x64 .f32) (y : S1x64.Idx) :
    ∃ pc ∈ (kernelRun1_A (F := F) c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7).2.1, y ∈ pc.1.set :=
  View.cover_of_tiledL (kernelRun1_A (F := F) c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7).2.1 S1x64.size (by sl_kernel_rfl) y
def sout1_A_0 (c : Dev nD) (i : grid1.Coords) (arg1 : Memref sig .tc .vmem S2000x64 .f32) (harg1 : arg1.IsWhole) (arg2 : Memref sig .tc .vmem S2000x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S64x128 .f32) (harg5 : arg5.IsWhole) (arg6 : Memref sig .tc .vmem S1x128 .f32) (harg6 : arg6.IsWhole) (arg7 : Memref sig .tc .vmem S128x64 .f32) (harg7 : arg7.IsWhole) (arg8 : Memref sig .tc .vmem S1x64 .f32) (harg8 : arg8.IsWhole) (arg9 : Memref sig .tc .vmem S2000x64 .f32) (harg9 : arg9.IsWhole) (arg10 : Memref sig .tc .vmem S1x64 .f32) (harg10 : arg10.IsWhole) (arg11 : Memref sig .tc .vmem S1x64 .f32) (harg11 : arg11.IsWhole) (arg12 : Memref sig .tc .vmem S1x64 .f32) (harg12 : arg12.IsWhole) (arg13 : Memref sig .tc .vmem S1x64 .f32) (harg13 : arg13.IsWhole) (hc0 : cond1_0 i) (hc1 : ¬cond1_1 i)
    (x0 : Vec F S2000x64 .f32) (x1 : Vec F S2000x64 .f32) (x2 : Vec F S1x64 .f32) (x3 : Vec F S1x64 .f32) (x4 : Vec F S64x128 .f32) (x5 : Vec F S1x128 .f32) (x6 : Vec F S128x64 .f32) (x7 : Vec F S1x64 .f32) : Vec F S1x64 .f32 :=
  VS1_0.read (Elt F) (VS1_0.writes (Elt F) VS1_0.junk (kernelRun1_A (F := F) c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7).2.1)

theorem scover1_A_1 (c : Dev nD) (i : grid1.Coords) (arg1 : Memref sig .tc .vmem S2000x64 .f32) (harg1 : arg1.IsWhole) (arg2 : Memref sig .tc .vmem S2000x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S64x128 .f32) (harg5 : arg5.IsWhole) (arg6 : Memref sig .tc .vmem S1x128 .f32) (harg6 : arg6.IsWhole) (arg7 : Memref sig .tc .vmem S128x64 .f32) (harg7 : arg7.IsWhole) (arg8 : Memref sig .tc .vmem S1x64 .f32) (harg8 : arg8.IsWhole) (arg9 : Memref sig .tc .vmem S2000x64 .f32) (harg9 : arg9.IsWhole) (arg10 : Memref sig .tc .vmem S1x64 .f32) (harg10 : arg10.IsWhole) (arg11 : Memref sig .tc .vmem S1x64 .f32) (harg11 : arg11.IsWhole) (arg12 : Memref sig .tc .vmem S1x64 .f32) (harg12 : arg12.IsWhole) (arg13 : Memref sig .tc .vmem S1x64 .f32) (harg13 : arg13.IsWhole) (hc0 : cond1_0 i) (hc1 : ¬cond1_1 i)
    (x0 : Vec F S2000x64 .f32) (x1 : Vec F S2000x64 .f32) (x2 : Vec F S1x64 .f32) (x3 : Vec F S1x64 .f32) (x4 : Vec F S64x128 .f32) (x5 : Vec F S1x128 .f32) (x6 : Vec F S128x64 .f32) (x7 : Vec F S1x64 .f32) (y : S1x64.Idx) :
    ∃ pc ∈ (kernelRun1_A (F := F) c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7).2.2.1, y ∈ pc.1.set :=
  View.cover_of_tiledL (kernelRun1_A (F := F) c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7).2.2.1 S1x64.size (by sl_kernel_rfl) y
def sout1_A_1 (c : Dev nD) (i : grid1.Coords) (arg1 : Memref sig .tc .vmem S2000x64 .f32) (harg1 : arg1.IsWhole) (arg2 : Memref sig .tc .vmem S2000x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S64x128 .f32) (harg5 : arg5.IsWhole) (arg6 : Memref sig .tc .vmem S1x128 .f32) (harg6 : arg6.IsWhole) (arg7 : Memref sig .tc .vmem S128x64 .f32) (harg7 : arg7.IsWhole) (arg8 : Memref sig .tc .vmem S1x64 .f32) (harg8 : arg8.IsWhole) (arg9 : Memref sig .tc .vmem S2000x64 .f32) (harg9 : arg9.IsWhole) (arg10 : Memref sig .tc .vmem S1x64 .f32) (harg10 : arg10.IsWhole) (arg11 : Memref sig .tc .vmem S1x64 .f32) (harg11 : arg11.IsWhole) (arg12 : Memref sig .tc .vmem S1x64 .f32) (harg12 : arg12.IsWhole) (arg13 : Memref sig .tc .vmem S1x64 .f32) (harg13 : arg13.IsWhole) (hc0 : cond1_0 i) (hc1 : ¬cond1_1 i)
    (x0 : Vec F S2000x64 .f32) (x1 : Vec F S2000x64 .f32) (x2 : Vec F S1x64 .f32) (x3 : Vec F S1x64 .f32) (x4 : Vec F S64x128 .f32) (x5 : Vec F S1x128 .f32) (x6 : Vec F S128x64 .f32) (x7 : Vec F S1x64 .f32) : Vec F S1x64 .f32 :=
  VS1_1.read (Elt F) (VS1_1.writes (Elt F) VS1_1.junk (kernelRun1_A (F := F) c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7).2.2.1)

theorem cover1_B_8 (c : Dev nD) (i : grid1.Coords) (arg1 : Memref sig .tc .vmem S2000x64 .f32) (harg1 : arg1.IsWhole) (arg2 : Memref sig .tc .vmem S2000x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S64x128 .f32) (harg5 : arg5.IsWhole) (arg6 : Memref sig .tc .vmem S1x128 .f32) (harg6 : arg6.IsWhole) (arg7 : Memref sig .tc .vmem S128x64 .f32) (harg7 : arg7.IsWhole) (arg8 : Memref sig .tc .vmem S1x64 .f32) (harg8 : arg8.IsWhole) (arg9 : Memref sig .tc .vmem S2000x64 .f32) (harg9 : arg9.IsWhole) (arg10 : Memref sig .tc .vmem S1x64 .f32) (harg10 : arg10.IsWhole) (arg11 : Memref sig .tc .vmem S1x64 .f32) (harg11 : arg11.IsWhole) (arg12 : Memref sig .tc .vmem S1x64 .f32) (harg12 : arg12.IsWhole) (arg13 : Memref sig .tc .vmem S1x64 .f32) (harg13 : arg13.IsWhole) (hc0 : ¬cond1_0 i) (hc1 : ¬cond1_1 i)
    (x0 : Vec F S2000x64 .f32) (x1 : Vec F S2000x64 .f32) (x2 : Vec F S1x64 .f32) (x3 : Vec F S1x64 .f32) (x4 : Vec F S64x128 .f32) (x5 : Vec F S1x128 .f32) (x6 : Vec F S128x64 .f32) (x7 : Vec F S1x64 .f32) (xs0 : Vec F S1x64 .f32) (xs1 : Vec F S1x64 .f32) (y : S2000x64.Idx) :
    ∃ pc ∈ (kernelRun1_B (F := F) c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 xs0 xs1).1, y ∈ pc.1.set :=
  View.cover_of_tiledL (kernelRun1_B (F := F) c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 xs0 xs1).1 S2000x64.size (by sl_kernel_rfl) y
def out1_B_8 (c : Dev nD) (i : grid1.Coords) (arg1 : Memref sig .tc .vmem S2000x64 .f32) (harg1 : arg1.IsWhole) (arg2 : Memref sig .tc .vmem S2000x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S64x128 .f32) (harg5 : arg5.IsWhole) (arg6 : Memref sig .tc .vmem S1x128 .f32) (harg6 : arg6.IsWhole) (arg7 : Memref sig .tc .vmem S128x64 .f32) (harg7 : arg7.IsWhole) (arg8 : Memref sig .tc .vmem S1x64 .f32) (harg8 : arg8.IsWhole) (arg9 : Memref sig .tc .vmem S2000x64 .f32) (harg9 : arg9.IsWhole) (arg10 : Memref sig .tc .vmem S1x64 .f32) (harg10 : arg10.IsWhole) (arg11 : Memref sig .tc .vmem S1x64 .f32) (harg11 : arg11.IsWhole) (arg12 : Memref sig .tc .vmem S1x64 .f32) (harg12 : arg12.IsWhole) (arg13 : Memref sig .tc .vmem S1x64 .f32) (harg13 : arg13.IsWhole) (hc0 : ¬cond1_0 i) (hc1 : ¬cond1_1 i)
    (x0 : Vec F S2000x64 .f32) (x1 : Vec F S2000x64 .f32) (x2 : Vec F S1x64 .f32) (x3 : Vec F S1x64 .f32) (x4 : Vec F S64x128 .f32) (x5 : Vec F S1x128 .f32) (x6 : Vec F S128x64 .f32) (x7 : Vec F S1x64 .f32) (xs0 : Vec F S1x64 .f32) (xs1 : Vec F S1x64 .f32) : Vec F S2000x64 .f32 :=
  VO1_8.read (Elt F) (VO1_8.writes (Elt F) VO1_8.junk (kernelRun1_B (F := F) c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 xs0 xs1).1)

theorem scover1_B_0 (c : Dev nD) (i : grid1.Coords) (arg1 : Memref sig .tc .vmem S2000x64 .f32) (harg1 : arg1.IsWhole) (arg2 : Memref sig .tc .vmem S2000x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S64x128 .f32) (harg5 : arg5.IsWhole) (arg6 : Memref sig .tc .vmem S1x128 .f32) (harg6 : arg6.IsWhole) (arg7 : Memref sig .tc .vmem S128x64 .f32) (harg7 : arg7.IsWhole) (arg8 : Memref sig .tc .vmem S1x64 .f32) (harg8 : arg8.IsWhole) (arg9 : Memref sig .tc .vmem S2000x64 .f32) (harg9 : arg9.IsWhole) (arg10 : Memref sig .tc .vmem S1x64 .f32) (harg10 : arg10.IsWhole) (arg11 : Memref sig .tc .vmem S1x64 .f32) (harg11 : arg11.IsWhole) (arg12 : Memref sig .tc .vmem S1x64 .f32) (harg12 : arg12.IsWhole) (arg13 : Memref sig .tc .vmem S1x64 .f32) (harg13 : arg13.IsWhole) (hc0 : ¬cond1_0 i) (hc1 : ¬cond1_1 i)
    (x0 : Vec F S2000x64 .f32) (x1 : Vec F S2000x64 .f32) (x2 : Vec F S1x64 .f32) (x3 : Vec F S1x64 .f32) (x4 : Vec F S64x128 .f32) (x5 : Vec F S1x128 .f32) (x6 : Vec F S128x64 .f32) (x7 : Vec F S1x64 .f32) (xs0 : Vec F S1x64 .f32) (xs1 : Vec F S1x64 .f32) (y : S1x64.Idx) :
    ∃ pc ∈ (kernelRun1_B (F := F) c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 xs0 xs1).2.1, y ∈ pc.1.set :=
  View.cover_of_tiledL (kernelRun1_B (F := F) c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 xs0 xs1).2.1 S1x64.size (by sl_kernel_rfl) y
def sout1_B_0 (c : Dev nD) (i : grid1.Coords) (arg1 : Memref sig .tc .vmem S2000x64 .f32) (harg1 : arg1.IsWhole) (arg2 : Memref sig .tc .vmem S2000x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S64x128 .f32) (harg5 : arg5.IsWhole) (arg6 : Memref sig .tc .vmem S1x128 .f32) (harg6 : arg6.IsWhole) (arg7 : Memref sig .tc .vmem S128x64 .f32) (harg7 : arg7.IsWhole) (arg8 : Memref sig .tc .vmem S1x64 .f32) (harg8 : arg8.IsWhole) (arg9 : Memref sig .tc .vmem S2000x64 .f32) (harg9 : arg9.IsWhole) (arg10 : Memref sig .tc .vmem S1x64 .f32) (harg10 : arg10.IsWhole) (arg11 : Memref sig .tc .vmem S1x64 .f32) (harg11 : arg11.IsWhole) (arg12 : Memref sig .tc .vmem S1x64 .f32) (harg12 : arg12.IsWhole) (arg13 : Memref sig .tc .vmem S1x64 .f32) (harg13 : arg13.IsWhole) (hc0 : ¬cond1_0 i) (hc1 : ¬cond1_1 i)
    (x0 : Vec F S2000x64 .f32) (x1 : Vec F S2000x64 .f32) (x2 : Vec F S1x64 .f32) (x3 : Vec F S1x64 .f32) (x4 : Vec F S64x128 .f32) (x5 : Vec F S1x128 .f32) (x6 : Vec F S128x64 .f32) (x7 : Vec F S1x64 .f32) (xs0 : Vec F S1x64 .f32) (xs1 : Vec F S1x64 .f32) : Vec F S1x64 .f32 :=
  VS1_0.read (Elt F) (VS1_0.writes (Elt F) VS1_0.junk (kernelRun1_B (F := F) c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 xs0 xs1).2.1)

theorem scover1_B_1 (c : Dev nD) (i : grid1.Coords) (arg1 : Memref sig .tc .vmem S2000x64 .f32) (harg1 : arg1.IsWhole) (arg2 : Memref sig .tc .vmem S2000x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S64x128 .f32) (harg5 : arg5.IsWhole) (arg6 : Memref sig .tc .vmem S1x128 .f32) (harg6 : arg6.IsWhole) (arg7 : Memref sig .tc .vmem S128x64 .f32) (harg7 : arg7.IsWhole) (arg8 : Memref sig .tc .vmem S1x64 .f32) (harg8 : arg8.IsWhole) (arg9 : Memref sig .tc .vmem S2000x64 .f32) (harg9 : arg9.IsWhole) (arg10 : Memref sig .tc .vmem S1x64 .f32) (harg10 : arg10.IsWhole) (arg11 : Memref sig .tc .vmem S1x64 .f32) (harg11 : arg11.IsWhole) (arg12 : Memref sig .tc .vmem S1x64 .f32) (harg12 : arg12.IsWhole) (arg13 : Memref sig .tc .vmem S1x64 .f32) (harg13 : arg13.IsWhole) (hc0 : ¬cond1_0 i) (hc1 : ¬cond1_1 i)
    (x0 : Vec F S2000x64 .f32) (x1 : Vec F S2000x64 .f32) (x2 : Vec F S1x64 .f32) (x3 : Vec F S1x64 .f32) (x4 : Vec F S64x128 .f32) (x5 : Vec F S1x128 .f32) (x6 : Vec F S128x64 .f32) (x7 : Vec F S1x64 .f32) (xs0 : Vec F S1x64 .f32) (xs1 : Vec F S1x64 .f32) (y : S1x64.Idx) :
    ∃ pc ∈ (kernelRun1_B (F := F) c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 xs0 xs1).2.2.1, y ∈ pc.1.set :=
  View.cover_of_tiledL (kernelRun1_B (F := F) c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 xs0 xs1).2.2.1 S1x64.size (by sl_kernel_rfl) y
def sout1_B_1 (c : Dev nD) (i : grid1.Coords) (arg1 : Memref sig .tc .vmem S2000x64 .f32) (harg1 : arg1.IsWhole) (arg2 : Memref sig .tc .vmem S2000x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S64x128 .f32) (harg5 : arg5.IsWhole) (arg6 : Memref sig .tc .vmem S1x128 .f32) (harg6 : arg6.IsWhole) (arg7 : Memref sig .tc .vmem S128x64 .f32) (harg7 : arg7.IsWhole) (arg8 : Memref sig .tc .vmem S1x64 .f32) (harg8 : arg8.IsWhole) (arg9 : Memref sig .tc .vmem S2000x64 .f32) (harg9 : arg9.IsWhole) (arg10 : Memref sig .tc .vmem S1x64 .f32) (harg10 : arg10.IsWhole) (arg11 : Memref sig .tc .vmem S1x64 .f32) (harg11 : arg11.IsWhole) (arg12 : Memref sig .tc .vmem S1x64 .f32) (harg12 : arg12.IsWhole) (arg13 : Memref sig .tc .vmem S1x64 .f32) (harg13 : arg13.IsWhole) (hc0 : ¬cond1_0 i) (hc1 : ¬cond1_1 i)
    (x0 : Vec F S2000x64 .f32) (x1 : Vec F S2000x64 .f32) (x2 : Vec F S1x64 .f32) (x3 : Vec F S1x64 .f32) (x4 : Vec F S64x128 .f32) (x5 : Vec F S1x128 .f32) (x6 : Vec F S128x64 .f32) (x7 : Vec F S1x64 .f32) (xs0 : Vec F S1x64 .f32) (xs1 : Vec F S1x64 .f32) : Vec F S1x64 .f32 :=
  VS1_1.read (Elt F) (VS1_1.writes (Elt F) VS1_1.junk (kernelRun1_B (F := F) c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 xs0 xs1).2.2.1)

theorem cover1_C_8 (c : Dev nD) (i : grid1.Coords) (arg1 : Memref sig .tc .vmem S2000x64 .f32) (harg1 : arg1.IsWhole) (arg2 : Memref sig .tc .vmem S2000x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S64x128 .f32) (harg5 : arg5.IsWhole) (arg6 : Memref sig .tc .vmem S1x128 .f32) (harg6 : arg6.IsWhole) (arg7 : Memref sig .tc .vmem S128x64 .f32) (harg7 : arg7.IsWhole) (arg8 : Memref sig .tc .vmem S1x64 .f32) (harg8 : arg8.IsWhole) (arg9 : Memref sig .tc .vmem S2000x64 .f32) (harg9 : arg9.IsWhole) (arg10 : Memref sig .tc .vmem S1x64 .f32) (harg10 : arg10.IsWhole) (arg11 : Memref sig .tc .vmem S1x64 .f32) (harg11 : arg11.IsWhole) (arg12 : Memref sig .tc .vmem S1x64 .f32) (harg12 : arg12.IsWhole) (arg13 : Memref sig .tc .vmem S1x64 .f32) (harg13 : arg13.IsWhole) (hc0 : ¬cond1_0 i) (hc1 : cond1_1 i)
    (x0 : Vec F S2000x64 .f32) (x1 : Vec F S2000x64 .f32) (x2 : Vec F S1x64 .f32) (x3 : Vec F S1x64 .f32) (x4 : Vec F S64x128 .f32) (x5 : Vec F S1x128 .f32) (x6 : Vec F S128x64 .f32) (x7 : Vec F S1x64 .f32) (xs0 : Vec F S1x64 .f32) (xs1 : Vec F S1x64 .f32) (y : S2000x64.Idx) :
    ∃ pc ∈ (kernelRun1_C (F := F) c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 xs0 xs1).1, y ∈ pc.1.set :=
  View.cover_of_tiledL (kernelRun1_C (F := F) c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 xs0 xs1).1 S2000x64.size (by sl_kernel_rfl) y
def out1_C_8 (c : Dev nD) (i : grid1.Coords) (arg1 : Memref sig .tc .vmem S2000x64 .f32) (harg1 : arg1.IsWhole) (arg2 : Memref sig .tc .vmem S2000x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S64x128 .f32) (harg5 : arg5.IsWhole) (arg6 : Memref sig .tc .vmem S1x128 .f32) (harg6 : arg6.IsWhole) (arg7 : Memref sig .tc .vmem S128x64 .f32) (harg7 : arg7.IsWhole) (arg8 : Memref sig .tc .vmem S1x64 .f32) (harg8 : arg8.IsWhole) (arg9 : Memref sig .tc .vmem S2000x64 .f32) (harg9 : arg9.IsWhole) (arg10 : Memref sig .tc .vmem S1x64 .f32) (harg10 : arg10.IsWhole) (arg11 : Memref sig .tc .vmem S1x64 .f32) (harg11 : arg11.IsWhole) (arg12 : Memref sig .tc .vmem S1x64 .f32) (harg12 : arg12.IsWhole) (arg13 : Memref sig .tc .vmem S1x64 .f32) (harg13 : arg13.IsWhole) (hc0 : ¬cond1_0 i) (hc1 : cond1_1 i)
    (x0 : Vec F S2000x64 .f32) (x1 : Vec F S2000x64 .f32) (x2 : Vec F S1x64 .f32) (x3 : Vec F S1x64 .f32) (x4 : Vec F S64x128 .f32) (x5 : Vec F S1x128 .f32) (x6 : Vec F S128x64 .f32) (x7 : Vec F S1x64 .f32) (xs0 : Vec F S1x64 .f32) (xs1 : Vec F S1x64 .f32) : Vec F S2000x64 .f32 :=
  VO1_8.read (Elt F) (VO1_8.writes (Elt F) VO1_8.junk (kernelRun1_C (F := F) c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 xs0 xs1).1)

theorem cover1_C_9 (c : Dev nD) (i : grid1.Coords) (arg1 : Memref sig .tc .vmem S2000x64 .f32) (harg1 : arg1.IsWhole) (arg2 : Memref sig .tc .vmem S2000x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S64x128 .f32) (harg5 : arg5.IsWhole) (arg6 : Memref sig .tc .vmem S1x128 .f32) (harg6 : arg6.IsWhole) (arg7 : Memref sig .tc .vmem S128x64 .f32) (harg7 : arg7.IsWhole) (arg8 : Memref sig .tc .vmem S1x64 .f32) (harg8 : arg8.IsWhole) (arg9 : Memref sig .tc .vmem S2000x64 .f32) (harg9 : arg9.IsWhole) (arg10 : Memref sig .tc .vmem S1x64 .f32) (harg10 : arg10.IsWhole) (arg11 : Memref sig .tc .vmem S1x64 .f32) (harg11 : arg11.IsWhole) (arg12 : Memref sig .tc .vmem S1x64 .f32) (harg12 : arg12.IsWhole) (arg13 : Memref sig .tc .vmem S1x64 .f32) (harg13 : arg13.IsWhole) (hc0 : ¬cond1_0 i) (hc1 : cond1_1 i)
    (x0 : Vec F S2000x64 .f32) (x1 : Vec F S2000x64 .f32) (x2 : Vec F S1x64 .f32) (x3 : Vec F S1x64 .f32) (x4 : Vec F S64x128 .f32) (x5 : Vec F S1x128 .f32) (x6 : Vec F S128x64 .f32) (x7 : Vec F S1x64 .f32) (xs0 : Vec F S1x64 .f32) (xs1 : Vec F S1x64 .f32) (y : S1x64.Idx) :
    ∃ pc ∈ (kernelRun1_C (F := F) c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 xs0 xs1).2.1, y ∈ pc.1.set :=
  View.cover_of_tiledL (kernelRun1_C (F := F) c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 xs0 xs1).2.1 S1x64.size (by sl_kernel_rfl) y
def out1_C_9 (c : Dev nD) (i : grid1.Coords) (arg1 : Memref sig .tc .vmem S2000x64 .f32) (harg1 : arg1.IsWhole) (arg2 : Memref sig .tc .vmem S2000x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S64x128 .f32) (harg5 : arg5.IsWhole) (arg6 : Memref sig .tc .vmem S1x128 .f32) (harg6 : arg6.IsWhole) (arg7 : Memref sig .tc .vmem S128x64 .f32) (harg7 : arg7.IsWhole) (arg8 : Memref sig .tc .vmem S1x64 .f32) (harg8 : arg8.IsWhole) (arg9 : Memref sig .tc .vmem S2000x64 .f32) (harg9 : arg9.IsWhole) (arg10 : Memref sig .tc .vmem S1x64 .f32) (harg10 : arg10.IsWhole) (arg11 : Memref sig .tc .vmem S1x64 .f32) (harg11 : arg11.IsWhole) (arg12 : Memref sig .tc .vmem S1x64 .f32) (harg12 : arg12.IsWhole) (arg13 : Memref sig .tc .vmem S1x64 .f32) (harg13 : arg13.IsWhole) (hc0 : ¬cond1_0 i) (hc1 : cond1_1 i)
    (x0 : Vec F S2000x64 .f32) (x1 : Vec F S2000x64 .f32) (x2 : Vec F S1x64 .f32) (x3 : Vec F S1x64 .f32) (x4 : Vec F S64x128 .f32) (x5 : Vec F S1x128 .f32) (x6 : Vec F S128x64 .f32) (x7 : Vec F S1x64 .f32) (xs0 : Vec F S1x64 .f32) (xs1 : Vec F S1x64 .f32) : Vec F S1x64 .f32 :=
  VO1_9.read (Elt F) (VO1_9.writes (Elt F) VO1_9.junk (kernelRun1_C (F := F) c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 xs0 xs1).2.1)

theorem cover1_C_10 (c : Dev nD) (i : grid1.Coords) (arg1 : Memref sig .tc .vmem S2000x64 .f32) (harg1 : arg1.IsWhole) (arg2 : Memref sig .tc .vmem S2000x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S64x128 .f32) (harg5 : arg5.IsWhole) (arg6 : Memref sig .tc .vmem S1x128 .f32) (harg6 : arg6.IsWhole) (arg7 : Memref sig .tc .vmem S128x64 .f32) (harg7 : arg7.IsWhole) (arg8 : Memref sig .tc .vmem S1x64 .f32) (harg8 : arg8.IsWhole) (arg9 : Memref sig .tc .vmem S2000x64 .f32) (harg9 : arg9.IsWhole) (arg10 : Memref sig .tc .vmem S1x64 .f32) (harg10 : arg10.IsWhole) (arg11 : Memref sig .tc .vmem S1x64 .f32) (harg11 : arg11.IsWhole) (arg12 : Memref sig .tc .vmem S1x64 .f32) (harg12 : arg12.IsWhole) (arg13 : Memref sig .tc .vmem S1x64 .f32) (harg13 : arg13.IsWhole) (hc0 : ¬cond1_0 i) (hc1 : cond1_1 i)
    (x0 : Vec F S2000x64 .f32) (x1 : Vec F S2000x64 .f32) (x2 : Vec F S1x64 .f32) (x3 : Vec F S1x64 .f32) (x4 : Vec F S64x128 .f32) (x5 : Vec F S1x128 .f32) (x6 : Vec F S128x64 .f32) (x7 : Vec F S1x64 .f32) (xs0 : Vec F S1x64 .f32) (xs1 : Vec F S1x64 .f32) (y : S1x64.Idx) :
    ∃ pc ∈ (kernelRun1_C (F := F) c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 xs0 xs1).2.2.1, y ∈ pc.1.set :=
  View.cover_of_tiledL (kernelRun1_C (F := F) c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 xs0 xs1).2.2.1 S1x64.size (by sl_kernel_rfl) y
def out1_C_10 (c : Dev nD) (i : grid1.Coords) (arg1 : Memref sig .tc .vmem S2000x64 .f32) (harg1 : arg1.IsWhole) (arg2 : Memref sig .tc .vmem S2000x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S64x128 .f32) (harg5 : arg5.IsWhole) (arg6 : Memref sig .tc .vmem S1x128 .f32) (harg6 : arg6.IsWhole) (arg7 : Memref sig .tc .vmem S128x64 .f32) (harg7 : arg7.IsWhole) (arg8 : Memref sig .tc .vmem S1x64 .f32) (harg8 : arg8.IsWhole) (arg9 : Memref sig .tc .vmem S2000x64 .f32) (harg9 : arg9.IsWhole) (arg10 : Memref sig .tc .vmem S1x64 .f32) (harg10 : arg10.IsWhole) (arg11 : Memref sig .tc .vmem S1x64 .f32) (harg11 : arg11.IsWhole) (arg12 : Memref sig .tc .vmem S1x64 .f32) (harg12 : arg12.IsWhole) (arg13 : Memref sig .tc .vmem S1x64 .f32) (harg13 : arg13.IsWhole) (hc0 : ¬cond1_0 i) (hc1 : cond1_1 i)
    (x0 : Vec F S2000x64 .f32) (x1 : Vec F S2000x64 .f32) (x2 : Vec F S1x64 .f32) (x3 : Vec F S1x64 .f32) (x4 : Vec F S64x128 .f32) (x5 : Vec F S1x128 .f32) (x6 : Vec F S128x64 .f32) (x7 : Vec F S1x64 .f32) (xs0 : Vec F S1x64 .f32) (xs1 : Vec F S1x64 .f32) : Vec F S1x64 .f32 :=
  VO1_10.read (Elt F) (VO1_10.writes (Elt F) VO1_10.junk (kernelRun1_C (F := F) c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 xs0 xs1).2.2.1)

theorem scover1_C_0 (c : Dev nD) (i : grid1.Coords) (arg1 : Memref sig .tc .vmem S2000x64 .f32) (harg1 : arg1.IsWhole) (arg2 : Memref sig .tc .vmem S2000x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S64x128 .f32) (harg5 : arg5.IsWhole) (arg6 : Memref sig .tc .vmem S1x128 .f32) (harg6 : arg6.IsWhole) (arg7 : Memref sig .tc .vmem S128x64 .f32) (harg7 : arg7.IsWhole) (arg8 : Memref sig .tc .vmem S1x64 .f32) (harg8 : arg8.IsWhole) (arg9 : Memref sig .tc .vmem S2000x64 .f32) (harg9 : arg9.IsWhole) (arg10 : Memref sig .tc .vmem S1x64 .f32) (harg10 : arg10.IsWhole) (arg11 : Memref sig .tc .vmem S1x64 .f32) (harg11 : arg11.IsWhole) (arg12 : Memref sig .tc .vmem S1x64 .f32) (harg12 : arg12.IsWhole) (arg13 : Memref sig .tc .vmem S1x64 .f32) (harg13 : arg13.IsWhole) (hc0 : ¬cond1_0 i) (hc1 : cond1_1 i)
    (x0 : Vec F S2000x64 .f32) (x1 : Vec F S2000x64 .f32) (x2 : Vec F S1x64 .f32) (x3 : Vec F S1x64 .f32) (x4 : Vec F S64x128 .f32) (x5 : Vec F S1x128 .f32) (x6 : Vec F S128x64 .f32) (x7 : Vec F S1x64 .f32) (xs0 : Vec F S1x64 .f32) (xs1 : Vec F S1x64 .f32) (y : S1x64.Idx) :
    ∃ pc ∈ (kernelRun1_C (F := F) c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 xs0 xs1).2.2.2.1, y ∈ pc.1.set :=
  View.cover_of_tiledL (kernelRun1_C (F := F) c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 xs0 xs1).2.2.2.1 S1x64.size (by sl_kernel_rfl) y
def sout1_C_0 (c : Dev nD) (i : grid1.Coords) (arg1 : Memref sig .tc .vmem S2000x64 .f32) (harg1 : arg1.IsWhole) (arg2 : Memref sig .tc .vmem S2000x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S64x128 .f32) (harg5 : arg5.IsWhole) (arg6 : Memref sig .tc .vmem S1x128 .f32) (harg6 : arg6.IsWhole) (arg7 : Memref sig .tc .vmem S128x64 .f32) (harg7 : arg7.IsWhole) (arg8 : Memref sig .tc .vmem S1x64 .f32) (harg8 : arg8.IsWhole) (arg9 : Memref sig .tc .vmem S2000x64 .f32) (harg9 : arg9.IsWhole) (arg10 : Memref sig .tc .vmem S1x64 .f32) (harg10 : arg10.IsWhole) (arg11 : Memref sig .tc .vmem S1x64 .f32) (harg11 : arg11.IsWhole) (arg12 : Memref sig .tc .vmem S1x64 .f32) (harg12 : arg12.IsWhole) (arg13 : Memref sig .tc .vmem S1x64 .f32) (harg13 : arg13.IsWhole) (hc0 : ¬cond1_0 i) (hc1 : cond1_1 i)
    (x0 : Vec F S2000x64 .f32) (x1 : Vec F S2000x64 .f32) (x2 : Vec F S1x64 .f32) (x3 : Vec F S1x64 .f32) (x4 : Vec F S64x128 .f32) (x5 : Vec F S1x128 .f32) (x6 : Vec F S128x64 .f32) (x7 : Vec F S1x64 .f32) (xs0 : Vec F S1x64 .f32) (xs1 : Vec F S1x64 .f32) : Vec F S1x64 .f32 :=
  VS1_0.read (Elt F) (VS1_0.writes (Elt F) VS1_0.junk (kernelRun1_C (F := F) c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 xs0 xs1).2.2.2.1)

theorem scover1_C_1 (c : Dev nD) (i : grid1.Coords) (arg1 : Memref sig .tc .vmem S2000x64 .f32) (harg1 : arg1.IsWhole) (arg2 : Memref sig .tc .vmem S2000x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S64x128 .f32) (harg5 : arg5.IsWhole) (arg6 : Memref sig .tc .vmem S1x128 .f32) (harg6 : arg6.IsWhole) (arg7 : Memref sig .tc .vmem S128x64 .f32) (harg7 : arg7.IsWhole) (arg8 : Memref sig .tc .vmem S1x64 .f32) (harg8 : arg8.IsWhole) (arg9 : Memref sig .tc .vmem S2000x64 .f32) (harg9 : arg9.IsWhole) (arg10 : Memref sig .tc .vmem S1x64 .f32) (harg10 : arg10.IsWhole) (arg11 : Memref sig .tc .vmem S1x64 .f32) (harg11 : arg11.IsWhole) (arg12 : Memref sig .tc .vmem S1x64 .f32) (harg12 : arg12.IsWhole) (arg13 : Memref sig .tc .vmem S1x64 .f32) (harg13 : arg13.IsWhole) (hc0 : ¬cond1_0 i) (hc1 : cond1_1 i)
    (x0 : Vec F S2000x64 .f32) (x1 : Vec F S2000x64 .f32) (x2 : Vec F S1x64 .f32) (x3 : Vec F S1x64 .f32) (x4 : Vec F S64x128 .f32) (x5 : Vec F S1x128 .f32) (x6 : Vec F S128x64 .f32) (x7 : Vec F S1x64 .f32) (xs0 : Vec F S1x64 .f32) (xs1 : Vec F S1x64 .f32) (y : S1x64.Idx) :
    ∃ pc ∈ (kernelRun1_C (F := F) c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 xs0 xs1).2.2.2.2.1, y ∈ pc.1.set :=
  View.cover_of_tiledL (kernelRun1_C (F := F) c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 xs0 xs1).2.2.2.2.1 S1x64.size (by sl_kernel_rfl) y
def sout1_C_1 (c : Dev nD) (i : grid1.Coords) (arg1 : Memref sig .tc .vmem S2000x64 .f32) (harg1 : arg1.IsWhole) (arg2 : Memref sig .tc .vmem S2000x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S64x128 .f32) (harg5 : arg5.IsWhole) (arg6 : Memref sig .tc .vmem S1x128 .f32) (harg6 : arg6.IsWhole) (arg7 : Memref sig .tc .vmem S128x64 .f32) (harg7 : arg7.IsWhole) (arg8 : Memref sig .tc .vmem S1x64 .f32) (harg8 : arg8.IsWhole) (arg9 : Memref sig .tc .vmem S2000x64 .f32) (harg9 : arg9.IsWhole) (arg10 : Memref sig .tc .vmem S1x64 .f32) (harg10 : arg10.IsWhole) (arg11 : Memref sig .tc .vmem S1x64 .f32) (harg11 : arg11.IsWhole) (arg12 : Memref sig .tc .vmem S1x64 .f32) (harg12 : arg12.IsWhole) (arg13 : Memref sig .tc .vmem S1x64 .f32) (harg13 : arg13.IsWhole) (hc0 : ¬cond1_0 i) (hc1 : cond1_1 i)
    (x0 : Vec F S2000x64 .f32) (x1 : Vec F S2000x64 .f32) (x2 : Vec F S1x64 .f32) (x3 : Vec F S1x64 .f32) (x4 : Vec F S64x128 .f32) (x5 : Vec F S1x128 .f32) (x6 : Vec F S128x64 .f32) (x7 : Vec F S1x64 .f32) (xs0 : Vec F S1x64 .f32) (xs1 : Vec F S1x64 .f32) : Vec F S1x64 .f32 :=
  VS1_1.read (Elt F) (VS1_1.writes (Elt F) VS1_1.junk (kernelRun1_C (F := F) c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 xs0 xs1).2.2.2.2.1)

/-! ## What the buffers hold after each point -/

/-- After a point: the three outputs' staging buffers and the two accumulators. -/
structure Outs1 (F : FTy → Type) [FloatOps F] where
  o8 : Vec F S2000x64 .f32
  o9 : Vec F S1x64 .f32
  o10 : Vec F S1x64 .f32
  s0 : Vec F S1x64 .f32
  s1 : Vec F S1x64 .f32

theorem hA1 (t : Fin cfg1.N) (h : t.val = 0) : cond1_0 (grid1.coords t) := (cond1_0_iff t).mpr h
theorem hnA1 (t : Fin cfg1.N) (h : t.val ≠ 0) : ¬cond1_0 (grid1.coords t) := fun h' => h ((cond1_0_iff t).mp h')
theorem hC1 (t : Fin cfg1.N) (h : t.val = 49) : cond1_1 (grid1.coords t) := (cond1_1_iff t).mpr h
theorem hnC1 (t : Fin cfg1.N) (h : t.val ≠ 49) : ¬cond1_1 (grid1.coords t) := fun h' => h ((cond1_1_iff t).mp h')

/-- The point's contents in case A. -/
def outA1 (c : Dev nD) (t : Fin cfg1.N) (hc0 : cond1_0 (grid1.coords t)) (hc1 : ¬cond1_1 (grid1.coords t)) : Outs1 F where
  o8 := out1_A_8 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) scM1_0 (Memref.isWhole_whole _) scM1_1 (Memref.isWhole_whole _) hc0 hc1 (iblk1 V c 0 t) (iblk1 V c 1 t) (iblk1 V c 2 t) (iblk1 V c 3 t) (iblk1 V c 4 t) (iblk1 V c 5 t) (iblk1 V c 6 t) (iblk1 V c 7 t)
  o9 := VO1_9.read (Elt F) VO1_9.junk
  o10 := VO1_10.read (Elt F) VO1_10.junk
  s0 := sout1_A_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) scM1_0 (Memref.isWhole_whole _) scM1_1 (Memref.isWhole_whole _) hc0 hc1 (iblk1 V c 0 t) (iblk1 V c 1 t) (iblk1 V c 2 t) (iblk1 V c 3 t) (iblk1 V c 4 t) (iblk1 V c 5 t) (iblk1 V c 6 t) (iblk1 V c 7 t)
  s1 := sout1_A_1 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) scM1_0 (Memref.isWhole_whole _) scM1_1 (Memref.isWhole_whole _) hc0 hc1 (iblk1 V c 0 t) (iblk1 V c 1 t) (iblk1 V c 2 t) (iblk1 V c 3 t) (iblk1 V c 4 t) (iblk1 V c 5 t) (iblk1 V c 6 t) (iblk1 V c 7 t)

/-- The point's contents in case B, over what the point before left in the accumulators. -/
def outB1 (c : Dev nD) (t : Fin cfg1.N) (hc0 : ¬cond1_0 (grid1.coords t)) (hc1 : ¬cond1_1 (grid1.coords t)) (p : Outs1 F) : Outs1 F where
  o8 := out1_B_8 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) scM1_0 (Memref.isWhole_whole _) scM1_1 (Memref.isWhole_whole _) hc0 hc1 (iblk1 V c 0 t) (iblk1 V c 1 t) (iblk1 V c 2 t) (iblk1 V c 3 t) (iblk1 V c 4 t) (iblk1 V c 5 t) (iblk1 V c 6 t) (iblk1 V c 7 t) p.s0 p.s1
  o9 := VO1_9.read (Elt F) VO1_9.junk
  o10 := VO1_10.read (Elt F) VO1_10.junk
  s0 := sout1_B_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) scM1_0 (Memref.isWhole_whole _) scM1_1 (Memref.isWhole_whole _) hc0 hc1 (iblk1 V c 0 t) (iblk1 V c 1 t) (iblk1 V c 2 t) (iblk1 V c 3 t) (iblk1 V c 4 t) (iblk1 V c 5 t) (iblk1 V c 6 t) (iblk1 V c 7 t) p.s0 p.s1
  s1 := sout1_B_1 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) scM1_0 (Memref.isWhole_whole _) scM1_1 (Memref.isWhole_whole _) hc0 hc1 (iblk1 V c 0 t) (iblk1 V c 1 t) (iblk1 V c 2 t) (iblk1 V c 3 t) (iblk1 V c 4 t) (iblk1 V c 5 t) (iblk1 V c 6 t) (iblk1 V c 7 t) p.s0 p.s1

/-- The point's contents in case C, over what the point before left in the accumulators. -/
def outC1 (c : Dev nD) (t : Fin cfg1.N) (hc0 : ¬cond1_0 (grid1.coords t)) (hc1 : cond1_1 (grid1.coords t)) (p : Outs1 F) : Outs1 F where
  o8 := out1_C_8 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) scM1_0 (Memref.isWhole_whole _) scM1_1 (Memref.isWhole_whole _) hc0 hc1 (iblk1 V c 0 t) (iblk1 V c 1 t) (iblk1 V c 2 t) (iblk1 V c 3 t) (iblk1 V c 4 t) (iblk1 V c 5 t) (iblk1 V c 6 t) (iblk1 V c 7 t) p.s0 p.s1
  o9 := out1_C_9 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) scM1_0 (Memref.isWhole_whole _) scM1_1 (Memref.isWhole_whole _) hc0 hc1 (iblk1 V c 0 t) (iblk1 V c 1 t) (iblk1 V c 2 t) (iblk1 V c 3 t) (iblk1 V c 4 t) (iblk1 V c 5 t) (iblk1 V c 6 t) (iblk1 V c 7 t) p.s0 p.s1
  o10 := out1_C_10 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) scM1_0 (Memref.isWhole_whole _) scM1_1 (Memref.isWhole_whole _) hc0 hc1 (iblk1 V c 0 t) (iblk1 V c 1 t) (iblk1 V c 2 t) (iblk1 V c 3 t) (iblk1 V c 4 t) (iblk1 V c 5 t) (iblk1 V c 6 t) (iblk1 V c 7 t) p.s0 p.s1
  s0 := sout1_C_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) scM1_0 (Memref.isWhole_whole _) scM1_1 (Memref.isWhole_whole _) hc0 hc1 (iblk1 V c 0 t) (iblk1 V c 1 t) (iblk1 V c 2 t) (iblk1 V c 3 t) (iblk1 V c 4 t) (iblk1 V c 5 t) (iblk1 V c 6 t) (iblk1 V c 7 t) p.s0 p.s1
  s1 := sout1_C_1 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) scM1_0 (Memref.isWhole_whole _) scM1_1 (Memref.isWhole_whole _) hc0 hc1 (iblk1 V c 0 t) (iblk1 V c 1 t) (iblk1 V c 2 t) (iblk1 V c 3 t) (iblk1 V c 4 t) (iblk1 V c 5 t) (iblk1 V c 6 t) (iblk1 V c 7 t) p.s0 p.s1

/-- THE ACCUMULATION: the first point runs from accumulators at anything, every later one from what the point before left. -/
def outsAt1 (c : Dev nD) : (n : ℕ) → n < cfg1.N → Outs1 F
  | 0, hn => outA1 V c ⟨0, hn⟩ (hA1 ⟨0, hn⟩ rfl) (hnC1 ⟨0, hn⟩ (fun h => absurd (show (0 : ℕ) = 49 from h) (by decide)))
  | n + 1, hn =>
    if h : n + 1 = 49 then
      outC1 V c ⟨n + 1, hn⟩ (hnA1 ⟨n + 1, hn⟩ (Nat.succ_ne_zero n)) (hC1 ⟨n + 1, hn⟩ h) (outsAt1 c n (Nat.lt_of_succ_lt hn))
    else
      outB1 V c ⟨n + 1, hn⟩ (hnA1 ⟨n + 1, hn⟩ (Nat.succ_ne_zero n)) (hnC1 ⟨n + 1, hn⟩ h) (outsAt1 c n (Nat.lt_of_succ_lt hn))

theorem outsAt1_first (c : Dev nD) (t : Fin cfg1.N) (h0 : t.val = 0) (h1 : t.val ≠ 49) :
    outsAt1 V c t.val t.isLt = outA1 V c t (hA1 t h0) (hnC1 t h1) := by
  obtain ⟨n, hn⟩ := t
  cases n with
  | zero => rfl
  | succ n => exact absurd h0 (Nat.succ_ne_zero n)
theorem outsAt1_mid (c : Dev nD) (t : Fin cfg1.N) (h0 : t.val ≠ 0) (h1 : t.val ≠ 49) :
    outsAt1 V c t.val t.isLt = outB1 V c t (hnA1 t h0) (hnC1 t h1) (outsAt1 V c (t.val - 1) (Nat.lt_of_le_of_lt (Nat.sub_le _ _) t.isLt)) := by
  obtain ⟨n, hn⟩ := t
  cases n with
  | zero => exact absurd rfl h0
  | succ n => exact (dif_neg h1).trans rfl
theorem outsAt1_last (c : Dev nD) (t : Fin cfg1.N) (h0 : t.val ≠ 0) (h1 : t.val = 49) :
    outsAt1 V c t.val t.isLt = outC1 V c t (hnA1 t h0) (hC1 t h1) (outsAt1 V c (t.val - 1) (Nat.lt_of_le_of_lt (Nat.sub_le _ _) t.isLt)) := by
  obtain ⟨n, hn⟩ := t
  cases n with
  | zero => exact absurd rfl h0
  | succ n => exact (dif_pos h1).trans rfl

/-- The region's invariant before position `n`. -/
def PhiS1 (c : Dev nD) : (n : ℕ) → n ≤ cfg1.N → sProp 𝕄
  | 0, _ => Pipeline.ΦA spec1 c
  | n + 1, hn => iprop(iprop(iprop(owns (c : Thread nD τ) scM1_0 fullShare ((outsAt1 V c n hn).s0) ∗ owns (c : Thread nD τ) scM1_1 fullShare ((outsAt1 V c n hn).s1)) ∗ rest1 (F := F) c) ∗ (∃ r, prngReg c r))

theorem PhiS1_zero (c : Dev nD) (n : ℕ) (h : n ≤ cfg1.N) (hz : n = 0) : PhiS1 V c n h = Pipeline.ΦA spec1 c := by
  subst hz; rfl
theorem PhiS1_succ (c : Dev nD) (n : ℕ) (hn : n < cfg1.N) :
    PhiS1 V c (n + 1) hn = iprop(iprop(iprop(owns (c : Thread nD τ) scM1_0 fullShare ((outsAt1 V c n hn).s0) ∗ owns (c : Thread nD τ) scM1_1 fullShare ((outsAt1 V c n hn).s1)) ∗ rest1 (F := F) c) ∗ (∃ r, prngReg c r)) := rfl
theorem PhiS1_pos (c : Dev nD) (n : ℕ) (h : n ≤ cfg1.N) (hz : n ≠ 0) :
    PhiS1 V c n h = iprop(iprop(iprop(owns (c : Thread nD τ) scM1_0 fullShare ((outsAt1 V c (n - 1) (by omega)).s0) ∗ owns (c : Thread nD τ) scM1_1 fullShare ((outsAt1 V c (n - 1) (by omega)).s1)) ∗ rest1 (F := F) c) ∗ (∃ r, prngReg c r)) := by
  cases n with
  | zero => exact absurd rfl hz
  | succ n => rfl

/-! ## The pipeline's proof data -/

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => (outsAt1 V c t.val t.isLt).o8
    | ⟨9, _⟩ => (outsAt1 V c t.val t.isLt).o9
    | ⟨10, _⟩ => (outsAt1 V c t.val t.isLt).o10
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem PhiS1_castSucc (c : Dev nD) (t : Fin cfg1.N) :
    (dat1 V c).Φ t.castSucc = PhiS1 V c t.val (Nat.le_of_lt t.isLt) := by
  dsimp only [dat1]; simp only [Fin.coe_castSucc]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t = (outsAt1 V c t.val t.isLt).o8 := by dsimp only [dat1]
theorem after1_9 (c : Dev nD) (t : Fin cfg1.N) : (dat1 V c).after 9 t = (outsAt1 V c t.val t.isLt).o9 := by dsimp only [dat1]
theorem after1_10 (c : Dev nD) (t : Fin cfg1.N) : (dat1 V c).after 10 t = (outsAt1 V c t.val t.isLt).o10 := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d
theorem before1_7 (c : Dev nD) (t : Fin cfg1.N) (d) : (dat1 V c).before 7 t d = iblk1 V c 7 t :=
  before1_7_of V (dat1 V c) (A_eq1 V c 7) (after1_7 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d))
    ∗ (∃ d, owns (c : Thread nD τ) (ms1_7 t) fullShare ((dat1 V c).before 7 t d))
    ∗ (∃ d, owns (c : Thread nD τ) (ms1_8 t) fullShare ((dat1 V c).before 8 t d))
    ∗ (∃ d, owns (c : Thread nD τ) (ms1_9 t) fullShare ((dat1 V c).before 9 t d))
    ∗ (∃ d, owns (c : Thread nD τ) (ms1_10 t) fullShare ((dat1 V c).before 10 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t
    ∗ (dat1 V c).leavesExact 7 t
    ∗ (dat1 V c).leavesExact 8 t
    ∗ (dat1 V c).leavesExact 9 t
    ∗ (dat1 V c).leavesExact 10 t)

set_option maxHeartbeats 8000000 in
/-- The body at any point: which case the point is in is decided by its position; the invariant hands the body the
    accumulators (at anything at the first point, at the previous point's contents afterwards) and takes them back at this
    point's contents; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7]
  rw [show (dat1 V c).owesAt () t.succ = (dat1 V c).owesAt () t.castSucc from rfl]
  rw [show (dat1 V c).Φ t.succ = PhiS1 V c (t.val + 1) t.isLt from rfl, PhiS1_succ]
  have hN : t.val < 50 := lt_of_lt_of_eq t.isLt (show cfg1.N = 50 from N_1)
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  rw [show (dat1 V c).leavesExact 3 t = owns (c : Thread nD τ) (ms1_3 t) fullShare ((dat1 V c).after 3 t) from by
    unfold Dat.leavesExact; rw [liveAt1_3 t], after1_3]
  rw [show (dat1 V c).leavesExact 4 t = owns (c : Thread nD τ) (ms1_4 t) fullShare ((dat1 V c).after 4 t) from by
    unfold Dat.leavesExact; rw [liveAt1_4 t], after1_4]
  rw [show (dat1 V c).leavesExact 5 t = owns (c : Thread nD τ) (ms1_5 t) fullShare ((dat1 V c).after 5 t) from by
    unfold Dat.leavesExact; rw [liveAt1_5 t], after1_5]
  rw [show (dat1 V c).leavesExact 6 t = owns (c : Thread nD τ) (ms1_6 t) fullShare ((dat1 V c).after 6 t) from by
    unfold Dat.leavesExact; rw [liveAt1_6 t], after1_6]
  rw [show (dat1 V c).leavesExact 7 t = owns (c : Thread nD τ) (ms1_7 t) fullShare ((dat1 V c).after 7 t) from by
    unfold Dat.leavesExact; rw [liveAt1_7 t], after1_7]
  rw [show (dat1 V c).leavesExact 8 t = owns (c : Thread nD τ) (ms1_8 t) fullShare ((dat1 V c).after 8 t) from by
    unfold Dat.leavesExact; rw [liveAt1_8 t], after1_8]
  by_cases h0 : t.val = 0
  · have h1 : t.val ≠ 49 := by omega
    rw [Dat.leavesExact_idle (dat1 V c) 9 t (idleAt1_9 t (hnC1 t h1)) (noFlush1_9 t (hnC1 t h1))]
    rw [Dat.leavesExact_idle (dat1 V c) 10 t (idleAt1_10 t (hnC1 t h1)) (noFlush1_10 t (hnC1 t h1))]
    rw [outsAt1_first V c t h0 h1]
    unfold outA1; dsimp only
    unfold out1_A_8 sout1_A_0 sout1_A_1
    rw [PhiS1_castSucc V c t, PhiS1_zero V c _ _ h0, PhiA1_eq]
    iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
    iapply ((kernelRun1_A (F := F) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) scM1_0 (Memref.isWhole_whole _) scM1_1 (Memref.isWhole_whole _) (hA1 t h0) (hnC1 t h1) (iblk1 V c 0 t) (iblk1 V c 1 t) (iblk1 V c 2 t) (iblk1 V c 3 t) (iblk1 V c 4 t) (iblk1 V c 5 t) (iblk1 V c 6 t) (iblk1 V c 7 t)).2.2.2 _ _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [H9]; · iexact H9
    isplitl [H10]; · iexact H10
    isplitl [HS0]; · iexact HS0
    isplitl [HS1]; · iexact HS1
    iintro ⟨H0, H1, H2, H3, H4, H5, H6, H7, ⟨%e8, H8⟩, H9, H10, ⟨%es0, HS0⟩, ⟨%es1, HS1⟩⟩
    isplitl [HS0 HS1 Hrest Hg]
    · isplitl [HS0 HS1 Hrest]
      · isplitl [HS0 HS1]
        · isplitl [HS0]
          · unfold owns; iexists _; isplitr
            swap; · iexact HS0
            ipureintro; exact View.read_writes_of_cover _ _ _ _ _ (scover1_A_0 c _ _ _ _ _ _ _ _ _ _ _ _ _ _ _ _ _ _ _ _ _ _ _ _ _ _ _ _ _ _ _ _ _ _ _ _ _)
          unfold owns; iexists _; isplitr
          swap; · iexact HS1
          ipureintro; exact View.read_writes_of_cover _ _ _ _ _ (scover1_A_1 c _ _ _ _ _ _ _ _ _ _ _ _ _ _ _ _ _ _ _ _ _ _ _ _ _ _ _ _ _ _ _ _ _ _ _ _ _)
        iexact Hrest
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]
    · unfold owns; iexists _; isplitr
      swap; · iexact H8
      ipureintro; exact View.read_writes_of_cover _ _ _ _ _ (cover1_A_8 c _ _ _ _ _ _ _ _ _ _ _ _ _ _ _ _ _ _ _ _ _ _ _ _ _ _ _ _ _ _ _ _ _ _ _ _ _)
    isplitl [H9]; · iexists _; iexact H9
    iexists _; iexact H10
  · by_cases h1 : t.val = 49
    rw [show (dat1 V c).leavesExact 9 t = owns (c : Thread nD τ) (ms1_9 t) fullShare ((dat1 V c).after 9 t) from by
      unfold Dat.leavesExact; rw [liveAt1_9_C t (hC1 t h1)], after1_9]
    rw [show (dat1 V c).leavesExact 10 t = owns (c : Thread nD τ) (ms1_10 t) fullShare ((dat1 V c).after 10 t) from by
      unfold Dat.leavesExact; rw [liveAt1_10_C t (hC1 t h1)], after1_10]
    rw [outsAt1_last V c t h0 h1]
    unfold outC1; dsimp only
    unfold out1_C_8 out1_C_9 out1_C_10 sout1_C_0 sout1_C_1
    rw [PhiS1_castSucc V c t, PhiS1_pos V c _ _ h0]
    iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
    iapply ((kernelRun1_C (F := F) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) scM1_0 (Memref.isWhole_whole _) scM1_1 (Memref.isWhole_whole _) (hnA1 t h0) (hC1 t h1) (iblk1 V c 0 t) (iblk1 V c 1 t) (iblk1 V c 2 t) (iblk1 V c 3 t) (iblk1 V c 4 t) (iblk1 V c 5 t) (iblk1 V c 6 t) (iblk1 V c 7 t) _ _).2.2.2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [H9]; · iexists _; iexact H9
    isplitl [H10]; · iexists _; iexact H10
    isplitl [HS0]; · iexact HS0
    isplitl [HS1]; · iexact HS1
    iintro ⟨H0, H1, H2, H3, H4, H5, H6, H7, ⟨%e8, H8⟩, ⟨%e9, H9⟩, ⟨%e10, H10⟩, ⟨%es0, HS0⟩, ⟨%es1, HS1⟩⟩
    isplitl [HS0 HS1 Hrest Hg]
    · isplitl [HS0 HS1 Hrest]
      · isplitl [HS0 HS1]
        · isplitl [HS0]
          · unfold owns; iexists _; isplitr
            swap; · iexact HS0
            ipureintro; exact View.read_writes_of_cover _ _ _ _ _ (scover1_C_0 c _ _ _ _ _ _ _ _ _ _ _ _ _ _ _ _ _ _ _ _ _ _ _ _ _ _ _ _ _ _ _ _ _ _ _ _ _ _ _)
          unfold owns; iexists _; isplitr
          swap; · iexact HS1
          ipureintro; exact View.read_writes_of_cover _ _ _ _ _ (scover1_C_1 c _ _ _ _ _ _ _ _ _ _ _ _ _ _ _ _ _ _ _ _ _ _ _ _ _ _ _ _ _ _ _ _ _ _ _ _ _ _ _)
        iexact Hrest
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]
    · unfold owns; iexists _; isplitr
      swap; · iexact H8
      ipureintro; exact View.read_writes_of_cover _ _ _ _ _ (cover1_C_8 c _ _ _ _ _ _ _ _ _ _ _ _ _ _ _ _ _ _ _ _ _ _ _ _ _ _ _ _ _ _ _ _ _ _ _ _ _ _ _)
    isplitl [H9]
    · unfold owns; iexists _; isplitr
      swap; · iexact H9
      ipureintro; exact View.read_writes_of_cover _ _ _ _ _ (cover1_C_9 c _ _ _ _ _ _ _ _ _ _ _ _ _ _ _ _ _ _ _ _ _ _ _ _ _ _ _ _ _ _ _ _ _ _ _ _ _ _ _)
    unfold owns; iexists _; isplitr
    swap; · iexact H10
    ipureintro; exact View.read_writes_of_cover _ _ _ _ _ (cover1_C_10 c _ _ _ _ _ _ _ _ _ _ _ _ _ _ _ _ _ _ _ _ _ _ _ _ _ _ _ _ _ _ _ _ _ _ _ _ _ _ _)
    rw [Dat.leavesExact_idle (dat1 V c) 9 t (idleAt1_9 t (hnC1 t h1)) (noFlush1_9 t (hnC1 t h1))]
    rw [Dat.leavesExact_idle (dat1 V c) 10 t (idleAt1_10 t (hnC1 t h1)) (noFlush1_10 t (hnC1 t h1))]
    rw [outsAt1_mid V c t h0 h1]
    unfold outB1; dsimp only
    unfold out1_B_8 sout1_B_0 sout1_B_1
    rw [PhiS1_castSucc V c t, PhiS1_pos V c _ _ h0]
    iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
    iapply ((kernelRun1_B (F := F) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) scM1_0 (Memref.isWhole_whole _) scM1_1 (Memref.isWhole_whole _) (hnA1 t h0) (hnC1 t h1) (iblk1 V c 0 t) (iblk1 V c 1 t) (iblk1 V c 2 t) (iblk1 V c 3 t) (iblk1 V c 4 t) (iblk1 V c 5 t) (iblk1 V c 6 t) (iblk1 V c 7 t) _ _).2.2.2 _ _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [H9]; · iexact H9
    isplitl [H10]; · iexact H10
    isplitl [HS0]; · iexact HS0
    isplitl [HS1]; · iexact HS1
    iintro ⟨H0, H1, H2, H3, H4, H5, H6, H7, ⟨%e8, H8⟩, H9, H10, ⟨%es0, HS0⟩, ⟨%es1, HS1⟩⟩
    isplitl [HS0 HS1 Hrest Hg]
    · isplitl [HS0 HS1 Hrest]
      · isplitl [HS0 HS1]
        · isplitl [HS0]
          · unfold owns; iexists _; isplitr
            swap; · iexact HS0
            ipureintro; exact View.read_writes_of_cover _ _ _ _ _ (scover1_B_0 c _ _ _ _ _ _ _ _ _ _ _ _ _ _ _ _ _ _ _ _ _ _ _ _ _ _ _ _ _ _ _ _ _ _ _ _ _ _ _)
          unfold owns; iexists _; isplitr
          swap; · iexact HS1
          ipureintro; exact View.read_writes_of_cover _ _ _ _ _ (scover1_B_1 c _ _ _ _ _ _ _ _ _ _ _ _ _ _ _ _ _ _ _ _ _ _ _ _ _ _ _ _ _ _ _ _ _ _ _ _ _ _ _)
        iexact Hrest
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]
    · unfold owns; iexists _; isplitr
      swap; · iexact H8
      ipureintro; exact View.read_writes_of_cover _ _ _ _ _ (cover1_B_8 c _ _ _ _ _ _ _ _ _ _ _ _ _ _ _ _ _ _ _ _ _ _ _ _ _ _ _ _ _ _ _ _ _ _ _ _ _ _ _)
    isplitl [H9]; · iexists _; iexact H9
    iexists _; iexact H10

/-- The library's body obligation, at every point. -/
theorem body_obligation1 (c : Dev nD) : BodyObligation (dat1 (F := F) V c) (defs₀ (F := F)) Variants.none () Set.univ := fun t => by
  rw [bigSep_W1, bigSep_W1]
  exact sound_body1 V c t

theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point but the first the invariant gives the class's back: the accumulators' contents are forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨⟨HS0, HS1⟩, Hrest⟩, Hg⟩
  isplitl [HS0 HS1 Hrest]
  · isplitl [HS0 HS1]
    · isplitl [HS0]; · iexists _; iexact HS0
      iexists _; iexact HS1
    iexact Hrest
  iexact Hg
theorem hout1 (c : Dev nD) : (dat1 V c).Φ (Fin.last cfg1.N) ⊢ Pipeline.ΦA spec1 c :=
  Phi_out1 V c _ (by rw [Fin.val_last]; have : cfg1.N = 50 := N_1; omega)

end Cert.Kernel.Hand

end
-- ==== Proof.KernelR2Frame.lean ====
/- Region 2 of @main (the pallas_call of `cc2__bn2_kernel`): one store of the whole output block, a pointwise function of
   the three input blocks; no scratch, no conditional. At the contents `V` the region is entered with: a window's block
   at a point, what the body leaves in the output's staging buffer, the body's triple, the proof data and the obligation. -/
import proofs.«149204_j28372553957731_2_alg».proof.Proof.KernelLaunchP
import proofs.«149204_j28372553957731_2_alg».proof.Proof.Gen.Kernel.Skeleton
import proofs.«149204_j28372553957731_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
abbrev r2_S10000x64 : Rect S10000x64 := Rect.unit (s := S10000x64) ![0, 0] S10000x64.size inb_S10000x64_S10000x64_0_0
abbrev r2_S1x64 : Rect S1x64 := Rect.unit (s := S1x64) ![0, 0] S1x64.size inb_S1x64_S1x64_0_0

/-- The output's staging buffer after the body: its one store, of the payload of the three loaded blocks. -/
def out2_3 (x0 : Vec F S10000x64 .f32) (x1 : Vec F S1x64 .f32) (x2 : Vec F S1x64 .f32) : Vec F S10000x64 .f32 :=
  View.canon [⟨r2_S10000x64, k2_pay1 (View.ld x0 r2_S10000x64) (View.ld x1 r2_S1x64) (View.ld x2 r2_S1x64)⟩]

theorem cover2_3 (p0 : Vec F S10000x64 .f32) (y : S10000x64.Idx) :
    ∃ pc ∈ ([⟨r2_S10000x64, p0⟩] : List (View.Piece (Elt F) S10000x64 .f32)), y ∈ pc.1.set :=
  View.cover_of_tiled [⟨r2_S10000x64, p0⟩] S10000x64.size (by rfl) y

set_option maxHeartbeats 1000000 in
theorem sound_kernel2 (c : Dev nD) (E : Set ℕ) (i : grid2.Coords) (arg1 : Memref sig .tc .vmem S10000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S10000x64 .f32) (harg4 : arg4.IsWhole)
    (x0 : Vec F S10000x64 .f32) (x1 : Vec F S1x64 .f32) (x2 : Vec F S1x64 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out2_3 x0 x1 x2)) -∗ K ⟨⟩))
      ⊢ wp frame (wpE (defs₀ (F := F)) Variants.none c none) E (cc2__bn2_kernel i arg1 harg1 arg2 harg2 arg3 harg3 arg4 harg4) K := by
  simp only [cc2__bn2_kernel_eq_skeleton]; unfold cc2__bn2_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover2_3 _)

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Pipeline.ΦA spec2 c
  q _ := fullShare
  owed _ := 0

theorem A_eq2 (c : Dev nD) (w : Fin cfg2.W) : (dat2 V c).A w = V c (Pipeline.arrRef spec2 w) := by
  dsimp only [dat2]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = out2_3 (iblk2 V c 0 t) (iblk2 V c 1 t) (iblk2 V c 2 t) := by dsimp only [dat2]
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ _ _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation2 (c : Dev nD) : BodyObligation (dat2 (F := F) V c) (defs₀ (F := F)) Variants.none () Set.univ := fun t => by
  rw [bigSep_W2, bigSep_W2]
  exact sound_body2 V c t

end Cert.Kernel.Hand

end
-- ==== Proof.KernelRun.lean ====
/- @main as a run of six segments — three stretches of host operations and the three pallas_calls between them — from
   the launch to the return. The contents of the core's unscoped buffers at each boundary are a fold from the launch
   memory: a host stretch applies its operations; a region leaves each of its arrays at what its pipeline's write-backs
   make of it and every other buffer as it found it. Each region is entered from "every unscoped buffer at the boundary's
   contents, the generator register at some state, nothing owed" and left at the same with the next contents. The run's
   post says that every unscoped buffer ends at the last boundary's contents: the arguments (never written) and the result. -/
import proofs.«149204_j28372553957731_2_alg».proof.Proof.KernelR0Frame
import proofs.«149204_j28372553957731_2_alg».proof.Proof.KernelR1Frame
import proofs.«149204_j28372553957731_2_alg».proof.Proof.KernelR2Frame

set_option maxRecDepth 16384

noncomputable section

namespace Cert.Kernel.Hand

open Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

abbrev W0 : Dev nD → Valuation τ sig (Elt F) := fun c b => (s₀ m ρ).mem ((c : Dev nD), b)
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

abbrev W5 : Dev nD → Valuation τ sig (Elt F) := fun c => StableHlo.after hostOps2 (W4 m ρ c)
abbrev V5 : (c : Dev nD) → (b : Ref sig .tc) → Buf (Elt F) ((c : Thread nD τ).loc b) := fun c b => W5 m ρ c b
def W6 (c : Dev nD) : Valuation τ sig (Elt F) :=
  Pipeline.withArrays spec2 c (W5 m ρ c) fun w => (dat2 (V5 m ρ) c).arrAt w cfg2.N
theorem W6_arr (c : Dev nD) (w : Fin cfg2.W) :
    W6 m ρ c (Proc.devRef .tc (Pipeline.arrRef spec2 w)) = (dat2 (V5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
abbrev V6 : (c : Dev nD) → (b : Ref sig .tc) → Buf (Elt F) ((c : Thread nD τ).loc b) := fun c b => W6 m ρ c b
theorem hF2 (c : Dev nD) (w : Fin cfg2.W) : (dat2 (V5 m ρ) c).arrAt w cfg2.N = V6 m ρ c (Pipeline.arrRef spec2 w) :=
  (W6_arr m ρ c w).symm
theorem hrest2 (c : Dev nD) : ∀ b, b ∉ Finset.univ.image (Pipeline.arrRef spec2) → V6 m ρ c b = V5 m ρ c b :=
  fun b hb => W6_of_ne m ρ c b fun w e => hb (Finset.mem_image.mpr ⟨w, Finset.mem_univ _, e⟩)

/-! ## The proof data family and the thread state -/

abbrev adm : (p : Fin 3) → (pcfgs (F := F) p).Adm := fun p => (cfgs p).toPCfg_adm
/-- Every pipeline's proof data, each at its region's entry contents (a literal match on the pipeline's number). -/
def pdats : (p : Fin 3) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V5 m ρ) c
abbrev 𝒱₀ : Variants := Variants.none
abbrev L : GSem nD τ sig → Finset Unit := fun _ => ∅
abbrev lv : GSem nD τ sig → Unit → ℕ := fun _ _ => 0
/-- What rides beside the buffers through every segment: the generator register at some state and the core owing nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps2_fresh : (hostOps2 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W6 m ρ c) ∗ ∃ r, prngReg c r)

/-! ## The regions as segments -/

set_option backward.isDefEq.respectTransparency.types false in
/-- Region 0: entered from every unscoped buffer at `W1`, left at `W2`. Its arrays are split out of the
    unscoped buffers and put back at the exit contents; the generator register goes into the region's invariant and
    comes back; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none]
    have h2 : (Pipeline.ΦA spec0 c : sProp 𝕄) ⊢ iprop((∃ r, prngReg c r) ∗ (BI.emp : sProp 𝕄)
        ∗ Pipeline.scopedRest (Ix := Unit) (Name := ℕ) (U := UR sig nD τ) (Lvl := ℕ) (Val := Elt F) spec0 c) := by
      unfold Pipeline.ΦA
      iintro ⟨Hr, Hp⟩
      isplitl [Hp]; · iexact Hp
      isplitr; · iempintro
      iexact Hr
    exact (hout0 (V1 m ρ) c).trans h2
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1: entered from every unscoped buffer at `W3`, left at `W4`. Its arrays are split out of the
    unscoped buffers and put back at the exit contents; the generator register goes into the region's invariant and
    comes back; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none]
    have h2 : (Pipeline.ΦA spec1 c : sProp 𝕄) ⊢ iprop((∃ r, prngReg c r) ∗ (BI.emp : sProp 𝕄)
        ∗ Pipeline.scopedRest (Ix := Unit) (Name := ℕ) (U := UR sig nD τ) (Lvl := ℕ) (Val := Elt F) spec1 c) := by
      unfold Pipeline.ΦA
      iintro ⟨Hr, Hp⟩
      isplitl [Hp]; · iexact Hp
      isplitr; · iempintro
      iexact Hr
    exact (hout1 (V3 m ρ) c).trans h2
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2: entered from every unscoped buffer at `W5`, left at `W6`. Its arrays are split out of the
    unscoped buffers and put back at the exit contents; the generator register goes into the region's invariant and
    comes back; nothing is owed; the kernel has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (V5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V5 m ρ c) (V6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the run -/

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ) ]
theorem main_run (c : Dev nD) : main (F := F) c = Pipeline.Seg.run (segs m ρ) := (main_chain c).trans (by chain_rfl)

set_option backward.isDefEq.respectTransparency.types false in
/-- THE RUN: from any memory with zero counters every weakly fair execution of @main terminates, nothing faulting, and in
    every final state each unscoped buffer of each core holds the last boundary's contents `W6`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W6 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h => h)

end Cert.Kernel.Hand

end
-- ==== Proof.KernelKept.lean ====
/- The argument arrays end as launched. No host operation writes an argument (each writes its own result buffer), and a
   region either does not touch it or stages it through an input window, whose array the pipeline leaves as it found it;
   so the last boundary's contents at an argument walk back, boundary by boundary, to the launch memory. -/
import proofs.«149204_j28372553957731_2_alg».proof.Proof.KernelRun

set_option maxRecDepth 16384

noncomputable section

namespace Cert.Kernel.Hand

open Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The buffers host stretch 0 writes. -/
abbrev hostOps0_W : List (Ref sig .tc) := [main_v0, main_v1, main_v2, main_v3, main_c, main_v4, main_v5, main_c_0, main_v6, main_v7, main_v8, main_v9, main_v10, main_cst, main_v11, main_v12, main_v13, main_v14, main_v15, main_v16]
theorem hostOps0_writes : (hostOps0 : List (HloOp τ sig (Elt F))).Forall fun op => op.writes ⊆ (hostOps0_W.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_⟩ <;>
    (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
/-- An input window's array leaves region 0 as it entered. -/
theorem W2_in (c : Dev nD) (w : Fin cfg0.W) (hw : (cfg0.win w).isOut = false) :
    W2 m ρ c (Proc.devRef .tc (Pipeline.arrRef spec0 w)) = W1 m ρ c (Proc.devRef .tc (Pipeline.arrRef spec0 w)) :=
  (W2_arr m ρ c w).trans (((dat0 (V1 m ρ) c).arrAt_in w hw _).trans (A_eq0 (V1 m ρ) c w))

/-- The buffers host stretch 1 writes. -/
abbrev hostOps1_W : List (Ref sig .tc) := [main_cst_1, main_v18, main_v19, main_cst_2, main_v20, main_v21, main_v22, main_v23, main_cst_3, main_v24, main_v25, main_v26, main_cst_4, main_v27, main_v28, main_v29, main_v30, main_v31, main_v32, main_v33]
theorem hostOps1_writes : (hostOps1 : List (HloOp τ sig (Elt F))).Forall fun op => op.writes ⊆ (hostOps1_W.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_⟩ <;>
    (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
theorem W3_of (c : Dev nD) (r : Ref sig .tc) (h : r ∉ hostOps1_W) : W3 m ρ c (Proc.devRef .tc r) = W2 m ρ c (Proc.devRef .tc r) :=
  StableHlo.after_of_writes_sub hostOps1 _ hostOps1_writes h
/-- An input window's array leaves region 1 as it entered. -/
theorem W4_in (c : Dev nD) (w : Fin cfg1.W) (hw : (cfg1.win w).isOut = false) :
    W4 m ρ c (Proc.devRef .tc (Pipeline.arrRef spec1 w)) = W3 m ρ c (Proc.devRef .tc (Pipeline.arrRef spec1 w)) :=
  (W4_arr m ρ c w).trans (((dat1 (V3 m ρ) c).arrAt_in w hw _).trans (A_eq1 (V3 m ρ) c w))

/-- The buffers host stretch 2 writes. -/
abbrev hostOps2_W : List (Ref sig .tc) := [main_cst_5, main_v35, main_v36, main_cst_6, main_v37, main_v38, main_v39, main_v40, main_cst_7, main_v41, main_v42, main_v43, main_cst_8, main_v44, main_v45, main_v46, main_v47, main_v48, main_v49, main_v50]
theorem hostOps2_writes : (hostOps2 : List (HloOp τ sig (Elt F))).Forall fun op => op.writes ⊆ (hostOps2_W.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_⟩ <;>
    (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
theorem W5_of (c : Dev nD) (r : Ref sig .tc) (h : r ∉ hostOps2_W) : W5 m ρ c (Proc.devRef .tc r) = W4 m ρ c (Proc.devRef .tc r) :=
  StableHlo.after_of_writes_sub hostOps2 _ hostOps2_writes h
/-- An input window's array leaves region 2 as it entered. -/
theorem W6_in (c : Dev nD) (w : Fin cfg2.W) (hw : (cfg2.win w).isOut = false) :
    W6 m ρ c (Proc.devRef .tc (Pipeline.arrRef spec2 w)) = W5 m ρ c (Proc.devRef .tc (Pipeline.arrRef spec2 w)) :=
  (W6_arr m ρ c w).trans (((dat2 (V5 m ρ) c).arrAt_in w hw _).trans (A_eq2 (V5 m ρ) c w))

theorem kept_arg0 (c : Dev nD) : W6 m ρ c (Proc.devRef .tc main_arg0) = m ((c : Thread nD τ).loc main_arg0) :=
  (W6_of_ne m ρ c main_arg0 (by decide)).trans <| (W5_of m ρ c main_arg0 (by decide)).trans <| (W4_in m ρ c 1 rfl).trans <| (W3_of m ρ c main_arg0 (by decide)).trans <|
    (W2_in m ρ c 0 rfl).trans <| (W1_of m ρ c main_arg0 (by decide)).trans rfl
theorem kept_arg1 (c : Dev nD) : W6 m ρ c (Proc.devRef .tc main_arg1) = m ((c : Thread nD τ).loc main_arg1) :=
  (W6_of_ne m ρ c main_arg1 (by decide)).trans <| (W5_of m ρ c main_arg1 (by decide)).trans <| (W4_of_ne m ρ c main_arg1 (by decide)).trans <| (W3_of m ρ c main_arg1 (by decide)).trans <|
    (W2_of_ne m ρ c main_arg1 (by decide)).trans <| (W1_of m ρ c main_arg1 (by decide)).trans rfl
theorem kept_arg2 (c : Dev nD) : W6 m ρ c (Proc.devRef .tc main_arg2) = m ((c : Thread nD τ).loc main_arg2) :=
  (W6_of_ne m ρ c main_arg2 (by decide)).trans <| (W5_of m ρ c main_arg2 (by decide)).trans <| (W4_of_ne m ρ c main_arg2 (by decide)).trans <| (W3_of m ρ c main_arg2 (by decide)).trans <|
    (W2_in m ρ c 2 rfl).trans <| (W1_of m ρ c main_arg2 (by decide)).trans rfl
theorem kept_arg3 (c : Dev nD) : W6 m ρ c (Proc.devRef .tc main_arg3) = m ((c : Thread nD τ).loc main_arg3) :=
  (W6_of_ne m ρ c main_arg3 (by decide)).trans <| (W5_of m ρ c main_arg3 (by decide)).trans <| (W4_of_ne m ρ c main_arg3 (by decide)).trans <| (W3_of m ρ c main_arg3 (by decide)).trans <|
    (W2_in m ρ c 3 rfl).trans <| (W1_of m ρ c main_arg3 (by decide)).trans rfl
theorem kept_arg4 (c : Dev nD) : W6 m ρ c (Proc.devRef .tc main_arg4) = m ((c : Thread nD τ).loc main_arg4) :=
  (W6_of_ne m ρ c main_arg4 (by decide)).trans <| (W5_of m ρ c main_arg4 (by decide)).trans <| (W4_of_ne m ρ c main_arg4 (by decide)).trans <| (W3_of m ρ c main_arg4 (by decide)).trans <|
    (W2_of_ne m ρ c main_arg4 (by decide)).trans <| (W1_of m ρ c main_arg4 (by decide)).trans rfl
theorem kept_arg5 (c : Dev nD) : W6 m ρ c (Proc.devRef .tc main_arg5) = m ((c : Thread nD τ).loc main_arg5) :=
  (W6_of_ne m ρ c main_arg5 (by decide)).trans <| (W5_of m ρ c main_arg5 (by decide)).trans <| (W4_of_ne m ρ c main_arg5 (by decide)).trans <| (W3_of m ρ c main_arg5 (by decide)).trans <|
    (W2_of_ne m ρ c main_arg5 (by decide)).trans <| (W1_of m ρ c main_arg5 (by decide)).trans rfl
theorem kept_arg6 (c : Dev nD) : W6 m ρ c (Proc.devRef .tc main_arg6) = m ((c : Thread nD τ).loc main_arg6) :=
  (W6_of_ne m ρ c main_arg6 (by decide)).trans <| (W5_of m ρ c main_arg6 (by decide)).trans <| (W4_of_ne m ρ c main_arg6 (by decide)).trans <| (W3_of m ρ c main_arg6 (by decide)).trans <|
    (W2_of_ne m ρ c main_arg6 (by decide)).trans <| (W1_of m ρ c main_arg6 (by decide)).trans rfl
theorem kept_arg7 (c : Dev nD) : W6 m ρ c (Proc.devRef .tc main_arg7) = m ((c : Thread nD τ).loc main_arg7) :=
  (W6_of_ne m ρ c main_arg7 (by decide)).trans <| (W5_of m ρ c main_arg7 (by decide)).trans <| (W4_in m ρ c 4 rfl).trans <| (W3_of m ρ c main_arg7 (by decide)).trans <|
    (W2_of_ne m ρ c main_arg7 (by decide)).trans <| (W1_of m ρ c main_arg7 (by decide)).trans rfl
theorem kept_arg8 (c : Dev nD) : W6 m ρ c (Proc.devRef .tc main_arg8) = m ((c : Thread nD τ).loc main_arg8) :=
  (W6_of_ne m ρ c main_arg8 (by decide)).trans <| (W5_of m ρ c main_arg8 (by decide)).trans <| (W4_of_ne m ρ c main_arg8 (by decide)).trans <| (W3_of m ρ c main_arg8 (by decide)).trans <|
    (W2_of_ne m ρ c main_arg8 (by decide)).trans <| (W1_of m ρ c main_arg8 (by decide)).trans rfl
theorem kept_arg9 (c : Dev nD) : W6 m ρ c (Proc.devRef .tc main_arg9) = m ((c : Thread nD τ).loc main_arg9) :=
  (W6_of_ne m ρ c main_arg9 (by decide)).trans <| (W5_of m ρ c main_arg9 (by decide)).trans <| (W4_in m ρ c 6 rfl).trans <| (W3_of m ρ c main_arg9 (by decide)).trans <|
    (W2_of_ne m ρ c main_arg9 (by decide)).trans <| (W1_of m ρ c main_arg9 (by decide)).trans rfl
theorem kept_arg10 (c : Dev nD) : W6 m ρ c (Proc.devRef .tc main_arg10) = m ((c : Thread nD τ).loc main_arg10) :=
  (W6_of_ne m ρ c main_arg10 (by decide)).trans <| (W5_of m ρ c main_arg10 (by decide)).trans <| (W4_of_ne m ρ c main_arg10 (by decide)).trans <| (W3_of m ρ c main_arg10 (by decide)).trans <|
    (W2_of_ne m ρ c main_arg10 (by decide)).trans <| (W1_of m ρ c main_arg10 (by decide)).trans rfl
theorem kept_arg11 (c : Dev nD) : W6 m ρ c (Proc.devRef .tc main_arg11) = m ((c : Thread nD τ).loc main_arg11) :=
  (W6_of_ne m ρ c main_arg11 (by decide)).trans <| (W5_of m ρ c main_arg11 (by decide)).trans <| (W4_of_ne m ρ c main_arg11 (by decide)).trans <| (W3_of m ρ c main_arg11 (by decide)).trans <|
    (W2_of_ne m ρ c main_arg11 (by decide)).trans <| (W1_of m ρ c main_arg11 (by decide)).trans rfl
theorem kept_arg12 (c : Dev nD) : W6 m ρ c (Proc.devRef .tc main_arg12) = m ((c : Thread nD τ).loc main_arg12) :=
  (W6_of_ne m ρ c main_arg12 (by decide)).trans <| (W5_of m ρ c main_arg12 (by decide)).trans <| (W4_of_ne m ρ c main_arg12 (by decide)).trans <| (W3_of m ρ c main_arg12 (by decide)).trans <|
    (W2_of_ne m ρ c main_arg12 (by decide)).trans <| (W1_of m ρ c main_arg12 (by decide)).trans rfl

/-- THE FRAME: every weakly fair execution of @main terminates, nothing faulting, with every argument array as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun r h c => ⟨(h c _ (mem_uc main_arg0 (by decide))).trans (kept_arg0 m ρ c),
    (h c _ (mem_uc main_arg1 (by decide))).trans (kept_arg1 m ρ c),
    (h c _ (mem_uc main_arg2 (by decide))).trans (kept_arg2 m ρ c),
    (h c _ (mem_uc main_arg3 (by decide))).trans (kept_arg3 m ρ c),
    (h c _ (mem_uc main_arg4 (by decide))).trans (kept_arg4 m ρ c),
    (h c _ (mem_uc main_arg5 (by decide))).trans (kept_arg5 m ρ c),
    (h c _ (mem_uc main_arg6 (by decide))).trans (kept_arg6 m ρ c),
    (h c _ (mem_uc main_arg7 (by decide))).trans (kept_arg7 m ρ c),
    (h c _ (mem_uc main_arg8 (by decide))).trans (kept_arg8 m ρ c),
    (h c _ (mem_uc main_arg9 (by decide))).trans (kept_arg9 m ρ c),
    (h c _ (mem_uc main_arg10 (by decide))).trans (kept_arg10 m ρ c),
    (h c _ (mem_uc main_arg11 (by decide))).trans (kept_arg11 m ρ c),
    (h c _ (mem_uc main_arg12 (by decide))).trans (kept_arg12 m ρ c)⟩)
    (run_all m ρ)

end Cert.Kernel.Hand

end
-- ==== Proof.KernelIdealR0Kit.lean ====
/- Region 0 of @main (the pallas_call of `cc0__gnn_kernel`): what its body's runs are stated over, at the contents `V` the
   region is entered with. A window's block at a grid point is read off its array; an input's staging buffer holds that
   block at every point (it is fetched when the block index moves and kept otherwise). The body has two conditionals on the
   grid coordinate: the first holds at the first point only (there the two accumulators are cleared), the second at the
   last point only (there the accumulators are copied to the two small outputs). At every other point those two outputs'
   staging buffers are left alone and are not written back. -/
import proofs.«149204_j28372553957731_2_alg».proof.Proof.KernelIdealLaunchP
import proofs.«149204_j28372553957731_2_alg».proof.Proof.Gen.KernelIdeal.Skeleton
import proofs.«149204_j28372553957731_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, fetched there or not. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current staging buffer holds its block at every point, fetched there or not. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4's current staging buffer holds its block at every point, fetched there or not. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-! ## The body's two conditions -/

/-- "This is the first point": the body's first conditional, from the grid coordinate. -/
abbrev cond0_0 (i : grid0.Coords) : Prop := (Scalar.cmpi .ne (Scalar.extui (Scalar.cmpi .eq (BitVec.ofNat 32 (i 0).val) 0#32)) 0#32) = 1#1
theorem hcond0_0 : ∀ t : Fin cfg0.N, cond0_0 (grid0.coords t) ↔ t.val % 20 = 0 :=
  (by decide +kernel : ∀ t : Fin grid0.N, cond0_0 (grid0.coords t) ↔ t.val % 20 = 0)
/-- "This is the last point": the body's second conditional. -/
abbrev cond0_1 (i : grid0.Coords) : Prop := k0_cond2 i = 1#1
theorem hcond0_1 : ∀ t : Fin cfg0.N, cond0_1 (grid0.coords t) ↔ t.val % 20 = 19 :=
  (by decide +kernel : ∀ t : Fin grid0.N, cond0_1 (grid0.coords t) ↔ t.val % 20 = 19)

theorem cond0_0_iff (t : Fin cfg0.N) : cond0_0 (grid0.coords t) ↔ t.val = 0 := by
  have hN : t.val < 20 := lt_of_lt_of_eq t.isLt (show cfg0.N = 20 from N_0)
  rw [hcond0_0 t]; omega
theorem cond0_1_iff (t : Fin cfg0.N) : cond0_1 (grid0.coords t) ↔ t.val = 19 := by
  have hN : t.val < 20 := lt_of_lt_of_eq t.isLt (show cfg0.N = 20 from N_0)
  rw [hcond0_1 t]; omega

/-! ## Where the windows are idle -/
theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel
theorem liveAt0_5 : ∀ t : Fin cfg0.N, cfg0.idle 5 (grid0.coords t) = false := by decide +kernel
/-- Away from the last point output 6 is idle and is not written back; at the last point it is live. -/
theorem idleAt0_6 : ∀ t : Fin cfg0.N, ¬cond0_1 (grid0.coords t) → cfg0.idle 6 (grid0.coords t) = true := by decide +kernel
theorem noFlush0_6 : ∀ t : Fin cfg0.N, ¬cond0_1 (grid0.coords t) → (cfg0.win 6).flush t = false := by decide +kernel
theorem liveAt0_6_C : ∀ t : Fin cfg0.N, cond0_1 (grid0.coords t) → cfg0.idle 6 (grid0.coords t) = false := by decide +kernel
/-- Away from the last point output 7 is idle and is not written back; at the last point it is live. -/
theorem idleAt0_7 : ∀ t : Fin cfg0.N, ¬cond0_1 (grid0.coords t) → cfg0.idle 7 (grid0.coords t) = true := by decide +kernel
theorem noFlush0_7 : ∀ t : Fin cfg0.N, ¬cond0_1 (grid0.coords t) → (cfg0.win 7).flush t = false := by decide +kernel
theorem liveAt0_7_C : ∀ t : Fin cfg0.N, cond0_1 (grid0.coords t) → cfg0.idle 7 (grid0.coords t) = false := by decide +kernel

/-! ## The memrefs the body is called with -/

abbrev VO0_5 : View sig .tc .vmem S5000x64 .f32 := (Memref.whole cc0_stg5_0 : Memref sig .tc .vmem S5000x64 .f32).view
abbrev VO0_6 : View sig .tc .vmem S1x64 .f32 := (Memref.whole cc0_stg6_0 : Memref sig .tc .vmem S1x64 .f32).view
abbrev VO0_7 : View sig .tc .vmem S1x64 .f32 := (Memref.whole cc0_stg7_0 : Memref sig .tc .vmem S1x64 .f32).view
abbrev ms0_0 (t : Fin cfg0.N) : Memref sig .tc .vmem S5000x64 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S5000x64 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S64x64 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S64x64 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x64 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S5000x64 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x64 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x64 .f32 := win0_7.stage (cfg0.slots t 7)
abbrev hs0_7 (t : Fin cfg0.N) : (ms0_7 t).IsWhole := hstage0_7 ((cfg0.slots t 7).cast nbuf0_7)
abbrev scM0_0 : Memref sig .tc .vmem S1x64 .f32 := Memref.whole cc0_scratch0
abbrev VS0_0 : View sig .tc .vmem S1x64 .f32 := scM0_0.view
abbrev scM0_1 : Memref sig .tc .vmem S1x64 .f32 := Memref.whole cc0_scratch1
abbrev VS0_1 : View sig .tc .vmem S1x64 .f32 := scM0_1.view

/-- The core's other scoped buffers (the other calls' staging buffers and accumulators), which this region never opens. -/
abbrev rest0 (c : Dev nD) : sProp 𝕄 :=
  Pipeline.scopedRestBut (Ix := Unit) (Name := ℕ) (U := UR sig nD τ) (Lvl := ℕ) (Val := Elt F) spec0 c [cc0_scratch0, cc0_scratch1]

/-- The region's invariant before its first point: the two accumulators owned at some contents, the other scoped
    buffers unopened, and the generator register. -/
theorem PhiA0_eq (c : Dev nD) :
    (Pipeline.ΦA spec0 c : sProp 𝕄)
      = iprop(iprop(iprop((∃ d, owns (c : Thread nD τ) scM0_0 fullShare d) ∗ (∃ d, owns (c : Thread nD τ) scM0_1 fullShare d)) ∗ rest0 (F := F) c) ∗ (∃ r, prngReg c r)) := by
  unfold Pipeline.ΦA
  rw [Pipeline.scopedRest_split_of_list spec0 c [cc0_scratch0, cc0_scratch1] (by decide) (by decide)]
  simp only [scM0_0, scM0_1, owns_whole]; try rfl

end Cert.KernelIdeal.Hand

end
-- ==== Proof.KernelIdealR0RunA.lean ====
/- Region 0, the body's whole run in case A (the first grid point: the accumulators are cleared, then added to).
   From whole staging memrefs — the inputs at their contents, the accumulators at anything,
   the two small outputs at contents handed back untouched, the other outputs at anything — the body runs to the end leaving the inputs as they were and each
   buffer it stored into with its stores written; the lists of stores are what the run finds. -/
import proofs.«149204_j28372553957731_2_alg».proof.Proof.KernelIdealR0Kit

set_option maxRecDepth 16384

noncomputable section

namespace Cert.KernelIdeal.Hand

open Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun0_A (c : Dev nD) (i : grid0.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S64x64 .f32) (harg4 : arg4.IsWhole) (arg5 : Memref sig .tc .vmem S1x64 .f32) (harg5 : arg5.IsWhole) (arg6 : Memref sig .tc .vmem S5000x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (hc0 : cond0_0 i) (hc1 : ¬cond0_1 i)
    (x0 : Vec F S5000x64 .f32) (x1 : Vec F S5000x64 .f32) (x2 : Vec F S64x64 .f32) (x3 : Vec F S64x64 .f32) (x4 : Vec F S1x64 .f32) :
    Σ' (L5 : List (View.Piece (Elt F) S5000x64 .f32)), Σ' (LS0 : List (View.Piece (Elt F) S1x64 .f32)), { LS1 : List (View.Piece (Elt F) S1x64 .f32) //
      ∀ (xi6 : Vec F S1x64 .f32) (xi7 : Vec F S1x64 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ owns (c : Thread nD τ) arg7 fullShare xi6 ∗ owns (c : Thread nD τ) arg8 fullShare xi7 ∗ (∃ d, owns (c : Thread nD τ) arg9 fullShare d) ∗ (∃ d, owns (c : Thread nD τ) arg10 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f L5) ∗ owns (c : Thread nD τ) arg7 fullShare xi6 ∗ owns (c : Thread nD τ) arg8 fullShare xi7 ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1)) -∗ K ⟨⟩))
          ⊢ wp frame (wpE (defs₀ (F := F)) Variants.none c none) E (cc0__gnn_kernel i arg1 harg1 arg2 harg2 arg3 harg3 arg4 harg4 arg5 harg5 arg6 harg6 arg7 harg7 arg8 harg8 arg9 harg9 arg10 harg10) K } := by
  refine ⟨?_, ?_, ?_, fun xi6 xi7 E K => ?run⟩
  case run =>
    simp only [cc0__gnn_kernel_eq_skeleton]; unfold cc0__gnn_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, ⟨%f7, %hf7, H7⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg7.eq_unread hf6; obtain rfl := harg8.eq_unread hf7
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexists _; iexact H5
    isplitl [H6]
    · iexists _; isplitr; · ipureintro; exact harg7.read_unread _
      iexact H6
    isplitl [H7]
    · iexists _; isplitr; · ipureintro; exact harg8.read_unread _
      iexact H7
    isplitl [HS0]; · iexists _; iexact HS0
    iexists _; iexact HS1

end Cert.KernelIdeal.Hand

end
-- ==== Proof.KernelIdealR0RunB.lean ====
/- Region 0, the body's whole run in case B (a point that is neither first nor last: the accumulators are added to).
   From whole staging memrefs — the inputs at their contents, the accumulators at what the point before left,
   the two small outputs at contents handed back untouched, the other outputs at anything — the body runs to the end leaving the inputs as they were and each
   buffer it stored into with its stores written; the lists of stores are what the run finds. -/
import proofs.«149204_j28372553957731_2_alg».proof.Proof.KernelIdealR0RunA

set_option maxRecDepth 16384

noncomputable section

namespace Cert.KernelIdeal.Hand

open Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun0_B (c : Dev nD) (i : grid0.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S64x64 .f32) (harg4 : arg4.IsWhole) (arg5 : Memref sig .tc .vmem S1x64 .f32) (harg5 : arg5.IsWhole) (arg6 : Memref sig .tc .vmem S5000x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (hc0 : ¬cond0_0 i) (hc1 : ¬cond0_1 i)
    (x0 : Vec F S5000x64 .f32) (x1 : Vec F S5000x64 .f32) (x2 : Vec F S64x64 .f32) (x3 : Vec F S64x64 .f32) (x4 : Vec F S1x64 .f32) (xs0 : Vec F S1x64 .f32) (xs1 : Vec F S1x64 .f32) :
    Σ' (L5 : List (View.Piece (Elt F) S5000x64 .f32)), Σ' (LS0 : List (View.Piece (Elt F) S1x64 .f32)), { LS1 : List (View.Piece (Elt F) S1x64 .f32) //
      ∀ (xi6 : Vec F S1x64 .f32) (xi7 : Vec F S1x64 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ owns (c : Thread nD τ) arg7 fullShare xi6 ∗ owns (c : Thread nD τ) arg8 fullShare xi7 ∗ owns (c : Thread nD τ) arg9 fullShare xs0 ∗ owns (c : Thread nD τ) arg10 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f L5) ∗ owns (c : Thread nD τ) arg7 fullShare xi6 ∗ owns (c : Thread nD τ) arg8 fullShare xi7 ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1)) -∗ K ⟨⟩))
          ⊢ wp frame (wpE (defs₀ (F := F)) Variants.none c none) E (cc0__gnn_kernel i arg1 harg1 arg2 harg2 arg3 harg3 arg4 harg4 arg5 harg5 arg6 harg6 arg7 harg7 arg8 harg8 arg9 harg9 arg10 harg10) K } := by
  refine ⟨?_, ?_, ?_, fun xi6 xi7 E K => ?run⟩
  case run =>
    simp only [cc0__gnn_kernel_eq_skeleton]; unfold cc0__gnn_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, ⟨%f7, %hf7, H7⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg7.eq_unread hf6; obtain rfl := harg8.eq_unread hf7; obtain rfl := harg9.eq_unread hfs0; obtain rfl := harg10.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexists _; iexact H5
    isplitl [H6]
    · iexists _; isplitr; · ipureintro; exact harg7.read_unread _
      iexact H6
    isplitl [H7]
    · iexists _; isplitr; · ipureintro; exact harg8.read_unread _
      iexact H7
    isplitl [HS0]; · iexists _; iexact HS0
    iexists _; iexact HS1

end Cert.KernelIdeal.Hand

end
-- ==== Proof.KernelIdealR0RunC.lean ====
/- Region 0, the body's whole run in case C (the last grid point: the accumulators are added to, then copied to the two small outputs).
   From whole staging memrefs — the inputs at their contents, the accumulators at what the point before left,
   the other outputs at anything — the body runs to the end leaving the inputs as they were and each
   buffer it stored into with its stores written; the lists of stores are what the run finds. -/
import proofs.«149204_j28372553957731_2_alg».proof.Proof.KernelIdealR0RunB

set_option maxRecDepth 16384

noncomputable section

namespace Cert.KernelIdeal.Hand

open Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun0_C (c : Dev nD) (i : grid0.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S64x64 .f32) (harg4 : arg4.IsWhole) (arg5 : Memref sig .tc .vmem S1x64 .f32) (harg5 : arg5.IsWhole) (arg6 : Memref sig .tc .vmem S5000x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (hc0 : ¬cond0_0 i) (hc1 : cond0_1 i)
    (x0 : Vec F S5000x64 .f32) (x1 : Vec F S5000x64 .f32) (x2 : Vec F S64x64 .f32) (x3 : Vec F S64x64 .f32) (x4 : Vec F S1x64 .f32) (xs0 : Vec F S1x64 .f32) (xs1 : Vec F S1x64 .f32) :
    Σ' (L5 : List (View.Piece (Elt F) S5000x64 .f32)), Σ' (L6 : List (View.Piece (Elt F) S1x64 .f32)), Σ' (L7 : List (View.Piece (Elt F) S1x64 .f32)), Σ' (LS0 : List (View.Piece (Elt F) S1x64 .f32)), { LS1 : List (View.Piece (Elt F) S1x64 .f32) //
      ∀  (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ (∃ d, owns (c : Thread nD τ) arg8 fullShare d) ∗ owns (c : Thread nD τ) arg9 fullShare xs0 ∗ owns (c : Thread nD τ) arg10 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1)) -∗ K ⟨⟩))
          ⊢ wp frame (wpE (defs₀ (F := F)) Variants.none c none) E (cc0__gnn_kernel i arg1 harg1 arg2 harg2 arg3 harg3 arg4 harg4 arg5 harg5 arg6 harg6 arg7 harg7 arg8 harg8 arg9 harg9 arg10 harg10) K } := by
  refine ⟨?_, ?_, ?_, ?_, ?_, fun  E K => ?run⟩
  case run =>
    simp only [cc0__gnn_kernel_eq_skeleton]; unfold cc0__gnn_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg9.eq_unread hfs0; obtain rfl := harg10.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexists _; iexact H5
    isplitl [H6]; · iexists _; iexact H6
    isplitl [H7]; · iexists _; iexact H7
    isplitl [HS0]; · iexists _; iexact HS0
    iexists _; iexact HS1

end Cert.KernelIdeal.Hand

end
-- ==== Proof.KernelIdealR0Frame.lean ====
/- Region 0: what its buffers hold point by point, the proof data of its pipeline, and the body's obligation.
   The two accumulators are carried from one grid point to the next: after point `n` they hold what the body's run at `n`
   left, computed from the point's input blocks and from what point `n − 1` left (`outsAt0`). The invariant before the
   first point is the class's (both accumulators at anything); before any later point it has them at the previous point's
   contents. The two small outputs are stored only at the last point and are idle elsewhere. -/
import proofs.«149204_j28372553957731_2_alg».proof.Proof.KernelIdealR0RunC

set_option maxRecDepth 16384

noncomputable section

namespace Cert.KernelIdeal.Hand

open Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## Per case: the stores cover each buffer, and what the buffer then holds -/

theorem cover0_A_5 (c : Dev nD) (i : grid0.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S64x64 .f32) (harg4 : arg4.IsWhole) (arg5 : Memref sig .tc .vmem S1x64 .f32) (harg5 : arg5.IsWhole) (arg6 : Memref sig .tc .vmem S5000x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (hc0 : cond0_0 i) (hc1 : ¬cond0_1 i)
    (x0 : Vec F S5000x64 .f32) (x1 : Vec F S5000x64 .f32) (x2 : Vec F S64x64 .f32) (x3 : Vec F S64x64 .f32) (x4 : Vec F S1x64 .f32) (y : S5000x64.Idx) :
    ∃ pc ∈ (kernelRun0_A (F := F) c i arg1 harg1 arg2 harg2 arg3 harg3 arg4 harg4 arg5 harg5 arg6 harg6 arg7 harg7 arg8 harg8 arg9 harg9 arg10 harg10 hc0 hc1 x0 x1 x2 x3 x4).1, y ∈ pc.1.set :=
  View.cover_of_tiledL (kernelRun0_A (F := F) c i arg1 harg1 arg2 harg2 arg3 harg3 arg4 harg4 arg5 harg5 arg6 harg6 arg7 harg7 arg8 harg8 arg9 harg9 arg10 harg10 hc0 hc1 x0 x1 x2 x3 x4).1 S5000x64.size (by sl_kernel_rfl) y
def out0_A_5 (c : Dev nD) (i : grid0.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S64x64 .f32) (harg4 : arg4.IsWhole) (arg5 : Memref sig .tc .vmem S1x64 .f32) (harg5 : arg5.IsWhole) (arg6 : Memref sig .tc .vmem S5000x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (hc0 : cond0_0 i) (hc1 : ¬cond0_1 i)
    (x0 : Vec F S5000x64 .f32) (x1 : Vec F S5000x64 .f32) (x2 : Vec F S64x64 .f32) (x3 : Vec F S64x64 .f32) (x4 : Vec F S1x64 .f32) : Vec F S5000x64 .f32 :=
  VO0_5.read (Elt F) (VO0_5.writes (Elt F) VO0_5.junk (kernelRun0_A (F := F) c i arg1 harg1 arg2 harg2 arg3 harg3 arg4 harg4 arg5 harg5 arg6 harg6 arg7 harg7 arg8 harg8 arg9 harg9 arg10 harg10 hc0 hc1 x0 x1 x2 x3 x4).1)

theorem scover0_A_0 (c : Dev nD) (i : grid0.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S64x64 .f32) (harg4 : arg4.IsWhole) (arg5 : Memref sig .tc .vmem S1x64 .f32) (harg5 : arg5.IsWhole) (arg6 : Memref sig .tc .vmem S5000x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (hc0 : cond0_0 i) (hc1 : ¬cond0_1 i)
    (x0 : Vec F S5000x64 .f32) (x1 : Vec F S5000x64 .f32) (x2 : Vec F S64x64 .f32) (x3 : Vec F S64x64 .f32) (x4 : Vec F S1x64 .f32) (y : S1x64.Idx) :
    ∃ pc ∈ (kernelRun0_A (F := F) c i arg1 harg1 arg2 harg2 arg3 harg3 arg4 harg4 arg5 harg5 arg6 harg6 arg7 harg7 arg8 harg8 arg9 harg9 arg10 harg10 hc0 hc1 x0 x1 x2 x3 x4).2.1, y ∈ pc.1.set :=
  View.cover_of_tiledL (kernelRun0_A (F := F) c i arg1 harg1 arg2 harg2 arg3 harg3 arg4 harg4 arg5 harg5 arg6 harg6 arg7 harg7 arg8 harg8 arg9 harg9 arg10 harg10 hc0 hc1 x0 x1 x2 x3 x4).2.1 S1x64.size (by sl_kernel_rfl) y
def sout0_A_0 (c : Dev nD) (i : grid0.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S64x64 .f32) (harg4 : arg4.IsWhole) (arg5 : Memref sig .tc .vmem S1x64 .f32) (harg5 : arg5.IsWhole) (arg6 : Memref sig .tc .vmem S5000x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (hc0 : cond0_0 i) (hc1 : ¬cond0_1 i)
    (x0 : Vec F S5000x64 .f32) (x1 : Vec F S5000x64 .f32) (x2 : Vec F S64x64 .f32) (x3 : Vec F S64x64 .f32) (x4 : Vec F S1x64 .f32) : Vec F S1x64 .f32 :=
  VS0_0.read (Elt F) (VS0_0.writes (Elt F) VS0_0.junk (kernelRun0_A (F := F) c i arg1 harg1 arg2 harg2 arg3 harg3 arg4 harg4 arg5 harg5 arg6 harg6 arg7 harg7 arg8 harg8 arg9 harg9 arg10 harg10 hc0 hc1 x0 x1 x2 x3 x4).2.1)

theorem scover0_A_1 (c : Dev nD) (i : grid0.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S64x64 .f32) (harg4 : arg4.IsWhole) (arg5 : Memref sig .tc .vmem S1x64 .f32) (harg5 : arg5.IsWhole) (arg6 : Memref sig .tc .vmem S5000x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (hc0 : cond0_0 i) (hc1 : ¬cond0_1 i)
    (x0 : Vec F S5000x64 .f32) (x1 : Vec F S5000x64 .f32) (x2 : Vec F S64x64 .f32) (x3 : Vec F S64x64 .f32) (x4 : Vec F S1x64 .f32) (y : S1x64.Idx) :
    ∃ pc ∈ (kernelRun0_A (F := F) c i arg1 harg1 arg2 harg2 arg3 harg3 arg4 harg4 arg5 harg5 arg6 harg6 arg7 harg7 arg8 harg8 arg9 harg9 arg10 harg10 hc0 hc1 x0 x1 x2 x3 x4).2.2.1, y ∈ pc.1.set :=
  View.cover_of_tiledL (kernelRun0_A (F := F) c i arg1 harg1 arg2 harg2 arg3 harg3 arg4 harg4 arg5 harg5 arg6 harg6 arg7 harg7 arg8 harg8 arg9 harg9 arg10 harg10 hc0 hc1 x0 x1 x2 x3 x4).2.2.1 S1x64.size (by sl_kernel_rfl) y
def sout0_A_1 (c : Dev nD) (i : grid0.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S64x64 .f32) (harg4 : arg4.IsWhole) (arg5 : Memref sig .tc .vmem S1x64 .f32) (harg5 : arg5.IsWhole) (arg6 : Memref sig .tc .vmem S5000x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (hc0 : cond0_0 i) (hc1 : ¬cond0_1 i)
    (x0 : Vec F S5000x64 .f32) (x1 : Vec F S5000x64 .f32) (x2 : Vec F S64x64 .f32) (x3 : Vec F S64x64 .f32) (x4 : Vec F S1x64 .f32) : Vec F S1x64 .f32 :=
  VS0_1.read (Elt F) (VS0_1.writes (Elt F) VS0_1.junk (kernelRun0_A (F := F) c i arg1 harg1 arg2 harg2 arg3 harg3 arg4 harg4 arg5 harg5 arg6 harg6 arg7 harg7 arg8 harg8 arg9 harg9 arg10 harg10 hc0 hc1 x0 x1 x2 x3 x4).2.2.1)

theorem cover0_B_5 (c : Dev nD) (i : grid0.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S64x64 .f32) (harg4 : arg4.IsWhole) (arg5 : Memref sig .tc .vmem S1x64 .f32) (harg5 : arg5.IsWhole) (arg6 : Memref sig .tc .vmem S5000x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (hc0 : ¬cond0_0 i) (hc1 : ¬cond0_1 i)
    (x0 : Vec F S5000x64 .f32) (x1 : Vec F S5000x64 .f32) (x2 : Vec F S64x64 .f32) (x3 : Vec F S64x64 .f32) (x4 : Vec F S1x64 .f32) (xs0 : Vec F S1x64 .f32) (xs1 : Vec F S1x64 .f32) (y : S5000x64.Idx) :
    ∃ pc ∈ (kernelRun0_B (F := F) c i arg1 harg1 arg2 harg2 arg3 harg3 arg4 harg4 arg5 harg5 arg6 harg6 arg7 harg7 arg8 harg8 arg9 harg9 arg10 harg10 hc0 hc1 x0 x1 x2 x3 x4 xs0 xs1).1, y ∈ pc.1.set :=
  View.cover_of_tiledL (kernelRun0_B (F := F) c i arg1 harg1 arg2 harg2 arg3 harg3 arg4 harg4 arg5 harg5 arg6 harg6 arg7 harg7 arg8 harg8 arg9 harg9 arg10 harg10 hc0 hc1 x0 x1 x2 x3 x4 xs0 xs1).1 S5000x64.size (by sl_kernel_rfl) y
def out0_B_5 (c : Dev nD) (i : grid0.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S64x64 .f32) (harg4 : arg4.IsWhole) (arg5 : Memref sig .tc .vmem S1x64 .f32) (harg5 : arg5.IsWhole) (arg6 : Memref sig .tc .vmem S5000x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (hc0 : ¬cond0_0 i) (hc1 : ¬cond0_1 i)
    (x0 : Vec F S5000x64 .f32) (x1 : Vec F S5000x64 .f32) (x2 : Vec F S64x64 .f32) (x3 : Vec F S64x64 .f32) (x4 : Vec F S1x64 .f32) (xs0 : Vec F S1x64 .f32) (xs1 : Vec F S1x64 .f32) : Vec F S5000x64 .f32 :=
  VO0_5.read (Elt F) (VO0_5.writes (Elt F) VO0_5.junk (kernelRun0_B (F := F) c i arg1 harg1 arg2 harg2 arg3 harg3 arg4 harg4 arg5 harg5 arg6 harg6 arg7 harg7 arg8 harg8 arg9 harg9 arg10 harg10 hc0 hc1 x0 x1 x2 x3 x4 xs0 xs1).1)

theorem scover0_B_0 (c : Dev nD) (i : grid0.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S64x64 .f32) (harg4 : arg4.IsWhole) (arg5 : Memref sig .tc .vmem S1x64 .f32) (harg5 : arg5.IsWhole) (arg6 : Memref sig .tc .vmem S5000x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (hc0 : ¬cond0_0 i) (hc1 : ¬cond0_1 i)
    (x0 : Vec F S5000x64 .f32) (x1 : Vec F S5000x64 .f32) (x2 : Vec F S64x64 .f32) (x3 : Vec F S64x64 .f32) (x4 : Vec F S1x64 .f32) (xs0 : Vec F S1x64 .f32) (xs1 : Vec F S1x64 .f32) (y : S1x64.Idx) :
    ∃ pc ∈ (kernelRun0_B (F := F) c i arg1 harg1 arg2 harg2 arg3 harg3 arg4 harg4 arg5 harg5 arg6 harg6 arg7 harg7 arg8 harg8 arg9 harg9 arg10 harg10 hc0 hc1 x0 x1 x2 x3 x4 xs0 xs1).2.1, y ∈ pc.1.set :=
  View.cover_of_tiledL (kernelRun0_B (F := F) c i arg1 harg1 arg2 harg2 arg3 harg3 arg4 harg4 arg5 harg5 arg6 harg6 arg7 harg7 arg8 harg8 arg9 harg9 arg10 harg10 hc0 hc1 x0 x1 x2 x3 x4 xs0 xs1).2.1 S1x64.size (by sl_kernel_rfl) y
def sout0_B_0 (c : Dev nD) (i : grid0.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S64x64 .f32) (harg4 : arg4.IsWhole) (arg5 : Memref sig .tc .vmem S1x64 .f32) (harg5 : arg5.IsWhole) (arg6 : Memref sig .tc .vmem S5000x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (hc0 : ¬cond0_0 i) (hc1 : ¬cond0_1 i)
    (x0 : Vec F S5000x64 .f32) (x1 : Vec F S5000x64 .f32) (x2 : Vec F S64x64 .f32) (x3 : Vec F S64x64 .f32) (x4 : Vec F S1x64 .f32) (xs0 : Vec F S1x64 .f32) (xs1 : Vec F S1x64 .f32) : Vec F S1x64 .f32 :=
  VS0_0.read (Elt F) (VS0_0.writes (Elt F) VS0_0.junk (kernelRun0_B (F := F) c i arg1 harg1 arg2 harg2 arg3 harg3 arg4 harg4 arg5 harg5 arg6 harg6 arg7 harg7 arg8 harg8 arg9 harg9 arg10 harg10 hc0 hc1 x0 x1 x2 x3 x4 xs0 xs1).2.1)

theorem scover0_B_1 (c : Dev nD) (i : grid0.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S64x64 .f32) (harg4 : arg4.IsWhole) (arg5 : Memref sig .tc .vmem S1x64 .f32) (harg5 : arg5.IsWhole) (arg6 : Memref sig .tc .vmem S5000x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (hc0 : ¬cond0_0 i) (hc1 : ¬cond0_1 i)
    (x0 : Vec F S5000x64 .f32) (x1 : Vec F S5000x64 .f32) (x2 : Vec F S64x64 .f32) (x3 : Vec F S64x64 .f32) (x4 : Vec F S1x64 .f32) (xs0 : Vec F S1x64 .f32) (xs1 : Vec F S1x64 .f32) (y : S1x64.Idx) :
    ∃ pc ∈ (kernelRun0_B (F := F) c i arg1 harg1 arg2 harg2 arg3 harg3 arg4 harg4 arg5 harg5 arg6 harg6 arg7 harg7 arg8 harg8 arg9 harg9 arg10 harg10 hc0 hc1 x0 x1 x2 x3 x4 xs0 xs1).2.2.1, y ∈ pc.1.set :=
  View.cover_of_tiledL (kernelRun0_B (F := F) c i arg1 harg1 arg2 harg2 arg3 harg3 arg4 harg4 arg5 harg5 arg6 harg6 arg7 harg7 arg8 harg8 arg9 harg9 arg10 harg10 hc0 hc1 x0 x1 x2 x3 x4 xs0 xs1).2.2.1 S1x64.size (by sl_kernel_rfl) y
def sout0_B_1 (c : Dev nD) (i : grid0.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S64x64 .f32) (harg4 : arg4.IsWhole) (arg5 : Memref sig .tc .vmem S1x64 .f32) (harg5 : arg5.IsWhole) (arg6 : Memref sig .tc .vmem S5000x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (hc0 : ¬cond0_0 i) (hc1 : ¬cond0_1 i)
    (x0 : Vec F S5000x64 .f32) (x1 : Vec F S5000x64 .f32) (x2 : Vec F S64x64 .f32) (x3 : Vec F S64x64 .f32) (x4 : Vec F S1x64 .f32) (xs0 : Vec F S1x64 .f32) (xs1 : Vec F S1x64 .f32) : Vec F S1x64 .f32 :=
  VS0_1.read (Elt F) (VS0_1.writes (Elt F) VS0_1.junk (kernelRun0_B (F := F) c i arg1 harg1 arg2 harg2 arg3 harg3 arg4 harg4 arg5 harg5 arg6 harg6 arg7 harg7 arg8 harg8 arg9 harg9 arg10 harg10 hc0 hc1 x0 x1 x2 x3 x4 xs0 xs1).2.2.1)

theorem cover0_C_5 (c : Dev nD) (i : grid0.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S64x64 .f32) (harg4 : arg4.IsWhole) (arg5 : Memref sig .tc .vmem S1x64 .f32) (harg5 : arg5.IsWhole) (arg6 : Memref sig .tc .vmem S5000x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (hc0 : ¬cond0_0 i) (hc1 : cond0_1 i)
    (x0 : Vec F S5000x64 .f32) (x1 : Vec F S5000x64 .f32) (x2 : Vec F S64x64 .f32) (x3 : Vec F S64x64 .f32) (x4 : Vec F S1x64 .f32) (xs0 : Vec F S1x64 .f32) (xs1 : Vec F S1x64 .f32) (y : S5000x64.Idx) :
    ∃ pc ∈ (kernelRun0_C (F := F) c i arg1 harg1 arg2 harg2 arg3 harg3 arg4 harg4 arg5 harg5 arg6 harg6 arg7 harg7 arg8 harg8 arg9 harg9 arg10 harg10 hc0 hc1 x0 x1 x2 x3 x4 xs0 xs1).1, y ∈ pc.1.set :=
  View.cover_of_tiledL (kernelRun0_C (F := F) c i arg1 harg1 arg2 harg2 arg3 harg3 arg4 harg4 arg5 harg5 arg6 harg6 arg7 harg7 arg8 harg8 arg9 harg9 arg10 harg10 hc0 hc1 x0 x1 x2 x3 x4 xs0 xs1).1 S5000x64.size (by sl_kernel_rfl) y
def out0_C_5 (c : Dev nD) (i : grid0.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S64x64 .f32) (harg4 : arg4.IsWhole) (arg5 : Memref sig .tc .vmem S1x64 .f32) (harg5 : arg5.IsWhole) (arg6 : Memref sig .tc .vmem S5000x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (hc0 : ¬cond0_0 i) (hc1 : cond0_1 i)
    (x0 : Vec F S5000x64 .f32) (x1 : Vec F S5000x64 .f32) (x2 : Vec F S64x64 .f32) (x3 : Vec F S64x64 .f32) (x4 : Vec F S1x64 .f32) (xs0 : Vec F S1x64 .f32) (xs1 : Vec F S1x64 .f32) : Vec F S5000x64 .f32 :=
  VO0_5.read (Elt F) (VO0_5.writes (Elt F) VO0_5.junk (kernelRun0_C (F := F) c i arg1 harg1 arg2 harg2 arg3 harg3 arg4 harg4 arg5 harg5 arg6 harg6 arg7 harg7 arg8 harg8 arg9 harg9 arg10 harg10 hc0 hc1 x0 x1 x2 x3 x4 xs0 xs1).1)

theorem cover0_C_6 (c : Dev nD) (i : grid0.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S64x64 .f32) (harg4 : arg4.IsWhole) (arg5 : Memref sig .tc .vmem S1x64 .f32) (harg5 : arg5.IsWhole) (arg6 : Memref sig .tc .vmem S5000x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (hc0 : ¬cond0_0 i) (hc1 : cond0_1 i)
    (x0 : Vec F S5000x64 .f32) (x1 : Vec F S5000x64 .f32) (x2 : Vec F S64x64 .f32) (x3 : Vec F S64x64 .f32) (x4 : Vec F S1x64 .f32) (xs0 : Vec F S1x64 .f32) (xs1 : Vec F S1x64 .f32) (y : S1x64.Idx) :
    ∃ pc ∈ (kernelRun0_C (F := F) c i arg1 harg1 arg2 harg2 arg3 harg3 arg4 harg4 arg5 harg5 arg6 harg6 arg7 harg7 arg8 harg8 arg9 harg9 arg10 harg10 hc0 hc1 x0 x1 x2 x3 x4 xs0 xs1).2.1, y ∈ pc.1.set :=
  View.cover_of_tiledL (kernelRun0_C (F := F) c i arg1 harg1 arg2 harg2 arg3 harg3 arg4 harg4 arg5 harg5 arg6 harg6 arg7 harg7 arg8 harg8 arg9 harg9 arg10 harg10 hc0 hc1 x0 x1 x2 x3 x4 xs0 xs1).2.1 S1x64.size (by sl_kernel_rfl) y
def out0_C_6 (c : Dev nD) (i : grid0.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S64x64 .f32) (harg4 : arg4.IsWhole) (arg5 : Memref sig .tc .vmem S1x64 .f32) (harg5 : arg5.IsWhole) (arg6 : Memref sig .tc .vmem S5000x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (hc0 : ¬cond0_0 i) (hc1 : cond0_1 i)
    (x0 : Vec F S5000x64 .f32) (x1 : Vec F S5000x64 .f32) (x2 : Vec F S64x64 .f32) (x3 : Vec F S64x64 .f32) (x4 : Vec F S1x64 .f32) (xs0 : Vec F S1x64 .f32) (xs1 : Vec F S1x64 .f32) : Vec F S1x64 .f32 :=
  VO0_6.read (Elt F) (VO0_6.writes (Elt F) VO0_6.junk (kernelRun0_C (F := F) c i arg1 harg1 arg2 harg2 arg3 harg3 arg4 harg4 arg5 harg5 arg6 harg6 arg7 harg7 arg8 harg8 arg9 harg9 arg10 harg10 hc0 hc1 x0 x1 x2 x3 x4 xs0 xs1).2.1)

theorem cover0_C_7 (c : Dev nD) (i : grid0.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S64x64 .f32) (harg4 : arg4.IsWhole) (arg5 : Memref sig .tc .vmem S1x64 .f32) (harg5 : arg5.IsWhole) (arg6 : Memref sig .tc .vmem S5000x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (hc0 : ¬cond0_0 i) (hc1 : cond0_1 i)
    (x0 : Vec F S5000x64 .f32) (x1 : Vec F S5000x64 .f32) (x2 : Vec F S64x64 .f32) (x3 : Vec F S64x64 .f32) (x4 : Vec F S1x64 .f32) (xs0 : Vec F S1x64 .f32) (xs1 : Vec F S1x64 .f32) (y : S1x64.Idx) :
    ∃ pc ∈ (kernelRun0_C (F := F) c i arg1 harg1 arg2 harg2 arg3 harg3 arg4 harg4 arg5 harg5 arg6 harg6 arg7 harg7 arg8 harg8 arg9 harg9 arg10 harg10 hc0 hc1 x0 x1 x2 x3 x4 xs0 xs1).2.2.1, y ∈ pc.1.set :=
  View.cover_of_tiledL (kernelRun0_C (F := F) c i arg1 harg1 arg2 harg2 arg3 harg3 arg4 harg4 arg5 harg5 arg6 harg6 arg7 harg7 arg8 harg8 arg9 harg9 arg10 harg10 hc0 hc1 x0 x1 x2 x3 x4 xs0 xs1).2.2.1 S1x64.size (by sl_kernel_rfl) y
def out0_C_7 (c : Dev nD) (i : grid0.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S64x64 .f32) (harg4 : arg4.IsWhole) (arg5 : Memref sig .tc .vmem S1x64 .f32) (harg5 : arg5.IsWhole) (arg6 : Memref sig .tc .vmem S5000x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (hc0 : ¬cond0_0 i) (hc1 : cond0_1 i)
    (x0 : Vec F S5000x64 .f32) (x1 : Vec F S5000x64 .f32) (x2 : Vec F S64x64 .f32) (x3 : Vec F S64x64 .f32) (x4 : Vec F S1x64 .f32) (xs0 : Vec F S1x64 .f32) (xs1 : Vec F S1x64 .f32) : Vec F S1x64 .f32 :=
  VO0_7.read (Elt F) (VO0_7.writes (Elt F) VO0_7.junk (kernelRun0_C (F := F) c i arg1 harg1 arg2 harg2 arg3 harg3 arg4 harg4 arg5 harg5 arg6 harg6 arg7 harg7 arg8 harg8 arg9 harg9 arg10 harg10 hc0 hc1 x0 x1 x2 x3 x4 xs0 xs1).2.2.1)

theorem scover0_C_0 (c : Dev nD) (i : grid0.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S64x64 .f32) (harg4 : arg4.IsWhole) (arg5 : Memref sig .tc .vmem S1x64 .f32) (harg5 : arg5.IsWhole) (arg6 : Memref sig .tc .vmem S5000x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (hc0 : ¬cond0_0 i) (hc1 : cond0_1 i)
    (x0 : Vec F S5000x64 .f32) (x1 : Vec F S5000x64 .f32) (x2 : Vec F S64x64 .f32) (x3 : Vec F S64x64 .f32) (x4 : Vec F S1x64 .f32) (xs0 : Vec F S1x64 .f32) (xs1 : Vec F S1x64 .f32) (y : S1x64.Idx) :
    ∃ pc ∈ (kernelRun0_C (F := F) c i arg1 harg1 arg2 harg2 arg3 harg3 arg4 harg4 arg5 harg5 arg6 harg6 arg7 harg7 arg8 harg8 arg9 harg9 arg10 harg10 hc0 hc1 x0 x1 x2 x3 x4 xs0 xs1).2.2.2.1, y ∈ pc.1.set :=
  View.cover_of_tiledL (kernelRun0_C (F := F) c i arg1 harg1 arg2 harg2 arg3 harg3 arg4 harg4 arg5 harg5 arg6 harg6 arg7 harg7 arg8 harg8 arg9 harg9 arg10 harg10 hc0 hc1 x0 x1 x2 x3 x4 xs0 xs1).2.2.2.1 S1x64.size (by sl_kernel_rfl) y
def sout0_C_0 (c : Dev nD) (i : grid0.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S64x64 .f32) (harg4 : arg4.IsWhole) (arg5 : Memref sig .tc .vmem S1x64 .f32) (harg5 : arg5.IsWhole) (arg6 : Memref sig .tc .vmem S5000x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (hc0 : ¬cond0_0 i) (hc1 : cond0_1 i)
    (x0 : Vec F S5000x64 .f32) (x1 : Vec F S5000x64 .f32) (x2 : Vec F S64x64 .f32) (x3 : Vec F S64x64 .f32) (x4 : Vec F S1x64 .f32) (xs0 : Vec F S1x64 .f32) (xs1 : Vec F S1x64 .f32) : Vec F S1x64 .f32 :=
  VS0_0.read (Elt F) (VS0_0.writes (Elt F) VS0_0.junk (kernelRun0_C (F := F) c i arg1 harg1 arg2 harg2 arg3 harg3 arg4 harg4 arg5 harg5 arg6 harg6 arg7 harg7 arg8 harg8 arg9 harg9 arg10 harg10 hc0 hc1 x0 x1 x2 x3 x4 xs0 xs1).2.2.2.1)

theorem scover0_C_1 (c : Dev nD) (i : grid0.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S64x64 .f32) (harg4 : arg4.IsWhole) (arg5 : Memref sig .tc .vmem S1x64 .f32) (harg5 : arg5.IsWhole) (arg6 : Memref sig .tc .vmem S5000x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (hc0 : ¬cond0_0 i) (hc1 : cond0_1 i)
    (x0 : Vec F S5000x64 .f32) (x1 : Vec F S5000x64 .f32) (x2 : Vec F S64x64 .f32) (x3 : Vec F S64x64 .f32) (x4 : Vec F S1x64 .f32) (xs0 : Vec F S1x64 .f32) (xs1 : Vec F S1x64 .f32) (y : S1x64.Idx) :
    ∃ pc ∈ (kernelRun0_C (F := F) c i arg1 harg1 arg2 harg2 arg3 harg3 arg4 harg4 arg5 harg5 arg6 harg6 arg7 harg7 arg8 harg8 arg9 harg9 arg10 harg10 hc0 hc1 x0 x1 x2 x3 x4 xs0 xs1).2.2.2.2.1, y ∈ pc.1.set :=
  View.cover_of_tiledL (kernelRun0_C (F := F) c i arg1 harg1 arg2 harg2 arg3 harg3 arg4 harg4 arg5 harg5 arg6 harg6 arg7 harg7 arg8 harg8 arg9 harg9 arg10 harg10 hc0 hc1 x0 x1 x2 x3 x4 xs0 xs1).2.2.2.2.1 S1x64.size (by sl_kernel_rfl) y
def sout0_C_1 (c : Dev nD) (i : grid0.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S64x64 .f32) (harg4 : arg4.IsWhole) (arg5 : Memref sig .tc .vmem S1x64 .f32) (harg5 : arg5.IsWhole) (arg6 : Memref sig .tc .vmem S5000x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (hc0 : ¬cond0_0 i) (hc1 : cond0_1 i)
    (x0 : Vec F S5000x64 .f32) (x1 : Vec F S5000x64 .f32) (x2 : Vec F S64x64 .f32) (x3 : Vec F S64x64 .f32) (x4 : Vec F S1x64 .f32) (xs0 : Vec F S1x64 .f32) (xs1 : Vec F S1x64 .f32) : Vec F S1x64 .f32 :=
  VS0_1.read (Elt F) (VS0_1.writes (Elt F) VS0_1.junk (kernelRun0_C (F := F) c i arg1 harg1 arg2 harg2 arg3 harg3 arg4 harg4 arg5 harg5 arg6 harg6 arg7 harg7 arg8 harg8 arg9 harg9 arg10 harg10 hc0 hc1 x0 x1 x2 x3 x4 xs0 xs1).2.2.2.2.1)

/-! ## What the buffers hold after each point -/

/-- After a point: the three outputs' staging buffers and the two accumulators. -/
structure Outs0 (F : FTy → Type) [FloatOps F] where
  o5 : Vec F S5000x64 .f32
  o6 : Vec F S1x64 .f32
  o7 : Vec F S1x64 .f32
  s0 : Vec F S1x64 .f32
  s1 : Vec F S1x64 .f32

theorem hA0 (t : Fin cfg0.N) (h : t.val = 0) : cond0_0 (grid0.coords t) := (cond0_0_iff t).mpr h
theorem hnA0 (t : Fin cfg0.N) (h : t.val ≠ 0) : ¬cond0_0 (grid0.coords t) := fun h' => h ((cond0_0_iff t).mp h')
theorem hC0 (t : Fin cfg0.N) (h : t.val = 19) : cond0_1 (grid0.coords t) := (cond0_1_iff t).mpr h
theorem hnC0 (t : Fin cfg0.N) (h : t.val ≠ 19) : ¬cond0_1 (grid0.coords t) := fun h' => h ((cond0_1_iff t).mp h')

/-- The point's contents in case A. -/
def outA0 (c : Dev nD) (t : Fin cfg0.N) (hc0 : cond0_0 (grid0.coords t)) (hc1 : ¬cond0_1 (grid0.coords t)) : Outs0 F where
  o5 := out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) hc0 hc1 (iblk0 V c 0 t) (iblk0 V c 1 t) (iblk0 V c 2 t) (iblk0 V c 3 t) (iblk0 V c 4 t)
  o6 := VO0_6.read (Elt F) VO0_6.junk
  o7 := VO0_7.read (Elt F) VO0_7.junk
  s0 := sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) hc0 hc1 (iblk0 V c 0 t) (iblk0 V c 1 t) (iblk0 V c 2 t) (iblk0 V c 3 t) (iblk0 V c 4 t)
  s1 := sout0_A_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) hc0 hc1 (iblk0 V c 0 t) (iblk0 V c 1 t) (iblk0 V c 2 t) (iblk0 V c 3 t) (iblk0 V c 4 t)

/-- The point's contents in case B, over what the point before left in the accumulators. -/
def outB0 (c : Dev nD) (t : Fin cfg0.N) (hc0 : ¬cond0_0 (grid0.coords t)) (hc1 : ¬cond0_1 (grid0.coords t)) (p : Outs0 F) : Outs0 F where
  o5 := out0_B_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) hc0 hc1 (iblk0 V c 0 t) (iblk0 V c 1 t) (iblk0 V c 2 t) (iblk0 V c 3 t) (iblk0 V c 4 t) p.s0 p.s1
  o6 := VO0_6.read (Elt F) VO0_6.junk
  o7 := VO0_7.read (Elt F) VO0_7.junk
  s0 := sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) hc0 hc1 (iblk0 V c 0 t) (iblk0 V c 1 t) (iblk0 V c 2 t) (iblk0 V c 3 t) (iblk0 V c 4 t) p.s0 p.s1
  s1 := sout0_B_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) hc0 hc1 (iblk0 V c 0 t) (iblk0 V c 1 t) (iblk0 V c 2 t) (iblk0 V c 3 t) (iblk0 V c 4 t) p.s0 p.s1

/-- The point's contents in case C, over what the point before left in the accumulators. -/
def outC0 (c : Dev nD) (t : Fin cfg0.N) (hc0 : ¬cond0_0 (grid0.coords t)) (hc1 : cond0_1 (grid0.coords t)) (p : Outs0 F) : Outs0 F where
  o5 := out0_C_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) hc0 hc1 (iblk0 V c 0 t) (iblk0 V c 1 t) (iblk0 V c 2 t) (iblk0 V c 3 t) (iblk0 V c 4 t) p.s0 p.s1
  o6 := out0_C_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) hc0 hc1 (iblk0 V c 0 t) (iblk0 V c 1 t) (iblk0 V c 2 t) (iblk0 V c 3 t) (iblk0 V c 4 t) p.s0 p.s1
  o7 := out0_C_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) hc0 hc1 (iblk0 V c 0 t) (iblk0 V c 1 t) (iblk0 V c 2 t) (iblk0 V c 3 t) (iblk0 V c 4 t) p.s0 p.s1
  s0 := sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) hc0 hc1 (iblk0 V c 0 t) (iblk0 V c 1 t) (iblk0 V c 2 t) (iblk0 V c 3 t) (iblk0 V c 4 t) p.s0 p.s1
  s1 := sout0_C_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) hc0 hc1 (iblk0 V c 0 t) (iblk0 V c 1 t) (iblk0 V c 2 t) (iblk0 V c 3 t) (iblk0 V c 4 t) p.s0 p.s1

/-- THE ACCUMULATION: the first point runs from accumulators at anything, every later one from what the point before left. -/
def outsAt0 (c : Dev nD) : (n : ℕ) → n < cfg0.N → Outs0 F
  | 0, hn => outA0 V c ⟨0, hn⟩ (hA0 ⟨0, hn⟩ rfl) (hnC0 ⟨0, hn⟩ (fun h => absurd (show (0 : ℕ) = 19 from h) (by decide)))
  | n + 1, hn =>
    if h : n + 1 = 19 then
      outC0 V c ⟨n + 1, hn⟩ (hnA0 ⟨n + 1, hn⟩ (Nat.succ_ne_zero n)) (hC0 ⟨n + 1, hn⟩ h) (outsAt0 c n (Nat.lt_of_succ_lt hn))
    else
      outB0 V c ⟨n + 1, hn⟩ (hnA0 ⟨n + 1, hn⟩ (Nat.succ_ne_zero n)) (hnC0 ⟨n + 1, hn⟩ h) (outsAt0 c n (Nat.lt_of_succ_lt hn))

theorem outsAt0_first (c : Dev nD) (t : Fin cfg0.N) (h0 : t.val = 0) (h1 : t.val ≠ 19) :
    outsAt0 V c t.val t.isLt = outA0 V c t (hA0 t h0) (hnC0 t h1) := by
  obtain ⟨n, hn⟩ := t
  cases n with
  | zero => rfl
  | succ n => exact absurd h0 (Nat.succ_ne_zero n)
theorem outsAt0_mid (c : Dev nD) (t : Fin cfg0.N) (h0 : t.val ≠ 0) (h1 : t.val ≠ 19) :
    outsAt0 V c t.val t.isLt = outB0 V c t (hnA0 t h0) (hnC0 t h1) (outsAt0 V c (t.val - 1) (Nat.lt_of_le_of_lt (Nat.sub_le _ _) t.isLt)) := by
  obtain ⟨n, hn⟩ := t
  cases n with
  | zero => exact absurd rfl h0
  | succ n => exact (dif_neg h1).trans rfl
theorem outsAt0_last (c : Dev nD) (t : Fin cfg0.N) (h0 : t.val ≠ 0) (h1 : t.val = 19) :
    outsAt0 V c t.val t.isLt = outC0 V c t (hnA0 t h0) (hC0 t h1) (outsAt0 V c (t.val - 1) (Nat.lt_of_le_of_lt (Nat.sub_le _ _) t.isLt)) := by
  obtain ⟨n, hn⟩ := t
  cases n with
  | zero => exact absurd rfl h0
  | succ n => exact (dif_pos h1).trans rfl

/-- The region's invariant before position `n`. -/
def PhiS0 (c : Dev nD) : (n : ℕ) → n ≤ cfg0.N → sProp 𝕄
  | 0, _ => Pipeline.ΦA spec0 c
  | n + 1, hn => iprop(iprop(iprop(owns (c : Thread nD τ) scM0_0 fullShare ((outsAt0 V c n hn).s0) ∗ owns (c : Thread nD τ) scM0_1 fullShare ((outsAt0 V c n hn).s1)) ∗ rest0 (F := F) c) ∗ (∃ r, prngReg c r))

theorem PhiS0_zero (c : Dev nD) (n : ℕ) (h : n ≤ cfg0.N) (hz : n = 0) : PhiS0 V c n h = Pipeline.ΦA spec0 c := by
  subst hz; rfl
theorem PhiS0_succ (c : Dev nD) (n : ℕ) (hn : n < cfg0.N) :
    PhiS0 V c (n + 1) hn = iprop(iprop(iprop(owns (c : Thread nD τ) scM0_0 fullShare ((outsAt0 V c n hn).s0) ∗ owns (c : Thread nD τ) scM0_1 fullShare ((outsAt0 V c n hn).s1)) ∗ rest0 (F := F) c) ∗ (∃ r, prngReg c r)) := rfl
theorem PhiS0_pos (c : Dev nD) (n : ℕ) (h : n ≤ cfg0.N) (hz : n ≠ 0) :
    PhiS0 V c n h = iprop(iprop(iprop(owns (c : Thread nD τ) scM0_0 fullShare ((outsAt0 V c (n - 1) (by omega)).s0) ∗ owns (c : Thread nD τ) scM0_1 fullShare ((outsAt0 V c (n - 1) (by omega)).s1)) ∗ rest0 (F := F) c) ∗ (∃ r, prngReg c r)) := by
  cases n with
  | zero => exact absurd rfl hz
  | succ n => rfl

/-! ## The pipeline's proof data -/

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => (outsAt0 V c t.val t.isLt).o5
    | ⟨6, _⟩ => (outsAt0 V c t.val t.isLt).o6
    | ⟨7, _⟩ => (outsAt0 V c t.val t.isLt).o7
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem PhiS0_castSucc (c : Dev nD) (t : Fin cfg0.N) :
    (dat0 V c).Φ t.castSucc = PhiS0 V c t.val (Nat.le_of_lt t.isLt) := by
  dsimp only [dat0]; simp only [Fin.coe_castSucc]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = (outsAt0 V c t.val t.isLt).o5 := by dsimp only [dat0]
theorem after0_6 (c : Dev nD) (t : Fin cfg0.N) : (dat0 V c).after 6 t = (outsAt0 V c t.val t.isLt).o6 := by dsimp only [dat0]
theorem after0_7 (c : Dev nD) (t : Fin cfg0.N) : (dat0 V c).after 7 t = (outsAt0 V c t.val t.isLt).o7 := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d))
    ∗ (∃ d, owns (c : Thread nD τ) (ms0_6 t) fullShare ((dat0 V c).before 6 t d))
    ∗ (∃ d, owns (c : Thread nD τ) (ms0_7 t) fullShare ((dat0 V c).before 7 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t
    ∗ (dat0 V c).leavesExact 6 t
    ∗ (dat0 V c).leavesExact 7 t)

set_option maxHeartbeats 8000000 in
/-- The body at any point: which case the point is in is decided by its position; the invariant hands the body the
    accumulators (at anything at the first point, at the previous point's contents afterwards) and takes them back at this
    point's contents; the core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).owesAt () t.succ = (dat0 V c).owesAt () t.castSucc from rfl]
  rw [show (dat0 V c).Φ t.succ = PhiS0 V c (t.val + 1) t.isLt from rfl, PhiS0_succ]
  have hN : t.val < 20 := lt_of_lt_of_eq t.isLt (show cfg0.N = 20 from N_0)
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  rw [show (dat0 V c).leavesExact 2 t = owns (c : Thread nD τ) (ms0_2 t) fullShare ((dat0 V c).after 2 t) from by
    unfold Dat.leavesExact; rw [liveAt0_2 t], after0_2]
  rw [show (dat0 V c).leavesExact 3 t = owns (c : Thread nD τ) (ms0_3 t) fullShare ((dat0 V c).after 3 t) from by
    unfold Dat.leavesExact; rw [liveAt0_3 t], after0_3]
  rw [show (dat0 V c).leavesExact 4 t = owns (c : Thread nD τ) (ms0_4 t) fullShare ((dat0 V c).after 4 t) from by
    unfold Dat.leavesExact; rw [liveAt0_4 t], after0_4]
  rw [show (dat0 V c).leavesExact 5 t = owns (c : Thread nD τ) (ms0_5 t) fullShare ((dat0 V c).after 5 t) from by
    unfold Dat.leavesExact; rw [liveAt0_5 t], after0_5]
  by_cases h0 : t.val = 0
  · have h1 : t.val ≠ 19 := by omega
    rw [Dat.leavesExact_idle (dat0 V c) 6 t (idleAt0_6 t (hnC0 t h1)) (noFlush0_6 t (hnC0 t h1))]
    rw [Dat.leavesExact_idle (dat0 V c) 7 t (idleAt0_7 t (hnC0 t h1)) (noFlush0_7 t (hnC0 t h1))]
    rw [outsAt0_first V c t h0 h1]
    unfold outA0; dsimp only
    unfold out0_A_5 sout0_A_0 sout0_A_1
    rw [PhiS0_castSucc V c t, PhiS0_zero V c _ _ h0, PhiA0_eq]
    iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((kernelRun0_A (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (hA0 t h0) (hnC0 t h1) (iblk0 V c 0 t) (iblk0 V c 1 t) (iblk0 V c 2 t) (iblk0 V c 3 t) (iblk0 V c 4 t)).2.2.2 _ _ Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexact H6
    isplitl [H7]; · iexact H7
    isplitl [HS0]; · iexact HS0
    isplitl [HS1]; · iexact HS1
    iintro ⟨H0, H1, H2, H3, H4, ⟨%e5, H5⟩, H6, H7, ⟨%es0, HS0⟩, ⟨%es1, HS1⟩⟩
    isplitl [HS0 HS1 Hrest Hg]
    · isplitl [HS0 HS1 Hrest]
      · isplitl [HS0 HS1]
        · isplitl [HS0]
          · unfold owns; iexists _; isplitr
            swap; · iexact HS0
            ipureintro; exact View.read_writes_of_cover _ _ _ _ _ (scover0_A_0 c _ _ _ _ _ _ _ _ _ _ _ _ _ _ _ _ _ _ _ _ _ _ _ _ _ _ _ _)
          unfold owns; iexists _; isplitr
          swap; · iexact HS1
          ipureintro; exact View.read_writes_of_cover _ _ _ _ _ (scover0_A_1 c _ _ _ _ _ _ _ _ _ _ _ _ _ _ _ _ _ _ _ _ _ _ _ _ _ _ _ _)
        iexact Hrest
      iexact Hg
    isplitl [Ho]; · iexact Ho
    isplitl [H0]; · iexact H0
    isplitl [H1]; · iexact H1
    isplitl [H2]; · iexact H2
    isplitl [H3]; · iexact H3
    isplitl [H4]; · iexact H4
    isplitl [H5]
    · unfold owns; iexists _; isplitr
      swap; · iexact H5
      ipureintro; exact View.read_writes_of_cover _ _ _ _ _ (cover0_A_5 c _ _ _ _ _ _ _ _ _ _ _ _ _ _ _ _ _ _ _ _ _ _ _ _ _ _ _ _)
    isplitl [H6]; · iexists _; iexact H6
    iexists _; iexact H7
  · by_cases h1 : t.val = 19
    rw [show (dat0 V c).leavesExact 6 t = owns (c : Thread nD τ) (ms0_6 t) fullShare ((dat0 V c).after 6 t) from by
      unfold Dat.leavesExact; rw [liveAt0_6_C t (hC0 t h1)], after0_6]
    rw [show (dat0 V c).leavesExact 7 t = owns (c : Thread nD τ) (ms0_7 t) fullShare ((dat0 V c).after 7 t) from by
      unfold Dat.leavesExact; rw [liveAt0_7_C t (hC0 t h1)], after0_7]
    rw [outsAt0_last V c t h0 h1]
    unfold outC0; dsimp only
    unfold out0_C_5 out0_C_6 out0_C_7 sout0_C_0 sout0_C_1
    rw [PhiS0_castSucc V c t, PhiS0_pos V c _ _ h0]
    iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((kernelRun0_C (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (hnA0 t h0) (hC0 t h1) (iblk0 V c 0 t) (iblk0 V c 1 t) (iblk0 V c 2 t) (iblk0 V c 3 t) (iblk0 V c 4 t) _ _).2.2.2.2.2 Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [H7]; · iexists _; iexact H7
    isplitl [HS0]; · iexact HS0
    isplitl [HS1]; · iexact HS1
    iintro ⟨H0, H1, H2, H3, H4, ⟨%e5, H5⟩, ⟨%e6, H6⟩, ⟨%e7, H7⟩, ⟨%es0, HS0⟩, ⟨%es1, HS1⟩⟩
    isplitl [HS0 HS1 Hrest Hg]
    · isplitl [HS0 HS1 Hrest]
      · isplitl [HS0 HS1]
        · isplitl [HS0]
          · unfold owns; iexists _; isplitr
            swap; · iexact HS0
            ipureintro; exact View.read_writes_of_cover _ _ _ _ _ (scover0_C_0 c _ _ _ _ _ _ _ _ _ _ _ _ _ _ _ _ _ _ _ _ _ _ _ _ _ _ _ _ _ _)
          unfold owns; iexists _; isplitr
          swap; · iexact HS1
          ipureintro; exact View.read_writes_of_cover _ _ _ _ _ (scover0_C_1 c _ _ _ _ _ _ _ _ _ _ _ _ _ _ _ _ _ _ _ _ _ _ _ _ _ _ _ _ _ _)
        iexact Hrest
      iexact Hg
    isplitl [Ho]; · iexact Ho
    isplitl [H0]; · iexact H0
    isplitl [H1]; · iexact H1
    isplitl [H2]; · iexact H2
    isplitl [H3]; · iexact H3
    isplitl [H4]; · iexact H4
    isplitl [H5]
    · unfold owns; iexists _; isplitr
      swap; · iexact H5
      ipureintro; exact View.read_writes_of_cover _ _ _ _ _ (cover0_C_5 c _ _ _ _ _ _ _ _ _ _ _ _ _ _ _ _ _ _ _ _ _ _ _ _ _ _ _ _ _ _)
    isplitl [H6]
    · unfold owns; iexists _; isplitr
      swap; · iexact H6
      ipureintro; exact View.read_writes_of_cover _ _ _ _ _ (cover0_C_6 c _ _ _ _ _ _ _ _ _ _ _ _ _ _ _ _ _ _ _ _ _ _ _ _ _ _ _ _ _ _)
    unfold owns; iexists _; isplitr
    swap; · iexact H7
    ipureintro; exact View.read_writes_of_cover _ _ _ _ _ (cover0_C_7 c _ _ _ _ _ _ _ _ _ _ _ _ _ _ _ _ _ _ _ _ _ _ _ _ _ _ _ _ _ _)
    rw [Dat.leavesExact_idle (dat0 V c) 6 t (idleAt0_6 t (hnC0 t h1)) (noFlush0_6 t (hnC0 t h1))]
    rw [Dat.leavesExact_idle (dat0 V c) 7 t (idleAt0_7 t (hnC0 t h1)) (noFlush0_7 t (hnC0 t h1))]
    rw [outsAt0_mid V c t h0 h1]
    unfold outB0; dsimp only
    unfold out0_B_5 sout0_B_0 sout0_B_1
    rw [PhiS0_castSucc V c t, PhiS0_pos V c _ _ h0]
    iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((kernelRun0_B (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (hnA0 t h0) (hnC0 t h1) (iblk0 V c 0 t) (iblk0 V c 1 t) (iblk0 V c 2 t) (iblk0 V c 3 t) (iblk0 V c 4 t) _ _).2.2.2 _ _ Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexact H6
    isplitl [H7]; · iexact H7
    isplitl [HS0]; · iexact HS0
    isplitl [HS1]; · iexact HS1
    iintro ⟨H0, H1, H2, H3, H4, ⟨%e5, H5⟩, H6, H7, ⟨%es0, HS0⟩, ⟨%es1, HS1⟩⟩
    isplitl [HS0 HS1 Hrest Hg]
    · isplitl [HS0 HS1 Hrest]
      · isplitl [HS0 HS1]
        · isplitl [HS0]
          · unfold owns; iexists _; isplitr
            swap; · iexact HS0
            ipureintro; exact View.read_writes_of_cover _ _ _ _ _ (scover0_B_0 c _ _ _ _ _ _ _ _ _ _ _ _ _ _ _ _ _ _ _ _ _ _ _ _ _ _ _ _ _ _)
          unfold owns; iexists _; isplitr
          swap; · iexact HS1
          ipureintro; exact View.read_writes_of_cover _ _ _ _ _ (scover0_B_1 c _ _ _ _ _ _ _ _ _ _ _ _ _ _ _ _ _ _ _ _ _ _ _ _ _ _ _ _ _ _)
        iexact Hrest
      iexact Hg
    isplitl [Ho]; · iexact Ho
    isplitl [H0]; · iexact H0
    isplitl [H1]; · iexact H1
    isplitl [H2]; · iexact H2
    isplitl [H3]; · iexact H3
    isplitl [H4]; · iexact H4
    isplitl [H5]
    · unfold owns; iexists _; isplitr
      swap; · iexact H5
      ipureintro; exact View.read_writes_of_cover _ _ _ _ _ (cover0_B_5 c _ _ _ _ _ _ _ _ _ _ _ _ _ _ _ _ _ _ _ _ _ _ _ _ _ _ _ _ _ _)
    isplitl [H6]; · iexists _; iexact H6
    iexists _; iexact H7

/-- The library's body obligation, at every point. -/
theorem body_obligation0 (c : Dev nD) : BodyObligation (dat0 (F := F) V c) (defs₀ (F := F)) Variants.none () Set.univ := fun t => by
  rw [bigSep_W0, bigSep_W0]
  exact sound_body0 V c t

theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After any point but the first the invariant gives the class's back: the accumulators' contents are forgotten. -/
theorem Phi_out0 (c : Dev nD) (t : Fin (cfg0.N + 1)) (ht : t.val ≠ 0) : (dat0 V c).Φ t ⊢ Pipeline.ΦA spec0 c := by
  rw [show (dat0 V c).Φ t = PhiS0 V c t.val (Nat.le_of_lt_succ t.isLt) from rfl, PhiS0_pos V c _ _ ht, PhiA0_eq]
  iintro ⟨⟨⟨HS0, HS1⟩, Hrest⟩, Hg⟩
  isplitl [HS0 HS1 Hrest]
  · isplitl [HS0 HS1]
    · isplitl [HS0]; · iexists _; iexact HS0
      iexists _; iexact HS1
    iexact Hrest
  iexact Hg
theorem hout0 (c : Dev nD) : (dat0 V c).Φ (Fin.last cfg0.N) ⊢ Pipeline.ΦA spec0 c :=
  Phi_out0 V c _ (by rw [Fin.val_last]; have : cfg0.N = 20 := N_0; omega)

end Cert.KernelIdeal.Hand

end
-- ==== Proof.KernelIdealR1Kit.lean ====
/- Region 1 of @main (the pallas_call of `cc1__ffn_kernel`): what its body's runs are stated over, at the contents `V` the
   region is entered with. A window's block at a grid point is read off its array; an input's staging buffer holds that
   block at every point (it is fetched when the block index moves and kept otherwise). The body has two conditionals on the
   grid coordinate: the first holds at the first point only (there the two accumulators are cleared), the second at the
   last point only (there the accumulators are copied to the two small outputs). At every other point those two outputs'
   staging buffers are left alone and are not written back. -/
import proofs.«149204_j28372553957731_2_alg».proof.Proof.KernelIdealLaunchP
import proofs.«149204_j28372553957731_2_alg».proof.Proof.Gen.KernelIdeal.Skeleton
import proofs.«149204_j28372553957731_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, fetched there or not. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's current staging buffer holds its block at every point, fetched there or not. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- Input window 5's current staging buffer holds its block at every point, fetched there or not. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-- Input window 6's current staging buffer holds its block at every point, fetched there or not. -/
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)

/-- Input window 7's current staging buffer holds its block at every point, fetched there or not. -/
theorem before1_7_of {c : Dev nD} (dat : Dat τ (Elt F) Unit ℕ (UR sig nD τ) ℕ cfg1 c) (hA : dat.A 7 = V c (Pipeline.arrRef spec1 7))
    (hafter : ∀ t, dat.after 7 t = iblk1 V c 7 t) (t : Fin cfg1.N) (d) : dat.before 7 t d = iblk1 V c 7 t :=
  (dat.before_in_eq_fetched 7 rfl (fun _ => rfl) (fun _ _ _ => rfl) (fun t => by rw [hafter]; unfold Dat.blockOf iblk1; rw [hA]; try rfl) t d).trans
    (by unfold Dat.fetched Dat.blockOf iblk1; rw [hA]; try rfl)

/-! ## The body's two conditions -/

/-- "This is the first point": the body's first conditional, from the grid coordinate. -/
abbrev cond1_0 (i : grid1.Coords) : Prop := (Scalar.cmpi .ne (Scalar.extui (Scalar.cmpi .eq (BitVec.ofNat 32 (i 0).val) 0#32)) 0#32) = 1#1
theorem hcond1_0 : ∀ t : Fin cfg1.N, cond1_0 (grid1.coords t) ↔ t.val % 50 = 0 :=
  (by decide +kernel : ∀ t : Fin grid1.N, cond1_0 (grid1.coords t) ↔ t.val % 50 = 0)
/-- "This is the last point": the body's second conditional. -/
abbrev cond1_1 (i : grid1.Coords) : Prop := k1_cond2 i = 1#1
theorem hcond1_1 : ∀ t : Fin cfg1.N, cond1_1 (grid1.coords t) ↔ t.val % 50 = 49 :=
  (by decide +kernel : ∀ t : Fin grid1.N, cond1_1 (grid1.coords t) ↔ t.val % 50 = 49)

theorem cond1_0_iff (t : Fin cfg1.N) : cond1_0 (grid1.coords t) ↔ t.val = 0 := by
  have hN : t.val < 50 := lt_of_lt_of_eq t.isLt (show cfg1.N = 50 from N_1)
  rw [hcond1_0 t]; omega
theorem cond1_1_iff (t : Fin cfg1.N) : cond1_1 (grid1.coords t) ↔ t.val = 49 := by
  have hN : t.val < 50 := lt_of_lt_of_eq t.isLt (show cfg1.N = 50 from N_1)
  rw [hcond1_1 t]; omega

/-! ## Where the windows are idle -/
theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
theorem liveAt1_4 : ∀ t : Fin cfg1.N, cfg1.idle 4 (grid1.coords t) = false := by decide +kernel
theorem liveAt1_5 : ∀ t : Fin cfg1.N, cfg1.idle 5 (grid1.coords t) = false := by decide +kernel
theorem liveAt1_6 : ∀ t : Fin cfg1.N, cfg1.idle 6 (grid1.coords t) = false := by decide +kernel
theorem liveAt1_7 : ∀ t : Fin cfg1.N, cfg1.idle 7 (grid1.coords t) = false := by decide +kernel
theorem liveAt1_8 : ∀ t : Fin cfg1.N, cfg1.idle 8 (grid1.coords t) = false := by decide +kernel
/-- Away from the last point output 9 is idle and is not written back; at the last point it is live. -/
theorem idleAt1_9 : ∀ t : Fin cfg1.N, ¬cond1_1 (grid1.coords t) → cfg1.idle 9 (grid1.coords t) = true := by decide +kernel
theorem noFlush1_9 : ∀ t : Fin cfg1.N, ¬cond1_1 (grid1.coords t) → (cfg1.win 9).flush t = false := by decide +kernel
theorem liveAt1_9_C : ∀ t : Fin cfg1.N, cond1_1 (grid1.coords t) → cfg1.idle 9 (grid1.coords t) = false := by decide +kernel
/-- Away from the last point output 10 is idle and is not written back; at the last point it is live. -/
theorem idleAt1_10 : ∀ t : Fin cfg1.N, ¬cond1_1 (grid1.coords t) → cfg1.idle 10 (grid1.coords t) = true := by decide +kernel
theorem noFlush1_10 : ∀ t : Fin cfg1.N, ¬cond1_1 (grid1.coords t) → (cfg1.win 10).flush t = false := by decide +kernel
theorem liveAt1_10_C : ∀ t : Fin cfg1.N, cond1_1 (grid1.coords t) → cfg1.idle 10 (grid1.coords t) = false := by decide +kernel

/-! ## The memrefs the body is called with -/

abbrev VO1_8 : View sig .tc .vmem S2000x64 .f32 := (Memref.whole cc1_stg8_0 : Memref sig .tc .vmem S2000x64 .f32).view
abbrev VO1_9 : View sig .tc .vmem S1x64 .f32 := (Memref.whole cc1_stg9_0 : Memref sig .tc .vmem S1x64 .f32).view
abbrev VO1_10 : View sig .tc .vmem S1x64 .f32 := (Memref.whole cc1_stg10_0 : Memref sig .tc .vmem S1x64 .f32).view
abbrev ms1_0 (t : Fin cfg1.N) : Memref sig .tc .vmem S2000x64 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S2000x64 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x64 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x64 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S64x128 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1x128 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S128x64 .f32 := win1_6.stage (cfg1.slots t 6)
abbrev hs1_6 (t : Fin cfg1.N) : (ms1_6 t).IsWhole := hstage1_6 ((cfg1.slots t 6).cast nbuf1_6)
abbrev ms1_7 (t : Fin cfg1.N) : Memref sig .tc .vmem S1x64 .f32 := win1_7.stage (cfg1.slots t 7)
abbrev hs1_7 (t : Fin cfg1.N) : (ms1_7 t).IsWhole := hstage1_7 ((cfg1.slots t 7).cast nbuf1_7)
abbrev ms1_8 (t : Fin cfg1.N) : Memref sig .tc .vmem S2000x64 .f32 := win1_8.stage (cfg1.slots t 8)
abbrev hs1_8 (t : Fin cfg1.N) : (ms1_8 t).IsWhole := hstage1_8 ((cfg1.slots t 8).cast nbuf1_8)
abbrev ms1_9 (t : Fin cfg1.N) : Memref sig .tc .vmem S1x64 .f32 := win1_9.stage (cfg1.slots t 9)
abbrev hs1_9 (t : Fin cfg1.N) : (ms1_9 t).IsWhole := hstage1_9 ((cfg1.slots t 9).cast nbuf1_9)
abbrev ms1_10 (t : Fin cfg1.N) : Memref sig .tc .vmem S1x64 .f32 := win1_10.stage (cfg1.slots t 10)
abbrev hs1_10 (t : Fin cfg1.N) : (ms1_10 t).IsWhole := hstage1_10 ((cfg1.slots t 10).cast nbuf1_10)
abbrev scM1_0 : Memref sig .tc .vmem S1x64 .f32 := Memref.whole cc1_scratch0
abbrev VS1_0 : View sig .tc .vmem S1x64 .f32 := scM1_0.view
abbrev scM1_1 : Memref sig .tc .vmem S1x64 .f32 := Memref.whole cc1_scratch1
abbrev VS1_1 : View sig .tc .vmem S1x64 .f32 := scM1_1.view

/-- The core's other scoped buffers (the other calls' staging buffers and accumulators), which this region never opens. -/
abbrev rest1 (c : Dev nD) : sProp 𝕄 :=
  Pipeline.scopedRestBut (Ix := Unit) (Name := ℕ) (U := UR sig nD τ) (Lvl := ℕ) (Val := Elt F) spec1 c [cc1_scratch0, cc1_scratch1]

/-- The region's invariant before its first point: the two accumulators owned at some contents, the other scoped
    buffers unopened, and the generator register. -/
theorem PhiA1_eq (c : Dev nD) :
    (Pipeline.ΦA spec1 c : sProp 𝕄)
      = iprop(iprop(iprop((∃ d, owns (c : Thread nD τ) scM1_0 fullShare d) ∗ (∃ d, owns (c : Thread nD τ) scM1_1 fullShare d)) ∗ rest1 (F := F) c) ∗ (∃ r, prngReg c r)) := by
  unfold Pipeline.ΦA
  rw [Pipeline.scopedRest_split_of_list spec1 c [cc1_scratch0, cc1_scratch1] (by decide) (by decide)]
  simp only [scM1_0, scM1_1, owns_whole]; try rfl

end Cert.KernelIdeal.Hand

end
-- ==== Proof.KernelIdealR1RunA.lean ====
/- Region 1, the body's whole run in case A (the first grid point: the accumulators are cleared, then added to).
   From whole staging memrefs — the inputs at their contents, the accumulators at anything,
   the two small outputs at contents handed back untouched, the other outputs at anything — the body runs to the end leaving the inputs as they were and each
   buffer it stored into with its stores written; the lists of stores are what the run finds. -/
import proofs.«149204_j28372553957731_2_alg».proof.Proof.KernelIdealR1Kit

set_option maxRecDepth 16384

noncomputable section

namespace Cert.KernelIdeal.Hand

open Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun1_A (c : Dev nD) (i : grid1.Coords) (arg1 : Memref sig .tc .vmem S2000x64 .f32) (harg1 : arg1.IsWhole) (arg2 : Memref sig .tc .vmem S2000x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S64x128 .f32) (harg5 : arg5.IsWhole) (arg6 : Memref sig .tc .vmem S1x128 .f32) (harg6 : arg6.IsWhole) (arg7 : Memref sig .tc .vmem S128x64 .f32) (harg7 : arg7.IsWhole) (arg8 : Memref sig .tc .vmem S1x64 .f32) (harg8 : arg8.IsWhole) (arg9 : Memref sig .tc .vmem S2000x64 .f32) (harg9 : arg9.IsWhole) (arg10 : Memref sig .tc .vmem S1x64 .f32) (harg10 : arg10.IsWhole) (arg11 : Memref sig .tc .vmem S1x64 .f32) (harg11 : arg11.IsWhole) (arg12 : Memref sig .tc .vmem S1x64 .f32) (harg12 : arg12.IsWhole) (arg13 : Memref sig .tc .vmem S1x64 .f32) (harg13 : arg13.IsWhole) (hc0 : cond1_0 i) (hc1 : ¬cond1_1 i)
    (x0 : Vec F S2000x64 .f32) (x1 : Vec F S2000x64 .f32) (x2 : Vec F S1x64 .f32) (x3 : Vec F S1x64 .f32) (x4 : Vec F S64x128 .f32) (x5 : Vec F S1x128 .f32) (x6 : Vec F S128x64 .f32) (x7 : Vec F S1x64 .f32) :
    Σ' (L8 : List (View.Piece (Elt F) S2000x64 .f32)), Σ' (LS0 : List (View.Piece (Elt F) S1x64 .f32)), { LS1 : List (View.Piece (Elt F) S1x64 .f32) //
      ∀ (xi9 : Vec F S1x64 .f32) (xi10 : Vec F S1x64 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d) ∗ owns (c : Thread nD τ) arg10 fullShare xi9 ∗ owns (c : Thread nD τ) arg11 fullShare xi10 ∗ (∃ d, owns (c : Thread nD τ) arg12 fullShare d) ∗ (∃ d, owns (c : Thread nD τ) arg13 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ f, arg9.view.loc (c : Thread nD τ) ↦[arg9.view.set]{fullShare} arg9.view.writes (Elt F) f L8) ∗ owns (c : Thread nD τ) arg10 fullShare xi9 ∗ owns (c : Thread nD τ) arg11 fullShare xi10 ∗ (∃ f, arg12.view.loc (c : Thread nD τ) ↦[arg12.view.set]{fullShare} arg12.view.writes (Elt F) f LS0) ∗ (∃ f, arg13.view.loc (c : Thread nD τ) ↦[arg13.view.set]{fullShare} arg13.view.writes (Elt F) f LS1)) -∗ K ⟨⟩))
          ⊢ wp frame (wpE (defs₀ (F := F)) Variants.none c none) E (cc1__ffn_kernel i arg1 harg1 arg2 harg2 arg3 harg3 arg4 harg4 arg5 harg5 arg6 harg6 arg7 harg7 arg8 harg8 arg9 harg9 arg10 harg10 arg11 harg11 arg12 harg12 arg13 harg13) K } := by
  refine ⟨?_, ?_, ?_, fun xi9 xi10 E K => ?run⟩
  case run =>
    simp only [cc1__ffn_kernel_eq_skeleton]; unfold cc1__ffn_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%f9, %hf9, H9⟩, ⟨%f10, %hf10, H10⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg10.eq_unread hf9; obtain rfl := harg11.eq_unread hf10
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]; · iexists _; iexact H8
    isplitl [H9]
    · iexists _; isplitr; · ipureintro; exact harg10.read_unread _
      iexact H9
    isplitl [H10]
    · iexists _; isplitr; · ipureintro; exact harg11.read_unread _
      iexact H10
    isplitl [HS0]; · iexists _; iexact HS0
    iexists _; iexact HS1

end Cert.KernelIdeal.Hand

end
-- ==== Proof.KernelIdealR1RunB.lean ====
/- Region 1, the body's whole run in case B (a point that is neither first nor last: the accumulators are added to).
   From whole staging memrefs — the inputs at their contents, the accumulators at what the point before left,
   the two small outputs at contents handed back untouched, the other outputs at anything — the body runs to the end leaving the inputs as they were and each
   buffer it stored into with its stores written; the lists of stores are what the run finds. -/
import proofs.«149204_j28372553957731_2_alg».proof.Proof.KernelIdealR1RunA

set_option maxRecDepth 16384

noncomputable section

namespace Cert.KernelIdeal.Hand

open Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun1_B (c : Dev nD) (i : grid1.Coords) (arg1 : Memref sig .tc .vmem S2000x64 .f32) (harg1 : arg1.IsWhole) (arg2 : Memref sig .tc .vmem S2000x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S64x128 .f32) (harg5 : arg5.IsWhole) (arg6 : Memref sig .tc .vmem S1x128 .f32) (harg6 : arg6.IsWhole) (arg7 : Memref sig .tc .vmem S128x64 .f32) (harg7 : arg7.IsWhole) (arg8 : Memref sig .tc .vmem S1x64 .f32) (harg8 : arg8.IsWhole) (arg9 : Memref sig .tc .vmem S2000x64 .f32) (harg9 : arg9.IsWhole) (arg10 : Memref sig .tc .vmem S1x64 .f32) (harg10 : arg10.IsWhole) (arg11 : Memref sig .tc .vmem S1x64 .f32) (harg11 : arg11.IsWhole) (arg12 : Memref sig .tc .vmem S1x64 .f32) (harg12 : arg12.IsWhole) (arg13 : Memref sig .tc .vmem S1x64 .f32) (harg13 : arg13.IsWhole) (hc0 : ¬cond1_0 i) (hc1 : ¬cond1_1 i)
    (x0 : Vec F S2000x64 .f32) (x1 : Vec F S2000x64 .f32) (x2 : Vec F S1x64 .f32) (x3 : Vec F S1x64 .f32) (x4 : Vec F S64x128 .f32) (x5 : Vec F S1x128 .f32) (x6 : Vec F S128x64 .f32) (x7 : Vec F S1x64 .f32) (xs0 : Vec F S1x64 .f32) (xs1 : Vec F S1x64 .f32) :
    Σ' (L8 : List (View.Piece (Elt F) S2000x64 .f32)), Σ' (LS0 : List (View.Piece (Elt F) S1x64 .f32)), { LS1 : List (View.Piece (Elt F) S1x64 .f32) //
      ∀ (xi9 : Vec F S1x64 .f32) (xi10 : Vec F S1x64 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d) ∗ owns (c : Thread nD τ) arg10 fullShare xi9 ∗ owns (c : Thread nD τ) arg11 fullShare xi10 ∗ owns (c : Thread nD τ) arg12 fullShare xs0 ∗ owns (c : Thread nD τ) arg13 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ f, arg9.view.loc (c : Thread nD τ) ↦[arg9.view.set]{fullShare} arg9.view.writes (Elt F) f L8) ∗ owns (c : Thread nD τ) arg10 fullShare xi9 ∗ owns (c : Thread nD τ) arg11 fullShare xi10 ∗ (∃ f, arg12.view.loc (c : Thread nD τ) ↦[arg12.view.set]{fullShare} arg12.view.writes (Elt F) f LS0) ∗ (∃ f, arg13.view.loc (c : Thread nD τ) ↦[arg13.view.set]{fullShare} arg13.view.writes (Elt F) f LS1)) -∗ K ⟨⟩))
          ⊢ wp frame (wpE (defs₀ (F := F)) Variants.none c none) E (cc1__ffn_kernel i arg1 harg1 arg2 harg2 arg3 harg3 arg4 harg4 arg5 harg5 arg6 harg6 arg7 harg7 arg8 harg8 arg9 harg9 arg10 harg10 arg11 harg11 arg12 harg12 arg13 harg13) K } := by
  refine ⟨?_, ?_, ?_, fun xi9 xi10 E K => ?run⟩
  case run =>
    simp only [cc1__ffn_kernel_eq_skeleton]; unfold cc1__ffn_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%f9, %hf9, H9⟩, ⟨%f10, %hf10, H10⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg10.eq_unread hf9; obtain rfl := harg11.eq_unread hf10; obtain rfl := harg12.eq_unread hfs0; obtain rfl := harg13.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]; · iexists _; iexact H8
    isplitl [H9]
    · iexists _; isplitr; · ipureintro; exact harg10.read_unread _
      iexact H9
    isplitl [H10]
    · iexists _; isplitr; · ipureintro; exact harg11.read_unread _
      iexact H10
    isplitl [HS0]; · iexists _; iexact HS0
    iexists _; iexact HS1

end Cert.KernelIdeal.Hand

end
-- ==== Proof.KernelIdealR1RunC.lean ====
/- Region 1, the body's whole run in case C (the last grid point: the accumulators are added to, then copied to the two small outputs).
   From whole staging memrefs — the inputs at their contents, the accumulators at what the point before left,
   the other outputs at anything — the body runs to the end leaving the inputs as they were and each
   buffer it stored into with its stores written; the lists of stores are what the run finds. -/
import proofs.«149204_j28372553957731_2_alg».proof.Proof.KernelIdealR1RunB

set_option maxRecDepth 16384

noncomputable section

namespace Cert.KernelIdeal.Hand

open Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun1_C (c : Dev nD) (i : grid1.Coords) (arg1 : Memref sig .tc .vmem S2000x64 .f32) (harg1 : arg1.IsWhole) (arg2 : Memref sig .tc .vmem S2000x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S64x128 .f32) (harg5 : arg5.IsWhole) (arg6 : Memref sig .tc .vmem S1x128 .f32) (harg6 : arg6.IsWhole) (arg7 : Memref sig .tc .vmem S128x64 .f32) (harg7 : arg7.IsWhole) (arg8 : Memref sig .tc .vmem S1x64 .f32) (harg8 : arg8.IsWhole) (arg9 : Memref sig .tc .vmem S2000x64 .f32) (harg9 : arg9.IsWhole) (arg10 : Memref sig .tc .vmem S1x64 .f32) (harg10 : arg10.IsWhole) (arg11 : Memref sig .tc .vmem S1x64 .f32) (harg11 : arg11.IsWhole) (arg12 : Memref sig .tc .vmem S1x64 .f32) (harg12 : arg12.IsWhole) (arg13 : Memref sig .tc .vmem S1x64 .f32) (harg13 : arg13.IsWhole) (hc0 : ¬cond1_0 i) (hc1 : cond1_1 i)
    (x0 : Vec F S2000x64 .f32) (x1 : Vec F S2000x64 .f32) (x2 : Vec F S1x64 .f32) (x3 : Vec F S1x64 .f32) (x4 : Vec F S64x128 .f32) (x5 : Vec F S1x128 .f32) (x6 : Vec F S128x64 .f32) (x7 : Vec F S1x64 .f32) (xs0 : Vec F S1x64 .f32) (xs1 : Vec F S1x64 .f32) :
    Σ' (L8 : List (View.Piece (Elt F) S2000x64 .f32)), Σ' (L9 : List (View.Piece (Elt F) S1x64 .f32)), Σ' (L10 : List (View.Piece (Elt F) S1x64 .f32)), Σ' (LS0 : List (View.Piece (Elt F) S1x64 .f32)), { LS1 : List (View.Piece (Elt F) S1x64 .f32) //
      ∀  (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d) ∗ (∃ d, owns (c : Thread nD τ) arg10 fullShare d) ∗ (∃ d, owns (c : Thread nD τ) arg11 fullShare d) ∗ owns (c : Thread nD τ) arg12 fullShare xs0 ∗ owns (c : Thread nD τ) arg13 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ f, arg9.view.loc (c : Thread nD τ) ↦[arg9.view.set]{fullShare} arg9.view.writes (Elt F) f L8) ∗ (∃ f, arg10.view.loc (c : Thread nD τ) ↦[arg10.view.set]{fullShare} arg10.view.writes (Elt F) f L9) ∗ (∃ f, arg11.view.loc (c : Thread nD τ) ↦[arg11.view.set]{fullShare} arg11.view.writes (Elt F) f L10) ∗ (∃ f, arg12.view.loc (c : Thread nD τ) ↦[arg12.view.set]{fullShare} arg12.view.writes (Elt F) f LS0) ∗ (∃ f, arg13.view.loc (c : Thread nD τ) ↦[arg13.view.set]{fullShare} arg13.view.writes (Elt F) f LS1)) -∗ K ⟨⟩))
          ⊢ wp frame (wpE (defs₀ (F := F)) Variants.none c none) E (cc1__ffn_kernel i arg1 harg1 arg2 harg2 arg3 harg3 arg4 harg4 arg5 harg5 arg6 harg6 arg7 harg7 arg8 harg8 arg9 harg9 arg10 harg10 arg11 harg11 arg12 harg12 arg13 harg13) K } := by
  refine ⟨?_, ?_, ?_, ?_, ?_, fun  E K => ?run⟩
  case run =>
    simp only [cc1__ffn_kernel_eq_skeleton]; unfold cc1__ffn_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg12.eq_unread hfs0; obtain rfl := harg13.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]; · iexists _; iexact H8
    isplitl [H9]; · iexists _; iexact H9
    isplitl [H10]; · iexists _; iexact H10
    isplitl [HS0]; · iexists _; iexact HS0
    iexists _; iexact HS1

end Cert.KernelIdeal.Hand

end
-- ==== Proof.KernelIdealR1Frame.lean ====
/- Region 1: what its buffers hold point by point, the proof data of its pipeline, and the body's obligation.
   The two accumulators are carried from one grid point to the next: after point `n` they hold what the body's run at `n`
   left, computed from the point's input blocks and from what point `n − 1` left (`outsAt1`). The invariant before the
   first point is the class's (both accumulators at anything); before any later point it has them at the previous point's
   contents. The two small outputs are stored only at the last point and are idle elsewhere. -/
import proofs.«149204_j28372553957731_2_alg».proof.Proof.KernelIdealR1RunC

set_option maxRecDepth 16384

noncomputable section

namespace Cert.KernelIdeal.Hand

open Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## Per case: the stores cover each buffer, and what the buffer then holds -/

theorem cover1_A_8 (c : Dev nD) (i : grid1.Coords) (arg1 : Memref sig .tc .vmem S2000x64 .f32) (harg1 : arg1.IsWhole) (arg2 : Memref sig .tc .vmem S2000x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S64x128 .f32) (harg5 : arg5.IsWhole) (arg6 : Memref sig .tc .vmem S1x128 .f32) (harg6 : arg6.IsWhole) (arg7 : Memref sig .tc .vmem S128x64 .f32) (harg7 : arg7.IsWhole) (arg8 : Memref sig .tc .vmem S1x64 .f32) (harg8 : arg8.IsWhole) (arg9 : Memref sig .tc .vmem S2000x64 .f32) (harg9 : arg9.IsWhole) (arg10 : Memref sig .tc .vmem S1x64 .f32) (harg10 : arg10.IsWhole) (arg11 : Memref sig .tc .vmem S1x64 .f32) (harg11 : arg11.IsWhole) (arg12 : Memref sig .tc .vmem S1x64 .f32) (harg12 : arg12.IsWhole) (arg13 : Memref sig .tc .vmem S1x64 .f32) (harg13 : arg13.IsWhole) (hc0 : cond1_0 i) (hc1 : ¬cond1_1 i)
    (x0 : Vec F S2000x64 .f32) (x1 : Vec F S2000x64 .f32) (x2 : Vec F S1x64 .f32) (x3 : Vec F S1x64 .f32) (x4 : Vec F S64x128 .f32) (x5 : Vec F S1x128 .f32) (x6 : Vec F S128x64 .f32) (x7 : Vec F S1x64 .f32) (y : S2000x64.Idx) :
    ∃ pc ∈ (kernelRun1_A (F := F) c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7).1, y ∈ pc.1.set :=
  View.cover_of_tiledL (kernelRun1_A (F := F) c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7).1 S2000x64.size (by sl_kernel_rfl) y
def out1_A_8 (c : Dev nD) (i : grid1.Coords) (arg1 : Memref sig .tc .vmem S2000x64 .f32) (harg1 : arg1.IsWhole) (arg2 : Memref sig .tc .vmem S2000x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S64x128 .f32) (harg5 : arg5.IsWhole) (arg6 : Memref sig .tc .vmem S1x128 .f32) (harg6 : arg6.IsWhole) (arg7 : Memref sig .tc .vmem S128x64 .f32) (harg7 : arg7.IsWhole) (arg8 : Memref sig .tc .vmem S1x64 .f32) (harg8 : arg8.IsWhole) (arg9 : Memref sig .tc .vmem S2000x64 .f32) (harg9 : arg9.IsWhole) (arg10 : Memref sig .tc .vmem S1x64 .f32) (harg10 : arg10.IsWhole) (arg11 : Memref sig .tc .vmem S1x64 .f32) (harg11 : arg11.IsWhole) (arg12 : Memref sig .tc .vmem S1x64 .f32) (harg12 : arg12.IsWhole) (arg13 : Memref sig .tc .vmem S1x64 .f32) (harg13 : arg13.IsWhole) (hc0 : cond1_0 i) (hc1 : ¬cond1_1 i)
    (x0 : Vec F S2000x64 .f32) (x1 : Vec F S2000x64 .f32) (x2 : Vec F S1x64 .f32) (x3 : Vec F S1x64 .f32) (x4 : Vec F S64x128 .f32) (x5 : Vec F S1x128 .f32) (x6 : Vec F S128x64 .f32) (x7 : Vec F S1x64 .f32) : Vec F S2000x64 .f32 :=
  VO1_8.read (Elt F) (VO1_8.writes (Elt F) VO1_8.junk (kernelRun1_A (F := F) c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7).1)

theorem scover1_A_0 (c : Dev nD) (i : grid1.Coords) (arg1 : Memref sig .tc .vmem S2000x64 .f32) (harg1 : arg1.IsWhole) (arg2 : Memref sig .tc .vmem S2000x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S64x128 .f32) (harg5 : arg5.IsWhole) (arg6 : Memref sig .tc .vmem S1x128 .f32) (harg6 : arg6.IsWhole) (arg7 : Memref sig .tc .vmem S128x64 .f32) (harg7 : arg7.IsWhole) (arg8 : Memref sig .tc .vmem S1x64 .f32) (harg8 : arg8.IsWhole) (arg9 : Memref sig .tc .vmem S2000x64 .f32) (harg9 : arg9.IsWhole) (arg10 : Memref sig .tc .vmem S1x64 .f32) (harg10 : arg10.IsWhole) (arg11 : Memref sig .tc .vmem S1x64 .f32) (harg11 : arg11.IsWhole) (arg12 : Memref sig .tc .vmem S1x64 .f32) (harg12 : arg12.IsWhole) (arg13 : Memref sig .tc .vmem S1x64 .f32) (harg13 : arg13.IsWhole) (hc0 : cond1_0 i) (hc1 : ¬cond1_1 i)
    (x0 : Vec F S2000x64 .f32) (x1 : Vec F S2000x64 .f32) (x2 : Vec F S1x64 .f32) (x3 : Vec F S1x64 .f32) (x4 : Vec F S64x128 .f32) (x5 : Vec F S1x128 .f32) (x6 : Vec F S128x64 .f32) (x7 : Vec F S1x64 .f32) (y : S1x64.Idx) :
    ∃ pc ∈ (kernelRun1_A (F := F) c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7).2.1, y ∈ pc.1.set :=
  View.cover_of_tiledL (kernelRun1_A (F := F) c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7).2.1 S1x64.size (by sl_kernel_rfl) y
def sout1_A_0 (c : Dev nD) (i : grid1.Coords) (arg1 : Memref sig .tc .vmem S2000x64 .f32) (harg1 : arg1.IsWhole) (arg2 : Memref sig .tc .vmem S2000x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S64x128 .f32) (harg5 : arg5.IsWhole) (arg6 : Memref sig .tc .vmem S1x128 .f32) (harg6 : arg6.IsWhole) (arg7 : Memref sig .tc .vmem S128x64 .f32) (harg7 : arg7.IsWhole) (arg8 : Memref sig .tc .vmem S1x64 .f32) (harg8 : arg8.IsWhole) (arg9 : Memref sig .tc .vmem S2000x64 .f32) (harg9 : arg9.IsWhole) (arg10 : Memref sig .tc .vmem S1x64 .f32) (harg10 : arg10.IsWhole) (arg11 : Memref sig .tc .vmem S1x64 .f32) (harg11 : arg11.IsWhole) (arg12 : Memref sig .tc .vmem S1x64 .f32) (harg12 : arg12.IsWhole) (arg13 : Memref sig .tc .vmem S1x64 .f32) (harg13 : arg13.IsWhole) (hc0 : cond1_0 i) (hc1 : ¬cond1_1 i)
    (x0 : Vec F S2000x64 .f32) (x1 : Vec F S2000x64 .f32) (x2 : Vec F S1x64 .f32) (x3 : Vec F S1x64 .f32) (x4 : Vec F S64x128 .f32) (x5 : Vec F S1x128 .f32) (x6 : Vec F S128x64 .f32) (x7 : Vec F S1x64 .f32) : Vec F S1x64 .f32 :=
  VS1_0.read (Elt F) (VS1_0.writes (Elt F) VS1_0.junk (kernelRun1_A (F := F) c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7).2.1)

theorem scover1_A_1 (c : Dev nD) (i : grid1.Coords) (arg1 : Memref sig .tc .vmem S2000x64 .f32) (harg1 : arg1.IsWhole) (arg2 : Memref sig .tc .vmem S2000x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S64x128 .f32) (harg5 : arg5.IsWhole) (arg6 : Memref sig .tc .vmem S1x128 .f32) (harg6 : arg6.IsWhole) (arg7 : Memref sig .tc .vmem S128x64 .f32) (harg7 : arg7.IsWhole) (arg8 : Memref sig .tc .vmem S1x64 .f32) (harg8 : arg8.IsWhole) (arg9 : Memref sig .tc .vmem S2000x64 .f32) (harg9 : arg9.IsWhole) (arg10 : Memref sig .tc .vmem S1x64 .f32) (harg10 : arg10.IsWhole) (arg11 : Memref sig .tc .vmem S1x64 .f32) (harg11 : arg11.IsWhole) (arg12 : Memref sig .tc .vmem S1x64 .f32) (harg12 : arg12.IsWhole) (arg13 : Memref sig .tc .vmem S1x64 .f32) (harg13 : arg13.IsWhole) (hc0 : cond1_0 i) (hc1 : ¬cond1_1 i)
    (x0 : Vec F S2000x64 .f32) (x1 : Vec F S2000x64 .f32) (x2 : Vec F S1x64 .f32) (x3 : Vec F S1x64 .f32) (x4 : Vec F S64x128 .f32) (x5 : Vec F S1x128 .f32) (x6 : Vec F S128x64 .f32) (x7 : Vec F S1x64 .f32) (y : S1x64.Idx) :
    ∃ pc ∈ (kernelRun1_A (F := F) c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7).2.2.1, y ∈ pc.1.set :=
  View.cover_of_tiledL (kernelRun1_A (F := F) c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7).2.2.1 S1x64.size (by sl_kernel_rfl) y
def sout1_A_1 (c : Dev nD) (i : grid1.Coords) (arg1 : Memref sig .tc .vmem S2000x64 .f32) (harg1 : arg1.IsWhole) (arg2 : Memref sig .tc .vmem S2000x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S64x128 .f32) (harg5 : arg5.IsWhole) (arg6 : Memref sig .tc .vmem S1x128 .f32) (harg6 : arg6.IsWhole) (arg7 : Memref sig .tc .vmem S128x64 .f32) (harg7 : arg7.IsWhole) (arg8 : Memref sig .tc .vmem S1x64 .f32) (harg8 : arg8.IsWhole) (arg9 : Memref sig .tc .vmem S2000x64 .f32) (harg9 : arg9.IsWhole) (arg10 : Memref sig .tc .vmem S1x64 .f32) (harg10 : arg10.IsWhole) (arg11 : Memref sig .tc .vmem S1x64 .f32) (harg11 : arg11.IsWhole) (arg12 : Memref sig .tc .vmem S1x64 .f32) (harg12 : arg12.IsWhole) (arg13 : Memref sig .tc .vmem S1x64 .f32) (harg13 : arg13.IsWhole) (hc0 : cond1_0 i) (hc1 : ¬cond1_1 i)
    (x0 : Vec F S2000x64 .f32) (x1 : Vec F S2000x64 .f32) (x2 : Vec F S1x64 .f32) (x3 : Vec F S1x64 .f32) (x4 : Vec F S64x128 .f32) (x5 : Vec F S1x128 .f32) (x6 : Vec F S128x64 .f32) (x7 : Vec F S1x64 .f32) : Vec F S1x64 .f32 :=
  VS1_1.read (Elt F) (VS1_1.writes (Elt F) VS1_1.junk (kernelRun1_A (F := F) c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7).2.2.1)

theorem cover1_B_8 (c : Dev nD) (i : grid1.Coords) (arg1 : Memref sig .tc .vmem S2000x64 .f32) (harg1 : arg1.IsWhole) (arg2 : Memref sig .tc .vmem S2000x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S64x128 .f32) (harg5 : arg5.IsWhole) (arg6 : Memref sig .tc .vmem S1x128 .f32) (harg6 : arg6.IsWhole) (arg7 : Memref sig .tc .vmem S128x64 .f32) (harg7 : arg7.IsWhole) (arg8 : Memref sig .tc .vmem S1x64 .f32) (harg8 : arg8.IsWhole) (arg9 : Memref sig .tc .vmem S2000x64 .f32) (harg9 : arg9.IsWhole) (arg10 : Memref sig .tc .vmem S1x64 .f32) (harg10 : arg10.IsWhole) (arg11 : Memref sig .tc .vmem S1x64 .f32) (harg11 : arg11.IsWhole) (arg12 : Memref sig .tc .vmem S1x64 .f32) (harg12 : arg12.IsWhole) (arg13 : Memref sig .tc .vmem S1x64 .f32) (harg13 : arg13.IsWhole) (hc0 : ¬cond1_0 i) (hc1 : ¬cond1_1 i)
    (x0 : Vec F S2000x64 .f32) (x1 : Vec F S2000x64 .f32) (x2 : Vec F S1x64 .f32) (x3 : Vec F S1x64 .f32) (x4 : Vec F S64x128 .f32) (x5 : Vec F S1x128 .f32) (x6 : Vec F S128x64 .f32) (x7 : Vec F S1x64 .f32) (xs0 : Vec F S1x64 .f32) (xs1 : Vec F S1x64 .f32) (y : S2000x64.Idx) :
    ∃ pc ∈ (kernelRun1_B (F := F) c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 xs0 xs1).1, y ∈ pc.1.set :=
  View.cover_of_tiledL (kernelRun1_B (F := F) c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 xs0 xs1).1 S2000x64.size (by sl_kernel_rfl) y
def out1_B_8 (c : Dev nD) (i : grid1.Coords) (arg1 : Memref sig .tc .vmem S2000x64 .f32) (harg1 : arg1.IsWhole) (arg2 : Memref sig .tc .vmem S2000x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S64x128 .f32) (harg5 : arg5.IsWhole) (arg6 : Memref sig .tc .vmem S1x128 .f32) (harg6 : arg6.IsWhole) (arg7 : Memref sig .tc .vmem S128x64 .f32) (harg7 : arg7.IsWhole) (arg8 : Memref sig .tc .vmem S1x64 .f32) (harg8 : arg8.IsWhole) (arg9 : Memref sig .tc .vmem S2000x64 .f32) (harg9 : arg9.IsWhole) (arg10 : Memref sig .tc .vmem S1x64 .f32) (harg10 : arg10.IsWhole) (arg11 : Memref sig .tc .vmem S1x64 .f32) (harg11 : arg11.IsWhole) (arg12 : Memref sig .tc .vmem S1x64 .f32) (harg12 : arg12.IsWhole) (arg13 : Memref sig .tc .vmem S1x64 .f32) (harg13 : arg13.IsWhole) (hc0 : ¬cond1_0 i) (hc1 : ¬cond1_1 i)
    (x0 : Vec F S2000x64 .f32) (x1 : Vec F S2000x64 .f32) (x2 : Vec F S1x64 .f32) (x3 : Vec F S1x64 .f32) (x4 : Vec F S64x128 .f32) (x5 : Vec F S1x128 .f32) (x6 : Vec F S128x64 .f32) (x7 : Vec F S1x64 .f32) (xs0 : Vec F S1x64 .f32) (xs1 : Vec F S1x64 .f32) : Vec F S2000x64 .f32 :=
  VO1_8.read (Elt F) (VO1_8.writes (Elt F) VO1_8.junk (kernelRun1_B (F := F) c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 xs0 xs1).1)

theorem scover1_B_0 (c : Dev nD) (i : grid1.Coords) (arg1 : Memref sig .tc .vmem S2000x64 .f32) (harg1 : arg1.IsWhole) (arg2 : Memref sig .tc .vmem S2000x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S64x128 .f32) (harg5 : arg5.IsWhole) (arg6 : Memref sig .tc .vmem S1x128 .f32) (harg6 : arg6.IsWhole) (arg7 : Memref sig .tc .vmem S128x64 .f32) (harg7 : arg7.IsWhole) (arg8 : Memref sig .tc .vmem S1x64 .f32) (harg8 : arg8.IsWhole) (arg9 : Memref sig .tc .vmem S2000x64 .f32) (harg9 : arg9.IsWhole) (arg10 : Memref sig .tc .vmem S1x64 .f32) (harg10 : arg10.IsWhole) (arg11 : Memref sig .tc .vmem S1x64 .f32) (harg11 : arg11.IsWhole) (arg12 : Memref sig .tc .vmem S1x64 .f32) (harg12 : arg12.IsWhole) (arg13 : Memref sig .tc .vmem S1x64 .f32) (harg13 : arg13.IsWhole) (hc0 : ¬cond1_0 i) (hc1 : ¬cond1_1 i)
    (x0 : Vec F S2000x64 .f32) (x1 : Vec F S2000x64 .f32) (x2 : Vec F S1x64 .f32) (x3 : Vec F S1x64 .f32) (x4 : Vec F S64x128 .f32) (x5 : Vec F S1x128 .f32) (x6 : Vec F S128x64 .f32) (x7 : Vec F S1x64 .f32) (xs0 : Vec F S1x64 .f32) (xs1 : Vec F S1x64 .f32) (y : S1x64.Idx) :
    ∃ pc ∈ (kernelRun1_B (F := F) c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 xs0 xs1).2.1, y ∈ pc.1.set :=
  View.cover_of_tiledL (kernelRun1_B (F := F) c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 xs0 xs1).2.1 S1x64.size (by sl_kernel_rfl) y
def sout1_B_0 (c : Dev nD) (i : grid1.Coords) (arg1 : Memref sig .tc .vmem S2000x64 .f32) (harg1 : arg1.IsWhole) (arg2 : Memref sig .tc .vmem S2000x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S64x128 .f32) (harg5 : arg5.IsWhole) (arg6 : Memref sig .tc .vmem S1x128 .f32) (harg6 : arg6.IsWhole) (arg7 : Memref sig .tc .vmem S128x64 .f32) (harg7 : arg7.IsWhole) (arg8 : Memref sig .tc .vmem S1x64 .f32) (harg8 : arg8.IsWhole) (arg9 : Memref sig .tc .vmem S2000x64 .f32) (harg9 : arg9.IsWhole) (arg10 : Memref sig .tc .vmem S1x64 .f32) (harg10 : arg10.IsWhole) (arg11 : Memref sig .tc .vmem S1x64 .f32) (harg11 : arg11.IsWhole) (arg12 : Memref sig .tc .vmem S1x64 .f32) (harg12 : arg12.IsWhole) (arg13 : Memref sig .tc .vmem S1x64 .f32) (harg13 : arg13.IsWhole) (hc0 : ¬cond1_0 i) (hc1 : ¬cond1_1 i)
    (x0 : Vec F S2000x64 .f32) (x1 : Vec F S2000x64 .f32) (x2 : Vec F S1x64 .f32) (x3 : Vec F S1x64 .f32) (x4 : Vec F S64x128 .f32) (x5 : Vec F S1x128 .f32) (x6 : Vec F S128x64 .f32) (x7 : Vec F S1x64 .f32) (xs0 : Vec F S1x64 .f32) (xs1 : Vec F S1x64 .f32) : Vec F S1x64 .f32 :=
  VS1_0.read (Elt F) (VS1_0.writes (Elt F) VS1_0.junk (kernelRun1_B (F := F) c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 xs0 xs1).2.1)

theorem scover1_B_1 (c : Dev nD) (i : grid1.Coords) (arg1 : Memref sig .tc .vmem S2000x64 .f32) (harg1 : arg1.IsWhole) (arg2 : Memref sig .tc .vmem S2000x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S64x128 .f32) (harg5 : arg5.IsWhole) (arg6 : Memref sig .tc .vmem S1x128 .f32) (harg6 : arg6.IsWhole) (arg7 : Memref sig .tc .vmem S128x64 .f32) (harg7 : arg7.IsWhole) (arg8 : Memref sig .tc .vmem S1x64 .f32) (harg8 : arg8.IsWhole) (arg9 : Memref sig .tc .vmem S2000x64 .f32) (harg9 : arg9.IsWhole) (arg10 : Memref sig .tc .vmem S1x64 .f32) (harg10 : arg10.IsWhole) (arg11 : Memref sig .tc .vmem S1x64 .f32) (harg11 : arg11.IsWhole) (arg12 : Memref sig .tc .vmem S1x64 .f32) (harg12 : arg12.IsWhole) (arg13 : Memref sig .tc .vmem S1x64 .f32) (harg13 : arg13.IsWhole) (hc0 : ¬cond1_0 i) (hc1 : ¬cond1_1 i)
    (x0 : Vec F S2000x64 .f32) (x1 : Vec F S2000x64 .f32) (x2 : Vec F S1x64 .f32) (x3 : Vec F S1x64 .f32) (x4 : Vec F S64x128 .f32) (x5 : Vec F S1x128 .f32) (x6 : Vec F S128x64 .f32) (x7 : Vec F S1x64 .f32) (xs0 : Vec F S1x64 .f32) (xs1 : Vec F S1x64 .f32) (y : S1x64.Idx) :
    ∃ pc ∈ (kernelRun1_B (F := F) c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 xs0 xs1).2.2.1, y ∈ pc.1.set :=
  View.cover_of_tiledL (kernelRun1_B (F := F) c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 xs0 xs1).2.2.1 S1x64.size (by sl_kernel_rfl) y
def sout1_B_1 (c : Dev nD) (i : grid1.Coords) (arg1 : Memref sig .tc .vmem S2000x64 .f32) (harg1 : arg1.IsWhole) (arg2 : Memref sig .tc .vmem S2000x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S64x128 .f32) (harg5 : arg5.IsWhole) (arg6 : Memref sig .tc .vmem S1x128 .f32) (harg6 : arg6.IsWhole) (arg7 : Memref sig .tc .vmem S128x64 .f32) (harg7 : arg7.IsWhole) (arg8 : Memref sig .tc .vmem S1x64 .f32) (harg8 : arg8.IsWhole) (arg9 : Memref sig .tc .vmem S2000x64 .f32) (harg9 : arg9.IsWhole) (arg10 : Memref sig .tc .vmem S1x64 .f32) (harg10 : arg10.IsWhole) (arg11 : Memref sig .tc .vmem S1x64 .f32) (harg11 : arg11.IsWhole) (arg12 : Memref sig .tc .vmem S1x64 .f32) (harg12 : arg12.IsWhole) (arg13 : Memref sig .tc .vmem S1x64 .f32) (harg13 : arg13.IsWhole) (hc0 : ¬cond1_0 i) (hc1 : ¬cond1_1 i)
    (x0 : Vec F S2000x64 .f32) (x1 : Vec F S2000x64 .f32) (x2 : Vec F S1x64 .f32) (x3 : Vec F S1x64 .f32) (x4 : Vec F S64x128 .f32) (x5 : Vec F S1x128 .f32) (x6 : Vec F S128x64 .f32) (x7 : Vec F S1x64 .f32) (xs0 : Vec F S1x64 .f32) (xs1 : Vec F S1x64 .f32) : Vec F S1x64 .f32 :=
  VS1_1.read (Elt F) (VS1_1.writes (Elt F) VS1_1.junk (kernelRun1_B (F := F) c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 xs0 xs1).2.2.1)

theorem cover1_C_8 (c : Dev nD) (i : grid1.Coords) (arg1 : Memref sig .tc .vmem S2000x64 .f32) (harg1 : arg1.IsWhole) (arg2 : Memref sig .tc .vmem S2000x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S64x128 .f32) (harg5 : arg5.IsWhole) (arg6 : Memref sig .tc .vmem S1x128 .f32) (harg6 : arg6.IsWhole) (arg7 : Memref sig .tc .vmem S128x64 .f32) (harg7 : arg7.IsWhole) (arg8 : Memref sig .tc .vmem S1x64 .f32) (harg8 : arg8.IsWhole) (arg9 : Memref sig .tc .vmem S2000x64 .f32) (harg9 : arg9.IsWhole) (arg10 : Memref sig .tc .vmem S1x64 .f32) (harg10 : arg10.IsWhole) (arg11 : Memref sig .tc .vmem S1x64 .f32) (harg11 : arg11.IsWhole) (arg12 : Memref sig .tc .vmem S1x64 .f32) (harg12 : arg12.IsWhole) (arg13 : Memref sig .tc .vmem S1x64 .f32) (harg13 : arg13.IsWhole) (hc0 : ¬cond1_0 i) (hc1 : cond1_1 i)
    (x0 : Vec F S2000x64 .f32) (x1 : Vec F S2000x64 .f32) (x2 : Vec F S1x64 .f32) (x3 : Vec F S1x64 .f32) (x4 : Vec F S64x128 .f32) (x5 : Vec F S1x128 .f32) (x6 : Vec F S128x64 .f32) (x7 : Vec F S1x64 .f32) (xs0 : Vec F S1x64 .f32) (xs1 : Vec F S1x64 .f32) (y : S2000x64.Idx) :
    ∃ pc ∈ (kernelRun1_C (F := F) c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 xs0 xs1).1, y ∈ pc.1.set :=
  View.cover_of_tiledL (kernelRun1_C (F := F) c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 xs0 xs1).1 S2000x64.size (by sl_kernel_rfl) y
def out1_C_8 (c : Dev nD) (i : grid1.Coords) (arg1 : Memref sig .tc .vmem S2000x64 .f32) (harg1 : arg1.IsWhole) (arg2 : Memref sig .tc .vmem S2000x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S64x128 .f32) (harg5 : arg5.IsWhole) (arg6 : Memref sig .tc .vmem S1x128 .f32) (harg6 : arg6.IsWhole) (arg7 : Memref sig .tc .vmem S128x64 .f32) (harg7 : arg7.IsWhole) (arg8 : Memref sig .tc .vmem S1x64 .f32) (harg8 : arg8.IsWhole) (arg9 : Memref sig .tc .vmem S2000x64 .f32) (harg9 : arg9.IsWhole) (arg10 : Memref sig .tc .vmem S1x64 .f32) (harg10 : arg10.IsWhole) (arg11 : Memref sig .tc .vmem S1x64 .f32) (harg11 : arg11.IsWhole) (arg12 : Memref sig .tc .vmem S1x64 .f32) (harg12 : arg12.IsWhole) (arg13 : Memref sig .tc .vmem S1x64 .f32) (harg13 : arg13.IsWhole) (hc0 : ¬cond1_0 i) (hc1 : cond1_1 i)
    (x0 : Vec F S2000x64 .f32) (x1 : Vec F S2000x64 .f32) (x2 : Vec F S1x64 .f32) (x3 : Vec F S1x64 .f32) (x4 : Vec F S64x128 .f32) (x5 : Vec F S1x128 .f32) (x6 : Vec F S128x64 .f32) (x7 : Vec F S1x64 .f32) (xs0 : Vec F S1x64 .f32) (xs1 : Vec F S1x64 .f32) : Vec F S2000x64 .f32 :=
  VO1_8.read (Elt F) (VO1_8.writes (Elt F) VO1_8.junk (kernelRun1_C (F := F) c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 xs0 xs1).1)

theorem cover1_C_9 (c : Dev nD) (i : grid1.Coords) (arg1 : Memref sig .tc .vmem S2000x64 .f32) (harg1 : arg1.IsWhole) (arg2 : Memref sig .tc .vmem S2000x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S64x128 .f32) (harg5 : arg5.IsWhole) (arg6 : Memref sig .tc .vmem S1x128 .f32) (harg6 : arg6.IsWhole) (arg7 : Memref sig .tc .vmem S128x64 .f32) (harg7 : arg7.IsWhole) (arg8 : Memref sig .tc .vmem S1x64 .f32) (harg8 : arg8.IsWhole) (arg9 : Memref sig .tc .vmem S2000x64 .f32) (harg9 : arg9.IsWhole) (arg10 : Memref sig .tc .vmem S1x64 .f32) (harg10 : arg10.IsWhole) (arg11 : Memref sig .tc .vmem S1x64 .f32) (harg11 : arg11.IsWhole) (arg12 : Memref sig .tc .vmem S1x64 .f32) (harg12 : arg12.IsWhole) (arg13 : Memref sig .tc .vmem S1x64 .f32) (harg13 : arg13.IsWhole) (hc0 : ¬cond1_0 i) (hc1 : cond1_1 i)
    (x0 : Vec F S2000x64 .f32) (x1 : Vec F S2000x64 .f32) (x2 : Vec F S1x64 .f32) (x3 : Vec F S1x64 .f32) (x4 : Vec F S64x128 .f32) (x5 : Vec F S1x128 .f32) (x6 : Vec F S128x64 .f32) (x7 : Vec F S1x64 .f32) (xs0 : Vec F S1x64 .f32) (xs1 : Vec F S1x64 .f32) (y : S1x64.Idx) :
    ∃ pc ∈ (kernelRun1_C (F := F) c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 xs0 xs1).2.1, y ∈ pc.1.set :=
  View.cover_of_tiledL (kernelRun1_C (F := F) c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 xs0 xs1).2.1 S1x64.size (by sl_kernel_rfl) y
def out1_C_9 (c : Dev nD) (i : grid1.Coords) (arg1 : Memref sig .tc .vmem S2000x64 .f32) (harg1 : arg1.IsWhole) (arg2 : Memref sig .tc .vmem S2000x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S64x128 .f32) (harg5 : arg5.IsWhole) (arg6 : Memref sig .tc .vmem S1x128 .f32) (harg6 : arg6.IsWhole) (arg7 : Memref sig .tc .vmem S128x64 .f32) (harg7 : arg7.IsWhole) (arg8 : Memref sig .tc .vmem S1x64 .f32) (harg8 : arg8.IsWhole) (arg9 : Memref sig .tc .vmem S2000x64 .f32) (harg9 : arg9.IsWhole) (arg10 : Memref sig .tc .vmem S1x64 .f32) (harg10 : arg10.IsWhole) (arg11 : Memref sig .tc .vmem S1x64 .f32) (harg11 : arg11.IsWhole) (arg12 : Memref sig .tc .vmem S1x64 .f32) (harg12 : arg12.IsWhole) (arg13 : Memref sig .tc .vmem S1x64 .f32) (harg13 : arg13.IsWhole) (hc0 : ¬cond1_0 i) (hc1 : cond1_1 i)
    (x0 : Vec F S2000x64 .f32) (x1 : Vec F S2000x64 .f32) (x2 : Vec F S1x64 .f32) (x3 : Vec F S1x64 .f32) (x4 : Vec F S64x128 .f32) (x5 : Vec F S1x128 .f32) (x6 : Vec F S128x64 .f32) (x7 : Vec F S1x64 .f32) (xs0 : Vec F S1x64 .f32) (xs1 : Vec F S1x64 .f32) : Vec F S1x64 .f32 :=
  VO1_9.read (Elt F) (VO1_9.writes (Elt F) VO1_9.junk (kernelRun1_C (F := F) c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 xs0 xs1).2.1)

theorem cover1_C_10 (c : Dev nD) (i : grid1.Coords) (arg1 : Memref sig .tc .vmem S2000x64 .f32) (harg1 : arg1.IsWhole) (arg2 : Memref sig .tc .vmem S2000x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S64x128 .f32) (harg5 : arg5.IsWhole) (arg6 : Memref sig .tc .vmem S1x128 .f32) (harg6 : arg6.IsWhole) (arg7 : Memref sig .tc .vmem S128x64 .f32) (harg7 : arg7.IsWhole) (arg8 : Memref sig .tc .vmem S1x64 .f32) (harg8 : arg8.IsWhole) (arg9 : Memref sig .tc .vmem S2000x64 .f32) (harg9 : arg9.IsWhole) (arg10 : Memref sig .tc .vmem S1x64 .f32) (harg10 : arg10.IsWhole) (arg11 : Memref sig .tc .vmem S1x64 .f32) (harg11 : arg11.IsWhole) (arg12 : Memref sig .tc .vmem S1x64 .f32) (harg12 : arg12.IsWhole) (arg13 : Memref sig .tc .vmem S1x64 .f32) (harg13 : arg13.IsWhole) (hc0 : ¬cond1_0 i) (hc1 : cond1_1 i)
    (x0 : Vec F S2000x64 .f32) (x1 : Vec F S2000x64 .f32) (x2 : Vec F S1x64 .f32) (x3 : Vec F S1x64 .f32) (x4 : Vec F S64x128 .f32) (x5 : Vec F S1x128 .f32) (x6 : Vec F S128x64 .f32) (x7 : Vec F S1x64 .f32) (xs0 : Vec F S1x64 .f32) (xs1 : Vec F S1x64 .f32) (y : S1x64.Idx) :
    ∃ pc ∈ (kernelRun1_C (F := F) c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 xs0 xs1).2.2.1, y ∈ pc.1.set :=
  View.cover_of_tiledL (kernelRun1_C (F := F) c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 xs0 xs1).2.2.1 S1x64.size (by sl_kernel_rfl) y
def out1_C_10 (c : Dev nD) (i : grid1.Coords) (arg1 : Memref sig .tc .vmem S2000x64 .f32) (harg1 : arg1.IsWhole) (arg2 : Memref sig .tc .vmem S2000x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S64x128 .f32) (harg5 : arg5.IsWhole) (arg6 : Memref sig .tc .vmem S1x128 .f32) (harg6 : arg6.IsWhole) (arg7 : Memref sig .tc .vmem S128x64 .f32) (harg7 : arg7.IsWhole) (arg8 : Memref sig .tc .vmem S1x64 .f32) (harg8 : arg8.IsWhole) (arg9 : Memref sig .tc .vmem S2000x64 .f32) (harg9 : arg9.IsWhole) (arg10 : Memref sig .tc .vmem S1x64 .f32) (harg10 : arg10.IsWhole) (arg11 : Memref sig .tc .vmem S1x64 .f32) (harg11 : arg11.IsWhole) (arg12 : Memref sig .tc .vmem S1x64 .f32) (harg12 : arg12.IsWhole) (arg13 : Memref sig .tc .vmem S1x64 .f32) (harg13 : arg13.IsWhole) (hc0 : ¬cond1_0 i) (hc1 : cond1_1 i)
    (x0 : Vec F S2000x64 .f32) (x1 : Vec F S2000x64 .f32) (x2 : Vec F S1x64 .f32) (x3 : Vec F S1x64 .f32) (x4 : Vec F S64x128 .f32) (x5 : Vec F S1x128 .f32) (x6 : Vec F S128x64 .f32) (x7 : Vec F S1x64 .f32) (xs0 : Vec F S1x64 .f32) (xs1 : Vec F S1x64 .f32) : Vec F S1x64 .f32 :=
  VO1_10.read (Elt F) (VO1_10.writes (Elt F) VO1_10.junk (kernelRun1_C (F := F) c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 xs0 xs1).2.2.1)

theorem scover1_C_0 (c : Dev nD) (i : grid1.Coords) (arg1 : Memref sig .tc .vmem S2000x64 .f32) (harg1 : arg1.IsWhole) (arg2 : Memref sig .tc .vmem S2000x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S64x128 .f32) (harg5 : arg5.IsWhole) (arg6 : Memref sig .tc .vmem S1x128 .f32) (harg6 : arg6.IsWhole) (arg7 : Memref sig .tc .vmem S128x64 .f32) (harg7 : arg7.IsWhole) (arg8 : Memref sig .tc .vmem S1x64 .f32) (harg8 : arg8.IsWhole) (arg9 : Memref sig .tc .vmem S2000x64 .f32) (harg9 : arg9.IsWhole) (arg10 : Memref sig .tc .vmem S1x64 .f32) (harg10 : arg10.IsWhole) (arg11 : Memref sig .tc .vmem S1x64 .f32) (harg11 : arg11.IsWhole) (arg12 : Memref sig .tc .vmem S1x64 .f32) (harg12 : arg12.IsWhole) (arg13 : Memref sig .tc .vmem S1x64 .f32) (harg13 : arg13.IsWhole) (hc0 : ¬cond1_0 i) (hc1 : cond1_1 i)
    (x0 : Vec F S2000x64 .f32) (x1 : Vec F S2000x64 .f32) (x2 : Vec F S1x64 .f32) (x3 : Vec F S1x64 .f32) (x4 : Vec F S64x128 .f32) (x5 : Vec F S1x128 .f32) (x6 : Vec F S128x64 .f32) (x7 : Vec F S1x64 .f32) (xs0 : Vec F S1x64 .f32) (xs1 : Vec F S1x64 .f32) (y : S1x64.Idx) :
    ∃ pc ∈ (kernelRun1_C (F := F) c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 xs0 xs1).2.2.2.1, y ∈ pc.1.set :=
  View.cover_of_tiledL (kernelRun1_C (F := F) c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 xs0 xs1).2.2.2.1 S1x64.size (by sl_kernel_rfl) y
def sout1_C_0 (c : Dev nD) (i : grid1.Coords) (arg1 : Memref sig .tc .vmem S2000x64 .f32) (harg1 : arg1.IsWhole) (arg2 : Memref sig .tc .vmem S2000x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S64x128 .f32) (harg5 : arg5.IsWhole) (arg6 : Memref sig .tc .vmem S1x128 .f32) (harg6 : arg6.IsWhole) (arg7 : Memref sig .tc .vmem S128x64 .f32) (harg7 : arg7.IsWhole) (arg8 : Memref sig .tc .vmem S1x64 .f32) (harg8 : arg8.IsWhole) (arg9 : Memref sig .tc .vmem S2000x64 .f32) (harg9 : arg9.IsWhole) (arg10 : Memref sig .tc .vmem S1x64 .f32) (harg10 : arg10.IsWhole) (arg11 : Memref sig .tc .vmem S1x64 .f32) (harg11 : arg11.IsWhole) (arg12 : Memref sig .tc .vmem S1x64 .f32) (harg12 : arg12.IsWhole) (arg13 : Memref sig .tc .vmem S1x64 .f32) (harg13 : arg13.IsWhole) (hc0 : ¬cond1_0 i) (hc1 : cond1_1 i)
    (x0 : Vec F S2000x64 .f32) (x1 : Vec F S2000x64 .f32) (x2 : Vec F S1x64 .f32) (x3 : Vec F S1x64 .f32) (x4 : Vec F S64x128 .f32) (x5 : Vec F S1x128 .f32) (x6 : Vec F S128x64 .f32) (x7 : Vec F S1x64 .f32) (xs0 : Vec F S1x64 .f32) (xs1 : Vec F S1x64 .f32) : Vec F S1x64 .f32 :=
  VS1_0.read (Elt F) (VS1_0.writes (Elt F) VS1_0.junk (kernelRun1_C (F := F) c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 xs0 xs1).2.2.2.1)

theorem scover1_C_1 (c : Dev nD) (i : grid1.Coords) (arg1 : Memref sig .tc .vmem S2000x64 .f32) (harg1 : arg1.IsWhole) (arg2 : Memref sig .tc .vmem S2000x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S64x128 .f32) (harg5 : arg5.IsWhole) (arg6 : Memref sig .tc .vmem S1x128 .f32) (harg6 : arg6.IsWhole) (arg7 : Memref sig .tc .vmem S128x64 .f32) (harg7 : arg7.IsWhole) (arg8 : Memref sig .tc .vmem S1x64 .f32) (harg8 : arg8.IsWhole) (arg9 : Memref sig .tc .vmem S2000x64 .f32) (harg9 : arg9.IsWhole) (arg10 : Memref sig .tc .vmem S1x64 .f32) (harg10 : arg10.IsWhole) (arg11 : Memref sig .tc .vmem S1x64 .f32) (harg11 : arg11.IsWhole) (arg12 : Memref sig .tc .vmem S1x64 .f32) (harg12 : arg12.IsWhole) (arg13 : Memref sig .tc .vmem S1x64 .f32) (harg13 : arg13.IsWhole) (hc0 : ¬cond1_0 i) (hc1 : cond1_1 i)
    (x0 : Vec F S2000x64 .f32) (x1 : Vec F S2000x64 .f32) (x2 : Vec F S1x64 .f32) (x3 : Vec F S1x64 .f32) (x4 : Vec F S64x128 .f32) (x5 : Vec F S1x128 .f32) (x6 : Vec F S128x64 .f32) (x7 : Vec F S1x64 .f32) (xs0 : Vec F S1x64 .f32) (xs1 : Vec F S1x64 .f32) (y : S1x64.Idx) :
    ∃ pc ∈ (kernelRun1_C (F := F) c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 xs0 xs1).2.2.2.2.1, y ∈ pc.1.set :=
  View.cover_of_tiledL (kernelRun1_C (F := F) c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 xs0 xs1).2.2.2.2.1 S1x64.size (by sl_kernel_rfl) y
def sout1_C_1 (c : Dev nD) (i : grid1.Coords) (arg1 : Memref sig .tc .vmem S2000x64 .f32) (harg1 : arg1.IsWhole) (arg2 : Memref sig .tc .vmem S2000x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S64x128 .f32) (harg5 : arg5.IsWhole) (arg6 : Memref sig .tc .vmem S1x128 .f32) (harg6 : arg6.IsWhole) (arg7 : Memref sig .tc .vmem S128x64 .f32) (harg7 : arg7.IsWhole) (arg8 : Memref sig .tc .vmem S1x64 .f32) (harg8 : arg8.IsWhole) (arg9 : Memref sig .tc .vmem S2000x64 .f32) (harg9 : arg9.IsWhole) (arg10 : Memref sig .tc .vmem S1x64 .f32) (harg10 : arg10.IsWhole) (arg11 : Memref sig .tc .vmem S1x64 .f32) (harg11 : arg11.IsWhole) (arg12 : Memref sig .tc .vmem S1x64 .f32) (harg12 : arg12.IsWhole) (arg13 : Memref sig .tc .vmem S1x64 .f32) (harg13 : arg13.IsWhole) (hc0 : ¬cond1_0 i) (hc1 : cond1_1 i)
    (x0 : Vec F S2000x64 .f32) (x1 : Vec F S2000x64 .f32) (x2 : Vec F S1x64 .f32) (x3 : Vec F S1x64 .f32) (x4 : Vec F S64x128 .f32) (x5 : Vec F S1x128 .f32) (x6 : Vec F S128x64 .f32) (x7 : Vec F S1x64 .f32) (xs0 : Vec F S1x64 .f32) (xs1 : Vec F S1x64 .f32) : Vec F S1x64 .f32 :=
  VS1_1.read (Elt F) (VS1_1.writes (Elt F) VS1_1.junk (kernelRun1_C (F := F) c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 xs0 xs1).2.2.2.2.1)

/-! ## What the buffers hold after each point -/

/-- After a point: the three outputs' staging buffers and the two accumulators. -/
structure Outs1 (F : FTy → Type) [FloatOps F] where
  o8 : Vec F S2000x64 .f32
  o9 : Vec F S1x64 .f32
  o10 : Vec F S1x64 .f32
  s0 : Vec F S1x64 .f32
  s1 : Vec F S1x64 .f32

theorem hA1 (t : Fin cfg1.N) (h : t.val = 0) : cond1_0 (grid1.coords t) := (cond1_0_iff t).mpr h
theorem hnA1 (t : Fin cfg1.N) (h : t.val ≠ 0) : ¬cond1_0 (grid1.coords t) := fun h' => h ((cond1_0_iff t).mp h')
theorem hC1 (t : Fin cfg1.N) (h : t.val = 49) : cond1_1 (grid1.coords t) := (cond1_1_iff t).mpr h
theorem hnC1 (t : Fin cfg1.N) (h : t.val ≠ 49) : ¬cond1_1 (grid1.coords t) := fun h' => h ((cond1_1_iff t).mp h')

/-- The point's contents in case A. -/
def outA1 (c : Dev nD) (t : Fin cfg1.N) (hc0 : cond1_0 (grid1.coords t)) (hc1 : ¬cond1_1 (grid1.coords t)) : Outs1 F where
  o8 := out1_A_8 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) scM1_0 (Memref.isWhole_whole _) scM1_1 (Memref.isWhole_whole _) hc0 hc1 (iblk1 V c 0 t) (iblk1 V c 1 t) (iblk1 V c 2 t) (iblk1 V c 3 t) (iblk1 V c 4 t) (iblk1 V c 5 t) (iblk1 V c 6 t) (iblk1 V c 7 t)
  o9 := VO1_9.read (Elt F) VO1_9.junk
  o10 := VO1_10.read (Elt F) VO1_10.junk
  s0 := sout1_A_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) scM1_0 (Memref.isWhole_whole _) scM1_1 (Memref.isWhole_whole _) hc0 hc1 (iblk1 V c 0 t) (iblk1 V c 1 t) (iblk1 V c 2 t) (iblk1 V c 3 t) (iblk1 V c 4 t) (iblk1 V c 5 t) (iblk1 V c 6 t) (iblk1 V c 7 t)
  s1 := sout1_A_1 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) scM1_0 (Memref.isWhole_whole _) scM1_1 (Memref.isWhole_whole _) hc0 hc1 (iblk1 V c 0 t) (iblk1 V c 1 t) (iblk1 V c 2 t) (iblk1 V c 3 t) (iblk1 V c 4 t) (iblk1 V c 5 t) (iblk1 V c 6 t) (iblk1 V c 7 t)

/-- The point's contents in case B, over what the point before left in the accumulators. -/
def outB1 (c : Dev nD) (t : Fin cfg1.N) (hc0 : ¬cond1_0 (grid1.coords t)) (hc1 : ¬cond1_1 (grid1.coords t)) (p : Outs1 F) : Outs1 F where
  o8 := out1_B_8 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) scM1_0 (Memref.isWhole_whole _) scM1_1 (Memref.isWhole_whole _) hc0 hc1 (iblk1 V c 0 t) (iblk1 V c 1 t) (iblk1 V c 2 t) (iblk1 V c 3 t) (iblk1 V c 4 t) (iblk1 V c 5 t) (iblk1 V c 6 t) (iblk1 V c 7 t) p.s0 p.s1
  o9 := VO1_9.read (Elt F) VO1_9.junk
  o10 := VO1_10.read (Elt F) VO1_10.junk
  s0 := sout1_B_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) scM1_0 (Memref.isWhole_whole _) scM1_1 (Memref.isWhole_whole _) hc0 hc1 (iblk1 V c 0 t) (iblk1 V c 1 t) (iblk1 V c 2 t) (iblk1 V c 3 t) (iblk1 V c 4 t) (iblk1 V c 5 t) (iblk1 V c 6 t) (iblk1 V c 7 t) p.s0 p.s1
  s1 := sout1_B_1 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) scM1_0 (Memref.isWhole_whole _) scM1_1 (Memref.isWhole_whole _) hc0 hc1 (iblk1 V c 0 t) (iblk1 V c 1 t) (iblk1 V c 2 t) (iblk1 V c 3 t) (iblk1 V c 4 t) (iblk1 V c 5 t) (iblk1 V c 6 t) (iblk1 V c 7 t) p.s0 p.s1

/-- The point's contents in case C, over what the point before left in the accumulators. -/
def outC1 (c : Dev nD) (t : Fin cfg1.N) (hc0 : ¬cond1_0 (grid1.coords t)) (hc1 : cond1_1 (grid1.coords t)) (p : Outs1 F) : Outs1 F where
  o8 := out1_C_8 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) scM1_0 (Memref.isWhole_whole _) scM1_1 (Memref.isWhole_whole _) hc0 hc1 (iblk1 V c 0 t) (iblk1 V c 1 t) (iblk1 V c 2 t) (iblk1 V c 3 t) (iblk1 V c 4 t) (iblk1 V c 5 t) (iblk1 V c 6 t) (iblk1 V c 7 t) p.s0 p.s1
  o9 := out1_C_9 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) scM1_0 (Memref.isWhole_whole _) scM1_1 (Memref.isWhole_whole _) hc0 hc1 (iblk1 V c 0 t) (iblk1 V c 1 t) (iblk1 V c 2 t) (iblk1 V c 3 t) (iblk1 V c 4 t) (iblk1 V c 5 t) (iblk1 V c 6 t) (iblk1 V c 7 t) p.s0 p.s1
  o10 := out1_C_10 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) scM1_0 (Memref.isWhole_whole _) scM1_1 (Memref.isWhole_whole _) hc0 hc1 (iblk1 V c 0 t) (iblk1 V c 1 t) (iblk1 V c 2 t) (iblk1 V c 3 t) (iblk1 V c 4 t) (iblk1 V c 5 t) (iblk1 V c 6 t) (iblk1 V c 7 t) p.s0 p.s1
  s0 := sout1_C_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) scM1_0 (Memref.isWhole_whole _) scM1_1 (Memref.isWhole_whole _) hc0 hc1 (iblk1 V c 0 t) (iblk1 V c 1 t) (iblk1 V c 2 t) (iblk1 V c 3 t) (iblk1 V c 4 t) (iblk1 V c 5 t) (iblk1 V c 6 t) (iblk1 V c 7 t) p.s0 p.s1
  s1 := sout1_C_1 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) scM1_0 (Memref.isWhole_whole _) scM1_1 (Memref.isWhole_whole _) hc0 hc1 (iblk1 V c 0 t) (iblk1 V c 1 t) (iblk1 V c 2 t) (iblk1 V c 3 t) (iblk1 V c 4 t) (iblk1 V c 5 t) (iblk1 V c 6 t) (iblk1 V c 7 t) p.s0 p.s1

/-- THE ACCUMULATION: the first point runs from accumulators at anything, every later one from what the point before left. -/
def outsAt1 (c : Dev nD) : (n : ℕ) → n < cfg1.N → Outs1 F
  | 0, hn => outA1 V c ⟨0, hn⟩ (hA1 ⟨0, hn⟩ rfl) (hnC1 ⟨0, hn⟩ (fun h => absurd (show (0 : ℕ) = 49 from h) (by decide)))
  | n + 1, hn =>
    if h : n + 1 = 49 then
      outC1 V c ⟨n + 1, hn⟩ (hnA1 ⟨n + 1, hn⟩ (Nat.succ_ne_zero n)) (hC1 ⟨n + 1, hn⟩ h) (outsAt1 c n (Nat.lt_of_succ_lt hn))
    else
      outB1 V c ⟨n + 1, hn⟩ (hnA1 ⟨n + 1, hn⟩ (Nat.succ_ne_zero n)) (hnC1 ⟨n + 1, hn⟩ h) (outsAt1 c n (Nat.lt_of_succ_lt hn))

theorem outsAt1_first (c : Dev nD) (t : Fin cfg1.N) (h0 : t.val = 0) (h1 : t.val ≠ 49) :
    outsAt1 V c t.val t.isLt = outA1 V c t (hA1 t h0) (hnC1 t h1) := by
  obtain ⟨n, hn⟩ := t
  cases n with
  | zero => rfl
  | succ n => exact absurd h0 (Nat.succ_ne_zero n)
theorem outsAt1_mid (c : Dev nD) (t : Fin cfg1.N) (h0 : t.val ≠ 0) (h1 : t.val ≠ 49) :
    outsAt1 V c t.val t.isLt = outB1 V c t (hnA1 t h0) (hnC1 t h1) (outsAt1 V c (t.val - 1) (Nat.lt_of_le_of_lt (Nat.sub_le _ _) t.isLt)) := by
  obtain ⟨n, hn⟩ := t
  cases n with
  | zero => exact absurd rfl h0
  | succ n => exact (dif_neg h1).trans rfl
theorem outsAt1_last (c : Dev nD) (t : Fin cfg1.N) (h0 : t.val ≠ 0) (h1 : t.val = 49) :
    outsAt1 V c t.val t.isLt = outC1 V c t (hnA1 t h0) (hC1 t h1) (outsAt1 V c (t.val - 1) (Nat.lt_of_le_of_lt (Nat.sub_le _ _) t.isLt)) := by
  obtain ⟨n, hn⟩ := t
  cases n with
  | zero => exact absurd rfl h0
  | succ n => exact (dif_pos h1).trans rfl

/-- The region's invariant before position `n`. -/
def PhiS1 (c : Dev nD) : (n : ℕ) → n ≤ cfg1.N → sProp 𝕄
  | 0, _ => Pipeline.ΦA spec1 c
  | n + 1, hn => iprop(iprop(iprop(owns (c : Thread nD τ) scM1_0 fullShare ((outsAt1 V c n hn).s0) ∗ owns (c : Thread nD τ) scM1_1 fullShare ((outsAt1 V c n hn).s1)) ∗ rest1 (F := F) c) ∗ (∃ r, prngReg c r))

theorem PhiS1_zero (c : Dev nD) (n : ℕ) (h : n ≤ cfg1.N) (hz : n = 0) : PhiS1 V c n h = Pipeline.ΦA spec1 c := by
  subst hz; rfl
theorem PhiS1_succ (c : Dev nD) (n : ℕ) (hn : n < cfg1.N) :
    PhiS1 V c (n + 1) hn = iprop(iprop(iprop(owns (c : Thread nD τ) scM1_0 fullShare ((outsAt1 V c n hn).s0) ∗ owns (c : Thread nD τ) scM1_1 fullShare ((outsAt1 V c n hn).s1)) ∗ rest1 (F := F) c) ∗ (∃ r, prngReg c r)) := rfl
theorem PhiS1_pos (c : Dev nD) (n : ℕ) (h : n ≤ cfg1.N) (hz : n ≠ 0) :
    PhiS1 V c n h = iprop(iprop(iprop(owns (c : Thread nD τ) scM1_0 fullShare ((outsAt1 V c (n - 1) (by omega)).s0) ∗ owns (c : Thread nD τ) scM1_1 fullShare ((outsAt1 V c (n - 1) (by omega)).s1)) ∗ rest1 (F := F) c) ∗ (∃ r, prngReg c r)) := by
  cases n with
  | zero => exact absurd rfl hz
  | succ n => rfl

/-! ## The pipeline's proof data -/

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => (outsAt1 V c t.val t.isLt).o8
    | ⟨9, _⟩ => (outsAt1 V c t.val t.isLt).o9
    | ⟨10, _⟩ => (outsAt1 V c t.val t.isLt).o10
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem PhiS1_castSucc (c : Dev nD) (t : Fin cfg1.N) :
    (dat1 V c).Φ t.castSucc = PhiS1 V c t.val (Nat.le_of_lt t.isLt) := by
  dsimp only [dat1]; simp only [Fin.coe_castSucc]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t = (outsAt1 V c t.val t.isLt).o8 := by dsimp only [dat1]
theorem after1_9 (c : Dev nD) (t : Fin cfg1.N) : (dat1 V c).after 9 t = (outsAt1 V c t.val t.isLt).o9 := by dsimp only [dat1]
theorem after1_10 (c : Dev nD) (t : Fin cfg1.N) : (dat1 V c).after 10 t = (outsAt1 V c t.val t.isLt).o10 := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d
theorem before1_7 (c : Dev nD) (t : Fin cfg1.N) (d) : (dat1 V c).before 7 t d = iblk1 V c 7 t :=
  before1_7_of V (dat1 V c) (A_eq1 V c 7) (after1_7 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d))
    ∗ (∃ d, owns (c : Thread nD τ) (ms1_7 t) fullShare ((dat1 V c).before 7 t d))
    ∗ (∃ d, owns (c : Thread nD τ) (ms1_8 t) fullShare ((dat1 V c).before 8 t d))
    ∗ (∃ d, owns (c : Thread nD τ) (ms1_9 t) fullShare ((dat1 V c).before 9 t d))
    ∗ (∃ d, owns (c : Thread nD τ) (ms1_10 t) fullShare ((dat1 V c).before 10 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t
    ∗ (dat1 V c).leavesExact 7 t
    ∗ (dat1 V c).leavesExact 8 t
    ∗ (dat1 V c).leavesExact 9 t
    ∗ (dat1 V c).leavesExact 10 t)

set_option maxHeartbeats 8000000 in
/-- The body at any point: which case the point is in is decided by its position; the invariant hands the body the
    accumulators (at anything at the first point, at the previous point's contents afterwards) and takes them back at this
    point's contents; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7]
  rw [show (dat1 V c).owesAt () t.succ = (dat1 V c).owesAt () t.castSucc from rfl]
  rw [show (dat1 V c).Φ t.succ = PhiS1 V c (t.val + 1) t.isLt from rfl, PhiS1_succ]
  have hN : t.val < 50 := lt_of_lt_of_eq t.isLt (show cfg1.N = 50 from N_1)
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  rw [show (dat1 V c).leavesExact 3 t = owns (c : Thread nD τ) (ms1_3 t) fullShare ((dat1 V c).after 3 t) from by
    unfold Dat.leavesExact; rw [liveAt1_3 t], after1_3]
  rw [show (dat1 V c).leavesExact 4 t = owns (c : Thread nD τ) (ms1_4 t) fullShare ((dat1 V c).after 4 t) from by
    unfold Dat.leavesExact; rw [liveAt1_4 t], after1_4]
  rw [show (dat1 V c).leavesExact 5 t = owns (c : Thread nD τ) (ms1_5 t) fullShare ((dat1 V c).after 5 t) from by
    unfold Dat.leavesExact; rw [liveAt1_5 t], after1_5]
  rw [show (dat1 V c).leavesExact 6 t = owns (c : Thread nD τ) (ms1_6 t) fullShare ((dat1 V c).after 6 t) from by
    unfold Dat.leavesExact; rw [liveAt1_6 t], after1_6]
  rw [show (dat1 V c).leavesExact 7 t = owns (c : Thread nD τ) (ms1_7 t) fullShare ((dat1 V c).after 7 t) from by
    unfold Dat.leavesExact; rw [liveAt1_7 t], after1_7]
  rw [show (dat1 V c).leavesExact 8 t = owns (c : Thread nD τ) (ms1_8 t) fullShare ((dat1 V c).after 8 t) from by
    unfold Dat.leavesExact; rw [liveAt1_8 t], after1_8]
  by_cases h0 : t.val = 0
  · have h1 : t.val ≠ 49 := by omega
    rw [Dat.leavesExact_idle (dat1 V c) 9 t (idleAt1_9 t (hnC1 t h1)) (noFlush1_9 t (hnC1 t h1))]
    rw [Dat.leavesExact_idle (dat1 V c) 10 t (idleAt1_10 t (hnC1 t h1)) (noFlush1_10 t (hnC1 t h1))]
    rw [outsAt1_first V c t h0 h1]
    unfold outA1; dsimp only
    unfold out1_A_8 sout1_A_0 sout1_A_1
    rw [PhiS1_castSucc V c t, PhiS1_zero V c _ _ h0, PhiA1_eq]
    iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
    iapply ((kernelRun1_A (F := F) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) scM1_0 (Memref.isWhole_whole _) scM1_1 (Memref.isWhole_whole _) (hA1 t h0) (hnC1 t h1) (iblk1 V c 0 t) (iblk1 V c 1 t) (iblk1 V c 2 t) (iblk1 V c 3 t) (iblk1 V c 4 t) (iblk1 V c 5 t) (iblk1 V c 6 t) (iblk1 V c 7 t)).2.2.2 _ _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [H9]; · iexact H9
    isplitl [H10]; · iexact H10
    isplitl [HS0]; · iexact HS0
    isplitl [HS1]; · iexact HS1
    iintro ⟨H0, H1, H2, H3, H4, H5, H6, H7, ⟨%e8, H8⟩, H9, H10, ⟨%es0, HS0⟩, ⟨%es1, HS1⟩⟩
    isplitl [HS0 HS1 Hrest Hg]
    · isplitl [HS0 HS1 Hrest]
      · isplitl [HS0 HS1]
        · isplitl [HS0]
          · unfold owns; iexists _; isplitr
            swap; · iexact HS0
            ipureintro; exact View.read_writes_of_cover _ _ _ _ _ (scover1_A_0 c _ _ _ _ _ _ _ _ _ _ _ _ _ _ _ _ _ _ _ _ _ _ _ _ _ _ _ _ _ _ _ _ _ _ _ _ _)
          unfold owns; iexists _; isplitr
          swap; · iexact HS1
          ipureintro; exact View.read_writes_of_cover _ _ _ _ _ (scover1_A_1 c _ _ _ _ _ _ _ _ _ _ _ _ _ _ _ _ _ _ _ _ _ _ _ _ _ _ _ _ _ _ _ _ _ _ _ _ _)
        iexact Hrest
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]
    · unfold owns; iexists _; isplitr
      swap; · iexact H8
      ipureintro; exact View.read_writes_of_cover _ _ _ _ _ (cover1_A_8 c _ _ _ _ _ _ _ _ _ _ _ _ _ _ _ _ _ _ _ _ _ _ _ _ _ _ _ _ _ _ _ _ _ _ _ _ _)
    isplitl [H9]; · iexists _; iexact H9
    iexists _; iexact H10
  · by_cases h1 : t.val = 49
    rw [show (dat1 V c).leavesExact 9 t = owns (c : Thread nD τ) (ms1_9 t) fullShare ((dat1 V c).after 9 t) from by
      unfold Dat.leavesExact; rw [liveAt1_9_C t (hC1 t h1)], after1_9]
    rw [show (dat1 V c).leavesExact 10 t = owns (c : Thread nD τ) (ms1_10 t) fullShare ((dat1 V c).after 10 t) from by
      unfold Dat.leavesExact; rw [liveAt1_10_C t (hC1 t h1)], after1_10]
    rw [outsAt1_last V c t h0 h1]
    unfold outC1; dsimp only
    unfold out1_C_8 out1_C_9 out1_C_10 sout1_C_0 sout1_C_1
    rw [PhiS1_castSucc V c t, PhiS1_pos V c _ _ h0]
    iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
    iapply ((kernelRun1_C (F := F) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) scM1_0 (Memref.isWhole_whole _) scM1_1 (Memref.isWhole_whole _) (hnA1 t h0) (hC1 t h1) (iblk1 V c 0 t) (iblk1 V c 1 t) (iblk1 V c 2 t) (iblk1 V c 3 t) (iblk1 V c 4 t) (iblk1 V c 5 t) (iblk1 V c 6 t) (iblk1 V c 7 t) _ _).2.2.2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [H9]; · iexists _; iexact H9
    isplitl [H10]; · iexists _; iexact H10
    isplitl [HS0]; · iexact HS0
    isplitl [HS1]; · iexact HS1
    iintro ⟨H0, H1, H2, H3, H4, H5, H6, H7, ⟨%e8, H8⟩, ⟨%e9, H9⟩, ⟨%e10, H10⟩, ⟨%es0, HS0⟩, ⟨%es1, HS1⟩⟩
    isplitl [HS0 HS1 Hrest Hg]
    · isplitl [HS0 HS1 Hrest]
      · isplitl [HS0 HS1]
        · isplitl [HS0]
          · unfold owns; iexists _; isplitr
            swap; · iexact HS0
            ipureintro; exact View.read_writes_of_cover _ _ _ _ _ (scover1_C_0 c _ _ _ _ _ _ _ _ _ _ _ _ _ _ _ _ _ _ _ _ _ _ _ _ _ _ _ _ _ _ _ _ _ _ _ _ _ _ _)
          unfold owns; iexists _; isplitr
          swap; · iexact HS1
          ipureintro; exact View.read_writes_of_cover _ _ _ _ _ (scover1_C_1 c _ _ _ _ _ _ _ _ _ _ _ _ _ _ _ _ _ _ _ _ _ _ _ _ _ _ _ _ _ _ _ _ _ _ _ _ _ _ _)
        iexact Hrest
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]
    · unfold owns; iexists _; isplitr
      swap; · iexact H8
      ipureintro; exact View.read_writes_of_cover _ _ _ _ _ (cover1_C_8 c _ _ _ _ _ _ _ _ _ _ _ _ _ _ _ _ _ _ _ _ _ _ _ _ _ _ _ _ _ _ _ _ _ _ _ _ _ _ _)
    isplitl [H9]
    · unfold owns; iexists _; isplitr
      swap; · iexact H9
      ipureintro; exact View.read_writes_of_cover _ _ _ _ _ (cover1_C_9 c _ _ _ _ _ _ _ _ _ _ _ _ _ _ _ _ _ _ _ _ _ _ _ _ _ _ _ _ _ _ _ _ _ _ _ _ _ _ _)
    unfold owns; iexists _; isplitr
    swap; · iexact H10
    ipureintro; exact View.read_writes_of_cover _ _ _ _ _ (cover1_C_10 c _ _ _ _ _ _ _ _ _ _ _ _ _ _ _ _ _ _ _ _ _ _ _ _ _ _ _ _ _ _ _ _ _ _ _ _ _ _ _)
    rw [Dat.leavesExact_idle (dat1 V c) 9 t (idleAt1_9 t (hnC1 t h1)) (noFlush1_9 t (hnC1 t h1))]
    rw [Dat.leavesExact_idle (dat1 V c) 10 t (idleAt1_10 t (hnC1 t h1)) (noFlush1_10 t (hnC1 t h1))]
    rw [outsAt1_mid V c t h0 h1]
    unfold outB1; dsimp only
    unfold out1_B_8 sout1_B_0 sout1_B_1
    rw [PhiS1_castSucc V c t, PhiS1_pos V c _ _ h0]
    iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
    iapply ((kernelRun1_B (F := F) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) scM1_0 (Memref.isWhole_whole _) scM1_1 (Memref.isWhole_whole _) (hnA1 t h0) (hnC1 t h1) (iblk1 V c 0 t) (iblk1 V c 1 t) (iblk1 V c 2 t) (iblk1 V c 3 t) (iblk1 V c 4 t) (iblk1 V c 5 t) (iblk1 V c 6 t) (iblk1 V c 7 t) _ _).2.2.2 _ _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [H9]; · iexact H9
    isplitl [H10]; · iexact H10
    isplitl [HS0]; · iexact HS0
    isplitl [HS1]; · iexact HS1
    iintro ⟨H0, H1, H2, H3, H4, H5, H6, H7, ⟨%e8, H8⟩, H9, H10, ⟨%es0, HS0⟩, ⟨%es1, HS1⟩⟩
    isplitl [HS0 HS1 Hrest Hg]
    · isplitl [HS0 HS1 Hrest]
      · isplitl [HS0 HS1]
        · isplitl [HS0]
          · unfold owns; iexists _; isplitr
            swap; · iexact HS0
            ipureintro; exact View.read_writes_of_cover _ _ _ _ _ (scover1_B_0 c _ _ _ _ _ _ _ _ _ _ _ _ _ _ _ _ _ _ _ _ _ _ _ _ _ _ _ _ _ _ _ _ _ _ _ _ _ _ _)
          unfold owns; iexists _; isplitr
          swap; · iexact HS1
          ipureintro; exact View.read_writes_of_cover _ _ _ _ _ (scover1_B_1 c _ _ _ _ _ _ _ _ _ _ _ _ _ _ _ _ _ _ _ _ _ _ _ _ _ _ _ _ _ _ _ _ _ _ _ _ _ _ _)
        iexact Hrest
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]
    · unfold owns; iexists _; isplitr
      swap; · iexact H8
      ipureintro; exact View.read_writes_of_cover _ _ _ _ _ (cover1_B_8 c _ _ _ _ _ _ _ _ _ _ _ _ _ _ _ _ _ _ _ _ _ _ _ _ _ _ _ _ _ _ _ _ _ _ _ _ _ _ _)
    isplitl [H9]; · iexists _; iexact H9
    iexists _; iexact H10

/-- The library's body obligation, at every point. -/
theorem body_obligation1 (c : Dev nD) : BodyObligation (dat1 (F := F) V c) (defs₀ (F := F)) Variants.none () Set.univ := fun t => by
  rw [bigSep_W1, bigSep_W1]
  exact sound_body1 V c t

theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point but the first the invariant gives the class's back: the accumulators' contents are forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨⟨HS0, HS1⟩, Hrest⟩, Hg⟩
  isplitl [HS0 HS1 Hrest]
  · isplitl [HS0 HS1]
    · isplitl [HS0]; · iexists _; iexact HS0
      iexists _; iexact HS1
    iexact Hrest
  iexact Hg
theorem hout1 (c : Dev nD) : (dat1 V c).Φ (Fin.last cfg1.N) ⊢ Pipeline.ΦA spec1 c :=
  Phi_out1 V c _ (by rw [Fin.val_last]; have : cfg1.N = 50 := N_1; omega)

end Cert.KernelIdeal.Hand

end
-- ==== Proof.KernelIdealR2Frame.lean ====
/- Region 2 of @main (the pallas_call of `cc2__bn2_kernel`): one store of the whole output block, a pointwise function of
   the three input blocks; no scratch, no conditional. At the contents `V` the region is entered with: a window's block
   at a point, what the body leaves in the output's staging buffer, the body's triple, the proof data and the obligation. -/
import proofs.«149204_j28372553957731_2_alg».proof.Proof.KernelIdealLaunchP
import proofs.«149204_j28372553957731_2_alg».proof.Proof.Gen.KernelIdeal.Skeleton
import proofs.«149204_j28372553957731_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
abbrev r2_S10000x64 : Rect S10000x64 := Rect.unit (s := S10000x64) ![0, 0] S10000x64.size inb_S10000x64_S10000x64_0_0
abbrev r2_S1x64 : Rect S1x64 := Rect.unit (s := S1x64) ![0, 0] S1x64.size inb_S1x64_S1x64_0_0

/-- The output's staging buffer after the body: its one store, of the payload of the three loaded blocks. -/
def out2_3 (x0 : Vec F S10000x64 .f32) (x1 : Vec F S1x64 .f32) (x2 : Vec F S1x64 .f32) : Vec F S10000x64 .f32 :=
  View.canon [⟨r2_S10000x64, k2_pay1 (View.ld x0 r2_S10000x64) (View.ld x1 r2_S1x64) (View.ld x2 r2_S1x64)⟩]

theorem cover2_3 (p0 : Vec F S10000x64 .f32) (y : S10000x64.Idx) :
    ∃ pc ∈ ([⟨r2_S10000x64, p0⟩] : List (View.Piece (Elt F) S10000x64 .f32)), y ∈ pc.1.set :=
  View.cover_of_tiled [⟨r2_S10000x64, p0⟩] S10000x64.size (by rfl) y

set_option maxHeartbeats 1000000 in
theorem sound_kernel2 (c : Dev nD) (E : Set ℕ) (i : grid2.Coords) (arg1 : Memref sig .tc .vmem S10000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S10000x64 .f32) (harg4 : arg4.IsWhole)
    (x0 : Vec F S10000x64 .f32) (x1 : Vec F S1x64 .f32) (x2 : Vec F S1x64 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out2_3 x0 x1 x2)) -∗ K ⟨⟩))
      ⊢ wp frame (wpE (defs₀ (F := F)) Variants.none c none) E (cc2__bn2_kernel i arg1 harg1 arg2 harg2 arg3 harg3 arg4 harg4) K := by
  simp only [cc2__bn2_kernel_eq_skeleton]; unfold cc2__bn2_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover2_3 _)

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Pipeline.ΦA spec2 c
  q _ := fullShare
  owed _ := 0

theorem A_eq2 (c : Dev nD) (w : Fin cfg2.W) : (dat2 V c).A w = V c (Pipeline.arrRef spec2 w) := by
  dsimp only [dat2]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = out2_3 (iblk2 V c 0 t) (iblk2 V c 1 t) (iblk2 V c 2 t) := by dsimp only [dat2]
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ _ _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.KernelIdealRun.lean ====
/- @main as a run of six segments — three stretches of host operations and the three pallas_calls between them — from
   the launch to the return. The contents of the core's unscoped buffers at each boundary are a fold from the launch
   memory: a host stretch applies its operations; a region leaves each of its arrays at what its pipeline's write-backs
   make of it and every other buffer as it found it. Each region is entered from "every unscoped buffer at the boundary's
   contents, the generator register at some state, nothing owed" and left at the same with the next contents. The run's
   post says that every unscoped buffer ends at the last boundary's contents: the arguments (never written) and the result. -/
import proofs.«149204_j28372553957731_2_alg».proof.Proof.KernelIdealR0Frame
import proofs.«149204_j28372553957731_2_alg».proof.Proof.KernelIdealR1Frame
import proofs.«149204_j28372553957731_2_alg».proof.Proof.KernelIdealR2Frame

set_option maxRecDepth 16384

noncomputable section

namespace Cert.KernelIdeal.Hand

open Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

abbrev W0 : Dev nD → Valuation τ sig (Elt F) := fun c b => (s₀ m ρ).mem ((c : Dev nD), b)
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

abbrev W5 : Dev nD → Valuation τ sig (Elt F) := fun c => StableHlo.after hostOps2 (W4 m ρ c)
abbrev V5 : (c : Dev nD) → (b : Ref sig .tc) → Buf (Elt F) ((c : Thread nD τ).loc b) := fun c b => W5 m ρ c b
def W6 (c : Dev nD) : Valuation τ sig (Elt F) :=
  Pipeline.withArrays spec2 c (W5 m ρ c) fun w => (dat2 (V5 m ρ) c).arrAt w cfg2.N
theorem W6_arr (c : Dev nD) (w : Fin cfg2.W) :
    W6 m ρ c (Proc.devRef .tc (Pipeline.arrRef spec2 w)) = (dat2 (V5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
abbrev V6 : (c : Dev nD) → (b : Ref sig .tc) → Buf (Elt F) ((c : Thread nD τ).loc b) := fun c b => W6 m ρ c b
theorem hF2 (c : Dev nD) (w : Fin cfg2.W) : (dat2 (V5 m ρ) c).arrAt w cfg2.N = V6 m ρ c (Pipeline.arrRef spec2 w) :=
  (W6_arr m ρ c w).symm
theorem hrest2 (c : Dev nD) : ∀ b, b ∉ Finset.univ.image (Pipeline.arrRef spec2) → V6 m ρ c b = V5 m ρ c b :=
  fun b hb => W6_of_ne m ρ c b fun w e => hb (Finset.mem_image.mpr ⟨w, Finset.mem_univ _, e⟩)

/-! ## The proof data family and the thread state -/

abbrev adm : (p : Fin 3) → (pcfgs (F := F) p).Adm := fun p => (cfgs p).toPCfg_adm
/-- Every pipeline's proof data, each at its region's entry contents (a literal match on the pipeline's number). -/
def pdats : (p : Fin 3) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V5 m ρ) c
abbrev 𝒱₀ : Variants := Variants.none
abbrev L : GSem nD τ sig → Finset Unit := fun _ => ∅
abbrev lv : GSem nD τ sig → Unit → ℕ := fun _ _ => 0
/-- What rides beside the buffers through every segment: the generator register at some state and the core owing nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps2_fresh : (hostOps2 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W6 m ρ c) ∗ ∃ r, prngReg c r)

/-! ## The regions as segments -/

set_option backward.isDefEq.respectTransparency.types false in
/-- Region 0: entered from every unscoped buffer at `W1`, left at `W2`. Its arrays are split out of the
    unscoped buffers and put back at the exit contents; the generator register goes into the region's invariant and
    comes back; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none]
    have h2 : (Pipeline.ΦA spec0 c : sProp 𝕄) ⊢ iprop((∃ r, prngReg c r) ∗ (BI.emp : sProp 𝕄)
        ∗ Pipeline.scopedRest (Ix := Unit) (Name := ℕ) (U := UR sig nD τ) (Lvl := ℕ) (Val := Elt F) spec0 c) := by
      unfold Pipeline.ΦA
      iintro ⟨Hr, Hp⟩
      isplitl [Hp]; · iexact Hp
      isplitr; · iempintro
      iexact Hr
    exact (hout0 (V1 m ρ) c).trans h2
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1: entered from every unscoped buffer at `W3`, left at `W4`. Its arrays are split out of the
    unscoped buffers and put back at the exit contents; the generator register goes into the region's invariant and
    comes back; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none]
    have h2 : (Pipeline.ΦA spec1 c : sProp 𝕄) ⊢ iprop((∃ r, prngReg c r) ∗ (BI.emp : sProp 𝕄)
        ∗ Pipeline.scopedRest (Ix := Unit) (Name := ℕ) (U := UR sig nD τ) (Lvl := ℕ) (Val := Elt F) spec1 c) := by
      unfold Pipeline.ΦA
      iintro ⟨Hr, Hp⟩
      isplitl [Hp]; · iexact Hp
      isplitr; · iempintro
      iexact Hr
    exact (hout1 (V3 m ρ) c).trans h2
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2: entered from every unscoped buffer at `W5`, left at `W6`. Its arrays are split out of the
    unscoped buffers and put back at the exit contents; the generator register goes into the region's invariant and
    comes back; nothing is owed; the kernel has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (V5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V5 m ρ c) (V6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the run -/

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ) ]
theorem main_run (c : Dev nD) : main (F := F) c = Pipeline.Seg.run (segs m ρ) := (main_chain c).trans (by chain_rfl)

set_option backward.isDefEq.respectTransparency.types false in
/-- THE RUN: from any memory with zero counters every weakly fair execution of @main terminates, nothing faulting, and in
    every final state each unscoped buffer of each core holds the last boundary's contents `W6`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W6 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h => h)

end Cert.KernelIdeal.Hand

end
-- ==== Proof.KernelIdealKept.lean ====
/- The argument arrays end as launched. No host operation writes an argument (each writes its own result buffer), and a
   region either does not touch it or stages it through an input window, whose array the pipeline leaves as it found it;
   so the last boundary's contents at an argument walk back, boundary by boundary, to the launch memory. -/
import proofs.«149204_j28372553957731_2_alg».proof.Proof.KernelIdealRun

set_option maxRecDepth 16384

noncomputable section

namespace Cert.KernelIdeal.Hand

open Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The buffers host stretch 0 writes. -/
abbrev hostOps0_W : List (Ref sig .tc) := [main_v0, main_v1, main_v2, main_v3, main_c, main_v4, main_v5, main_c_0, main_v6, main_v7, main_v8, main_v9, main_v10, main_cst, main_v11, main_v12, main_v13, main_v14, main_v15, main_v16]
theorem hostOps0_writes : (hostOps0 : List (HloOp τ sig (Elt F))).Forall fun op => op.writes ⊆ (hostOps0_W.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_⟩ <;>
    (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
/-- An input window's array leaves region 0 as it entered. -/
theorem W2_in (c : Dev nD) (w : Fin cfg0.W) (hw : (cfg0.win w).isOut = false) :
    W2 m ρ c (Proc.devRef .tc (Pipeline.arrRef spec0 w)) = W1 m ρ c (Proc.devRef .tc (Pipeline.arrRef spec0 w)) :=
  (W2_arr m ρ c w).trans (((dat0 (V1 m ρ) c).arrAt_in w hw _).trans (A_eq0 (V1 m ρ) c w))

/-- The buffers host stretch 1 writes. -/
abbrev hostOps1_W : List (Ref sig .tc) := [main_cst_1, main_v18, main_v19, main_cst_2, main_v20, main_v21, main_v22, main_v23, main_cst_3, main_v24, main_v25, main_v26, main_cst_4, main_v27, main_v28, main_v29, main_v30, main_v31, main_v32, main_v33]
theorem hostOps1_writes : (hostOps1 : List (HloOp τ sig (Elt F))).Forall fun op => op.writes ⊆ (hostOps1_W.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_⟩ <;>
    (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
theorem W3_of (c : Dev nD) (r : Ref sig .tc) (h : r ∉ hostOps1_W) : W3 m ρ c (Proc.devRef .tc r) = W2 m ρ c (Proc.devRef .tc r) :=
  StableHlo.after_of_writes_sub hostOps1 _ hostOps1_writes h
/-- An input window's array leaves region 1 as it entered. -/
theorem W4_in (c : Dev nD) (w : Fin cfg1.W) (hw : (cfg1.win w).isOut = false) :
    W4 m ρ c (Proc.devRef .tc (Pipeline.arrRef spec1 w)) = W3 m ρ c (Proc.devRef .tc (Pipeline.arrRef spec1 w)) :=
  (W4_arr m ρ c w).trans (((dat1 (V3 m ρ) c).arrAt_in w hw _).trans (A_eq1 (V3 m ρ) c w))

/-- The buffers host stretch 2 writes. -/
abbrev hostOps2_W : List (Ref sig .tc) := [main_cst_5, main_v35, main_v36, main_cst_6, main_v37, main_v38, main_v39, main_v40, main_cst_7, main_v41, main_v42, main_v43, main_cst_8, main_v44, main_v45, main_v46, main_v47, main_v48, main_v49, main_v50]
theorem hostOps2_writes : (hostOps2 : List (HloOp τ sig (Elt F))).Forall fun op => op.writes ⊆ (hostOps2_W.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_⟩ <;>
    (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
theorem W5_of (c : Dev nD) (r : Ref sig .tc) (h : r ∉ hostOps2_W) : W5 m ρ c (Proc.devRef .tc r) = W4 m ρ c (Proc.devRef .tc r) :=
  StableHlo.after_of_writes_sub hostOps2 _ hostOps2_writes h
/-- An input window's array leaves region 2 as it entered. -/
theorem W6_in (c : Dev nD) (w : Fin cfg2.W) (hw : (cfg2.win w).isOut = false) :
    W6 m ρ c (Proc.devRef .tc (Pipeline.arrRef spec2 w)) = W5 m ρ c (Proc.devRef .tc (Pipeline.arrRef spec2 w)) :=
  (W6_arr m ρ c w).trans (((dat2 (V5 m ρ) c).arrAt_in w hw _).trans (A_eq2 (V5 m ρ) c w))

theorem kept_arg0 (c : Dev nD) : W6 m ρ c (Proc.devRef .tc main_arg0) = m ((c : Thread nD τ).loc main_arg0) :=
  (W6_of_ne m ρ c main_arg0 (by decide)).trans <| (W5_of m ρ c main_arg0 (by decide)).trans <| (W4_in m ρ c 1 rfl).trans <| (W3_of m ρ c main_arg0 (by decide)).trans <|
    (W2_in m ρ c 0 rfl).trans <| (W1_of m ρ c main_arg0 (by decide)).trans rfl
theorem kept_arg1 (c : Dev nD) : W6 m ρ c (Proc.devRef .tc main_arg1) = m ((c : Thread nD τ).loc main_arg1) :=
  (W6_of_ne m ρ c main_arg1 (by decide)).trans <| (W5_of m ρ c main_arg1 (by decide)).trans <| (W4_of_ne m ρ c main_arg1 (by decide)).trans <| (W3_of m ρ c main_arg1 (by decide)).trans <|
    (W2_of_ne m ρ c main_arg1 (by decide)).trans <| (W1_of m ρ c main_arg1 (by decide)).trans rfl
theorem kept_arg2 (c : Dev nD) : W6 m ρ c (Proc.devRef .tc main_arg2) = m ((c : Thread nD τ).loc main_arg2) :=
  (W6_of_ne m ρ c main_arg2 (by decide)).trans <| (W5_of m ρ c main_arg2 (by decide)).trans <| (W4_of_ne m ρ c main_arg2 (by decide)).trans <| (W3_of m ρ c main_arg2 (by decide)).trans <|
    (W2_in m ρ c 2 rfl).trans <| (W1_of m ρ c main_arg2 (by decide)).trans rfl
theorem kept_arg3 (c : Dev nD) : W6 m ρ c (Proc.devRef .tc main_arg3) = m ((c : Thread nD τ).loc main_arg3) :=
  (W6_of_ne m ρ c main_arg3 (by decide)).trans <| (W5_of m ρ c main_arg3 (by decide)).trans <| (W4_of_ne m ρ c main_arg3 (by decide)).trans <| (W3_of m ρ c main_arg3 (by decide)).trans <|
    (W2_in m ρ c 3 rfl).trans <| (W1_of m ρ c main_arg3 (by decide)).trans rfl
theorem kept_arg4 (c : Dev nD) : W6 m ρ c (Proc.devRef .tc main_arg4) = m ((c : Thread nD τ).loc main_arg4) :=
  (W6_of_ne m ρ c main_arg4 (by decide)).trans <| (W5_of m ρ c main_arg4 (by decide)).trans <| (W4_of_ne m ρ c main_arg4 (by decide)).trans <| (W3_of m ρ c main_arg4 (by decide)).trans <|
    (W2_of_ne m ρ c main_arg4 (by decide)).trans <| (W1_of m ρ c main_arg4 (by decide)).trans rfl
theorem kept_arg5 (c : Dev nD) : W6 m ρ c (Proc.devRef .tc main_arg5) = m ((c : Thread nD τ).loc main_arg5) :=
  (W6_of_ne m ρ c main_arg5 (by decide)).trans <| (W5_of m ρ c main_arg5 (by decide)).trans <| (W4_of_ne m ρ c main_arg5 (by decide)).trans <| (W3_of m ρ c main_arg5 (by decide)).trans <|
    (W2_of_ne m ρ c main_arg5 (by decide)).trans <| (W1_of m ρ c main_arg5 (by decide)).trans rfl
theorem kept_arg6 (c : Dev nD) : W6 m ρ c (Proc.devRef .tc main_arg6) = m ((c : Thread nD τ).loc main_arg6) :=
  (W6_of_ne m ρ c main_arg6 (by decide)).trans <| (W5_of m ρ c main_arg6 (by decide)).trans <| (W4_of_ne m ρ c main_arg6 (by decide)).trans <| (W3_of m ρ c main_arg6 (by decide)).trans <|
    (W2_of_ne m ρ c main_arg6 (by decide)).trans <| (W1_of m ρ c main_arg6 (by decide)).trans rfl
theorem kept_arg7 (c : Dev nD) : W6 m ρ c (Proc.devRef .tc main_arg7) = m ((c : Thread nD τ).loc main_arg7) :=
  (W6_of_ne m ρ c main_arg7 (by decide)).trans <| (W5_of m ρ c main_arg7 (by decide)).trans <| (W4_in m ρ c 4 rfl).trans <| (W3_of m ρ c main_arg7 (by decide)).trans <|
    (W2_of_ne m ρ c main_arg7 (by decide)).trans <| (W1_of m ρ c main_arg7 (by decide)).trans rfl
theorem kept_arg8 (c : Dev nD) : W6 m ρ c (Proc.devRef .tc main_arg8) = m ((c : Thread nD τ).loc main_arg8) :=
  (W6_of_ne m ρ c main_arg8 (by decide)).trans <| (W5_of m ρ c main_arg8 (by decide)).trans <| (W4_of_ne m ρ c main_arg8 (by decide)).trans <| (W3_of m ρ c main_arg8 (by decide)).trans <|
    (W2_of_ne m ρ c main_arg8 (by decide)).trans <| (W1_of m ρ c main_arg8 (by decide)).trans rfl
theorem kept_arg9 (c : Dev nD) : W6 m ρ c (Proc.devRef .tc main_arg9) = m ((c : Thread nD τ).loc main_arg9) :=
  (W6_of_ne m ρ c main_arg9 (by decide)).trans <| (W5_of m ρ c main_arg9 (by decide)).trans <| (W4_in m ρ c 6 rfl).trans <| (W3_of m ρ c main_arg9 (by decide)).trans <|
    (W2_of_ne m ρ c main_arg9 (by decide)).trans <| (W1_of m ρ c main_arg9 (by decide)).trans rfl
theorem kept_arg10 (c : Dev nD) : W6 m ρ c (Proc.devRef .tc main_arg10) = m ((c : Thread nD τ).loc main_arg10) :=
  (W6_of_ne m ρ c main_arg10 (by decide)).trans <| (W5_of m ρ c main_arg10 (by decide)).trans <| (W4_of_ne m ρ c main_arg10 (by decide)).trans <| (W3_of m ρ c main_arg10 (by decide)).trans <|
    (W2_of_ne m ρ c main_arg10 (by decide)).trans <| (W1_of m ρ c main_arg10 (by decide)).trans rfl
theorem kept_arg11 (c : Dev nD) : W6 m ρ c (Proc.devRef .tc main_arg11) = m ((c : Thread nD τ).loc main_arg11) :=
  (W6_of_ne m ρ c main_arg11 (by decide)).trans <| (W5_of m ρ c main_arg11 (by decide)).trans <| (W4_of_ne m ρ c main_arg11 (by decide)).trans <| (W3_of m ρ c main_arg11 (by decide)).trans <|
    (W2_of_ne m ρ c main_arg11 (by decide)).trans <| (W1_of m ρ c main_arg11 (by decide)).trans rfl
theorem kept_arg12 (c : Dev nD) : W6 m ρ c (Proc.devRef .tc main_arg12) = m ((c : Thread nD τ).loc main_arg12) :=
  (W6_of_ne m ρ c main_arg12 (by decide)).trans <| (W5_of m ρ c main_arg12 (by decide)).trans <| (W4_of_ne m ρ c main_arg12 (by decide)).trans <| (W3_of m ρ c main_arg12 (by decide)).trans <|
    (W2_of_ne m ρ c main_arg12 (by decide)).trans <| (W1_of m ρ c main_arg12 (by decide)).trans rfl

/-- THE FRAME: every weakly fair execution of @main terminates, nothing faulting, with every argument array as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun r h c => ⟨(h c _ (mem_uc main_arg0 (by decide))).trans (kept_arg0 m ρ c),
    (h c _ (mem_uc main_arg1 (by decide))).trans (kept_arg1 m ρ c),
    (h c _ (mem_uc main_arg2 (by decide))).trans (kept_arg2 m ρ c),
    (h c _ (mem_uc main_arg3 (by decide))).trans (kept_arg3 m ρ c),
    (h c _ (mem_uc main_arg4 (by decide))).trans (kept_arg4 m ρ c),
    (h c _ (mem_uc main_arg5 (by decide))).trans (kept_arg5 m ρ c),
    (h c _ (mem_uc main_arg6 (by decide))).trans (kept_arg6 m ρ c),
    (h c _ (mem_uc main_arg7 (by decide))).trans (kept_arg7 m ρ c),
    (h c _ (mem_uc main_arg8 (by decide))).trans (kept_arg8 m ρ c),
    (h c _ (mem_uc main_arg9 (by decide))).trans (kept_arg9 m ρ c),
    (h c _ (mem_uc main_arg10 (by decide))).trans (kept_arg10 m ρ c),
    (h c _ (mem_uc main_arg11 (by decide))).trans (kept_arg11 m ρ c),
    (h c _ (mem_uc main_arg12 (by decide))).trans (kept_arg12 m ρ c)⟩)
    (run_all m ρ)

end Cert.KernelIdeal.Hand

end
-- ==== Proof.LibLineOfOps.lean ====
/-
  A straight line of host operations in which every operation writes one buffer of its own (as a printed @main does:
  each tensor value has its buffer), read one operation at a time.

  `after ops V` is what the buffers hold once the line has run from the contents `V`.  If the k-th operation writes
  exactly the k-th reference of a list `wr`, then a reference that is not written from position k on holds, after the
  whole line, what it holds after the first k operations; so the k-th operation's result buffer holds, after the whole
  line, the operation's function of what its operand buffers hold after the whole line (operands are written earlier,
  the result by no later operation).  Each side condition is a non-membership in a literal list of references.
-/
import Idealize.ShloMosaic.Lib.StableHlo.Run
import Mathlib.Data.List.Forall2

noncomputable section

namespace Idealize.ShloMosaic.StableHlo

open Idealize.ShloMosaic.TcCoe

variable {τ : Topo} {sig : RefSig} {Val : EltTy → Type}

/-- The line run in two parts. -/
theorem after_append (l₁ l₂ : List (HloOp τ sig Val)) (V : Valuation τ sig Val) :
    after (l₁ ++ l₂) V = after l₂ (after l₁ V) := by
  induction l₁ generalizing V with
  | nil => rfl
  | cons op l ih => simp only [List.cons_append, after_cons, ih]

/-- Every operation of a line related entry by entry to a list has its partner in the list. -/
theorem exists_of_forall₂_mem {α β : Type*} {R : α → β → Prop} :
    ∀ {l₁ : List α} {l₂ : List β}, List.Forall₂ R l₁ l₂ → ∀ a ∈ l₁, ∃ b ∈ l₂, R a b
  | _, _, .nil, a, ha => absurd ha List.not_mem_nil
  | _, _, .cons hab h, a, ha => by
    rcases List.mem_cons.mp ha with rfl | ha
    · exact ⟨_, List.mem_cons_self, hab⟩
    · obtain ⟨b, hb, hr⟩ := exists_of_forall₂_mem h a ha
      exact ⟨b, List.mem_cons_of_mem _ hb, hr⟩

/-- "The k-th operation writes exactly the k-th reference." -/
abbrev WritesEach (ops : List (HloOp τ sig Val)) (wr : List (Ref sig .tc)) : Prop :=
  List.Forall₂ (fun (op : HloOp τ sig Val) (r : Ref sig .tc) => op.writes = {Proc.devRef .tc r}) ops wr

variable {ops : List (HloOp τ sig Val)} {wr : List (Ref sig .tc)}

/-- A reference not written from position `k` on holds after the line what it holds after the first `k` operations. -/
theorem after_eq_after_take (h : WritesEach ops wr) (V : Valuation τ sig Val) (k : ℕ) (r : Ref sig .tc)
    (hr : r ∉ wr.drop k) : after ops V (Proc.devRef .tc r) = after (ops.take k) V (Proc.devRef .tc r) := by
  have h' := List.forall₂_drop k h
  have e : after ops V = after (ops.drop k) (after (ops.take k) V) := by
    rw [← after_append, List.take_append_drop]
  rw [e]
  refine after_of_forall_not_mem _ _ fun op hop hb => ?_
  obtain ⟨r', hr', hw⟩ := exists_of_forall₂_mem h' op hop
  rw [hw, Finset.mem_singleton] at hb
  exact hr (Proc.devRef_injective _ hb ▸ hr')

/-- A reference the line never writes keeps its launch contents. -/
theorem after_of_not_written (h : WritesEach ops wr) (V : Valuation τ sig Val) (r : Ref sig .tc) (hr : r ∉ wr) :
    after ops V (Proc.devRef .tc r) = V (Proc.devRef .tc r) :=
  (after_eq_after_take h V 0 r hr).trans rfl

/-- The k-th operation's result buffer, not written later, holds what the operation leaves there. -/
theorem after_at (h : WritesEach ops wr) (V : Valuation τ sig Val) (k : ℕ) (op : HloOp τ sig Val) (y : Ref sig .tc)
    (hk : ops[k]? = some op) (hy : y ∉ wr.drop (k + 1)) :
    after ops V (Proc.devRef .tc y) = op.result (after (ops.take k) V) (Proc.devRef .tc y) := by
  rw [after_eq_after_take h V (k + 1) y hy]
  have e : ops.take (k + 1) = ops.take k ++ [op] := by rw [List.take_succ, hk]; rfl
  rw [e, after_append]
  rfl

theorem after_nullary (h : WritesEach ops wr) (V : Valuation τ sig Val) (k : ℕ) (y : Ref sig .tc) (v : y.ty.Contents Val)
    (hy) (hk : ops[k]? = some (nullary y v hy)) (hy' : y ∉ wr.drop (k + 1)) :
    after ops V (Proc.devRef .tc y) = v := by
  rw [after_at h V k _ y hk hy']
  exact nullary_result y v hy _

theorem after_unary (h : WritesEach ops wr) (V : Valuation τ sig Val) (k : ℕ) (x y : Ref sig .tc)
    (f : x.ty.Contents Val → y.ty.Contents Val) (hx hy) (hk : ops[k]? = some (unary x y f hx hy))
    (hy' : y ∉ wr.drop (k + 1)) (hx' : x ∉ wr.drop k) :
    after ops V (Proc.devRef .tc y) = f (after ops V (Proc.devRef .tc x)) := by
  rw [after_at h V k _ y hk hy', after_eq_after_take h V k x hx']
  exact unary_result x y f hx hy _

theorem after_binary (h : WritesEach ops wr) (V : Valuation τ sig Val) (k : ℕ) (a b y : Ref sig .tc)
    (f : a.ty.Contents Val → b.ty.Contents Val → y.ty.Contents Val) (ha hb hy)
    (hk : ops[k]? = some (binary a b y f ha hb hy))
    (hy' : y ∉ wr.drop (k + 1)) (ha' : a ∉ wr.drop k) (hb' : b ∉ wr.drop k) :
    after ops V (Proc.devRef .tc y) = f (after ops V (Proc.devRef .tc a)) (after ops V (Proc.devRef .tc b)) := by
  rw [after_at h V k _ y hk hy', after_eq_after_take h V k a ha', after_eq_after_take h V k b hb']
  exact binary_result a b y f ha hb hy _

theorem after_ternary (h : WritesEach ops wr) (V : Valuation τ sig Val) (k : ℕ) (c a b y : Ref sig .tc)
    (f : c.ty.Contents Val → a.ty.Contents Val → b.ty.Contents Val → y.ty.Contents Val) (hc ha hb hy)
    (hk : ops[k]? = some (ternary c a b y f hc ha hb hy))
    (hy' : y ∉ wr.drop (k + 1)) (hc' : c ∉ wr.drop k) (ha' : a ∉ wr.drop k) (hb' : b ∉ wr.drop k) :
    after ops V (Proc.devRef .tc y)
      = f (after ops V (Proc.devRef .tc c)) (after ops V (Proc.devRef .tc a)) (after ops V (Proc.devRef .tc b)) := by
  rw [after_at h V k _ y hk hy', after_eq_after_take h V k c hc', after_eq_after_take h V k a ha',
    after_eq_after_take h V k b hb']
  exact ternary_result c a b y f hc ha hb hy _

theorem after_reshape (h : WritesEach ops wr) (V : Valuation τ sig Val) (k : ℕ) (x y : Ref sig .tc)
    (he : x.ty.elt = y.ty.elt) (hn : x.ty.shape.ShapeCasts y.ty.shape) (hx hy)
    (hk : ops[k]? = some (reshape x y he hn hx hy)) (hy' : y ∉ wr.drop (k + 1)) (hx' : x ∉ wr.drop k) :
    after ops V (Proc.devRef .tc y)
      = fun i => he ▸ shapeCast y.ty.shape (after ops V (Proc.devRef .tc x)) hn i := by
  rw [after_at h V k _ y hk hy', after_eq_after_take h V k x hx']
  exact reshape_result x y he hn hx hy _

theorem after_nary4 (h : WritesEach ops wr) (V : Valuation τ sig Val) (k : ℕ) (x a b c y : Ref sig .tc)
    (f : ((j : Fin 4) → ((![x, a, b, c] : Fin 4 → Ref sig .tc) j).ty.Contents Val) → y.ty.Contents Val) (hxs hy)
    (hk : ops[k]? = some (nary ![x, a, b, c] y f hxs hy)) (hy' : y ∉ wr.drop (k + 1))
    (hx' : x ∉ wr.drop k) (ha' : a ∉ wr.drop k) (hb' : b ∉ wr.drop k) (hc' : c ∉ wr.drop k) :
    after ops V (Proc.devRef .tc y)
      = f (Fin.cons (after ops V (Proc.devRef .tc x)) (Fin.cons (after ops V (Proc.devRef .tc a))
          (Fin.cons (after ops V (Proc.devRef .tc b)) (Fin.cons (after ops V (Proc.devRef .tc c)) (fun i => i.elim0))))) := by
  rw [after_at h V k _ y hk hy', after_eq_after_take h V k x hx', after_eq_after_take h V k a ha',
    after_eq_after_take h V k b hb', after_eq_after_take h V k c hc']
  exact nary4_result f hxs hy _

end Idealize.ShloMosaic.StableHlo

end
-- ==== Proof.KernelIdealGlueRead.lean ====
/- The kernel's three stretches of host operations, each read one operation at a time from any contents `V`: an
   operation's result buffer holds the operation's function of what its operand buffers hold after the stretch. -/
import proofs.«149204_j28372553957731_2_alg».proof.Proof.KernelIdealKept
import proofs.«149204_j28372553957731_2_alg».proof.Proof.LibLineOfOps
import Idealize.ShloMosaic.Lib.ValueIdx

set_option maxRecDepth 16384

noncomputable section

namespace Cert.KernelIdeal.Val

open Cert.KernelIdeal Cert.KernelIdeal.Gen
open Idealize.ShloMosaic Idealize.ShloMosaic.ValueIdx

open Cert.KernelIdeal.GenP Cert.KernelIdeal.Hand Idealize.ShloMosaic.TcCoe Idealize.ShloMosaic.StableHlo

variable {F : FTy → Type} [FloatOps F] (V : Valuation τ sig (Elt F))

theorem hWk0 : WritesEach (hostOps0 (F := F)) hostOps0_W := by
  repeat' (first | exact List.Forall₂.nil | refine List.Forall₂.cons rfl ?_)
abbrev K0 (b : Ref sig .tc) : b.ty.Contents (Elt F) := after (hostOps0 (F := F)) V (Proc.devRef .tc b)
theorem k0_main_v0 : K0 V main_v0 = (((extractStridedSlice S1x1600000 ![0, 0] · slices_S2x1600000_S1x1600000_0_0) : (⟨S2x1600000, .i32⟩ : BufTy).Contents (Elt F) → (⟨S1x1600000, .i32⟩ : BufTy).Contents (Elt F))) (K0 V main_arg1) :=
  (after_unary hWk0 V 0 _ _ _ _ _ rfl (by decide) (by decide)).trans rfl
theorem k0_main_v1 : K0 V main_v1 = shapeCast S1600000 (K0 V main_v0) shapeCasts_S1x1600000_S1600000 :=
  (after_reshape hWk0 V 1 _ _ _ _ _ _ rfl (by decide) (by decide)).trans rfl
theorem k0_main_v2 : K0 V main_v2 = (((extractStridedSlice S1x1600000 ![1, 0] · slices_S2x1600000_S1x1600000_1_0) : (⟨S2x1600000, .i32⟩ : BufTy).Contents (Elt F) → (⟨S1x1600000, .i32⟩ : BufTy).Contents (Elt F))) (K0 V main_arg1) :=
  (after_unary hWk0 V 2 _ _ _ _ _ rfl (by decide) (by decide)).trans rfl
theorem k0_main_v3 : K0 V main_v3 = shapeCast S1600000 (K0 V main_v2) shapeCasts_S1x1600000_S1600000 :=
  (after_reshape hWk0 V 3 _ _ _ _ _ _ rfl (by decide) (by decide)).trans rfl
theorem k0_main_c : K0 V main_c = (constantI S_ 32 0#32) :=
  (after_nullary hWk0 V 4 _ _ _ rfl (by decide)).trans rfl
theorem k0_main_v4 : K0 V main_v4 = ((broadcastInDim S1600000 ![] bcast_S_S1600000 : (⟨S_, .i32⟩ : BufTy).Contents (Elt F) → (⟨S1600000, .i32⟩ : BufTy).Contents (Elt F))) (K0 V main_c) :=
  (after_unary hWk0 V 5 _ _ _ _ _ rfl (by decide) (by decide)).trans rfl
theorem k0_main_v5 : K0 V main_v5 = ((cmpi .slt : (⟨S1600000, .i32⟩ : BufTy).Contents (Elt F) → (⟨S1600000, .i32⟩ : BufTy).Contents (Elt F) → (⟨S1600000, .i1⟩ : BufTy).Contents (Elt F))) (K0 V main_v1) (K0 V main_v4) :=
  (after_binary hWk0 V 6 _ _ _ _ _ _ _ rfl (by decide) (by decide) (by decide)).trans rfl
theorem k0_main_c_0 : K0 V main_c_0 = (constantI S_ 32 100000#32) :=
  (after_nullary hWk0 V 7 _ _ _ rfl (by decide)).trans rfl
theorem k0_main_v6 : K0 V main_v6 = ((broadcastInDim S1600000 ![] bcast_S_S1600000 : (⟨S_, .i32⟩ : BufTy).Contents (Elt F) → (⟨S1600000, .i32⟩ : BufTy).Contents (Elt F))) (K0 V main_c_0) :=
  (after_unary hWk0 V 8 _ _ _ _ _ rfl (by decide) (by decide)).trans rfl
theorem k0_main_v7 : K0 V main_v7 = ((addi : (⟨S1600000, .i32⟩ : BufTy).Contents (Elt F) → (⟨S1600000, .i32⟩ : BufTy).Contents (Elt F) → (⟨S1600000, .i32⟩ : BufTy).Contents (Elt F))) (K0 V main_v1) (K0 V main_v6) :=
  (after_binary hWk0 V 9 _ _ _ _ _ _ _ rfl (by decide) (by decide) (by decide)).trans rfl
theorem k0_main_v8 : K0 V main_v8 = ((select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F))) (K0 V main_v5) (K0 V main_v7) (K0 V main_v1) :=
  (after_ternary hWk0 V 10 _ _ _ _ _ _ _ _ _ rfl (by decide) (by decide) (by decide) (by decide)).trans rfl
theorem k0_main_v9 : K0 V main_v9 = ((broadcastInDim S1600000x1 ![0] bcast_S1600000_S1600000x1_0 : (⟨S1600000, .i32⟩ : BufTy).Contents (Elt F) → (⟨S1600000x1, .i32⟩ : BufTy).Contents (Elt F))) (K0 V main_v8) :=
  (after_unary hWk0 V 11 _ _ _ _ _ rfl (by decide) (by decide)).trans rfl
theorem k0_main_v10 : K0 V main_v10 = (((fun x i => Host.gather gather_S100000x64_S1600000x1_S1600000x64_1_0_n_n_0_1_164 x i) : (⟨S100000x64, .f32⟩ : BufTy).Contents (Elt F) → (⟨S1600000x1, .i32⟩ : BufTy).Contents (Elt F) → (⟨S1600000x64, .f32⟩ : BufTy).Contents (Elt F))) (K0 V main_arg0) (K0 V main_v9) :=
  (after_binary hWk0 V 12 _ _ _ _ _ _ _ rfl (by decide) (by decide) (by decide)).trans rfl
theorem k0_main_cst : K0 V main_cst = (constant S_ .f32 0x00000000#32) :=
  (after_nullary hWk0 V 13 _ _ _ rfl (by decide)).trans rfl
theorem k0_main_v11 : K0 V main_v11 = ((broadcastInDim S100000x64 ![] bcast_S_S100000x64 : (⟨S_, .f32⟩ : BufTy).Contents (Elt F) → (⟨S100000x64, .f32⟩ : BufTy).Contents (Elt F))) (K0 V main_cst) :=
  (after_unary hWk0 V 14 _ _ _ _ _ rfl (by decide) (by decide)).trans rfl
theorem k0_main_v12 : K0 V main_v12 = ((broadcastInDim S1600000x1 ![0] bcast_S1600000_S1600000x1_0 : (⟨S1600000, .i32⟩ : BufTy).Contents (Elt F) → (⟨S1600000x1, .i32⟩ : BufTy).Contents (Elt F))) (K0 V main_v3) :=
  (after_unary hWk0 V 15 _ _ _ _ _ rfl (by decide) (by decide)).trans rfl
theorem k0_main_v13 : K0 V main_v13 = (((fun x i u => Host.scatterAdd scatter_S100000x64_S1600000x1_S1600000x64_1_0_0_1 x i u) : (⟨S100000x64, .f32⟩ : BufTy).Contents (Elt F) → (⟨S1600000x1, .i32⟩ : BufTy).Contents (Elt F) → (⟨S1600000x64, .f32⟩ : BufTy).Contents (Elt F) → (⟨S100000x64, .f32⟩ : BufTy).Contents (Elt F))) (K0 V main_v11) (K0 V main_v12) (K0 V main_v10) :=
  (after_ternary hWk0 V 16 _ _ _ _ _ _ _ _ _ rfl (by decide) (by decide) (by decide) (by decide)).trans rfl
theorem k0_main_v14 : K0 V main_v14 = shapeCast S1x64 (K0 V main_arg4) shapeCasts_S64_S1x64 :=
  (after_reshape hWk0 V 17 _ _ _ _ _ _ rfl (by decide) (by decide)).trans rfl
theorem k0_main_v15 : K0 V main_v15 = shapeCast S1x128 (K0 V main_arg8) shapeCasts_S128_S1x128 :=
  (after_reshape hWk0 V 18 _ _ _ _ _ _ rfl (by decide) (by decide)).trans rfl
theorem k0_main_v16 : K0 V main_v16 = shapeCast S1x64 (K0 V main_arg10) shapeCasts_S64_S1x64 :=
  (after_reshape hWk0 V 19 _ _ _ _ _ _ rfl (by decide) (by decide)).trans rfl
theorem k0_keep (r : Ref sig .tc) (h : r ∉ hostOps0_W) : K0 V r = V (Proc.devRef .tc r) := after_of_not_written hWk0 V r h

theorem hWk1 : WritesEach (hostOps1 (F := F)) hostOps1_W := by
  repeat' (first | exact List.Forall₂.nil | refine List.Forall₂.cons rfl ?_)
abbrev K1 (b : Ref sig .tc) : b.ty.Contents (Elt F) := after (hostOps1 (F := F)) V (Proc.devRef .tc b)
theorem k1_main_cst_1 : K1 V main_cst_1 = (constant S_ .f32 0x47C35000#32) :=
  (after_nullary hWk1 V 0 _ _ _ rfl (by decide)).trans rfl
theorem k1_main_v18 : K1 V main_v18 = ((broadcastInDim S1x64 ![] bcast_S_S1x64 : (⟨S_, .f32⟩ : BufTy).Contents (Elt F) → (⟨S1x64, .f32⟩ : BufTy).Contents (Elt F))) (K1 V main_cst_1) :=
  (after_unary hWk1 V 1 _ _ _ _ _ rfl (by decide) (by decide)).trans rfl
theorem k1_main_v19 : K1 V main_v19 = ((Host.divf : (⟨S1x64, .f32⟩ : BufTy).Contents (Elt F) → (⟨S1x64, .f32⟩ : BufTy).Contents (Elt F) → (⟨S1x64, .f32⟩ : BufTy).Contents (Elt F))) (K1 V main_v17_1) (K1 V main_v18) :=
  (after_binary hWk1 V 2 _ _ _ _ _ _ _ rfl (by decide) (by decide) (by decide)).trans rfl
theorem k1_main_cst_2 : K1 V main_cst_2 = (constant S_ .f32 0x47C35000#32) :=
  (after_nullary hWk1 V 3 _ _ _ rfl (by decide)).trans rfl
theorem k1_main_v20 : K1 V main_v20 = ((broadcastInDim S1x64 ![] bcast_S_S1x64 : (⟨S_, .f32⟩ : BufTy).Contents (Elt F) → (⟨S1x64, .f32⟩ : BufTy).Contents (Elt F))) (K1 V main_cst_2) :=
  (after_unary hWk1 V 4 _ _ _ _ _ rfl (by decide) (by decide)).trans rfl
theorem k1_main_v21 : K1 V main_v21 = ((Host.divf : (⟨S1x64, .f32⟩ : BufTy).Contents (Elt F) → (⟨S1x64, .f32⟩ : BufTy).Contents (Elt F) → (⟨S1x64, .f32⟩ : BufTy).Contents (Elt F))) (K1 V main_v17_2) (K1 V main_v20) :=
  (after_binary hWk1 V 5 _ _ _ _ _ _ _ rfl (by decide) (by decide) (by decide)).trans rfl
theorem k1_main_v22 : K1 V main_v22 = ((mulf : (⟨S1x64, .f32⟩ : BufTy).Contents (Elt F) → (⟨S1x64, .f32⟩ : BufTy).Contents (Elt F) → (⟨S1x64, .f32⟩ : BufTy).Contents (Elt F))) (K1 V main_v19) (K1 V main_v19) :=
  (after_binary hWk1 V 6 _ _ _ _ _ _ _ rfl (by decide) (by decide) (by decide)).trans rfl
theorem k1_main_v23 : K1 V main_v23 = ((subf : (⟨S1x64, .f32⟩ : BufTy).Contents (Elt F) → (⟨S1x64, .f32⟩ : BufTy).Contents (Elt F) → (⟨S1x64, .f32⟩ : BufTy).Contents (Elt F))) (K1 V main_v21) (K1 V main_v22) :=
  (after_binary hWk1 V 7 _ _ _ _ _ _ _ rfl (by decide) (by decide) (by decide)).trans rfl
theorem k1_main_cst_3 : K1 V main_cst_3 = (constant S_ .f32 0x00000000#32) :=
  (after_nullary hWk1 V 8 _ _ _ rfl (by decide)).trans rfl
theorem k1_main_v24 : K1 V main_v24 = ((broadcastInDim S1x64 ![] bcast_S_S1x64 : (⟨S_, .f32⟩ : BufTy).Contents (Elt F) → (⟨S1x64, .f32⟩ : BufTy).Contents (Elt F))) (K1 V main_cst_3) :=
  (after_unary hWk1 V 9 _ _ _ _ _ rfl (by decide) (by decide)).trans rfl
theorem k1_main_v25 : K1 V main_v25 = ((maximumf : (⟨S1x64, .f32⟩ : BufTy).Contents (Elt F) → (⟨S1x64, .f32⟩ : BufTy).Contents (Elt F) → (⟨S1x64, .f32⟩ : BufTy).Contents (Elt F))) (K1 V main_v23) (K1 V main_v24) :=
  (after_binary hWk1 V 10 _ _ _ _ _ _ _ rfl (by decide) (by decide) (by decide)).trans rfl
theorem k1_main_v26 : K1 V main_v26 = shapeCast S1x64 (K1 V main_arg5) shapeCasts_S64_S1x64 :=
  (after_reshape hWk1 V 11 _ _ _ _ _ _ rfl (by decide) (by decide)).trans rfl
theorem k1_main_cst_4 : K1 V main_cst_4 = (constant S_ .f32 0x3727C5AC#32) :=
  (after_nullary hWk1 V 12 _ _ _ rfl (by decide)).trans rfl
theorem k1_main_v27 : K1 V main_v27 = ((broadcastInDim S1x64 ![] bcast_S_S1x64 : (⟨S_, .f32⟩ : BufTy).Contents (Elt F) → (⟨S1x64, .f32⟩ : BufTy).Contents (Elt F))) (K1 V main_cst_4) :=
  (after_unary hWk1 V 13 _ _ _ _ _ rfl (by decide) (by decide)).trans rfl
theorem k1_main_v28 : K1 V main_v28 = ((addf : (⟨S1x64, .f32⟩ : BufTy).Contents (Elt F) → (⟨S1x64, .f32⟩ : BufTy).Contents (Elt F) → (⟨S1x64, .f32⟩ : BufTy).Contents (Elt F))) (K1 V main_v25) (K1 V main_v27) :=
  (after_binary hWk1 V 14 _ _ _ _ _ _ _ rfl (by decide) (by decide) (by decide)).trans rfl
theorem k1_main_v29 : K1 V main_v29 = ((Host.rsqrt : (⟨S1x64, .f32⟩ : BufTy).Contents (Elt F) → (⟨S1x64, .f32⟩ : BufTy).Contents (Elt F))) (K1 V main_v28) :=
  (after_unary hWk1 V 15 _ _ _ _ _ rfl (by decide) (by decide)).trans rfl
theorem k1_main_v30 : K1 V main_v30 = ((mulf : (⟨S1x64, .f32⟩ : BufTy).Contents (Elt F) → (⟨S1x64, .f32⟩ : BufTy).Contents (Elt F) → (⟨S1x64, .f32⟩ : BufTy).Contents (Elt F))) (K1 V main_v26) (K1 V main_v29) :=
  (after_binary hWk1 V 16 _ _ _ _ _ _ _ rfl (by decide) (by decide) (by decide)).trans rfl
theorem k1_main_v31 : K1 V main_v31 = shapeCast S1x64 (K1 V main_arg6) shapeCasts_S64_S1x64 :=
  (after_reshape hWk1 V 17 _ _ _ _ _ _ rfl (by decide) (by decide)).trans rfl
theorem k1_main_v32 : K1 V main_v32 = ((mulf : (⟨S1x64, .f32⟩ : BufTy).Contents (Elt F) → (⟨S1x64, .f32⟩ : BufTy).Contents (Elt F) → (⟨S1x64, .f32⟩ : BufTy).Contents (Elt F))) (K1 V main_v19) (K1 V main_v30) :=
  (after_binary hWk1 V 18 _ _ _ _ _ _ _ rfl (by decide) (by decide) (by decide)).trans rfl
theorem k1_main_v33 : K1 V main_v33 = ((subf : (⟨S1x64, .f32⟩ : BufTy).Contents (Elt F) → (⟨S1x64, .f32⟩ : BufTy).Contents (Elt F) → (⟨S1x64, .f32⟩ : BufTy).Contents (Elt F))) (K1 V main_v31) (K1 V main_v32) :=
  (after_binary hWk1 V 19 _ _ _ _ _ _ _ rfl (by decide) (by decide) (by decide)).trans rfl
theorem k1_keep (r : Ref sig .tc) (h : r ∉ hostOps1_W) : K1 V r = V (Proc.devRef .tc r) := after_of_not_written hWk1 V r h

theorem hWk2 : WritesEach (hostOps2 (F := F)) hostOps2_W := by
  repeat' (first | exact List.Forall₂.nil | refine List.Forall₂.cons rfl ?_)
abbrev K2 (b : Ref sig .tc) : b.ty.Contents (Elt F) := after (hostOps2 (F := F)) V (Proc.devRef .tc b)
theorem k2_main_cst_5 : K2 V main_cst_5 = (constant S_ .f32 0x47C35000#32) :=
  (after_nullary hWk2 V 0 _ _ _ rfl (by decide)).trans rfl
theorem k2_main_v35 : K2 V main_v35 = ((broadcastInDim S1x64 ![] bcast_S_S1x64 : (⟨S_, .f32⟩ : BufTy).Contents (Elt F) → (⟨S1x64, .f32⟩ : BufTy).Contents (Elt F))) (K2 V main_cst_5) :=
  (after_unary hWk2 V 1 _ _ _ _ _ rfl (by decide) (by decide)).trans rfl
theorem k2_main_v36 : K2 V main_v36 = ((Host.divf : (⟨S1x64, .f32⟩ : BufTy).Contents (Elt F) → (⟨S1x64, .f32⟩ : BufTy).Contents (Elt F) → (⟨S1x64, .f32⟩ : BufTy).Contents (Elt F))) (K2 V main_v34_1) (K2 V main_v35) :=
  (after_binary hWk2 V 2 _ _ _ _ _ _ _ rfl (by decide) (by decide) (by decide)).trans rfl
theorem k2_main_cst_6 : K2 V main_cst_6 = (constant S_ .f32 0x47C35000#32) :=
  (after_nullary hWk2 V 3 _ _ _ rfl (by decide)).trans rfl
theorem k2_main_v37 : K2 V main_v37 = ((broadcastInDim S1x64 ![] bcast_S_S1x64 : (⟨S_, .f32⟩ : BufTy).Contents (Elt F) → (⟨S1x64, .f32⟩ : BufTy).Contents (Elt F))) (K2 V main_cst_6) :=
  (after_unary hWk2 V 4 _ _ _ _ _ rfl (by decide) (by decide)).trans rfl
theorem k2_main_v38 : K2 V main_v38 = ((Host.divf : (⟨S1x64, .f32⟩ : BufTy).Contents (Elt F) → (⟨S1x64, .f32⟩ : BufTy).Contents (Elt F) → (⟨S1x64, .f32⟩ : BufTy).Contents (Elt F))) (K2 V main_v34_2) (K2 V main_v37) :=
  (after_binary hWk2 V 5 _ _ _ _ _ _ _ rfl (by decide) (by decide) (by decide)).trans rfl
theorem k2_main_v39 : K2 V main_v39 = ((mulf : (⟨S1x64, .f32⟩ : BufTy).Contents (Elt F) → (⟨S1x64, .f32⟩ : BufTy).Contents (Elt F) → (⟨S1x64, .f32⟩ : BufTy).Contents (Elt F))) (K2 V main_v36) (K2 V main_v36) :=
  (after_binary hWk2 V 6 _ _ _ _ _ _ _ rfl (by decide) (by decide) (by decide)).trans rfl
theorem k2_main_v40 : K2 V main_v40 = ((subf : (⟨S1x64, .f32⟩ : BufTy).Contents (Elt F) → (⟨S1x64, .f32⟩ : BufTy).Contents (Elt F) → (⟨S1x64, .f32⟩ : BufTy).Contents (Elt F))) (K2 V main_v38) (K2 V main_v39) :=
  (after_binary hWk2 V 7 _ _ _ _ _ _ _ rfl (by decide) (by decide) (by decide)).trans rfl
theorem k2_main_cst_7 : K2 V main_cst_7 = (constant S_ .f32 0x00000000#32) :=
  (after_nullary hWk2 V 8 _ _ _ rfl (by decide)).trans rfl
theorem k2_main_v41 : K2 V main_v41 = ((broadcastInDim S1x64 ![] bcast_S_S1x64 : (⟨S_, .f32⟩ : BufTy).Contents (Elt F) → (⟨S1x64, .f32⟩ : BufTy).Contents (Elt F))) (K2 V main_cst_7) :=
  (after_unary hWk2 V 9 _ _ _ _ _ rfl (by decide) (by decide)).trans rfl
theorem k2_main_v42 : K2 V main_v42 = ((maximumf : (⟨S1x64, .f32⟩ : BufTy).Contents (Elt F) → (⟨S1x64, .f32⟩ : BufTy).Contents (Elt F) → (⟨S1x64, .f32⟩ : BufTy).Contents (Elt F))) (K2 V main_v40) (K2 V main_v41) :=
  (after_binary hWk2 V 10 _ _ _ _ _ _ _ rfl (by decide) (by decide) (by decide)).trans rfl
theorem k2_main_v43 : K2 V main_v43 = shapeCast S1x64 (K2 V main_arg11) shapeCasts_S64_S1x64 :=
  (after_reshape hWk2 V 11 _ _ _ _ _ _ rfl (by decide) (by decide)).trans rfl
theorem k2_main_cst_8 : K2 V main_cst_8 = (constant S_ .f32 0x3727C5AC#32) :=
  (after_nullary hWk2 V 12 _ _ _ rfl (by decide)).trans rfl
theorem k2_main_v44 : K2 V main_v44 = ((broadcastInDim S1x64 ![] bcast_S_S1x64 : (⟨S_, .f32⟩ : BufTy).Contents (Elt F) → (⟨S1x64, .f32⟩ : BufTy).Contents (Elt F))) (K2 V main_cst_8) :=
  (after_unary hWk2 V 13 _ _ _ _ _ rfl (by decide) (by decide)).trans rfl
theorem k2_main_v45 : K2 V main_v45 = ((addf : (⟨S1x64, .f32⟩ : BufTy).Contents (Elt F) → (⟨S1x64, .f32⟩ : BufTy).Contents (Elt F) → (⟨S1x64, .f32⟩ : BufTy).Contents (Elt F))) (K2 V main_v42) (K2 V main_v44) :=
  (after_binary hWk2 V 14 _ _ _ _ _ _ _ rfl (by decide) (by decide) (by decide)).trans rfl
theorem k2_main_v46 : K2 V main_v46 = ((Host.rsqrt : (⟨S1x64, .f32⟩ : BufTy).Contents (Elt F) → (⟨S1x64, .f32⟩ : BufTy).Contents (Elt F))) (K2 V main_v45) :=
  (after_unary hWk2 V 15 _ _ _ _ _ rfl (by decide) (by decide)).trans rfl
theorem k2_main_v47 : K2 V main_v47 = ((mulf : (⟨S1x64, .f32⟩ : BufTy).Contents (Elt F) → (⟨S1x64, .f32⟩ : BufTy).Contents (Elt F) → (⟨S1x64, .f32⟩ : BufTy).Contents (Elt F))) (K2 V main_v43) (K2 V main_v46) :=
  (after_binary hWk2 V 16 _ _ _ _ _ _ _ rfl (by decide) (by decide) (by decide)).trans rfl
theorem k2_main_v48 : K2 V main_v48 = shapeCast S1x64 (K2 V main_arg12) shapeCasts_S64_S1x64 :=
  (after_reshape hWk2 V 17 _ _ _ _ _ _ rfl (by decide) (by decide)).trans rfl
theorem k2_main_v49 : K2 V main_v49 = ((mulf : (⟨S1x64, .f32⟩ : BufTy).Contents (Elt F) → (⟨S1x64, .f32⟩ : BufTy).Contents (Elt F) → (⟨S1x64, .f32⟩ : BufTy).Contents (Elt F))) (K2 V main_v36) (K2 V main_v47) :=
  (after_binary hWk2 V 18 _ _ _ _ _ _ _ rfl (by decide) (by decide) (by decide)).trans rfl
theorem k2_main_v50 : K2 V main_v50 = ((subf : (⟨S1x64, .f32⟩ : BufTy).Contents (Elt F) → (⟨S1x64, .f32⟩ : BufTy).Contents (Elt F) → (⟨S1x64, .f32⟩ : BufTy).Contents (Elt F))) (K2 V main_v48) (K2 V main_v49) :=
  (after_binary hWk2 V 19 _ _ _ _ _ _ _ rfl (by decide) (by decide) (by decide)).trans rfl
theorem k2_keep (r : Ref sig .tc) (h : r ∉ hostOps2_W) : K2 V r = V (Proc.devRef .tc r) := after_of_not_written hWk2 V r h

end Cert.KernelIdeal.Val

end
-- ==== Proof.Consts.lean ====
/- The float literals both programs spell, as the extended reals their patterns denote: `0.0`, `100000.0` (the number of
   rows, by which the column sums are divided) and the normalisation's `ε`, about `1e-5`, of which only that it is a
   positive real is ever used. The not-a-number pattern in the reference's variance is never evaluated. -/
import Idealize.ShloMosaic.PureOps.Ideal

noncomputable section

namespace Cert.Consts

open Idealize.ShloMosaic

theorem ofBits_zero : Ideal.ofBits .f32 0x00000000#32 = 0 := by
  simp [Ideal.ofBits, Ideal.ieee]

theorem ofBits_rows : Ideal.ofBits .f32 0x47C35000#32 = ((100000 : ℝ) : EReal) := by
  simp [Ideal.ofBits, Ideal.ieee, -EReal.coe_mul]; norm_num

/-- The normalisation's `ε` as a real. -/
def eps : ℝ := 10995116 / 2 ^ 40

theorem eps_pos : 0 < eps := by unfold eps; positivity

theorem ofBits_eps : Ideal.ofBits .f32 0x3727C5AC#32 = ((eps : ℝ) : EReal) := by
  unfold eps
  simp [Ideal.ofBits, Ideal.ieee, -EReal.coe_mul]; norm_num

end Cert.Consts

end
-- ==== Proof.Spec.lean ====
/- The two programs' results, entry by entry, as functions of the argument arrays on the extended reals.
   Both compute: the graph convolution h = agg·W_nbr + x·W_root + b; a batch normalisation over the rows; a rectifier and
   a residual; a two-layer network with a residual; a second batch normalisation. They differ only in how the
   normalisation is spelt: the kernel takes column sums of the values and of their squares, forms the mean `μ = S/N` and the
   variance `max(Q/N − μ², 0)`, and applies one scale `γ·rsqrt(var + ε)` and one shift `β − μ·scale`; the reference centres
   first, `(v − μ)·rsqrt(Σ(v − μ)²/N + ε)·γ + β`. -/
import proofs.«149204_j28372553957731_2_alg».proof.Proof.Consts
import Idealize.ShloMosaic.Lib.ValueIdx

noncomputable section

namespace Cert.Spec

open Idealize.ShloMosaic Idealize.ShloMosaic.ValueIdx

abbrev Mat (a b : ℕ) : Type := (⟨2, ![a, b]⟩ : Shape).Idx → EReal
abbrev Vc (a : ℕ) : Type := (⟨1, ![a]⟩ : Shape).Idx → EReal
/-- A matrix of 100000 rows and 64 columns by its entries. -/
abbrev Tab : Type := Fin 100000 → Fin 64 → EReal

/-- The number of rows and the normalisation's ε, as extended reals. -/
def Nr : EReal := ((100000 : ℝ) : EReal)
def ε : EReal := ((Cert.Consts.eps : ℝ) : EReal)

/-- The graph convolution. -/
def conv (X AGG : Mat 100000 64) (Wr Wn : Mat 64 64) (bg : Vc 64) : Tab := fun i k =>
  (∑ j : Fin 64, AGG (ix2 i j) * Wn (ix2 j k) + ∑ j : Fin 64, X (ix2 i j) * Wr (ix2 j k)) + bg (ix1 k)

def csum (f : Tab) (k : Fin 64) : EReal := ∑ n : Fin 100000, f n k
def csq (f : Tab) (k : Fin 64) : EReal := ∑ n : Fin 100000, f n k * f n k

/-! ## The kernel's normalisation: one pass -/
def scaleK (f : Tab) (g : Vc 64) (k : Fin 64) : EReal :=
  g (ix1 k) * Ideal.rsqrt (max (Ideal.div (csq f k) Nr - Ideal.div (csum f k) Nr * Ideal.div (csum f k) Nr) 0 + ε)
def shiftK (f : Tab) (g b : Vc 64) (k : Fin 64) : EReal := b (ix1 k) - Ideal.div (csum f k) Nr * scaleK f g k
def bnK (f : Tab) (g b : Vc 64) : Tab := fun i k => f i k * scaleK f g k + shiftK f g b k

/-! ## The reference's: two passes -/
def meanR (f : Tab) (k : Fin 64) : EReal := Ideal.div (csum f k) Nr
def varR (f : Tab) (k : Fin 64) : EReal := Ideal.div (∑ n : Fin 100000, (f n k - meanR f k) * (f n k - meanR f k)) Nr
def bnR (f : Tab) (g b : Vc 64) : Tab := fun i k =>
  (f i k - meanR f k) * Ideal.rsqrt (varR f k + ε) * g (ix1 k) + b (ix1 k)

/-! ## The rest, common to both -/
def act (z : Tab) (X : Mat 100000 64) : Tab := fun i k => max (z i k) 0 + X (ix2 i k)
def ffn (a : Tab) (w1 : Mat 64 128) (b1 : Vc 128) (w2 : Mat 128 64) (b2 : Vc 64) : Tab := fun i c =>
  (∑ k : Fin 128, max (∑ j : Fin 64, a i j * w1 (ix2 j k) + b1 (ix1 k)) 0 * w2 (ix2 k c) + b2 (ix1 c)) + a i c

def kOut (X AGG : Mat 100000 64) (Wr Wn : Mat 64 64) (bg g1 b1 : Vc 64) (w1 : Mat 64 128) (fb1 : Vc 128) (w2 : Mat 128 64) (fb2 g2 b2 : Vc 64) : Tab :=
  bnK (ffn (act (bnK (conv X AGG Wr Wn bg) g1 b1) X) w1 fb1 w2 fb2) g2 b2
def rOut (X AGG : Mat 100000 64) (Wr Wn : Mat 64 64) (bg g1 b1 : Vc 64) (w1 : Mat 64 128) (fb1 : Vc 128) (w2 : Mat 128 64) (fb2 g2 b2 : Vc 64) : Tab :=
  bnR (ffn (act (bnR (conv X AGG Wr Wn bg) g1 b1) X) w1 fb1 w2 fb2) g2 b2

end Cert.Spec

end
-- ==== Proof.KernelIdealGlue.lean ====
/- The host operations between the kernel's regions, as functions: from the column sums `S` and the column sums of squares
   `Q` (each a [1, 64] array) the mean `S/N`, the clamped variance `max(Q/N − (S/N)², 0)`, the scale `γ·rsqrt(var + ε)` and the shift
   `β − mean·scale`; before the first region, the neighbour aggregate (a gather of rows of `x` by the edges' sources, wrapped
   when negative, and their scatter-add into zeros by the edges' targets). -/
import proofs.«149204_j28372553957731_2_alg».proof.Proof.KernelIdealGlueRead
import proofs.«149204_j28372553957731_2_alg».proof.Proof.Spec
import Idealize.ShloMosaic.Lib.ValueLayout

set_option maxRecDepth 16384

noncomputable section

namespace Cert.KernelIdeal.Val

open Cert.KernelIdeal Cert.KernelIdeal.Gen
open Idealize.ShloMosaic Idealize.ShloMosaic.ValueIdx

open Cert.KernelIdeal.GenP Cert.KernelIdeal.Hand Idealize.ShloMosaic.TcCoe Idealize.ShloMosaic.StableHlo

abbrev bRows : FVec Ideal S1x64 .f32 := broadcastInDim S1x64 ![] bcast_S_S1x64 (constant (F := Ideal) S_ .f32 0x47C35000#32)
abbrev bZero : FVec Ideal S1x64 .f32 := broadcastInDim S1x64 ![] bcast_S_S1x64 (constant (F := Ideal) S_ .f32 0x00000000#32)
abbrev bEps : FVec Ideal S1x64 .f32 := broadcastInDim S1x64 ![] bcast_S_S1x64 (constant (F := Ideal) S_ .f32 0x3727C5AC#32)

def gMean (S : FVec Ideal S1x64 .f32) : FVec Ideal S1x64 .f32 := Host.divf S bRows
def gVar (S Q : FVec Ideal S1x64 .f32) : FVec Ideal S1x64 .f32 := maximumf (subf (gMean Q) (mulf (gMean S) (gMean S))) bZero
def gScale (S Q : FVec Ideal S1x64 .f32) (g : FVec Ideal S64 .f32) : FVec Ideal S1x64 .f32 :=
  mulf (shapeCast S1x64 g shapeCasts_S64_S1x64) (Host.rsqrt (addf (gVar S Q) bEps))
def gShift (S Q : FVec Ideal S1x64 .f32) (g b : FVec Ideal S64 .f32) : FVec Ideal S1x64 .f32 :=
  subf (shapeCast S1x64 b shapeCasts_S64_S1x64) (mulf (gMean S) (gScale S Q g))

/-- The neighbour aggregate. -/
def aggK (x : FVec Ideal S100000x64 .f32) (ei : IVec S2x1600000 32) : FVec Ideal S100000x64 .f32 :=
  Host.scatterAdd scatter_S100000x64_S1600000x1_S1600000x64_1_0_0_1
    (broadcastInDim S100000x64 ![] bcast_S_S100000x64 (constant (F := Ideal) S_ .f32 0x00000000#32))
    (broadcastInDim S1600000x1 ![0] bcast_S1600000_S1600000x1_0
      (shapeCast S1600000 (extractStridedSlice S1x1600000 ![1, 0] ei slices_S2x1600000_S1x1600000_1_0) shapeCasts_S1x1600000_S1600000))
    (Host.gather gather_S100000x64_S1600000x1_S1600000x64_1_0_n_n_0_1_164 x
      (broadcastInDim S1600000x1 ![0] bcast_S1600000_S1600000x1_0
        (select
          (cmpi .slt (shapeCast S1600000 (extractStridedSlice S1x1600000 ![0, 0] ei slices_S2x1600000_S1x1600000_0_0) shapeCasts_S1x1600000_S1600000)
            (broadcastInDim S1600000 ![] bcast_S_S1600000 (constantI S_ 32 0#32)))
          (addi (shapeCast S1600000 (extractStridedSlice S1x1600000 ![0, 0] ei slices_S2x1600000_S1x1600000_0_0) shapeCasts_S1x1600000_S1600000)
            (broadcastInDim S1600000 ![] bcast_S_S1600000 (constantI S_ 32 100000#32)))
          (shapeCast S1600000 (extractStridedSlice S1x1600000 ![0, 0] ei slices_S2x1600000_S1x1600000_0_0) shapeCasts_S1x1600000_S1600000))))

variable (V : Valuation τ sig (Elt Ideal))

theorem agg_read : K0 V main_v13 = aggK (V (Proc.devRef .tc main_arg0)) (V (Proc.devRef .tc main_arg1)) := by
  unfold aggK
  rw [k0_main_v13, k0_main_v11, k0_main_cst, k0_main_v12, k0_main_v3, k0_main_v2, k0_main_v10, k0_main_v9, k0_main_v8, k0_main_v5, k0_main_v7,
    k0_main_v6, k0_main_c_0, k0_main_v4, k0_main_c, k0_main_v1, k0_main_v0, k0_keep V main_arg0 (by decide), k0_keep V main_arg1 (by decide)]

theorem scale1_read : K1 V main_v30 = gScale (V (Proc.devRef .tc main_v17_1)) (V (Proc.devRef .tc main_v17_2)) (V (Proc.devRef .tc main_arg5)) := by
  unfold gScale gVar gMean
  rw [k1_main_v30, k1_main_v26, k1_main_v29, k1_main_v28, k1_main_v27, k1_main_cst_4, k1_main_v25, k1_main_v24, k1_main_cst_3, k1_main_v23, k1_main_v22,
    k1_main_v21, k1_main_v20, k1_main_cst_2, k1_main_v19, k1_main_v18, k1_main_cst_1,
    k1_keep V main_v17_1 (by decide), k1_keep V main_v17_2 (by decide), k1_keep V main_arg5 (by decide)]
theorem shift1_read : K1 V main_v33 = gShift (V (Proc.devRef .tc main_v17_1)) (V (Proc.devRef .tc main_v17_2)) (V (Proc.devRef .tc main_arg5)) (V (Proc.devRef .tc main_arg6)) := by
  unfold gShift
  rw [k1_main_v33, k1_main_v31, k1_main_v32, scale1_read, k1_main_v19, k1_main_v18, k1_main_cst_1,
    k1_keep V main_v17_1 (by decide), k1_keep V main_arg6 (by decide)]
  rfl
theorem scale2_read : K2 V main_v47 = gScale (V (Proc.devRef .tc main_v34_1)) (V (Proc.devRef .tc main_v34_2)) (V (Proc.devRef .tc main_arg11)) := by
  unfold gScale gVar gMean
  rw [k2_main_v47, k2_main_v43, k2_main_v46, k2_main_v45, k2_main_v44, k2_main_cst_8, k2_main_v42, k2_main_v41, k2_main_cst_7, k2_main_v40, k2_main_v39,
    k2_main_v38, k2_main_v37, k2_main_cst_6, k2_main_v36, k2_main_v35, k2_main_cst_5,
    k2_keep V main_v34_1 (by decide), k2_keep V main_v34_2 (by decide), k2_keep V main_arg11 (by decide)]
theorem shift2_read : K2 V main_v50 = gShift (V (Proc.devRef .tc main_v34_1)) (V (Proc.devRef .tc main_v34_2)) (V (Proc.devRef .tc main_arg11)) (V (Proc.devRef .tc main_arg12)) := by
  unfold gShift
  rw [k2_main_v50, k2_main_v48, k2_main_v49, scale2_read, k2_main_v36, k2_main_v35, k2_main_cst_5,
    k2_keep V main_v34_1 (by decide), k2_keep V main_arg12 (by decide)]
  rfl
theorem bias_reads : K0 V main_v14 = shapeCast S1x64 (V (Proc.devRef .tc main_arg4)) shapeCasts_S64_S1x64
    ∧ K0 V main_v15 = shapeCast S1x128 (V (Proc.devRef .tc main_arg8)) shapeCasts_S128_S1x128
    ∧ K0 V main_v16 = shapeCast S1x64 (V (Proc.devRef .tc main_arg10)) shapeCasts_S64_S1x64 := by
  refine ⟨?_, ?_, ?_⟩
  · rw [k0_main_v14, k0_keep V main_arg4 (by decide)]
  · rw [k0_main_v15, k0_keep V main_arg8 (by decide)]
  · rw [k0_main_v16, k0_keep V main_arg10 (by decide)]

end Cert.KernelIdeal.Val

end
-- ==== Proof.KernelIdealR0Pieces.lean ====
/- Region 0: what each case of the body leaves in each buffer it stores into, as the body's arithmetic of the blocks it
   loaded. Every store is of a whole buffer, so a buffer ends holding its last store's value; an accumulator read after it
   was stored reads that value. The big output holds the point's block of results; each accumulator holds its previous
   contents (zeros at the first point) plus the block's column sums (of the results, of their squares); at the last point
   the two small outputs receive the accumulators' contents. -/
import proofs.«149204_j28372553957731_2_alg».proof.Proof.KernelIdealR0Frame
import Idealize.ShloMosaic.Lib.Pipeline.Value

set_option maxRecDepth 16384

noncomputable section

namespace Cert.KernelIdeal.Hand

open Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem hz2_0 : (![0, 0] : Fin 2 → Nat) = fun _ => 0 := funext fun a => by fin_cases a <;> rfl

theorem out0_A_5_eq (c : Dev nD) (i : grid0.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S64x64 .f32) (harg4 : arg4.IsWhole) (arg5 : Memref sig .tc .vmem S1x64 .f32) (harg5 : arg5.IsWhole) (arg6 : Memref sig .tc .vmem S5000x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (hc0 : cond0_0 i) (hc1 : ¬cond0_1 i)
    (x0 : Vec F S5000x64 .f32) (x1 : Vec F S5000x64 .f32) (x2 : Vec F S64x64 .f32) (x3 : Vec F S64x64 .f32) (x4 : Vec F S1x64 .f32) :
    out0_A_5 c i arg1 harg1 arg2 harg2 arg3 harg3 arg4 harg4 arg5 harg5 arg6 harg6 arg7 harg7 arg8 harg8 arg9 harg9 arg10 harg10 hc0 hc1 x0 x1 x2 x3 x4 = k0_pay4 x0 x1 x2 x3 x4 := by
  unfold out0_A_5
  rw [View.read_writes_eq_canon _ _ _ (cover0_A_5 c i arg1 harg1 arg2 harg2 arg3 harg3 arg4 harg4 arg5 harg5 arg6 harg6 arg7 harg7 arg8 harg8 arg9 harg9 arg10 harg10 hc0 hc1 x0 x1 x2 x3 x4)]
  unfold kernelRun0_A
  dsimp only
  try sl_unfold_words
  first
    | rw [View.canon_unit_zero (S := S5000x64) hz2_0]
    | rw [View.canon_cons_unit_zero (S := S5000x64) hz2_0]
    | rw [View.canon_unit_zero (S := S1x64) hz2_0]
    | rw [View.canon_cons_unit_zero (S := S1x64) hz2_0]
  simp only [View.readAt_eq_ld, View.readCov_unit_zero (S := S5000x64) _ hz2_0, View.readCov_unit_zero (S := S1x64) _ hz2_0, harg1.read_unread, harg2.read_unread, harg3.read_unread, harg4.read_unread, harg5.read_unread, harg6.read_unread, harg7.read_unread, harg8.read_unread, harg9.read_unread, harg10.read_unread, View.ld_unit_zero (S := S5000x64) hz2_0, View.ld_unit_zero (S := S64x64) hz2_0, View.ld_unit_zero (S := S1x64) hz2_0]

theorem sout0_A_0_eq (c : Dev nD) (i : grid0.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S64x64 .f32) (harg4 : arg4.IsWhole) (arg5 : Memref sig .tc .vmem S1x64 .f32) (harg5 : arg5.IsWhole) (arg6 : Memref sig .tc .vmem S5000x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (hc0 : cond0_0 i) (hc1 : ¬cond0_1 i)
    (x0 : Vec F S5000x64 .f32) (x1 : Vec F S5000x64 .f32) (x2 : Vec F S64x64 .f32) (x3 : Vec F S64x64 .f32) (x4 : Vec F S1x64 .f32) :
    sout0_A_0 c i arg1 harg1 arg2 harg2 arg3 harg3 arg4 harg4 arg5 harg5 arg6 harg6 arg7 harg7 arg8 harg8 arg9 harg9 arg10 harg10 hc0 hc1 x0 x1 x2 x3 x4 = k0_pay5 x0 x1 x2 x3 x4 (k0_pay2 (F := F)) := by
  unfold sout0_A_0
  rw [View.read_writes_eq_canon _ _ _ (scover0_A_0 c i arg1 harg1 arg2 harg2 arg3 harg3 arg4 harg4 arg5 harg5 arg6 harg6 arg7 harg7 arg8 harg8 arg9 harg9 arg10 harg10 hc0 hc1 x0 x1 x2 x3 x4)]
  unfold kernelRun0_A
  dsimp only
  try sl_unfold_words
  first
    | rw [View.canon_unit_zero (S := S5000x64) hz2_0]
    | rw [View.canon_cons_unit_zero (S := S5000x64) hz2_0]
    | rw [View.canon_unit_zero (S := S1x64) hz2_0]
    | rw [View.canon_cons_unit_zero (S := S1x64) hz2_0]
  simp only [View.readAt_eq_ld, View.readCov_unit_zero (S := S5000x64) _ hz2_0, View.readCov_unit_zero (S := S1x64) _ hz2_0, harg1.read_unread, harg2.read_unread, harg3.read_unread, harg4.read_unread, harg5.read_unread, harg6.read_unread, harg7.read_unread, harg8.read_unread, harg9.read_unread, harg10.read_unread, View.ld_unit_zero (S := S5000x64) hz2_0, View.ld_unit_zero (S := S64x64) hz2_0, View.ld_unit_zero (S := S1x64) hz2_0]

theorem sout0_A_1_eq (c : Dev nD) (i : grid0.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S64x64 .f32) (harg4 : arg4.IsWhole) (arg5 : Memref sig .tc .vmem S1x64 .f32) (harg5 : arg5.IsWhole) (arg6 : Memref sig .tc .vmem S5000x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (hc0 : cond0_0 i) (hc1 : ¬cond0_1 i)
    (x0 : Vec F S5000x64 .f32) (x1 : Vec F S5000x64 .f32) (x2 : Vec F S64x64 .f32) (x3 : Vec F S64x64 .f32) (x4 : Vec F S1x64 .f32) :
    sout0_A_1 c i arg1 harg1 arg2 harg2 arg3 harg3 arg4 harg4 arg5 harg5 arg6 harg6 arg7 harg7 arg8 harg8 arg9 harg9 arg10 harg10 hc0 hc1 x0 x1 x2 x3 x4 = k0_pay1 (k0_pay6 x0 x1 x2 x3 x4 (k0_pay3 (F := F))) := by
  unfold sout0_A_1
  rw [View.read_writes_eq_canon _ _ _ (scover0_A_1 c i arg1 harg1 arg2 harg2 arg3 harg3 arg4 harg4 arg5 harg5 arg6 harg6 arg7 harg7 arg8 harg8 arg9 harg9 arg10 harg10 hc0 hc1 x0 x1 x2 x3 x4)]
  unfold kernelRun0_A
  dsimp only
  try sl_unfold_words
  first
    | rw [View.canon_unit_zero (S := S5000x64) hz2_0]
    | rw [View.canon_cons_unit_zero (S := S5000x64) hz2_0]
    | rw [View.canon_unit_zero (S := S1x64) hz2_0]
    | rw [View.canon_cons_unit_zero (S := S1x64) hz2_0]
  simp only [View.readAt_eq_ld, View.readCov_unit_zero (S := S5000x64) _ hz2_0, View.readCov_unit_zero (S := S1x64) _ hz2_0, harg1.read_unread, harg2.read_unread, harg3.read_unread, harg4.read_unread, harg5.read_unread, harg6.read_unread, harg7.read_unread, harg8.read_unread, harg9.read_unread, harg10.read_unread, View.ld_unit_zero (S := S5000x64) hz2_0, View.ld_unit_zero (S := S64x64) hz2_0, View.ld_unit_zero (S := S1x64) hz2_0]

theorem out0_B_5_eq (c : Dev nD) (i : grid0.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S64x64 .f32) (harg4 : arg4.IsWhole) (arg5 : Memref sig .tc .vmem S1x64 .f32) (harg5 : arg5.IsWhole) (arg6 : Memref sig .tc .vmem S5000x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (hc0 : ¬cond0_0 i) (hc1 : ¬cond0_1 i)
    (x0 : Vec F S5000x64 .f32) (x1 : Vec F S5000x64 .f32) (x2 : Vec F S64x64 .f32) (x3 : Vec F S64x64 .f32) (x4 : Vec F S1x64 .f32) (xs0 : Vec F S1x64 .f32) (xs1 : Vec F S1x64 .f32) :
    out0_B_5 c i arg1 harg1 arg2 harg2 arg3 harg3 arg4 harg4 arg5 harg5 arg6 harg6 arg7 harg7 arg8 harg8 arg9 harg9 arg10 harg10 hc0 hc1 x0 x1 x2 x3 x4 xs0 xs1 = k0_pay4 x0 x1 x2 x3 x4 := by
  unfold out0_B_5
  rw [View.read_writes_eq_canon _ _ _ (cover0_B_5 c i arg1 harg1 arg2 harg2 arg3 harg3 arg4 harg4 arg5 harg5 arg6 harg6 arg7 harg7 arg8 harg8 arg9 harg9 arg10 harg10 hc0 hc1 x0 x1 x2 x3 x4 xs0 xs1)]
  unfold kernelRun0_B
  dsimp only
  try sl_unfold_words
  first
    | rw [View.canon_unit_zero (S := S5000x64) hz2_0]
    | rw [View.canon_cons_unit_zero (S := S5000x64) hz2_0]
    | rw [View.canon_unit_zero (S := S1x64) hz2_0]
    | rw [View.canon_cons_unit_zero (S := S1x64) hz2_0]
  simp only [View.readAt_eq_ld, View.readCov_unit_zero (S := S5000x64) _ hz2_0, View.readCov_unit_zero (S := S1x64) _ hz2_0, harg1.read_unread, harg2.read_unread, harg3.read_unread, harg4.read_unread, harg5.read_unread, harg6.read_unread, harg7.read_unread, harg8.read_unread, harg9.read_unread, harg10.read_unread, View.ld_unit_zero (S := S5000x64) hz2_0, View.ld_unit_zero (S := S64x64) hz2_0, View.ld_unit_zero (S := S1x64) hz2_0]

theorem sout0_B_0_eq (c : Dev nD) (i : grid0.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S64x64 .f32) (harg4 : arg4.IsWhole) (arg5 : Memref sig .tc .vmem S1x64 .f32) (harg5 : arg5.IsWhole) (arg6 : Memref sig .tc .vmem S5000x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (hc0 : ¬cond0_0 i) (hc1 : ¬cond0_1 i)
    (x0 : Vec F S5000x64 .f32) (x1 : Vec F S5000x64 .f32) (x2 : Vec F S64x64 .f32) (x3 : Vec F S64x64 .f32) (x4 : Vec F S1x64 .f32) (xs0 : Vec F S1x64 .f32) (xs1 : Vec F S1x64 .f32) :
    sout0_B_0 c i arg1 harg1 arg2 harg2 arg3 harg3 arg4 harg4 arg5 harg5 arg6 harg6 arg7 harg7 arg8 harg8 arg9 harg9 arg10 harg10 hc0 hc1 x0 x1 x2 x3 x4 xs0 xs1 = k0_pay5 x0 x1 x2 x3 x4 xs0 := by
  unfold sout0_B_0
  rw [View.read_writes_eq_canon _ _ _ (scover0_B_0 c i arg1 harg1 arg2 harg2 arg3 harg3 arg4 harg4 arg5 harg5 arg6 harg6 arg7 harg7 arg8 harg8 arg9 harg9 arg10 harg10 hc0 hc1 x0 x1 x2 x3 x4 xs0 xs1)]
  unfold kernelRun0_B
  dsimp only
  try sl_unfold_words
  first
    | rw [View.canon_unit_zero (S := S5000x64) hz2_0]
    | rw [View.canon_cons_unit_zero (S := S5000x64) hz2_0]
    | rw [View.canon_unit_zero (S := S1x64) hz2_0]
    | rw [View.canon_cons_unit_zero (S := S1x64) hz2_0]
  simp only [View.readAt_eq_ld, View.readCov_unit_zero (S := S5000x64) _ hz2_0, View.readCov_unit_zero (S := S1x64) _ hz2_0, harg1.read_unread, harg2.read_unread, harg3.read_unread, harg4.read_unread, harg5.read_unread, harg6.read_unread, harg7.read_unread, harg8.read_unread, harg9.read_unread, harg10.read_unread, View.ld_unit_zero (S := S5000x64) hz2_0, View.ld_unit_zero (S := S64x64) hz2_0, View.ld_unit_zero (S := S1x64) hz2_0]

theorem sout0_B_1_eq (c : Dev nD) (i : grid0.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S64x64 .f32) (harg4 : arg4.IsWhole) (arg5 : Memref sig .tc .vmem S1x64 .f32) (harg5 : arg5.IsWhole) (arg6 : Memref sig .tc .vmem S5000x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (hc0 : ¬cond0_0 i) (hc1 : ¬cond0_1 i)
    (x0 : Vec F S5000x64 .f32) (x1 : Vec F S5000x64 .f32) (x2 : Vec F S64x64 .f32) (x3 : Vec F S64x64 .f32) (x4 : Vec F S1x64 .f32) (xs0 : Vec F S1x64 .f32) (xs1 : Vec F S1x64 .f32) :
    sout0_B_1 c i arg1 harg1 arg2 harg2 arg3 harg3 arg4 harg4 arg5 harg5 arg6 harg6 arg7 harg7 arg8 harg8 arg9 harg9 arg10 harg10 hc0 hc1 x0 x1 x2 x3 x4 xs0 xs1 = k0_pay1 (k0_pay6 x0 x1 x2 x3 x4 xs1) := by
  unfold sout0_B_1
  rw [View.read_writes_eq_canon _ _ _ (scover0_B_1 c i arg1 harg1 arg2 harg2 arg3 harg3 arg4 harg4 arg5 harg5 arg6 harg6 arg7 harg7 arg8 harg8 arg9 harg9 arg10 harg10 hc0 hc1 x0 x1 x2 x3 x4 xs0 xs1)]
  unfold kernelRun0_B
  dsimp only
  try sl_unfold_words
  first
    | rw [View.canon_unit_zero (S := S5000x64) hz2_0]
    | rw [View.canon_cons_unit_zero (S := S5000x64) hz2_0]
    | rw [View.canon_unit_zero (S := S1x64) hz2_0]
    | rw [View.canon_cons_unit_zero (S := S1x64) hz2_0]
  simp only [View.readAt_eq_ld, View.readCov_unit_zero (S := S5000x64) _ hz2_0, View.readCov_unit_zero (S := S1x64) _ hz2_0, harg1.read_unread, harg2.read_unread, harg3.read_unread, harg4.read_unread, harg5.read_unread, harg6.read_unread, harg7.read_unread, harg8.read_unread, harg9.read_unread, harg10.read_unread, View.ld_unit_zero (S := S5000x64) hz2_0, View.ld_unit_zero (S := S64x64) hz2_0, View.ld_unit_zero (S := S1x64) hz2_0]

theorem out0_C_5_eq (c : Dev nD) (i : grid0.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S64x64 .f32) (harg4 : arg4.IsWhole) (arg5 : Memref sig .tc .vmem S1x64 .f32) (harg5 : arg5.IsWhole) (arg6 : Memref sig .tc .vmem S5000x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (hc0 : ¬cond0_0 i) (hc1 : cond0_1 i)
    (x0 : Vec F S5000x64 .f32) (x1 : Vec F S5000x64 .f32) (x2 : Vec F S64x64 .f32) (x3 : Vec F S64x64 .f32) (x4 : Vec F S1x64 .f32) (xs0 : Vec F S1x64 .f32) (xs1 : Vec F S1x64 .f32) :
    out0_C_5 c i arg1 harg1 arg2 harg2 arg3 harg3 arg4 harg4 arg5 harg5 arg6 harg6 arg7 harg7 arg8 harg8 arg9 harg9 arg10 harg10 hc0 hc1 x0 x1 x2 x3 x4 xs0 xs1 = k0_pay4 x0 x1 x2 x3 x4 := by
  unfold out0_C_5
  rw [View.read_writes_eq_canon _ _ _ (cover0_C_5 c i arg1 harg1 arg2 harg2 arg3 harg3 arg4 harg4 arg5 harg5 arg6 harg6 arg7 harg7 arg8 harg8 arg9 harg9 arg10 harg10 hc0 hc1 x0 x1 x2 x3 x4 xs0 xs1)]
  unfold kernelRun0_C
  dsimp only
  try sl_unfold_words
  first
    | rw [View.canon_unit_zero (S := S5000x64) hz2_0]
    | rw [View.canon_cons_unit_zero (S := S5000x64) hz2_0]
    | rw [View.canon_unit_zero (S := S1x64) hz2_0]
    | rw [View.canon_cons_unit_zero (S := S1x64) hz2_0]
  simp only [View.readAt_eq_ld, View.readCov_unit_zero (S := S5000x64) _ hz2_0, View.readCov_unit_zero (S := S1x64) _ hz2_0, harg1.read_unread, harg2.read_unread, harg3.read_unread, harg4.read_unread, harg5.read_unread, harg6.read_unread, harg7.read_unread, harg8.read_unread, harg9.read_unread, harg10.read_unread, View.ld_unit_zero (S := S5000x64) hz2_0, View.ld_unit_zero (S := S64x64) hz2_0, View.ld_unit_zero (S := S1x64) hz2_0]

theorem sout0_C_0_eq (c : Dev nD) (i : grid0.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S64x64 .f32) (harg4 : arg4.IsWhole) (arg5 : Memref sig .tc .vmem S1x64 .f32) (harg5 : arg5.IsWhole) (arg6 : Memref sig .tc .vmem S5000x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (hc0 : ¬cond0_0 i) (hc1 : cond0_1 i)
    (x0 : Vec F S5000x64 .f32) (x1 : Vec F S5000x64 .f32) (x2 : Vec F S64x64 .f32) (x3 : Vec F S64x64 .f32) (x4 : Vec F S1x64 .f32) (xs0 : Vec F S1x64 .f32) (xs1 : Vec F S1x64 .f32) :
    sout0_C_0 c i arg1 harg1 arg2 harg2 arg3 harg3 arg4 harg4 arg5 harg5 arg6 harg6 arg7 harg7 arg8 harg8 arg9 harg9 arg10 harg10 hc0 hc1 x0 x1 x2 x3 x4 xs0 xs1 = k0_pay5 x0 x1 x2 x3 x4 xs0 := by
  unfold sout0_C_0
  rw [View.read_writes_eq_canon _ _ _ (scover0_C_0 c i arg1 harg1 arg2 harg2 arg3 harg3 arg4 harg4 arg5 harg5 arg6 harg6 arg7 harg7 arg8 harg8 arg9 harg9 arg10 harg10 hc0 hc1 x0 x1 x2 x3 x4 xs0 xs1)]
  unfold kernelRun0_C
  dsimp only
  try sl_unfold_words
  first
    | rw [View.canon_unit_zero (S := S5000x64) hz2_0]
    | rw [View.canon_cons_unit_zero (S := S5000x64) hz2_0]
    | rw [View.canon_unit_zero (S := S1x64) hz2_0]
    | rw [View.canon_cons_unit_zero (S := S1x64) hz2_0]
  simp only [View.readAt_eq_ld, View.readCov_unit_zero (S := S5000x64) _ hz2_0, View.readCov_unit_zero (S := S1x64) _ hz2_0, harg1.read_unread, harg2.read_unread, harg3.read_unread, harg4.read_unread, harg5.read_unread, harg6.read_unread, harg7.read_unread, harg8.read_unread, harg9.read_unread, harg10.read_unread, View.ld_unit_zero (S := S5000x64) hz2_0, View.ld_unit_zero (S := S64x64) hz2_0, View.ld_unit_zero (S := S1x64) hz2_0]

theorem sout0_C_1_eq (c : Dev nD) (i : grid0.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S64x64 .f32) (harg4 : arg4.IsWhole) (arg5 : Memref sig .tc .vmem S1x64 .f32) (harg5 : arg5.IsWhole) (arg6 : Memref sig .tc .vmem S5000x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (hc0 : ¬cond0_0 i) (hc1 : cond0_1 i)
    (x0 : Vec F S5000x64 .f32) (x1 : Vec F S5000x64 .f32) (x2 : Vec F S64x64 .f32) (x3 : Vec F S64x64 .f32) (x4 : Vec F S1x64 .f32) (xs0 : Vec F S1x64 .f32) (xs1 : Vec F S1x64 .f32) :
    sout0_C_1 c i arg1 harg1 arg2 harg2 arg3 harg3 arg4 harg4 arg5 harg5 arg6 harg6 arg7 harg7 arg8 harg8 arg9 harg9 arg10 harg10 hc0 hc1 x0 x1 x2 x3 x4 xs0 xs1 = k0_pay1 (k0_pay6 x0 x1 x2 x3 x4 xs1) := by
  unfold sout0_C_1
  rw [View.read_writes_eq_canon _ _ _ (scover0_C_1 c i arg1 harg1 arg2 harg2 arg3 harg3 arg4 harg4 arg5 harg5 arg6 harg6 arg7 harg7 arg8 harg8 arg9 harg9 arg10 harg10 hc0 hc1 x0 x1 x2 x3 x4 xs0 xs1)]
  unfold kernelRun0_C
  dsimp only
  try sl_unfold_words
  first
    | rw [View.canon_unit_zero (S := S5000x64) hz2_0]
    | rw [View.canon_cons_unit_zero (S := S5000x64) hz2_0]
    | rw [View.canon_unit_zero (S := S1x64) hz2_0]
    | rw [View.canon_cons_unit_zero (S := S1x64) hz2_0]
  simp only [View.readAt_eq_ld, View.readCov_unit_zero (S := S5000x64) _ hz2_0, View.readCov_unit_zero (S := S1x64) _ hz2_0, harg1.read_unread, harg2.read_unread, harg3.read_unread, harg4.read_unread, harg5.read_unread, harg6.read_unread, harg7.read_unread, harg8.read_unread, harg9.read_unread, harg10.read_unread, View.ld_unit_zero (S := S5000x64) hz2_0, View.ld_unit_zero (S := S64x64) hz2_0, View.ld_unit_zero (S := S1x64) hz2_0]

theorem out0_C_6_eq (c : Dev nD) (i : grid0.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S64x64 .f32) (harg4 : arg4.IsWhole) (arg5 : Memref sig .tc .vmem S1x64 .f32) (harg5 : arg5.IsWhole) (arg6 : Memref sig .tc .vmem S5000x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (hc0 : ¬cond0_0 i) (hc1 : cond0_1 i)
    (x0 : Vec F S5000x64 .f32) (x1 : Vec F S5000x64 .f32) (x2 : Vec F S64x64 .f32) (x3 : Vec F S64x64 .f32) (x4 : Vec F S1x64 .f32) (xs0 : Vec F S1x64 .f32) (xs1 : Vec F S1x64 .f32) :
    out0_C_6 c i arg1 harg1 arg2 harg2 arg3 harg3 arg4 harg4 arg5 harg5 arg6 harg6 arg7 harg7 arg8 harg8 arg9 harg9 arg10 harg10 hc0 hc1 x0 x1 x2 x3 x4 xs0 xs1 = k0_pay5 x0 x1 x2 x3 x4 xs0 := by
  unfold out0_C_6
  rw [View.read_writes_eq_canon _ _ _ (cover0_C_6 c i arg1 harg1 arg2 harg2 arg3 harg3 arg4 harg4 arg5 harg5 arg6 harg6 arg7 harg7 arg8 harg8 arg9 harg9 arg10 harg10 hc0 hc1 x0 x1 x2 x3 x4 xs0 xs1)]
  unfold kernelRun0_C
  dsimp only
  try sl_unfold_words
  first
    | rw [View.canon_unit_zero (S := S5000x64) hz2_0]
    | rw [View.canon_cons_unit_zero (S := S5000x64) hz2_0]
    | rw [View.canon_unit_zero (S := S1x64) hz2_0]
    | rw [View.canon_cons_unit_zero (S := S1x64) hz2_0]
  simp only [View.readAt_eq_ld, View.readCov_unit_zero (S := S5000x64) _ hz2_0, View.readCov_unit_zero (S := S1x64) _ hz2_0, harg1.read_unread, harg2.read_unread, harg3.read_unread, harg4.read_unread, harg5.read_unread, harg6.read_unread, harg7.read_unread, harg8.read_unread, harg9.read_unread, harg10.read_unread, View.ld_unit_zero (S := S5000x64) hz2_0, View.ld_unit_zero (S := S64x64) hz2_0, View.ld_unit_zero (S := S1x64) hz2_0]

theorem out0_C_7_eq (c : Dev nD) (i : grid0.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S64x64 .f32) (harg4 : arg4.IsWhole) (arg5 : Memref sig .tc .vmem S1x64 .f32) (harg5 : arg5.IsWhole) (arg6 : Memref sig .tc .vmem S5000x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (hc0 : ¬cond0_0 i) (hc1 : cond0_1 i)
    (x0 : Vec F S5000x64 .f32) (x1 : Vec F S5000x64 .f32) (x2 : Vec F S64x64 .f32) (x3 : Vec F S64x64 .f32) (x4 : Vec F S1x64 .f32) (xs0 : Vec F S1x64 .f32) (xs1 : Vec F S1x64 .f32) :
    out0_C_7 c i arg1 harg1 arg2 harg2 arg3 harg3 arg4 harg4 arg5 harg5 arg6 harg6 arg7 harg7 arg8 harg8 arg9 harg9 arg10 harg10 hc0 hc1 x0 x1 x2 x3 x4 xs0 xs1 = k0_pay1 (k0_pay6 x0 x1 x2 x3 x4 xs1) := by
  unfold out0_C_7
  rw [View.read_writes_eq_canon _ _ _ (cover0_C_7 c i arg1 harg1 arg2 harg2 arg3 harg3 arg4 harg4 arg5 harg5 arg6 harg6 arg7 harg7 arg8 harg8 arg9 harg9 arg10 harg10 hc0 hc1 x0 x1 x2 x3 x4 xs0 xs1)]
  unfold kernelRun0_C
  dsimp only
  try sl_unfold_words
  first
    | rw [View.canon_unit_zero (S := S5000x64) hz2_0]
    | rw [View.canon_cons_unit_zero (S := S5000x64) hz2_0]
    | rw [View.canon_unit_zero (S := S1x64) hz2_0]
    | rw [View.canon_cons_unit_zero (S := S1x64) hz2_0]
  simp only [View.readAt_eq_ld, View.readCov_unit_zero (S := S5000x64) _ hz2_0, View.readCov_unit_zero (S := S1x64) _ hz2_0, harg1.read_unread, harg2.read_unread, harg3.read_unread, harg4.read_unread, harg5.read_unread, harg6.read_unread, harg7.read_unread, harg8.read_unread, harg9.read_unread, harg10.read_unread, View.ld_unit_zero (S := S5000x64) hz2_0, View.ld_unit_zero (S := S64x64) hz2_0, View.ld_unit_zero (S := S1x64) hz2_0]

end Cert.KernelIdeal.Hand

end
-- ==== Proof.LibDot.lean ====
/-
  A matrix product with one contracted axis, read at an entry: the sum over the contraction index of a
  dimension-numbers record is the sum over `k : Fin K` of row entry `(r, k)` times column entry `(k, c)`,
  for rank-two operands [M, K] × [K, N] → [M, N] whose record contracts axis 1 of the left operand with
  axis 0 of the right one. The four coordinate facts about the record's operand indices are hypotheses; for a
  record with literal dimension lists each is `fun _ _ => rfl` or the library's single-axis lemma. The kernel's
  product into a zero accumulator (`matmul_ix2`) and the host's product (`dotGeneral_ix2`) are both that sum.
-/
import Mathlib
import Idealize.ShloMosaic.Lib.ValueIdx
import Idealize.ShloMosaic.PureOps.Ideal.Laws

namespace Cert.LibDot

open Idealize.ShloMosaic Idealize.ShloMosaic.ValueIdx

/-- The coordinate facts of a plain rows-by-columns product's dimension numbers. -/
structure Plain {M K N : Nat} (d : DotDims ⟨2, ![M, K]⟩ ⟨2, ![K, N]⟩ ⟨2, ![M, N]⟩) : Prop where
  hrank : d.contr.rank = 1
  hs : d.contr.size ⟨0, by omega⟩ = K
  hl0 : ∀ j k, (d.lhsIdx j k 0).val = (j 0).val
  hl1 : ∀ j k, (d.lhsIdx j k 1).val = (k ⟨0, by omega⟩).val
  hr0 : ∀ j k, (d.rhsIdx j k 0).val = (k ⟨0, by omega⟩).val
  hr1 : ∀ j k, (d.rhsIdx j k 1).val = (j 1).val

theorem dot_sum {M K N : Nat} {d : DotDims ⟨2, ![M, K]⟩ ⟨2, ![K, N]⟩ ⟨2, ![M, N]⟩} (hd : Plain d)
    (lhs : (⟨2, ![M, K]⟩ : Shape).Idx → EReal) (rhs : (⟨2, ![K, N]⟩ : Shape).Idx → EReal)
    (r : Fin M) (c : Fin N) :
    ∑ k : d.contr.Idx, lhs (d.lhsIdx (ix2 r c) k) * rhs (d.rhsIdx (ix2 r c) k)
      = ∑ k : Fin K, lhs (ix2 r k) * rhs (ix2 k c) := by
  rw [← Equiv.sum_comp (contrEquiv1 d K hd.hrank hd.hs).symm]
  refine Finset.sum_congr rfl fun k _ => ?_
  have e := contrEquiv1_symm_val d K hd.hrank hd.hs k
  have el : d.lhsIdx (ix2 r c) ((contrEquiv1 d K hd.hrank hd.hs).symm k) = ix2 r k := by
    funext a; apply Fin.ext
    match a with
    | ⟨0, _⟩ => exact hd.hl0 _ _
    | ⟨1, _⟩ => exact (hd.hl1 _ _).trans e
  have er : d.rhsIdx (ix2 r c) ((contrEquiv1 d K hd.hrank hd.hs).symm k) = ix2 k c := by
    funext a; apply Fin.ext
    match a with
    | ⟨0, _⟩ => exact (hd.hr0 _ _).trans e
    | ⟨1, _⟩ => exact hd.hr1 _ _
  rw [el, er]

/-- The kernel's matrix product into a zero accumulator, at entry (r, c). -/
theorem matmul_ix2 {M K N : Nat} {d : DotDims ⟨2, ![M, K]⟩ ⟨2, ![K, N]⟩ ⟨2, ![M, N]⟩} (hd : Plain d)
    {φ₁ φ₂ : FTy} (prec : Option ContractPrecision) (a : FVec Ideal ⟨2, ![M, K]⟩ φ₁) (b : FVec Ideal ⟨2, ![K, N]⟩ φ₂)
    (r : Fin M) (c : Fin N) :
    matmul d prec a b (constant ⟨2, ![M, N]⟩ .f32 0x00000000#32) (ix2 r c) = ∑ k : Fin K, a (ix2 r k) * b (ix2 k c) :=
  (Ideal.matmul_constant_zero_apply d prec a b (ix2 r c)).trans (dot_sum hd a b r c)

/-- The host's matrix product, at entry (r, c). -/
theorem dotGeneral_ix2 {M K N : Nat} {d : DotDims ⟨2, ![M, K]⟩ ⟨2, ![K, N]⟩ ⟨2, ![M, N]⟩} (hd : Plain d)
    {φ₁ φ₂ : FTy} (prec : Option ContractPrecision) (a : FVec Ideal ⟨2, ![M, K]⟩ φ₁) (b : FVec Ideal ⟨2, ![K, N]⟩ φ₂)
    (r : Fin M) (c : Fin N) :
    Host.dotGeneral d prec a b (ix2 r c) = ∑ k : Fin K, a (ix2 r k) * b (ix2 k c) :=
  (Ideal.dotGeneral_apply d prec _ a b (ix2 r c)).trans (dot_sum hd a b r c)

end Cert.LibDot
-- ==== Proof.LibRowSum.lean ====
/-
  Indices named by their coordinates, and a sum along the second axis of a matrix read at a row.

  An index of a rank-1 or rank-2 shape is determined by its coordinates' values, whatever term spells it (a composed
  index map of a broadcast, a lifted index of a reduction, a block's embedded index).  A lane reduction
  `multi_reduction <add>` of an [a, K] array along its second axis, from the zero word, read at row r over the
  extended reals, is the sum over k of the entries (r, k).
-/
import Idealize.ShloMosaic.PureOps.Ideal.Laws
import Idealize.ShloMosaic.Lib.ValueIdx

namespace Idealize.ShloMosaic.ValueIdx

open Idealize.ShloMosaic

/-- An index of a rank-2 shape is the one with the same two coordinates. -/
theorem idx2_ext {n0 n1 : Nat} (j : (⟨2, ![n0, n1]⟩ : Shape).Idx) (a : Fin n0) (b : Fin n1)
    (h0 : (j 0).val = a.val) (h1 : (j 1).val = b.val) : j = ix2 a b :=
  funext fun d => Fin.ext (by match d with | ⟨0, _⟩ => exact h0 | ⟨1, _⟩ => exact h1)

/-- An index of a rank-1 shape is the one with the same coordinate. -/
theorem idx1_ext {n : Nat} (j : (⟨1, ![n]⟩ : Shape).Idx) (a : Fin n) (h0 : (j 0).val = a.val) : j = ix1 a :=
  funext fun d => Fin.ext (by match d with | ⟨0, _⟩ => exact h0)

/-- A sum along the second axis of an [a, K] array, from the zero word, read at row `r`: `∑ k, src (r, k)`. The shape
    fact, the format fact and the accumulator's neutrality are whatever proofs the printed operation carries. -/
theorem multiReduction_add_rows_apply {a K : ℕ} (src : FVec Ideal ⟨2, ![a, K]⟩ .f32)
    (hr : (⟨2, ![a, K]⟩ : Shape).Reduces [1] ⟨1, ![a]⟩) (hφ : FKind.Formats .f32)
    (hacc : (0x00000000#32 : BitVec 32) = FKind.add.neutral .f32 hφ) (r : Fin a) :
    multiReduction .add [1] ⟨1, ![a]⟩ src 0x00000000#32 hr hφ hacc (ix1 r) = ∑ k : Fin K, src (ix2 r k) :=
  (Ideal.multiReduction_add_single src _ hr hφ hacc (ix1 r)).trans
    (Finset.sum_congr rfl fun k _ => congrArg src (idx2_ext _ r k rfl rfl))

end Idealize.ShloMosaic.ValueIdx
-- ==== Proof.LibColSum.lean ====
/-
  A sum along the FIRST axis of a matrix read at a column.

  A sublane reduction `multi_reduction <add>` of a [K, b] array along its first axis, from the zero word, read at
  column j over the extended reals, is the sum over k of the entries (k, j).
-/
import proofs.«149204_j28372553957731_2_alg».proof.Proof.LibRowSum

namespace Idealize.ShloMosaic.ValueIdx

open Idealize.ShloMosaic

/-- A sum along the first axis of a [K, b] array, from the zero word, read at column `j`: `∑ k, src (k, j)`. The shape
    fact, the format fact and the accumulator's neutrality are whatever proofs the printed operation carries. -/
theorem multiReduction_add_cols_apply {K b : ℕ} (src : FVec Ideal ⟨2, ![K, b]⟩ .f32)
    (hr : (⟨2, ![K, b]⟩ : Shape).Reduces [0] ⟨1, ![b]⟩) (hφ : FKind.Formats .f32)
    (hacc : (0x00000000#32 : BitVec 32) = FKind.add.neutral .f32 hφ) (j : Fin b) :
    multiReduction .add [0] ⟨1, ![b]⟩ src 0x00000000#32 hr hφ hacc (ix1 j) = ∑ k : Fin K, src (ix2 k j) :=
  (Ideal.multiReduction_add_single src _ hr hφ hacc (ix1 j)).trans
    (Finset.sum_congr rfl fun k _ => congrArg src (idx2_ext _ k j rfl rfl))

end Idealize.ShloMosaic.ValueIdx
-- ==== Proof.KernelIdealR0Pay.lean ====
/- Region 0's arithmetic read at an index, on the extended reals. The block of results: entry (r, c) is
   (∑ₖ agg(r,k)·W_nbr(k,c) + ∑ₖ x(r,k)·W_root(k,c)) + b(c) — two products into zero accumulators, the format changes the
   identity. The accumulators: what they held plus the block's column sums, of the results and of their squares. -/
import proofs.«149204_j28372553957731_2_alg».proof.Proof.Gen.KernelIdeal.Skeleton
import proofs.«149204_j28372553957731_2_alg».proof.Proof.LibDot
import proofs.«149204_j28372553957731_2_alg».proof.Proof.LibColSum
import proofs.«149204_j28372553957731_2_alg».proof.Proof.Consts
import Idealize.ShloMosaic.Lib.ValueLayout
import Idealize.ShloMosaic.Lib.Pipeline.Value

set_option maxRecDepth 16384

noncomputable section

namespace Cert.KernelIdeal.Val

open Cert.KernelIdeal Cert.KernelIdeal.Gen
open Idealize.ShloMosaic Idealize.ShloMosaic.ValueIdx

theorem dot0_plain : Cert.LibDot.Plain dot_S5000x64_S64x64_S5000x64_1_0_0_1_n_n :=
  ⟨rfl, rfl, fun _ _ => rfl, fun _ _ => rfl, fun _ _ => rfl, fun _ _ => rfl⟩

/-- One entry of a block of results. -/
def hEntry (x a : Vec Ideal S5000x64 .f32) (wr wn : Vec Ideal S64x64 .f32) (b : Vec Ideal S1x64 .f32) (r : Fin 5000) (c : Fin 64) : EReal :=
  (∑ k : Fin 64, a (ix2 r k) * wn (ix2 k c) + ∑ k : Fin 64, x (ix2 r k) * wr (ix2 k c)) + b (ix2 (0 : Fin 1) c)

/-- Row `i` of the array of results, from the whole arrays. -/
def H0 (X A : S100000x64.Idx → EReal) (Wr Wn : S64x64.Idx → EReal) (B : S1x64.Idx → EReal) (i : Fin 100000) (k : Fin 64) : EReal :=
  (∑ j : Fin 64, A (ix2 i j) * Wn (ix2 j k) + ∑ j : Fin 64, X (ix2 i j) * Wr (ix2 j k)) + B (ix2 (0 : Fin 1) k)

theorem pay4_apply (x a : Vec Ideal S5000x64 .f32) (wr wn : Vec Ideal S64x64 .f32) (b : Vec Ideal S1x64 .f32) (r : Fin 5000) (c : Fin 64) :
    k0_pay4 (F := Ideal) x a wr wn b (ix2 r c) = hEntry x a wr wn b r c := by
  unfold k0_pay4 hEntry
  simp only [addf_apply, broadcastTo_1b_ab_apply, shapeCast_self, Cert.LibDot.matmul_ix2 dot0_plain, truncf_apply]

theorem pay2_apply (u : Fin 1) (c : Fin 64) : k0_pay2 (F := Ideal) (ix2 u c) = 0 := by
  unfold k0_pay2
  simp only [shapeCast_self, broadcast_apply]
  exact Cert.Consts.ofBits_zero
theorem pay3_apply (u : Fin 1) (c : Fin 64) : k0_pay3 (F := Ideal) (ix2 u c) = 0 := by
  unfold k0_pay3
  simp only [shapeCast_self, broadcast_apply]
  exact Cert.Consts.ofBits_zero

theorem pay5_apply (x a : Vec Ideal S5000x64 .f32) (wr wn : Vec Ideal S64x64 .f32) (b : Vec Ideal S1x64 .f32) (s : Vec Ideal S1x64 .f32) (u : Fin 1) (c : Fin 64) :
    k0_pay5 (F := Ideal) x a wr wn b s (ix2 u c) = s (ix2 u c) + ∑ r : Fin 5000, hEntry x a wr wn b r c := by
  unfold k0_pay5
  simp only [shapeCast_self, addf_apply, shapeCast_a_1a_apply]
  refine congrArg (fun z => s (ix2 u c) + z) ?_
  refine (multiReduction_add_cols_apply (K := 5000) (b := 64) (k0_pay4 (F := Ideal) x a wr wn b) _ _ _ c).trans ?_
  exact Finset.sum_congr rfl fun r _ => pay4_apply x a wr wn b r c

theorem pay61_apply (x a : Vec Ideal S5000x64 .f32) (wr wn : Vec Ideal S64x64 .f32) (b : Vec Ideal S1x64 .f32) (s : Vec Ideal S1x64 .f32) (u : Fin 1) (c : Fin 64) :
    k0_pay1 (F := Ideal) (k0_pay6 x a wr wn b s) (ix2 u c) = s (ix2 u c) + ∑ r : Fin 5000, hEntry x a wr wn b r c * hEntry x a wr wn b r c := by
  unfold k0_pay1 k0_pay6
  simp only [shapeCast_self, addf_apply, shapeCast_a_1a_apply]
  refine congrArg (fun z => s (ix2 u c) + z) ?_
  refine (multiReduction_add_cols_apply (K := 5000) (b := 64) (mulf (k0_pay4 (F := Ideal) x a wr wn b) (k0_pay4 (F := Ideal) x a wr wn b)) _ _ _ c).trans ?_
  exact Finset.sum_congr rfl fun r _ => by rw [mulf_apply, pay4_apply]

end Cert.KernelIdeal.Val

end
-- ==== Proof.LibSumBlocks.lean ====
/-
  A sum over an index range cut into equal consecutive blocks: the sum over `Fin N`, `N = a·b`, is the sum
  over the `a` blocks of the sums over the `b` positions inside each, position `k` of block `t` being the index
  `t·b + k`. In any commutative additive monoid (the extended reals among them), so no finiteness is asked.
-/
import Mathlib

namespace Cert.LibSumBlocks

/-- Position `k` of block `t` lies inside the range. -/
theorem block_lt {a b : ℕ} (t : Fin a) (k : Fin b) : t.val * b + k.val < a * b := by
  have h1 : t.val + 1 ≤ a := t.isLt
  have h2 : k.val < b := k.isLt
  calc t.val * b + k.val < t.val * b + b := by omega
    _ = (t.val + 1) * b := by ring
    _ ≤ a * b := Nat.mul_le_mul_right b h1

/-- The sum over `Fin N`, `N = a·b`, block by block. -/
theorem sum_blocks {M : Type*} [AddCommMonoid M] (a b N : ℕ) (h : N = a * b) (f : Fin N → M) :
    ∑ n : Fin N, f n = ∑ t : Fin a, ∑ k : Fin b, f ⟨t.val * b + k.val, h ▸ block_lt t k⟩ := by
  subst h
  rw [← Equiv.sum_comp finProdFinEquiv f, Fintype.sum_prod_type]
  refine Finset.sum_congr rfl fun t _ => Finset.sum_congr rfl fun k _ => ?_
  congr 1
  apply Fin.ext
  simp only [finProdFinEquiv_apply_val]
  ring

end Cert.LibSumBlocks
-- ==== Proof.LibSumPrefix.lean ====
/-
  A sum over an index range cut into equal consecutive blocks, the blocks counted from `0` up to a last one: when the
  count `n + 1` of blocks is the number `a` the range is cut into, the sum over the blocks `t : Fin (n + 1)` of the sums
  over the `b` positions `t·b + r` inside each is the sum over the whole range. The bound of each position is whatever
  proof the caller has. In any commutative additive monoid.
-/
import proofs.«149204_j28372553957731_2_alg».proof.Proof.LibSumBlocks

namespace Cert.LibSumPrefix

theorem sum_prefix_all {M : Type*} [AddCommMonoid M] (a b N : ℕ) (h : N = a * b) (f : Fin N → M) (n : ℕ) (hn : n + 1 = a)
    (hb : ∀ (t : Fin (n + 1)) (r : Fin b), t.val * b + r.val < N) :
    ∑ t : Fin (n + 1), ∑ r : Fin b, f ⟨t.val * b + r.val, hb t r⟩ = ∑ i : Fin N, f i := by
  subst hn
  exact (Cert.LibSumBlocks.sum_blocks (n + 1) b N h f).symm

end Cert.LibSumPrefix
-- ==== Proof.KernelIdealR0Val.lean ====
/- Region 0's buffers as functions of the arrays it is entered with. Point `t` sees rows `t·5000 … t·5000 + 4999` of
   the two row-blocked inputs and all of the small ones (the printed index maps, decided over the grid). So the block of
   results at `t` is rows `t·5000 + r` of ONE array of results, the big output ends holding that array (its blocks tile it),
   and the accumulators after point `n` hold the column sums of its first `(n+1)·5000` rows — of the results and of their
   squares — by induction on the point; the last point copies them out, and a sum over consecutive equal blocks is the
   sum over all rows. -/
import proofs.«149204_j28372553957731_2_alg».proof.Proof.KernelIdealR0Pieces
import proofs.«149204_j28372553957731_2_alg».proof.Proof.KernelIdealR0Pay
import proofs.«149204_j28372553957731_2_alg».proof.Proof.LibSumPrefix
import Idealize.ShloMosaic.Lib.Pipeline.Value

set_option maxRecDepth 16384

noncomputable section

namespace Cert.KernelIdeal.Val

open Cert.KernelIdeal Cert.KernelIdeal.Gen
open Idealize.ShloMosaic Idealize.ShloMosaic.ValueIdx

open Cert.KernelIdeal.GenP Cert.KernelIdeal.Hand Idealize.ShloMosaic.TcCoe
open Idealize.ShloMosaic.Pipeline (Dat)

variable (V : (c : Dev nD) → (b : Ref sig .tc) → Buf (Elt Ideal) ((c : Thread nD τ).loc b)) (c : Dev nD)

theorem idx_facts0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0 :=
  (by decide +kernel : ∀ t : Fin grid0.N, _)

theorem N0' : cfg0.N = 20 := N_0
theorem lastPt0 : (19 : ℕ) < cfg0.N := by rw [N0']; omega
theorem bnd0 (t : Fin cfg0.N) (r : Fin 5000) : t.val * 5000 + r.val < 100000 := by
  have := lt_of_lt_of_eq t.isLt N0'; have := r.isLt; omega

/-! ## A block read is a read of the array -/

theorem rd0_0 (t : Fin cfg0.N) (r : Fin 5000) (k : Fin 64) :
    iblk0 V c 0 t (ix2 r k) = V c main_arg0 (ix2 ⟨t.val * 5000 + r.val, bnd0 t r⟩ k) := by
  obtain ⟨e0, e1, e2, e3, e4, e5, e6, e7, e8, e9, e10, e11, e12, e13, e14, e15⟩ := idx_facts0 t
  show V c main_arg0 (((cfg0.win 0).blk t).view.emb (ix2 r k)) = _
  refine congrArg (V c main_arg0) ?_
  funext a; apply Fin.ext
  match a with
  | ⟨0, _⟩ => show win0_0.index t (0 : Fin 2) * 5000 + 1 * r.val = t.val * 5000 + r.val; rw [e0]; omega
  | ⟨1, _⟩ => show win0_0.index t (1 : Fin 2) * 64 + 1 * k.val = k.val; rw [e1]; omega

theorem rd0_1 (t : Fin cfg0.N) (r : Fin 5000) (k : Fin 64) :
    iblk0 V c 1 t (ix2 r k) = V c main_v13 (ix2 ⟨t.val * 5000 + r.val, bnd0 t r⟩ k) := by
  obtain ⟨e0, e1, e2, e3, e4, e5, e6, e7, e8, e9, e10, e11, e12, e13, e14, e15⟩ := idx_facts0 t
  show V c main_v13 (((cfg0.win 1).blk t).view.emb (ix2 r k)) = _
  refine congrArg (V c main_v13) ?_
  funext a; apply Fin.ext
  match a with
  | ⟨0, _⟩ => show win0_1.index t (0 : Fin 2) * 5000 + 1 * r.val = t.val * 5000 + r.val; rw [e2]; omega
  | ⟨1, _⟩ => show win0_1.index t (1 : Fin 2) * 64 + 1 * k.val = k.val; rw [e3]; omega

theorem rd0_2 (t : Fin cfg0.N) (r : Fin 64) (k : Fin 64) :
    iblk0 V c 2 t (ix2 r k) = V c main_arg2 (ix2 r k) := by
  obtain ⟨e0, e1, e2, e3, e4, e5, e6, e7, e8, e9, e10, e11, e12, e13, e14, e15⟩ := idx_facts0 t
  show V c main_arg2 (((cfg0.win 2).blk t).view.emb (ix2 r k)) = _
  refine congrArg (V c main_arg2) ?_
  funext a; apply Fin.ext
  match a with
  | ⟨0, _⟩ => show win0_2.index t (0 : Fin 2) * 64 + 1 * r.val = r.val; rw [e4]; omega
  | ⟨1, _⟩ => show win0_2.index t (1 : Fin 2) * 64 + 1 * k.val = k.val; rw [e5]; omega

theorem rd0_3 (t : Fin cfg0.N) (r : Fin 64) (k : Fin 64) :
    iblk0 V c 3 t (ix2 r k) = V c main_arg3 (ix2 r k) := by
  obtain ⟨e0, e1, e2, e3, e4, e5, e6, e7, e8, e9, e10, e11, e12, e13, e14, e15⟩ := idx_facts0 t
  show V c main_arg3 (((cfg0.win 3).blk t).view.emb (ix2 r k)) = _
  refine congrArg (V c main_arg3) ?_
  funext a; apply Fin.ext
  match a with
  | ⟨0, _⟩ => show win0_3.index t (0 : Fin 2) * 64 + 1 * r.val = r.val; rw [e6]; omega
  | ⟨1, _⟩ => show win0_3.index t (1 : Fin 2) * 64 + 1 * k.val = k.val; rw [e7]; omega

theorem rd0_4 (t : Fin cfg0.N) (r : Fin 1) (k : Fin 64) :
    iblk0 V c 4 t (ix2 r k) = V c main_v14 (ix2 r k) := by
  obtain ⟨e0, e1, e2, e3, e4, e5, e6, e7, e8, e9, e10, e11, e12, e13, e14, e15⟩ := idx_facts0 t
  show V c main_v14 (((cfg0.win 4).blk t).view.emb (ix2 r k)) = _
  refine congrArg (V c main_v14) ?_
  funext a; apply Fin.ext
  match a with
  | ⟨0, _⟩ => show win0_4.index t (0 : Fin 2) * 1 + 1 * r.val = r.val; rw [e8]; omega
  | ⟨1, _⟩ => show win0_4.index t (1 : Fin 2) * 64 + 1 * k.val = k.val; rw [e9]; omega

/-- An entry of the point's block of results is an entry of the array of results. -/
theorem entry_blk0 (t : Fin cfg0.N) (r : Fin 5000) (k : Fin 64) :
    hEntry (iblk0 V c 0 t) (iblk0 V c 1 t) (iblk0 V c 2 t) (iblk0 V c 3 t) (iblk0 V c 4 t) r k = H0 (V c main_arg0) (V c main_v13) (V c main_arg2) (V c main_arg3) (V c main_v14) ⟨t.val * 5000 + r.val, bnd0 t r⟩ k := by
  unfold hEntry H0
  simp only [rd0_0 V c t, rd0_1 V c t, rd0_2 V c t, rd0_3 V c t, rd0_4 V c t]

/-! ## What the point's run leaves -/

theorem o5_eq (t : Fin cfg0.N) :
    (outsAt0 V c t.val t.isLt).o5 = k0_pay4 (F := Ideal) (iblk0 V c 0 t) (iblk0 V c 1 t) (iblk0 V c 2 t) (iblk0 V c 3 t) (iblk0 V c 4 t) := by
  have hN := lt_of_lt_of_eq t.isLt N0'
  by_cases h0 : t.val = 0
  · have h1 : t.val ≠ 19 := by omega
    rw [outsAt0_first V c t h0 h1]; unfold outA0; dsimp only
    exact out0_A_5_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (hA0 t h0) (hnC0 t h1) (iblk0 V c 0 t) (iblk0 V c 1 t) (iblk0 V c 2 t) (iblk0 V c 3 t) (iblk0 V c 4 t)
  · by_cases h1 : t.val = 19
    · rw [outsAt0_last V c t h0 h1]; unfold outC0; dsimp only
      exact out0_C_5_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (hnA0 t h0) (hC0 t h1) (iblk0 V c 0 t) (iblk0 V c 1 t) (iblk0 V c 2 t) (iblk0 V c 3 t) (iblk0 V c 4 t) _ _
    · rw [outsAt0_mid V c t h0 h1]; unfold outB0; dsimp only
      exact out0_B_5_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (hnA0 t h0) (hnC0 t h1) (iblk0 V c 0 t) (iblk0 V c 1 t) (iblk0 V c 2 t) (iblk0 V c 3 t) (iblk0 V c 4 t) _ _

theorem s0r0_first (t : Fin cfg0.N) (h0 : t.val = 0) :
    (outsAt0 V c t.val t.isLt).s0 = k0_pay5 (F := Ideal) (iblk0 V c 0 t) (iblk0 V c 1 t) (iblk0 V c 2 t) (iblk0 V c 3 t) (iblk0 V c 4 t) (k0_pay2 (F := Ideal)) := by
  have hN := lt_of_lt_of_eq t.isLt N0'
  have h1 : t.val ≠ 19 := by omega
  rw [outsAt0_first V c t h0 h1]; unfold outA0; dsimp only
  exact sout0_A_0_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (hA0 t h0) (hnC0 t h1) (iblk0 V c 0 t) (iblk0 V c 1 t) (iblk0 V c 2 t) (iblk0 V c 3 t) (iblk0 V c 4 t)
theorem s0r0_next (t : Fin cfg0.N) (h0 : t.val ≠ 0) :
    (outsAt0 V c t.val t.isLt).s0
      = k0_pay5 (F := Ideal) (iblk0 V c 0 t) (iblk0 V c 1 t) (iblk0 V c 2 t) (iblk0 V c 3 t) (iblk0 V c 4 t) (outsAt0 V c (t.val - 1) (Nat.lt_of_le_of_lt (Nat.sub_le _ _) t.isLt)).s0 := by
  by_cases h1 : t.val = 19
  · rw [outsAt0_last V c t h0 h1]; unfold outC0; dsimp only
    exact sout0_C_0_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (hnA0 t h0) (hC0 t h1) (iblk0 V c 0 t) (iblk0 V c 1 t) (iblk0 V c 2 t) (iblk0 V c 3 t) (iblk0 V c 4 t) _ _
  · rw [outsAt0_mid V c t h0 h1]; unfold outB0; dsimp only
    exact sout0_B_0_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (hnA0 t h0) (hnC0 t h1) (iblk0 V c 0 t) (iblk0 V c 1 t) (iblk0 V c 2 t) (iblk0 V c 3 t) (iblk0 V c 4 t) _ _

theorem s1r0_first (t : Fin cfg0.N) (h0 : t.val = 0) :
    (outsAt0 V c t.val t.isLt).s1 = k0_pay1 (F := Ideal) (k0_pay6 (iblk0 V c 0 t) (iblk0 V c 1 t) (iblk0 V c 2 t) (iblk0 V c 3 t) (iblk0 V c 4 t) (k0_pay3 (F := Ideal))) := by
  have hN := lt_of_lt_of_eq t.isLt N0'
  have h1 : t.val ≠ 19 := by omega
  rw [outsAt0_first V c t h0 h1]; unfold outA0; dsimp only
  exact sout0_A_1_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (hA0 t h0) (hnC0 t h1) (iblk0 V c 0 t) (iblk0 V c 1 t) (iblk0 V c 2 t) (iblk0 V c 3 t) (iblk0 V c 4 t)
theorem s1r0_next (t : Fin cfg0.N) (h0 : t.val ≠ 0) :
    (outsAt0 V c t.val t.isLt).s1
      = k0_pay1 (F := Ideal) (k0_pay6 (iblk0 V c 0 t) (iblk0 V c 1 t) (iblk0 V c 2 t) (iblk0 V c 3 t) (iblk0 V c 4 t) (outsAt0 V c (t.val - 1) (Nat.lt_of_le_of_lt (Nat.sub_le _ _) t.isLt)).s1) := by
  by_cases h1 : t.val = 19
  · rw [outsAt0_last V c t h0 h1]; unfold outC0; dsimp only
    exact sout0_C_1_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (hnA0 t h0) (hC0 t h1) (iblk0 V c 0 t) (iblk0 V c 1 t) (iblk0 V c 2 t) (iblk0 V c 3 t) (iblk0 V c 4 t) _ _
  · rw [outsAt0_mid V c t h0 h1]; unfold outB0; dsimp only
    exact sout0_B_1_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (hnA0 t h0) (hnC0 t h1) (iblk0 V c 0 t) (iblk0 V c 1 t) (iblk0 V c 2 t) (iblk0 V c 3 t) (iblk0 V c 4 t) _ _

/-- At the last point the two small outputs receive the accumulators. -/
theorem o6_last (t : Fin cfg0.N) (h1 : t.val = 19) : (outsAt0 V c t.val t.isLt).o6 = (outsAt0 V c t.val t.isLt).s0 := by
  have h0 : t.val ≠ 0 := by omega
  rw [outsAt0_last V c t h0 h1]; unfold outC0; dsimp only
  rw [out0_C_6_eq, sout0_C_0_eq]
theorem o7_last (t : Fin cfg0.N) (h1 : t.val = 19) : (outsAt0 V c t.val t.isLt).o7 = (outsAt0 V c t.val t.isLt).s1 := by
  have h0 : t.val ≠ 0 := by omega
  rw [outsAt0_last V c t h0 h1]; unfold outC0; dsimp only
  rw [out0_C_7_eq, sout0_C_1_eq]

theorem outsAt0_congr {n n' : ℕ} (h : n = n') (hn : n < cfg0.N) (hn' : n' < cfg0.N) :
    outsAt0 V c n hn = outsAt0 V c n' hn' := by subst h; rfl

/-! ## The running column sums -/

theorem bndn0 {n : ℕ} (hn : n < 20) (t : Fin (n + 1)) (r : Fin 5000) : t.val * 5000 + r.val < 100000 := by
  have := t.isLt; have := r.isLt; omega

/-- What accumulator 0 holds after a point is what it held plus the block's column sum. -/
theorem s0r0_step_first (hn : 0 < cfg0.N) (u : Fin 1) (k : Fin 64) :
    (outsAt0 V c 0 hn).s0 (ix2 u k) = ∑ r : Fin 5000, H0 (V c main_arg0) (V c main_v13) (V c main_arg2) (V c main_arg3) (V c main_v14) ⟨(⟨0, hn⟩ : Fin cfg0.N).val * 5000 + r.val, bnd0 ⟨0, hn⟩ r⟩ k := by
  rw [show (outsAt0 V c 0 hn).s0 = (outsAt0 V c (⟨0, hn⟩ : Fin cfg0.N).val (⟨0, hn⟩ : Fin cfg0.N).isLt).s0 from rfl,
    s0r0_first V c ⟨0, hn⟩ rfl, pay5_apply, pay2_apply, zero_add]
  exact Finset.sum_congr rfl fun r _ => by rw [entry_blk0 V c ⟨0, hn⟩ r k]
theorem s0r0_step_next (n : ℕ) (hn : n + 1 < cfg0.N) (u : Fin 1) (k : Fin 64) :
    (outsAt0 V c (n + 1) hn).s0 (ix2 u k)
      = (outsAt0 V c n (Nat.lt_of_succ_lt hn)).s0 (ix2 u k)
        + ∑ r : Fin 5000, H0 (V c main_arg0) (V c main_v13) (V c main_arg2) (V c main_arg3) (V c main_v14) ⟨(⟨n + 1, hn⟩ : Fin cfg0.N).val * 5000 + r.val, bnd0 ⟨n + 1, hn⟩ r⟩ k := by
  rw [show (outsAt0 V c (n + 1) hn).s0 = (outsAt0 V c (⟨n + 1, hn⟩ : Fin cfg0.N).val (⟨n + 1, hn⟩ : Fin cfg0.N).isLt).s0 from rfl,
    s0r0_next V c ⟨n + 1, hn⟩ (Nat.succ_ne_zero n), pay5_apply]
  refine congrArg₂ (· + ·) rfl ?_
  exact Finset.sum_congr rfl fun r _ => by rw [entry_blk0 V c ⟨n + 1, hn⟩ r k]

theorem s0r0_closed : ∀ (n : ℕ) (hn : n < cfg0.N) (hn' : n < 20) (u : Fin 1) (k : Fin 64),
    (outsAt0 V c n hn).s0 (ix2 u k) = ∑ t : Fin (n + 1), ∑ r : Fin 5000, H0 (V c main_arg0) (V c main_v13) (V c main_arg2) (V c main_arg3) (V c main_v14) ⟨t.val * 5000 + r.val, bndn0 hn' t r⟩ k
  | 0, hn, hn', u, k => by
    rw [s0r0_step_first V c hn u k, Fin.sum_univ_one]
    rfl
  | n + 1, hn, hn', u, k => by
    rw [s0r0_step_next V c n hn u k, s0r0_closed n (Nat.lt_of_succ_lt hn) (Nat.lt_of_succ_lt hn') u k]
    conv_rhs => rw [Fin.sum_univ_castSucc]
    rfl

/-- What accumulator 1 holds after a point is what it held plus the block's column sum of squares. -/
theorem s1r0_step_first (hn : 0 < cfg0.N) (u : Fin 1) (k : Fin 64) :
    (outsAt0 V c 0 hn).s1 (ix2 u k) = ∑ r : Fin 5000, H0 (V c main_arg0) (V c main_v13) (V c main_arg2) (V c main_arg3) (V c main_v14) ⟨(⟨0, hn⟩ : Fin cfg0.N).val * 5000 + r.val, bnd0 ⟨0, hn⟩ r⟩ k * H0 (V c main_arg0) (V c main_v13) (V c main_arg2) (V c main_arg3) (V c main_v14) ⟨(⟨0, hn⟩ : Fin cfg0.N).val * 5000 + r.val, bnd0 ⟨0, hn⟩ r⟩ k := by
  rw [show (outsAt0 V c 0 hn).s1 = (outsAt0 V c (⟨0, hn⟩ : Fin cfg0.N).val (⟨0, hn⟩ : Fin cfg0.N).isLt).s1 from rfl,
    s1r0_first V c ⟨0, hn⟩ rfl, pay61_apply, pay3_apply, zero_add]
  exact Finset.sum_congr rfl fun r _ => by rw [entry_blk0 V c ⟨0, hn⟩ r k]
theorem s1r0_step_next (n : ℕ) (hn : n + 1 < cfg0.N) (u : Fin 1) (k : Fin 64) :
    (outsAt0 V c (n + 1) hn).s1 (ix2 u k)
      = (outsAt0 V c n (Nat.lt_of_succ_lt hn)).s1 (ix2 u k)
        + ∑ r : Fin 5000, H0 (V c main_arg0) (V c main_v13) (V c main_arg2) (V c main_arg3) (V c main_v14) ⟨(⟨n + 1, hn⟩ : Fin cfg0.N).val * 5000 + r.val, bnd0 ⟨n + 1, hn⟩ r⟩ k * H0 (V c main_arg0) (V c main_v13) (V c main_arg2) (V c main_arg3) (V c main_v14) ⟨(⟨n + 1, hn⟩ : Fin cfg0.N).val * 5000 + r.val, bnd0 ⟨n + 1, hn⟩ r⟩ k := by
  rw [show (outsAt0 V c (n + 1) hn).s1 = (outsAt0 V c (⟨n + 1, hn⟩ : Fin cfg0.N).val (⟨n + 1, hn⟩ : Fin cfg0.N).isLt).s1 from rfl,
    s1r0_next V c ⟨n + 1, hn⟩ (Nat.succ_ne_zero n), pay61_apply]
  refine congrArg₂ (· + ·) rfl ?_
  exact Finset.sum_congr rfl fun r _ => by rw [entry_blk0 V c ⟨n + 1, hn⟩ r k]

theorem s1r0_closed : ∀ (n : ℕ) (hn : n < cfg0.N) (hn' : n < 20) (u : Fin 1) (k : Fin 64),
    (outsAt0 V c n hn).s1 (ix2 u k) = ∑ t : Fin (n + 1), ∑ r : Fin 5000, H0 (V c main_arg0) (V c main_v13) (V c main_arg2) (V c main_arg3) (V c main_v14) ⟨t.val * 5000 + r.val, bndn0 hn' t r⟩ k * H0 (V c main_arg0) (V c main_v13) (V c main_arg2) (V c main_arg3) (V c main_v14) ⟨t.val * 5000 + r.val, bndn0 hn' t r⟩ k
  | 0, hn, hn', u, k => by
    rw [s1r0_step_first V c hn u k, Fin.sum_univ_one]
    rfl
  | n + 1, hn, hn', u, k => by
    rw [s1r0_step_next V c n hn u k, s1r0_closed n (Nat.lt_of_succ_lt hn) (Nat.lt_of_succ_lt hn') u k]
    conv_rhs => rw [Fin.sum_univ_castSucc]
    rfl

/-- The column sums of the array of results over all rows, and of its squares. -/
def colSum0 (X A : S100000x64.Idx → EReal) (Wr Wn : S64x64.Idx → EReal) (B : S1x64.Idx → EReal) (k : Fin 64) : EReal := ∑ n : Fin 100000, H0 X A Wr Wn B n k
def colSq0 (X A : S100000x64.Idx → EReal) (Wr Wn : S64x64.Idx → EReal) (B : S1x64.Idx → EReal) (k : Fin 64) : EReal := ∑ n : Fin 100000, H0 X A Wr Wn B n k * H0 X A Wr Wn B n k

/-! ## The three arrays after the region -/

theorem hflushB0 (t : Fin cfg0.N) :
    (dat0 V c).flushed 5 t = ((cfg0.win 5).blk t).view.read (Elt Ideal) (fun i : S100000x64.Idx => (H0 (V c main_arg0) (V c main_v13) (V c main_arg2) (V c main_arg3) (V c main_v14) (i 0) (i 1) : EReal)) := by
  show (cfg0.win 5).cut (grid0.coords t) ((dat0 V c).after 5 t) = _
  rw [after0_5, o5_eq V c t]
  obtain ⟨e0, e1, e2, e3, e4, e5, e6, e7, e8, e9, e10, e11, e12, e13, e14, e15⟩ := idx_facts0 t
  funext j
  obtain ⟨r, k, rfl⟩ : ∃ (r : Fin 5000) (k : Fin 64), j = ix2 r k := ⟨j 0, j 1, eq_ix2 j⟩
  show k0_pay4 (F := Ideal) (iblk0 V c 0 t) (iblk0 V c 1 t) (iblk0 V c 2 t) (iblk0 V c 3 t) (iblk0 V c 4 t) (ix2 r k) = H0 (V c main_arg0) (V c main_v13) (V c main_arg2) (V c main_arg3) (V c main_v14) ((((cfg0.win 5).blk t).view.emb (ix2 r k)) 0) ((((cfg0.win 5).blk t).view.emb (ix2 r k)) 1)
  rw [pay4_apply, entry_blk0 V c t r k]
  have ha : ((((cfg0.win 5).blk t).view.emb (ix2 r k)) 0) = (⟨t.val * 5000 + r.val, bnd0 t r⟩ : Fin 100000) := by
    apply Fin.ext
    show win0_5.index t (0 : Fin 2) * 5000 + 1 * r.val = t.val * 5000 + r.val
    rw [e10]; omega
  have hb : ((((cfg0.win 5).blk t).view.emb (ix2 r k)) 1) = k := by
    apply Fin.ext
    show win0_5.index t (1 : Fin 2) * 64 + 1 * k.val = k.val
    rw [e11]; omega
  rw [ha, hb]

theorem mem_blkB0 (t : Fin cfg0.N) (i : S100000x64.Idx) :
    i ∈ ((cfg0.win 5).blk t).view.set ↔ ∀ a : Fin 2, win0_5.index t a * S5000x64.size a ≤ (i a).val ∧ (i a).val < win0_5.index t a * S5000x64.size a + S5000x64.size a := by
  show i ∈ ((View.whole main_v17_0).slice (win0_5.rect t)).set ↔ _
  rw [View.set_slice_whole, Rect.mem_set_unit]
  exact Iff.rfl

/-- The big output ends holding the array of results. -/
theorem final0_B : (dat0 V c).arrAt 5 cfg0.N = (fun i : S100000x64.Idx => (H0 (V c main_arg0) (V c main_v13) (V c main_arg2) (V c main_arg3) (V c main_v14) (i 0) (i 1) : EReal)) := by
  refine (dat0 V c).arrAt_eq_of_cover 5 _ (fun t _ => hflushB0 V c t) fun i => ?_
  have hi0 : (i 0).val < 100000 := (i 0).isLt
  have hi1 : (i 1).val < 64 := (i 1).isLt
  have hN : cfg0.N = 20 := N0'
  refine ⟨⟨(i 0).val / 5000, by rw [hN]; omega⟩, flush0_5 _, ?_⟩
  rw [mem_blkB0]
  obtain ⟨e0, e1, e2, e3, e4, e5, e6, e7, e8, e9, e10, e11, e12, e13, e14, e15⟩ := idx_facts0 ⟨(i 0).val / 5000, by rw [hN]; omega⟩
  intro a
  match a with
  | ⟨0, _⟩ =>
    show win0_5.index _ (0 : Fin 2) * 5000 ≤ (i 0).val ∧ (i 0).val < win0_5.index _ (0 : Fin 2) * 5000 + 5000
    rw [e10]; dsimp only; omega
  | ⟨1, _⟩ =>
    show win0_5.index _ (1 : Fin 2) * 64 ≤ (i 1).val ∧ (i 1).val < win0_5.index _ (1 : Fin 2) * 64 + 64
    rw [e11]; omega

theorem hflush6_0 (t : Fin cfg0.N) (hf : (cfg0.win 6).flush t = true) :
    (dat0 V c).flushed 6 t = ((cfg0.win 6).blk t).view.read (Elt Ideal) (fun i : S1x64.Idx => (colSum0 (V c main_arg0) (V c main_v13) (V c main_arg2) (V c main_arg3) (V c main_v14) (i 1) : EReal)) := by
  obtain ⟨g, hg⟩ : ∃ g : Fin 64 → EReal, g = colSum0 (V c main_arg0) (V c main_v13) (V c main_arg2) (V c main_arg3) (V c main_v14) := ⟨_, rfl⟩
  rw [← hg]
  have hN := lt_of_lt_of_eq t.isLt N0'
  have h1 : t.val = 19 := by have := (flush0_6 t).mp hf; omega
  show (cfg0.win 6).cut (grid0.coords t) ((dat0 V c).after 6 t) = _
  rw [after0_6, o6_last V c t h1]
  obtain ⟨e0, e1, e2, e3, e4, e5, e6, e7, e8, e9, e10, e11, e12, e13, e14, e15⟩ := idx_facts0 t
  funext j
  obtain ⟨u, k, rfl⟩ : ∃ (u : Fin 1) (k : Fin 64), j = ix2 u k := ⟨j 0, j 1, eq_ix2 j⟩
  show (outsAt0 V c t.val t.isLt).s0 (ix2 u k) = g ((((cfg0.win 6).blk t).view.emb (ix2 u k)) 1)
  have hb : ((((cfg0.win 6).blk t).view.emb (ix2 u k)) 1) = k := by
    apply Fin.ext
    show win0_6.index t (1 : Fin 2) * 64 + 1 * k.val = k.val
    rw [e13]; omega
  rw [hb, hg, outsAt0_congr V c h1 t.isLt lastPt0, s0r0_closed V c 19 lastPt0 (by omega) u k]
  unfold colSum0
  exact Cert.LibSumPrefix.sum_prefix_all 20 5000 100000 (by norm_num) (fun n : Fin 100000 => (H0 (V c main_arg0) (V c main_v13) (V c main_arg2) (V c main_arg3) (V c main_v14) n k : EReal)) 19 rfl (bndn0 (by omega))

theorem mem_blk6_0 (t : Fin cfg0.N) (i : S1x64.Idx) :
    i ∈ ((cfg0.win 6).blk t).view.set ↔ ∀ a : Fin 2, win0_6.index t a * S1x64.size a ≤ (i a).val ∧ (i a).val < win0_6.index t a * S1x64.size a + S1x64.size a := by
  show i ∈ ((View.whole main_v17_1).slice (win0_6.rect t)).set ↔ _
  rw [View.set_slice_whole, Rect.mem_set_unit]
  exact Iff.rfl

/-- The small output 6 ends holding the column sums over all rows. -/
theorem final0_6 : (dat0 V c).arrAt 6 cfg0.N = (fun i : S1x64.Idx => (colSum0 (V c main_arg0) (V c main_v13) (V c main_arg2) (V c main_arg3) (V c main_v14) (i 1) : EReal)) := by
  refine (dat0 V c).arrAt_eq_of_cover 6 _ (fun t hf => hflush6_0 V c t hf) fun i => ?_
  have hi0 : (i 0).val < 1 := (i 0).isLt
  have hi1 : (i 1).val < 64 := (i 1).isLt
  refine ⟨⟨19, lastPt0⟩, (flush0_6 _).mpr (by show (19 : ℕ) % 20 = 19; norm_num), ?_⟩
  rw [mem_blk6_0]
  obtain ⟨e0, e1, e2, e3, e4, e5, e6, e7, e8, e9, e10, e11, e12, e13, e14, e15⟩ := idx_facts0 ⟨19, lastPt0⟩
  intro a
  match a with
  | ⟨0, _⟩ =>
    show win0_6.index _ (0 : Fin 2) * 1 ≤ (i 0).val ∧ (i 0).val < win0_6.index _ (0 : Fin 2) * 1 + 1
    rw [e12]; omega
  | ⟨1, _⟩ =>
    show win0_6.index _ (1 : Fin 2) * 64 ≤ (i 1).val ∧ (i 1).val < win0_6.index _ (1 : Fin 2) * 64 + 64
    rw [e13]; omega

theorem hflush7_0 (t : Fin cfg0.N) (hf : (cfg0.win 7).flush t = true) :
    (dat0 V c).flushed 7 t = ((cfg0.win 7).blk t).view.read (Elt Ideal) (fun i : S1x64.Idx => (colSq0 (V c main_arg0) (V c main_v13) (V c main_arg2) (V c main_arg3) (V c main_v14) (i 1) : EReal)) := by
  obtain ⟨g, hg⟩ : ∃ g : Fin 64 → EReal, g = colSq0 (V c main_arg0) (V c main_v13) (V c main_arg2) (V c main_arg3) (V c main_v14) := ⟨_, rfl⟩
  rw [← hg]
  have hN := lt_of_lt_of_eq t.isLt N0'
  have h1 : t.val = 19 := by have := (flush0_7 t).mp hf; omega
  show (cfg0.win 7).cut (grid0.coords t) ((dat0 V c).after 7 t) = _
  rw [after0_7, o7_last V c t h1]
  obtain ⟨e0, e1, e2, e3, e4, e5, e6, e7, e8, e9, e10, e11, e12, e13, e14, e15⟩ := idx_facts0 t
  funext j
  obtain ⟨u, k, rfl⟩ : ∃ (u : Fin 1) (k : Fin 64), j = ix2 u k := ⟨j 0, j 1, eq_ix2 j⟩
  show (outsAt0 V c t.val t.isLt).s1 (ix2 u k) = g ((((cfg0.win 7).blk t).view.emb (ix2 u k)) 1)
  have hb : ((((cfg0.win 7).blk t).view.emb (ix2 u k)) 1) = k := by
    apply Fin.ext
    show win0_7.index t (1 : Fin 2) * 64 + 1 * k.val = k.val
    rw [e15]; omega
  rw [hb, hg, outsAt0_congr V c h1 t.isLt lastPt0, s1r0_closed V c 19 lastPt0 (by omega) u k]
  unfold colSq0
  exact Cert.LibSumPrefix.sum_prefix_all 20 5000 100000 (by norm_num) (fun n : Fin 100000 => (H0 (V c main_arg0) (V c main_v13) (V c main_arg2) (V c main_arg3) (V c main_v14) n k * H0 (V c main_arg0) (V c main_v13) (V c main_arg2) (V c main_arg3) (V c main_v14) n k : EReal)) 19 rfl (bndn0 (by omega))

theorem mem_blk7_0 (t : Fin cfg0.N) (i : S1x64.Idx) :
    i ∈ ((cfg0.win 7).blk t).view.set ↔ ∀ a : Fin 2, win0_7.index t a * S1x64.size a ≤ (i a).val ∧ (i a).val < win0_7.index t a * S1x64.size a + S1x64.size a := by
  show i ∈ ((View.whole main_v17_2).slice (win0_7.rect t)).set ↔ _
  rw [View.set_slice_whole, Rect.mem_set_unit]
  exact Iff.rfl

/-- The small output 7 ends holding the column sums of squares over all rows. -/
theorem final0_7 : (dat0 V c).arrAt 7 cfg0.N = (fun i : S1x64.Idx => (colSq0 (V c main_arg0) (V c main_v13) (V c main_arg2) (V c main_arg3) (V c main_v14) (i 1) : EReal)) := by
  refine (dat0 V c).arrAt_eq_of_cover 7 _ (fun t hf => hflush7_0 V c t hf) fun i => ?_
  have hi0 : (i 0).val < 1 := (i 0).isLt
  have hi1 : (i 1).val < 64 := (i 1).isLt
  refine ⟨⟨19, lastPt0⟩, (flush0_7 _).mpr (by show (19 : ℕ) % 20 = 19; norm_num), ?_⟩
  rw [mem_blk7_0]
  obtain ⟨e0, e1, e2, e3, e4, e5, e6, e7, e8, e9, e10, e11, e12, e13, e14, e15⟩ := idx_facts0 ⟨19, lastPt0⟩
  intro a
  match a with
  | ⟨0, _⟩ =>
    show win0_7.index _ (0 : Fin 2) * 1 ≤ (i 0).val ∧ (i 0).val < win0_7.index _ (0 : Fin 2) * 1 + 1
    rw [e14]; omega
  | ⟨1, _⟩ =>
    show win0_7.index _ (1 : Fin 2) * 64 ≤ (i 1).val ∧ (i 1).val < win0_7.index _ (1 : Fin 2) * 64 + 64
    rw [e15]; omega

end Cert.KernelIdeal.Val

end
-- ==== Proof.KernelIdealR1Pieces.lean ====
/- Region 1: what each case of the body leaves in each buffer it stores into, as the body's arithmetic of the blocks it
   loaded. Every store is of a whole buffer, so a buffer ends holding its last store's value; an accumulator read after it
   was stored reads that value. The big output holds the point's block of results; each accumulator holds its previous
   contents (zeros at the first point) plus the block's column sums (of the results, of their squares); at the last point
   the two small outputs receive the accumulators' contents. -/
import proofs.«149204_j28372553957731_2_alg».proof.Proof.KernelIdealR1Frame
import Idealize.ShloMosaic.Lib.Pipeline.Value

set_option maxRecDepth 16384

noncomputable section

namespace Cert.KernelIdeal.Hand

open Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem hz2_1 : (![0, 0] : Fin 2 → Nat) = fun _ => 0 := funext fun a => by fin_cases a <;> rfl

theorem out1_A_8_eq (c : Dev nD) (i : grid1.Coords) (arg1 : Memref sig .tc .vmem S2000x64 .f32) (harg1 : arg1.IsWhole) (arg2 : Memref sig .tc .vmem S2000x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S64x128 .f32) (harg5 : arg5.IsWhole) (arg6 : Memref sig .tc .vmem S1x128 .f32) (harg6 : arg6.IsWhole) (arg7 : Memref sig .tc .vmem S128x64 .f32) (harg7 : arg7.IsWhole) (arg8 : Memref sig .tc .vmem S1x64 .f32) (harg8 : arg8.IsWhole) (arg9 : Memref sig .tc .vmem S2000x64 .f32) (harg9 : arg9.IsWhole) (arg10 : Memref sig .tc .vmem S1x64 .f32) (harg10 : arg10.IsWhole) (arg11 : Memref sig .tc .vmem S1x64 .f32) (harg11 : arg11.IsWhole) (arg12 : Memref sig .tc .vmem S1x64 .f32) (harg12 : arg12.IsWhole) (arg13 : Memref sig .tc .vmem S1x64 .f32) (harg13 : arg13.IsWhole) (hc0 : cond1_0 i) (hc1 : ¬cond1_1 i)
    (x0 : Vec F S2000x64 .f32) (x1 : Vec F S2000x64 .f32) (x2 : Vec F S1x64 .f32) (x3 : Vec F S1x64 .f32) (x4 : Vec F S64x128 .f32) (x5 : Vec F S1x128 .f32) (x6 : Vec F S128x64 .f32) (x7 : Vec F S1x64 .f32) :
    out1_A_8 c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 = k1_pay5 x0 x1 x2 x3 x4 x5 x6 x7 := by
  unfold out1_A_8
  rw [View.read_writes_eq_canon _ _ _ (cover1_A_8 c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7)]
  unfold kernelRun1_A
  dsimp only
  try sl_unfold_words
  first
    | rw [View.canon_unit_zero (S := S2000x64) hz2_1]
    | rw [View.canon_cons_unit_zero (S := S2000x64) hz2_1]
    | rw [View.canon_unit_zero (S := S1x64) hz2_1]
    | rw [View.canon_cons_unit_zero (S := S1x64) hz2_1]
  simp only [View.readAt_eq_ld, View.readCov_unit_zero (S := S2000x64) _ hz2_1, View.readCov_unit_zero (S := S1x64) _ hz2_1, harg1.read_unread, harg2.read_unread, harg3.read_unread, harg4.read_unread, harg5.read_unread, harg6.read_unread, harg7.read_unread, harg8.read_unread, harg9.read_unread, harg10.read_unread, harg11.read_unread, harg12.read_unread, harg13.read_unread, View.ld_unit_zero (S := S2000x64) hz2_1, View.ld_unit_zero (S := S1x64) hz2_1, View.ld_unit_zero (S := S64x128) hz2_1, View.ld_unit_zero (S := S1x128) hz2_1, View.ld_unit_zero (S := S128x64) hz2_1]

theorem sout1_A_0_eq (c : Dev nD) (i : grid1.Coords) (arg1 : Memref sig .tc .vmem S2000x64 .f32) (harg1 : arg1.IsWhole) (arg2 : Memref sig .tc .vmem S2000x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S64x128 .f32) (harg5 : arg5.IsWhole) (arg6 : Memref sig .tc .vmem S1x128 .f32) (harg6 : arg6.IsWhole) (arg7 : Memref sig .tc .vmem S128x64 .f32) (harg7 : arg7.IsWhole) (arg8 : Memref sig .tc .vmem S1x64 .f32) (harg8 : arg8.IsWhole) (arg9 : Memref sig .tc .vmem S2000x64 .f32) (harg9 : arg9.IsWhole) (arg10 : Memref sig .tc .vmem S1x64 .f32) (harg10 : arg10.IsWhole) (arg11 : Memref sig .tc .vmem S1x64 .f32) (harg11 : arg11.IsWhole) (arg12 : Memref sig .tc .vmem S1x64 .f32) (harg12 : arg12.IsWhole) (arg13 : Memref sig .tc .vmem S1x64 .f32) (harg13 : arg13.IsWhole) (hc0 : cond1_0 i) (hc1 : ¬cond1_1 i)
    (x0 : Vec F S2000x64 .f32) (x1 : Vec F S2000x64 .f32) (x2 : Vec F S1x64 .f32) (x3 : Vec F S1x64 .f32) (x4 : Vec F S64x128 .f32) (x5 : Vec F S1x128 .f32) (x6 : Vec F S128x64 .f32) (x7 : Vec F S1x64 .f32) :
    sout1_A_0 c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 = k1_pay1 (k1_pay5 x0 x1 x2 x3 x4 x5 x6 x7) (k1_pay3 (F := F)) := by
  unfold sout1_A_0
  rw [View.read_writes_eq_canon _ _ _ (scover1_A_0 c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7)]
  unfold kernelRun1_A
  dsimp only
  try sl_unfold_words
  first
    | rw [View.canon_unit_zero (S := S2000x64) hz2_1]
    | rw [View.canon_cons_unit_zero (S := S2000x64) hz2_1]
    | rw [View.canon_unit_zero (S := S1x64) hz2_1]
    | rw [View.canon_cons_unit_zero (S := S1x64) hz2_1]
  simp only [View.readAt_eq_ld, View.readCov_unit_zero (S := S2000x64) _ hz2_1, View.readCov_unit_zero (S := S1x64) _ hz2_1, harg1.read_unread, harg2.read_unread, harg3.read_unread, harg4.read_unread, harg5.read_unread, harg6.read_unread, harg7.read_unread, harg8.read_unread, harg9.read_unread, harg10.read_unread, harg11.read_unread, harg12.read_unread, harg13.read_unread, View.ld_unit_zero (S := S2000x64) hz2_1, View.ld_unit_zero (S := S1x64) hz2_1, View.ld_unit_zero (S := S64x128) hz2_1, View.ld_unit_zero (S := S1x128) hz2_1, View.ld_unit_zero (S := S128x64) hz2_1]

theorem sout1_A_1_eq (c : Dev nD) (i : grid1.Coords) (arg1 : Memref sig .tc .vmem S2000x64 .f32) (harg1 : arg1.IsWhole) (arg2 : Memref sig .tc .vmem S2000x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S64x128 .f32) (harg5 : arg5.IsWhole) (arg6 : Memref sig .tc .vmem S1x128 .f32) (harg6 : arg6.IsWhole) (arg7 : Memref sig .tc .vmem S128x64 .f32) (harg7 : arg7.IsWhole) (arg8 : Memref sig .tc .vmem S1x64 .f32) (harg8 : arg8.IsWhole) (arg9 : Memref sig .tc .vmem S2000x64 .f32) (harg9 : arg9.IsWhole) (arg10 : Memref sig .tc .vmem S1x64 .f32) (harg10 : arg10.IsWhole) (arg11 : Memref sig .tc .vmem S1x64 .f32) (harg11 : arg11.IsWhole) (arg12 : Memref sig .tc .vmem S1x64 .f32) (harg12 : arg12.IsWhole) (arg13 : Memref sig .tc .vmem S1x64 .f32) (harg13 : arg13.IsWhole) (hc0 : cond1_0 i) (hc1 : ¬cond1_1 i)
    (x0 : Vec F S2000x64 .f32) (x1 : Vec F S2000x64 .f32) (x2 : Vec F S1x64 .f32) (x3 : Vec F S1x64 .f32) (x4 : Vec F S64x128 .f32) (x5 : Vec F S1x128 .f32) (x6 : Vec F S128x64 .f32) (x7 : Vec F S1x64 .f32) :
    sout1_A_1 c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 = k1_pay2 (k1_pay5 x0 x1 x2 x3 x4 x5 x6 x7) (k1_pay4 (F := F)) := by
  unfold sout1_A_1
  rw [View.read_writes_eq_canon _ _ _ (scover1_A_1 c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7)]
  unfold kernelRun1_A
  dsimp only
  try sl_unfold_words
  first
    | rw [View.canon_unit_zero (S := S2000x64) hz2_1]
    | rw [View.canon_cons_unit_zero (S := S2000x64) hz2_1]
    | rw [View.canon_unit_zero (S := S1x64) hz2_1]
    | rw [View.canon_cons_unit_zero (S := S1x64) hz2_1]
  simp only [View.readAt_eq_ld, View.readCov_unit_zero (S := S2000x64) _ hz2_1, View.readCov_unit_zero (S := S1x64) _ hz2_1, harg1.read_unread, harg2.read_unread, harg3.read_unread, harg4.read_unread, harg5.read_unread, harg6.read_unread, harg7.read_unread, harg8.read_unread, harg9.read_unread, harg10.read_unread, harg11.read_unread, harg12.read_unread, harg13.read_unread, View.ld_unit_zero (S := S2000x64) hz2_1, View.ld_unit_zero (S := S1x64) hz2_1, View.ld_unit_zero (S := S64x128) hz2_1, View.ld_unit_zero (S := S1x128) hz2_1, View.ld_unit_zero (S := S128x64) hz2_1]

theorem out1_B_8_eq (c : Dev nD) (i : grid1.Coords) (arg1 : Memref sig .tc .vmem S2000x64 .f32) (harg1 : arg1.IsWhole) (arg2 : Memref sig .tc .vmem S2000x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S64x128 .f32) (harg5 : arg5.IsWhole) (arg6 : Memref sig .tc .vmem S1x128 .f32) (harg6 : arg6.IsWhole) (arg7 : Memref sig .tc .vmem S128x64 .f32) (harg7 : arg7.IsWhole) (arg8 : Memref sig .tc .vmem S1x64 .f32) (harg8 : arg8.IsWhole) (arg9 : Memref sig .tc .vmem S2000x64 .f32) (harg9 : arg9.IsWhole) (arg10 : Memref sig .tc .vmem S1x64 .f32) (harg10 : arg10.IsWhole) (arg11 : Memref sig .tc .vmem S1x64 .f32) (harg11 : arg11.IsWhole) (arg12 : Memref sig .tc .vmem S1x64 .f32) (harg12 : arg12.IsWhole) (arg13 : Memref sig .tc .vmem S1x64 .f32) (harg13 : arg13.IsWhole) (hc0 : ¬cond1_0 i) (hc1 : ¬cond1_1 i)
    (x0 : Vec F S2000x64 .f32) (x1 : Vec F S2000x64 .f32) (x2 : Vec F S1x64 .f32) (x3 : Vec F S1x64 .f32) (x4 : Vec F S64x128 .f32) (x5 : Vec F S1x128 .f32) (x6 : Vec F S128x64 .f32) (x7 : Vec F S1x64 .f32) (xs0 : Vec F S1x64 .f32) (xs1 : Vec F S1x64 .f32) :
    out1_B_8 c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 xs0 xs1 = k1_pay5 x0 x1 x2 x3 x4 x5 x6 x7 := by
  unfold out1_B_8
  rw [View.read_writes_eq_canon _ _ _ (cover1_B_8 c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 xs0 xs1)]
  unfold kernelRun1_B
  dsimp only
  try sl_unfold_words
  first
    | rw [View.canon_unit_zero (S := S2000x64) hz2_1]
    | rw [View.canon_cons_unit_zero (S := S2000x64) hz2_1]
    | rw [View.canon_unit_zero (S := S1x64) hz2_1]
    | rw [View.canon_cons_unit_zero (S := S1x64) hz2_1]
  simp only [View.readAt_eq_ld, View.readCov_unit_zero (S := S2000x64) _ hz2_1, View.readCov_unit_zero (S := S1x64) _ hz2_1, harg1.read_unread, harg2.read_unread, harg3.read_unread, harg4.read_unread, harg5.read_unread, harg6.read_unread, harg7.read_unread, harg8.read_unread, harg9.read_unread, harg10.read_unread, harg11.read_unread, harg12.read_unread, harg13.read_unread, View.ld_unit_zero (S := S2000x64) hz2_1, View.ld_unit_zero (S := S1x64) hz2_1, View.ld_unit_zero (S := S64x128) hz2_1, View.ld_unit_zero (S := S1x128) hz2_1, View.ld_unit_zero (S := S128x64) hz2_1]

theorem sout1_B_0_eq (c : Dev nD) (i : grid1.Coords) (arg1 : Memref sig .tc .vmem S2000x64 .f32) (harg1 : arg1.IsWhole) (arg2 : Memref sig .tc .vmem S2000x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S64x128 .f32) (harg5 : arg5.IsWhole) (arg6 : Memref sig .tc .vmem S1x128 .f32) (harg6 : arg6.IsWhole) (arg7 : Memref sig .tc .vmem S128x64 .f32) (harg7 : arg7.IsWhole) (arg8 : Memref sig .tc .vmem S1x64 .f32) (harg8 : arg8.IsWhole) (arg9 : Memref sig .tc .vmem S2000x64 .f32) (harg9 : arg9.IsWhole) (arg10 : Memref sig .tc .vmem S1x64 .f32) (harg10 : arg10.IsWhole) (arg11 : Memref sig .tc .vmem S1x64 .f32) (harg11 : arg11.IsWhole) (arg12 : Memref sig .tc .vmem S1x64 .f32) (harg12 : arg12.IsWhole) (arg13 : Memref sig .tc .vmem S1x64 .f32) (harg13 : arg13.IsWhole) (hc0 : ¬cond1_0 i) (hc1 : ¬cond1_1 i)
    (x0 : Vec F S2000x64 .f32) (x1 : Vec F S2000x64 .f32) (x2 : Vec F S1x64 .f32) (x3 : Vec F S1x64 .f32) (x4 : Vec F S64x128 .f32) (x5 : Vec F S1x128 .f32) (x6 : Vec F S128x64 .f32) (x7 : Vec F S1x64 .f32) (xs0 : Vec F S1x64 .f32) (xs1 : Vec F S1x64 .f32) :
    sout1_B_0 c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 xs0 xs1 = k1_pay1 (k1_pay5 x0 x1 x2 x3 x4 x5 x6 x7) xs0 := by
  unfold sout1_B_0
  rw [View.read_writes_eq_canon _ _ _ (scover1_B_0 c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 xs0 xs1)]
  unfold kernelRun1_B
  dsimp only
  try sl_unfold_words
  first
    | rw [View.canon_unit_zero (S := S2000x64) hz2_1]
    | rw [View.canon_cons_unit_zero (S := S2000x64) hz2_1]
    | rw [View.canon_unit_zero (S := S1x64) hz2_1]
    | rw [View.canon_cons_unit_zero (S := S1x64) hz2_1]
  simp only [View.readAt_eq_ld, View.readCov_unit_zero (S := S2000x64) _ hz2_1, View.readCov_unit_zero (S := S1x64) _ hz2_1, harg1.read_unread, harg2.read_unread, harg3.read_unread, harg4.read_unread, harg5.read_unread, harg6.read_unread, harg7.read_unread, harg8.read_unread, harg9.read_unread, harg10.read_unread, harg11.read_unread, harg12.read_unread, harg13.read_unread, View.ld_unit_zero (S := S2000x64) hz2_1, View.ld_unit_zero (S := S1x64) hz2_1, View.ld_unit_zero (S := S64x128) hz2_1, View.ld_unit_zero (S := S1x128) hz2_1, View.ld_unit_zero (S := S128x64) hz2_1]

theorem sout1_B_1_eq (c : Dev nD) (i : grid1.Coords) (arg1 : Memref sig .tc .vmem S2000x64 .f32) (harg1 : arg1.IsWhole) (arg2 : Memref sig .tc .vmem S2000x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S64x128 .f32) (harg5 : arg5.IsWhole) (arg6 : Memref sig .tc .vmem S1x128 .f32) (harg6 : arg6.IsWhole) (arg7 : Memref sig .tc .vmem S128x64 .f32) (harg7 : arg7.IsWhole) (arg8 : Memref sig .tc .vmem S1x64 .f32) (harg8 : arg8.IsWhole) (arg9 : Memref sig .tc .vmem S2000x64 .f32) (harg9 : arg9.IsWhole) (arg10 : Memref sig .tc .vmem S1x64 .f32) (harg10 : arg10.IsWhole) (arg11 : Memref sig .tc .vmem S1x64 .f32) (harg11 : arg11.IsWhole) (arg12 : Memref sig .tc .vmem S1x64 .f32) (harg12 : arg12.IsWhole) (arg13 : Memref sig .tc .vmem S1x64 .f32) (harg13 : arg13.IsWhole) (hc0 : ¬cond1_0 i) (hc1 : ¬cond1_1 i)
    (x0 : Vec F S2000x64 .f32) (x1 : Vec F S2000x64 .f32) (x2 : Vec F S1x64 .f32) (x3 : Vec F S1x64 .f32) (x4 : Vec F S64x128 .f32) (x5 : Vec F S1x128 .f32) (x6 : Vec F S128x64 .f32) (x7 : Vec F S1x64 .f32) (xs0 : Vec F S1x64 .f32) (xs1 : Vec F S1x64 .f32) :
    sout1_B_1 c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 xs0 xs1 = k1_pay2 (k1_pay5 x0 x1 x2 x3 x4 x5 x6 x7) xs1 := by
  unfold sout1_B_1
  rw [View.read_writes_eq_canon _ _ _ (scover1_B_1 c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 xs0 xs1)]
  unfold kernelRun1_B
  dsimp only
  try sl_unfold_words
  first
    | rw [View.canon_unit_zero (S := S2000x64) hz2_1]
    | rw [View.canon_cons_unit_zero (S := S2000x64) hz2_1]
    | rw [View.canon_unit_zero (S := S1x64) hz2_1]
    | rw [View.canon_cons_unit_zero (S := S1x64) hz2_1]
  simp only [View.readAt_eq_ld, View.readCov_unit_zero (S := S2000x64) _ hz2_1, View.readCov_unit_zero (S := S1x64) _ hz2_1, harg1.read_unread, harg2.read_unread, harg3.read_unread, harg4.read_unread, harg5.read_unread, harg6.read_unread, harg7.read_unread, harg8.read_unread, harg9.read_unread, harg10.read_unread, harg11.read_unread, harg12.read_unread, harg13.read_unread, View.ld_unit_zero (S := S2000x64) hz2_1, View.ld_unit_zero (S := S1x64) hz2_1, View.ld_unit_zero (S := S64x128) hz2_1, View.ld_unit_zero (S := S1x128) hz2_1, View.ld_unit_zero (S := S128x64) hz2_1]

theorem out1_C_8_eq (c : Dev nD) (i : grid1.Coords) (arg1 : Memref sig .tc .vmem S2000x64 .f32) (harg1 : arg1.IsWhole) (arg2 : Memref sig .tc .vmem S2000x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S64x128 .f32) (harg5 : arg5.IsWhole) (arg6 : Memref sig .tc .vmem S1x128 .f32) (harg6 : arg6.IsWhole) (arg7 : Memref sig .tc .vmem S128x64 .f32) (harg7 : arg7.IsWhole) (arg8 : Memref sig .tc .vmem S1x64 .f32) (harg8 : arg8.IsWhole) (arg9 : Memref sig .tc .vmem S2000x64 .f32) (harg9 : arg9.IsWhole) (arg10 : Memref sig .tc .vmem S1x64 .f32) (harg10 : arg10.IsWhole) (arg11 : Memref sig .tc .vmem S1x64 .f32) (harg11 : arg11.IsWhole) (arg12 : Memref sig .tc .vmem S1x64 .f32) (harg12 : arg12.IsWhole) (arg13 : Memref sig .tc .vmem S1x64 .f32) (harg13 : arg13.IsWhole) (hc0 : ¬cond1_0 i) (hc1 : cond1_1 i)
    (x0 : Vec F S2000x64 .f32) (x1 : Vec F S2000x64 .f32) (x2 : Vec F S1x64 .f32) (x3 : Vec F S1x64 .f32) (x4 : Vec F S64x128 .f32) (x5 : Vec F S1x128 .f32) (x6 : Vec F S128x64 .f32) (x7 : Vec F S1x64 .f32) (xs0 : Vec F S1x64 .f32) (xs1 : Vec F S1x64 .f32) :
    out1_C_8 c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 xs0 xs1 = k1_pay5 x0 x1 x2 x3 x4 x5 x6 x7 := by
  unfold out1_C_8
  rw [View.read_writes_eq_canon _ _ _ (cover1_C_8 c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 xs0 xs1)]
  unfold kernelRun1_C
  dsimp only
  try sl_unfold_words
  first
    | rw [View.canon_unit_zero (S := S2000x64) hz2_1]
    | rw [View.canon_cons_unit_zero (S := S2000x64) hz2_1]
    | rw [View.canon_unit_zero (S := S1x64) hz2_1]
    | rw [View.canon_cons_unit_zero (S := S1x64) hz2_1]
  simp only [View.readAt_eq_ld, View.readCov_unit_zero (S := S2000x64) _ hz2_1, View.readCov_unit_zero (S := S1x64) _ hz2_1, harg1.read_unread, harg2.read_unread, harg3.read_unread, harg4.read_unread, harg5.read_unread, harg6.read_unread, harg7.read_unread, harg8.read_unread, harg9.read_unread, harg10.read_unread, harg11.read_unread, harg12.read_unread, harg13.read_unread, View.ld_unit_zero (S := S2000x64) hz2_1, View.ld_unit_zero (S := S1x64) hz2_1, View.ld_unit_zero (S := S64x128) hz2_1, View.ld_unit_zero (S := S1x128) hz2_1, View.ld_unit_zero (S := S128x64) hz2_1]

theorem sout1_C_0_eq (c : Dev nD) (i : grid1.Coords) (arg1 : Memref sig .tc .vmem S2000x64 .f32) (harg1 : arg1.IsWhole) (arg2 : Memref sig .tc .vmem S2000x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S64x128 .f32) (harg5 : arg5.IsWhole) (arg6 : Memref sig .tc .vmem S1x128 .f32) (harg6 : arg6.IsWhole) (arg7 : Memref sig .tc .vmem S128x64 .f32) (harg7 : arg7.IsWhole) (arg8 : Memref sig .tc .vmem S1x64 .f32) (harg8 : arg8.IsWhole) (arg9 : Memref sig .tc .vmem S2000x64 .f32) (harg9 : arg9.IsWhole) (arg10 : Memref sig .tc .vmem S1x64 .f32) (harg10 : arg10.IsWhole) (arg11 : Memref sig .tc .vmem S1x64 .f32) (harg11 : arg11.IsWhole) (arg12 : Memref sig .tc .vmem S1x64 .f32) (harg12 : arg12.IsWhole) (arg13 : Memref sig .tc .vmem S1x64 .f32) (harg13 : arg13.IsWhole) (hc0 : ¬cond1_0 i) (hc1 : cond1_1 i)
    (x0 : Vec F S2000x64 .f32) (x1 : Vec F S2000x64 .f32) (x2 : Vec F S1x64 .f32) (x3 : Vec F S1x64 .f32) (x4 : Vec F S64x128 .f32) (x5 : Vec F S1x128 .f32) (x6 : Vec F S128x64 .f32) (x7 : Vec F S1x64 .f32) (xs0 : Vec F S1x64 .f32) (xs1 : Vec F S1x64 .f32) :
    sout1_C_0 c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 xs0 xs1 = k1_pay1 (k1_pay5 x0 x1 x2 x3 x4 x5 x6 x7) xs0 := by
  unfold sout1_C_0
  rw [View.read_writes_eq_canon _ _ _ (scover1_C_0 c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 xs0 xs1)]
  unfold kernelRun1_C
  dsimp only
  try sl_unfold_words
  first
    | rw [View.canon_unit_zero (S := S2000x64) hz2_1]
    | rw [View.canon_cons_unit_zero (S := S2000x64) hz2_1]
    | rw [View.canon_unit_zero (S := S1x64) hz2_1]
    | rw [View.canon_cons_unit_zero (S := S1x64) hz2_1]
  simp only [View.readAt_eq_ld, View.readCov_unit_zero (S := S2000x64) _ hz2_1, View.readCov_unit_zero (S := S1x64) _ hz2_1, harg1.read_unread, harg2.read_unread, harg3.read_unread, harg4.read_unread, harg5.read_unread, harg6.read_unread, harg7.read_unread, harg8.read_unread, harg9.read_unread, harg10.read_unread, harg11.read_unread, harg12.read_unread, harg13.read_unread, View.ld_unit_zero (S := S2000x64) hz2_1, View.ld_unit_zero (S := S1x64) hz2_1, View.ld_unit_zero (S := S64x128) hz2_1, View.ld_unit_zero (S := S1x128) hz2_1, View.ld_unit_zero (S := S128x64) hz2_1]

theorem sout1_C_1_eq (c : Dev nD) (i : grid1.Coords) (arg1 : Memref sig .tc .vmem S2000x64 .f32) (harg1 : arg1.IsWhole) (arg2 : Memref sig .tc .vmem S2000x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S64x128 .f32) (harg5 : arg5.IsWhole) (arg6 : Memref sig .tc .vmem S1x128 .f32) (harg6 : arg6.IsWhole) (arg7 : Memref sig .tc .vmem S128x64 .f32) (harg7 : arg7.IsWhole) (arg8 : Memref sig .tc .vmem S1x64 .f32) (harg8 : arg8.IsWhole) (arg9 : Memref sig .tc .vmem S2000x64 .f32) (harg9 : arg9.IsWhole) (arg10 : Memref sig .tc .vmem S1x64 .f32) (harg10 : arg10.IsWhole) (arg11 : Memref sig .tc .vmem S1x64 .f32) (harg11 : arg11.IsWhole) (arg12 : Memref sig .tc .vmem S1x64 .f32) (harg12 : arg12.IsWhole) (arg13 : Memref sig .tc .vmem S1x64 .f32) (harg13 : arg13.IsWhole) (hc0 : ¬cond1_0 i) (hc1 : cond1_1 i)
    (x0 : Vec F S2000x64 .f32) (x1 : Vec F S2000x64 .f32) (x2 : Vec F S1x64 .f32) (x3 : Vec F S1x64 .f32) (x4 : Vec F S64x128 .f32) (x5 : Vec F S1x128 .f32) (x6 : Vec F S128x64 .f32) (x7 : Vec F S1x64 .f32) (xs0 : Vec F S1x64 .f32) (xs1 : Vec F S1x64 .f32) :
    sout1_C_1 c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 xs0 xs1 = k1_pay2 (k1_pay5 x0 x1 x2 x3 x4 x5 x6 x7) xs1 := by
  unfold sout1_C_1
  rw [View.read_writes_eq_canon _ _ _ (scover1_C_1 c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 xs0 xs1)]
  unfold kernelRun1_C
  dsimp only
  try sl_unfold_words
  first
    | rw [View.canon_unit_zero (S := S2000x64) hz2_1]
    | rw [View.canon_cons_unit_zero (S := S2000x64) hz2_1]
    | rw [View.canon_unit_zero (S := S1x64) hz2_1]
    | rw [View.canon_cons_unit_zero (S := S1x64) hz2_1]
  simp only [View.readAt_eq_ld, View.readCov_unit_zero (S := S2000x64) _ hz2_1, View.readCov_unit_zero (S := S1x64) _ hz2_1, harg1.read_unread, harg2.read_unread, harg3.read_unread, harg4.read_unread, harg5.read_unread, harg6.read_unread, harg7.read_unread, harg8.read_unread, harg9.read_unread, harg10.read_unread, harg11.read_unread, harg12.read_unread, harg13.read_unread, View.ld_unit_zero (S := S2000x64) hz2_1, View.ld_unit_zero (S := S1x64) hz2_1, View.ld_unit_zero (S := S64x128) hz2_1, View.ld_unit_zero (S := S1x128) hz2_1, View.ld_unit_zero (S := S128x64) hz2_1]

theorem out1_C_9_eq (c : Dev nD) (i : grid1.Coords) (arg1 : Memref sig .tc .vmem S2000x64 .f32) (harg1 : arg1.IsWhole) (arg2 : Memref sig .tc .vmem S2000x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S64x128 .f32) (harg5 : arg5.IsWhole) (arg6 : Memref sig .tc .vmem S1x128 .f32) (harg6 : arg6.IsWhole) (arg7 : Memref sig .tc .vmem S128x64 .f32) (harg7 : arg7.IsWhole) (arg8 : Memref sig .tc .vmem S1x64 .f32) (harg8 : arg8.IsWhole) (arg9 : Memref sig .tc .vmem S2000x64 .f32) (harg9 : arg9.IsWhole) (arg10 : Memref sig .tc .vmem S1x64 .f32) (harg10 : arg10.IsWhole) (arg11 : Memref sig .tc .vmem S1x64 .f32) (harg11 : arg11.IsWhole) (arg12 : Memref sig .tc .vmem S1x64 .f32) (harg12 : arg12.IsWhole) (arg13 : Memref sig .tc .vmem S1x64 .f32) (harg13 : arg13.IsWhole) (hc0 : ¬cond1_0 i) (hc1 : cond1_1 i)
    (x0 : Vec F S2000x64 .f32) (x1 : Vec F S2000x64 .f32) (x2 : Vec F S1x64 .f32) (x3 : Vec F S1x64 .f32) (x4 : Vec F S64x128 .f32) (x5 : Vec F S1x128 .f32) (x6 : Vec F S128x64 .f32) (x7 : Vec F S1x64 .f32) (xs0 : Vec F S1x64 .f32) (xs1 : Vec F S1x64 .f32) :
    out1_C_9 c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 xs0 xs1 = k1_pay1 (k1_pay5 x0 x1 x2 x3 x4 x5 x6 x7) xs0 := by
  unfold out1_C_9
  rw [View.read_writes_eq_canon _ _ _ (cover1_C_9 c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 xs0 xs1)]
  unfold kernelRun1_C
  dsimp only
  try sl_unfold_words
  first
    | rw [View.canon_unit_zero (S := S2000x64) hz2_1]
    | rw [View.canon_cons_unit_zero (S := S2000x64) hz2_1]
    | rw [View.canon_unit_zero (S := S1x64) hz2_1]
    | rw [View.canon_cons_unit_zero (S := S1x64) hz2_1]
  simp only [View.readAt_eq_ld, View.readCov_unit_zero (S := S2000x64) _ hz2_1, View.readCov_unit_zero (S := S1x64) _ hz2_1, harg1.read_unread, harg2.read_unread, harg3.read_unread, harg4.read_unread, harg5.read_unread, harg6.read_unread, harg7.read_unread, harg8.read_unread, harg9.read_unread, harg10.read_unread, harg11.read_unread, harg12.read_unread, harg13.read_unread, View.ld_unit_zero (S := S2000x64) hz2_1, View.ld_unit_zero (S := S1x64) hz2_1, View.ld_unit_zero (S := S64x128) hz2_1, View.ld_unit_zero (S := S1x128) hz2_1, View.ld_unit_zero (S := S128x64) hz2_1]

theorem out1_C_10_eq (c : Dev nD) (i : grid1.Coords) (arg1 : Memref sig .tc .vmem S2000x64 .f32) (harg1 : arg1.IsWhole) (arg2 : Memref sig .tc .vmem S2000x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S64x128 .f32) (harg5 : arg5.IsWhole) (arg6 : Memref sig .tc .vmem S1x128 .f32) (harg6 : arg6.IsWhole) (arg7 : Memref sig .tc .vmem S128x64 .f32) (harg7 : arg7.IsWhole) (arg8 : Memref sig .tc .vmem S1x64 .f32) (harg8 : arg8.IsWhole) (arg9 : Memref sig .tc .vmem S2000x64 .f32) (harg9 : arg9.IsWhole) (arg10 : Memref sig .tc .vmem S1x64 .f32) (harg10 : arg10.IsWhole) (arg11 : Memref sig .tc .vmem S1x64 .f32) (harg11 : arg11.IsWhole) (arg12 : Memref sig .tc .vmem S1x64 .f32) (harg12 : arg12.IsWhole) (arg13 : Memref sig .tc .vmem S1x64 .f32) (harg13 : arg13.IsWhole) (hc0 : ¬cond1_0 i) (hc1 : cond1_1 i)
    (x0 : Vec F S2000x64 .f32) (x1 : Vec F S2000x64 .f32) (x2 : Vec F S1x64 .f32) (x3 : Vec F S1x64 .f32) (x4 : Vec F S64x128 .f32) (x5 : Vec F S1x128 .f32) (x6 : Vec F S128x64 .f32) (x7 : Vec F S1x64 .f32) (xs0 : Vec F S1x64 .f32) (xs1 : Vec F S1x64 .f32) :
    out1_C_10 c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 xs0 xs1 = k1_pay2 (k1_pay5 x0 x1 x2 x3 x4 x5 x6 x7) xs1 := by
  unfold out1_C_10
  rw [View.read_writes_eq_canon _ _ _ (cover1_C_10 c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 xs0 xs1)]
  unfold kernelRun1_C
  dsimp only
  try sl_unfold_words
  first
    | rw [View.canon_unit_zero (S := S2000x64) hz2_1]
    | rw [View.canon_cons_unit_zero (S := S2000x64) hz2_1]
    | rw [View.canon_unit_zero (S := S1x64) hz2_1]
    | rw [View.canon_cons_unit_zero (S := S1x64) hz2_1]
  simp only [View.readAt_eq_ld, View.readCov_unit_zero (S := S2000x64) _ hz2_1, View.readCov_unit_zero (S := S1x64) _ hz2_1, harg1.read_unread, harg2.read_unread, harg3.read_unread, harg4.read_unread, harg5.read_unread, harg6.read_unread, harg7.read_unread, harg8.read_unread, harg9.read_unread, harg10.read_unread, harg11.read_unread, harg12.read_unread, harg13.read_unread, View.ld_unit_zero (S := S2000x64) hz2_1, View.ld_unit_zero (S := S1x64) hz2_1, View.ld_unit_zero (S := S64x128) hz2_1, View.ld_unit_zero (S := S1x128) hz2_1, View.ld_unit_zero (S := S128x64) hz2_1]

end Cert.KernelIdeal.Hand

end
-- ==== Proof.KernelIdealR1Pay.lean ====
/- Region 1's arithmetic read at an index, on the extended reals. From a block of the first stage's results `h` and of the
   input `x`: the normalised, rectified, residual activation a(r,j) = max(h(r,j)·s(j) + t(j), 0) + x(r,j); then the two-layer
   network on it, y(r,c) = (∑ₖ max(∑ⱼ a(r,j)·W₁(j,k) + b₁(k), 0)·W₂(k,c) + b₂(c)) + a(r,c). The accumulators: what they held
   plus the block's column sums of y and of y². Region 2 is the affine map y·s + t, column by column. -/
import proofs.«149204_j28372553957731_2_alg».proof.Proof.Gen.KernelIdeal.Skeleton
import proofs.«149204_j28372553957731_2_alg».proof.Proof.LibDot
import proofs.«149204_j28372553957731_2_alg».proof.Proof.LibColSum
import proofs.«149204_j28372553957731_2_alg».proof.Proof.Consts
import Idealize.ShloMosaic.Lib.ValueLayout
import Idealize.ShloMosaic.Lib.Pipeline.Value

set_option maxRecDepth 16384

noncomputable section

namespace Cert.KernelIdeal.Val

open Cert.KernelIdeal Cert.KernelIdeal.Gen
open Idealize.ShloMosaic Idealize.ShloMosaic.ValueIdx

theorem dot1a_plain : Cert.LibDot.Plain dot_S2000x64_S64x128_S2000x128_1_0_0_1_n_n :=
  ⟨rfl, rfl, fun _ _ => rfl, fun _ _ => rfl, fun _ _ => rfl, fun _ _ => rfl⟩
theorem dot1b_plain : Cert.LibDot.Plain dot_S2000x128_S128x64_S2000x64_1_0_0_1_n_n :=
  ⟨rfl, rfl, fun _ _ => rfl, fun _ _ => rfl, fun _ _ => rfl, fun _ _ => rfl⟩

theorem sOfBits_zero : (Scalar.ofBits (F := Ideal) .f32 0x00000000#32 : EReal) = 0 := Cert.Consts.ofBits_zero

/-- The activation at one entry of a block. -/
def aEntry (h x : Vec Ideal S2000x64 .f32) (sc sh : Vec Ideal S1x64 .f32) (r : Fin 2000) (j : Fin 64) : EReal :=
  max (h (ix2 r j) * sc (ix2 (0 : Fin 1) j) + sh (ix2 (0 : Fin 1) j)) 0 + x (ix2 r j)
/-- The network's output at one entry of a block. -/
def yEntry (h x : Vec Ideal S2000x64 .f32) (sc sh : Vec Ideal S1x64 .f32) (w1 : Vec Ideal S64x128 .f32) (b1 : Vec Ideal S1x128 .f32)
    (w2 : Vec Ideal S128x64 .f32) (b2 : Vec Ideal S1x64 .f32) (r : Fin 2000) (c : Fin 64) : EReal :=
  (∑ k : Fin 128, max (∑ j : Fin 64, aEntry h x sc sh r j * w1 (ix2 j k) + b1 (ix2 (0 : Fin 1) k)) 0 * w2 (ix2 k c) + b2 (ix2 (0 : Fin 1) c))
    + aEntry h x sc sh r c

/-- The same from whole arrays, row `i`. -/
def A1 (Hh X : S100000x64.Idx → EReal) (sc sh : S1x64.Idx → EReal) (i : Fin 100000) (j : Fin 64) : EReal :=
  max (Hh (ix2 i j) * sc (ix2 (0 : Fin 1) j) + sh (ix2 (0 : Fin 1) j)) 0 + X (ix2 i j)
def Y1 (Hh X : S100000x64.Idx → EReal) (sc sh : S1x64.Idx → EReal) (w1 : S64x128.Idx → EReal) (b1 : S1x128.Idx → EReal)
    (w2 : S128x64.Idx → EReal) (b2 : S1x64.Idx → EReal) (i : Fin 100000) (c : Fin 64) : EReal :=
  (∑ k : Fin 128, max (∑ j : Fin 64, A1 Hh X sc sh i j * w1 (ix2 j k) + b1 (ix2 (0 : Fin 1) k)) 0 * w2 (ix2 k c) + b2 (ix2 (0 : Fin 1) c))
    + A1 Hh X sc sh i c

theorem pay5_1_apply (h x : Vec Ideal S2000x64 .f32) (sc sh : Vec Ideal S1x64 .f32) (w1 : Vec Ideal S64x128 .f32) (b1 : Vec Ideal S1x128 .f32)
    (w2 : Vec Ideal S128x64 .f32) (b2 : Vec Ideal S1x64 .f32) (r : Fin 2000) (c : Fin 64) :
    k1_pay5 (F := Ideal) h x sc sh w1 b1 w2 b2 (ix2 r c) = yEntry h x sc sh w1 b1 w2 b2 r c := by
  unfold k1_pay5 yEntry aEntry
  simp only [addf_apply, mulf_apply, maximumf_apply, broadcastTo_1b_ab_apply, shapeCast_self, broadcast_apply,
    Cert.LibDot.matmul_ix2 dot1a_plain, Cert.LibDot.matmul_ix2 dot1b_plain, truncf_apply, sOfBits_zero]

theorem pay3_1_apply (u : Fin 1) (c : Fin 64) : k1_pay3 (F := Ideal) (ix2 u c) = 0 := by
  unfold k1_pay3
  simp only [shapeCast_self, broadcast_apply]
  exact Cert.Consts.ofBits_zero
theorem pay4_1_apply (u : Fin 1) (c : Fin 64) : k1_pay4 (F := Ideal) (ix2 u c) = 0 := by
  unfold k1_pay4
  simp only [shapeCast_self, broadcast_apply]
  exact Cert.Consts.ofBits_zero

theorem pay1_1_apply (h x : Vec Ideal S2000x64 .f32) (sc sh : Vec Ideal S1x64 .f32) (w1 : Vec Ideal S64x128 .f32) (b1 : Vec Ideal S1x128 .f32)
    (w2 : Vec Ideal S128x64 .f32) (b2 : Vec Ideal S1x64 .f32) (s : Vec Ideal S1x64 .f32) (u : Fin 1) (c : Fin 64) :
    k1_pay1 (F := Ideal) (k1_pay5 h x sc sh w1 b1 w2 b2) s (ix2 u c) = s (ix2 u c) + ∑ r : Fin 2000, yEntry h x sc sh w1 b1 w2 b2 r c := by
  unfold k1_pay1
  simp only [shapeCast_self, addf_apply, shapeCast_a_1a_apply]
  refine congrArg (fun z => s (ix2 u c) + z) ?_
  refine (multiReduction_add_cols_apply (K := 2000) (b := 64) (k1_pay5 (F := Ideal) h x sc sh w1 b1 w2 b2) _ _ _ c).trans ?_
  exact Finset.sum_congr rfl fun r _ => pay5_1_apply h x sc sh w1 b1 w2 b2 r c

theorem pay2_1_apply (h x : Vec Ideal S2000x64 .f32) (sc sh : Vec Ideal S1x64 .f32) (w1 : Vec Ideal S64x128 .f32) (b1 : Vec Ideal S1x128 .f32)
    (w2 : Vec Ideal S128x64 .f32) (b2 : Vec Ideal S1x64 .f32) (s : Vec Ideal S1x64 .f32) (u : Fin 1) (c : Fin 64) :
    k1_pay2 (F := Ideal) (k1_pay5 h x sc sh w1 b1 w2 b2) s (ix2 u c)
      = s (ix2 u c) + ∑ r : Fin 2000, yEntry h x sc sh w1 b1 w2 b2 r c * yEntry h x sc sh w1 b1 w2 b2 r c := by
  unfold k1_pay2
  simp only [shapeCast_self, addf_apply, shapeCast_a_1a_apply]
  refine congrArg (fun z => s (ix2 u c) + z) ?_
  refine (multiReduction_add_cols_apply (K := 2000) (b := 64) (mulf (k1_pay5 (F := Ideal) h x sc sh w1 b1 w2 b2) (k1_pay5 (F := Ideal) h x sc sh w1 b1 w2 b2)) _ _ _ c).trans ?_
  exact Finset.sum_congr rfl fun r _ => by rw [mulf_apply, pay5_1_apply]

/-- Region 2: the affine map, at one entry. -/
theorem pay1_2_apply (y : Vec Ideal S10000x64 .f32) (sc sh : Vec Ideal S1x64 .f32) (r : Fin 10000) (c : Fin 64) :
    k2_pay1 (F := Ideal) y sc sh (ix2 r c) = y (ix2 r c) * sc (ix2 (0 : Fin 1) c) + sh (ix2 (0 : Fin 1) c) := by
  unfold k2_pay1
  simp only [addf_apply, mulf_apply, broadcastTo_1b_ab_apply, shapeCast_self]

end Cert.KernelIdeal.Val

end
-- ==== Proof.KernelIdealR1Val.lean ====
/- Region 1's buffers as functions of the arrays it is entered with. Point `t` sees rows `t·2000 … t·2000 + 1999` of
   the two row-blocked inputs and all of the small ones (the printed index maps, decided over the grid). So the block of
   results at `t` is rows `t·2000 + r` of ONE array of results, the big output ends holding that array (its blocks tile it),
   and the accumulators after point `n` hold the column sums of its first `(n+1)·2000` rows — of the results and of their
   squares — by induction on the point; the last point copies them out, and a sum over consecutive equal blocks is the
   sum over all rows. -/
import proofs.«149204_j28372553957731_2_alg».proof.Proof.KernelIdealR1Pieces
import proofs.«149204_j28372553957731_2_alg».proof.Proof.KernelIdealR1Pay
import proofs.«149204_j28372553957731_2_alg».proof.Proof.LibSumPrefix
import Idealize.ShloMosaic.Lib.Pipeline.Value

set_option maxRecDepth 16384

noncomputable section

namespace Cert.KernelIdeal.Val

open Cert.KernelIdeal Cert.KernelIdeal.Gen
open Idealize.ShloMosaic Idealize.ShloMosaic.ValueIdx

open Cert.KernelIdeal.GenP Cert.KernelIdeal.Hand Idealize.ShloMosaic.TcCoe
open Idealize.ShloMosaic.Pipeline (Dat)

variable (V : (c : Dev nD) → (b : Ref sig .tc) → Buf (Elt Ideal) ((c : Thread nD τ).loc b)) (c : Dev nD)

theorem idx_facts1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = 0 ∧ win1_7.index t (1 : Fin 2) = 0
    ∧ win1_8.index t (0 : Fin 2) = t.val ∧ win1_8.index t (1 : Fin 2) = 0
    ∧ win1_9.index t (0 : Fin 2) = 0 ∧ win1_9.index t (1 : Fin 2) = 0
    ∧ win1_10.index t (0 : Fin 2) = 0 ∧ win1_10.index t (1 : Fin 2) = 0 :=
  (by decide +kernel : ∀ t : Fin grid1.N, _)

theorem N1' : cfg1.N = 50 := N_1
theorem lastPt1 : (49 : ℕ) < cfg1.N := by rw [N1']; omega
theorem bnd1 (t : Fin cfg1.N) (r : Fin 2000) : t.val * 2000 + r.val < 100000 := by
  have := lt_of_lt_of_eq t.isLt N1'; have := r.isLt; omega

/-! ## A block read is a read of the array -/

theorem rd1_0 (t : Fin cfg1.N) (r : Fin 2000) (k : Fin 64) :
    iblk1 V c 0 t (ix2 r k) = V c main_v17_0 (ix2 ⟨t.val * 2000 + r.val, bnd1 t r⟩ k) := by
  obtain ⟨e0, e1, e2, e3, e4, e5, e6, e7, e8, e9, e10, e11, e12, e13, e14, e15, e16, e17, e18, e19, e20, e21⟩ := idx_facts1 t
  show V c main_v17_0 (((cfg1.win 0).blk t).view.emb (ix2 r k)) = _
  refine congrArg (V c main_v17_0) ?_
  funext a; apply Fin.ext
  match a with
  | ⟨0, _⟩ => show win1_0.index t (0 : Fin 2) * 2000 + 1 * r.val = t.val * 2000 + r.val; rw [e0]; omega
  | ⟨1, _⟩ => show win1_0.index t (1 : Fin 2) * 64 + 1 * k.val = k.val; rw [e1]; omega

theorem rd1_1 (t : Fin cfg1.N) (r : Fin 2000) (k : Fin 64) :
    iblk1 V c 1 t (ix2 r k) = V c main_arg0 (ix2 ⟨t.val * 2000 + r.val, bnd1 t r⟩ k) := by
  obtain ⟨e0, e1, e2, e3, e4, e5, e6, e7, e8, e9, e10, e11, e12, e13, e14, e15, e16, e17, e18, e19, e20, e21⟩ := idx_facts1 t
  show V c main_arg0 (((cfg1.win 1).blk t).view.emb (ix2 r k)) = _
  refine congrArg (V c main_arg0) ?_
  funext a; apply Fin.ext
  match a with
  | ⟨0, _⟩ => show win1_1.index t (0 : Fin 2) * 2000 + 1 * r.val = t.val * 2000 + r.val; rw [e2]; omega
  | ⟨1, _⟩ => show win1_1.index t (1 : Fin 2) * 64 + 1 * k.val = k.val; rw [e3]; omega

theorem rd1_2 (t : Fin cfg1.N) (r : Fin 1) (k : Fin 64) :
    iblk1 V c 2 t (ix2 r k) = V c main_v30 (ix2 r k) := by
  obtain ⟨e0, e1, e2, e3, e4, e5, e6, e7, e8, e9, e10, e11, e12, e13, e14, e15, e16, e17, e18, e19, e20, e21⟩ := idx_facts1 t
  show V c main_v30 (((cfg1.win 2).blk t).view.emb (ix2 r k)) = _
  refine congrArg (V c main_v30) ?_
  funext a; apply Fin.ext
  match a with
  | ⟨0, _⟩ => show win1_2.index t (0 : Fin 2) * 1 + 1 * r.val = r.val; rw [e4]; omega
  | ⟨1, _⟩ => show win1_2.index t (1 : Fin 2) * 64 + 1 * k.val = k.val; rw [e5]; omega

theorem rd1_3 (t : Fin cfg1.N) (r : Fin 1) (k : Fin 64) :
    iblk1 V c 3 t (ix2 r k) = V c main_v33 (ix2 r k) := by
  obtain ⟨e0, e1, e2, e3, e4, e5, e6, e7, e8, e9, e10, e11, e12, e13, e14, e15, e16, e17, e18, e19, e20, e21⟩ := idx_facts1 t
  show V c main_v33 (((cfg1.win 3).blk t).view.emb (ix2 r k)) = _
  refine congrArg (V c main_v33) ?_
  funext a; apply Fin.ext
  match a with
  | ⟨0, _⟩ => show win1_3.index t (0 : Fin 2) * 1 + 1 * r.val = r.val; rw [e6]; omega
  | ⟨1, _⟩ => show win1_3.index t (1 : Fin 2) * 64 + 1 * k.val = k.val; rw [e7]; omega

theorem rd1_4 (t : Fin cfg1.N) (r : Fin 64) (k : Fin 128) :
    iblk1 V c 4 t (ix2 r k) = V c main_arg7 (ix2 r k) := by
  obtain ⟨e0, e1, e2, e3, e4, e5, e6, e7, e8, e9, e10, e11, e12, e13, e14, e15, e16, e17, e18, e19, e20, e21⟩ := idx_facts1 t
  show V c main_arg7 (((cfg1.win 4).blk t).view.emb (ix2 r k)) = _
  refine congrArg (V c main_arg7) ?_
  funext a; apply Fin.ext
  match a with
  | ⟨0, _⟩ => show win1_4.index t (0 : Fin 2) * 64 + 1 * r.val = r.val; rw [e8]; omega
  | ⟨1, _⟩ => show win1_4.index t (1 : Fin 2) * 128 + 1 * k.val = k.val; rw [e9]; omega

theorem rd1_5 (t : Fin cfg1.N) (r : Fin 1) (k : Fin 128) :
    iblk1 V c 5 t (ix2 r k) = V c main_v15 (ix2 r k) := by
  obtain ⟨e0, e1, e2, e3, e4, e5, e6, e7, e8, e9, e10, e11, e12, e13, e14, e15, e16, e17, e18, e19, e20, e21⟩ := idx_facts1 t
  show V c main_v15 (((cfg1.win 5).blk t).view.emb (ix2 r k)) = _
  refine congrArg (V c main_v15) ?_
  funext a; apply Fin.ext
  match a with
  | ⟨0, _⟩ => show win1_5.index t (0 : Fin 2) * 1 + 1 * r.val = r.val; rw [e10]; omega
  | ⟨1, _⟩ => show win1_5.index t (1 : Fin 2) * 128 + 1 * k.val = k.val; rw [e11]; omega

theorem rd1_6 (t : Fin cfg1.N) (r : Fin 128) (k : Fin 64) :
    iblk1 V c 6 t (ix2 r k) = V c main_arg9 (ix2 r k) := by
  obtain ⟨e0, e1, e2, e3, e4, e5, e6, e7, e8, e9, e10, e11, e12, e13, e14, e15, e16, e17, e18, e19, e20, e21⟩ := idx_facts1 t
  show V c main_arg9 (((cfg1.win 6).blk t).view.emb (ix2 r k)) = _
  refine congrArg (V c main_arg9) ?_
  funext a; apply Fin.ext
  match a with
  | ⟨0, _⟩ => show win1_6.index t (0 : Fin 2) * 128 + 1 * r.val = r.val; rw [e12]; omega
  | ⟨1, _⟩ => show win1_6.index t (1 : Fin 2) * 64 + 1 * k.val = k.val; rw [e13]; omega

theorem rd1_7 (t : Fin cfg1.N) (r : Fin 1) (k : Fin 64) :
    iblk1 V c 7 t (ix2 r k) = V c main_v16 (ix2 r k) := by
  obtain ⟨e0, e1, e2, e3, e4, e5, e6, e7, e8, e9, e10, e11, e12, e13, e14, e15, e16, e17, e18, e19, e20, e21⟩ := idx_facts1 t
  show V c main_v16 (((cfg1.win 7).blk t).view.emb (ix2 r k)) = _
  refine congrArg (V c main_v16) ?_
  funext a; apply Fin.ext
  match a with
  | ⟨0, _⟩ => show win1_7.index t (0 : Fin 2) * 1 + 1 * r.val = r.val; rw [e14]; omega
  | ⟨1, _⟩ => show win1_7.index t (1 : Fin 2) * 64 + 1 * k.val = k.val; rw [e15]; omega

/-- An entry of the point's block of results is an entry of the array of results. -/
theorem entry_blk1 (t : Fin cfg1.N) (r : Fin 2000) (k : Fin 64) :
    yEntry (iblk1 V c 0 t) (iblk1 V c 1 t) (iblk1 V c 2 t) (iblk1 V c 3 t) (iblk1 V c 4 t) (iblk1 V c 5 t) (iblk1 V c 6 t) (iblk1 V c 7 t) r k = Y1 (V c main_v17_0) (V c main_arg0) (V c main_v30) (V c main_v33) (V c main_arg7) (V c main_v15) (V c main_arg9) (V c main_v16) ⟨t.val * 2000 + r.val, bnd1 t r⟩ k := by
  unfold yEntry Y1 aEntry A1
  simp only [rd1_0 V c t, rd1_1 V c t, rd1_2 V c t, rd1_3 V c t, rd1_4 V c t, rd1_5 V c t, rd1_6 V c t, rd1_7 V c t]

/-! ## What the point's run leaves -/

theorem o8_eq (t : Fin cfg1.N) :
    (outsAt1 V c t.val t.isLt).o8 = k1_pay5 (F := Ideal) (iblk1 V c 0 t) (iblk1 V c 1 t) (iblk1 V c 2 t) (iblk1 V c 3 t) (iblk1 V c 4 t) (iblk1 V c 5 t) (iblk1 V c 6 t) (iblk1 V c 7 t) := by
  have hN := lt_of_lt_of_eq t.isLt N1'
  by_cases h0 : t.val = 0
  · have h1 : t.val ≠ 49 := by omega
    rw [outsAt1_first V c t h0 h1]; unfold outA1; dsimp only
    exact out1_A_8_eq c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) scM1_0 (Memref.isWhole_whole _) scM1_1 (Memref.isWhole_whole _) (hA1 t h0) (hnC1 t h1) (iblk1 V c 0 t) (iblk1 V c 1 t) (iblk1 V c 2 t) (iblk1 V c 3 t) (iblk1 V c 4 t) (iblk1 V c 5 t) (iblk1 V c 6 t) (iblk1 V c 7 t)
  · by_cases h1 : t.val = 49
    · rw [outsAt1_last V c t h0 h1]; unfold outC1; dsimp only
      exact out1_C_8_eq c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) scM1_0 (Memref.isWhole_whole _) scM1_1 (Memref.isWhole_whole _) (hnA1 t h0) (hC1 t h1) (iblk1 V c 0 t) (iblk1 V c 1 t) (iblk1 V c 2 t) (iblk1 V c 3 t) (iblk1 V c 4 t) (iblk1 V c 5 t) (iblk1 V c 6 t) (iblk1 V c 7 t) _ _
    · rw [outsAt1_mid V c t h0 h1]; unfold outB1; dsimp only
      exact out1_B_8_eq c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) scM1_0 (Memref.isWhole_whole _) scM1_1 (Memref.isWhole_whole _) (hnA1 t h0) (hnC1 t h1) (iblk1 V c 0 t) (iblk1 V c 1 t) (iblk1 V c 2 t) (iblk1 V c 3 t) (iblk1 V c 4 t) (iblk1 V c 5 t) (iblk1 V c 6 t) (iblk1 V c 7 t) _ _

theorem s0r1_first (t : Fin cfg1.N) (h0 : t.val = 0) :
    (outsAt1 V c t.val t.isLt).s0 = k1_pay1 (F := Ideal) (k1_pay5 (iblk1 V c 0 t) (iblk1 V c 1 t) (iblk1 V c 2 t) (iblk1 V c 3 t) (iblk1 V c 4 t) (iblk1 V c 5 t) (iblk1 V c 6 t) (iblk1 V c 7 t)) (k1_pay3 (F := Ideal)) := by
  have hN := lt_of_lt_of_eq t.isLt N1'
  have h1 : t.val ≠ 49 := by omega
  rw [outsAt1_first V c t h0 h1]; unfold outA1; dsimp only
  exact sout1_A_0_eq c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) scM1_0 (Memref.isWhole_whole _) scM1_1 (Memref.isWhole_whole _) (hA1 t h0) (hnC1 t h1) (iblk1 V c 0 t) (iblk1 V c 1 t) (iblk1 V c 2 t) (iblk1 V c 3 t) (iblk1 V c 4 t) (iblk1 V c 5 t) (iblk1 V c 6 t) (iblk1 V c 7 t)
theorem s0r1_next (t : Fin cfg1.N) (h0 : t.val ≠ 0) :
    (outsAt1 V c t.val t.isLt).s0
      = k1_pay1 (F := Ideal) (k1_pay5 (iblk1 V c 0 t) (iblk1 V c 1 t) (iblk1 V c 2 t) (iblk1 V c 3 t) (iblk1 V c 4 t) (iblk1 V c 5 t) (iblk1 V c 6 t) (iblk1 V c 7 t)) (outsAt1 V c (t.val - 1) (Nat.lt_of_le_of_lt (Nat.sub_le _ _) t.isLt)).s0 := by
  by_cases h1 : t.val = 49
  · rw [outsAt1_last V c t h0 h1]; unfold outC1; dsimp only
    exact sout1_C_0_eq c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) scM1_0 (Memref.isWhole_whole _) scM1_1 (Memref.isWhole_whole _) (hnA1 t h0) (hC1 t h1) (iblk1 V c 0 t) (iblk1 V c 1 t) (iblk1 V c 2 t) (iblk1 V c 3 t) (iblk1 V c 4 t) (iblk1 V c 5 t) (iblk1 V c 6 t) (iblk1 V c 7 t) _ _
  · rw [outsAt1_mid V c t h0 h1]; unfold outB1; dsimp only
    exact sout1_B_0_eq c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) scM1_0 (Memref.isWhole_whole _) scM1_1 (Memref.isWhole_whole _) (hnA1 t h0) (hnC1 t h1) (iblk1 V c 0 t) (iblk1 V c 1 t) (iblk1 V c 2 t) (iblk1 V c 3 t) (iblk1 V c 4 t) (iblk1 V c 5 t) (iblk1 V c 6 t) (iblk1 V c 7 t) _ _

theorem s1r1_first (t : Fin cfg1.N) (h0 : t.val = 0) :
    (outsAt1 V c t.val t.isLt).s1 = k1_pay2 (F := Ideal) (k1_pay5 (iblk1 V c 0 t) (iblk1 V c 1 t) (iblk1 V c 2 t) (iblk1 V c 3 t) (iblk1 V c 4 t) (iblk1 V c 5 t) (iblk1 V c 6 t) (iblk1 V c 7 t)) (k1_pay4 (F := Ideal)) := by
  have hN := lt_of_lt_of_eq t.isLt N1'
  have h1 : t.val ≠ 49 := by omega
  rw [outsAt1_first V c t h0 h1]; unfold outA1; dsimp only
  exact sout1_A_1_eq c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) scM1_0 (Memref.isWhole_whole _) scM1_1 (Memref.isWhole_whole _) (hA1 t h0) (hnC1 t h1) (iblk1 V c 0 t) (iblk1 V c 1 t) (iblk1 V c 2 t) (iblk1 V c 3 t) (iblk1 V c 4 t) (iblk1 V c 5 t) (iblk1 V c 6 t) (iblk1 V c 7 t)
theorem s1r1_next (t : Fin cfg1.N) (h0 : t.val ≠ 0) :
    (outsAt1 V c t.val t.isLt).s1
      = k1_pay2 (F := Ideal) (k1_pay5 (iblk1 V c 0 t) (iblk1 V c 1 t) (iblk1 V c 2 t) (iblk1 V c 3 t) (iblk1 V c 4 t) (iblk1 V c 5 t) (iblk1 V c 6 t) (iblk1 V c 7 t)) (outsAt1 V c (t.val - 1) (Nat.lt_of_le_of_lt (Nat.sub_le _ _) t.isLt)).s1 := by
  by_cases h1 : t.val = 49
  · rw [outsAt1_last V c t h0 h1]; unfold outC1; dsimp only
    exact sout1_C_1_eq c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) scM1_0 (Memref.isWhole_whole _) scM1_1 (Memref.isWhole_whole _) (hnA1 t h0) (hC1 t h1) (iblk1 V c 0 t) (iblk1 V c 1 t) (iblk1 V c 2 t) (iblk1 V c 3 t) (iblk1 V c 4 t) (iblk1 V c 5 t) (iblk1 V c 6 t) (iblk1 V c 7 t) _ _
  · rw [outsAt1_mid V c t h0 h1]; unfold outB1; dsimp only
    exact sout1_B_1_eq c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) scM1_0 (Memref.isWhole_whole _) scM1_1 (Memref.isWhole_whole _) (hnA1 t h0) (hnC1 t h1) (iblk1 V c 0 t) (iblk1 V c 1 t) (iblk1 V c 2 t) (iblk1 V c 3 t) (iblk1 V c 4 t) (iblk1 V c 5 t) (iblk1 V c 6 t) (iblk1 V c 7 t) _ _

/-- At the last point the two small outputs receive the accumulators. -/
theorem o9_last (t : Fin cfg1.N) (h1 : t.val = 49) : (outsAt1 V c t.val t.isLt).o9 = (outsAt1 V c t.val t.isLt).s0 := by
  have h0 : t.val ≠ 0 := by omega
  rw [outsAt1_last V c t h0 h1]; unfold outC1; dsimp only
  rw [out1_C_9_eq, sout1_C_0_eq]
theorem o10_last (t : Fin cfg1.N) (h1 : t.val = 49) : (outsAt1 V c t.val t.isLt).o10 = (outsAt1 V c t.val t.isLt).s1 := by
  have h0 : t.val ≠ 0 := by omega
  rw [outsAt1_last V c t h0 h1]; unfold outC1; dsimp only
  rw [out1_C_10_eq, sout1_C_1_eq]

theorem outsAt1_congr {n n' : ℕ} (h : n = n') (hn : n < cfg1.N) (hn' : n' < cfg1.N) :
    outsAt1 V c n hn = outsAt1 V c n' hn' := by subst h; rfl

/-! ## The running column sums -/

theorem bndn1 {n : ℕ} (hn : n < 50) (t : Fin (n + 1)) (r : Fin 2000) : t.val * 2000 + r.val < 100000 := by
  have := t.isLt; have := r.isLt; omega

/-- What accumulator 0 holds after a point is what it held plus the block's column sum. -/
theorem s0r1_step_first (hn : 0 < cfg1.N) (u : Fin 1) (k : Fin 64) :
    (outsAt1 V c 0 hn).s0 (ix2 u k) = ∑ r : Fin 2000, Y1 (V c main_v17_0) (V c main_arg0) (V c main_v30) (V c main_v33) (V c main_arg7) (V c main_v15) (V c main_arg9) (V c main_v16) ⟨(⟨0, hn⟩ : Fin cfg1.N).val * 2000 + r.val, bnd1 ⟨0, hn⟩ r⟩ k := by
  rw [show (outsAt1 V c 0 hn).s0 = (outsAt1 V c (⟨0, hn⟩ : Fin cfg1.N).val (⟨0, hn⟩ : Fin cfg1.N).isLt).s0 from rfl,
    s0r1_first V c ⟨0, hn⟩ rfl, pay1_1_apply, pay3_1_apply, zero_add]
  exact Finset.sum_congr rfl fun r _ => by rw [entry_blk1 V c ⟨0, hn⟩ r k]
theorem s0r1_step_next (n : ℕ) (hn : n + 1 < cfg1.N) (u : Fin 1) (k : Fin 64) :
    (outsAt1 V c (n + 1) hn).s0 (ix2 u k)
      = (outsAt1 V c n (Nat.lt_of_succ_lt hn)).s0 (ix2 u k)
        + ∑ r : Fin 2000, Y1 (V c main_v17_0) (V c main_arg0) (V c main_v30) (V c main_v33) (V c main_arg7) (V c main_v15) (V c main_arg9) (V c main_v16) ⟨(⟨n + 1, hn⟩ : Fin cfg1.N).val * 2000 + r.val, bnd1 ⟨n + 1, hn⟩ r⟩ k := by
  rw [show (outsAt1 V c (n + 1) hn).s0 = (outsAt1 V c (⟨n + 1, hn⟩ : Fin cfg1.N).val (⟨n + 1, hn⟩ : Fin cfg1.N).isLt).s0 from rfl,
    s0r1_next V c ⟨n + 1, hn⟩ (Nat.succ_ne_zero n), pay1_1_apply]
  refine congrArg₂ (· + ·) rfl ?_
  exact Finset.sum_congr rfl fun r _ => by rw [entry_blk1 V c ⟨n + 1, hn⟩ r k]

theorem s0r1_closed : ∀ (n : ℕ) (hn : n < cfg1.N) (hn' : n < 50) (u : Fin 1) (k : Fin 64),
    (outsAt1 V c n hn).s0 (ix2 u k) = ∑ t : Fin (n + 1), ∑ r : Fin 2000, Y1 (V c main_v17_0) (V c main_arg0) (V c main_v30) (V c main_v33) (V c main_arg7) (V c main_v15) (V c main_arg9) (V c main_v16) ⟨t.val * 2000 + r.val, bndn1 hn' t r⟩ k
  | 0, hn, hn', u, k => by
    rw [s0r1_step_first V c hn u k, Fin.sum_univ_one]
    rfl
  | n + 1, hn, hn', u, k => by
    rw [s0r1_step_next V c n hn u k, s0r1_closed n (Nat.lt_of_succ_lt hn) (Nat.lt_of_succ_lt hn') u k]
    conv_rhs => rw [Fin.sum_univ_castSucc]
    rfl

/-- What accumulator 1 holds after a point is what it held plus the block's column sum of squares. -/
theorem s1r1_step_first (hn : 0 < cfg1.N) (u : Fin 1) (k : Fin 64) :
    (outsAt1 V c 0 hn).s1 (ix2 u k) = ∑ r : Fin 2000, Y1 (V c main_v17_0) (V c main_arg0) (V c main_v30) (V c main_v33) (V c main_arg7) (V c main_v15) (V c main_arg9) (V c main_v16) ⟨(⟨0, hn⟩ : Fin cfg1.N).val * 2000 + r.val, bnd1 ⟨0, hn⟩ r⟩ k * Y1 (V c main_v17_0) (V c main_arg0) (V c main_v30) (V c main_v33) (V c main_arg7) (V c main_v15) (V c main_arg9) (V c main_v16) ⟨(⟨0, hn⟩ : Fin cfg1.N).val * 2000 + r.val, bnd1 ⟨0, hn⟩ r⟩ k := by
  rw [show (outsAt1 V c 0 hn).s1 = (outsAt1 V c (⟨0, hn⟩ : Fin cfg1.N).val (⟨0, hn⟩ : Fin cfg1.N).isLt).s1 from rfl,
    s1r1_first V c ⟨0, hn⟩ rfl, pay2_1_apply, pay4_1_apply, zero_add]
  exact Finset.sum_congr rfl fun r _ => by rw [entry_blk1 V c ⟨0, hn⟩ r k]
theorem s1r1_step_next (n : ℕ) (hn : n + 1 < cfg1.N) (u : Fin 1) (k : Fin 64) :
    (outsAt1 V c (n + 1) hn).s1 (ix2 u k)
      = (outsAt1 V c n (Nat.lt_of_succ_lt hn)).s1 (ix2 u k)
        + ∑ r : Fin 2000, Y1 (V c main_v17_0) (V c main_arg0) (V c main_v30) (V c main_v33) (V c main_arg7) (V c main_v15) (V c main_arg9) (V c main_v16) ⟨(⟨n + 1, hn⟩ : Fin cfg1.N).val * 2000 + r.val, bnd1 ⟨n + 1, hn⟩ r⟩ k * Y1 (V c main_v17_0) (V c main_arg0) (V c main_v30) (V c main_v33) (V c main_arg7) (V c main_v15) (V c main_arg9) (V c main_v16) ⟨(⟨n + 1, hn⟩ : Fin cfg1.N).val * 2000 + r.val, bnd1 ⟨n + 1, hn⟩ r⟩ k := by
  rw [show (outsAt1 V c (n + 1) hn).s1 = (outsAt1 V c (⟨n + 1, hn⟩ : Fin cfg1.N).val (⟨n + 1, hn⟩ : Fin cfg1.N).isLt).s1 from rfl,
    s1r1_next V c ⟨n + 1, hn⟩ (Nat.succ_ne_zero n), pay2_1_apply]
  refine congrArg₂ (· + ·) rfl ?_
  exact Finset.sum_congr rfl fun r _ => by rw [entry_blk1 V c ⟨n + 1, hn⟩ r k]

theorem s1r1_closed : ∀ (n : ℕ) (hn : n < cfg1.N) (hn' : n < 50) (u : Fin 1) (k : Fin 64),
    (outsAt1 V c n hn).s1 (ix2 u k) = ∑ t : Fin (n + 1), ∑ r : Fin 2000, Y1 (V c main_v17_0) (V c main_arg0) (V c main_v30) (V c main_v33) (V c main_arg7) (V c main_v15) (V c main_arg9) (V c main_v16) ⟨t.val * 2000 + r.val, bndn1 hn' t r⟩ k * Y1 (V c main_v17_0) (V c main_arg0) (V c main_v30) (V c main_v33) (V c main_arg7) (V c main_v15) (V c main_arg9) (V c main_v16) ⟨t.val * 2000 + r.val, bndn1 hn' t r⟩ k
  | 0, hn, hn', u, k => by
    rw [s1r1_step_first V c hn u k, Fin.sum_univ_one]
    rfl
  | n + 1, hn, hn', u, k => by
    rw [s1r1_step_next V c n hn u k, s1r1_closed n (Nat.lt_of_succ_lt hn) (Nat.lt_of_succ_lt hn') u k]
    conv_rhs => rw [Fin.sum_univ_castSucc]
    rfl

/-- The column sums of the array of results over all rows, and of its squares. -/
def colSum1 (Hh X : S100000x64.Idx → EReal) (sc sh : S1x64.Idx → EReal) (w1 : S64x128.Idx → EReal) (b1 : S1x128.Idx → EReal) (w2 : S128x64.Idx → EReal) (b2 : S1x64.Idx → EReal) (k : Fin 64) : EReal := ∑ n : Fin 100000, Y1 Hh X sc sh w1 b1 w2 b2 n k
def colSq1 (Hh X : S100000x64.Idx → EReal) (sc sh : S1x64.Idx → EReal) (w1 : S64x128.Idx → EReal) (b1 : S1x128.Idx → EReal) (w2 : S128x64.Idx → EReal) (b2 : S1x64.Idx → EReal) (k : Fin 64) : EReal := ∑ n : Fin 100000, Y1 Hh X sc sh w1 b1 w2 b2 n k * Y1 Hh X sc sh w1 b1 w2 b2 n k

/-! ## The three arrays after the region -/

theorem hflushB1 (t : Fin cfg1.N) :
    (dat1 V c).flushed 8 t = ((cfg1.win 8).blk t).view.read (Elt Ideal) (fun i : S100000x64.Idx => (Y1 (V c main_v17_0) (V c main_arg0) (V c main_v30) (V c main_v33) (V c main_arg7) (V c main_v15) (V c main_arg9) (V c main_v16) (i 0) (i 1) : EReal)) := by
  show (cfg1.win 8).cut (grid1.coords t) ((dat1 V c).after 8 t) = _
  rw [after1_8, o8_eq V c t]
  obtain ⟨e0, e1, e2, e3, e4, e5, e6, e7, e8, e9, e10, e11, e12, e13, e14, e15, e16, e17, e18, e19, e20, e21⟩ := idx_facts1 t
  funext j
  obtain ⟨r, k, rfl⟩ : ∃ (r : Fin 2000) (k : Fin 64), j = ix2 r k := ⟨j 0, j 1, eq_ix2 j⟩
  show k1_pay5 (F := Ideal) (iblk1 V c 0 t) (iblk1 V c 1 t) (iblk1 V c 2 t) (iblk1 V c 3 t) (iblk1 V c 4 t) (iblk1 V c 5 t) (iblk1 V c 6 t) (iblk1 V c 7 t) (ix2 r k) = Y1 (V c main_v17_0) (V c main_arg0) (V c main_v30) (V c main_v33) (V c main_arg7) (V c main_v15) (V c main_arg9) (V c main_v16) ((((cfg1.win 8).blk t).view.emb (ix2 r k)) 0) ((((cfg1.win 8).blk t).view.emb (ix2 r k)) 1)
  rw [pay5_1_apply, entry_blk1 V c t r k]
  have ha : ((((cfg1.win 8).blk t).view.emb (ix2 r k)) 0) = (⟨t.val * 2000 + r.val, bnd1 t r⟩ : Fin 100000) := by
    apply Fin.ext
    show win1_8.index t (0 : Fin 2) * 2000 + 1 * r.val = t.val * 2000 + r.val
    rw [e16]; omega
  have hb : ((((cfg1.win 8).blk t).view.emb (ix2 r k)) 1) = k := by
    apply Fin.ext
    show win1_8.index t (1 : Fin 2) * 64 + 1 * k.val = k.val
    rw [e17]; omega
  rw [ha, hb]

theorem mem_blkB1 (t : Fin cfg1.N) (i : S100000x64.Idx) :
    i ∈ ((cfg1.win 8).blk t).view.set ↔ ∀ a : Fin 2, win1_8.index t a * S2000x64.size a ≤ (i a).val ∧ (i a).val < win1_8.index t a * S2000x64.size a + S2000x64.size a := by
  show i ∈ ((View.whole main_v34_0).slice (win1_8.rect t)).set ↔ _
  rw [View.set_slice_whole, Rect.mem_set_unit]
  exact Iff.rfl

/-- The big output ends holding the array of results. -/
theorem final1_B : (dat1 V c).arrAt 8 cfg1.N = (fun i : S100000x64.Idx => (Y1 (V c main_v17_0) (V c main_arg0) (V c main_v30) (V c main_v33) (V c main_arg7) (V c main_v15) (V c main_arg9) (V c main_v16) (i 0) (i 1) : EReal)) := by
  refine (dat1 V c).arrAt_eq_of_cover 8 _ (fun t _ => hflushB1 V c t) fun i => ?_
  have hi0 : (i 0).val < 100000 := (i 0).isLt
  have hi1 : (i 1).val < 64 := (i 1).isLt
  have hN : cfg1.N = 50 := N1'
  refine ⟨⟨(i 0).val / 2000, by rw [hN]; omega⟩, flush1_8 _, ?_⟩
  rw [mem_blkB1]
  obtain ⟨e0, e1, e2, e3, e4, e5, e6, e7, e8, e9, e10, e11, e12, e13, e14, e15, e16, e17, e18, e19, e20, e21⟩ := idx_facts1 ⟨(i 0).val / 2000, by rw [hN]; omega⟩
  intro a
  match a with
  | ⟨0, _⟩ =>
    show win1_8.index _ (0 : Fin 2) * 2000 ≤ (i 0).val ∧ (i 0).val < win1_8.index _ (0 : Fin 2) * 2000 + 2000
    rw [e16]; dsimp only; omega
  | ⟨1, _⟩ =>
    show win1_8.index _ (1 : Fin 2) * 64 ≤ (i 1).val ∧ (i 1).val < win1_8.index _ (1 : Fin 2) * 64 + 64
    rw [e17]; omega

theorem hflush9_1 (t : Fin cfg1.N) (hf : (cfg1.win 9).flush t = true) :
    (dat1 V c).flushed 9 t = ((cfg1.win 9).blk t).view.read (Elt Ideal) (fun i : S1x64.Idx => (colSum1 (V c main_v17_0) (V c main_arg0) (V c main_v30) (V c main_v33) (V c main_arg7) (V c main_v15) (V c main_arg9) (V c main_v16) (i 1) : EReal)) := by
  obtain ⟨g, hg⟩ : ∃ g : Fin 64 → EReal, g = colSum1 (V c main_v17_0) (V c main_arg0) (V c main_v30) (V c main_v33) (V c main_arg7) (V c main_v15) (V c main_arg9) (V c main_v16) := ⟨_, rfl⟩
  rw [← hg]
  have hN := lt_of_lt_of_eq t.isLt N1'
  have h1 : t.val = 49 := by have := (flush1_9 t).mp hf; omega
  show (cfg1.win 9).cut (grid1.coords t) ((dat1 V c).after 9 t) = _
  rw [after1_9, o9_last V c t h1]
  obtain ⟨e0, e1, e2, e3, e4, e5, e6, e7, e8, e9, e10, e11, e12, e13, e14, e15, e16, e17, e18, e19, e20, e21⟩ := idx_facts1 t
  funext j
  obtain ⟨u, k, rfl⟩ : ∃ (u : Fin 1) (k : Fin 64), j = ix2 u k := ⟨j 0, j 1, eq_ix2 j⟩
  show (outsAt1 V c t.val t.isLt).s0 (ix2 u k) = g ((((cfg1.win 9).blk t).view.emb (ix2 u k)) 1)
  have hb : ((((cfg1.win 9).blk t).view.emb (ix2 u k)) 1) = k := by
    apply Fin.ext
    show win1_9.index t (1 : Fin 2) * 64 + 1 * k.val = k.val
    rw [e19]; omega
  rw [hb, hg, outsAt1_congr V c h1 t.isLt lastPt1, s0r1_closed V c 49 lastPt1 (by omega) u k]
  unfold colSum1
  exact Cert.LibSumPrefix.sum_prefix_all 50 2000 100000 (by norm_num) (fun n : Fin 100000 => (Y1 (V c main_v17_0) (V c main_arg0) (V c main_v30) (V c main_v33) (V c main_arg7) (V c main_v15) (V c main_arg9) (V c main_v16) n k : EReal)) 49 rfl (bndn1 (by omega))

theorem mem_blk9_1 (t : Fin cfg1.N) (i : S1x64.Idx) :
    i ∈ ((cfg1.win 9).blk t).view.set ↔ ∀ a : Fin 2, win1_9.index t a * S1x64.size a ≤ (i a).val ∧ (i a).val < win1_9.index t a * S1x64.size a + S1x64.size a := by
  show i ∈ ((View.whole main_v34_1).slice (win1_9.rect t)).set ↔ _
  rw [View.set_slice_whole, Rect.mem_set_unit]
  exact Iff.rfl

/-- The small output 9 ends holding the column sums over all rows. -/
theorem final1_9 : (dat1 V c).arrAt 9 cfg1.N = (fun i : S1x64.Idx => (colSum1 (V c main_v17_0) (V c main_arg0) (V c main_v30) (V c main_v33) (V c main_arg7) (V c main_v15) (V c main_arg9) (V c main_v16) (i 1) : EReal)) := by
  refine (dat1 V c).arrAt_eq_of_cover 9 _ (fun t hf => hflush9_1 V c t hf) fun i => ?_
  have hi0 : (i 0).val < 1 := (i 0).isLt
  have hi1 : (i 1).val < 64 := (i 1).isLt
  refine ⟨⟨49, lastPt1⟩, (flush1_9 _).mpr (by show (49 : ℕ) % 50 = 49; norm_num), ?_⟩
  rw [mem_blk9_1]
  obtain ⟨e0, e1, e2, e3, e4, e5, e6, e7, e8, e9, e10, e11, e12, e13, e14, e15, e16, e17, e18, e19, e20, e21⟩ := idx_facts1 ⟨49, lastPt1⟩
  intro a
  match a with
  | ⟨0, _⟩ =>
    show win1_9.index _ (0 : Fin 2) * 1 ≤ (i 0).val ∧ (i 0).val < win1_9.index _ (0 : Fin 2) * 1 + 1
    rw [e18]; omega
  | ⟨1, _⟩ =>
    show win1_9.index _ (1 : Fin 2) * 64 ≤ (i 1).val ∧ (i 1).val < win1_9.index _ (1 : Fin 2) * 64 + 64
    rw [e19]; omega

theorem hflush10_1 (t : Fin cfg1.N) (hf : (cfg1.win 10).flush t = true) :
    (dat1 V c).flushed 10 t = ((cfg1.win 10).blk t).view.read (Elt Ideal) (fun i : S1x64.Idx => (colSq1 (V c main_v17_0) (V c main_arg0) (V c main_v30) (V c main_v33) (V c main_arg7) (V c main_v15) (V c main_arg9) (V c main_v16) (i 1) : EReal)) := by
  obtain ⟨g, hg⟩ : ∃ g : Fin 64 → EReal, g = colSq1 (V c main_v17_0) (V c main_arg0) (V c main_v30) (V c main_v33) (V c main_arg7) (V c main_v15) (V c main_arg9) (V c main_v16) := ⟨_, rfl⟩
  rw [← hg]
  have hN := lt_of_lt_of_eq t.isLt N1'
  have h1 : t.val = 49 := by have := (flush1_10 t).mp hf; omega
  show (cfg1.win 10).cut (grid1.coords t) ((dat1 V c).after 10 t) = _
  rw [after1_10, o10_last V c t h1]
  obtain ⟨e0, e1, e2, e3, e4, e5, e6, e7, e8, e9, e10, e11, e12, e13, e14, e15, e16, e17, e18, e19, e20, e21⟩ := idx_facts1 t
  funext j
  obtain ⟨u, k, rfl⟩ : ∃ (u : Fin 1) (k : Fin 64), j = ix2 u k := ⟨j 0, j 1, eq_ix2 j⟩
  show (outsAt1 V c t.val t.isLt).s1 (ix2 u k) = g ((((cfg1.win 10).blk t).view.emb (ix2 u k)) 1)
  have hb : ((((cfg1.win 10).blk t).view.emb (ix2 u k)) 1) = k := by
    apply Fin.ext
    show win1_10.index t (1 : Fin 2) * 64 + 1 * k.val = k.val
    rw [e21]; omega
  rw [hb, hg, outsAt1_congr V c h1 t.isLt lastPt1, s1r1_closed V c 49 lastPt1 (by omega) u k]
  unfold colSq1
  exact Cert.LibSumPrefix.sum_prefix_all 50 2000 100000 (by norm_num) (fun n : Fin 100000 => (Y1 (V c main_v17_0) (V c main_arg0) (V c main_v30) (V c main_v33) (V c main_arg7) (V c main_v15) (V c main_arg9) (V c main_v16) n k * Y1 (V c main_v17_0) (V c main_arg0) (V c main_v30) (V c main_v33) (V c main_arg7) (V c main_v15) (V c main_arg9) (V c main_v16) n k : EReal)) 49 rfl (bndn1 (by omega))

theorem mem_blk10_1 (t : Fin cfg1.N) (i : S1x64.Idx) :
    i ∈ ((cfg1.win 10).blk t).view.set ↔ ∀ a : Fin 2, win1_10.index t a * S1x64.size a ≤ (i a).val ∧ (i a).val < win1_10.index t a * S1x64.size a + S1x64.size a := by
  show i ∈ ((View.whole main_v34_2).slice (win1_10.rect t)).set ↔ _
  rw [View.set_slice_whole, Rect.mem_set_unit]
  exact Iff.rfl

/-- The small output 10 ends holding the column sums of squares over all rows. -/
theorem final1_10 : (dat1 V c).arrAt 10 cfg1.N = (fun i : S1x64.Idx => (colSq1 (V c main_v17_0) (V c main_arg0) (V c main_v30) (V c main_v33) (V c main_arg7) (V c main_v15) (V c main_arg9) (V c main_v16) (i 1) : EReal)) := by
  refine (dat1 V c).arrAt_eq_of_cover 10 _ (fun t hf => hflush10_1 V c t hf) fun i => ?_
  have hi0 : (i 0).val < 1 := (i 0).isLt
  have hi1 : (i 1).val < 64 := (i 1).isLt
  refine ⟨⟨49, lastPt1⟩, (flush1_10 _).mpr (by show (49 : ℕ) % 50 = 49; norm_num), ?_⟩
  rw [mem_blk10_1]
  obtain ⟨e0, e1, e2, e3, e4, e5, e6, e7, e8, e9, e10, e11, e12, e13, e14, e15, e16, e17, e18, e19, e20, e21⟩ := idx_facts1 ⟨49, lastPt1⟩
  intro a
  match a with
  | ⟨0, _⟩ =>
    show win1_10.index _ (0 : Fin 2) * 1 ≤ (i 0).val ∧ (i 0).val < win1_10.index _ (0 : Fin 2) * 1 + 1
    rw [e20]; omega
  | ⟨1, _⟩ =>
    show win1_10.index _ (1 : Fin 2) * 64 ≤ (i 1).val ∧ (i 1).val < win1_10.index _ (1 : Fin 2) * 64 + 64
    rw [e21]; omega

end Cert.KernelIdeal.Val

end
-- ==== Proof.KernelIdealR2Val.lean ====
/- Region 2's output as a function of the arrays it is entered with: point `t` sees rows `t·10000 … t·10000 + 9999` of its
   big input and all of the scale and the shift, stores the affine map of them, and its blocks tile the result. -/
import proofs.«149204_j28372553957731_2_alg».proof.Proof.KernelIdealR2Frame
import proofs.«149204_j28372553957731_2_alg».proof.Proof.KernelIdealR1Pay
import Idealize.ShloMosaic.Lib.Pipeline.Value

set_option maxRecDepth 16384

noncomputable section

namespace Cert.KernelIdeal.Val

open Cert.KernelIdeal Cert.KernelIdeal.Gen
open Idealize.ShloMosaic Idealize.ShloMosaic.ValueIdx

open Cert.KernelIdeal.GenP Cert.KernelIdeal.Hand Idealize.ShloMosaic.TcCoe
open Idealize.ShloMosaic.Pipeline (Dat)

variable (V : (c : Dev nD) → (b : Ref sig .tc) → Buf (Elt Ideal) ((c : Thread nD τ).loc b)) (c : Dev nD)

theorem hz2_2 : (![0, 0] : Fin 2 → Nat) = fun _ => 0 := funext fun a => by fin_cases a <;> rfl

theorem idx_facts2 : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

theorem N2' : cfg2.N = 10 := N_2
theorem bnd2 (t : Fin cfg2.N) (r : Fin 10000) : t.val * 10000 + r.val < 100000 := by
  have := lt_of_lt_of_eq t.isLt N2'; have := r.isLt; omega

theorem rd2_0 (t : Fin cfg2.N) (r : Fin 10000) (k : Fin 64) :
    iblk2 V c 0 t (ix2 r k) = V c main_v34_0 (ix2 ⟨t.val * 10000 + r.val, bnd2 t r⟩ k) := by
  obtain ⟨e0, e1, e2, e3, e4, e5, e6, e7⟩ := idx_facts2 t
  show V c main_v34_0 (((cfg2.win 0).blk t).view.emb (ix2 r k)) = _
  refine congrArg (V c main_v34_0) ?_
  funext a; apply Fin.ext
  match a with
  | ⟨0, _⟩ => show win2_0.index t (0 : Fin 2) * 10000 + 1 * r.val = t.val * 10000 + r.val; rw [e0]; omega
  | ⟨1, _⟩ => show win2_0.index t (1 : Fin 2) * 64 + 1 * k.val = k.val; rw [e1]; omega
theorem rd2_1 (t : Fin cfg2.N) (r : Fin 1) (k : Fin 64) : iblk2 V c 1 t (ix2 r k) = V c main_v47 (ix2 r k) := by
  obtain ⟨e0, e1, e2, e3, e4, e5, e6, e7⟩ := idx_facts2 t
  show V c main_v47 (((cfg2.win 1).blk t).view.emb (ix2 r k)) = _
  refine congrArg (V c main_v47) ?_
  funext a; apply Fin.ext
  match a with
  | ⟨0, _⟩ => show win2_1.index t (0 : Fin 2) * 1 + 1 * r.val = r.val; rw [e2]; omega
  | ⟨1, _⟩ => show win2_1.index t (1 : Fin 2) * 64 + 1 * k.val = k.val; rw [e3]; omega
theorem rd2_2 (t : Fin cfg2.N) (r : Fin 1) (k : Fin 64) : iblk2 V c 2 t (ix2 r k) = V c main_v50 (ix2 r k) := by
  obtain ⟨e0, e1, e2, e3, e4, e5, e6, e7⟩ := idx_facts2 t
  show V c main_v50 (((cfg2.win 2).blk t).view.emb (ix2 r k)) = _
  refine congrArg (V c main_v50) ?_
  funext a; apply Fin.ext
  match a with
  | ⟨0, _⟩ => show win2_2.index t (0 : Fin 2) * 1 + 1 * r.val = r.val; rw [e4]; omega
  | ⟨1, _⟩ => show win2_2.index t (1 : Fin 2) * 64 + 1 * k.val = k.val; rw [e5]; omega

/-- The result, row `i`: the affine map of the big input's row. -/
def Z2 (Y : S100000x64.Idx → EReal) (sc sh : S1x64.Idx → EReal) (i : Fin 100000) (k : Fin 64) : EReal :=
  Y (ix2 i k) * sc (ix2 (0 : Fin 1) k) + sh (ix2 (0 : Fin 1) k)

theorem hflush2 (t : Fin cfg2.N) :
    (dat2 V c).flushed 3 t = ((cfg2.win 3).blk t).view.read (Elt Ideal)
      (fun i : S100000x64.Idx => (Z2 (V c main_v34_0) (V c main_v47) (V c main_v50) (i 0) (i 1) : EReal)) := by
  show (cfg2.win 3).cut (grid2.coords t) ((dat2 V c).after 3 t) = _
  rw [after2_3]
  unfold out2_3
  rw [View.canon_unit_zero (S := S10000x64) hz2_2]
  simp only [View.ld_unit_zero (S := S10000x64) hz2_2, View.ld_unit_zero (S := S1x64) hz2_2]
  obtain ⟨e0, e1, e2, e3, e4, e5, e6, e7⟩ := idx_facts2 t
  funext j
  obtain ⟨r, k, rfl⟩ : ∃ (r : Fin 10000) (k : Fin 64), j = ix2 r k := ⟨j 0, j 1, eq_ix2 j⟩
  show k2_pay1 (F := Ideal) (iblk2 V c 0 t) (iblk2 V c 1 t) (iblk2 V c 2 t) (ix2 r k)
    = Z2 (V c main_v34_0) (V c main_v47) (V c main_v50) ((((cfg2.win 3).blk t).view.emb (ix2 r k)) 0) ((((cfg2.win 3).blk t).view.emb (ix2 r k)) 1)
  rw [pay1_2_apply, rd2_0 V c t, rd2_1 V c t, rd2_2 V c t]
  have ha : ((((cfg2.win 3).blk t).view.emb (ix2 r k)) 0) = (⟨t.val * 10000 + r.val, bnd2 t r⟩ : Fin 100000) := by
    apply Fin.ext
    show win2_3.index t (0 : Fin 2) * 10000 + 1 * r.val = t.val * 10000 + r.val
    rw [e6]; omega
  have hb : ((((cfg2.win 3).blk t).view.emb (ix2 r k)) 1) = k := by
    apply Fin.ext
    show win2_3.index t (1 : Fin 2) * 64 + 1 * k.val = k.val
    rw [e7]; omega
  rw [ha, hb]
  rfl

theorem mem_blk2 (t : Fin cfg2.N) (i : S100000x64.Idx) :
    i ∈ ((cfg2.win 3).blk t).view.set ↔ ∀ a : Fin 2, win2_3.index t a * S10000x64.size a ≤ (i a).val ∧ (i a).val < win2_3.index t a * S10000x64.size a + S10000x64.size a := by
  show i ∈ ((View.whole main_v51).slice (win2_3.rect t)).set ↔ _
  rw [View.set_slice_whole, Rect.mem_set_unit]
  exact Iff.rfl

/-- The result array after the region. -/
theorem final2 : (dat2 V c).arrAt 3 cfg2.N
    = (fun i : S100000x64.Idx => (Z2 (V c main_v34_0) (V c main_v47) (V c main_v50) (i 0) (i 1) : EReal)) := by
  refine (dat2 V c).arrAt_eq_of_cover 3 _ (fun t _ => hflush2 V c t) fun i => ?_
  have hi0 : (i 0).val < 100000 := (i 0).isLt
  have hi1 : (i 1).val < 64 := (i 1).isLt
  have hN : cfg2.N = 10 := N2'
  refine ⟨⟨(i 0).val / 10000, by rw [hN]; omega⟩, flush2_3 _, ?_⟩
  rw [mem_blk2]
  obtain ⟨e0, e1, e2, e3, e4, e5, e6, e7⟩ := idx_facts2 ⟨(i 0).val / 10000, by rw [hN]; omega⟩
  intro a
  match a with
  | ⟨0, _⟩ =>
    show win2_3.index _ (0 : Fin 2) * 10000 ≤ (i 0).val ∧ (i 0).val < win2_3.index _ (0 : Fin 2) * 10000 + 10000
    rw [e6]; dsimp only; omega
  | ⟨1, _⟩ =>
    show win2_3.index _ (1 : Fin 2) * 64 ≤ (i 1).val ∧ (i 1).val < win2_3.index _ (1 : Fin 2) * 64 + 64
    rw [e7]; omega

end Cert.KernelIdeal.Val

end
-- ==== Proof.KernelIdealBridge.lean ====
/- The kernel's array functions are the specification's: the convolution with its bias laid out as a row; the glue's scale
   and shift from column sums are the one-pass normalisation's; the second region's block function is the activation and
   the network; the third's is the affine map. -/
import proofs.«149204_j28372553957731_2_alg».proof.Proof.KernelIdealGlue
import proofs.«149204_j28372553957731_2_alg».proof.Proof.KernelIdealR0Val
import proofs.«149204_j28372553957731_2_alg».proof.Proof.KernelIdealR1Val
import proofs.«149204_j28372553957731_2_alg».proof.Proof.KernelIdealR2Val
import proofs.«149204_j28372553957731_2_alg».proof.Proof.Spec

set_option maxRecDepth 16384

noncomputable section

namespace Cert.KernelIdeal.Val

open Cert.KernelIdeal Cert.KernelIdeal.Gen
open Idealize.ShloMosaic Idealize.ShloMosaic.ValueIdx

open Cert.KernelIdeal.GenP Cert.KernelIdeal.Hand Idealize.ShloMosaic.TcCoe
open Cert.Spec (Tab conv csum csq scaleK shiftK bnK act ffn Nr ε)

theorem H0_eq_conv (X A : S100000x64.Idx → EReal) (Wr Wn : S64x64.Idx → EReal) (bg : FVec Ideal S64 .f32) (i : Fin 100000) (k : Fin 64) :
    H0 X A Wr Wn (shapeCast S1x64 bg shapeCasts_S64_S1x64) i k = conv X A Wr Wn bg i k := by
  unfold H0 conv
  rw [shapeCast_a_1a_apply]
theorem colSum0_eq (X A : S100000x64.Idx → EReal) (Wr Wn : S64x64.Idx → EReal) (bg : FVec Ideal S64 .f32) (k : Fin 64) :
    colSum0 X A Wr Wn (shapeCast S1x64 bg shapeCasts_S64_S1x64) k = csum (conv X A Wr Wn bg) k := by
  unfold colSum0 csum
  exact Finset.sum_congr rfl fun n _ => H0_eq_conv X A Wr Wn bg n k
theorem colSq0_eq (X A : S100000x64.Idx → EReal) (Wr Wn : S64x64.Idx → EReal) (bg : FVec Ideal S64 .f32) (k : Fin 64) :
    colSq0 X A Wr Wn (shapeCast S1x64 bg shapeCasts_S64_S1x64) k = csq (conv X A Wr Wn bg) k := by
  unfold colSq0 csq
  exact Finset.sum_congr rfl fun n _ => by rw [H0_eq_conv X A Wr Wn bg n k]

/-- The glue's scale, from column sums that are a table's. -/
theorem glue_scale (S Q : FVec Ideal S1x64 .f32) (g : FVec Ideal S64 .f32) (f : Tab)
    (hS : ∀ u k, S (ix2 u k) = csum f k) (hQ : ∀ u k, Q (ix2 u k) = csq f k) (u : Fin 1) (k : Fin 64) :
    gScale S Q g (ix2 u k) = scaleK f g k := by
  unfold gScale gVar gMean scaleK
  simp only [mulf, addf, subf, maximumf, Host.rsqrt, Host.divf, broadcastInDim, constant, shapeCast_a_1a_apply, Ideal.mulf_def, Ideal.addf_def,
    Ideal.subf_def, Ideal.maximumf_def, Ideal.hostUnary_rsqrt_def, Ideal.hostDivf_def, Ideal.ofBits_def, Cert.Consts.ofBits_rows,
    Cert.Consts.ofBits_zero, Cert.Consts.ofBits_eps, Nr, ε, hS, hQ]
theorem glue_shift (S Q : FVec Ideal S1x64 .f32) (g b : FVec Ideal S64 .f32) (f : Tab)
    (hS : ∀ u k, S (ix2 u k) = csum f k) (hQ : ∀ u k, Q (ix2 u k) = csq f k) (u : Fin 1) (k : Fin 64) :
    gShift S Q g b (ix2 u k) = shiftK f g b k := by
  unfold gShift shiftK
  have hs := glue_scale S Q g f hS hQ u k
  unfold gMean
  simp only [mulf, subf, Host.divf, broadcastInDim, constant, shapeCast_a_1a_apply, Ideal.mulf_def, Ideal.subf_def, Ideal.hostDivf_def,
    Ideal.ofBits_def, Cert.Consts.ofBits_rows, Nr, hS] at hs ⊢
  rw [hs]

/-- The second region's block function is the activation and the network. -/
theorem Y1_eq_ffn (Hh X : S100000x64.Idx → EReal) (sc sh : S1x64.Idx → EReal) (w1 : S64x128.Idx → EReal) (fb1 : FVec Ideal S128 .f32)
    (w2 : S128x64.Idx → EReal) (fb2 : FVec Ideal S64 .f32) (z : Tab)
    (hz : ∀ i k, Hh (ix2 i k) * sc (ix2 (0 : Fin 1) k) + sh (ix2 (0 : Fin 1) k) = z i k) (i : Fin 100000) (c : Fin 64) :
    Y1 Hh X sc sh w1 (shapeCast S1x128 fb1 shapeCasts_S128_S1x128) w2 (shapeCast S1x64 fb2 shapeCasts_S64_S1x64) i c
      = ffn (act z X) w1 fb1 w2 fb2 i c := by
  unfold Y1 A1 ffn act
  simp only [hz, shapeCast_a_1a_apply]

end Cert.KernelIdeal.Val

end
-- ==== Proof.KernelIdealValue.lean ====
/- The kernel's result as the specification's one-pass function of the argument arrays: the boundary contents walked from the
   launch to the return. The first stretch makes the aggregate and lays the biases out as rows; region 0 leaves the
   convolution and its column sums; the second stretch turns the sums into a scale and a shift; region 1 leaves the network's
   output and its column sums; the third stretch the second scale and shift; region 2 applies them. -/
import proofs.«149204_j28372553957731_2_alg».proof.Proof.KernelIdealBridge

set_option maxRecDepth 16384

noncomputable section

namespace Cert.KernelIdeal.Val

open Cert.KernelIdeal Cert.KernelIdeal.Gen
open Idealize.ShloMosaic Idealize.ShloMosaic.ValueIdx

open Cert.KernelIdeal.GenP Cert.KernelIdeal.Hand Idealize.ShloMosaic.TcCoe
open Cert.Spec (Tab conv csum csq scaleK shiftK bnK act ffn kOut)

variable (m : (ℓ : Loc nD τ sig) → Buf (Elt Ideal) ℓ) (ρ : Dev nD → PrngReg) (c : Dev nD)

/-! ## The arguments at every boundary -/
theorem W1_arg0 : W1 m ρ c (Proc.devRef .tc main_arg0) = (m ((c : Thread nD τ).loc main_arg0)) := (W1_of m ρ c main_arg0 (by decide)).trans rfl
theorem W2_arg0 : W2 m ρ c (Proc.devRef .tc main_arg0) = (m ((c : Thread nD τ).loc main_arg0)) := (W2_in m ρ c 0 rfl).trans (W1_arg0 m ρ c)
theorem W3_arg0 : W3 m ρ c (Proc.devRef .tc main_arg0) = (m ((c : Thread nD τ).loc main_arg0)) := (W3_of m ρ c main_arg0 (by decide)).trans (W2_arg0 m ρ c)
theorem W4_arg0 : W4 m ρ c (Proc.devRef .tc main_arg0) = (m ((c : Thread nD τ).loc main_arg0)) := (W4_in m ρ c 1 rfl).trans (W3_arg0 m ρ c)
theorem W5_arg0 : W5 m ρ c (Proc.devRef .tc main_arg0) = (m ((c : Thread nD τ).loc main_arg0)) := (W5_of m ρ c main_arg0 (by decide)).trans (W4_arg0 m ρ c)
theorem W1_arg1 : W1 m ρ c (Proc.devRef .tc main_arg1) = (m ((c : Thread nD τ).loc main_arg1)) := (W1_of m ρ c main_arg1 (by decide)).trans rfl
theorem W2_arg1 : W2 m ρ c (Proc.devRef .tc main_arg1) = (m ((c : Thread nD τ).loc main_arg1)) := (W2_of_ne m ρ c main_arg1 (by decide)).trans (W1_arg1 m ρ c)
theorem W3_arg1 : W3 m ρ c (Proc.devRef .tc main_arg1) = (m ((c : Thread nD τ).loc main_arg1)) := (W3_of m ρ c main_arg1 (by decide)).trans (W2_arg1 m ρ c)
theorem W4_arg1 : W4 m ρ c (Proc.devRef .tc main_arg1) = (m ((c : Thread nD τ).loc main_arg1)) := (W4_of_ne m ρ c main_arg1 (by decide)).trans (W3_arg1 m ρ c)
theorem W5_arg1 : W5 m ρ c (Proc.devRef .tc main_arg1) = (m ((c : Thread nD τ).loc main_arg1)) := (W5_of m ρ c main_arg1 (by decide)).trans (W4_arg1 m ρ c)
theorem W1_arg2 : W1 m ρ c (Proc.devRef .tc main_arg2) = (m ((c : Thread nD τ).loc main_arg2)) := (W1_of m ρ c main_arg2 (by decide)).trans rfl
theorem W2_arg2 : W2 m ρ c (Proc.devRef .tc main_arg2) = (m ((c : Thread nD τ).loc main_arg2)) := (W2_in m ρ c 2 rfl).trans (W1_arg2 m ρ c)
theorem W3_arg2 : W3 m ρ c (Proc.devRef .tc main_arg2) = (m ((c : Thread nD τ).loc main_arg2)) := (W3_of m ρ c main_arg2 (by decide)).trans (W2_arg2 m ρ c)
theorem W4_arg2 : W4 m ρ c (Proc.devRef .tc main_arg2) = (m ((c : Thread nD τ).loc main_arg2)) := (W4_of_ne m ρ c main_arg2 (by decide)).trans (W3_arg2 m ρ c)
theorem W5_arg2 : W5 m ρ c (Proc.devRef .tc main_arg2) = (m ((c : Thread nD τ).loc main_arg2)) := (W5_of m ρ c main_arg2 (by decide)).trans (W4_arg2 m ρ c)
theorem W1_arg3 : W1 m ρ c (Proc.devRef .tc main_arg3) = (m ((c : Thread nD τ).loc main_arg3)) := (W1_of m ρ c main_arg3 (by decide)).trans rfl
theorem W2_arg3 : W2 m ρ c (Proc.devRef .tc main_arg3) = (m ((c : Thread nD τ).loc main_arg3)) := (W2_in m ρ c 3 rfl).trans (W1_arg3 m ρ c)
theorem W3_arg3 : W3 m ρ c (Proc.devRef .tc main_arg3) = (m ((c : Thread nD τ).loc main_arg3)) := (W3_of m ρ c main_arg3 (by decide)).trans (W2_arg3 m ρ c)
theorem W4_arg3 : W4 m ρ c (Proc.devRef .tc main_arg3) = (m ((c : Thread nD τ).loc main_arg3)) := (W4_of_ne m ρ c main_arg3 (by decide)).trans (W3_arg3 m ρ c)
theorem W5_arg3 : W5 m ρ c (Proc.devRef .tc main_arg3) = (m ((c : Thread nD τ).loc main_arg3)) := (W5_of m ρ c main_arg3 (by decide)).trans (W4_arg3 m ρ c)
theorem W1_arg4 : W1 m ρ c (Proc.devRef .tc main_arg4) = (m ((c : Thread nD τ).loc main_arg4)) := (W1_of m ρ c main_arg4 (by decide)).trans rfl
theorem W2_arg4 : W2 m ρ c (Proc.devRef .tc main_arg4) = (m ((c : Thread nD τ).loc main_arg4)) := (W2_of_ne m ρ c main_arg4 (by decide)).trans (W1_arg4 m ρ c)
theorem W3_arg4 : W3 m ρ c (Proc.devRef .tc main_arg4) = (m ((c : Thread nD τ).loc main_arg4)) := (W3_of m ρ c main_arg4 (by decide)).trans (W2_arg4 m ρ c)
theorem W4_arg4 : W4 m ρ c (Proc.devRef .tc main_arg4) = (m ((c : Thread nD τ).loc main_arg4)) := (W4_of_ne m ρ c main_arg4 (by decide)).trans (W3_arg4 m ρ c)
theorem W5_arg4 : W5 m ρ c (Proc.devRef .tc main_arg4) = (m ((c : Thread nD τ).loc main_arg4)) := (W5_of m ρ c main_arg4 (by decide)).trans (W4_arg4 m ρ c)
theorem W1_arg5 : W1 m ρ c (Proc.devRef .tc main_arg5) = (m ((c : Thread nD τ).loc main_arg5)) := (W1_of m ρ c main_arg5 (by decide)).trans rfl
theorem W2_arg5 : W2 m ρ c (Proc.devRef .tc main_arg5) = (m ((c : Thread nD τ).loc main_arg5)) := (W2_of_ne m ρ c main_arg5 (by decide)).trans (W1_arg5 m ρ c)
theorem W3_arg5 : W3 m ρ c (Proc.devRef .tc main_arg5) = (m ((c : Thread nD τ).loc main_arg5)) := (W3_of m ρ c main_arg5 (by decide)).trans (W2_arg5 m ρ c)
theorem W4_arg5 : W4 m ρ c (Proc.devRef .tc main_arg5) = (m ((c : Thread nD τ).loc main_arg5)) := (W4_of_ne m ρ c main_arg5 (by decide)).trans (W3_arg5 m ρ c)
theorem W5_arg5 : W5 m ρ c (Proc.devRef .tc main_arg5) = (m ((c : Thread nD τ).loc main_arg5)) := (W5_of m ρ c main_arg5 (by decide)).trans (W4_arg5 m ρ c)
theorem W1_arg6 : W1 m ρ c (Proc.devRef .tc main_arg6) = (m ((c : Thread nD τ).loc main_arg6)) := (W1_of m ρ c main_arg6 (by decide)).trans rfl
theorem W2_arg6 : W2 m ρ c (Proc.devRef .tc main_arg6) = (m ((c : Thread nD τ).loc main_arg6)) := (W2_of_ne m ρ c main_arg6 (by decide)).trans (W1_arg6 m ρ c)
theorem W3_arg6 : W3 m ρ c (Proc.devRef .tc main_arg6) = (m ((c : Thread nD τ).loc main_arg6)) := (W3_of m ρ c main_arg6 (by decide)).trans (W2_arg6 m ρ c)
theorem W4_arg6 : W4 m ρ c (Proc.devRef .tc main_arg6) = (m ((c : Thread nD τ).loc main_arg6)) := (W4_of_ne m ρ c main_arg6 (by decide)).trans (W3_arg6 m ρ c)
theorem W5_arg6 : W5 m ρ c (Proc.devRef .tc main_arg6) = (m ((c : Thread nD τ).loc main_arg6)) := (W5_of m ρ c main_arg6 (by decide)).trans (W4_arg6 m ρ c)
theorem W1_arg7 : W1 m ρ c (Proc.devRef .tc main_arg7) = (m ((c : Thread nD τ).loc main_arg7)) := (W1_of m ρ c main_arg7 (by decide)).trans rfl
theorem W2_arg7 : W2 m ρ c (Proc.devRef .tc main_arg7) = (m ((c : Thread nD τ).loc main_arg7)) := (W2_of_ne m ρ c main_arg7 (by decide)).trans (W1_arg7 m ρ c)
theorem W3_arg7 : W3 m ρ c (Proc.devRef .tc main_arg7) = (m ((c : Thread nD τ).loc main_arg7)) := (W3_of m ρ c main_arg7 (by decide)).trans (W2_arg7 m ρ c)
theorem W4_arg7 : W4 m ρ c (Proc.devRef .tc main_arg7) = (m ((c : Thread nD τ).loc main_arg7)) := (W4_in m ρ c 4 rfl).trans (W3_arg7 m ρ c)
theorem W5_arg7 : W5 m ρ c (Proc.devRef .tc main_arg7) = (m ((c : Thread nD τ).loc main_arg7)) := (W5_of m ρ c main_arg7 (by decide)).trans (W4_arg7 m ρ c)
theorem W1_arg8 : W1 m ρ c (Proc.devRef .tc main_arg8) = (m ((c : Thread nD τ).loc main_arg8)) := (W1_of m ρ c main_arg8 (by decide)).trans rfl
theorem W2_arg8 : W2 m ρ c (Proc.devRef .tc main_arg8) = (m ((c : Thread nD τ).loc main_arg8)) := (W2_of_ne m ρ c main_arg8 (by decide)).trans (W1_arg8 m ρ c)
theorem W3_arg8 : W3 m ρ c (Proc.devRef .tc main_arg8) = (m ((c : Thread nD τ).loc main_arg8)) := (W3_of m ρ c main_arg8 (by decide)).trans (W2_arg8 m ρ c)
theorem W4_arg8 : W4 m ρ c (Proc.devRef .tc main_arg8) = (m ((c : Thread nD τ).loc main_arg8)) := (W4_of_ne m ρ c main_arg8 (by decide)).trans (W3_arg8 m ρ c)
theorem W5_arg8 : W5 m ρ c (Proc.devRef .tc main_arg8) = (m ((c : Thread nD τ).loc main_arg8)) := (W5_of m ρ c main_arg8 (by decide)).trans (W4_arg8 m ρ c)
theorem W1_arg9 : W1 m ρ c (Proc.devRef .tc main_arg9) = (m ((c : Thread nD τ).loc main_arg9)) := (W1_of m ρ c main_arg9 (by decide)).trans rfl
theorem W2_arg9 : W2 m ρ c (Proc.devRef .tc main_arg9) = (m ((c : Thread nD τ).loc main_arg9)) := (W2_of_ne m ρ c main_arg9 (by decide)).trans (W1_arg9 m ρ c)
theorem W3_arg9 : W3 m ρ c (Proc.devRef .tc main_arg9) = (m ((c : Thread nD τ).loc main_arg9)) := (W3_of m ρ c main_arg9 (by decide)).trans (W2_arg9 m ρ c)
theorem W4_arg9 : W4 m ρ c (Proc.devRef .tc main_arg9) = (m ((c : Thread nD τ).loc main_arg9)) := (W4_in m ρ c 6 rfl).trans (W3_arg9 m ρ c)
theorem W5_arg9 : W5 m ρ c (Proc.devRef .tc main_arg9) = (m ((c : Thread nD τ).loc main_arg9)) := (W5_of m ρ c main_arg9 (by decide)).trans (W4_arg9 m ρ c)
theorem W1_arg10 : W1 m ρ c (Proc.devRef .tc main_arg10) = (m ((c : Thread nD τ).loc main_arg10)) := (W1_of m ρ c main_arg10 (by decide)).trans rfl
theorem W2_arg10 : W2 m ρ c (Proc.devRef .tc main_arg10) = (m ((c : Thread nD τ).loc main_arg10)) := (W2_of_ne m ρ c main_arg10 (by decide)).trans (W1_arg10 m ρ c)
theorem W3_arg10 : W3 m ρ c (Proc.devRef .tc main_arg10) = (m ((c : Thread nD τ).loc main_arg10)) := (W3_of m ρ c main_arg10 (by decide)).trans (W2_arg10 m ρ c)
theorem W4_arg10 : W4 m ρ c (Proc.devRef .tc main_arg10) = (m ((c : Thread nD τ).loc main_arg10)) := (W4_of_ne m ρ c main_arg10 (by decide)).trans (W3_arg10 m ρ c)
theorem W5_arg10 : W5 m ρ c (Proc.devRef .tc main_arg10) = (m ((c : Thread nD τ).loc main_arg10)) := (W5_of m ρ c main_arg10 (by decide)).trans (W4_arg10 m ρ c)
theorem W1_arg11 : W1 m ρ c (Proc.devRef .tc main_arg11) = (m ((c : Thread nD τ).loc main_arg11)) := (W1_of m ρ c main_arg11 (by decide)).trans rfl
theorem W2_arg11 : W2 m ρ c (Proc.devRef .tc main_arg11) = (m ((c : Thread nD τ).loc main_arg11)) := (W2_of_ne m ρ c main_arg11 (by decide)).trans (W1_arg11 m ρ c)
theorem W3_arg11 : W3 m ρ c (Proc.devRef .tc main_arg11) = (m ((c : Thread nD τ).loc main_arg11)) := (W3_of m ρ c main_arg11 (by decide)).trans (W2_arg11 m ρ c)
theorem W4_arg11 : W4 m ρ c (Proc.devRef .tc main_arg11) = (m ((c : Thread nD τ).loc main_arg11)) := (W4_of_ne m ρ c main_arg11 (by decide)).trans (W3_arg11 m ρ c)
theorem W5_arg11 : W5 m ρ c (Proc.devRef .tc main_arg11) = (m ((c : Thread nD τ).loc main_arg11)) := (W5_of m ρ c main_arg11 (by decide)).trans (W4_arg11 m ρ c)
theorem W1_arg12 : W1 m ρ c (Proc.devRef .tc main_arg12) = (m ((c : Thread nD τ).loc main_arg12)) := (W1_of m ρ c main_arg12 (by decide)).trans rfl
theorem W2_arg12 : W2 m ρ c (Proc.devRef .tc main_arg12) = (m ((c : Thread nD τ).loc main_arg12)) := (W2_of_ne m ρ c main_arg12 (by decide)).trans (W1_arg12 m ρ c)
theorem W3_arg12 : W3 m ρ c (Proc.devRef .tc main_arg12) = (m ((c : Thread nD τ).loc main_arg12)) := (W3_of m ρ c main_arg12 (by decide)).trans (W2_arg12 m ρ c)
theorem W4_arg12 : W4 m ρ c (Proc.devRef .tc main_arg12) = (m ((c : Thread nD τ).loc main_arg12)) := (W4_of_ne m ρ c main_arg12 (by decide)).trans (W3_arg12 m ρ c)
theorem W5_arg12 : W5 m ρ c (Proc.devRef .tc main_arg12) = (m ((c : Thread nD τ).loc main_arg12)) := (W5_of m ρ c main_arg12 (by decide)).trans (W4_arg12 m ρ c)

/-! ## The first stretch -/
theorem W1_v13 : W1 m ρ c (Proc.devRef .tc main_v13) = (aggK (m ((c : Thread nD τ).loc main_arg0)) (m ((c : Thread nD τ).loc main_arg1))) := (agg_read (W0 m ρ c)).trans rfl
theorem W1_v14 : W1 m ρ c (Proc.devRef .tc main_v14) = shapeCast S1x64 (m ((c : Thread nD τ).loc main_arg4)) shapeCasts_S64_S1x64 := ((bias_reads (W0 m ρ c)).1).trans rfl
theorem W1_v15 : W1 m ρ c (Proc.devRef .tc main_v15) = shapeCast S1x128 (m ((c : Thread nD τ).loc main_arg8)) shapeCasts_S128_S1x128 := ((bias_reads (W0 m ρ c)).2.1).trans rfl
theorem W1_v16 : W1 m ρ c (Proc.devRef .tc main_v16) = shapeCast S1x64 (m ((c : Thread nD τ).loc main_arg10)) shapeCasts_S64_S1x64 := ((bias_reads (W0 m ρ c)).2.2).trans rfl

/-! ## Region 0 -/
theorem W2_h : W2 m ρ c (Proc.devRef .tc main_v17_0) = (fun j : S100000x64.Idx => ((conv (m ((c : Thread nD τ).loc main_arg0)) (aggK (m ((c : Thread nD τ).loc main_arg0)) (m ((c : Thread nD τ).loc main_arg1))) (m ((c : Thread nD τ).loc main_arg2)) (m ((c : Thread nD τ).loc main_arg3)) (m ((c : Thread nD τ).loc main_arg4))) (j 0) (j 1) : EReal)) := by
  rw [show W2 m ρ c (Proc.devRef .tc main_v17_0) = (dat0 (V1 m ρ) c).arrAt 5 cfg0.N from W2_arr m ρ c 5, final0_B (V1 m ρ) c]
  funext j
  show H0 (W1 m ρ c (Proc.devRef .tc main_arg0)) (W1 m ρ c (Proc.devRef .tc main_v13)) (W1 m ρ c (Proc.devRef .tc main_arg2))
    (W1 m ρ c (Proc.devRef .tc main_arg3)) (W1 m ρ c (Proc.devRef .tc main_v14)) (j 0) (j 1) = _
  rw [W1_arg0, W1_v13, W1_arg2, W1_arg3, W1_v14]
  exact H0_eq_conv _ _ _ _ _ (j 0) (j 1)
theorem W2_s : W2 m ρ c (Proc.devRef .tc main_v17_1) = (fun j : S1x64.Idx => (csum (conv (m ((c : Thread nD τ).loc main_arg0)) (aggK (m ((c : Thread nD τ).loc main_arg0)) (m ((c : Thread nD τ).loc main_arg1))) (m ((c : Thread nD τ).loc main_arg2)) (m ((c : Thread nD τ).loc main_arg3)) (m ((c : Thread nD τ).loc main_arg4))) (j 1) : EReal)) := by
  rw [show W2 m ρ c (Proc.devRef .tc main_v17_1) = (dat0 (V1 m ρ) c).arrAt 6 cfg0.N from W2_arr m ρ c 6, final0_6 (V1 m ρ) c]
  funext j
  show colSum0 (W1 m ρ c (Proc.devRef .tc main_arg0)) (W1 m ρ c (Proc.devRef .tc main_v13)) (W1 m ρ c (Proc.devRef .tc main_arg2))
    (W1 m ρ c (Proc.devRef .tc main_arg3)) (W1 m ρ c (Proc.devRef .tc main_v14)) (j 1) = _
  rw [W1_arg0, W1_v13, W1_arg2, W1_arg3, W1_v14]
  exact colSum0_eq _ _ _ _ _ (j 1)
theorem W2_q : W2 m ρ c (Proc.devRef .tc main_v17_2) = (fun j : S1x64.Idx => (csq (conv (m ((c : Thread nD τ).loc main_arg0)) (aggK (m ((c : Thread nD τ).loc main_arg0)) (m ((c : Thread nD τ).loc main_arg1))) (m ((c : Thread nD τ).loc main_arg2)) (m ((c : Thread nD τ).loc main_arg3)) (m ((c : Thread nD τ).loc main_arg4))) (j 1) : EReal)) := by
  rw [show W2 m ρ c (Proc.devRef .tc main_v17_2) = (dat0 (V1 m ρ) c).arrAt 7 cfg0.N from W2_arr m ρ c 7, final0_7 (V1 m ρ) c]
  funext j
  show colSq0 (W1 m ρ c (Proc.devRef .tc main_arg0)) (W1 m ρ c (Proc.devRef .tc main_v13)) (W1 m ρ c (Proc.devRef .tc main_arg2))
    (W1 m ρ c (Proc.devRef .tc main_arg3)) (W1 m ρ c (Proc.devRef .tc main_v14)) (j 1) = _
  rw [W1_arg0, W1_v13, W1_arg2, W1_arg3, W1_v14]
  exact colSq0_eq _ _ _ _ _ (j 1)

/-! ## The second stretch -/
theorem W3_h : W3 m ρ c (Proc.devRef .tc main_v17_0) = W2 m ρ c (Proc.devRef .tc main_v17_0) := k1_keep (W2 m ρ c) main_v17_0 (by decide)
theorem W3_v30 : W3 m ρ c (Proc.devRef .tc main_v30) = gScale (W2 m ρ c (Proc.devRef .tc main_v17_1)) (W2 m ρ c (Proc.devRef .tc main_v17_2)) (m ((c : Thread nD τ).loc main_arg5)) :=
  (scale1_read (W2 m ρ c)).trans (by rw [W2_arg5])
theorem W3_v33 : W3 m ρ c (Proc.devRef .tc main_v33) = gShift (W2 m ρ c (Proc.devRef .tc main_v17_1)) (W2 m ρ c (Proc.devRef .tc main_v17_2)) (m ((c : Thread nD τ).loc main_arg5)) (m ((c : Thread nD τ).loc main_arg6)) :=
  (shift1_read (W2 m ρ c)).trans (by rw [W2_arg5, W2_arg6])
theorem W3_v15 : W3 m ρ c (Proc.devRef .tc main_v15) = shapeCast S1x128 (m ((c : Thread nD τ).loc main_arg8)) shapeCasts_S128_S1x128 :=
  (k1_keep (W2 m ρ c) main_v15 (by decide)).trans ((W2_of_ne m ρ c main_v15 (by decide)).trans (W1_v15 m ρ c))
theorem W3_v16 : W3 m ρ c (Proc.devRef .tc main_v16) = shapeCast S1x64 (m ((c : Thread nD τ).loc main_arg10)) shapeCasts_S64_S1x64 :=
  (k1_keep (W2 m ρ c) main_v16 (by decide)).trans ((W2_of_ne m ρ c main_v16 (by decide)).trans (W1_v16 m ρ c))

/-- The normalised first stage, as region 1 reads it. -/
theorem bn1_read (i : Fin 100000) (k : Fin 64) :
    (@id (S100000x64.Idx → EReal) (W3 m ρ c (Proc.devRef .tc main_v17_0))) (ix2 i k) * (@id (S1x64.Idx → EReal) (W3 m ρ c (Proc.devRef .tc main_v30))) (ix2 (0 : Fin 1) k)
        + (@id (S1x64.Idx → EReal) (W3 m ρ c (Proc.devRef .tc main_v33))) (ix2 (0 : Fin 1) k)
      = (bnK (conv (m ((c : Thread nD τ).loc main_arg0)) (aggK (m ((c : Thread nD τ).loc main_arg0)) (m ((c : Thread nD τ).loc main_arg1))) (m ((c : Thread nD τ).loc main_arg2)) (m ((c : Thread nD τ).loc main_arg3)) (m ((c : Thread nD τ).loc main_arg4))) (m ((c : Thread nD τ).loc main_arg5)) (m ((c : Thread nD τ).loc main_arg6))) i k := by
  unfold id
  rw [W3_h, W3_v30, W3_v33, W2_h,
    glue_scale _ _ _ (conv (m ((c : Thread nD τ).loc main_arg0)) (aggK (m ((c : Thread nD τ).loc main_arg0)) (m ((c : Thread nD τ).loc main_arg1))) (m ((c : Thread nD τ).loc main_arg2)) (m ((c : Thread nD τ).loc main_arg3)) (m ((c : Thread nD τ).loc main_arg4))) (fun u k => by rw [W2_s]) (fun u k => by rw [W2_q]) 0 k,
    glue_shift _ _ _ _ (conv (m ((c : Thread nD τ).loc main_arg0)) (aggK (m ((c : Thread nD τ).loc main_arg0)) (m ((c : Thread nD τ).loc main_arg1))) (m ((c : Thread nD τ).loc main_arg2)) (m ((c : Thread nD τ).loc main_arg3)) (m ((c : Thread nD τ).loc main_arg4))) (fun u k => by rw [W2_s]) (fun u k => by rw [W2_q]) 0 k]
  rfl

/-! ## Region 1 -/
theorem W4_y : W4 m ρ c (Proc.devRef .tc main_v34_0) = (fun j : S100000x64.Idx => ((ffn (act (bnK (conv (m ((c : Thread nD τ).loc main_arg0)) (aggK (m ((c : Thread nD τ).loc main_arg0)) (m ((c : Thread nD τ).loc main_arg1))) (m ((c : Thread nD τ).loc main_arg2)) (m ((c : Thread nD τ).loc main_arg3)) (m ((c : Thread nD τ).loc main_arg4))) (m ((c : Thread nD τ).loc main_arg5)) (m ((c : Thread nD τ).loc main_arg6))) (m ((c : Thread nD τ).loc main_arg0))) (m ((c : Thread nD τ).loc main_arg7)) (m ((c : Thread nD τ).loc main_arg8)) (m ((c : Thread nD τ).loc main_arg9)) (m ((c : Thread nD τ).loc main_arg10))) (j 0) (j 1) : EReal)) := by
  rw [show W4 m ρ c (Proc.devRef .tc main_v34_0) = (dat1 (V3 m ρ) c).arrAt 8 cfg1.N from W4_arr m ρ c 8, final1_B (V3 m ρ) c]
  funext j
  show Y1 (W3 m ρ c (Proc.devRef .tc main_v17_0)) (W3 m ρ c (Proc.devRef .tc main_arg0)) (W3 m ρ c (Proc.devRef .tc main_v30))
    (W3 m ρ c (Proc.devRef .tc main_v33)) (W3 m ρ c (Proc.devRef .tc main_arg7)) (W3 m ρ c (Proc.devRef .tc main_v15))
    (W3 m ρ c (Proc.devRef .tc main_arg9)) (W3 m ρ c (Proc.devRef .tc main_v16)) (j 0) (j 1) = _
  rw [W3_v15, W3_v16, W3_arg0, W3_arg7, W3_arg9]
  exact Y1_eq_ffn _ _ _ _ _ _ _ _ (bnK (conv (m ((c : Thread nD τ).loc main_arg0)) (aggK (m ((c : Thread nD τ).loc main_arg0)) (m ((c : Thread nD τ).loc main_arg1))) (m ((c : Thread nD τ).loc main_arg2)) (m ((c : Thread nD τ).loc main_arg3)) (m ((c : Thread nD τ).loc main_arg4))) (m ((c : Thread nD τ).loc main_arg5)) (m ((c : Thread nD τ).loc main_arg6))) (fun i k => bn1_read m ρ c i k) (j 0) (j 1)
theorem W4_s : W4 m ρ c (Proc.devRef .tc main_v34_1) = (fun j : S1x64.Idx => (csum (ffn (act (bnK (conv (m ((c : Thread nD τ).loc main_arg0)) (aggK (m ((c : Thread nD τ).loc main_arg0)) (m ((c : Thread nD τ).loc main_arg1))) (m ((c : Thread nD τ).loc main_arg2)) (m ((c : Thread nD τ).loc main_arg3)) (m ((c : Thread nD τ).loc main_arg4))) (m ((c : Thread nD τ).loc main_arg5)) (m ((c : Thread nD τ).loc main_arg6))) (m ((c : Thread nD τ).loc main_arg0))) (m ((c : Thread nD τ).loc main_arg7)) (m ((c : Thread nD τ).loc main_arg8)) (m ((c : Thread nD τ).loc main_arg9)) (m ((c : Thread nD τ).loc main_arg10))) (j 1) : EReal)) := by
  rw [show W4 m ρ c (Proc.devRef .tc main_v34_1) = (dat1 (V3 m ρ) c).arrAt 9 cfg1.N from W4_arr m ρ c 9, final1_9 (V3 m ρ) c]
  funext j
  show colSum1 (W3 m ρ c (Proc.devRef .tc main_v17_0)) (W3 m ρ c (Proc.devRef .tc main_arg0)) (W3 m ρ c (Proc.devRef .tc main_v30))
    (W3 m ρ c (Proc.devRef .tc main_v33)) (W3 m ρ c (Proc.devRef .tc main_arg7)) (W3 m ρ c (Proc.devRef .tc main_v15))
    (W3 m ρ c (Proc.devRef .tc main_arg9)) (W3 m ρ c (Proc.devRef .tc main_v16)) (j 1) = _
  unfold colSum1 csum
  rw [W3_v15, W3_v16, W3_arg0, W3_arg7, W3_arg9]
  exact Finset.sum_congr rfl fun n _ => Y1_eq_ffn _ _ _ _ _ _ _ _ (bnK (conv (m ((c : Thread nD τ).loc main_arg0)) (aggK (m ((c : Thread nD τ).loc main_arg0)) (m ((c : Thread nD τ).loc main_arg1))) (m ((c : Thread nD τ).loc main_arg2)) (m ((c : Thread nD τ).loc main_arg3)) (m ((c : Thread nD τ).loc main_arg4))) (m ((c : Thread nD τ).loc main_arg5)) (m ((c : Thread nD τ).loc main_arg6))) (fun i k => bn1_read m ρ c i k) n (j 1)
theorem W4_q : W4 m ρ c (Proc.devRef .tc main_v34_2) = (fun j : S1x64.Idx => (csq (ffn (act (bnK (conv (m ((c : Thread nD τ).loc main_arg0)) (aggK (m ((c : Thread nD τ).loc main_arg0)) (m ((c : Thread nD τ).loc main_arg1))) (m ((c : Thread nD τ).loc main_arg2)) (m ((c : Thread nD τ).loc main_arg3)) (m ((c : Thread nD τ).loc main_arg4))) (m ((c : Thread nD τ).loc main_arg5)) (m ((c : Thread nD τ).loc main_arg6))) (m ((c : Thread nD τ).loc main_arg0))) (m ((c : Thread nD τ).loc main_arg7)) (m ((c : Thread nD τ).loc main_arg8)) (m ((c : Thread nD τ).loc main_arg9)) (m ((c : Thread nD τ).loc main_arg10))) (j 1) : EReal)) := by
  rw [show W4 m ρ c (Proc.devRef .tc main_v34_2) = (dat1 (V3 m ρ) c).arrAt 10 cfg1.N from W4_arr m ρ c 10, final1_10 (V3 m ρ) c]
  funext j
  show colSq1 (W3 m ρ c (Proc.devRef .tc main_v17_0)) (W3 m ρ c (Proc.devRef .tc main_arg0)) (W3 m ρ c (Proc.devRef .tc main_v30))
    (W3 m ρ c (Proc.devRef .tc main_v33)) (W3 m ρ c (Proc.devRef .tc main_arg7)) (W3 m ρ c (Proc.devRef .tc main_v15))
    (W3 m ρ c (Proc.devRef .tc main_arg9)) (W3 m ρ c (Proc.devRef .tc main_v16)) (j 1) = _
  unfold colSq1 csq
  rw [W3_v15, W3_v16, W3_arg0, W3_arg7, W3_arg9]
  exact Finset.sum_congr rfl fun n _ => congrArg₂ (· * ·)
    (Y1_eq_ffn _ _ _ _ _ _ _ _ (bnK (conv (m ((c : Thread nD τ).loc main_arg0)) (aggK (m ((c : Thread nD τ).loc main_arg0)) (m ((c : Thread nD τ).loc main_arg1))) (m ((c : Thread nD τ).loc main_arg2)) (m ((c : Thread nD τ).loc main_arg3)) (m ((c : Thread nD τ).loc main_arg4))) (m ((c : Thread nD τ).loc main_arg5)) (m ((c : Thread nD τ).loc main_arg6))) (fun i k => bn1_read m ρ c i k) n (j 1))
    (Y1_eq_ffn _ _ _ _ _ _ _ _ (bnK (conv (m ((c : Thread nD τ).loc main_arg0)) (aggK (m ((c : Thread nD τ).loc main_arg0)) (m ((c : Thread nD τ).loc main_arg1))) (m ((c : Thread nD τ).loc main_arg2)) (m ((c : Thread nD τ).loc main_arg3)) (m ((c : Thread nD τ).loc main_arg4))) (m ((c : Thread nD τ).loc main_arg5)) (m ((c : Thread nD τ).loc main_arg6))) (fun i k => bn1_read m ρ c i k) n (j 1))

/-! ## The third stretch and region 2 -/
theorem W5_y : W5 m ρ c (Proc.devRef .tc main_v34_0) = W4 m ρ c (Proc.devRef .tc main_v34_0) := k2_keep (W4 m ρ c) main_v34_0 (by decide)
theorem W5_v47 : W5 m ρ c (Proc.devRef .tc main_v47) = gScale (W4 m ρ c (Proc.devRef .tc main_v34_1)) (W4 m ρ c (Proc.devRef .tc main_v34_2)) (m ((c : Thread nD τ).loc main_arg11)) :=
  (scale2_read (W4 m ρ c)).trans (by rw [W4_arg11])
theorem W5_v50 : W5 m ρ c (Proc.devRef .tc main_v50) = gShift (W4 m ρ c (Proc.devRef .tc main_v34_1)) (W4 m ρ c (Proc.devRef .tc main_v34_2)) (m ((c : Thread nD τ).loc main_arg11)) (m ((c : Thread nD τ).loc main_arg12)) :=
  (shift2_read (W4 m ρ c)).trans (by rw [W4_arg11, W4_arg12])

/-- THE KERNEL'S RESULT, entry by entry. -/
theorem kernel_value (i : Fin 100000) (k : Fin 64) :
    W6 m ρ c (Proc.devRef .tc main_v51) (ix2 i k)
      = kOut (m ((c : Thread nD τ).loc main_arg0)) (aggK (m ((c : Thread nD τ).loc main_arg0)) (m ((c : Thread nD τ).loc main_arg1))) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) i k := by
  rw [show W6 m ρ c (Proc.devRef .tc main_v51) = (dat2 (V5 m ρ) c).arrAt 3 cfg2.N from W6_arr m ρ c 3, final2 (V5 m ρ) c]
  show Z2 (W5 m ρ c (Proc.devRef .tc main_v34_0)) (W5 m ρ c (Proc.devRef .tc main_v47)) (W5 m ρ c (Proc.devRef .tc main_v50)) i k = _
  unfold Z2 kOut
  rw [W5_y, W5_v47, W5_v50, W4_y,
    glue_scale _ _ _ (ffn (act (bnK (conv (m ((c : Thread nD τ).loc main_arg0)) (aggK (m ((c : Thread nD τ).loc main_arg0)) (m ((c : Thread nD τ).loc main_arg1))) (m ((c : Thread nD τ).loc main_arg2)) (m ((c : Thread nD τ).loc main_arg3)) (m ((c : Thread nD τ).loc main_arg4))) (m ((c : Thread nD τ).loc main_arg5)) (m ((c : Thread nD τ).loc main_arg6))) (m ((c : Thread nD τ).loc main_arg0))) (m ((c : Thread nD τ).loc main_arg7)) (m ((c : Thread nD τ).loc main_arg8)) (m ((c : Thread nD τ).loc main_arg9)) (m ((c : Thread nD τ).loc main_arg10))) (fun u k => by rw [W4_s]) (fun u k => by rw [W4_q]) 0 k,
    glue_shift _ _ _ _ (ffn (act (bnK (conv (m ((c : Thread nD τ).loc main_arg0)) (aggK (m ((c : Thread nD τ).loc main_arg0)) (m ((c : Thread nD τ).loc main_arg1))) (m ((c : Thread nD τ).loc main_arg2)) (m ((c : Thread nD τ).loc main_arg3)) (m ((c : Thread nD τ).loc main_arg4))) (m ((c : Thread nD τ).loc main_arg5)) (m ((c : Thread nD τ).loc main_arg6))) (m ((c : Thread nD τ).loc main_arg0))) (m ((c : Thread nD τ).loc main_arg7)) (m ((c : Thread nD τ).loc main_arg8)) (m ((c : Thread nD τ).loc main_arg9)) (m ((c : Thread nD τ).loc main_arg10))) (fun u k => by rw [W4_s]) (fun u k => by rw [W4_q]) 0 k]
  rfl

end Cert.KernelIdeal.Val

end
-- ==== Proof.RefRun.lean ====
/- The reference program's @main as a straight line of 127 host operations — the outlined functions (the variance, its
   guard, the two rectifiers) written out at their call sites over the calls' own buffers — and its run: every weakly
   fair execution terminates and each buffer ends at the line's fold over the launch contents. -/
import proofs.«149204_j28372553957731_2_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The first window's operations, in order. -/
abbrev ops0 : List (HloOp τ sig (Elt F)) :=
  [ StableHlo.unary main_arg1 main_v0 ((extractStridedSlice S1x1600000 ![0, 0] · slices_S2x1600000_S1x1600000_0_0) : (⟨S2x1600000, .i32⟩ : BufTy).Contents (Elt F) → (⟨S1x1600000, .i32⟩ : BufTy).Contents (Elt F)),
    StableHlo.reshape main_v0 main_v1 rfl shapeCasts_S1x1600000_S1600000,
    StableHlo.unary main_arg1 main_v2 ((extractStridedSlice S1x1600000 ![1, 0] · slices_S2x1600000_S1x1600000_1_0) : (⟨S2x1600000, .i32⟩ : BufTy).Contents (Elt F) → (⟨S1x1600000, .i32⟩ : BufTy).Contents (Elt F)),
    StableHlo.reshape main_v2 main_v3 rfl shapeCasts_S1x1600000_S1600000,
    StableHlo.nullary main_c (constantI S_ 32 0#32),
    StableHlo.unary main_c main_v4 (broadcastInDim S1600000 ![] bcast_S_S1600000 : (⟨S_, .i32⟩ : BufTy).Contents (Elt F) → (⟨S1600000, .i32⟩ : BufTy).Contents (Elt F)),
    StableHlo.binary main_v1 main_v4 main_v5 (cmpi .slt : (⟨S1600000, .i32⟩ : BufTy).Contents (Elt F) → (⟨S1600000, .i32⟩ : BufTy).Contents (Elt F) → (⟨S1600000, .i1⟩ : BufTy).Contents (Elt F)),
    StableHlo.nullary main_c_0 (constantI S_ 32 100000#32),
    StableHlo.unary main_c_0 main_v6 (broadcastInDim S1600000 ![] bcast_S_S1600000 : (⟨S_, .i32⟩ : BufTy).Contents (Elt F) → (⟨S1600000, .i32⟩ : BufTy).Contents (Elt F)),
    StableHlo.binary main_v1 main_v6 main_v7 (addi : (⟨S1600000, .i32⟩ : BufTy).Contents (Elt F) → (⟨S1600000, .i32⟩ : BufTy).Contents (Elt F) → (⟨S1600000, .i32⟩ : BufTy).Contents (Elt F)),
    StableHlo.ternary main_v5 main_v7 main_v1 main_v8 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v8 main_v9 (broadcastInDim S1600000x1 ![0] bcast_S1600000_S1600000x1_0 : (⟨S1600000, .i32⟩ : BufTy).Contents (Elt F) → (⟨S1600000x1, .i32⟩ : BufTy).Contents (Elt F)),
    StableHlo.binary main_arg0 main_v9 main_v10 ((fun x i => Host.gather gather_S100000x64_S1600000x1_S1600000x64_1_0_n_n_0_1_164 x i) : (⟨S100000x64, .f32⟩ : BufTy).Contents (Elt F) → (⟨S1600000x1, .i32⟩ : BufTy).Contents (Elt F) → (⟨S1600000x64, .f32⟩ : BufTy).Contents (Elt F)),
    StableHlo.nullary main_cst (constant S_ .f32 0x00000000#32),
    StableHlo.unary main_cst main_v11 (broadcastInDim S100000x64 ![] bcast_S_S100000x64 : (⟨S_, .f32⟩ : BufTy).Contents (Elt F) → (⟨S100000x64, .f32⟩ : BufTy).Contents (Elt F)),
    StableHlo.unary main_v3 main_v12 (broadcastInDim S1600000x1 ![0] bcast_S1600000_S1600000x1_0 : (⟨S1600000, .i32⟩ : BufTy).Contents (Elt F) → (⟨S1600000x1, .i32⟩ : BufTy).Contents (Elt F)),
    StableHlo.ternary main_v11 main_v12 main_v10 main_v13 ((fun x i u => Host.scatterAdd scatter_S100000x64_S1600000x1_S1600000x64_1_0_0_1 x i u) : (⟨S100000x64, .f32⟩ : BufTy).Contents (Elt F) → (⟨S1600000x1, .i32⟩ : BufTy).Contents (Elt F) → (⟨S1600000x64, .f32⟩ : BufTy).Contents (Elt F) → (⟨S100000x64, .f32⟩ : BufTy).Contents (Elt F)),
    StableHlo.binary main_v13 main_arg3 main_v14 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    StableHlo.binary main_arg0 main_arg2 main_v15 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    StableHlo.binary main_v14 main_v15 main_v16 (addf : (⟨S100000x64, .f32⟩ : BufTy).Contents (Elt F) → (⟨S100000x64, .f32⟩ : BufTy).Contents (Elt F) → (⟨S100000x64, .f32⟩ : BufTy).Contents (Elt F)),
    StableHlo.unary main_arg4 main_v17 (broadcastInDim S1x64 ![1] bcast_S64_S1x64_1 : (⟨S64, .f32⟩ : BufTy).Contents (Elt F) → (⟨S1x64, .f32⟩ : BufTy).Contents (Elt F)),
    StableHlo.unary main_v17 main_v18 (broadcastInDim S100000x64 ![0, 1] bcast_S1x64_S100000x64_0_1 : (⟨S1x64, .f32⟩ : BufTy).Contents (Elt F) → (⟨S100000x64, .f32⟩ : BufTy).Contents (Elt F)),
    StableHlo.binary main_v16 main_v18 main_v19 (addf : (⟨S100000x64, .f32⟩ : BufTy).Contents (Elt F) → (⟨S100000x64, .f32⟩ : BufTy).Contents (Elt F) → (⟨S100000x64, .f32⟩ : BufTy).Contents (Elt F)),
    StableHlo.nullary main_cst_1 (constant S_ .f32 0x00000000#32),
    StableHlo.binary main_v19 main_cst_1 main_v20 ((fun x v => Host.reduceAdd x v reducesTo_S100000x64_S64_d0 h_S_) : (⟨S100000x64, .f32⟩ : BufTy).Contents (Elt F) → (⟨S_, .f32⟩ : BufTy).Contents (Elt F) → (⟨S64, .f32⟩ : BufTy).Contents (Elt F)),
    StableHlo.nullary main_cst_2 (constant S_ .f32 0x47C35000#32),
    StableHlo.unary main_cst_2 main_v21 (broadcastInDim S64 ![] bcast_S_S64 : (⟨S_, .f32⟩ : BufTy).Contents (Elt F) → (⟨S64, .f32⟩ : BufTy).Contents (Elt F)),
    StableHlo.binary main_v20 main_v21 main_v22 (Host.divf : (⟨S64, .f32⟩ : BufTy).Contents (Elt F) → (⟨S64, .f32⟩ : BufTy).Contents (Elt F) → (⟨S64, .f32⟩ : BufTy).Contents (Elt F)),
    StableHlo.nullary main_c_3 (constantI S_ 32 0#32),
    StableHlo.TRef.nullary main_call0.cst (constant S_ .f32 0x00000000#32),
    StableHlo.TRef.binary (.of main_v19) main_call0.cst main_call0.v0 (fun x v => Host.reduceAdd x v reducesTo_S100000x64_S64_d0 h_S_),
    StableHlo.TRef.unary main_call0.v0 main_call0.v1 (broadcastInDim S1x64 ![1] bcast_S64_S1x64_1),
    StableHlo.TRef.nullary main_call0.cst_0 (constant S_ .f32 0x47C35000#32),
    StableHlo.TRef.unary main_call0.cst_0 main_call0.v2 (broadcastInDim S1x64 ![] bcast_S_S1x64),
    StableHlo.TRef.binary main_call0.v1 main_call0.v2 main_call0.v3 Host.divf,
    StableHlo.TRef.unary main_call0.v3 main_call0.v4 (broadcastInDim S100000x64 ![0, 1] bcast_S1x64_S100000x64_0_1),
    StableHlo.TRef.binary (.of main_v19) main_call0.v4 main_call0.v5 subf,
    StableHlo.TRef.binary main_call0.v5 main_call0.v5 main_call0.v6 mulf,
    StableHlo.TRef.unary (.of main_c_3) main_call0.v7 (sitofp .f32),
    StableHlo.TRef.nullary main_call0.cst_1 (constant S_ .f32 0x47C35000#32),
    StableHlo.TRef.binary main_call0.cst_1 main_call0.v7 main_call0.v8 subf,
    StableHlo.TRef.nullary main_call0.cst_2 (constant S_ .f32 0x00000000#32),
    StableHlo.TRef.binary main_call0.v6 main_call0.cst_2 main_call0.v9 (fun x v => Host.reduceAdd x v reducesTo_S100000x64_S64_d0 h_S_),
    StableHlo.TRef.unary main_call0.v8 main_call0.v10 (broadcastInDim S64 ![] bcast_S_S64),
    StableHlo.TRef.binary main_call0.v9 main_call0.v10 main_call0.v11 Host.divf,
    StableHlo.TRef.nullary main_call0.cst_3 (constant S_ .f32 0x00000000#32),
    StableHlo.TRef.binary main_call0.v8 main_call0.cst_3 main_call0.v12 (cmpf .ogt),
    StableHlo.TRef.nullary main_call0.cst_4 (constant S_ .f32 0x7FC00000#32),
    StableHlo.TRef.unary main_call0.cst_4 main_call0.call0.v0 id,
    StableHlo.TRef.unary main_call0.call0.v0 main_call0.call0.v1 (broadcastInDim S64 ![] bcast_S_S64),
    StableHlo.TRef.ternary main_call0.v12 main_call0.v11 main_call0.call0.v1 main_call0.call0.v2 (fun p a b => select (broadcastInDim S64 ![] bcast_S_S64 p) a b),
    StableHlo.unary main_v22 main_v24 (broadcastInDim S1x64 ![1] bcast_S64_S1x64_1 : (⟨S64, .f32⟩ : BufTy).Contents (Elt F) → (⟨S1x64, .f32⟩ : BufTy).Contents (Elt F)),
    StableHlo.unary main_v24 main_v25 (broadcastInDim S100000x64 ![0, 1] bcast_S1x64_S100000x64_0_1 : (⟨S1x64, .f32⟩ : BufTy).Contents (Elt F) → (⟨S100000x64, .f32⟩ : BufTy).Contents (Elt F)),
    StableHlo.binary main_v19 main_v25 main_v26 (subf : (⟨S100000x64, .f32⟩ : BufTy).Contents (Elt F) → (⟨S100000x64, .f32⟩ : BufTy).Contents (Elt F) → (⟨S100000x64, .f32⟩ : BufTy).Contents (Elt F)),
    StableHlo.nullary main_cst_4 (constant S_ .f32 0x3727C5AC#32),
    StableHlo.unary main_cst_4 main_v27 (broadcastInDim S64 ![] bcast_S_S64 : (⟨S_, .f32⟩ : BufTy).Contents (Elt F) → (⟨S64, .f32⟩ : BufTy).Contents (Elt F)),
    StableHlo.binary main_v23 main_v27 main_v28 (addf : (⟨S64, .f32⟩ : BufTy).Contents (Elt F) → (⟨S64, .f32⟩ : BufTy).Contents (Elt F) → (⟨S64, .f32⟩ : BufTy).Contents (Elt F)),
    StableHlo.unary main_v28 main_v29 (Host.rsqrt : (⟨S64, .f32⟩ : BufTy).Contents (Elt F) → (⟨S64, .f32⟩ : BufTy).Contents (Elt F)),
    StableHlo.unary main_v29 main_v30 (broadcastInDim S1x64 ![1] bcast_S64_S1x64_1 : (⟨S64, .f32⟩ : BufTy).Contents (Elt F) → (⟨S1x64, .f32⟩ : BufTy).Contents (Elt F)),
    StableHlo.unary main_v30 main_v31 (broadcastInDim S100000x64 ![0, 1] bcast_S1x64_S100000x64_0_1 : (⟨S1x64, .f32⟩ : BufTy).Contents (Elt F) → (⟨S100000x64, .f32⟩ : BufTy).Contents (Elt F)),
    StableHlo.binary main_v26 main_v31 main_v32 (mulf : (⟨S100000x64, .f32⟩ : BufTy).Contents (Elt F) → (⟨S100000x64, .f32⟩ : BufTy).Contents (Elt F) → (⟨S100000x64, .f32⟩ : BufTy).Contents (Elt F)),
    StableHlo.unary main_arg5 main_v33 (broadcastInDim S1x64 ![1] bcast_S64_S1x64_1 : (⟨S64, .f32⟩ : BufTy).Contents (Elt F) → (⟨S1x64, .f32⟩ : BufTy).Contents (Elt F)),
    StableHlo.unary main_v33 main_v34 (broadcastInDim S100000x64 ![0, 1] bcast_S1x64_S100000x64_0_1 : (⟨S1x64, .f32⟩ : BufTy).Contents (Elt F) → (⟨S100000x64, .f32⟩ : BufTy).Contents (Elt F)),
    StableHlo.binary main_v32 main_v34 main_v35 (mulf : (⟨S100000x64, .f32⟩ : BufTy).Contents (Elt F) → (⟨S100000x64, .f32⟩ : BufTy).Contents (Elt F) → (⟨S100000x64, .f32⟩ : BufTy).Contents (Elt F)),
    StableHlo.unary main_arg6 main_v36 (broadcastInDim S1x64 ![1] bcast_S64_S1x64_1 : (⟨S64, .f32⟩ : BufTy).Contents (Elt F) → (⟨S1x64, .f32⟩ : BufTy).Contents (Elt F)),
    StableHlo.unary main_v36 main_v37 (broadcastInDim S100000x64 ![0, 1] bcast_S1x64_S100000x64_0_1 : (⟨S1x64, .f32⟩ : BufTy).Contents (Elt F) → (⟨S100000x64, .f32⟩ : BufTy).Contents (Elt F)),
    StableHlo.binary main_v35 main_v37 main_v38 (addf : (⟨S100000x64, .f32⟩ : BufTy).Contents (Elt F) → (⟨S100000x64, .f32⟩ : BufTy).Contents (Elt F) → (⟨S100000x64, .f32⟩ : BufTy).Contents (Elt F)),
    StableHlo.TRef.nullary main_call1.cst (constant S_ .f32 0x00000000#32),
    StableHlo.TRef.unary main_call1.cst main_call1.v0 (broadcastInDim S100000x64 ![] bcast_S_S100000x64),
    StableHlo.TRef.binary (.of main_v38) main_call1.v0 main_call1.v1 maximumf,
    StableHlo.binary main_v39 main_arg0 main_v40 (addf : (⟨S100000x64, .f32⟩ : BufTy).Contents (Elt F) → (⟨S100000x64, .f32⟩ : BufTy).Contents (Elt F) → (⟨S100000x64, .f32⟩ : BufTy).Contents (Elt F)),
    StableHlo.binary main_v40 main_arg7 main_v41 ((fun l r => Host.dotGeneral dot_S100000x64_S64x128_S100000x128_1_0_0_1_n_n none l r) : (⟨S100000x64, .f32⟩ : BufTy).Contents (Elt F) → (⟨S64x128, .f32⟩ : BufTy).Contents (Elt F) → (⟨S100000x128, .f32⟩ : BufTy).Contents (Elt F)),
    StableHlo.unary main_arg8 main_v42 (broadcastInDim S1x128 ![1] bcast_S128_S1x128_1 : (⟨S128, .f32⟩ : BufTy).Contents (Elt F) → (⟨S1x128, .f32⟩ : BufTy).Contents (Elt F)),
    StableHlo.unary main_v42 main_v43 (broadcastInDim S100000x128 ![0, 1] bcast_S1x128_S100000x128_0_1 : (⟨S1x128, .f32⟩ : BufTy).Contents (Elt F) → (⟨S100000x128, .f32⟩ : BufTy).Contents (Elt F)),
    StableHlo.binary main_v41 main_v43 main_v44 (addf : (⟨S100000x128, .f32⟩ : BufTy).Contents (Elt F) → (⟨S100000x128, .f32⟩ : BufTy).Contents (Elt F) → (⟨S100000x128, .f32⟩ : BufTy).Contents (Elt F)),
    StableHlo.TRef.nullary main_call2.cst (constant S_ .f32 0x00000000#32),
    StableHlo.TRef.unary main_call2.cst main_call2.v0 (broadcastInDim S100000x128 ![] bcast_S_S100000x128),
    StableHlo.TRef.binary (.of main_v44) main_call2.v0 main_call2.v1 maximumf,
    StableHlo.binary main_v45 main_arg9 main_v46 ((fun l r => Host.dotGeneral dot_S100000x128_S128x64_S100000x64_1_0_0_1_n_n none l r) : (⟨S100000x128, .f32⟩ : BufTy).Contents (Elt F) → (⟨S128x64, .f32⟩ : BufTy).Contents (Elt F) → (⟨S100000x64, .f32⟩ : BufTy).Contents (Elt F)),
    StableHlo.unary main_arg10 main_v47 (broadcastInDim S1x64 ![1] bcast_S64_S1x64_1 : (⟨S64, .f32⟩ : BufTy).Contents (Elt F) → (⟨S1x64, .f32⟩ : BufTy).Contents (Elt F)),
    StableHlo.unary main_v47 main_v48 (broadcastInDim S100000x64 ![0, 1] bcast_S1x64_S100000x64_0_1 : (⟨S1x64, .f32⟩ : BufTy).Contents (Elt F) → (⟨S100000x64, .f32⟩ : BufTy).Contents (Elt F)),
    StableHlo.binary main_v46 main_v48 main_v49 (addf : (⟨S100000x64, .f32⟩ : BufTy).Contents (Elt F) → (⟨S100000x64, .f32⟩ : BufTy).Contents (Elt F) → (⟨S100000x64, .f32⟩ : BufTy).Contents (Elt F)),
    StableHlo.binary main_v49 main_v40 main_v50 (addf : (⟨S100000x64, .f32⟩ : BufTy).Contents (Elt F) → (⟨S100000x64, .f32⟩ : BufTy).Contents (Elt F) → (⟨S100000x64, .f32⟩ : BufTy).Contents (Elt F)),
    StableHlo.nullary main_cst_5 (constant S_ .f32 0x00000000#32),
    StableHlo.binary main_v50 main_cst_5 main_v51 ((fun x v => Host.reduceAdd x v reducesTo_S100000x64_S64_d0 h_S_) : (⟨S100000x64, .f32⟩ : BufTy).Contents (Elt F) → (⟨S_, .f32⟩ : BufTy).Contents (Elt F) → (⟨S64, .f32⟩ : BufTy).Contents (Elt F)) ]

/-- The second window's. -/
abbrev ops1 : List (HloOp τ sig (Elt F)) :=
  [ StableHlo.nullary main_cst_6 (constant S_ .f32 0x47C35000#32),
    StableHlo.unary main_cst_6 main_v52 (broadcastInDim S64 ![] bcast_S_S64 : (⟨S_, .f32⟩ : BufTy).Contents (Elt F) → (⟨S64, .f32⟩ : BufTy).Contents (Elt F)),
    StableHlo.binary main_v51 main_v52 main_v53 (Host.divf : (⟨S64, .f32⟩ : BufTy).Contents (Elt F) → (⟨S64, .f32⟩ : BufTy).Contents (Elt F) → (⟨S64, .f32⟩ : BufTy).Contents (Elt F)),
    StableHlo.nullary main_c_7 (constantI S_ 32 0#32),
    StableHlo.TRef.nullary main_call3.cst (constant S_ .f32 0x00000000#32),
    StableHlo.TRef.binary (.of main_v50) main_call3.cst main_call3.v0 (fun x v => Host.reduceAdd x v reducesTo_S100000x64_S64_d0 h_S_),
    StableHlo.TRef.unary main_call3.v0 main_call3.v1 (broadcastInDim S1x64 ![1] bcast_S64_S1x64_1),
    StableHlo.TRef.nullary main_call3.cst_0 (constant S_ .f32 0x47C35000#32),
    StableHlo.TRef.unary main_call3.cst_0 main_call3.v2 (broadcastInDim S1x64 ![] bcast_S_S1x64),
    StableHlo.TRef.binary main_call3.v1 main_call3.v2 main_call3.v3 Host.divf,
    StableHlo.TRef.unary main_call3.v3 main_call3.v4 (broadcastInDim S100000x64 ![0, 1] bcast_S1x64_S100000x64_0_1),
    StableHlo.TRef.binary (.of main_v50) main_call3.v4 main_call3.v5 subf,
    StableHlo.TRef.binary main_call3.v5 main_call3.v5 main_call3.v6 mulf,
    StableHlo.TRef.unary (.of main_c_7) main_call3.v7 (sitofp .f32),
    StableHlo.TRef.nullary main_call3.cst_1 (constant S_ .f32 0x47C35000#32),
    StableHlo.TRef.binary main_call3.cst_1 main_call3.v7 main_call3.v8 subf,
    StableHlo.TRef.nullary main_call3.cst_2 (constant S_ .f32 0x00000000#32),
    StableHlo.TRef.binary main_call3.v6 main_call3.cst_2 main_call3.v9 (fun x v => Host.reduceAdd x v reducesTo_S100000x64_S64_d0 h_S_),
    StableHlo.TRef.unary main_call3.v8 main_call3.v10 (broadcastInDim S64 ![] bcast_S_S64),
    StableHlo.TRef.binary main_call3.v9 main_call3.v10 main_call3.v11 Host.divf,
    StableHlo.TRef.nullary main_call3.cst_3 (constant S_ .f32 0x00000000#32),
    StableHlo.TRef.binary main_call3.v8 main_call3.cst_3 main_call3.v12 (cmpf .ogt),
    StableHlo.TRef.nullary main_call3.cst_4 (constant S_ .f32 0x7FC00000#32),
    StableHlo.TRef.unary main_call3.cst_4 main_call3.call0.v0 id,
    StableHlo.TRef.unary main_call3.call0.v0 main_call3.call0.v1 (broadcastInDim S64 ![] bcast_S_S64),
    StableHlo.TRef.ternary main_call3.v12 main_call3.v11 main_call3.call0.v1 main_call3.call0.v2 (fun p a b => select (broadcastInDim S64 ![] bcast_S_S64 p) a b),
    StableHlo.unary main_v53 main_v55 (broadcastInDim S1x64 ![1] bcast_S64_S1x64_1 : (⟨S64, .f32⟩ : BufTy).Contents (Elt F) → (⟨S1x64, .f32⟩ : BufTy).Contents (Elt F)),
    StableHlo.unary main_v55 main_v56 (broadcastInDim S100000x64 ![0, 1] bcast_S1x64_S100000x64_0_1 : (⟨S1x64, .f32⟩ : BufTy).Contents (Elt F) → (⟨S100000x64, .f32⟩ : BufTy).Contents (Elt F)),
    StableHlo.binary main_v50 main_v56 main_v57 (subf : (⟨S100000x64, .f32⟩ : BufTy).Contents (Elt F) → (⟨S100000x64, .f32⟩ : BufTy).Contents (Elt F) → (⟨S100000x64, .f32⟩ : BufTy).Contents (Elt F)),
    StableHlo.nullary main_cst_8 (constant S_ .f32 0x3727C5AC#32),
    StableHlo.unary main_cst_8 main_v58 (broadcastInDim S64 ![] bcast_S_S64 : (⟨S_, .f32⟩ : BufTy).Contents (Elt F) → (⟨S64, .f32⟩ : BufTy).Contents (Elt F)),
    StableHlo.binary main_v54 main_v58 main_v59 (addf : (⟨S64, .f32⟩ : BufTy).Contents (Elt F) → (⟨S64, .f32⟩ : BufTy).Contents (Elt F) → (⟨S64, .f32⟩ : BufTy).Contents (Elt F)),
    StableHlo.unary main_v59 main_v60 (Host.rsqrt : (⟨S64, .f32⟩ : BufTy).Contents (Elt F) → (⟨S64, .f32⟩ : BufTy).Contents (Elt F)),
    StableHlo.unary main_v60 main_v61 (broadcastInDim S1x64 ![1] bcast_S64_S1x64_1 : (⟨S64, .f32⟩ : BufTy).Contents (Elt F) → (⟨S1x64, .f32⟩ : BufTy).Contents (Elt F)),
    StableHlo.unary main_v61 main_v62 (broadcastInDim S100000x64 ![0, 1] bcast_S1x64_S100000x64_0_1 : (⟨S1x64, .f32⟩ : BufTy).Contents (Elt F) → (⟨S100000x64, .f32⟩ : BufTy).Contents (Elt F)),
    StableHlo.binary main_v57 main_v62 main_v63 (mulf : (⟨S100000x64, .f32⟩ : BufTy).Contents (Elt F) → (⟨S100000x64, .f32⟩ : BufTy).Contents (Elt F) → (⟨S100000x64, .f32⟩ : BufTy).Contents (Elt F)),
    StableHlo.unary main_arg11 main_v64 (broadcastInDim S1x64 ![1] bcast_S64_S1x64_1 : (⟨S64, .f32⟩ : BufTy).Contents (Elt F) → (⟨S1x64, .f32⟩ : BufTy).Contents (Elt F)),
    StableHlo.unary main_v64 main_v65 (broadcastInDim S100000x64 ![0, 1] bcast_S1x64_S100000x64_0_1 : (⟨S1x64, .f32⟩ : BufTy).Contents (Elt F) → (⟨S100000x64, .f32⟩ : BufTy).Contents (Elt F)),
    StableHlo.binary main_v63 main_v65 main_v66 (mulf : (⟨S100000x64, .f32⟩ : BufTy).Contents (Elt F) → (⟨S100000x64, .f32⟩ : BufTy).Contents (Elt F) → (⟨S100000x64, .f32⟩ : BufTy).Contents (Elt F)),
    StableHlo.unary main_arg12 main_v67 (broadcastInDim S1x64 ![1] bcast_S64_S1x64_1 : (⟨S64, .f32⟩ : BufTy).Contents (Elt F) → (⟨S1x64, .f32⟩ : BufTy).Contents (Elt F)),
    StableHlo.unary main_v67 main_v68 (broadcastInDim S100000x64 ![0, 1] bcast_S1x64_S100000x64_0_1 : (⟨S1x64, .f32⟩ : BufTy).Contents (Elt F) → (⟨S100000x64, .f32⟩ : BufTy).Contents (Elt F)),
    StableHlo.binary main_v66 main_v68 main_v69 (addf : (⟨S100000x64, .f32⟩ : BufTy).Contents (Elt F) → (⟨S100000x64, .f32⟩ : BufTy).Contents (Elt F) → (⟨S100000x64, .f32⟩ : BufTy).Contents (Elt F)) ]

set_option maxRecDepth 8192 in
set_option maxHeartbeats 4000000 in
theorem part0_eq (c : Dev nD) : main_part0 (F := F) c = seq ops0 := by
  simp only [main_part0, fn_var.body, fn_where.body, fn_relu.body, fn_relu_0.body, seq, bind_assoc, pure_bind]
  all_goals rfl
set_option maxRecDepth 8192 in
set_option maxHeartbeats 4000000 in
theorem part1_eq (c : Dev nD) : main_part1 (F := F) c = seq ops1 := by
  simp only [main_part1, fn_var.body, fn_where.body, fn_relu.body, fn_relu_0.body, seq, bind_assoc, pure_bind]
  all_goals rfl

theorem main_eq (c : Dev nD) : main (F := F) c = seq (ops0 ++ ops1) := by
  rw [seq_append]
  show (main_part0 (F := F) c >>= fun _ => main_part1 (F := F) c) = _
  rw [part0_eq, part1_eq]

theorem scopedRefs_eq : (Finset.univ.filter fun b : Ref sig .tc => b.isScoped) = ∅ := by decide
theorem scopedSems_eq : (Finset.univ.filter fun sm : SemLoc sig => sm.isScoped .tc) = ∅ := by decide

theorem ops0_sub : (ops0 : List (HloOp τ sig (Elt F))).Forall fun op => op.bufs ⊆ tcRefs τ sig :=
  ⟨unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., binary_bufs_sub .., binary_bufs_sub .., binary_bufs_sub .., unary_bufs_sub .., unary_bufs_sub .., binary_bufs_sub .., nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub .., binary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub .., binary_bufs_sub .., nullary_bufs_sub .., binary_bufs_sub ..⟩
theorem ops1_sub : (ops1 : List (HloOp τ sig (Elt F))).Forall fun op => op.bufs ⊆ tcRefs τ sig :=
  ⟨nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub ..⟩
theorem ops_sub : (ops0 ++ ops1 : List (HloOp τ sig (Elt F))).Forall fun op => op.bufs ⊆ tcRefs τ sig :=
  List.forall_iff_forall_mem.mpr fun op h => (List.mem_append.mp h).elim
    (List.forall_iff_forall_mem.mp ops0_sub op) (List.forall_iff_forall_mem.mp ops1_sub op)

theorem ops_fresh : ∀ op ∈ (ops0 ++ ops1 : List (HloOp τ sig (Elt F))), op.fresh = ∅ := by
  intro op h
  rcases List.mem_append.mp h with h | h
  · (repeat (cases h with | head => rfl | tail _ h => ?_)); exact nomatch h
  · (repeat (cases h with | head => rfl | tail _ h => ?_)); exact nomatch h

/-- THE REFERENCE'S RUN: every buffer ends at the fold of the operations over the launch contents. -/
theorem run (m : (ℓ : Loc nD τ sig) → Buf (Elt F) ℓ) (ρ : Dev nD → PrngReg) :
    θ_run defs (onTc (τ := τ) (main (F := F))) ⟨m, fun _ => 0, ρ⟩ fun r =>
      ∀ (d : Dev nD) (b : Ref sig .tc), r.2.mem ((d.tc : Thread nD τ).loc b) = after (ops0 ++ ops1) (launchContents m d) (Proc.devRef .tc b) :=
  run_seq scopedRefs_eq scopedSems_eq defs main (fun _ => ops0 ++ ops1) main_eq (fun _ => ops_sub) m ρ (fun _ => ops_fresh)

end Cert.ReferenceIdeal.RefRun

end
-- ==== Proof.RefRead.lean ====
/- The reference's line read one operation at a time: after the whole line, each operation's result buffer holds the operation's
   function of what its operand buffers hold after the whole line (every buffer is written once, operands earlier). -/
import proofs.«149204_j28372553957731_2_alg».proof.Proof.RefRun
import proofs.«149204_j28372553957731_2_alg».proof.Proof.LibLineOfOps

set_option maxRecDepth 8192

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The whole line. -/
abbrev ops : List (HloOp τ sig (Elt F)) :=
  [ StableHlo.unary main_arg1 main_v0 ((extractStridedSlice S1x1600000 ![0, 0] · slices_S2x1600000_S1x1600000_0_0) : (⟨S2x1600000, .i32⟩ : BufTy).Contents (Elt F) → (⟨S1x1600000, .i32⟩ : BufTy).Contents (Elt F)),
    StableHlo.reshape main_v0 main_v1 rfl shapeCasts_S1x1600000_S1600000,
    StableHlo.unary main_arg1 main_v2 ((extractStridedSlice S1x1600000 ![1, 0] · slices_S2x1600000_S1x1600000_1_0) : (⟨S2x1600000, .i32⟩ : BufTy).Contents (Elt F) → (⟨S1x1600000, .i32⟩ : BufTy).Contents (Elt F)),
    StableHlo.reshape main_v2 main_v3 rfl shapeCasts_S1x1600000_S1600000,
    StableHlo.nullary main_c (constantI S_ 32 0#32),
    StableHlo.unary main_c main_v4 (broadcastInDim S1600000 ![] bcast_S_S1600000 : (⟨S_, .i32⟩ : BufTy).Contents (Elt F) → (⟨S1600000, .i32⟩ : BufTy).Contents (Elt F)),
    StableHlo.binary main_v1 main_v4 main_v5 (cmpi .slt : (⟨S1600000, .i32⟩ : BufTy).Contents (Elt F) → (⟨S1600000, .i32⟩ : BufTy).Contents (Elt F) → (⟨S1600000, .i1⟩ : BufTy).Contents (Elt F)),
    StableHlo.nullary main_c_0 (constantI S_ 32 100000#32),
    StableHlo.unary main_c_0 main_v6 (broadcastInDim S1600000 ![] bcast_S_S1600000 : (⟨S_, .i32⟩ : BufTy).Contents (Elt F) → (⟨S1600000, .i32⟩ : BufTy).Contents (Elt F)),
    StableHlo.binary main_v1 main_v6 main_v7 (addi : (⟨S1600000, .i32⟩ : BufTy).Contents (Elt F) → (⟨S1600000, .i32⟩ : BufTy).Contents (Elt F) → (⟨S1600000, .i32⟩ : BufTy).Contents (Elt F)),
    StableHlo.ternary main_v5 main_v7 main_v1 main_v8 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v8 main_v9 (broadcastInDim S1600000x1 ![0] bcast_S1600000_S1600000x1_0 : (⟨S1600000, .i32⟩ : BufTy).Contents (Elt F) → (⟨S1600000x1, .i32⟩ : BufTy).Contents (Elt F)),
    StableHlo.binary main_arg0 main_v9 main_v10 ((fun x i => Host.gather gather_S100000x64_S1600000x1_S1600000x64_1_0_n_n_0_1_164 x i) : (⟨S100000x64, .f32⟩ : BufTy).Contents (Elt F) → (⟨S1600000x1, .i32⟩ : BufTy).Contents (Elt F) → (⟨S1600000x64, .f32⟩ : BufTy).Contents (Elt F)),
    StableHlo.nullary main_cst (constant S_ .f32 0x00000000#32),
    StableHlo.unary main_cst main_v11 (broadcastInDim S100000x64 ![] bcast_S_S100000x64 : (⟨S_, .f32⟩ : BufTy).Contents (Elt F) → (⟨S100000x64, .f32⟩ : BufTy).Contents (Elt F)),
    StableHlo.unary main_v3 main_v12 (broadcastInDim S1600000x1 ![0] bcast_S1600000_S1600000x1_0 : (⟨S1600000, .i32⟩ : BufTy).Contents (Elt F) → (⟨S1600000x1, .i32⟩ : BufTy).Contents (Elt F)),
    StableHlo.ternary main_v11 main_v12 main_v10 main_v13 ((fun x i u => Host.scatterAdd scatter_S100000x64_S1600000x1_S1600000x64_1_0_0_1 x i u) : (⟨S100000x64, .f32⟩ : BufTy).Contents (Elt F) → (⟨S1600000x1, .i32⟩ : BufTy).Contents (Elt F) → (⟨S1600000x64, .f32⟩ : BufTy).Contents (Elt F) → (⟨S100000x64, .f32⟩ : BufTy).Contents (Elt F)),
    StableHlo.binary main_v13 main_arg3 main_v14 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    StableHlo.binary main_arg0 main_arg2 main_v15 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    StableHlo.binary main_v14 main_v15 main_v16 (addf : (⟨S100000x64, .f32⟩ : BufTy).Contents (Elt F) → (⟨S100000x64, .f32⟩ : BufTy).Contents (Elt F) → (⟨S100000x64, .f32⟩ : BufTy).Contents (Elt F)),
    StableHlo.unary main_arg4 main_v17 (broadcastInDim S1x64 ![1] bcast_S64_S1x64_1 : (⟨S64, .f32⟩ : BufTy).Contents (Elt F) → (⟨S1x64, .f32⟩ : BufTy).Contents (Elt F)),
    StableHlo.unary main_v17 main_v18 (broadcastInDim S100000x64 ![0, 1] bcast_S1x64_S100000x64_0_1 : (⟨S1x64, .f32⟩ : BufTy).Contents (Elt F) → (⟨S100000x64, .f32⟩ : BufTy).Contents (Elt F)),
    StableHlo.binary main_v16 main_v18 main_v19 (addf : (⟨S100000x64, .f32⟩ : BufTy).Contents (Elt F) → (⟨S100000x64, .f32⟩ : BufTy).Contents (Elt F) → (⟨S100000x64, .f32⟩ : BufTy).Contents (Elt F)),
    StableHlo.nullary main_cst_1 (constant S_ .f32 0x00000000#32),
    StableHlo.binary main_v19 main_cst_1 main_v20 ((fun x v => Host.reduceAdd x v reducesTo_S100000x64_S64_d0 h_S_) : (⟨S100000x64, .f32⟩ : BufTy).Contents (Elt F) → (⟨S_, .f32⟩ : BufTy).Contents (Elt F) → (⟨S64, .f32⟩ : BufTy).Contents (Elt F)),
    StableHlo.nullary main_cst_2 (constant S_ .f32 0x47C35000#32),
    StableHlo.unary main_cst_2 main_v21 (broadcastInDim S64 ![] bcast_S_S64 : (⟨S_, .f32⟩ : BufTy).Contents (Elt F) → (⟨S64, .f32⟩ : BufTy).Contents (Elt F)),
    StableHlo.binary main_v20 main_v21 main_v22 (Host.divf : (⟨S64, .f32⟩ : BufTy).Contents (Elt F) → (⟨S64, .f32⟩ : BufTy).Contents (Elt F) → (⟨S64, .f32⟩ : BufTy).Contents (Elt F)),
    StableHlo.nullary main_c_3 (constantI S_ 32 0#32),
    StableHlo.TRef.nullary main_call0.cst (constant S_ .f32 0x00000000#32),
    StableHlo.TRef.binary (.of main_v19) main_call0.cst main_call0.v0 (fun x v => Host.reduceAdd x v reducesTo_S100000x64_S64_d0 h_S_),
    StableHlo.TRef.unary main_call0.v0 main_call0.v1 (broadcastInDim S1x64 ![1] bcast_S64_S1x64_1),
    StableHlo.TRef.nullary main_call0.cst_0 (constant S_ .f32 0x47C35000#32),
    StableHlo.TRef.unary main_call0.cst_0 main_call0.v2 (broadcastInDim S1x64 ![] bcast_S_S1x64),
    StableHlo.TRef.binary main_call0.v1 main_call0.v2 main_call0.v3 Host.divf,
    StableHlo.TRef.unary main_call0.v3 main_call0.v4 (broadcastInDim S100000x64 ![0, 1] bcast_S1x64_S100000x64_0_1),
    StableHlo.TRef.binary (.of main_v19) main_call0.v4 main_call0.v5 subf,
    StableHlo.TRef.binary main_call0.v5 main_call0.v5 main_call0.v6 mulf,
    StableHlo.TRef.unary (.of main_c_3) main_call0.v7 (sitofp .f32),
    StableHlo.TRef.nullary main_call0.cst_1 (constant S_ .f32 0x47C35000#32),
    StableHlo.TRef.binary main_call0.cst_1 main_call0.v7 main_call0.v8 subf,
    StableHlo.TRef.nullary main_call0.cst_2 (constant S_ .f32 0x00000000#32),
    StableHlo.TRef.binary main_call0.v6 main_call0.cst_2 main_call0.v9 (fun x v => Host.reduceAdd x v reducesTo_S100000x64_S64_d0 h_S_),
    StableHlo.TRef.unary main_call0.v8 main_call0.v10 (broadcastInDim S64 ![] bcast_S_S64),
    StableHlo.TRef.binary main_call0.v9 main_call0.v10 main_call0.v11 Host.divf,
    StableHlo.TRef.nullary main_call0.cst_3 (constant S_ .f32 0x00000000#32),
    StableHlo.TRef.binary main_call0.v8 main_call0.cst_3 main_call0.v12 (cmpf .ogt),
    StableHlo.TRef.nullary main_call0.cst_4 (constant S_ .f32 0x7FC00000#32),
    StableHlo.TRef.unary main_call0.cst_4 main_call0.call0.v0 id,
    StableHlo.TRef.unary main_call0.call0.v0 main_call0.call0.v1 (broadcastInDim S64 ![] bcast_S_S64),
    StableHlo.TRef.ternary main_call0.v12 main_call0.v11 main_call0.call0.v1 main_call0.call0.v2 (fun p a b => select (broadcastInDim S64 ![] bcast_S_S64 p) a b),
    StableHlo.unary main_v22 main_v24 (broadcastInDim S1x64 ![1] bcast_S64_S1x64_1 : (⟨S64, .f32⟩ : BufTy).Contents (Elt F) → (⟨S1x64, .f32⟩ : BufTy).Contents (Elt F)),
    StableHlo.unary main_v24 main_v25 (broadcastInDim S100000x64 ![0, 1] bcast_S1x64_S100000x64_0_1 : (⟨S1x64, .f32⟩ : BufTy).Contents (Elt F) → (⟨S100000x64, .f32⟩ : BufTy).Contents (Elt F)),
    StableHlo.binary main_v19 main_v25 main_v26 (subf : (⟨S100000x64, .f32⟩ : BufTy).Contents (Elt F) → (⟨S100000x64, .f32⟩ : BufTy).Contents (Elt F) → (⟨S100000x64, .f32⟩ : BufTy).Contents (Elt F)),
    StableHlo.nullary main_cst_4 (constant S_ .f32 0x3727C5AC#32),
    StableHlo.unary main_cst_4 main_v27 (broadcastInDim S64 ![] bcast_S_S64 : (⟨S_, .f32⟩ : BufTy).Contents (Elt F) → (⟨S64, .f32⟩ : BufTy).Contents (Elt F)),
    StableHlo.binary main_v23 main_v27 main_v28 (addf : (⟨S64, .f32⟩ : BufTy).Contents (Elt F) → (⟨S64, .f32⟩ : BufTy).Contents (Elt F) → (⟨S64, .f32⟩ : BufTy).Contents (Elt F)),
    StableHlo.unary main_v28 main_v29 (Host.rsqrt : (⟨S64, .f32⟩ : BufTy).Contents (Elt F) → (⟨S64, .f32⟩ : BufTy).Contents (Elt F)),
    StableHlo.unary main_v29 main_v30 (broadcastInDim S1x64 ![1] bcast_S64_S1x64_1 : (⟨S64, .f32⟩ : BufTy).Contents (Elt F) → (⟨S1x64, .f32⟩ : BufTy).Contents (Elt F)),
    StableHlo.unary main_v30 main_v31 (broadcastInDim S100000x64 ![0, 1] bcast_S1x64_S100000x64_0_1 : (⟨S1x64, .f32⟩ : BufTy).Contents (Elt F) → (⟨S100000x64, .f32⟩ : BufTy).Contents (Elt F)),
    StableHlo.binary main_v26 main_v31 main_v32 (mulf : (⟨S100000x64, .f32⟩ : BufTy).Contents (Elt F) → (⟨S100000x64, .f32⟩ : BufTy).Contents (Elt F) → (⟨S100000x64, .f32⟩ : BufTy).Contents (Elt F)),
    StableHlo.unary main_arg5 main_v33 (broadcastInDim S1x64 ![1] bcast_S64_S1x64_1 : (⟨S64, .f32⟩ : BufTy).Contents (Elt F) → (⟨S1x64, .f32⟩ : BufTy).Contents (Elt F)),
    StableHlo.unary main_v33 main_v34 (broadcastInDim S100000x64 ![0, 1] bcast_S1x64_S100000x64_0_1 : (⟨S1x64, .f32⟩ : BufTy).Contents (Elt F) → (⟨S100000x64, .f32⟩ : BufTy).Contents (Elt F)),
    StableHlo.binary main_v32 main_v34 main_v35 (mulf : (⟨S100000x64, .f32⟩ : BufTy).Contents (Elt F) → (⟨S100000x64, .f32⟩ : BufTy).Contents (Elt F) → (⟨S100000x64, .f32⟩ : BufTy).Contents (Elt F)),
    StableHlo.unary main_arg6 main_v36 (broadcastInDim S1x64 ![1] bcast_S64_S1x64_1 : (⟨S64, .f32⟩ : BufTy).Contents (Elt F) → (⟨S1x64, .f32⟩ : BufTy).Contents (Elt F)),
    StableHlo.unary main_v36 main_v37 (broadcastInDim S100000x64 ![0, 1] bcast_S1x64_S100000x64_0_1 : (⟨S1x64, .f32⟩ : BufTy).Contents (Elt F) → (⟨S100000x64, .f32⟩ : BufTy).Contents (Elt F)),
    StableHlo.binary main_v35 main_v37 main_v38 (addf : (⟨S100000x64, .f32⟩ : BufTy).Contents (Elt F) → (⟨S100000x64, .f32⟩ : BufTy).Contents (Elt F) → (⟨S100000x64, .f32⟩ : BufTy).Contents (Elt F)),
    StableHlo.TRef.nullary main_call1.cst (constant S_ .f32 0x00000000#32),
    StableHlo.TRef.unary main_call1.cst main_call1.v0 (broadcastInDim S100000x64 ![] bcast_S_S100000x64),
    StableHlo.TRef.binary (.of main_v38) main_call1.v0 main_call1.v1 maximumf,
    StableHlo.binary main_v39 main_arg0 main_v40 (addf : (⟨S100000x64, .f32⟩ : BufTy).Contents (Elt F) → (⟨S100000x64, .f32⟩ : BufTy).Contents (Elt F) → (⟨S100000x64, .f32⟩ : BufTy).Contents (Elt F)),
    StableHlo.binary main_v40 main_arg7 main_v41 ((fun l r => Host.dotGeneral dot_S100000x64_S64x128_S100000x128_1_0_0_1_n_n none l r) : (⟨S100000x64, .f32⟩ : BufTy).Contents (Elt F) → (⟨S64x128, .f32⟩ : BufTy).Contents (Elt F) → (⟨S100000x128, .f32⟩ : BufTy).Contents (Elt F)),
    StableHlo.unary main_arg8 main_v42 (broadcastInDim S1x128 ![1] bcast_S128_S1x128_1 : (⟨S128, .f32⟩ : BufTy).Contents (Elt F) → (⟨S1x128, .f32⟩ : BufTy).Contents (Elt F)),
    StableHlo.unary main_v42 main_v43 (broadcastInDim S100000x128 ![0, 1] bcast_S1x128_S100000x128_0_1 : (⟨S1x128, .f32⟩ : BufTy).Contents (Elt F) → (⟨S100000x128, .f32⟩ : BufTy).Contents (Elt F)),
    StableHlo.binary main_v41 main_v43 main_v44 (addf : (⟨S100000x128, .f32⟩ : BufTy).Contents (Elt F) → (⟨S100000x128, .f32⟩ : BufTy).Contents (Elt F) → (⟨S100000x128, .f32⟩ : BufTy).Contents (Elt F)),
    StableHlo.TRef.nullary main_call2.cst (constant S_ .f32 0x00000000#32),
    StableHlo.TRef.unary main_call2.cst main_call2.v0 (broadcastInDim S100000x128 ![] bcast_S_S100000x128),
    StableHlo.TRef.binary (.of main_v44) main_call2.v0 main_call2.v1 maximumf,
    StableHlo.binary main_v45 main_arg9 main_v46 ((fun l r => Host.dotGeneral dot_S100000x128_S128x64_S100000x64_1_0_0_1_n_n none l r) : (⟨S100000x128, .f32⟩ : BufTy).Contents (Elt F) → (⟨S128x64, .f32⟩ : BufTy).Contents (Elt F) → (⟨S100000x64, .f32⟩ : BufTy).Contents (Elt F)),
    StableHlo.unary main_arg10 main_v47 (broadcastInDim S1x64 ![1] bcast_S64_S1x64_1 : (⟨S64, .f32⟩ : BufTy).Contents (Elt F) → (⟨S1x64, .f32⟩ : BufTy).Contents (Elt F)),
    StableHlo.unary main_v47 main_v48 (broadcastInDim S100000x64 ![0, 1] bcast_S1x64_S100000x64_0_1 : (⟨S1x64, .f32⟩ : BufTy).Contents (Elt F) → (⟨S100000x64, .f32⟩ : BufTy).Contents (Elt F)),
    StableHlo.binary main_v46 main_v48 main_v49 (addf : (⟨S100000x64, .f32⟩ : BufTy).Contents (Elt F) → (⟨S100000x64, .f32⟩ : BufTy).Contents (Elt F) → (⟨S100000x64, .f32⟩ : BufTy).Contents (Elt F)),
    StableHlo.binary main_v49 main_v40 main_v50 (addf : (⟨S100000x64, .f32⟩ : BufTy).Contents (Elt F) → (⟨S100000x64, .f32⟩ : BufTy).Contents (Elt F) → (⟨S100000x64, .f32⟩ : BufTy).Contents (Elt F)),
    StableHlo.nullary main_cst_5 (constant S_ .f32 0x00000000#32),
    StableHlo.binary main_v50 main_cst_5 main_v51 ((fun x v => Host.reduceAdd x v reducesTo_S100000x64_S64_d0 h_S_) : (⟨S100000x64, .f32⟩ : BufTy).Contents (Elt F) → (⟨S_, .f32⟩ : BufTy).Contents (Elt F) → (⟨S64, .f32⟩ : BufTy).Contents (Elt F)),
    StableHlo.nullary main_cst_6 (constant S_ .f32 0x47C35000#32),
    StableHlo.unary main_cst_6 main_v52 (broadcastInDim S64 ![] bcast_S_S64 : (⟨S_, .f32⟩ : BufTy).Contents (Elt F) → (⟨S64, .f32⟩ : BufTy).Contents (Elt F)),
    StableHlo.binary main_v51 main_v52 main_v53 (Host.divf : (⟨S64, .f32⟩ : BufTy).Contents (Elt F) → (⟨S64, .f32⟩ : BufTy).Contents (Elt F) → (⟨S64, .f32⟩ : BufTy).Contents (Elt F)),
    StableHlo.nullary main_c_7 (constantI S_ 32 0#32),
    StableHlo.TRef.nullary main_call3.cst (constant S_ .f32 0x00000000#32),
    StableHlo.TRef.binary (.of main_v50) main_call3.cst main_call3.v0 (fun x v => Host.reduceAdd x v reducesTo_S100000x64_S64_d0 h_S_),
    StableHlo.TRef.unary main_call3.v0 main_call3.v1 (broadcastInDim S1x64 ![1] bcast_S64_S1x64_1),
    StableHlo.TRef.nullary main_call3.cst_0 (constant S_ .f32 0x47C35000#32),
    StableHlo.TRef.unary main_call3.cst_0 main_call3.v2 (broadcastInDim S1x64 ![] bcast_S_S1x64),
    StableHlo.TRef.binary main_call3.v1 main_call3.v2 main_call3.v3 Host.divf,
    StableHlo.TRef.unary main_call3.v3 main_call3.v4 (broadcastInDim S100000x64 ![0, 1] bcast_S1x64_S100000x64_0_1),
    StableHlo.TRef.binary (.of main_v50) main_call3.v4 main_call3.v5 subf,
    StableHlo.TRef.binary main_call3.v5 main_call3.v5 main_call3.v6 mulf,
    StableHlo.TRef.unary (.of main_c_7) main_call3.v7 (sitofp .f32),
    StableHlo.TRef.nullary main_call3.cst_1 (constant S_ .f32 0x47C35000#32),
    StableHlo.TRef.binary main_call3.cst_1 main_call3.v7 main_call3.v8 subf,
    StableHlo.TRef.nullary main_call3.cst_2 (constant S_ .f32 0x00000000#32),
    StableHlo.TRef.binary main_call3.v6 main_call3.cst_2 main_call3.v9 (fun x v => Host.reduceAdd x v reducesTo_S100000x64_S64_d0 h_S_),
    StableHlo.TRef.unary main_call3.v8 main_call3.v10 (broadcastInDim S64 ![] bcast_S_S64),
    StableHlo.TRef.binary main_call3.v9 main_call3.v10 main_call3.v11 Host.divf,
    StableHlo.TRef.nullary main_call3.cst_3 (constant S_ .f32 0x00000000#32),
    StableHlo.TRef.binary main_call3.v8 main_call3.cst_3 main_call3.v12 (cmpf .ogt),
    StableHlo.TRef.nullary main_call3.cst_4 (constant S_ .f32 0x7FC00000#32),
    StableHlo.TRef.unary main_call3.cst_4 main_call3.call0.v0 id,
    StableHlo.TRef.unary main_call3.call0.v0 main_call3.call0.v1 (broadcastInDim S64 ![] bcast_S_S64),
    StableHlo.TRef.ternary main_call3.v12 main_call3.v11 main_call3.call0.v1 main_call3.call0.v2 (fun p a b => select (broadcastInDim S64 ![] bcast_S_S64 p) a b),
    StableHlo.unary main_v53 main_v55 (broadcastInDim S1x64 ![1] bcast_S64_S1x64_1 : (⟨S64, .f32⟩ : BufTy).Contents (Elt F) → (⟨S1x64, .f32⟩ : BufTy).Contents (Elt F)),
    StableHlo.unary main_v55 main_v56 (broadcastInDim S100000x64 ![0, 1] bcast_S1x64_S100000x64_0_1 : (⟨S1x64, .f32⟩ : BufTy).Contents (Elt F) → (⟨S100000x64, .f32⟩ : BufTy).Contents (Elt F)),
    StableHlo.binary main_v50 main_v56 main_v57 (subf : (⟨S100000x64, .f32⟩ : BufTy).Contents (Elt F) → (⟨S100000x64, .f32⟩ : BufTy).Contents (Elt F) → (⟨S100000x64, .f32⟩ : BufTy).Contents (Elt F)),
    StableHlo.nullary main_cst_8 (constant S_ .f32 0x3727C5AC#32),
    StableHlo.unary main_cst_8 main_v58 (broadcastInDim S64 ![] bcast_S_S64 : (⟨S_, .f32⟩ : BufTy).Contents (Elt F) → (⟨S64, .f32⟩ : BufTy).Contents (Elt F)),
    StableHlo.binary main_v54 main_v58 main_v59 (addf : (⟨S64, .f32⟩ : BufTy).Contents (Elt F) → (⟨S64, .f32⟩ : BufTy).Contents (Elt F) → (⟨S64, .f32⟩ : BufTy).Contents (Elt F)),
    StableHlo.unary main_v59 main_v60 (Host.rsqrt : (⟨S64, .f32⟩ : BufTy).Contents (Elt F) → (⟨S64, .f32⟩ : BufTy).Contents (Elt F)),
    StableHlo.unary main_v60 main_v61 (broadcastInDim S1x64 ![1] bcast_S64_S1x64_1 : (⟨S64, .f32⟩ : BufTy).Contents (Elt F) → (⟨S1x64, .f32⟩ : BufTy).Contents (Elt F)),
    StableHlo.unary main_v61 main_v62 (broadcastInDim S100000x64 ![0, 1] bcast_S1x64_S100000x64_0_1 : (⟨S1x64, .f32⟩ : BufTy).Contents (Elt F) → (⟨S100000x64, .f32⟩ : BufTy).Contents (Elt F)),
    StableHlo.binary main_v57 main_v62 main_v63 (mulf : (⟨S100000x64, .f32⟩ : BufTy).Contents (Elt F) → (⟨S100000x64, .f32⟩ : BufTy).Contents (Elt F) → (⟨S100000x64, .f32⟩ : BufTy).Contents (Elt F)),
    StableHlo.unary main_arg11 main_v64 (broadcastInDim S1x64 ![1] bcast_S64_S1x64_1 : (⟨S64, .f32⟩ : BufTy).Contents (Elt F) → (⟨S1x64, .f32⟩ : BufTy).Contents (Elt F)),
    StableHlo.unary main_v64 main_v65 (broadcastInDim S100000x64 ![0, 1] bcast_S1x64_S100000x64_0_1 : (⟨S1x64, .f32⟩ : BufTy).Contents (Elt F) → (⟨S100000x64, .f32⟩ : BufTy).Contents (Elt F)),
    StableHlo.binary main_v63 main_v65 main_v66 (mulf : (⟨S100000x64, .f32⟩ : BufTy).Contents (Elt F) → (⟨S100000x64, .f32⟩ : BufTy).Contents (Elt F) → (⟨S100000x64, .f32⟩ : BufTy).Contents (Elt F)),
    StableHlo.unary main_arg12 main_v67 (broadcastInDim S1x64 ![1] bcast_S64_S1x64_1 : (⟨S64, .f32⟩ : BufTy).Contents (Elt F) → (⟨S1x64, .f32⟩ : BufTy).Contents (Elt F)),
    StableHlo.unary main_v67 main_v68 (broadcastInDim S100000x64 ![0, 1] bcast_S1x64_S100000x64_0_1 : (⟨S1x64, .f32⟩ : BufTy).Contents (Elt F) → (⟨S100000x64, .f32⟩ : BufTy).Contents (Elt F)),
    StableHlo.binary main_v66 main_v68 main_v69 (addf : (⟨S100000x64, .f32⟩ : BufTy).Contents (Elt F) → (⟨S100000x64, .f32⟩ : BufTy).Contents (Elt F) → (⟨S100000x64, .f32⟩ : BufTy).Contents (Elt F)) ]
theorem ops_eq : (ops0 ++ ops1 : List (HloOp τ sig (Elt F))) = ops := rfl

/-- The buffer each operation writes, in order. -/
abbrev wr : List (Ref sig .tc) := [main_v0, main_v1, main_v2, main_v3, main_c, main_v4, main_v5, main_c_0, main_v6, main_v7, main_v8, main_v9, main_v10, main_cst, main_v11, main_v12, main_v13, main_v14, main_v15, main_v16, main_v17, main_v18, main_v19, main_cst_1, main_v20, main_cst_2, main_v21, main_v22, main_c_3, main_call0.cst.ref, main_call0.v0.ref, main_call0.v1.ref, main_call0.cst_0.ref, main_call0.v2.ref, main_call0.v3.ref, main_call0.v4.ref, main_call0.v5.ref, main_call0.v6.ref, main_call0.v7.ref, main_call0.cst_1.ref, main_call0.v8.ref, main_call0.cst_2.ref, main_call0.v9.ref, main_call0.v10.ref, main_call0.v11.ref, main_call0.cst_3.ref, main_call0.v12.ref, main_call0.cst_4.ref, main_call0.call0.v0.ref, main_call0.call0.v1.ref, main_call0.call0.v2.ref, main_v24, main_v25, main_v26, main_cst_4, main_v27, main_v28, main_v29, main_v30, main_v31, main_v32, main_v33, main_v34, main_v35, main_v36, main_v37, main_v38, main_call1.cst.ref, main_call1.v0.ref, main_call1.v1.ref, main_v40, main_v41, main_v42, main_v43, main_v44, main_call2.cst.ref, main_call2.v0.ref, main_call2.v1.ref, main_v46, main_v47, main_v48, main_v49, main_v50, main_cst_5, main_v51, main_cst_6, main_v52, main_v53, main_c_7, main_call3.cst.ref, main_call3.v0.ref, main_call3.v1.ref, main_call3.cst_0.ref, main_call3.v2.ref, main_call3.v3.ref, main_call3.v4.ref, main_call3.v5.ref, main_call3.v6.ref, main_call3.v7.ref, main_call3.cst_1.ref, main_call3.v8.ref, main_call3.cst_2.ref, main_call3.v9.ref, main_call3.v10.ref, main_call3.v11.ref, main_call3.cst_3.ref, main_call3.v12.ref, main_call3.cst_4.ref, main_call3.call0.v0.ref, main_call3.call0.v1.ref, main_call3.call0.v2.ref, main_v55, main_v56, main_v57, main_cst_8, main_v58, main_v59, main_v60, main_v61, main_v62, main_v63, main_v64, main_v65, main_v66, main_v67, main_v68, main_v69]

theorem hW : WritesEach (ops (F := F)) wr := by
  repeat' (first | exact List.Forall₂.nil | refine List.Forall₂.cons rfl ?_)

variable (V : Valuation τ sig (Elt F))

/-- What a buffer holds after the whole line. -/
abbrev R (b : Ref sig .tc) : b.ty.Contents (Elt F) := after (ops (F := F)) V (Proc.devRef .tc b)
theorem rd_main_v0 : R V main_v0 = (((extractStridedSlice S1x1600000 ![0, 0] · slices_S2x1600000_S1x1600000_0_0) : (⟨S2x1600000, .i32⟩ : BufTy).Contents (Elt F) → (⟨S1x1600000, .i32⟩ : BufTy).Contents (Elt F))) (R V main_arg1) :=
  (after_unary hW V 0 _ _ _ _ _ rfl (by decide) (by decide)).trans rfl
theorem rd_main_v1 : R V main_v1 = shapeCast S1600000 (R V main_v0) shapeCasts_S1x1600000_S1600000 :=
  (after_reshape hW V 1 _ _ _ _ _ _ rfl (by decide) (by decide)).trans rfl
theorem rd_main_v2 : R V main_v2 = (((extractStridedSlice S1x1600000 ![1, 0] · slices_S2x1600000_S1x1600000_1_0) : (⟨S2x1600000, .i32⟩ : BufTy).Contents (Elt F) → (⟨S1x1600000, .i32⟩ : BufTy).Contents (Elt F))) (R V main_arg1) :=
  (after_unary hW V 2 _ _ _ _ _ rfl (by decide) (by decide)).trans rfl
theorem rd_main_v3 : R V main_v3 = shapeCast S1600000 (R V main_v2) shapeCasts_S1x1600000_S1600000 :=
  (after_reshape hW V 3 _ _ _ _ _ _ rfl (by decide) (by decide)).trans rfl
theorem rd_main_c : R V main_c = (constantI S_ 32 0#32) :=
  (after_nullary hW V 4 _ _ _ rfl (by decide)).trans rfl
theorem rd_main_v4 : R V main_v4 = ((broadcastInDim S1600000 ![] bcast_S_S1600000 : (⟨S_, .i32⟩ : BufTy).Contents (Elt F) → (⟨S1600000, .i32⟩ : BufTy).Contents (Elt F))) (R V main_c) :=
  (after_unary hW V 5 _ _ _ _ _ rfl (by decide) (by decide)).trans rfl
theorem rd_main_v5 : R V main_v5 = ((cmpi .slt : (⟨S1600000, .i32⟩ : BufTy).Contents (Elt F) → (⟨S1600000, .i32⟩ : BufTy).Contents (Elt F) → (⟨S1600000, .i1⟩ : BufTy).Contents (Elt F))) (R V main_v1) (R V main_v4) :=
  (after_binary hW V 6 _ _ _ _ _ _ _ rfl (by decide) (by decide) (by decide)).trans rfl
theorem rd_main_c_0 : R V main_c_0 = (constantI S_ 32 100000#32) :=
  (after_nullary hW V 7 _ _ _ rfl (by decide)).trans rfl
theorem rd_main_v6 : R V main_v6 = ((broadcastInDim S1600000 ![] bcast_S_S1600000 : (⟨S_, .i32⟩ : BufTy).Contents (Elt F) → (⟨S1600000, .i32⟩ : BufTy).Contents (Elt F))) (R V main_c_0) :=
  (after_unary hW V 8 _ _ _ _ _ rfl (by decide) (by decide)).trans rfl
theorem rd_main_v7 : R V main_v7 = ((addi : (⟨S1600000, .i32⟩ : BufTy).Contents (Elt F) → (⟨S1600000, .i32⟩ : BufTy).Contents (Elt F) → (⟨S1600000, .i32⟩ : BufTy).Contents (Elt F))) (R V main_v1) (R V main_v6) :=
  (after_binary hW V 9 _ _ _ _ _ _ _ rfl (by decide) (by decide) (by decide)).trans rfl
theorem rd_main_v8 : R V main_v8 = ((select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F))) (R V main_v5) (R V main_v7) (R V main_v1) :=
  (after_ternary hW V 10 _ _ _ _ _ _ _ _ _ rfl (by decide) (by decide) (by decide) (by decide)).trans rfl
theorem rd_main_v9 : R V main_v9 = ((broadcastInDim S1600000x1 ![0] bcast_S1600000_S1600000x1_0 : (⟨S1600000, .i32⟩ : BufTy).Contents (Elt F) → (⟨S1600000x1, .i32⟩ : BufTy).Contents (Elt F))) (R V main_v8) :=
  (after_unary hW V 11 _ _ _ _ _ rfl (by decide) (by decide)).trans rfl
theorem rd_main_v10 : R V main_v10 = (((fun x i => Host.gather gather_S100000x64_S1600000x1_S1600000x64_1_0_n_n_0_1_164 x i) : (⟨S100000x64, .f32⟩ : BufTy).Contents (Elt F) → (⟨S1600000x1, .i32⟩ : BufTy).Contents (Elt F) → (⟨S1600000x64, .f32⟩ : BufTy).Contents (Elt F))) (R V main_arg0) (R V main_v9) :=
  (after_binary hW V 12 _ _ _ _ _ _ _ rfl (by decide) (by decide) (by decide)).trans rfl
theorem rd_main_cst : R V main_cst = (constant S_ .f32 0x00000000#32) :=
  (after_nullary hW V 13 _ _ _ rfl (by decide)).trans rfl
theorem rd_main_v11 : R V main_v11 = ((broadcastInDim S100000x64 ![] bcast_S_S100000x64 : (⟨S_, .f32⟩ : BufTy).Contents (Elt F) → (⟨S100000x64, .f32⟩ : BufTy).Contents (Elt F))) (R V main_cst) :=
  (after_unary hW V 14 _ _ _ _ _ rfl (by decide) (by decide)).trans rfl
theorem rd_main_v12 : R V main_v12 = ((broadcastInDim S1600000x1 ![0] bcast_S1600000_S1600000x1_0 : (⟨S1600000, .i32⟩ : BufTy).Contents (Elt F) → (⟨S1600000x1, .i32⟩ : BufTy).Contents (Elt F))) (R V main_v3) :=
  (after_unary hW V 15 _ _ _ _ _ rfl (by decide) (by decide)).trans rfl
theorem rd_main_v13 : R V main_v13 = (((fun x i u => Host.scatterAdd scatter_S100000x64_S1600000x1_S1600000x64_1_0_0_1 x i u) : (⟨S100000x64, .f32⟩ : BufTy).Contents (Elt F) → (⟨S1600000x1, .i32⟩ : BufTy).Contents (Elt F) → (⟨S1600000x64, .f32⟩ : BufTy).Contents (Elt F) → (⟨S100000x64, .f32⟩ : BufTy).Contents (Elt F))) (R V main_v11) (R V main_v12) (R V main_v10) :=
  (after_ternary hW V 16 _ _ _ _ _ _ _ _ _ rfl (by decide) (by decide) (by decide) (by decide)).trans rfl
theorem rd_main_v14 : R V main_v14 = (((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F))) (R V main_v13) (R V main_arg3) :=
  (after_binary hW V 17 _ _ _ _ _ _ _ rfl (by decide) (by decide) (by decide)).trans rfl
theorem rd_main_v15 : R V main_v15 = (((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F))) (R V main_arg0) (R V main_arg2) :=
  (after_binary hW V 18 _ _ _ _ _ _ _ rfl (by decide) (by decide) (by decide)).trans rfl
theorem rd_main_v16 : R V main_v16 = ((addf : (⟨S100000x64, .f32⟩ : BufTy).Contents (Elt F) → (⟨S100000x64, .f32⟩ : BufTy).Contents (Elt F) → (⟨S100000x64, .f32⟩ : BufTy).Contents (Elt F))) (R V main_v14) (R V main_v15) :=
  (after_binary hW V 19 _ _ _ _ _ _ _ rfl (by decide) (by decide) (by decide)).trans rfl
theorem rd_main_v17 : R V main_v17 = ((broadcastInDim S1x64 ![1] bcast_S64_S1x64_1 : (⟨S64, .f32⟩ : BufTy).Contents (Elt F) → (⟨S1x64, .f32⟩ : BufTy).Contents (Elt F))) (R V main_arg4) :=
  (after_unary hW V 20 _ _ _ _ _ rfl (by decide) (by decide)).trans rfl
theorem rd_main_v18 : R V main_v18 = ((broadcastInDim S100000x64 ![0, 1] bcast_S1x64_S100000x64_0_1 : (⟨S1x64, .f32⟩ : BufTy).Contents (Elt F) → (⟨S100000x64, .f32⟩ : BufTy).Contents (Elt F))) (R V main_v17) :=
  (after_unary hW V 21 _ _ _ _ _ rfl (by decide) (by decide)).trans rfl
theorem rd_main_v19 : R V main_v19 = ((addf : (⟨S100000x64, .f32⟩ : BufTy).Contents (Elt F) → (⟨S100000x64, .f32⟩ : BufTy).Contents (Elt F) → (⟨S100000x64, .f32⟩ : BufTy).Contents (Elt F))) (R V main_v16) (R V main_v18) :=
  (after_binary hW V 22 _ _ _ _ _ _ _ rfl (by decide) (by decide) (by decide)).trans rfl
theorem rd_main_cst_1 : R V main_cst_1 = (constant S_ .f32 0x00000000#32) :=
  (after_nullary hW V 23 _ _ _ rfl (by decide)).trans rfl
theorem rd_main_v20 : R V main_v20 = (((fun x v => Host.reduceAdd x v reducesTo_S100000x64_S64_d0 h_S_) : (⟨S100000x64, .f32⟩ : BufTy).Contents (Elt F) → (⟨S_, .f32⟩ : BufTy).Contents (Elt F) → (⟨S64, .f32⟩ : BufTy).Contents (Elt F))) (R V main_v19) (R V main_cst_1) :=
  (after_binary hW V 24 _ _ _ _ _ _ _ rfl (by decide) (by decide) (by decide)).trans rfl
theorem rd_main_cst_2 : R V main_cst_2 = (constant S_ .f32 0x47C35000#32) :=
  (after_nullary hW V 25 _ _ _ rfl (by decide)).trans rfl
theorem rd_main_v21 : R V main_v21 = ((broadcastInDim S64 ![] bcast_S_S64 : (⟨S_, .f32⟩ : BufTy).Contents (Elt F) → (⟨S64, .f32⟩ : BufTy).Contents (Elt F))) (R V main_cst_2) :=
  (after_unary hW V 26 _ _ _ _ _ rfl (by decide) (by decide)).trans rfl
theorem rd_main_v22 : R V main_v22 = ((Host.divf : (⟨S64, .f32⟩ : BufTy).Contents (Elt F) → (⟨S64, .f32⟩ : BufTy).Contents (Elt F) → (⟨S64, .f32⟩ : BufTy).Contents (Elt F))) (R V main_v20) (R V main_v21) :=
  (after_binary hW V 27 _ _ _ _ _ _ _ rfl (by decide) (by decide) (by decide)).trans rfl
theorem rd_main_c_3 : R V main_c_3 = (constantI S_ 32 0#32) :=
  (after_nullary hW V 28 _ _ _ rfl (by decide)).trans rfl
theorem rd_main_call0_cst : R V main_call0.cst.ref = (constant S_ .f32 0x00000000#32) :=
  (after_nullary hW V 29 _ _ _ rfl (by decide)).trans rfl
theorem rd_main_call0_v0 : R V main_call0.v0.ref = ((fun x v => Host.reduceAdd x v reducesTo_S100000x64_S64_d0 h_S_)) (R V main_v19) (R V main_call0.cst.ref) :=
  (after_binary hW V 30 _ _ _ _ _ _ _ rfl (by decide) (by decide) (by decide)).trans rfl
theorem rd_main_call0_v1 : R V main_call0.v1.ref = ((broadcastInDim S1x64 ![1] bcast_S64_S1x64_1)) (R V main_call0.v0.ref) :=
  (after_unary hW V 31 _ _ _ _ _ rfl (by decide) (by decide)).trans rfl
theorem rd_main_call0_cst_0 : R V main_call0.cst_0.ref = (constant S_ .f32 0x47C35000#32) :=
  (after_nullary hW V 32 _ _ _ rfl (by decide)).trans rfl
theorem rd_main_call0_v2 : R V main_call0.v2.ref = ((broadcastInDim S1x64 ![] bcast_S_S1x64)) (R V main_call0.cst_0.ref) :=
  (after_unary hW V 33 _ _ _ _ _ rfl (by decide) (by decide)).trans rfl
theorem rd_main_call0_v3 : R V main_call0.v3.ref = (Host.divf) (R V main_call0.v1.ref) (R V main_call0.v2.ref) :=
  (after_binary hW V 34 _ _ _ _ _ _ _ rfl (by decide) (by decide) (by decide)).trans rfl
theorem rd_main_call0_v4 : R V main_call0.v4.ref = ((broadcastInDim S100000x64 ![0, 1] bcast_S1x64_S100000x64_0_1)) (R V main_call0.v3.ref) :=
  (after_unary hW V 35 _ _ _ _ _ rfl (by decide) (by decide)).trans rfl
theorem rd_main_call0_v5 : R V main_call0.v5.ref = (subf) (R V main_v19) (R V main_call0.v4.ref) :=
  (after_binary hW V 36 _ _ _ _ _ _ _ rfl (by decide) (by decide) (by decide)).trans rfl
theorem rd_main_call0_v6 : R V main_call0.v6.ref = (mulf) (R V main_call0.v5.ref) (R V main_call0.v5.ref) :=
  (after_binary hW V 37 _ _ _ _ _ _ _ rfl (by decide) (by decide) (by decide)).trans rfl
theorem rd_main_call0_v7 : R V main_call0.v7.ref = ((sitofp .f32)) (R V main_c_3) :=
  (after_unary hW V 38 _ _ _ _ _ rfl (by decide) (by decide)).trans rfl
theorem rd_main_call0_cst_1 : R V main_call0.cst_1.ref = (constant S_ .f32 0x47C35000#32) :=
  (after_nullary hW V 39 _ _ _ rfl (by decide)).trans rfl
theorem rd_main_call0_v8 : R V main_call0.v8.ref = (subf) (R V main_call0.cst_1.ref) (R V main_call0.v7.ref) :=
  (after_binary hW V 40 _ _ _ _ _ _ _ rfl (by decide) (by decide) (by decide)).trans rfl
theorem rd_main_call0_cst_2 : R V main_call0.cst_2.ref = (constant S_ .f32 0x00000000#32) :=
  (after_nullary hW V 41 _ _ _ rfl (by decide)).trans rfl
theorem rd_main_call0_v9 : R V main_call0.v9.ref = ((fun x v => Host.reduceAdd x v reducesTo_S100000x64_S64_d0 h_S_)) (R V main_call0.v6.ref) (R V main_call0.cst_2.ref) :=
  (after_binary hW V 42 _ _ _ _ _ _ _ rfl (by decide) (by decide) (by decide)).trans rfl
theorem rd_main_call0_v10 : R V main_call0.v10.ref = ((broadcastInDim S64 ![] bcast_S_S64)) (R V main_call0.v8.ref) :=
  (after_unary hW V 43 _ _ _ _ _ rfl (by decide) (by decide)).trans rfl
theorem rd_main_call0_v11 : R V main_call0.v11.ref = (Host.divf) (R V main_call0.v9.ref) (R V main_call0.v10.ref) :=
  (after_binary hW V 44 _ _ _ _ _ _ _ rfl (by decide) (by decide) (by decide)).trans rfl
theorem rd_main_call0_cst_3 : R V main_call0.cst_3.ref = (constant S_ .f32 0x00000000#32) :=
  (after_nullary hW V 45 _ _ _ rfl (by decide)).trans rfl
theorem rd_main_call0_v12 : R V main_call0.v12.ref = ((cmpf .ogt)) (R V main_call0.v8.ref) (R V main_call0.cst_3.ref) :=
  (after_binary hW V 46 _ _ _ _ _ _ _ rfl (by decide) (by decide) (by decide)).trans rfl
theorem rd_main_call0_cst_4 : R V main_call0.cst_4.ref = (constant S_ .f32 0x7FC00000#32) :=
  (after_nullary hW V 47 _ _ _ rfl (by decide)).trans rfl
theorem rd_main_call0_call0_v0 : R V main_call0.call0.v0.ref = (id) (R V main_call0.cst_4.ref) :=
  (after_unary hW V 48 _ _ _ _ _ rfl (by decide) (by decide)).trans rfl
theorem rd_main_call0_call0_v1 : R V main_call0.call0.v1.ref = ((broadcastInDim S64 ![] bcast_S_S64)) (R V main_call0.call0.v0.ref) :=
  (after_unary hW V 49 _ _ _ _ _ rfl (by decide) (by decide)).trans rfl
theorem rd_main_call0_call0_v2 : R V main_call0.call0.v2.ref = ((fun p a b => select (broadcastInDim S64 ![] bcast_S_S64 p) a b)) (R V main_call0.v12.ref) (R V main_call0.v11.ref) (R V main_call0.call0.v1.ref) :=
  (after_ternary hW V 50 _ _ _ _ _ _ _ _ _ rfl (by decide) (by decide) (by decide) (by decide)).trans rfl
theorem rd_main_v24 : R V main_v24 = ((broadcastInDim S1x64 ![1] bcast_S64_S1x64_1 : (⟨S64, .f32⟩ : BufTy).Contents (Elt F) → (⟨S1x64, .f32⟩ : BufTy).Contents (Elt F))) (R V main_v22) :=
  (after_unary hW V 51 _ _ _ _ _ rfl (by decide) (by decide)).trans rfl
theorem rd_main_v25 : R V main_v25 = ((broadcastInDim S100000x64 ![0, 1] bcast_S1x64_S100000x64_0_1 : (⟨S1x64, .f32⟩ : BufTy).Contents (Elt F) → (⟨S100000x64, .f32⟩ : BufTy).Contents (Elt F))) (R V main_v24) :=
  (after_unary hW V 52 _ _ _ _ _ rfl (by decide) (by decide)).trans rfl
theorem rd_main_v26 : R V main_v26 = ((subf : (⟨S100000x64, .f32⟩ : BufTy).Contents (Elt F) → (⟨S100000x64, .f32⟩ : BufTy).Contents (Elt F) → (⟨S100000x64, .f32⟩ : BufTy).Contents (Elt F))) (R V main_v19) (R V main_v25) :=
  (after_binary hW V 53 _ _ _ _ _ _ _ rfl (by decide) (by decide) (by decide)).trans rfl
theorem rd_main_cst_4 : R V main_cst_4 = (constant S_ .f32 0x3727C5AC#32) :=
  (after_nullary hW V 54 _ _ _ rfl (by decide)).trans rfl
theorem rd_main_v27 : R V main_v27 = ((broadcastInDim S64 ![] bcast_S_S64 : (⟨S_, .f32⟩ : BufTy).Contents (Elt F) → (⟨S64, .f32⟩ : BufTy).Contents (Elt F))) (R V main_cst_4) :=
  (after_unary hW V 55 _ _ _ _ _ rfl (by decide) (by decide)).trans rfl
theorem rd_main_v28 : R V main_v28 = ((addf : (⟨S64, .f32⟩ : BufTy).Contents (Elt F) → (⟨S64, .f32⟩ : BufTy).Contents (Elt F) → (⟨S64, .f32⟩ : BufTy).Contents (Elt F))) (R V main_v23) (R V main_v27) :=
  (after_binary hW V 56 _ _ _ _ _ _ _ rfl (by decide) (by decide) (by decide)).trans rfl
theorem rd_main_v29 : R V main_v29 = ((Host.rsqrt : (⟨S64, .f32⟩ : BufTy).Contents (Elt F) → (⟨S64, .f32⟩ : BufTy).Contents (Elt F))) (R V main_v28) :=
  (after_unary hW V 57 _ _ _ _ _ rfl (by decide) (by decide)).trans rfl
theorem rd_main_v30 : R V main_v30 = ((broadcastInDim S1x64 ![1] bcast_S64_S1x64_1 : (⟨S64, .f32⟩ : BufTy).Contents (Elt F) → (⟨S1x64, .f32⟩ : BufTy).Contents (Elt F))) (R V main_v29) :=
  (after_unary hW V 58 _ _ _ _ _ rfl (by decide) (by decide)).trans rfl
theorem rd_main_v31 : R V main_v31 = ((broadcastInDim S100000x64 ![0, 1] bcast_S1x64_S100000x64_0_1 : (⟨S1x64, .f32⟩ : BufTy).Contents (Elt F) → (⟨S100000x64, .f32⟩ : BufTy).Contents (Elt F))) (R V main_v30) :=
  (after_unary hW V 59 _ _ _ _ _ rfl (by decide) (by decide)).trans rfl
theorem rd_main_v32 : R V main_v32 = ((mulf : (⟨S100000x64, .f32⟩ : BufTy).Contents (Elt F) → (⟨S100000x64, .f32⟩ : BufTy).Contents (Elt F) → (⟨S100000x64, .f32⟩ : BufTy).Contents (Elt F))) (R V main_v26) (R V main_v31) :=
  (after_binary hW V 60 _ _ _ _ _ _ _ rfl (by decide) (by decide) (by decide)).trans rfl
theorem rd_main_v33 : R V main_v33 = ((broadcastInDim S1x64 ![1] bcast_S64_S1x64_1 : (⟨S64, .f32⟩ : BufTy).Contents (Elt F) → (⟨S1x64, .f32⟩ : BufTy).Contents (Elt F))) (R V main_arg5) :=
  (after_unary hW V 61 _ _ _ _ _ rfl (by decide) (by decide)).trans rfl
theorem rd_main_v34 : R V main_v34 = ((broadcastInDim S100000x64 ![0, 1] bcast_S1x64_S100000x64_0_1 : (⟨S1x64, .f32⟩ : BufTy).Contents (Elt F) → (⟨S100000x64, .f32⟩ : BufTy).Contents (Elt F))) (R V main_v33) :=
  (after_unary hW V 62 _ _ _ _ _ rfl (by decide) (by decide)).trans rfl
theorem rd_main_v35 : R V main_v35 = ((mulf : (⟨S100000x64, .f32⟩ : BufTy).Contents (Elt F) → (⟨S100000x64, .f32⟩ : BufTy).Contents (Elt F) → (⟨S100000x64, .f32⟩ : BufTy).Contents (Elt F))) (R V main_v32) (R V main_v34) :=
  (after_binary hW V 63 _ _ _ _ _ _ _ rfl (by decide) (by decide) (by decide)).trans rfl
theorem rd_main_v36 : R V main_v36 = ((broadcastInDim S1x64 ![1] bcast_S64_S1x64_1 : (⟨S64, .f32⟩ : BufTy).Contents (Elt F) → (⟨S1x64, .f32⟩ : BufTy).Contents (Elt F))) (R V main_arg6) :=
  (after_unary hW V 64 _ _ _ _ _ rfl (by decide) (by decide)).trans rfl
theorem rd_main_v37 : R V main_v37 = ((broadcastInDim S100000x64 ![0, 1] bcast_S1x64_S100000x64_0_1 : (⟨S1x64, .f32⟩ : BufTy).Contents (Elt F) → (⟨S100000x64, .f32⟩ : BufTy).Contents (Elt F))) (R V main_v36) :=
  (after_unary hW V 65 _ _ _ _ _ rfl (by decide) (by decide)).trans rfl
theorem rd_main_v38 : R V main_v38 = ((addf : (⟨S100000x64, .f32⟩ : BufTy).Contents (Elt F) → (⟨S100000x64, .f32⟩ : BufTy).Contents (Elt F) → (⟨S100000x64, .f32⟩ : BufTy).Contents (Elt F))) (R V main_v35) (R V main_v37) :=
  (after_binary hW V 66 _ _ _ _ _ _ _ rfl (by decide) (by decide) (by decide)).trans rfl
theorem rd_main_call1_cst : R V main_call1.cst.ref = (constant S_ .f32 0x00000000#32) :=
  (after_nullary hW V 67 _ _ _ rfl (by decide)).trans rfl
theorem rd_main_call1_v0 : R V main_call1.v0.ref = ((broadcastInDim S100000x64 ![] bcast_S_S100000x64)) (R V main_call1.cst.ref) :=
  (after_unary hW V 68 _ _ _ _ _ rfl (by decide) (by decide)).trans rfl
theorem rd_main_call1_v1 : R V main_call1.v1.ref = (maximumf) (R V main_v38) (R V main_call1.v0.ref) :=
  (after_binary hW V 69 _ _ _ _ _ _ _ rfl (by decide) (by decide) (by decide)).trans rfl
theorem rd_main_v40 : R V main_v40 = ((addf : (⟨S100000x64, .f32⟩ : BufTy).Contents (Elt F) → (⟨S100000x64, .f32⟩ : BufTy).Contents (Elt F) → (⟨S100000x64, .f32⟩ : BufTy).Contents (Elt F))) (R V main_v39) (R V main_arg0) :=
  (after_binary hW V 70 _ _ _ _ _ _ _ rfl (by decide) (by decide) (by decide)).trans rfl
theorem rd_main_v41 : R V main_v41 = (((fun l r => Host.dotGeneral dot_S100000x64_S64x128_S100000x128_1_0_0_1_n_n none l r) : (⟨S100000x64, .f32⟩ : BufTy).Contents (Elt F) → (⟨S64x128, .f32⟩ : BufTy).Contents (Elt F) → (⟨S100000x128, .f32⟩ : BufTy).Contents (Elt F))) (R V main_v40) (R V main_arg7) :=
  (after_binary hW V 71 _ _ _ _ _ _ _ rfl (by decide) (by decide) (by decide)).trans rfl
theorem rd_main_v42 : R V main_v42 = ((broadcastInDim S1x128 ![1] bcast_S128_S1x128_1 : (⟨S128, .f32⟩ : BufTy).Contents (Elt F) → (⟨S1x128, .f32⟩ : BufTy).Contents (Elt F))) (R V main_arg8) :=
  (after_unary hW V 72 _ _ _ _ _ rfl (by decide) (by decide)).trans rfl
theorem rd_main_v43 : R V main_v43 = ((broadcastInDim S100000x128 ![0, 1] bcast_S1x128_S100000x128_0_1 : (⟨S1x128, .f32⟩ : BufTy).Contents (Elt F) → (⟨S100000x128, .f32⟩ : BufTy).Contents (Elt F))) (R V main_v42) :=
  (after_unary hW V 73 _ _ _ _ _ rfl (by decide) (by decide)).trans rfl
theorem rd_main_v44 : R V main_v44 = ((addf : (⟨S100000x128, .f32⟩ : BufTy).Contents (Elt F) → (⟨S100000x128, .f32⟩ : BufTy).Contents (Elt F) → (⟨S100000x128, .f32⟩ : BufTy).Contents (Elt F))) (R V main_v41) (R V main_v43) :=
  (after_binary hW V 74 _ _ _ _ _ _ _ rfl (by decide) (by decide) (by decide)).trans rfl
theorem rd_main_call2_cst : R V main_call2.cst.ref = (constant S_ .f32 0x00000000#32) :=
  (after_nullary hW V 75 _ _ _ rfl (by decide)).trans rfl
theorem rd_main_call2_v0 : R V main_call2.v0.ref = ((broadcastInDim S100000x128 ![] bcast_S_S100000x128)) (R V main_call2.cst.ref) :=
  (after_unary hW V 76 _ _ _ _ _ rfl (by decide) (by decide)).trans rfl
theorem rd_main_call2_v1 : R V main_call2.v1.ref = (maximumf) (R V main_v44) (R V main_call2.v0.ref) :=
  (after_binary hW V 77 _ _ _ _ _ _ _ rfl (by decide) (by decide) (by decide)).trans rfl
theorem rd_main_v46 : R V main_v46 = (((fun l r => Host.dotGeneral dot_S100000x128_S128x64_S100000x64_1_0_0_1_n_n none l r) : (⟨S100000x128, .f32⟩ : BufTy).Contents (Elt F) → (⟨S128x64, .f32⟩ : BufTy).Contents (Elt F) → (⟨S100000x64, .f32⟩ : BufTy).Contents (Elt F))) (R V main_v45) (R V main_arg9) :=
  (after_binary hW V 78 _ _ _ _ _ _ _ rfl (by decide) (by decide) (by decide)).trans rfl
theorem rd_main_v47 : R V main_v47 = ((broadcastInDim S1x64 ![1] bcast_S64_S1x64_1 : (⟨S64, .f32⟩ : BufTy).Contents (Elt F) → (⟨S1x64, .f32⟩ : BufTy).Contents (Elt F))) (R V main_arg10) :=
  (after_unary hW V 79 _ _ _ _ _ rfl (by decide) (by decide)).trans rfl
theorem rd_main_v48 : R V main_v48 = ((broadcastInDim S100000x64 ![0, 1] bcast_S1x64_S100000x64_0_1 : (⟨S1x64, .f32⟩ : BufTy).Contents (Elt F) → (⟨S100000x64, .f32⟩ : BufTy).Contents (Elt F))) (R V main_v47) :=
  (after_unary hW V 80 _ _ _ _ _ rfl (by decide) (by decide)).trans rfl
theorem rd_main_v49 : R V main_v49 = ((addf : (⟨S100000x64, .f32⟩ : BufTy).Contents (Elt F) → (⟨S100000x64, .f32⟩ : BufTy).Contents (Elt F) → (⟨S100000x64, .f32⟩ : BufTy).Contents (Elt F))) (R V main_v46) (R V main_v48) :=
  (after_binary hW V 81 _ _ _ _ _ _ _ rfl (by decide) (by decide) (by decide)).trans rfl
theorem rd_main_v50 : R V main_v50 = ((addf : (⟨S100000x64, .f32⟩ : BufTy).Contents (Elt F) → (⟨S100000x64, .f32⟩ : BufTy).Contents (Elt F) → (⟨S100000x64, .f32⟩ : BufTy).Contents (Elt F))) (R V main_v49) (R V main_v40) :=
  (after_binary hW V 82 _ _ _ _ _ _ _ rfl (by decide) (by decide) (by decide)).trans rfl
theorem rd_main_cst_5 : R V main_cst_5 = (constant S_ .f32 0x00000000#32) :=
  (after_nullary hW V 83 _ _ _ rfl (by decide)).trans rfl
theorem rd_main_v51 : R V main_v51 = (((fun x v => Host.reduceAdd x v reducesTo_S100000x64_S64_d0 h_S_) : (⟨S100000x64, .f32⟩ : BufTy).Contents (Elt F) → (⟨S_, .f32⟩ : BufTy).Contents (Elt F) → (⟨S64, .f32⟩ : BufTy).Contents (Elt F))) (R V main_v50) (R V main_cst_5) :=
  (after_binary hW V 84 _ _ _ _ _ _ _ rfl (by decide) (by decide) (by decide)).trans rfl
theorem rd_main_cst_6 : R V main_cst_6 = (constant S_ .f32 0x47C35000#32) :=
  (after_nullary hW V 85 _ _ _ rfl (by decide)).trans rfl
theorem rd_main_v52 : R V main_v52 = ((broadcastInDim S64 ![] bcast_S_S64 : (⟨S_, .f32⟩ : BufTy).Contents (Elt F) → (⟨S64, .f32⟩ : BufTy).Contents (Elt F))) (R V main_cst_6) :=
  (after_unary hW V 86 _ _ _ _ _ rfl (by decide) (by decide)).trans rfl
theorem rd_main_v53 : R V main_v53 = ((Host.divf : (⟨S64, .f32⟩ : BufTy).Contents (Elt F) → (⟨S64, .f32⟩ : BufTy).Contents (Elt F) → (⟨S64, .f32⟩ : BufTy).Contents (Elt F))) (R V main_v51) (R V main_v52) :=
  (after_binary hW V 87 _ _ _ _ _ _ _ rfl (by decide) (by decide) (by decide)).trans rfl
theorem rd_main_c_7 : R V main_c_7 = (constantI S_ 32 0#32) :=
  (after_nullary hW V 88 _ _ _ rfl (by decide)).trans rfl
theorem rd_main_call3_cst : R V main_call3.cst.ref = (constant S_ .f32 0x00000000#32) :=
  (after_nullary hW V 89 _ _ _ rfl (by decide)).trans rfl
theorem rd_main_call3_v0 : R V main_call3.v0.ref = ((fun x v => Host.reduceAdd x v reducesTo_S100000x64_S64_d0 h_S_)) (R V main_v50) (R V main_call3.cst.ref) :=
  (after_binary hW V 90 _ _ _ _ _ _ _ rfl (by decide) (by decide) (by decide)).trans rfl
theorem rd_main_call3_v1 : R V main_call3.v1.ref = ((broadcastInDim S1x64 ![1] bcast_S64_S1x64_1)) (R V main_call3.v0.ref) :=
  (after_unary hW V 91 _ _ _ _ _ rfl (by decide) (by decide)).trans rfl
theorem rd_main_call3_cst_0 : R V main_call3.cst_0.ref = (constant S_ .f32 0x47C35000#32) :=
  (after_nullary hW V 92 _ _ _ rfl (by decide)).trans rfl
theorem rd_main_call3_v2 : R V main_call3.v2.ref = ((broadcastInDim S1x64 ![] bcast_S_S1x64)) (R V main_call3.cst_0.ref) :=
  (after_unary hW V 93 _ _ _ _ _ rfl (by decide) (by decide)).trans rfl
theorem rd_main_call3_v3 : R V main_call3.v3.ref = (Host.divf) (R V main_call3.v1.ref) (R V main_call3.v2.ref) :=
  (after_binary hW V 94 _ _ _ _ _ _ _ rfl (by decide) (by decide) (by decide)).trans rfl
theorem rd_main_call3_v4 : R V main_call3.v4.ref = ((broadcastInDim S100000x64 ![0, 1] bcast_S1x64_S100000x64_0_1)) (R V main_call3.v3.ref) :=
  (after_unary hW V 95 _ _ _ _ _ rfl (by decide) (by decide)).trans rfl
theorem rd_main_call3_v5 : R V main_call3.v5.ref = (subf) (R V main_v50) (R V main_call3.v4.ref) :=
  (after_binary hW V 96 _ _ _ _ _ _ _ rfl (by decide) (by decide) (by decide)).trans rfl
theorem rd_main_call3_v6 : R V main_call3.v6.ref = (mulf) (R V main_call3.v5.ref) (R V main_call3.v5.ref) :=
  (after_binary hW V 97 _ _ _ _ _ _ _ rfl (by decide) (by decide) (by decide)).trans rfl
theorem rd_main_call3_v7 : R V main_call3.v7.ref = ((sitofp .f32)) (R V main_c_7) :=
  (after_unary hW V 98 _ _ _ _ _ rfl (by decide) (by decide)).trans rfl
theorem rd_main_call3_cst_1 : R V main_call3.cst_1.ref = (constant S_ .f32 0x47C35000#32) :=
  (after_nullary hW V 99 _ _ _ rfl (by decide)).trans rfl
theorem rd_main_call3_v8 : R V main_call3.v8.ref = (subf) (R V main_call3.cst_1.ref) (R V main_call3.v7.ref) :=
  (after_binary hW V 100 _ _ _ _ _ _ _ rfl (by decide) (by decide) (by decide)).trans rfl
theorem rd_main_call3_cst_2 : R V main_call3.cst_2.ref = (constant S_ .f32 0x00000000#32) :=
  (after_nullary hW V 101 _ _ _ rfl (by decide)).trans rfl
theorem rd_main_call3_v9 : R V main_call3.v9.ref = ((fun x v => Host.reduceAdd x v reducesTo_S100000x64_S64_d0 h_S_)) (R V main_call3.v6.ref) (R V main_call3.cst_2.ref) :=
  (after_binary hW V 102 _ _ _ _ _ _ _ rfl (by decide) (by decide) (by decide)).trans rfl
theorem rd_main_call3_v10 : R V main_call3.v10.ref = ((broadcastInDim S64 ![] bcast_S_S64)) (R V main_call3.v8.ref) :=
  (after_unary hW V 103 _ _ _ _ _ rfl (by decide) (by decide)).trans rfl
theorem rd_main_call3_v11 : R V main_call3.v11.ref = (Host.divf) (R V main_call3.v9.ref) (R V main_call3.v10.ref) :=
  (after_binary hW V 104 _ _ _ _ _ _ _ rfl (by decide) (by decide) (by decide)).trans rfl
theorem rd_main_call3_cst_3 : R V main_call3.cst_3.ref = (constant S_ .f32 0x00000000#32) :=
  (after_nullary hW V 105 _ _ _ rfl (by decide)).trans rfl
theorem rd_main_call3_v12 : R V main_call3.v12.ref = ((cmpf .ogt)) (R V main_call3.v8.ref) (R V main_call3.cst_3.ref) :=
  (after_binary hW V 106 _ _ _ _ _ _ _ rfl (by decide) (by decide) (by decide)).trans rfl
theorem rd_main_call3_cst_4 : R V main_call3.cst_4.ref = (constant S_ .f32 0x7FC00000#32) :=
  (after_nullary hW V 107 _ _ _ rfl (by decide)).trans rfl
theorem rd_main_call3_call0_v0 : R V main_call3.call0.v0.ref = (id) (R V main_call3.cst_4.ref) :=
  (after_unary hW V 108 _ _ _ _ _ rfl (by decide) (by decide)).trans rfl
theorem rd_main_call3_call0_v1 : R V main_call3.call0.v1.ref = ((broadcastInDim S64 ![] bcast_S_S64)) (R V main_call3.call0.v0.ref) :=
  (after_unary hW V 109 _ _ _ _ _ rfl (by decide) (by decide)).trans rfl
theorem rd_main_call3_call0_v2 : R V main_call3.call0.v2.ref = ((fun p a b => select (broadcastInDim S64 ![] bcast_S_S64 p) a b)) (R V main_call3.v12.ref) (R V main_call3.v11.ref) (R V main_call3.call0.v1.ref) :=
  (after_ternary hW V 110 _ _ _ _ _ _ _ _ _ rfl (by decide) (by decide) (by decide) (by decide)).trans rfl
theorem rd_main_v55 : R V main_v55 = ((broadcastInDim S1x64 ![1] bcast_S64_S1x64_1 : (⟨S64, .f32⟩ : BufTy).Contents (Elt F) → (⟨S1x64, .f32⟩ : BufTy).Contents (Elt F))) (R V main_v53) :=
  (after_unary hW V 111 _ _ _ _ _ rfl (by decide) (by decide)).trans rfl
theorem rd_main_v56 : R V main_v56 = ((broadcastInDim S100000x64 ![0, 1] bcast_S1x64_S100000x64_0_1 : (⟨S1x64, .f32⟩ : BufTy).Contents (Elt F) → (⟨S100000x64, .f32⟩ : BufTy).Contents (Elt F))) (R V main_v55) :=
  (after_unary hW V 112 _ _ _ _ _ rfl (by decide) (by decide)).trans rfl
theorem rd_main_v57 : R V main_v57 = ((subf : (⟨S100000x64, .f32⟩ : BufTy).Contents (Elt F) → (⟨S100000x64, .f32⟩ : BufTy).Contents (Elt F) → (⟨S100000x64, .f32⟩ : BufTy).Contents (Elt F))) (R V main_v50) (R V main_v56) :=
  (after_binary hW V 113 _ _ _ _ _ _ _ rfl (by decide) (by decide) (by decide)).trans rfl
theorem rd_main_cst_8 : R V main_cst_8 = (constant S_ .f32 0x3727C5AC#32) :=
  (after_nullary hW V 114 _ _ _ rfl (by decide)).trans rfl
theorem rd_main_v58 : R V main_v58 = ((broadcastInDim S64 ![] bcast_S_S64 : (⟨S_, .f32⟩ : BufTy).Contents (Elt F) → (⟨S64, .f32⟩ : BufTy).Contents (Elt F))) (R V main_cst_8) :=
  (after_unary hW V 115 _ _ _ _ _ rfl (by decide) (by decide)).trans rfl
theorem rd_main_v59 : R V main_v59 = ((addf : (⟨S64, .f32⟩ : BufTy).Contents (Elt F) → (⟨S64, .f32⟩ : BufTy).Contents (Elt F) → (⟨S64, .f32⟩ : BufTy).Contents (Elt F))) (R V main_v54) (R V main_v58) :=
  (after_binary hW V 116 _ _ _ _ _ _ _ rfl (by decide) (by decide) (by decide)).trans rfl
theorem rd_main_v60 : R V main_v60 = ((Host.rsqrt : (⟨S64, .f32⟩ : BufTy).Contents (Elt F) → (⟨S64, .f32⟩ : BufTy).Contents (Elt F))) (R V main_v59) :=
  (after_unary hW V 117 _ _ _ _ _ rfl (by decide) (by decide)).trans rfl
theorem rd_main_v61 : R V main_v61 = ((broadcastInDim S1x64 ![1] bcast_S64_S1x64_1 : (⟨S64, .f32⟩ : BufTy).Contents (Elt F) → (⟨S1x64, .f32⟩ : BufTy).Contents (Elt F))) (R V main_v60) :=
  (after_unary hW V 118 _ _ _ _ _ rfl (by decide) (by decide)).trans rfl
theorem rd_main_v62 : R V main_v62 = ((broadcastInDim S100000x64 ![0, 1] bcast_S1x64_S100000x64_0_1 : (⟨S1x64, .f32⟩ : BufTy).Contents (Elt F) → (⟨S100000x64, .f32⟩ : BufTy).Contents (Elt F))) (R V main_v61) :=
  (after_unary hW V 119 _ _ _ _ _ rfl (by decide) (by decide)).trans rfl
theorem rd_main_v63 : R V main_v63 = ((mulf : (⟨S100000x64, .f32⟩ : BufTy).Contents (Elt F) → (⟨S100000x64, .f32⟩ : BufTy).Contents (Elt F) → (⟨S100000x64, .f32⟩ : BufTy).Contents (Elt F))) (R V main_v57) (R V main_v62) :=
  (after_binary hW V 120 _ _ _ _ _ _ _ rfl (by decide) (by decide) (by decide)).trans rfl
theorem rd_main_v64 : R V main_v64 = ((broadcastInDim S1x64 ![1] bcast_S64_S1x64_1 : (⟨S64, .f32⟩ : BufTy).Contents (Elt F) → (⟨S1x64, .f32⟩ : BufTy).Contents (Elt F))) (R V main_arg11) :=
  (after_unary hW V 121 _ _ _ _ _ rfl (by decide) (by decide)).trans rfl
theorem rd_main_v65 : R V main_v65 = ((broadcastInDim S100000x64 ![0, 1] bcast_S1x64_S100000x64_0_1 : (⟨S1x64, .f32⟩ : BufTy).Contents (Elt F) → (⟨S100000x64, .f32⟩ : BufTy).Contents (Elt F))) (R V main_v64) :=
  (after_unary hW V 122 _ _ _ _ _ rfl (by decide) (by decide)).trans rfl
theorem rd_main_v66 : R V main_v66 = ((mulf : (⟨S100000x64, .f32⟩ : BufTy).Contents (Elt F) → (⟨S100000x64, .f32⟩ : BufTy).Contents (Elt F) → (⟨S100000x64, .f32⟩ : BufTy).Contents (Elt F))) (R V main_v63) (R V main_v65) :=
  (after_binary hW V 123 _ _ _ _ _ _ _ rfl (by decide) (by decide) (by decide)).trans rfl
theorem rd_main_v67 : R V main_v67 = ((broadcastInDim S1x64 ![1] bcast_S64_S1x64_1 : (⟨S64, .f32⟩ : BufTy).Contents (Elt F) → (⟨S1x64, .f32⟩ : BufTy).Contents (Elt F))) (R V main_arg12) :=
  (after_unary hW V 124 _ _ _ _ _ rfl (by decide) (by decide)).trans rfl
theorem rd_main_v68 : R V main_v68 = ((broadcastInDim S100000x64 ![0, 1] bcast_S1x64_S100000x64_0_1 : (⟨S1x64, .f32⟩ : BufTy).Contents (Elt F) → (⟨S100000x64, .f32⟩ : BufTy).Contents (Elt F))) (R V main_v67) :=
  (after_unary hW V 125 _ _ _ _ _ rfl (by decide) (by decide)).trans rfl
theorem rd_main_v69 : R V main_v69 = ((addf : (⟨S100000x64, .f32⟩ : BufTy).Contents (Elt F) → (⟨S100000x64, .f32⟩ : BufTy).Contents (Elt F) → (⟨S100000x64, .f32⟩ : BufTy).Contents (Elt F))) (R V main_v66) (R V main_v68) :=
  (after_binary hW V 126 _ _ _ _ _ _ _ rfl (by decide) (by decide) (by decide)).trans rfl
theorem rd_arg0 : R V main_arg0 = V (Proc.devRef .tc main_arg0) := after_of_not_written hW V main_arg0 (by decide)
theorem rd_arg1 : R V main_arg1 = V (Proc.devRef .tc main_arg1) := after_of_not_written hW V main_arg1 (by decide)
theorem rd_arg2 : R V main_arg2 = V (Proc.devRef .tc main_arg2) := after_of_not_written hW V main_arg2 (by decide)
theorem rd_arg3 : R V main_arg3 = V (Proc.devRef .tc main_arg3) := after_of_not_written hW V main_arg3 (by decide)
theorem rd_arg4 : R V main_arg4 = V (Proc.devRef .tc main_arg4) := after_of_not_written hW V main_arg4 (by decide)
theorem rd_arg5 : R V main_arg5 = V (Proc.devRef .tc main_arg5) := after_of_not_written hW V main_arg5 (by decide)
theorem rd_arg6 : R V main_arg6 = V (Proc.devRef .tc main_arg6) := after_of_not_written hW V main_arg6 (by decide)
theorem rd_arg7 : R V main_arg7 = V (Proc.devRef .tc main_arg7) := after_of_not_written hW V main_arg7 (by decide)
theorem rd_arg8 : R V main_arg8 = V (Proc.devRef .tc main_arg8) := after_of_not_written hW V main_arg8 (by decide)
theorem rd_arg9 : R V main_arg9 = V (Proc.devRef .tc main_arg9) := after_of_not_written hW V main_arg9 (by decide)
theorem rd_arg10 : R V main_arg10 = V (Proc.devRef .tc main_arg10) := after_of_not_written hW V main_arg10 (by decide)
theorem rd_arg11 : R V main_arg11 = V (Proc.devRef .tc main_arg11) := after_of_not_written hW V main_arg11 (by decide)
theorem rd_arg12 : R V main_arg12 = V (Proc.devRef .tc main_arg12) := after_of_not_written hW V main_arg12 (by decide)

end Cert.ReferenceIdeal.RefRun

end
-- ==== Proof.RefStages.lean ====
/- The reference's line in seven stages — the neighbour aggregate; the convolution; a column mean; a column variance (with its
   guard on the divisor); the normalisation; the rectifier and residual; the two-layer network — each the composition of its
   operations, and each stage's buffer after the line the stage's function of the buffers it starts from. The second
   normalisation repeats the mean, variance and normalisation stages on other buffers. -/
import proofs.«149204_j28372553957731_2_alg».proof.Proof.RefRead

set_option maxRecDepth 8192

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

def aggR (x : (⟨S100000x64, .f32⟩ : BufTy).Contents (Elt F)) (ei : (⟨S2x1600000, .i32⟩ : BufTy).Contents (Elt F)) : (⟨S100000x64, .f32⟩ : BufTy).Contents (Elt F) :=
  ((((fun x i u => Host.scatterAdd scatter_S100000x64_S1600000x1_S1600000x64_1_0_0_1 x i u) : (⟨S100000x64, .f32⟩ : BufTy).Contents (Elt F) → (⟨S1600000x1, .i32⟩ : BufTy).Contents (Elt F) → (⟨S1600000x64, .f32⟩ : BufTy).Contents (Elt F) → (⟨S100000x64, .f32⟩ : BufTy).Contents (Elt F))) (((broadcastInDim S100000x64 ![] bcast_S_S100000x64 : (⟨S_, .f32⟩ : BufTy).Contents (Elt F) → (⟨S100000x64, .f32⟩ : BufTy).Contents (Elt F))) ((constant S_ .f32 0x00000000#32))) (((broadcastInDim S1600000x1 ![0] bcast_S1600000_S1600000x1_0 : (⟨S1600000, .i32⟩ : BufTy).Contents (Elt F) → (⟨S1600000x1, .i32⟩ : BufTy).Contents (Elt F))) (shapeCast S1600000 ((((extractStridedSlice S1x1600000 ![1, 0] · slices_S2x1600000_S1x1600000_1_0) : (⟨S2x1600000, .i32⟩ : BufTy).Contents (Elt F) → (⟨S1x1600000, .i32⟩ : BufTy).Contents (Elt F))) ei) shapeCasts_S1x1600000_S1600000)) ((((fun x i => Host.gather gather_S100000x64_S1600000x1_S1600000x64_1_0_n_n_0_1_164 x i) : (⟨S100000x64, .f32⟩ : BufTy).Contents (Elt F) → (⟨S1600000x1, .i32⟩ : BufTy).Contents (Elt F) → (⟨S1600000x64, .f32⟩ : BufTy).Contents (Elt F))) x (((broadcastInDim S1600000x1 ![0] bcast_S1600000_S1600000x1_0 : (⟨S1600000, .i32⟩ : BufTy).Contents (Elt F) → (⟨S1600000x1, .i32⟩ : BufTy).Contents (Elt F))) (((select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F))) (((cmpi .slt : (⟨S1600000, .i32⟩ : BufTy).Contents (Elt F) → (⟨S1600000, .i32⟩ : BufTy).Contents (Elt F) → (⟨S1600000, .i1⟩ : BufTy).Contents (Elt F))) (shapeCast S1600000 ((((extractStridedSlice S1x1600000 ![0, 0] · slices_S2x1600000_S1x1600000_0_0) : (⟨S2x1600000, .i32⟩ : BufTy).Contents (Elt F) → (⟨S1x1600000, .i32⟩ : BufTy).Contents (Elt F))) ei) shapeCasts_S1x1600000_S1600000) (((broadcastInDim S1600000 ![] bcast_S_S1600000 : (⟨S_, .i32⟩ : BufTy).Contents (Elt F) → (⟨S1600000, .i32⟩ : BufTy).Contents (Elt F))) ((constantI S_ 32 0#32)))) (((addi : (⟨S1600000, .i32⟩ : BufTy).Contents (Elt F) → (⟨S1600000, .i32⟩ : BufTy).Contents (Elt F) → (⟨S1600000, .i32⟩ : BufTy).Contents (Elt F))) (shapeCast S1600000 ((((extractStridedSlice S1x1600000 ![0, 0] · slices_S2x1600000_S1x1600000_0_0) : (⟨S2x1600000, .i32⟩ : BufTy).Contents (Elt F) → (⟨S1x1600000, .i32⟩ : BufTy).Contents (Elt F))) ei) shapeCasts_S1x1600000_S1600000) (((broadcastInDim S1600000 ![] bcast_S_S1600000 : (⟨S_, .i32⟩ : BufTy).Contents (Elt F) → (⟨S1600000, .i32⟩ : BufTy).Contents (Elt F))) ((constantI S_ 32 100000#32)))) (shapeCast S1600000 ((((extractStridedSlice S1x1600000 ![0, 0] · slices_S2x1600000_S1x1600000_0_0) : (⟨S2x1600000, .i32⟩ : BufTy).Contents (Elt F) → (⟨S1x1600000, .i32⟩ : BufTy).Contents (Elt F))) ei) shapeCasts_S1x1600000_S1600000)))))

def hT (x a : (⟨S100000x64, .f32⟩ : BufTy).Contents (Elt F)) (wr wn : (⟨S64x64, .f32⟩ : BufTy).Contents (Elt F)) (bg : (⟨S64, .f32⟩ : BufTy).Contents (Elt F)) : (⟨S100000x64, .f32⟩ : BufTy).Contents (Elt F) :=
  (((addf : (⟨S100000x64, .f32⟩ : BufTy).Contents (Elt F) → (⟨S100000x64, .f32⟩ : BufTy).Contents (Elt F) → (⟨S100000x64, .f32⟩ : BufTy).Contents (Elt F))) (((addf : (⟨S100000x64, .f32⟩ : BufTy).Contents (Elt F) → (⟨S100000x64, .f32⟩ : BufTy).Contents (Elt F) → (⟨S100000x64, .f32⟩ : BufTy).Contents (Elt F))) ((((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F))) a wn) ((((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F))) x wr)) (((broadcastInDim S100000x64 ![0, 1] bcast_S1x64_S100000x64_0_1 : (⟨S1x64, .f32⟩ : BufTy).Contents (Elt F) → (⟨S100000x64, .f32⟩ : BufTy).Contents (Elt F))) (((broadcastInDim S1x64 ![1] bcast_S64_S1x64_1 : (⟨S64, .f32⟩ : BufTy).Contents (Elt F) → (⟨S1x64, .f32⟩ : BufTy).Contents (Elt F))) bg)))

def meanT (h : (⟨S100000x64, .f32⟩ : BufTy).Contents (Elt F)) : (⟨S64, .f32⟩ : BufTy).Contents (Elt F) :=
  (((Host.divf : (⟨S64, .f32⟩ : BufTy).Contents (Elt F) → (⟨S64, .f32⟩ : BufTy).Contents (Elt F) → (⟨S64, .f32⟩ : BufTy).Contents (Elt F))) ((((fun x v => Host.reduceAdd x v reducesTo_S100000x64_S64_d0 h_S_) : (⟨S100000x64, .f32⟩ : BufTy).Contents (Elt F) → (⟨S_, .f32⟩ : BufTy).Contents (Elt F) → (⟨S64, .f32⟩ : BufTy).Contents (Elt F))) h ((constant S_ .f32 0x00000000#32))) (((broadcastInDim S64 ![] bcast_S_S64 : (⟨S_, .f32⟩ : BufTy).Contents (Elt F) → (⟨S64, .f32⟩ : BufTy).Contents (Elt F))) ((constant S_ .f32 0x47C35000#32))))

def varT (h : (⟨S100000x64, .f32⟩ : BufTy).Contents (Elt F)) : (⟨S64, .f32⟩ : BufTy).Contents (Elt F) :=
  (((fun p a b => select (broadcastInDim S64 ![] bcast_S_S64 p) a b)) (((cmpf (F := F) .ogt)) ((subf) ((constant S_ .f32 0x47C35000#32)) (((sitofp .f32)) ((constantI S_ 32 0#32)))) ((constant S_ .f32 0x00000000#32))) ((Host.divf) (((fun x v => Host.reduceAdd x v reducesTo_S100000x64_S64_d0 h_S_)) ((mulf) ((subf) h (((broadcastInDim S100000x64 ![0, 1] bcast_S1x64_S100000x64_0_1)) ((Host.divf) (((broadcastInDim S1x64 ![1] bcast_S64_S1x64_1)) (((fun x v => Host.reduceAdd x v reducesTo_S100000x64_S64_d0 h_S_)) h ((constant S_ .f32 0x00000000#32)))) (((broadcastInDim S1x64 ![] bcast_S_S1x64)) ((constant S_ .f32 0x47C35000#32)))))) ((subf) h (((broadcastInDim S100000x64 ![0, 1] bcast_S1x64_S100000x64_0_1)) ((Host.divf) (((broadcastInDim S1x64 ![1] bcast_S64_S1x64_1)) (((fun x v => Host.reduceAdd x v reducesTo_S100000x64_S64_d0 h_S_)) h ((constant S_ .f32 0x00000000#32)))) (((broadcastInDim S1x64 ![] bcast_S_S1x64)) ((constant S_ .f32 0x47C35000#32))))))) ((constant S_ .f32 0x00000000#32))) (((broadcastInDim S64 ![] bcast_S_S64)) ((subf) ((constant S_ .f32 0x47C35000#32)) (((sitofp .f32)) ((constantI S_ 32 0#32)))))) (((broadcastInDim S64 ![] bcast_S_S64)) ((id) ((constant S_ .f32 0x7FC00000#32)))))

def bnT (h : (⟨S100000x64, .f32⟩ : BufTy).Contents (Elt F)) (mu va g b : (⟨S64, .f32⟩ : BufTy).Contents (Elt F)) : (⟨S100000x64, .f32⟩ : BufTy).Contents (Elt F) :=
  (((addf : (⟨S100000x64, .f32⟩ : BufTy).Contents (Elt F) → (⟨S100000x64, .f32⟩ : BufTy).Contents (Elt F) → (⟨S100000x64, .f32⟩ : BufTy).Contents (Elt F))) (((mulf : (⟨S100000x64, .f32⟩ : BufTy).Contents (Elt F) → (⟨S100000x64, .f32⟩ : BufTy).Contents (Elt F) → (⟨S100000x64, .f32⟩ : BufTy).Contents (Elt F))) (((mulf : (⟨S100000x64, .f32⟩ : BufTy).Contents (Elt F) → (⟨S100000x64, .f32⟩ : BufTy).Contents (Elt F) → (⟨S100000x64, .f32⟩ : BufTy).Contents (Elt F))) (((subf : (⟨S100000x64, .f32⟩ : BufTy).Contents (Elt F) → (⟨S100000x64, .f32⟩ : BufTy).Contents (Elt F) → (⟨S100000x64, .f32⟩ : BufTy).Contents (Elt F))) h (((broadcastInDim S100000x64 ![0, 1] bcast_S1x64_S100000x64_0_1 : (⟨S1x64, .f32⟩ : BufTy).Contents (Elt F) → (⟨S100000x64, .f32⟩ : BufTy).Contents (Elt F))) (((broadcastInDim S1x64 ![1] bcast_S64_S1x64_1 : (⟨S64, .f32⟩ : BufTy).Contents (Elt F) → (⟨S1x64, .f32⟩ : BufTy).Contents (Elt F))) mu))) (((broadcastInDim S100000x64 ![0, 1] bcast_S1x64_S100000x64_0_1 : (⟨S1x64, .f32⟩ : BufTy).Contents (Elt F) → (⟨S100000x64, .f32⟩ : BufTy).Contents (Elt F))) (((broadcastInDim S1x64 ![1] bcast_S64_S1x64_1 : (⟨S64, .f32⟩ : BufTy).Contents (Elt F) → (⟨S1x64, .f32⟩ : BufTy).Contents (Elt F))) (((Host.rsqrt : (⟨S64, .f32⟩ : BufTy).Contents (Elt F) → (⟨S64, .f32⟩ : BufTy).Contents (Elt F))) (((addf : (⟨S64, .f32⟩ : BufTy).Contents (Elt F) → (⟨S64, .f32⟩ : BufTy).Contents (Elt F) → (⟨S64, .f32⟩ : BufTy).Contents (Elt F))) va (((broadcastInDim S64 ![] bcast_S_S64 : (⟨S_, .f32⟩ : BufTy).Contents (Elt F) → (⟨S64, .f32⟩ : BufTy).Contents (Elt F))) ((constant S_ .f32 0x3727C5AC#32)))))))) (((broadcastInDim S100000x64 ![0, 1] bcast_S1x64_S100000x64_0_1 : (⟨S1x64, .f32⟩ : BufTy).Contents (Elt F) → (⟨S100000x64, .f32⟩ : BufTy).Contents (Elt F))) (((broadcastInDim S1x64 ![1] bcast_S64_S1x64_1 : (⟨S64, .f32⟩ : BufTy).Contents (Elt F) → (⟨S1x64, .f32⟩ : BufTy).Contents (Elt F))) g))) (((broadcastInDim S100000x64 ![0, 1] bcast_S1x64_S100000x64_0_1 : (⟨S1x64, .f32⟩ : BufTy).Contents (Elt F) → (⟨S100000x64, .f32⟩ : BufTy).Contents (Elt F))) (((broadcastInDim S1x64 ![1] bcast_S64_S1x64_1 : (⟨S64, .f32⟩ : BufTy).Contents (Elt F) → (⟨S1x64, .f32⟩ : BufTy).Contents (Elt F))) b)))

def actT (z x : (⟨S100000x64, .f32⟩ : BufTy).Contents (Elt F)) : (⟨S100000x64, .f32⟩ : BufTy).Contents (Elt F) :=
  (((addf : (⟨S100000x64, .f32⟩ : BufTy).Contents (Elt F) → (⟨S100000x64, .f32⟩ : BufTy).Contents (Elt F) → (⟨S100000x64, .f32⟩ : BufTy).Contents (Elt F))) ((maximumf) z (((broadcastInDim S100000x64 ![] bcast_S_S100000x64)) ((constant S_ .f32 0x00000000#32)))) x)

def ffnT (a : (⟨S100000x64, .f32⟩ : BufTy).Contents (Elt F)) (w1 : (⟨S64x128, .f32⟩ : BufTy).Contents (Elt F)) (b1 : (⟨S128, .f32⟩ : BufTy).Contents (Elt F)) (w2 : (⟨S128x64, .f32⟩ : BufTy).Contents (Elt F)) (b2 : (⟨S64, .f32⟩ : BufTy).Contents (Elt F)) : (⟨S100000x64, .f32⟩ : BufTy).Contents (Elt F) :=
  (((addf : (⟨S100000x64, .f32⟩ : BufTy).Contents (Elt F) → (⟨S100000x64, .f32⟩ : BufTy).Contents (Elt F) → (⟨S100000x64, .f32⟩ : BufTy).Contents (Elt F))) (((addf : (⟨S100000x64, .f32⟩ : BufTy).Contents (Elt F) → (⟨S100000x64, .f32⟩ : BufTy).Contents (Elt F) → (⟨S100000x64, .f32⟩ : BufTy).Contents (Elt F))) ((((fun l r => Host.dotGeneral dot_S100000x128_S128x64_S100000x64_1_0_0_1_n_n none l r) : (⟨S100000x128, .f32⟩ : BufTy).Contents (Elt F) → (⟨S128x64, .f32⟩ : BufTy).Contents (Elt F) → (⟨S100000x64, .f32⟩ : BufTy).Contents (Elt F))) ((maximumf) (((addf : (⟨S100000x128, .f32⟩ : BufTy).Contents (Elt F) → (⟨S100000x128, .f32⟩ : BufTy).Contents (Elt F) → (⟨S100000x128, .f32⟩ : BufTy).Contents (Elt F))) ((((fun l r => Host.dotGeneral dot_S100000x64_S64x128_S100000x128_1_0_0_1_n_n none l r) : (⟨S100000x64, .f32⟩ : BufTy).Contents (Elt F) → (⟨S64x128, .f32⟩ : BufTy).Contents (Elt F) → (⟨S100000x128, .f32⟩ : BufTy).Contents (Elt F))) a w1) (((broadcastInDim S100000x128 ![0, 1] bcast_S1x128_S100000x128_0_1 : (⟨S1x128, .f32⟩ : BufTy).Contents (Elt F) → (⟨S100000x128, .f32⟩ : BufTy).Contents (Elt F))) (((broadcastInDim S1x128 ![1] bcast_S128_S1x128_1 : (⟨S128, .f32⟩ : BufTy).Contents (Elt F) → (⟨S1x128, .f32⟩ : BufTy).Contents (Elt F))) b1))) (((broadcastInDim S100000x128 ![] bcast_S_S100000x128)) ((constant S_ .f32 0x00000000#32)))) w2) (((broadcastInDim S100000x64 ![0, 1] bcast_S1x64_S100000x64_0_1 : (⟨S1x64, .f32⟩ : BufTy).Contents (Elt F) → (⟨S100000x64, .f32⟩ : BufTy).Contents (Elt F))) (((broadcastInDim S1x64 ![1] bcast_S64_S1x64_1 : (⟨S64, .f32⟩ : BufTy).Contents (Elt F) → (⟨S1x64, .f32⟩ : BufTy).Contents (Elt F))) b2))) a)

variable (V : Valuation τ sig (Elt F))

theorem rd_main_v23 : R V main_v23 = ((fun p a b => select (broadcastInDim S64 ![] bcast_S_S64 p) a b)) (R V main_call0.v12.ref) (R V main_call0.v11.ref) (R V main_call0.call0.v1.ref) := rd_main_call0_call0_v2 V
theorem rd_main_v39 : R V main_v39 = (maximumf) (R V main_v38) (R V main_call1.v0.ref) := rd_main_call1_v1 V
theorem rd_main_v45 : R V main_v45 = (maximumf) (R V main_v44) (R V main_call2.v0.ref) := rd_main_call2_v1 V
theorem rd_main_v54 : R V main_v54 = ((fun p a b => select (broadcastInDim S64 ![] bcast_S_S64 p) a b)) (R V main_call3.v12.ref) (R V main_call3.v11.ref) (R V main_call3.call0.v1.ref) := rd_main_call3_call0_v2 V
theorem st_aggR : R V main_v13 = aggR (R V main_arg0) (R V main_arg1) := by
  unfold aggR
  rw [rd_main_v13 V, rd_main_v12 V, rd_main_v11 V, rd_main_cst V, rd_main_v10 V, rd_main_v9 V, rd_main_v8 V, rd_main_v7 V, rd_main_v6 V, rd_main_c_0 V, rd_main_v5 V, rd_main_v4 V, rd_main_c V, rd_main_v3 V, rd_main_v2 V, rd_main_v1 V, rd_main_v0 V]
theorem st_hT : R V main_v19 = hT (R V main_arg0) (R V main_v13) (R V main_arg2) (R V main_arg3) (R V main_arg4) := by
  unfold hT
  rw [rd_main_v19 V, rd_main_v18 V, rd_main_v17 V, rd_main_v16 V, rd_main_v15 V, rd_main_v14 V]
theorem st_meanT : R V main_v22 = meanT (R V main_v19) := by
  unfold meanT
  rw [rd_main_v22 V, rd_main_v21 V, rd_main_cst_2 V, rd_main_v20 V, rd_main_cst_1 V]
theorem st_varT : R V main_v23 = varT (R V main_v19) := by
  unfold varT
  rw [rd_main_v23 V, rd_main_call0_call0_v1 V, rd_main_call0_call0_v0 V, rd_main_call0_cst_4 V, rd_main_call0_v12 V, rd_main_call0_cst_3 V, rd_main_call0_v11 V, rd_main_call0_v10 V, rd_main_call0_v9 V, rd_main_call0_cst_2 V, rd_main_call0_v8 V, rd_main_call0_cst_1 V, rd_main_call0_v7 V, rd_main_call0_v6 V, rd_main_call0_v5 V, rd_main_call0_v4 V, rd_main_call0_v3 V, rd_main_call0_v2 V, rd_main_call0_cst_0 V, rd_main_call0_v1 V, rd_main_call0_v0 V, rd_main_call0_cst V, rd_main_c_3 V]
theorem st_bnT : R V main_v38 = bnT (R V main_v19) (R V main_v22) (R V main_v23) (R V main_arg5) (R V main_arg6) := by
  unfold bnT
  rw [rd_main_v38 V, rd_main_v37 V, rd_main_v36 V, rd_main_v35 V, rd_main_v34 V, rd_main_v33 V, rd_main_v32 V, rd_main_v31 V, rd_main_v30 V, rd_main_v29 V, rd_main_v28 V, rd_main_v27 V, rd_main_cst_4 V, rd_main_v26 V, rd_main_v25 V, rd_main_v24 V]
theorem st_actT : R V main_v40 = actT (R V main_v38) (R V main_arg0) := by
  unfold actT
  rw [rd_main_v40 V, rd_main_v39 V, rd_main_call1_v0 V, rd_main_call1_cst V]
theorem st_ffnT : R V main_v50 = ffnT (R V main_v40) (R V main_arg7) (R V main_arg8) (R V main_arg9) (R V main_arg10) := by
  unfold ffnT
  rw [rd_main_v50 V, rd_main_v49 V, rd_main_v48 V, rd_main_v47 V, rd_main_v46 V, rd_main_v45 V, rd_main_call2_v0 V, rd_main_call2_cst V, rd_main_v44 V, rd_main_v43 V, rd_main_v42 V, rd_main_v41 V]
theorem st_meanT2 : R V main_v53 = meanT (R V main_v50) := by
  unfold meanT
  rw [rd_main_v53 V, rd_main_v52 V, rd_main_cst_6 V, rd_main_v51 V, rd_main_cst_5 V]
theorem st_varT2 : R V main_v54 = varT (R V main_v50) := by
  unfold varT
  rw [rd_main_v54 V, rd_main_call3_call0_v1 V, rd_main_call3_call0_v0 V, rd_main_call3_cst_4 V, rd_main_call3_v12 V, rd_main_call3_cst_3 V, rd_main_call3_v11 V, rd_main_call3_v10 V, rd_main_call3_v9 V, rd_main_call3_cst_2 V, rd_main_call3_v8 V, rd_main_call3_cst_1 V, rd_main_call3_v7 V, rd_main_call3_v6 V, rd_main_call3_v5 V, rd_main_call3_v4 V, rd_main_call3_v3 V, rd_main_call3_v2 V, rd_main_call3_cst_0 V, rd_main_call3_v1 V, rd_main_call3_v0 V, rd_main_call3_cst V, rd_main_c_7 V]
theorem st_bnT2 : R V main_v69 = bnT (R V main_v50) (R V main_v53) (R V main_v54) (R V main_arg11) (R V main_arg12) := by
  unfold bnT
  rw [rd_main_v69 V, rd_main_v68 V, rd_main_v67 V, rd_main_v66 V, rd_main_v65 V, rd_main_v64 V, rd_main_v63 V, rd_main_v62 V, rd_main_v61 V, rd_main_v60 V, rd_main_v59 V, rd_main_v58 V, rd_main_cst_8 V, rd_main_v57 V, rd_main_v56 V, rd_main_v55 V]

end Cert.ReferenceIdeal.RefRun

end
-- ==== Proof.RefValue.lean ====
/- The reference's stages read at an index on the extended reals, and its result as the specification's two-pass function of
   the argument arrays. A vector laid along the columns and broadcast over the rows reads its entry at the column; the host's
   column reduce is its initial value (zero) plus the sum over the rows; its products are sums over the contracted index.
   In the variance the divisor is `100000 − 0`, the guard "divisor > 0" holds, and the not-a-number branch is never taken. -/
import proofs.«149204_j28372553957731_2_alg».proof.Proof.RefStages
import proofs.«149204_j28372553957731_2_alg».proof.Proof.LibDot
import proofs.«149204_j28372553957731_2_alg».proof.Proof.LibRowSum
import proofs.«149204_j28372553957731_2_alg».proof.Proof.Spec
import Idealize.ShloMosaic.Lib.ValueIdx
import Idealize.ShloMosaic.Lib.ValueLayout

set_option maxRecDepth 8192

noncomputable section

namespace Cert.ReferenceIdeal.RefRun

open Cert.ReferenceIdeal Cert.ReferenceIdeal.Gen Idealize.ShloMosaic Idealize.ShloMosaic.TcCoe Idealize.SL.Sem Idealize.ShloMosaic.StableHlo
open Idealize.ShloMosaic.ValueIdx
open Cert.Spec (Tab conv csum csq meanR varR bnR act ffn rOut Nr ε)

/-! ## Layout and reduction forms read at an index -/

theorem bcast_scalar_apply {α : Type} {t : Shape} (h : S_.BroadcastsInDim t ![]) (x : S_.Idx → α) (j : t.Idx) :
    broadcastInDim t (no_index ![]) h x j = x ix0 := congrArg x (funext fun a => a.elim0)

theorem bc_64_1x64_apply {α : Type} (v : S64.Idx → α) (u : Fin 1) (k : Fin 64) :
    broadcastInDim S1x64 (no_index ![1]) bcast_S64_S1x64_1 v (ix2 u k) = v (ix1 k) := by
  unfold broadcastInDim
  refine congrArg v (idx1_ext _ k ?_)
  rw [dif_neg (by decide)]
  rfl
theorem bc_128_1x128_apply {α : Type} (v : S128.Idx → α) (u : Fin 1) (k : Fin 128) :
    broadcastInDim S1x128 (no_index ![1]) bcast_S128_S1x128_1 v (ix2 u k) = v (ix1 k) := by
  unfold broadcastInDim
  refine congrArg v (idx1_ext _ k ?_)
  rw [dif_neg (by decide)]
  rfl
theorem bc_1x64_Nx64_apply {α : Type} (w : S1x64.Idx → α) (i : Fin 100000) (k : Fin 64) :
    broadcastInDim S100000x64 (no_index ![0, 1]) bcast_S1x64_S100000x64_0_1 w (ix2 i k) = w (ix2 (0 : Fin 1) k) := by
  unfold broadcastInDim
  refine congrArg w (idx2_ext _ 0 k ?_ ?_)
  · rw [dif_pos (by decide)]; rfl
  · rw [dif_neg (by decide)]; rfl
theorem bc_1x128_Nx128_apply {α : Type} (w : S1x128.Idx → α) (i : Fin 100000) (k : Fin 128) :
    broadcastInDim S100000x128 (no_index ![0, 1]) bcast_S1x128_S100000x128_0_1 w (ix2 i k) = w (ix2 (0 : Fin 1) k) := by
  unfold broadcastInDim
  refine congrArg w (idx2_ext _ 0 k ?_ ?_)
  · rw [dif_pos (by decide)]; rfl
  · rw [dif_neg (by decide)]; rfl

theorem reduce_cols_apply (x : FVec Ideal S100000x64 .f32) (init : FVec Ideal S_ .f32) (k : Fin 64) :
    Host.reduceAdd x init reducesTo_S100000x64_S64_d0 h_S_ (ix1 k) = init ix0 + ∑ n : Fin 100000, x (ix2 n k) := by
  unfold Host.reduceAdd
  rw [Ideal.hostReduceAdd_def, Ideal.hostReduceAdd_single reducesTo_S100000x64_S64_d0 (by decide) x _ (ix1 k)]
  refine congrArg₂ (· + ·) (congrArg init (eq_ix0 _)) ?_
  exact Finset.sum_congr rfl fun n _ => congrArg x (idx2_ext _ n k rfl rfl)

theorem dotA_plain : Cert.LibDot.Plain dot_S100000x64_S64x64_S100000x64_1_0_0_1_n_n :=
  ⟨rfl, rfl, fun _ _ => rfl, fun _ _ => rfl, fun _ _ => rfl, fun _ _ => rfl⟩
theorem dotB_plain : Cert.LibDot.Plain dot_S100000x64_S64x128_S100000x128_1_0_0_1_n_n :=
  ⟨rfl, rfl, fun _ _ => rfl, fun _ _ => rfl, fun _ _ => rfl, fun _ _ => rfl⟩
theorem dotC_plain : Cert.LibDot.Plain dot_S100000x128_S128x64_S100000x64_1_0_0_1_n_n :=
  ⟨rfl, rfl, fun _ _ => rfl, fun _ _ => rfl, fun _ _ => rfl, fun _ _ => rfl⟩

/-! ## The stages at an index -/

theorem hT_apply (x a : FVec Ideal S100000x64 .f32) (wr wn : FVec Ideal S64x64 .f32) (bg : FVec Ideal S64 .f32) (i : Fin 100000) (k : Fin 64) :
    hT (F := Ideal) x a wr wn bg (ix2 i k) = conv x a wr wn bg i k := by
  unfold hT conv
  simp only [addf_apply, Cert.LibDot.dotGeneral_ix2 dotA_plain, bc_1x64_Nx64_apply, bc_64_1x64_apply]

theorem hostDivf_apply {s : Shape} (a b : FVec Ideal s .f32) (i : s.Idx) : Host.divf a b i = Ideal.div (a i) (b i) := rfl
theorem hostRsqrt_apply {s : Shape} (a : FVec Ideal s .f32) (i : s.Idx) : Host.rsqrt a i = Ideal.rsqrt (a i) := rfl

theorem sitofp_ideal (b : BitVec 32) : FloatOps.sitofp (F := Ideal) .f32 b = ((b.toInt : ℝ) : EReal) := rfl

theorem meanT_apply (h : FVec Ideal S100000x64 .f32) (f : Tab) (hf : ∀ n k, h (ix2 n k) = f n k) (k : Fin 64) :
    meanT (F := Ideal) h (ix1 k) = meanR f k := by
  unfold meanT meanR csum Nr
  simp only [hostDivf_apply, reduce_cols_apply, bcast_scalar_apply, constant_apply, Cert.Consts.ofBits_zero, Cert.Consts.ofBits_rows, zero_add, hf]

theorem varT_apply (h : FVec Ideal S100000x64 .f32) (f : Tab) (hf : ∀ n k, h (ix2 n k) = f n k) (k : Fin 64) :
    varT (F := Ideal) h (ix1 k) = varR f k := by
  have h0 : (((0#32 : BitVec 32).toInt : ℤ) : ℝ) = 0 := by norm_num
  unfold varT varR meanR csum Nr
  simp only [select_apply, cmpf_apply, subf_apply, mulf_apply, hostDivf_apply, reduce_cols_apply, bcast_scalar_apply, bc_64_1x64_apply,
    bc_1x64_Nx64_apply, constant_apply, sitofp_apply, constantI_apply, Cert.Consts.ofBits_zero, Cert.Consts.ofBits_rows, zero_add, hf,
    sitofp_ideal]
  have hs : (((100000 : ℝ) : EReal) - ((((0#32 : BitVec 32).toInt : ℤ) : ℝ) : EReal)) = ((100000 : ℝ) : EReal) := by
    rw [h0, EReal.coe_zero, sub_zero]
  have hg : FloatOps.cmpf (F := Ideal) (φ := .f32) .ogt ((100000 : ℝ) : EReal) (0 : EReal) = 1#1 := by
    show Ideal.cmp .ogt _ _ = _
    unfold Ideal.cmp
    have : (0 : EReal) < ((100000 : ℝ) : EReal) := by exact_mod_cast (by norm_num : (0 : ℝ) < 100000)
    simp [this]
  rw [hs, hg, select_one]

theorem bnT_apply (h : FVec Ideal S100000x64 .f32) (mu va g b : FVec Ideal S64 .f32) (f : Tab) (hf : ∀ n k, h (ix2 n k) = f n k)
    (hmu : ∀ k, mu (ix1 k) = meanR f k) (hva : ∀ k, va (ix1 k) = varR f k) (i : Fin 100000) (k : Fin 64) :
    bnT (F := Ideal) h mu va g b (ix2 i k) = bnR f g b i k := by
  unfold bnT bnR ε
  simp only [addf_apply, mulf_apply, subf_apply, hostRsqrt_apply, bc_1x64_Nx64_apply, bc_64_1x64_apply, bcast_scalar_apply, constant_apply,
    Cert.Consts.ofBits_eps, hf, hmu, hva]

theorem actT_apply (z x : FVec Ideal S100000x64 .f32) (zt : Tab) (hz : ∀ n k, z (ix2 n k) = zt n k) (i : Fin 100000) (k : Fin 64) :
    actT (F := Ideal) z x (ix2 i k) = act zt x i k := by
  unfold actT act
  simp only [addf_apply, maximumf_apply, bcast_scalar_apply, constant_apply, Cert.Consts.ofBits_zero, hz]

theorem ffnT_apply (a : FVec Ideal S100000x64 .f32) (w1 : FVec Ideal S64x128 .f32) (b1 : FVec Ideal S128 .f32) (w2 : FVec Ideal S128x64 .f32)
    (b2 : FVec Ideal S64 .f32) (at' : Tab) (ha : ∀ n k, a (ix2 n k) = at' n k) (i : Fin 100000) (c : Fin 64) :
    ffnT (F := Ideal) a w1 b1 w2 b2 (ix2 i c) = ffn at' w1 b1 w2 b2 i c := by
  unfold ffnT ffn
  simp only [addf_apply, maximumf_apply, Cert.LibDot.dotGeneral_ix2 dotB_plain, Cert.LibDot.dotGeneral_ix2 dotC_plain, bc_1x128_Nx128_apply,
    bc_128_1x128_apply, bc_1x64_Nx64_apply, bc_64_1x64_apply, bcast_scalar_apply, constant_apply, Cert.Consts.ofBits_zero, ha]

/-! ## The reference's result -/

variable (V : Valuation τ sig (Elt Ideal))

theorem ref_value (i : Fin 100000) (k : Fin 64) :
    (R V main_v69 : S100000x64.Idx → EReal) (ix2 i k)
      = rOut (V (Proc.devRef .tc main_arg0)) (aggR (V (Proc.devRef .tc main_arg0)) (V (Proc.devRef .tc main_arg1))) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) i k := by
  have e13 : R V main_v13 = aggR (V (Proc.devRef .tc main_arg0)) (V (Proc.devRef .tc main_arg1)) := by rw [st_aggR, rd_arg0, rd_arg1]
  have e19 : ∀ n j, (R V main_v19 : S100000x64.Idx → EReal) (ix2 n j) = conv (V (Proc.devRef .tc main_arg0)) (aggR (V (Proc.devRef .tc main_arg0)) (V (Proc.devRef .tc main_arg1))) (V (Proc.devRef .tc main_arg2)) (V (Proc.devRef .tc main_arg3)) (V (Proc.devRef .tc main_arg4)) n j := fun n j => by
    rw [st_hT, e13, rd_arg0, rd_arg2, rd_arg3, rd_arg4]; exact hT_apply _ _ _ _ _ n j
  have e38 : ∀ n j, (R V main_v38 : S100000x64.Idx → EReal) (ix2 n j)
      = bnR (conv (V (Proc.devRef .tc main_arg0)) (aggR (V (Proc.devRef .tc main_arg0)) (V (Proc.devRef .tc main_arg1))) (V (Proc.devRef .tc main_arg2)) (V (Proc.devRef .tc main_arg3)) (V (Proc.devRef .tc main_arg4))) (V (Proc.devRef .tc main_arg5)) (V (Proc.devRef .tc main_arg6)) n j := fun n j => by
    rw [st_bnT, rd_arg5, rd_arg6]
    exact bnT_apply _ _ _ _ _ _ e19 (fun k => by rw [st_meanT]; exact meanT_apply _ _ e19 k) (fun k => by rw [st_varT]; exact varT_apply _ _ e19 k) n j
  have e40 : ∀ n j, (R V main_v40 : S100000x64.Idx → EReal) (ix2 n j)
      = act (bnR (conv (V (Proc.devRef .tc main_arg0)) (aggR (V (Proc.devRef .tc main_arg0)) (V (Proc.devRef .tc main_arg1))) (V (Proc.devRef .tc main_arg2)) (V (Proc.devRef .tc main_arg3)) (V (Proc.devRef .tc main_arg4))) (V (Proc.devRef .tc main_arg5)) (V (Proc.devRef .tc main_arg6))) (V (Proc.devRef .tc main_arg0)) n j := fun n j => by
    rw [st_actT, rd_arg0]; exact actT_apply _ _ _ e38 n j
  have e50 : ∀ n j, (R V main_v50 : S100000x64.Idx → EReal) (ix2 n j)
      = ffn (act (bnR (conv (V (Proc.devRef .tc main_arg0)) (aggR (V (Proc.devRef .tc main_arg0)) (V (Proc.devRef .tc main_arg1))) (V (Proc.devRef .tc main_arg2)) (V (Proc.devRef .tc main_arg3)) (V (Proc.devRef .tc main_arg4))) (V (Proc.devRef .tc main_arg5)) (V (Proc.devRef .tc main_arg6))) (V (Proc.devRef .tc main_arg0))) (V (Proc.devRef .tc main_arg7)) (V (Proc.devRef .tc main_arg8)) (V (Proc.devRef .tc main_arg9)) (V (Proc.devRef .tc main_arg10)) n j := fun n j => by
    rw [st_ffnT, rd_arg7, rd_arg8, rd_arg9, rd_arg10]; exact ffnT_apply _ _ _ _ _ _ e40 n j
  rw [st_bnT2, rd_arg11, rd_arg12]
  unfold rOut
  exact bnT_apply _ _ _ _ _ _ e50 (fun k => by rw [st_meanT2]; exact meanT_apply _ _ e50 k) (fun k => by rw [st_varT2]; exact varT_apply _ _ e50 k) i k

end Cert.ReferenceIdeal.RefRun

end
-- ==== Proof.LibBatchNorm.lean ====
/-
  Batch normalisation in its two usual spellings, on the extended reals, for real data.

  Over a finite family `x : ι → ℝ` of `N` values (`N` the number of indices, not zero) write
  `μ = (∑ x) / N`. The TWO-PASS form centres first and takes the mean of the squared deviations,

      (x i − μ) · rsqrt ((∑ (x j − μ)²) / N + ε) · γ + β,

  the ONE-PASS form takes the mean of the squares, subtracts `μ²`, clamps the difference at `0`
  and folds the normalisation into one scale and one shift,

      x i · s + (β − μ · s),     s = γ · rsqrt (max ((∑ x j²) / N − μ²) 0 + ε).

  On the reals the two variances are one number — `∑ (x j − μ)² = ∑ x j² − N μ²` once `∑ x = N μ`
  — and that number is a mean of squares, so it is not negative and the clamp does nothing; what
  is left is the distributive law. Every step uses that the data are real: distributing `μ` over
  the sum, cancelling `N`, and `(a − b) · c = a · c − b · c` all fail at an infinity. For `ε > 0`
  the argument of the reciprocal square root is a positive real, so it is the real `(√·)⁻¹` and no
  corner of the extended operation is met.

  Stated with the quotient as the extended reals' division by a real (`Ideal.div`), the way both
  a quotient computed on the host and one computed in a kernel read at this instance.
-/
import Idealize.ShloMosaic.PureOps.Ideal

noncomputable section

namespace Cert.LibBatchNorm

open Idealize.ShloMosaic

variable {ι : Type} [Fintype ι]

/-! ## On the reals -/

/-- The mean of the squared deviations from the mean is the mean of the squares less the squared
    mean: with `μ = S / N`, `∑ (x i − μ)² = ∑ x i² − 2 μ S + N μ² = ∑ x i² − N μ²`. The count of
    the indices has to be the `N` that divides: that is where `∑ μ² = N μ²` comes from. -/
theorem mean_sq_dev (x : ι → ℝ) (N : ℝ) (hc : (Fintype.card ι : ℝ) = N) (hN : N ≠ 0) :
    (∑ i, (x i - (∑ j, x j) * (1 / N)) * (x i - (∑ j, x j) * (1 / N))) * (1 / N)
      = (∑ i, x i * x i) * (1 / N) - (∑ j, x j) * (1 / N) * ((∑ j, x j) * (1 / N)) := by
  obtain ⟨S, hS⟩ : ∃ S : ℝ, S = ∑ j, x j := ⟨_, rfl⟩
  rw [← hS]
  have h1 : ∑ i, (x i - S * (1 / N)) * (x i - S * (1 / N))
      = (∑ i, x i * x i) - 2 * (S * (1 / N)) * S + N * (S * (1 / N) * (S * (1 / N))) := by
    have e : ∀ i, (x i - S * (1 / N)) * (x i - S * (1 / N))
        = x i * x i - 2 * (S * (1 / N)) * x i + S * (1 / N) * (S * (1 / N)) := fun i => by ring
    simp only [e, Finset.sum_add_distrib, Finset.sum_sub_distrib, ← Finset.mul_sum, Finset.sum_const,
      Finset.card_univ, nsmul_eq_mul, hc]
    rw [← hS]
    ring
  rw [h1]
  field_simp
  ring

/-- The one-pass variance is a mean of squares, so it is not negative. -/
theorem one_pass_nonneg (x : ι → ℝ) (N : ℝ) (hc : (Fintype.card ι : ℝ) = N) (hN : N ≠ 0) :
    0 ≤ (∑ i, x i * x i) * (1 / N) - (∑ j, x j) * (1 / N) * ((∑ j, x j) * (1 / N)) := by
  rw [← mean_sq_dev x N hc hN]
  have hpos : 0 ≤ N := by rw [← hc]; exact Nat.cast_nonneg _
  exact mul_nonneg (Finset.sum_nonneg fun i _ => mul_self_nonneg _) (by positivity)

/-- Both spellings on the reals, with `r` standing for the reciprocal square root (any function:
    only that both sides apply it to the same number matters). -/
theorem real_law (x : ι → ℝ) (N ε γ β : ℝ) (r : ℝ → ℝ) (hc : (Fintype.card ι : ℝ) = N) (hN : N ≠ 0) (i : ι) :
    (x i - (∑ j, x j) * (1 / N))
        * r ((∑ k, (x k - (∑ j, x j) * (1 / N)) * (x k - (∑ j, x j) * (1 / N))) * (1 / N) + ε) * γ + β
      = x i * (γ * r (max ((∑ k, x k * x k) * (1 / N) - (∑ j, x j) * (1 / N) * ((∑ j, x j) * (1 / N))) 0 + ε))
        + (β - (∑ j, x j) * (1 / N)
            * (γ * r (max ((∑ k, x k * x k) * (1 / N) - (∑ j, x j) * (1 / N) * ((∑ j, x j) * (1 / N))) 0 + ε))) := by
  rw [max_eq_left (one_pass_nonneg x N hc hN), mean_sq_dev x N hc hN]
  ring

/-! ## On the extended reals -/

/-- A finite sum of reals, each read as an extended real, is the real sum read as one. -/
theorem coe_sum (f : ι → ℝ) : ∑ i, (f i : EReal) = ((∑ i, f i : ℝ) : EReal) := by
  classical
  refine Finset.induction_on (Finset.univ : Finset ι) (by simp) ?_
  intro a s ha ih
  rw [Finset.sum_insert ha, Finset.sum_insert ha, ih, EReal.coe_add]

/-- The larger of two reals, read as an extended real, is the larger of the two readings: the reading is monotone. -/
theorem coe_max (a b : ℝ) : ((max a b : ℝ) : EReal) = max (a : EReal) (b : EReal) :=
  EReal.coe_strictMono.monotone.map_max

/-- The reciprocal square root of a positive real is the real one. -/
theorem rsqrt_pos {r : ℝ} (h : 0 < r) : Ideal.rsqrt (r : EReal) = (((Real.sqrt r)⁻¹ : ℝ) : EReal) := by
  rw [Ideal.rsqrt_coe, if_neg (not_lt.mpr h.le), if_neg h.ne']

/-- The mean of real data: the extended quotient by a non-zero real is the real product with `1 / N`. -/
theorem mean_coe (f : ι → ℝ) (N : ℝ) (hN : N ≠ 0) :
    Ideal.div (∑ j, (f j : EReal)) (N : EReal) = (((∑ j, f j) * (1 / N) : ℝ) : EReal) := by
  rw [coe_sum, Ideal.div_coe hN, ← EReal.coe_mul]

/-- BATCH NORMALISATION, two-pass against one-pass, for real data, scale and shift and `ε > 0`. -/
theorem two_pass_eq_one_pass (x : ι → ℝ) (N ε γ β : ℝ) (hc : (Fintype.card ι : ℝ) = N) (hN : N ≠ 0)
    (hε : 0 < ε) (i : ι) :
    ((x i : EReal) - Ideal.div (∑ j, (x j : EReal)) (N : EReal))
        * Ideal.rsqrt (Ideal.div (∑ k, ((x k : EReal) - Ideal.div (∑ j, (x j : EReal)) (N : EReal))
              * ((x k : EReal) - Ideal.div (∑ j, (x j : EReal)) (N : EReal))) (N : EReal) + (ε : EReal))
        * (γ : EReal) + (β : EReal)
      = (x i : EReal) * ((γ : EReal) * Ideal.rsqrt (max (Ideal.div (∑ k, (x k : EReal) * (x k : EReal)) (N : EReal)
              - Ideal.div (∑ j, (x j : EReal)) (N : EReal) * Ideal.div (∑ j, (x j : EReal)) (N : EReal)) 0 + (ε : EReal)))
        + ((β : EReal) - Ideal.div (∑ j, (x j : EReal)) (N : EReal)
            * ((γ : EReal) * Ideal.rsqrt (max (Ideal.div (∑ k, (x k : EReal) * (x k : EReal)) (N : EReal)
              - Ideal.div (∑ j, (x j : EReal)) (N : EReal) * Ideal.div (∑ j, (x j : EReal)) (N : EReal)) 0 + (ε : EReal)))) := by
  -- every quantity is a real: name the real mean, the two real variances, and push the coercion out
  rw [mean_coe x N hN]
  have hdev : ∀ k, ((x k : EReal) - (((∑ j, x j) * (1 / N) : ℝ) : EReal))
        * ((x k : EReal) - (((∑ j, x j) * (1 / N) : ℝ) : EReal))
      = (((x k - (∑ j, x j) * (1 / N)) * (x k - (∑ j, x j) * (1 / N)) : ℝ) : EReal) := fun k => by
    rw [← EReal.coe_sub, ← EReal.coe_mul]
  have hsq : ∀ k, (x k : EReal) * (x k : EReal) = ((x k * x k : ℝ) : EReal) := fun k => (EReal.coe_mul _ _).symm
  simp only [hdev, hsq]
  rw [mean_coe (fun k => (x k - (∑ j, x j) * (1 / N)) * (x k - (∑ j, x j) * (1 / N))) N hN,
    mean_coe (fun k => x k * x k) N hN]
  have h2 : 0 < (∑ k, (x k - (∑ j, x j) * (1 / N)) * (x k - (∑ j, x j) * (1 / N))) * (1 / N) + ε := by
    rw [mean_sq_dev x N hc hN]; exact add_pos_of_nonneg_of_pos (one_pass_nonneg x N hc hN) hε
  have h1 : 0 < max ((∑ k, x k * x k) * (1 / N) - (∑ j, x j) * (1 / N) * ((∑ j, x j) * (1 / N))) 0 + ε :=
    add_pos_of_nonneg_of_pos (le_max_right _ _) hε
  -- the two arguments of the reciprocal square root are positive reals
  have e2 : ((((∑ k, (x k - (∑ j, x j) * (1 / N)) * (x k - (∑ j, x j) * (1 / N))) * (1 / N) : ℝ) : EReal) + (ε : EReal))
      = ((((∑ k, (x k - (∑ j, x j) * (1 / N)) * (x k - (∑ j, x j) * (1 / N))) * (1 / N) + ε : ℝ)) : EReal) :=
    (EReal.coe_add _ _).symm
  have e1 : max ((((∑ k, x k * x k) * (1 / N) : ℝ) : EReal)
        - (((∑ j, x j) * (1 / N) : ℝ) : EReal) * (((∑ j, x j) * (1 / N) : ℝ) : EReal)) 0 + (ε : EReal)
      = ((max ((∑ k, x k * x k) * (1 / N) - (∑ j, x j) * (1 / N) * ((∑ j, x j) * (1 / N))) 0 + ε : ℝ) : EReal) := by
    rw [← EReal.coe_mul, ← EReal.coe_sub, ← EReal.coe_zero, ← coe_max, ← EReal.coe_add]
  rw [e2, e1, rsqrt_pos h2, rsqrt_pos h1]
  simp only [← EReal.coe_mul, ← EReal.coe_sub, ← EReal.coe_add]
  exact congrArg (fun t : ℝ => (t : EReal)) (real_law x N ε γ β (fun t => (Real.sqrt t)⁻¹) hc hN i)

end Cert.LibBatchNorm

end
-- ==== Proof.Law.lean ====
/- The two spellings of the result agree when every argument entry and every aggregated entry is a real number.
   A finite sum, a product, a difference, a maximum with zero of reals is a real; the quotient by the row count is the real
   product with 1/100000; the reciprocal square root of a positive real is a real. So every table in sight is real-valued, and
   on real data one-pass and two-pass batch normalisation are one function (the variance identity and the distributive
   law, both of which need the data real). -/
import proofs.«149204_j28372553957731_2_alg».proof.Proof.Spec
import proofs.«149204_j28372553957731_2_alg».proof.Proof.LibBatchNorm

noncomputable section

namespace Cert.Spec

open Idealize.ShloMosaic Idealize.ShloMosaic.ValueIdx

/-- "Is a real number". -/
def IsR (x : EReal) : Prop := ∃ r : ℝ, x = (r : EReal)

theorem isR_coe (r : ℝ) : IsR (r : EReal) := ⟨r, rfl⟩
theorem isR_zero : IsR 0 := ⟨0, rfl⟩
theorem isR_add {x y : EReal} (hx : IsR x) (hy : IsR y) : IsR (x + y) := by
  obtain ⟨a, rfl⟩ := hx; obtain ⟨b, rfl⟩ := hy; exact ⟨a + b, (EReal.coe_add a b).symm⟩
theorem isR_sub {x y : EReal} (hx : IsR x) (hy : IsR y) : IsR (x - y) := by
  obtain ⟨a, rfl⟩ := hx; obtain ⟨b, rfl⟩ := hy; exact ⟨a - b, (EReal.coe_sub a b).symm⟩
theorem isR_mul {x y : EReal} (hx : IsR x) (hy : IsR y) : IsR (x * y) := by
  obtain ⟨a, rfl⟩ := hx; obtain ⟨b, rfl⟩ := hy; exact ⟨a * b, (EReal.coe_mul a b).symm⟩
theorem isR_max {x y : EReal} (hx : IsR x) (hy : IsR y) : IsR (max x y) := by
  obtain ⟨a, rfl⟩ := hx; obtain ⟨b, rfl⟩ := hy; exact ⟨max a b, (Cert.LibBatchNorm.coe_max a b).symm⟩
theorem isR_sum {ι : Type} [Fintype ι] {f : ι → EReal} (h : ∀ i, IsR (f i)) : IsR (∑ i, f i) := by
  choose r hr using h
  exact ⟨∑ i, r i, by rw [← Cert.LibBatchNorm.coe_sum]; exact Finset.sum_congr rfl fun i _ => hr i⟩
theorem isR_divN {x : EReal} (hx : IsR x) : IsR (Ideal.div x Nr) := by
  obtain ⟨a, rfl⟩ := hx
  exact ⟨a * (1 / 100000), by unfold Nr; rw [Ideal.div_coe (by norm_num : (100000 : ℝ) ≠ 0), ← EReal.coe_mul]⟩
theorem isR_rsqrt {r : ℝ} (h : 0 < r) : IsR (Ideal.rsqrt (r : EReal)) := ⟨_, Cert.LibBatchNorm.rsqrt_pos h⟩

/-- A table of reals. -/
def TabR (f : Tab) : Prop := ∀ i k, IsR (f i k)

theorem card_rows : (Fintype.card (Fin 100000) : ℝ) = 100000 := by rw [Fintype.card_fin]; norm_num

/-- ONE-PASS = TWO-PASS on a real table with real scale and shift, entry by entry. -/
theorem bnK_eq_bnR {f : Tab} (hf : TabR f) {g b : Vc 64} (hg : ∀ k, IsR (g (ix1 k))) (hb : ∀ k, IsR (b (ix1 k))) (i : Fin 100000) (k : Fin 64) :
    bnK f g b i k = bnR f g b i k := by
  choose x hx using fun n => hf n k
  obtain ⟨γ, hγ⟩ := hg k
  obtain ⟨β, hβ⟩ := hb k
  have h := Cert.LibBatchNorm.two_pass_eq_one_pass (ι := Fin 100000) x 100000 Cert.Consts.eps γ β card_rows (by norm_num) Cert.Consts.eps_pos i
  simp only [bnK, bnR, scaleK, shiftK, meanR, varR, csum, csq, Nr, ε, hx, hγ, hβ]
  exact h.symm

/-- The normalised table is real when the data, the scale and the shift are. -/
theorem tabR_bnR {f : Tab} (hf : TabR f) {g b : Vc 64} (hg : ∀ k, IsR (g (ix1 k))) (hb : ∀ k, IsR (b (ix1 k))) : TabR (bnR f g b) := by
  intro i k
  have hm : IsR (meanR f k) := isR_divN (isR_sum fun n => hf n k)
  have hv : IsR (varR f k) := isR_divN (isR_sum fun n => isR_mul (isR_sub (hf n k) hm) (isR_sub (hf n k) hm))
  -- the variance is a mean of squares of reals: not negative; plus ε it is positive
  choose x hx using fun n => hf n k
  obtain ⟨μ, hμ⟩ := hm
  have hpos : ∃ r : ℝ, 0 < r ∧ varR f k + ε = (r : EReal) := by
    refine ⟨(∑ n, (x n - μ) * (x n - μ)) * (1 / 100000) + Cert.Consts.eps, ?_, ?_⟩
    · have : 0 ≤ (∑ n, (x n - μ) * (x n - μ)) * (1 / 100000 : ℝ) :=
        mul_nonneg (Finset.sum_nonneg fun n _ => mul_self_nonneg _) (by norm_num)
      exact add_pos_of_nonneg_of_pos this Cert.Consts.eps_pos
    · unfold varR ε Nr
      simp only [hx, hμ, ← EReal.coe_sub, ← EReal.coe_mul]
      rw [Cert.LibBatchNorm.coe_sum, Ideal.div_coe (by norm_num : (100000 : ℝ) ≠ 0), ← EReal.coe_mul, ← EReal.coe_add]
  obtain ⟨r, hr0, hr⟩ := hpos
  unfold bnR
  rw [hr]
  exact isR_add (isR_mul (isR_mul (isR_sub (hf i k) ⟨μ, hμ⟩) (isR_rsqrt hr0)) (hg k)) (hb k)

theorem tabR_conv {X AGG : Mat 100000 64} {Wr Wn : Mat 64 64} {bg : Vc 64} (hX : ∀ i, IsR (X i)) (hA : ∀ i, IsR (AGG i))
    (hWr : ∀ i, IsR (Wr i)) (hWn : ∀ i, IsR (Wn i)) (hbg : ∀ i, IsR (bg i)) : TabR (conv X AGG Wr Wn bg) := fun i k =>
  isR_add (isR_add (isR_sum fun j => isR_mul (hA _) (hWn _)) (isR_sum fun j => isR_mul (hX _) (hWr _))) (hbg _)
theorem tabR_act {z : Tab} (hz : TabR z) {X : Mat 100000 64} (hX : ∀ i, IsR (X i)) : TabR (act z X) := fun i k =>
  isR_add (isR_max (hz i k) isR_zero) (hX _)
theorem tabR_ffn {a : Tab} (ha : TabR a) {w1 : Mat 64 128} {b1 : Vc 128} {w2 : Mat 128 64} {b2 : Vc 64}
    (h1 : ∀ i, IsR (w1 i)) (hb1 : ∀ i, IsR (b1 i)) (h2 : ∀ i, IsR (w2 i)) (hb2 : ∀ i, IsR (b2 i)) : TabR (ffn a w1 b1 w2 b2) := fun i c =>
  isR_add (isR_add (isR_sum fun k => isR_mul (isR_max (isR_add (isR_sum fun j => isR_mul (ha i j) (h1 _)) (hb1 _)) isR_zero) (h2 _)) (hb2 _)) (ha i c)

/-- THE LAW: on real arguments and a real aggregate the kernel's result is the reference's. -/
theorem kOut_eq_rOut {X AGG : Mat 100000 64} {Wr Wn : Mat 64 64} {bg g1 b1 : Vc 64} {w1 : Mat 64 128} {fb1 : Vc 128} {w2 : Mat 128 64} {fb2 g2 b2 : Vc 64}
    (hX : ∀ i, IsR (X i)) (hA : ∀ i, IsR (AGG i)) (hWr : ∀ i, IsR (Wr i)) (hWn : ∀ i, IsR (Wn i)) (hbg : ∀ i, IsR (bg i))
    (hg1 : ∀ i, IsR (g1 i)) (hb1 : ∀ i, IsR (b1 i)) (hw1 : ∀ i, IsR (w1 i)) (hfb1 : ∀ i, IsR (fb1 i)) (hw2 : ∀ i, IsR (w2 i))
    (hfb2 : ∀ i, IsR (fb2 i)) (hg2 : ∀ i, IsR (g2 i)) (hb2 : ∀ i, IsR (b2 i)) :
    kOut X AGG Wr Wn bg g1 b1 w1 fb1 w2 fb2 g2 b2 = rOut X AGG Wr Wn bg g1 b1 w1 fb1 w2 fb2 g2 b2 := by
  have hh : TabR (conv X AGG Wr Wn bg) := tabR_conv hX hA hWr hWn hbg
  have e1 : bnK (conv X AGG Wr Wn bg) g1 b1 = bnR (conv X AGG Wr Wn bg) g1 b1 :=
    funext fun i => funext fun k => bnK_eq_bnR hh (fun k => hg1 _) (fun k => hb1 _) i k
  have hy : TabR (ffn (act (bnR (conv X AGG Wr Wn bg) g1 b1) X) w1 fb1 w2 fb2) :=
    tabR_ffn (tabR_act (tabR_bnR hh (fun k => hg1 _) (fun k => hb1 _)) hX) hw1 hfb1 hw2 hfb2
  unfold kOut rOut
  rw [e1]
  exact funext fun i => funext fun k => bnK_eq_bnR hy (fun k => hg2 _) (fun k => hb2 _) i k

end Cert.Spec

end
-- ==== Proof.PreReal.lean ====
/- What the precondition says: every entry of every float argument is a real number. The precondition is the conjunction,
   over the twelve float arguments, of an and-reduction (from the bit 1) of the mask "|x| < ∞" over all entries. A left
   fold of "and" from 1 is 1 only if every bit folded is 1; a conjunction of bits is 1 only if each is; and |x| < ∞ on the
   extended reals says x is neither infinity, that is, x is a real. -/
import proofs.«149204_j28372553957731_2_alg».proof.Pre_finite_inputs
import proofs.«149204_j28372553957731_2_alg».proof.Proof.Law
import Idealize.ShloMosaic.Lib.ValueIdx

set_option maxRecDepth 8192

noncomputable section

namespace Cert.Pre_finite_inputs

open Idealize.ShloMosaic Idealize.ShloMosaic.ValueIdx
open Cert.Spec (IsR)

variable [Facts]
open Facts

theorem band_one : ∀ a b : BitVec 1, IntOp.andi a b = 1#1 → a = 1#1 ∧ b = 1#1 := by decide

theorem foldl_and_one {β : Type} (g : β → BitVec 1) : ∀ (L : List β) (a : BitVec 1),
    L.foldl (fun r n => IntOp.andi r (g n)) a = 1#1 → a = 1#1 ∧ ∀ n ∈ L, g n = 1#1
  | [], a, h => ⟨h, fun _ hn => absurd hn List.not_mem_nil⟩
  | n :: L, a, h => by
    obtain ⟨h1, h2⟩ := foldl_and_one g L (IntOp.andi a (g n)) h
    obtain ⟨ha, hg⟩ := band_one _ _ h1
    refine ⟨ha, fun n' hn' => ?_⟩
    rcases List.mem_cons.mp hn' with rfl | hm
    · exact hg
    · exact h2 _ hm

/-- An and-reduction to a scalar that is 1 had every bit 1. -/
theorem reduce_and_all {s : Shape} {axes : List (Fin s.rank)} (x : IVec s 1) (init : IVec S_ 1) (h : s.ReducesTo axes S_) (hu : 0 < S_.numel)
    (j : S_.Idx) (hone : Host.reduce IntOp.andi x init h hu j = 1#1) (i : s.Idx) : x i = 1#1 := by
  unfold Host.reduce at hone
  obtain ⟨-, hall⟩ := foldl_and_one (fun n => x (s.rowMajor.symm n)) _ _ hone
  have hm := hall (s.rowMajor i) (List.mem_filter.mpr ⟨List.mem_finRange _, decide_eq_true (Subsingleton.elim _ _)⟩)
  simpa using hm

theorem ofBits_inf : Ideal.ofBits .f32 0x7F800000#32 = (⊤ : EReal) := by
  simp [Ideal.ofBits, Ideal.ieee]

/-- An entry whose "|x| < ∞" bit is 1 is a real. -/
theorem isR_of_mask {s : Shape} (a inf : FVec Ideal s .f32) (i : s.Idx) (hinf : inf i = (⊤ : EReal))
    (h : cmpf .olt (Host.absf a) inf i = 1#1) : IsR (a i) := by
  have h' : Ideal.cmp .olt (max (a i) (-(a i))) (inf i) = 1#1 := h
  rw [hinf] at h'
  unfold Ideal.cmp at h'
  have hlt : max (a i) (-(a i)) < (⊤ : EReal) := by
    by_contra hn
    simp [hn] at h'
  have h1 : a i ≠ ⊤ := fun e => by rw [e] at hlt; simp at hlt
  have h2 : a i ≠ ⊥ := fun e => by rw [e] at hlt; simp at hlt
  exact ⟨(a i).toReal, (EReal.coe_toReal h1 h2).symm⟩

theorem bcast_inf {t : Shape} (hb : S_.BroadcastsInDim t ![]) (j : t.Idx) :
    (broadcastInDim t ![] hb (constant (F := Ideal) S_ .f32 0x7F800000#32) : FVec Ideal t .f32) j = (⊤ : EReal) := by
  show Ideal.ofBits .f32 0x7F800000#32 = _
  exact ofBits_inf

/-- THE PRECONDITION, OPENED: all twelve float arguments are real-valued. -/
theorem pre_real (a0 : FVec Ideal S100000x64 .f32) (a1 : IVec S2x1600000 32) (a2 a3 : FVec Ideal S64x64 .f32) (a4 a5 a6 : FVec Ideal S64 .f32)
    (a7 : FVec Ideal S64x128 .f32) (a8 : FVec Ideal S128 .f32) (a9 : FVec Ideal S128x64 .f32) (a10 a11 a12 : FVec Ideal S64 .f32)
    (h : fn (F := Ideal) a0 a1 a2 a3 a4 a5 a6 a7 a8 a9 a10 a11 a12 = fun _ => 1#1) :
    (∀ j, IsR (a0 j)) ∧ (∀ j, IsR (a2 j)) ∧ (∀ j, IsR (a3 j)) ∧ (∀ j, IsR (a4 j)) ∧ (∀ j, IsR (a5 j)) ∧ (∀ j, IsR (a6 j)) ∧ (∀ j, IsR (a7 j))
      ∧ (∀ j, IsR (a8 j)) ∧ (∀ j, IsR (a9 j)) ∧ (∀ j, IsR (a10 j)) ∧ (∀ j, IsR (a11 j)) ∧ (∀ j, IsR (a12 j)) := by
  have h0 := congrFun h ix0
  simp only [fn, fn_part1, fn_part2, fn_part3, andi] at h0
  obtain ⟨h0, r12⟩ := band_one _ _ h0
  obtain ⟨h0, r11⟩ := band_one _ _ h0
  obtain ⟨h0, r10⟩ := band_one _ _ h0
  obtain ⟨h0, r9⟩ := band_one _ _ h0
  obtain ⟨h0, r8⟩ := band_one _ _ h0
  obtain ⟨h0, r7⟩ := band_one _ _ h0
  obtain ⟨h0, r6⟩ := band_one _ _ h0
  obtain ⟨h0, r5⟩ := band_one _ _ h0
  obtain ⟨h0, r4⟩ := band_one _ _ h0
  obtain ⟨h0, r3⟩ := band_one _ _ h0
  obtain ⟨r0, r2⟩ := band_one _ _ h0
  exact ⟨fun j => isR_of_mask _ _ j (bcast_inf _ j) (reduce_and_all _ _ _ _ _ r0 j),
    fun j => isR_of_mask _ _ j (bcast_inf _ j) (reduce_and_all _ _ _ _ _ r2 j),
    fun j => isR_of_mask _ _ j (bcast_inf _ j) (reduce_and_all _ _ _ _ _ r3 j),
    fun j => isR_of_mask _ _ j (bcast_inf _ j) (reduce_and_all _ _ _ _ _ r4 j),
    fun j => isR_of_mask _ _ j (bcast_inf _ j) (reduce_and_all _ _ _ _ _ r5 j),
    fun j => isR_of_mask _ _ j (bcast_inf _ j) (reduce_and_all _ _ _ _ _ r6 j),
    fun j => isR_of_mask _ _ j (bcast_inf _ j) (reduce_and_all _ _ _ _ _ r7 j),
    fun j => isR_of_mask _ _ j (bcast_inf _ j) (reduce_and_all _ _ _ _ _ r8 j),
    fun j => isR_of_mask _ _ j (bcast_inf _ j) (reduce_and_all _ _ _ _ _ r9 j),
    fun j => isR_of_mask _ _ j (bcast_inf _ j) (reduce_and_all _ _ _ _ _ r10 j),
    fun j => isR_of_mask _ _ j (bcast_inf _ j) (reduce_and_all _ _ _ _ _ r11 j),
    fun j => isR_of_mask _ _ j (bcast_inf _ j) (reduce_and_all _ _ _ _ _ r12 j)⟩

end Cert.Pre_finite_inputs

end
-- ==== Proof.LibGatherRows.lean ====
/-
  Taking rows of a table by an index column, read at an entry. The operand is a table [N, C] (or a vector [N]), the
  start indices a column [E, 1], and the dimension numbers are those of `table[idx]`: the row axis collapsed and named by
  the one start-index component, the column axis (if any) the one offset axis. Entry (e, c) of the result is the
  table's entry (r, c) with r the start index idx[e, 0] read as a signed integer and clamped into [0, N - 1]; for a
  vector, entry e is the vector's entry r. The row r is the SAME function of idx and e in both, so taking rows
  commutes with any operation that acts row by row. Stated for any record with those dimension numbers.
-/
import Idealize.ShloMosaic.Lib.ValueIdx
import Idealize.ShloMosaic.PureOps.ShapeOps

namespace Cert.LibGatherRows

open Idealize.ShloMosaic Idealize.ShloMosaic.ValueIdx

/-- The row that start index `idx[e, 0]` names in a table of `N` rows: read signed, clamped into `[0, N - 1]`. -/
def row {N E w : Nat} (hN : 0 < N) (idx : IVec ⟨2, ![E, 1]⟩ w) (e : Fin E) : Fin N :=
  ⟨min (idx (ix2 e (0 : Fin 1))).toInt.toNat (N - 1), by omega⟩

/-- Rows of a table: result entry `(e, c)` reads the operand at `(row idx e, c)`. -/
theorem rows_operandIdx {N C E w : Nat} (hN : 0 < N) (d : GatherDims ⟨2, ![N, C]⟩ ⟨2, ![E, 1]⟩ ⟨2, ![E, C]⟩)
    (h1 : d.offsetDims = [1]) (h2 : d.collapsedSliceDims = [0]) (h3 : d.operandBatchingDims = [])
    (h4 : d.startIndicesBatchingDims = []) (h5 : d.startIndexMap = [0]) (h6 : d.indexVectorDim = 1)
    (h7 : d.sliceSizes = ![1, C]) (idx : IVec ⟨2, ![E, 1]⟩ w) (e : Fin E) (c : Fin C) :
    d.operandIdx (ix2 e c) idx = ix2 (row hN idx e) c := by
  obtain ⟨od, cd, ob, sb, sm, iv, ss, wf⟩ := d
  dsimp only at h1 h2 h3 h4 h5 h6 h7
  subst h1 h2 h3 h4 h5 h6 h7
  funext a
  refine Fin.ext ?_
  match a with
  | ⟨0, _⟩ =>
    show GatherDims.start _ (ix2 e c) idx 0 + GatherDims.batchCoord _ (ix2 e c) 0 + GatherDims.offCoord _ (ix2 e c) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (List.mem_singleton.mpr rfl)]
    refine congrArg (fun z : (⟨2, ![E, 1]⟩ : Shape).Idx => min (idx z).toInt.toNat (N - 1)) ?_
    funext b; refine Fin.ext ?_
    match b with
    | ⟨0, _⟩ => rfl
    | ⟨1, _⟩ => rfl
  | ⟨1, _⟩ =>
    show GatherDims.start _ (ix2 e c) idx 1 + GatherDims.batchCoord _ (ix2 e c) 1 + GatherDims.offCoord _ (ix2 e c) 1 = _
    rw [GatherDims.batchCoord_eq_zero _ _ _ List.not_mem_nil]
    unfold GatherDims.start
    rw [dif_neg (show ¬ ((1 : Fin 2) ∈ ([0] : List (Fin 2))) by decide)]
    simp only [Nat.add_zero, Nat.zero_add]
    unfold GatherDims.offCoord
    rw [dif_pos ((GatherDims.mem_sKept _ _).mpr ⟨(show ¬ ((1 : Fin 2) ∈ ([0] : List (Fin 2))) by decide), List.not_mem_nil⟩)]
    rfl

/-- Entries of a vector: result entry `e` reads the operand at `row idx e`. -/
theorem elems_operandIdx {N E w : Nat} (hN : 0 < N) (d : GatherDims ⟨1, ![N]⟩ ⟨2, ![E, 1]⟩ ⟨1, ![E]⟩)
    (h1 : d.offsetDims = []) (h2 : d.collapsedSliceDims = [0]) (h3 : d.operandBatchingDims = [])
    (h4 : d.startIndicesBatchingDims = []) (h5 : d.startIndexMap = [0]) (h6 : d.indexVectorDim = 1)
    (h7 : d.sliceSizes = ![1]) (idx : IVec ⟨2, ![E, 1]⟩ w) (e : Fin E) :
    d.operandIdx (ix1 e) idx = ix1 (row hN idx e) := by
  obtain ⟨od, cd, ob, sb, sm, iv, ss, wf⟩ := d
  dsimp only at h1 h2 h3 h4 h5 h6 h7
  subst h1 h2 h3 h4 h5 h6 h7
  funext a
  refine Fin.ext ?_
  match a with
  | ⟨0, _⟩ =>
    show GatherDims.start _ (ix1 e) idx 0 + GatherDims.batchCoord _ (ix1 e) 0 + GatherDims.offCoord _ (ix1 e) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (List.mem_singleton.mpr rfl)]
    refine congrArg (fun z : (⟨2, ![E, 1]⟩ : Shape).Idx => min (idx z).toInt.toNat (N - 1)) ?_
    funext b; refine Fin.ext ?_
    match b with
    | ⟨0, _⟩ => rfl
    | ⟨1, _⟩ => rfl

/-- The table's rows taken, at entry `(e, c)`. -/
theorem gather_rows_apply {α : Type} {N C E w : Nat} (hN : 0 < N) (d : GatherDims ⟨2, ![N, C]⟩ ⟨2, ![E, 1]⟩ ⟨2, ![E, C]⟩)
    (h1 : d.offsetDims = [1]) (h2 : d.collapsedSliceDims = [0]) (h3 : d.operandBatchingDims = [])
    (h4 : d.startIndicesBatchingDims = []) (h5 : d.startIndexMap = [0]) (h6 : d.indexVectorDim = 1)
    (h7 : d.sliceSizes = ![1, C]) (x : (⟨2, ![N, C]⟩ : Shape).Idx → α) (idx : IVec ⟨2, ![E, 1]⟩ w) (e : Fin E) (c : Fin C) :
    Host.gather d x idx (ix2 e c) = x (ix2 (row hN idx e) c) := by
  unfold Host.gather
  rw [rows_operandIdx hN d h1 h2 h3 h4 h5 h6 h7 idx e c]

/-- The vector's entries taken, at entry `e`. -/
theorem gather_elems_apply {α : Type} {N E w : Nat} (hN : 0 < N) (d : GatherDims ⟨1, ![N]⟩ ⟨2, ![E, 1]⟩ ⟨1, ![E]⟩)
    (h1 : d.offsetDims = []) (h2 : d.collapsedSliceDims = [0]) (h3 : d.operandBatchingDims = [])
    (h4 : d.startIndicesBatchingDims = []) (h5 : d.startIndexMap = [0]) (h6 : d.indexVectorDim = 1)
    (h7 : d.sliceSizes = ![1]) (x : (⟨1, ![N]⟩ : Shape).Idx → α) (idx : IVec ⟨2, ![E, 1]⟩ w) (e : Fin E) :
    Host.gather d x idx (ix1 e) = x (ix1 (row hN idx e)) := by
  unfold Host.gather
  rw [elems_operandIdx hN d h1 h2 h3 h4 h5 h6 h7 idx e]

end Cert.LibGatherRows
-- ==== Proof.LibScatterAddRows.lean ====
/-
  A scatter-add of rows into a table, read at an entry. The operand is a table [N, C] (or a vector [N]), the scatter
  indices a column [E, 1], the updates [E, C] (or [E]), and the dimension numbers are those of a segment sum: the row
  axis is the one inserted window axis and the one the start index names, the column axis (if any) the one window axis.
  Update row e lands on operand row p exactly when its start index idx[e, 0], read as a signed integer and NOT clamped,
  equals p; it is dropped otherwise. So on the extended reals entry (p, k) of the result is the operand's entry plus
  the sum over the update rows e with idx[e, 0] = p of the update's entry (e, k). Stated for any record with those
  dimension numbers, whatever the number of updates.
-/
import Idealize.ShloMosaic.Lib.ValueIdx
import Idealize.ShloMosaic.PureOps.Ideal

noncomputable section

open scoped BigOperators

namespace Cert.LibScatterAddRows

open Idealize.ShloMosaic Idealize.ShloMosaic.ValueIdx

/-- The start index of update row `e` on the row axis: the scatter index `idx[e, 0]` read signed. -/
theorem rows_start0 {N C E w : Nat} (d : ScatterDims ⟨2, ![N, C]⟩ ⟨2, ![E, 1]⟩ ⟨2, ![E, C]⟩)
    (h1 : d.updateWindowDims = [1]) (h3 : d.scatterDimsToOperandDims = [0]) (h4 : d.indexVectorDim = 1)
    (idx : IVec ⟨2, ![E, 1]⟩ w) (e : Fin E) (c : Fin C) :
    d.start (ix2 e c) idx 0 = (idx (ix2 e (0 : Fin 1))).toInt := by
  obtain ⟨uw, iw, sd, iv, wf⟩ := d
  dsimp only at h1 h3 h4
  subst h1 h3 h4
  unfold ScatterDims.start
  rw [dif_pos (List.mem_singleton.mpr rfl)]
  refine congrArg (fun z : (⟨2, ![E, 1]⟩ : Shape).Idx => (idx z).toInt) ?_
  funext b; refine Fin.ext ?_
  match b with
  | ⟨0, _⟩ => rfl
  | ⟨1, _⟩ => rfl

/-- The column axis is not named by the start index: the window starts at column 0. -/
theorem rows_start1 {N C E w : Nat} (d : ScatterDims ⟨2, ![N, C]⟩ ⟨2, ![E, 1]⟩ ⟨2, ![E, C]⟩)
    (h3 : d.scatterDimsToOperandDims = [0]) (idx : IVec ⟨2, ![E, 1]⟩ w) (j : (⟨2, ![E, C]⟩ : Shape).Idx) :
    d.start j idx 1 = 0 := by
  obtain ⟨uw, iw, sd, iv, wf⟩ := d
  dsimp only at h3
  subst h3
  unfold ScatterDims.start
  rw [dif_neg (show ¬ ((1 : Fin 2) ∈ ([0] : List (Fin 2))) by decide)]

/-- The row axis is inserted: the window has no extent along it. -/
theorem rows_window0 {N C E : Nat} (d : ScatterDims ⟨2, ![N, C]⟩ ⟨2, ![E, 1]⟩ ⟨2, ![E, C]⟩)
    (h2 : d.insertedWindowDims = [0]) (j : (⟨2, ![E, C]⟩ : Shape).Idx) :
    d.window j 0 = 0 := by
  obtain ⟨uw, iw, sd, iv, wf⟩ := d
  dsimp only at h2
  subst h2
  unfold ScatterDims.window
  rw [dif_neg (by simp [ScatterDims.sKept, Shape.kept])]

/-- Along the column axis the window coordinate is the update's column. -/
theorem rows_window1 {N C E : Nat} (d : ScatterDims ⟨2, ![N, C]⟩ ⟨2, ![E, 1]⟩ ⟨2, ![E, C]⟩)
    (h1 : d.updateWindowDims = [1]) (h2 : d.insertedWindowDims = [0]) (e : Fin E) (c : Fin C) :
    d.window (ix2 e c) 1 = c.val := by
  obtain ⟨uw, iw, sd, iv, wf⟩ := d
  dsimp only at h1 h2
  subst h1 h2
  unfold ScatterDims.window
  rw [dif_pos (by simp [ScatterDims.sKept, Shape.kept])]
  rfl

/-- Update entry `(e, c)` of a row scatter lands on operand entry `(p, k)` exactly when the start index of row `e`
    is `p` and the columns agree. -/
theorem rows_resultIdx {N C E w : Nat} (d : ScatterDims ⟨2, ![N, C]⟩ ⟨2, ![E, 1]⟩ ⟨2, ![E, C]⟩)
    (h1 : d.updateWindowDims = [1]) (h2 : d.insertedWindowDims = [0]) (h3 : d.scatterDimsToOperandDims = [0])
    (h4 : d.indexVectorDim = 1) (idx : IVec ⟨2, ![E, 1]⟩ w) (e : Fin E) (c : Fin C) (p : Fin N) (k : Fin C) :
    d.resultIdx? (ix2 e c) idx = some (ix2 p k) ↔ (idx (ix2 e (0 : Fin 1))).toInt = (p.val : Int) ∧ c = k := by
  have hs0 := rows_start0 d h1 h3 h4 idx e c
  have hs1 := rows_start1 d h3 idx (ix2 e c)
  have hw0 := rows_window0 d h2 (ix2 e c)
  have hw1 := rows_window1 d h1 h2 e c
  constructor
  · intro h
    unfold ScatterDims.resultIdx? at h
    split at h
    · next hall =>
      have hv := Option.some.inj h
      have v0 : (d.start (ix2 e c) idx 0 + d.window (ix2 e c) 0).toNat = p.val := congrArg Fin.val (congrFun hv 0)
      have v1 : (d.start (ix2 e c) idx 1 + d.window (ix2 e c) 1).toNat = k.val := congrArg Fin.val (congrFun hv 1)
      have h0 := (hall 0).1
      rw [hs0, hw0] at v0 h0
      rw [hs1, hw1] at v1
      exact ⟨by omega, Fin.ext (by omega)⟩
    · exact absurd h (by simp)
  · rintro ⟨ht, rfl⟩
    unfold ScatterDims.resultIdx?
    have hall : ∀ a, 0 ≤ d.start (ix2 e c) idx a + d.window (ix2 e c) a ∧
        d.start (ix2 e c) idx a + d.window (ix2 e c) a < (⟨2, ![N, C]⟩ : Shape).size a := by
      intro a
      match a with
      | ⟨0, _⟩ =>
        have := p.isLt
        show 0 ≤ d.start (ix2 e c) idx 0 + d.window (ix2 e c) 0 ∧ d.start (ix2 e c) idx 0 + d.window (ix2 e c) 0 < (N : Int)
        rw [hs0, hw0, ht]; omega
      | ⟨1, _⟩ =>
        have := c.isLt
        show 0 ≤ d.start (ix2 e c) idx 1 + d.window (ix2 e c) 1 ∧ d.start (ix2 e c) idx 1 + d.window (ix2 e c) 1 < (C : Int)
        rw [hs1, hw1]; omega
    rw [dif_pos hall]
    congr 1; funext a; refine Fin.ext ?_
    match a with
    | ⟨0, _⟩ =>
      show (d.start (ix2 e c) idx 0 + d.window (ix2 e c) 0).toNat = p.val
      rw [hs0, hw0, ht]; omega
    | ⟨1, _⟩ =>
      show (d.start (ix2 e c) idx 1 + d.window (ix2 e c) 1).toNat = c.val
      rw [hs1, hw1]; omega

/-- A row scatter-add at entry `(p, k)`: the operand's entry plus the update entries `(e, k)` of the rows `e` whose
    start index is `p`. -/
theorem scatterAdd_rows_apply {N C E w : Nat} (d : ScatterDims ⟨2, ![N, C]⟩ ⟨2, ![E, 1]⟩ ⟨2, ![E, C]⟩)
    (h1 : d.updateWindowDims = [1]) (h2 : d.insertedWindowDims = [0]) (h3 : d.scatterDimsToOperandDims = [0])
    (h4 : d.indexVectorDim = 1) (x : (⟨2, ![N, C]⟩ : Shape).Idx → EReal) (idx : IVec ⟨2, ![E, 1]⟩ w)
    (upd : (⟨2, ![E, C]⟩ : Shape).Idx → EReal) (p : Fin N) (k : Fin C) :
    Ideal.hostScatterAdd d x idx upd (ix2 p k)
      = x (ix2 p k) + ∑ e : Fin E, if (idx (ix2 e (0 : Fin 1))).toInt = (p.val : Int) then upd (ix2 e k) else 0 := by
  unfold Ideal.hostScatterAdd
  congr 1
  rw [Finset.sum_filter, sum_idx2]
  refine Finset.sum_congr rfl fun e _ => ?_
  by_cases ht : (idx (ix2 e (0 : Fin 1))).toInt = (p.val : Int)
  · rw [if_pos ht, Finset.sum_eq_single k]
    · rw [if_pos ((rows_resultIdx d h1 h2 h3 h4 idx e k p k).mpr ⟨ht, rfl⟩)]
    · intro c _ hc
      rw [if_neg (fun h => hc ((rows_resultIdx d h1 h2 h3 h4 idx e c p k).mp h).2)]
    · intro h; exact absurd (Finset.mem_univ k) h
  · rw [if_neg ht]
    refine Finset.sum_eq_zero fun c _ => ?_
    rw [if_neg (fun h => ht ((rows_resultIdx d h1 h2 h3 h4 idx e c p k).mp h).1)]

/-! ## The same for a vector: operand [N], scatter indices [E, 1], updates [E] -/

/-- A rank-1 index set is its one coordinate range, so a sum over it is the sum over the coordinate. -/
theorem sum_idx1 {M : Type*} [AddCommMonoid M] {n : Nat} (f : (⟨1, ![n]⟩ : Shape).Idx → M) :
    ∑ i, f i = ∑ a : Fin n, f (ix1 a) := by
  let eqv : (⟨1, ![n]⟩ : Shape).Idx ≃ Fin n :=
    { toFun := fun i => i 0, invFun := fun a => ix1 a, left_inv := fun i => (eq_ix1 i).symm, right_inv := fun _ => rfl }
  rw [← Equiv.sum_comp eqv.symm f]
  rfl

/-- Update entry `e` of a vector scatter lands on operand entry `p` exactly when its start index is `p`. -/
theorem elems_resultIdx {N E w : Nat} (d : ScatterDims ⟨1, ![N]⟩ ⟨2, ![E, 1]⟩ ⟨1, ![E]⟩)
    (h1 : d.updateWindowDims = []) (h2 : d.insertedWindowDims = [0]) (h3 : d.scatterDimsToOperandDims = [0])
    (h4 : d.indexVectorDim = 1) (idx : IVec ⟨2, ![E, 1]⟩ w) (e : Fin E) (p : Fin N) :
    d.resultIdx? (ix1 e) idx = some (ix1 p) ↔ (idx (ix2 e (0 : Fin 1))).toInt = (p.val : Int) := by
  have hs0 : d.start (ix1 e) idx 0 = (idx (ix2 e (0 : Fin 1))).toInt := by
    obtain ⟨uw, iw, sd, iv, wf⟩ := d
    dsimp only at h1 h2 h3 h4
    subst h1 h2 h3 h4
    unfold ScatterDims.start
    rw [dif_pos (List.mem_singleton.mpr rfl)]
    refine congrArg (fun z : (⟨2, ![E, 1]⟩ : Shape).Idx => (idx z).toInt) ?_
    funext b; refine Fin.ext ?_
    match b with
    | ⟨0, _⟩ => rfl
    | ⟨1, _⟩ => rfl
  have hw0 : d.window (ix1 e) 0 = 0 := by
    obtain ⟨uw, iw, sd, iv, wf⟩ := d
    dsimp only at h1 h2 h3 h4
    subst h1 h2 h3 h4
    unfold ScatterDims.window
    rw [dif_neg (by simp [ScatterDims.sKept, Shape.kept])]
  constructor
  · intro h
    unfold ScatterDims.resultIdx? at h
    split at h
    · next hall =>
      have hv := Option.some.inj h
      have v0 : (d.start (ix1 e) idx 0 + d.window (ix1 e) 0).toNat = p.val := congrArg Fin.val (congrFun hv 0)
      have h0 := (hall 0).1
      rw [hs0, hw0] at v0 h0
      omega
    · exact absurd h (by simp)
  · intro ht
    unfold ScatterDims.resultIdx?
    have hall : ∀ a, 0 ≤ d.start (ix1 e) idx a + d.window (ix1 e) a ∧
        d.start (ix1 e) idx a + d.window (ix1 e) a < (⟨1, ![N]⟩ : Shape).size a := by
      intro a
      match a with
      | ⟨0, _⟩ =>
        have := p.isLt
        show 0 ≤ d.start (ix1 e) idx 0 + d.window (ix1 e) 0 ∧ d.start (ix1 e) idx 0 + d.window (ix1 e) 0 < (N : Int)
        rw [hs0, hw0, ht]; omega
    rw [dif_pos hall]
    congr 1; funext a; refine Fin.ext ?_
    match a with
    | ⟨0, _⟩ =>
      show (d.start (ix1 e) idx 0 + d.window (ix1 e) 0).toNat = p.val
      rw [hs0, hw0, ht]; omega

/-- A vector scatter-add at entry `p`: the operand's entry plus the update entries `e` whose start index is `p`. -/
theorem scatterAdd_elems_apply {N E w : Nat} (d : ScatterDims ⟨1, ![N]⟩ ⟨2, ![E, 1]⟩ ⟨1, ![E]⟩)
    (h1 : d.updateWindowDims = []) (h2 : d.insertedWindowDims = [0]) (h3 : d.scatterDimsToOperandDims = [0])
    (h4 : d.indexVectorDim = 1) (x : (⟨1, ![N]⟩ : Shape).Idx → EReal) (idx : IVec ⟨2, ![E, 1]⟩ w)
    (upd : (⟨1, ![E]⟩ : Shape).Idx → EReal) (p : Fin N) :
    Ideal.hostScatterAdd d x idx upd (ix1 p)
      = x (ix1 p) + ∑ e : Fin E, if (idx (ix2 e (0 : Fin 1))).toInt = (p.val : Int) then upd (ix1 e) else 0 := by
  unfold Ideal.hostScatterAdd
  congr 1
  rw [Finset.sum_filter, sum_idx1]
  refine Finset.sum_congr rfl fun e _ => ?_
  by_cases ht : (idx (ix2 e (0 : Fin 1))).toInt = (p.val : Int)
  · rw [if_pos ht, if_pos ((elems_resultIdx d h1 h2 h3 h4 idx e p).mpr ht)]
  · rw [if_neg ht, if_neg (fun h => ht ((elems_resultIdx d h1 h2 h3 h4 idx e p).mp h))]

end Cert.LibScatterAddRows

end
-- ==== Proof.AggReal.lean ====
/- The neighbour aggregate of a real table is real: each of its entries is the zero it starts from plus a finite sum, over the
   edges whose target is the entry's row, of gathered entries, and a gathered entry is an entry of the table (at the edge's
   source row, wrapped and clamped into range). -/
import proofs.«149204_j28372553957731_2_alg».proof.Proof.KernelIdealGlue
import proofs.«149204_j28372553957731_2_alg».proof.Proof.LibGatherRows
import proofs.«149204_j28372553957731_2_alg».proof.Proof.LibScatterAddRows
import proofs.«149204_j28372553957731_2_alg».proof.Proof.Law

set_option maxRecDepth 16384

noncomputable section

namespace Cert.KernelIdeal.Val

open Cert.KernelIdeal Cert.KernelIdeal.Gen
open Idealize.ShloMosaic Idealize.ShloMosaic.ValueIdx

open Cert.Spec (IsR isR_add isR_sum isR_zero)

/-- Rows scatter-added into a real table from real updates give a real table. -/
theorem scatter_real (z : FVec Ideal S100000x64 .f32) (idx : IVec S1600000x1 32) (u : FVec Ideal S1600000x64 .f32)
    (hz : ∀ j, IsR (z j)) (hu : ∀ j, IsR (u j)) (j : S100000x64.Idx) :
    IsR (Host.scatterAdd scatter_S100000x64_S1600000x1_S1600000x64_1_0_0_1 z idx u j) := by
  obtain ⟨p, k, rfl⟩ : ∃ (p : Fin 100000) (k : Fin 64), j = ix2 p k := ⟨j 0, j 1, eq_ix2 j⟩
  unfold Host.scatterAdd
  rw [Ideal.hostScatterAdd_def, Cert.LibScatterAddRows.scatterAdd_rows_apply _ rfl rfl rfl rfl]
  refine isR_add (hz _) (isR_sum fun e => ?_)
  split_ifs
  · exact hu _
  · exact isR_zero

/-- Rows gathered from a real table are real. -/
theorem gather_real (x : FVec Ideal S100000x64 .f32) (idx : IVec S1600000x1 32) (hx : ∀ j, IsR (x j)) (j : S1600000x64.Idx) :
    IsR (Host.gather gather_S100000x64_S1600000x1_S1600000x64_1_0_n_n_0_1_164 x idx j) := by
  obtain ⟨e, c, rfl⟩ : ∃ (e : Fin 1600000) (c : Fin 64), j = ix2 e c := ⟨j 0, j 1, eq_ix2 j⟩
  rw [Cert.LibGatherRows.gather_rows_apply (by norm_num) _ rfl rfl rfl rfl rfl rfl rfl]
  exact hx _

theorem zeros_real (j : S100000x64.Idx) :
    IsR ((broadcastInDim S100000x64 ![] bcast_S_S100000x64 (constant (F := Ideal) S_ .f32 0x00000000#32) : FVec Ideal S100000x64 .f32) j) := by
  show IsR (Ideal.ofBits .f32 0x00000000#32)
  rw [Cert.Consts.ofBits_zero]; exact isR_zero

theorem agg_real (x : FVec Ideal S100000x64 .f32) (ei : IVec S2x1600000 32) (hx : ∀ j, IsR (x j)) (j : S100000x64.Idx) : IsR (aggK x ei j) := by
  unfold aggK
  exact scatter_real _ _ _ zeros_real (gather_real _ _ hx) j

end Cert.KernelIdeal.Val

end
-- ==== Proof.lean ====
/- The proof of `Cert.Claim` (proofs.«149204_j28372553957731_2_alg».proof.Defs) — frame_Kernel ∧ frame_KernelIdeal ∧ frame_ReferenceIdeal ∧
   preserves_Kernel_KernelIdeal ∧ algebraic_KernelIdeal_ReferenceIdeal —: hand-written, untrusted.

   The kernel is three pallas_calls with host operations between them. The first computes the graph convolution
   h = agg·W_nbr + x·W_root + b block by block and accumulates, in two scratch buffers carried across the grid, the column
   sums of h and of h²; the second normalises h with a scale and a shift made from those sums, rectifies, adds the
   residual, runs the two-layer network with its residual, and accumulates the column sums of the result and of its
   square; the third applies the second normalisation. The reference does the same with the normalisation written the
   two-pass way, (v − mean)·rsqrt(var + ε)·γ + β with var the mean of (v − mean)².

   FRAMES (Proof/Kernel*.lean at words, Proof/KernelIdeal*.lean at the extended reals — the same text): each region's body is
   run case by case (first point, middle points, last point), the accumulators riding in the region's invariant; @main is the
   run of six segments; the arguments are never written. The reference (Proof/RefRun.lean) is a straight line of 127 host
   operations.

   THE VALUE (algebraic claim): the kernel's buffers after each region are closed-form functions of the region's entry
   arrays (Proof/KernelIdealR?Val.lean: block reads by the decided index maps; the accumulators by induction over the grid;
   a sum over consecutive blocks is the sum over all rows), assembled into the specification's one-pass form
   (Proof/KernelIdealValue.lean). The reference's buffers are read one operation at a time and grouped into stages
   (Proof/RefRead.lean, RefStages.lean, RefValue.lean) giving the two-pass form. On real data the two forms agree
   (Proof/Law.lean with Proof/LibBatchNorm.lean: the variance identity, its nonnegativity, the distributive law); the
   data is real because the precondition says every float argument is finite (Proof/PreReal.lean) and the neighbour
   aggregate of real rows is real (Proof/AggReal.lean). No ledger, so `preserves` is `True`. -/
import proofs.«149204_j28372553957731_2_alg».proof.Defs
import proofs.«149204_j28372553957731_2_alg».proof.Proof.Gen.Kernel
import proofs.«149204_j28372553957731_2_alg».proof.Proof.Gen.KernelIdeal
import proofs.«149204_j28372553957731_2_alg».proof.Proof.Gen.ReferenceIdeal
import proofs.«149204_j28372553957731_2_alg».proof.Proof.Gen.Pre_finite_inputs
import proofs.«149204_j28372553957731_2_alg».proof.Proof.KernelKept
import proofs.«149204_j28372553957731_2_alg».proof.Proof.KernelIdealKept
import proofs.«149204_j28372553957731_2_alg».proof.Proof.KernelIdealValue
import proofs.«149204_j28372553957731_2_alg».proof.Proof.RefValue
import proofs.«149204_j28372553957731_2_alg».proof.Proof.Law
import proofs.«149204_j28372553957731_2_alg».proof.Proof.PreReal
import proofs.«149204_j28372553957731_2_alg».proof.Proof.AggReal
import Idealize.ShloMosaic.Adequacy
import Idealize.ShloMosaic.Init

set_option maxRecDepth 8192

noncomputable section

namespace Cert.Proof

open Idealize.ShloMosaic Idealize.SL.Sem Idealize.ShloMosaic.TcCoe Idealize.ShloMosaic.ValueIdx

theorem frameK : Cert.frame_Kernel (hKernel := Cert.Kernel.Gen.facts) (hPre_finite_inputs := Cert.Pre_finite_inputs.Gen.facts) :=
  fun m g _ => Cert.Kernel.Hand.frame (F := Bits) m g

theorem frameKI : Cert.frame_KernelIdeal (hKernelIdeal := Cert.KernelIdeal.Gen.facts) (hPre_finite_inputs := Cert.Pre_finite_inputs.Gen.facts) :=
  fun m g _ => Cert.KernelIdeal.Hand.frame (F := Ideal) m g

open Cert.ReferenceIdeal.RefRun in
theorem frameR : Cert.frame_ReferenceIdeal (hReferenceIdeal := Cert.ReferenceIdeal.Gen.facts) (hPre_finite_inputs := Cert.Pre_finite_inputs.Gen.facts) :=
  fun m g _ => (θ_run _ _ _).mono (fun r h c => ⟨(h c Cert.ReferenceIdeal.main_arg0).trans (rd_arg0 (StableHlo.launchContents m c)),
    (h c Cert.ReferenceIdeal.main_arg1).trans (rd_arg1 (StableHlo.launchContents m c)),
    (h c Cert.ReferenceIdeal.main_arg2).trans (rd_arg2 (StableHlo.launchContents m c)),
    (h c Cert.ReferenceIdeal.main_arg3).trans (rd_arg3 (StableHlo.launchContents m c)),
    (h c Cert.ReferenceIdeal.main_arg4).trans (rd_arg4 (StableHlo.launchContents m c)),
    (h c Cert.ReferenceIdeal.main_arg5).trans (rd_arg5 (StableHlo.launchContents m c)),
    (h c Cert.ReferenceIdeal.main_arg6).trans (rd_arg6 (StableHlo.launchContents m c)),
    (h c Cert.ReferenceIdeal.main_arg7).trans (rd_arg7 (StableHlo.launchContents m c)),
    (h c Cert.ReferenceIdeal.main_arg8).trans (rd_arg8 (StableHlo.launchContents m c)),
    (h c Cert.ReferenceIdeal.main_arg9).trans (rd_arg9 (StableHlo.launchContents m c)),
    (h c Cert.ReferenceIdeal.main_arg10).trans (rd_arg10 (StableHlo.launchContents m c)),
    (h c Cert.ReferenceIdeal.main_arg11).trans (rd_arg11 (StableHlo.launchContents m c)),
    (h c Cert.ReferenceIdeal.main_arg12).trans (rd_arg12 (StableHlo.launchContents m c))⟩)
    (run (F := Ideal) m g)

/-- The two programs' aggregates are one term: the same operations over records with the same fields. -/
theorem agg_same (x : FVec Ideal Cert.KernelIdeal.S100000x64 .f32) (ei : IVec Cert.KernelIdeal.S2x1600000 32) :
    Cert.ReferenceIdeal.RefRun.aggR (F := Ideal) x ei = Cert.KernelIdeal.Val.aggK x ei := rfl

open Cert.KernelIdeal.Hand Cert.KernelIdeal.Val Cert.ReferenceIdeal.RefRun in
theorem alg : Cert.algebraic_KernelIdeal_ReferenceIdeal (hKernelIdeal := Cert.KernelIdeal.Gen.facts) (hReferenceIdeal := Cert.ReferenceIdeal.Gen.facts)
    (hPre_finite_inputs := Cert.Pre_finite_inputs.Gen.facts) := by
  intro m g m' g' hpre hagree
  refine ⟨fun c => W6 (F := Ideal) m g c (Proc.devRef .tc Cert.KernelIdeal.main_v51), ?_, ?_⟩
  · exact (θ_run _ _ _).mono (fun r h c => ⟨h c _ (mem_uc Cert.KernelIdeal.main_v51 (by decide)),
      (h c _ (mem_uc Cert.KernelIdeal.main_arg0 (by decide))).trans (kept_arg0 m g c),
      (h c _ (mem_uc Cert.KernelIdeal.main_arg1 (by decide))).trans (kept_arg1 m g c),
      (h c _ (mem_uc Cert.KernelIdeal.main_arg2 (by decide))).trans (kept_arg2 m g c),
      (h c _ (mem_uc Cert.KernelIdeal.main_arg3 (by decide))).trans (kept_arg3 m g c),
      (h c _ (mem_uc Cert.KernelIdeal.main_arg4 (by decide))).trans (kept_arg4 m g c),
      (h c _ (mem_uc Cert.KernelIdeal.main_arg5 (by decide))).trans (kept_arg5 m g c),
      (h c _ (mem_uc Cert.KernelIdeal.main_arg6 (by decide))).trans (kept_arg6 m g c),
      (h c _ (mem_uc Cert.KernelIdeal.main_arg7 (by decide))).trans (kept_arg7 m g c),
      (h c _ (mem_uc Cert.KernelIdeal.main_arg8 (by decide))).trans (kept_arg8 m g c),
      (h c _ (mem_uc Cert.KernelIdeal.main_arg9 (by decide))).trans (kept_arg9 m g c),
      (h c _ (mem_uc Cert.KernelIdeal.main_arg10 (by decide))).trans (kept_arg10 m g c),
      (h c _ (mem_uc Cert.KernelIdeal.main_arg11 (by decide))).trans (kept_arg11 m g c),
      (h c _ (mem_uc Cert.KernelIdeal.main_arg12 (by decide))).trans (kept_arg12 m g c)⟩)
      (run_all (F := Ideal) m g)
  · refine (θ_run _ _ _).mono (fun r h c => ⟨?_,
      (h c Cert.ReferenceIdeal.main_arg0).trans (rd_arg0 (StableHlo.launchContents m' c)),
      (h c Cert.ReferenceIdeal.main_arg1).trans (rd_arg1 (StableHlo.launchContents m' c)),
      (h c Cert.ReferenceIdeal.main_arg2).trans (rd_arg2 (StableHlo.launchContents m' c)),
      (h c Cert.ReferenceIdeal.main_arg3).trans (rd_arg3 (StableHlo.launchContents m' c)),
      (h c Cert.ReferenceIdeal.main_arg4).trans (rd_arg4 (StableHlo.launchContents m' c)),
      (h c Cert.ReferenceIdeal.main_arg5).trans (rd_arg5 (StableHlo.launchContents m' c)),
      (h c Cert.ReferenceIdeal.main_arg6).trans (rd_arg6 (StableHlo.launchContents m' c)),
      (h c Cert.ReferenceIdeal.main_arg7).trans (rd_arg7 (StableHlo.launchContents m' c)),
      (h c Cert.ReferenceIdeal.main_arg8).trans (rd_arg8 (StableHlo.launchContents m' c)),
      (h c Cert.ReferenceIdeal.main_arg9).trans (rd_arg9 (StableHlo.launchContents m' c)),
      (h c Cert.ReferenceIdeal.main_arg10).trans (rd_arg10 (StableHlo.launchContents m' c)),
      (h c Cert.ReferenceIdeal.main_arg11).trans (rd_arg11 (StableHlo.launchContents m' c)),
      (h c Cert.ReferenceIdeal.main_arg12).trans (rd_arg12 (StableHlo.launchContents m' c))⟩)
      (run (F := Ideal) m' g')
    refine (h c Cert.ReferenceIdeal.main_v69).trans ?_
    obtain ⟨e0, e1, e2, e3, e4, e5, e6, e7, e8, e9, e10, e11, e12⟩ := hagree c
    obtain ⟨r0, r2, r3, r4, r5, r6, r7, r8, r9, r10, r11, r12⟩ := Cert.Pre_finite_inputs.pre_real _ _ _ _ _ _ _ _ _ _ _ _ _ (hpre c)
    funext j
    obtain ⟨i, k, rfl⟩ : ∃ (i : Fin 100000) (k : Fin 64), j = ix2 i k := ⟨j 0, j 1, eq_ix2 j⟩
    refine (ref_value (StableHlo.launchContents m' c) i k).trans ?_
    refine Eq.trans ?_ (kernel_value m g c i k).symm
    have q0 : StableHlo.launchContents m' c (Proc.devRef .tc Cert.ReferenceIdeal.main_arg0)
        = m ((c.tc : Thread Cert.KernelIdeal.nD Cert.KernelIdeal.τ).loc Cert.KernelIdeal.main_arg0) := e0
    have q1 : StableHlo.launchContents m' c (Proc.devRef .tc Cert.ReferenceIdeal.main_arg1)
        = m ((c.tc : Thread Cert.KernelIdeal.nD Cert.KernelIdeal.τ).loc Cert.KernelIdeal.main_arg1) := e1
    have q2 : StableHlo.launchContents m' c (Proc.devRef .tc Cert.ReferenceIdeal.main_arg2)
        = m ((c.tc : Thread Cert.KernelIdeal.nD Cert.KernelIdeal.τ).loc Cert.KernelIdeal.main_arg2) := e2
    have q3 : StableHlo.launchContents m' c (Proc.devRef .tc Cert.ReferenceIdeal.main_arg3)
        = m ((c.tc : Thread Cert.KernelIdeal.nD Cert.KernelIdeal.τ).loc Cert.KernelIdeal.main_arg3) := e3
    have q4 : StableHlo.launchContents m' c (Proc.devRef .tc Cert.ReferenceIdeal.main_arg4)
        = m ((c.tc : Thread Cert.KernelIdeal.nD Cert.KernelIdeal.τ).loc Cert.KernelIdeal.main_arg4) := e4
    have q5 : StableHlo.launchContents m' c (Proc.devRef .tc Cert.ReferenceIdeal.main_arg5)
        = m ((c.tc : Thread Cert.KernelIdeal.nD Cert.KernelIdeal.τ).loc Cert.KernelIdeal.main_arg5) := e5
    have q6 : StableHlo.launchContents m' c (Proc.devRef .tc Cert.ReferenceIdeal.main_arg6)
        = m ((c.tc : Thread Cert.KernelIdeal.nD Cert.KernelIdeal.τ).loc Cert.KernelIdeal.main_arg6) := e6
    have q7 : StableHlo.launchContents m' c (Proc.devRef .tc Cert.ReferenceIdeal.main_arg7)
        = m ((c.tc : Thread Cert.KernelIdeal.nD Cert.KernelIdeal.τ).loc Cert.KernelIdeal.main_arg7) := e7
    have q8 : StableHlo.launchContents m' c (Proc.devRef .tc Cert.ReferenceIdeal.main_arg8)
        = m ((c.tc : Thread Cert.KernelIdeal.nD Cert.KernelIdeal.τ).loc Cert.KernelIdeal.main_arg8) := e8
    have q9 : StableHlo.launchContents m' c (Proc.devRef .tc Cert.ReferenceIdeal.main_arg9)
        = m ((c.tc : Thread Cert.KernelIdeal.nD Cert.KernelIdeal.τ).loc Cert.KernelIdeal.main_arg9) := e9
    have q10 : StableHlo.launchContents m' c (Proc.devRef .tc Cert.ReferenceIdeal.main_arg10)
        = m ((c.tc : Thread Cert.KernelIdeal.nD Cert.KernelIdeal.τ).loc Cert.KernelIdeal.main_arg10) := e10
    have q11 : StableHlo.launchContents m' c (Proc.devRef .tc Cert.ReferenceIdeal.main_arg11)
        = m ((c.tc : Thread Cert.KernelIdeal.nD Cert.KernelIdeal.τ).loc Cert.KernelIdeal.main_arg11) := e11
    have q12 : StableHlo.launchContents m' c (Proc.devRef .tc Cert.ReferenceIdeal.main_arg12)
        = m ((c.tc : Thread Cert.KernelIdeal.nD Cert.KernelIdeal.τ).loc Cert.KernelIdeal.main_arg12) := e12
    rw [q0, q1, q2, q3, q4, q5, q6, q7, q8, q9, q10, q11, q12, agg_same]
    exact (congrFun (congrFun (Cert.Spec.kOut_eq_rOut r0 (agg_real _ _ r0) r2 r3 r4 r5 r6 r7 r8 r9 r10 r11 r12) i) k).symm

theorem claim : Cert.Claim := ⟨Cert.Kernel.Gen.facts, Cert.KernelIdeal.Gen.facts, Cert.ReferenceIdeal.Gen.facts, Cert.Pre_finite_inputs.Gen.facts,
  frameK, frameKI, frameR, trivial, alg⟩

end Cert.Proof

end
